-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v179)) (v1 : (c : Dev Cert.KernelIdeal.nD) → Buf (Elt Ideal) ((c.tc : Thread Cert.KernelIdeal.nD Cert.KernelIdeal.τ).loc Cert.KernelIdeal.main_v185)) (v2 : (c : Dev Cert.KernelIdeal.nD) → Buf (Elt Ideal) ((c.tc : Thread Cert.KernelIdeal.nD Cert.KernelIdeal.τ).loc Cert.KernelIdeal.main_v189)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v179) = v0 c
          ∧ r.2.mem ((c.tc : Thread Cert.KernelIdeal.nD Cert.KernelIdeal.τ).loc Cert.KernelIdeal.main_v185) = v1 c
          ∧ r.2.mem ((c.tc : Thread Cert.KernelIdeal.nD Cert.KernelIdeal.τ).loc Cert.KernelIdeal.main_v189) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v294) = v0 c
          ∧ r.2.mem ((c.tc : Thread Cert.ReferenceIdeal.nD Cert.ReferenceIdeal.τ).loc Cert.ReferenceIdeal.main_v300) = v1 c
          ∧ r.2.mem ((c.tc : Thread Cert.ReferenceIdeal.nD Cert.ReferenceIdeal.τ).loc Cert.ReferenceIdeal.main_v304) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000 : S_.BroadcastsInDim S100000 (![] : Fin 0 → Fin S100000.rank)
  reducesTo_S100000_S_d0 : S100000.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S3x128 .f32) (main_arg14 : FVec F S128x2 .f32) (main_arg15 : FVec F S2 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3x128 .f32 := Host.absf main_arg13
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S128x2 .f32 := Host.absf main_arg14
  let main_cst_22 : FVec F S_ .f32 := constant S_ .f32 0x7F800000#32
  let main_v60 : FVec F S128x2 .f32 := broadcastInDim S128x2 ![] bcast_S_S128x2 main_cst_22
  let main_v61 : IVec S128x2 1 := cmpf .olt main_v59 main_v60
  let main_c_23 : IVec S_ 1 := constantI S_ 1 1#1
  let main_v62 : IVec S_ 1 := (fun x v => Host.reduce IntOp.andi x v reducesTo_S128x2_S_d0_1 h_S_) main_v61 main_c_23
  let main_v63 : IVec S_ 1 := andi main_v58 main_v62
  let main_v64 : FVec F S2 .f32 := Host.absf main_arg15
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_v63 main_v67

def fn_part2 {F : FTy → Type} [FloatOps F] (main_arg9 : FVec F S3x128 .f32) (main_arg10 : FVec F S3x128 .f32) (main_arg11 : FVec F S3x128 .f32) (main_arg12 : FVec F S3x128 .f32) (main_arg13 : FVec F S3x128 .f32) (main_arg14 : FVec F S128x2 .f32) (main_arg15 : FVec F S2 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128 .f32 := Host.absf main_arg11
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3x128 .f32 := Host.absf main_arg12
  let main_cst_18 : FVec F S_ .f32 := constant S_ .f32 0x7F800000#32
  let main_v50 : FVec F S3x128 .f32 := broadcastInDim S3x128 ![] bcast_S_S3x128 main_cst_18
  fn_part3 (F := F) main_arg13 main_arg14 main_arg15 main_v48 main_v49 main_v50

def fn_part1 {F : FTy → Type} [FloatOps F] (main_arg6 : FVec F S3x128 .f32) (main_arg7 : FVec F S3x128 .f32) (main_arg8 : FVec F S3x128x128 .f32) (main_arg9 : FVec F S3x128 .f32) (main_arg10 : FVec F S3x128 .f32) (main_arg11 : FVec F S3x128 .f32) (main_arg12 : FVec F S3x128 .f32) (main_arg13 : FVec F S3x128 .f32) (main_arg14 : FVec F S128x2 .f32) (main_arg15 : FVec F S2 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128x128 .f32 := Host.absf main_arg8
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x128 .f32) (main_arg1 : IVec S2x1600000 32) (main_arg2 : FVec F S100000 .f32) (main_arg3 : IVec S100000 32) (main_arg4 : FVec F S3x128x128 .f32) (main_arg5 : FVec F S3x128 .f32) (main_arg6 : FVec F S3x128 .f32) (main_arg7 : FVec F S3x128 .f32) (main_arg8 : FVec F S3x128x128 .f32) (main_arg9 : FVec F S3x128 .f32) (main_arg10 : FVec F S3x128 .f32) (main_arg11 : FVec F S3x128 .f32) (main_arg12 : FVec F S3x128 .f32) (main_arg13 : FVec F S3x128 .f32) (main_arg14 : FVec F S128x2 .f32) (main_arg15 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000 .f32 := Host.absf main_arg2
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S5000x128 : Shape := ⟨2, ![5000, 128]⟩
abbrev S100000x1 : Shape := ⟨2, ![100000, 1]⟩
abbrev S1x2 : Shape := ⟨2, ![1, 2]⟩

abbrev nBuf : Space → Nat
  | .hbm => 363
  | .vmem => 90
  | .smem => 0
  | _ => 0

abbrev hbmTy0_0 (i : Nat) : BufTy := match i % 128 with
  | 0 => ⟨S100000x128, .f32⟩
  | 1 => ⟨S2x1600000, .i32⟩
  | 2 => ⟨S100000, .f32⟩
  | 3 => ⟨S100000, .i32⟩
  | 4 => ⟨S3x128x128, .f32⟩
  | 5 => ⟨S3x128, .f32⟩
  | 6 => ⟨S3x128, .f32⟩
  | 7 => ⟨S3x128, .f32⟩
  | 8 => ⟨S3x128x128, .f32⟩
  | 9 => ⟨S3x128, .f32⟩
  | 10 => ⟨S3x128, .f32⟩
  | 11 => ⟨S3x128, .f32⟩
  | 12 => ⟨S3x128, .f32⟩
  | 13 => ⟨S3x128, .f32⟩
  | 14 => ⟨S128x2, .f32⟩
  | 15 => ⟨S2, .f32⟩
  | 16 => ⟨S1x1600000, .i32⟩
  | 17 => ⟨S1600000, .i32⟩
  | 18 => ⟨S1x1600000, .i32⟩
  | 19 => ⟨S1600000, .i32⟩
  | 20 => ⟨S3x128x128, .bf16⟩
  | 21 => ⟨S3x128x128, .bf16⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S1x128, .f32⟩
  | 36 => ⟨S128, .f32⟩
  | 37 => ⟨S1x128, .f32⟩
  | 38 => ⟨S1x128x128, .bf16⟩
  | 39 => ⟨S128x128, .bf16⟩
  | 40 => ⟨S100000x128, .f32⟩
  | 41 => ⟨S_, .f32⟩
  | 42 => ⟨S128, .f32⟩
  | 43 => ⟨S_, .f32⟩
  | 44 => ⟨S128, .f32⟩
  | 45 => ⟨S128, .f32⟩
  | 46 => ⟨S1x128, .f32⟩
  | 47 => ⟨S_, .i32⟩
  | 48 => ⟨S_, .f32⟩
  | 49 => ⟨S128, .f32⟩
  | 50 => ⟨S1x128, .f32⟩
  | 51 => ⟨S_, .f32⟩
  | 52 => ⟨S1x128, .f32⟩
  | 53 => ⟨S1x128, .f32⟩
  | 54 => ⟨S100000x128, .f32⟩
  | 55 => ⟨S100000x128, .f32⟩
  | 56 => ⟨S100000x128, .f32⟩
  | 57 => ⟨S_, .f32⟩
  | 58 => ⟨S_, .f32⟩
  | 59 => ⟨S_, .f32⟩
  | 60 => ⟨S_, .f32⟩
  | 61 => ⟨S128, .f32⟩
  | 62 => ⟨S128, .f32⟩
  | 63 => ⟨S128, .f32⟩
  | 64 => ⟨S_, .f32⟩
  | 65 => ⟨S_, .i1⟩
  | 66 => ⟨S_, .f32⟩
  | 67 => ⟨S_, .f32⟩
  | 68 => ⟨S128, .f32⟩
  | 69 => ⟨S128, .f32⟩
  | 70 => ⟨S1x128, .f32⟩
  | 71 => ⟨S1x128, .f32⟩
  | 72 => ⟨S128, .f32⟩
  | 73 => ⟨S1x128, .f32⟩
  | 74 => ⟨S1x128, .f32⟩
  | 75 => ⟨S128, .f32⟩
  | 76 => ⟨S1x128, .f32⟩
  | 77 => ⟨S1x128, .f32⟩
  | 78 => ⟨S128, .f32⟩
  | 79 => ⟨S1x128, .f32⟩
  | 80 => ⟨S1x128x128, .bf16⟩
  | 81 => ⟨S128x128, .bf16⟩
  | 82 => ⟨S100000x128, .f32⟩
  | 83 => ⟨S_, .f32⟩
  | 84 => ⟨S128, .f32⟩
  | 85 => ⟨S_, .f32⟩
  | 86 => ⟨S128, .f32⟩
  | 87 => ⟨S128, .f32⟩
  | 88 => ⟨S1x128, .f32⟩
  | 89 => ⟨S_, .i32⟩
  | 90 => ⟨S_, .f32⟩
  | 91 => ⟨S128, .f32⟩
  | 92 => ⟨S1x128, .f32⟩
  | 93 => ⟨S_, .f32⟩
  | 94 => ⟨S1x128, .f32⟩
  | 95 => ⟨S1x128, .f32⟩
  | 96 => ⟨S100000x128, .f32⟩
  | 97 => ⟨S100000x128, .f32⟩
  | 98 => ⟨S100000x128, .f32⟩
  | 99 => ⟨S_, .f32⟩
  | 100 => ⟨S_, .f32⟩
  | 101 => ⟨S_, .f32⟩
  | 102 => ⟨S_, .f32⟩
  | 103 => ⟨S128, .f32⟩
  | 104 => ⟨S128, .f32⟩
  | 105 => ⟨S128, .f32⟩
  | 106 => ⟨S_, .f32⟩
  | 107 => ⟨S_, .i1⟩
  | 108 => ⟨S_, .f32⟩
  | 109 => ⟨S_, .f32⟩
  | 110 => ⟨S128, .f32⟩
  | 111 => ⟨S128, .f32⟩
  | 112 => ⟨S1x128, .f32⟩
  | 113 => ⟨S1x128, .f32⟩
  | 114 => ⟨S128, .f32⟩
  | 115 => ⟨S1x128, .f32⟩
  | 116 => ⟨S1x128, .f32⟩
  | 117 => ⟨S128, .f32⟩
  | 118 => ⟨S1x128, .f32⟩
  | 119 => ⟨S1x128, .f32⟩
  | 120 => ⟨S128, .f32⟩
  | 121 => ⟨S1x128, .f32⟩
  | 122 => ⟨S1x128, .f32⟩
  | 123 => ⟨S128, .f32⟩
  | 124 => ⟨S1x128, .f32⟩
  | 125 => ⟨S1x128, .f32⟩
  | 126 => ⟨S1x128, .f32⟩
  | 127 => ⟨S_, .f32⟩
  | _ => ⟨S100000x128, .f32⟩

abbrev hbmTy0_1 (i : Nat) : BufTy := match i % 128 with
  | 0 => ⟨S1x128, .f32⟩
  | 1 => ⟨S1x128, .f32⟩
  | 2 => ⟨S1x128, .f32⟩
  | 3 => ⟨S100000x128, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000x128, .f32⟩
  | 13 => ⟨S_, .f32⟩
  | 14 => ⟨S100000x128, .f32⟩
  | 15 => ⟨S1600000x1, .i32⟩
  | 16 => ⟨S100000x128, .f32⟩
  | 17 => ⟨S1x128, .f32⟩
  | 18 => ⟨S128, .f32⟩
  | 19 => ⟨S1x128, .f32⟩
  | 20 => ⟨S1x128x128, .bf16⟩
  | 21 => ⟨S128x128, .bf16⟩
  | 22 => ⟨S100000x128, .f32⟩
  | 23 => ⟨S_, .f32⟩
  | 24 => ⟨S128, .f32⟩
  | 25 => ⟨S_, .f32⟩
  | 26 => ⟨S128, .f32⟩
  | 27 => ⟨S128, .f32⟩
  | 28 => ⟨S1x128, .f32⟩
  | 29 => ⟨S_, .i32⟩
  | 30 => ⟨S_, .f32⟩
  | 31 => ⟨S128, .f32⟩
  | 32 => ⟨S1x128, .f32⟩
  | 33 => ⟨S_, .f32⟩
  | 34 => ⟨S1x128, .f32⟩
  | 35 => ⟨S1x128, .f32⟩
  | 36 => ⟨S100000x128, .f32⟩
  | 37 => ⟨S100000x128, .f32⟩
  | 38 => ⟨S100000x128, .f32⟩
  | 39 => ⟨S_, .f32⟩
  | 40 => ⟨S_, .f32⟩
  | 41 => ⟨S_, .f32⟩
  | 42 => ⟨S_, .f32⟩
  | 43 => ⟨S128, .f32⟩
  | 44 => ⟨S128, .f32⟩
  | 45 => ⟨S128, .f32⟩
  | 46 => ⟨S_, .f32⟩
  | 47 => ⟨S_, .i1⟩
  | 48 => ⟨S_, .f32⟩
  | 49 => ⟨S_, .f32⟩
  | 50 => ⟨S128, .f32⟩
  | 51 => ⟨S128, .f32⟩
  | 52 => ⟨S1x128, .f32⟩
  | 53 => ⟨S1x128, .f32⟩
  | 54 => ⟨S128, .f32⟩
  | 55 => ⟨S1x128, .f32⟩
  | 56 => ⟨S1x128, .f32⟩
  | 57 => ⟨S128, .f32⟩
  | 58 => ⟨S1x128, .f32⟩
  | 59 => ⟨S1x128, .f32⟩
  | 60 => ⟨S128, .f32⟩
  | 61 => ⟨S1x128, .f32⟩
  | 62 => ⟨S1x128x128, .bf16⟩
  | 63 => ⟨S128x128, .bf16⟩
  | 64 => ⟨S100000x128, .f32⟩
  | 65 => ⟨S_, .f32⟩
  | 66 => ⟨S128, .f32⟩
  | 67 => ⟨S_, .f32⟩
  | 68 => ⟨S128, .f32⟩
  | 69 => ⟨S128, .f32⟩
  | 70 => ⟨S1x128, .f32⟩
  | 71 => ⟨S_, .i32⟩
  | 72 => ⟨S_, .f32⟩
  | 73 => ⟨S128, .f32⟩
  | 74 => ⟨S1x128, .f32⟩
  | 75 => ⟨S_, .f32⟩
  | 76 => ⟨S1x128, .f32⟩
  | 77 => ⟨S1x128, .f32⟩
  | 78 => ⟨S100000x128, .f32⟩
  | 79 => ⟨S100000x128, .f32⟩
  | 80 => ⟨S100000x128, .f32⟩
  | 81 => ⟨S_, .f32⟩
  | 82 => ⟨S_, .f32⟩
  | 83 => ⟨S_, .f32⟩
  | 84 => ⟨S_, .f32⟩
  | 85 => ⟨S128, .f32⟩
  | 86 => ⟨S128, .f32⟩
  | 87 => ⟨S128, .f32⟩
  | 88 => ⟨S_, .f32⟩
  | 89 => ⟨S_, .i1⟩
  | 90 => ⟨S_, .f32⟩
  | 91 => ⟨S_, .f32⟩
  | 92 => ⟨S128, .f32⟩
  | 93 => ⟨S128, .f32⟩
  | 94 => ⟨S1x128, .f32⟩
  | 95 => ⟨S1x128, .f32⟩
  | 96 => ⟨S128, .f32⟩
  | 97 => ⟨S1x128, .f32⟩
  | 98 => ⟨S1x128, .f32⟩
  | 99 => ⟨S128, .f32⟩
  | 100 => ⟨S1x128, .f32⟩
  | 101 => ⟨S1x128, .f32⟩
  | 102 => ⟨S128, .f32⟩
  | 103 => ⟨S1x128, .f32⟩
  | 104 => ⟨S1x128, .f32⟩
  | 105 => ⟨S128, .f32⟩
  | 106 => ⟨S1x128, .f32⟩
  | 107 => ⟨S1x128, .f32⟩
  | 108 => ⟨S1x128, .f32⟩
  | 109 => ⟨S_, .f32⟩
  | 110 => ⟨S1x128, .f32⟩
  | 111 => ⟨S1x128, .f32⟩
  | 112 => ⟨S1x128, .f32⟩
  | 113 => ⟨S100000x128, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x128, .f32⟩
  | 123 => ⟨S_, .f32⟩
  | 124 => ⟨S100000x128, .f32⟩
  | 125 => ⟨S1600000x1, .i32⟩
  | 126 => ⟨S100000x128, .f32⟩
  | 127 => ⟨S1x128, .f32⟩
  | _ => ⟨S100000x128, .f32⟩

abbrev hbmTy0_2 (i : Nat) : BufTy := match i % 128 with
  | 0 => ⟨S128, .f32⟩
  | 1 => ⟨S1x128, .f32⟩
  | 2 => ⟨S1x128x128, .bf16⟩
  | 3 => ⟨S128x128, .bf16⟩
  | 4 => ⟨S100000x128, .f32⟩
  | 5 => ⟨S_, .f32⟩
  | 6 => ⟨S128, .f32⟩
  | 7 => ⟨S_, .f32⟩
  | 8 => ⟨S128, .f32⟩
  | 9 => ⟨S128, .f32⟩
  | 10 => ⟨S1x128, .f32⟩
  | 11 => ⟨S_, .i32⟩
  | 12 => ⟨S_, .f32⟩
  | 13 => ⟨S128, .f32⟩
  | 14 => ⟨S1x128, .f32⟩
  | 15 => ⟨S_, .f32⟩
  | 16 => ⟨S1x128, .f32⟩
  | 17 => ⟨S1x128, .f32⟩
  | 18 => ⟨S100000x128, .f32⟩
  | 19 => ⟨S100000x128, .f32⟩
  | 20 => ⟨S100000x128, .f32⟩
  | 21 => ⟨S_, .f32⟩
  | 22 => ⟨S_, .f32⟩
  | 23 => ⟨S_, .f32⟩
  | 24 => ⟨S_, .f32⟩
  | 25 => ⟨S128, .f32⟩
  | 26 => ⟨S128, .f32⟩
  | 27 => ⟨S128, .f32⟩
  | 28 => ⟨S_, .f32⟩
  | 29 => ⟨S_, .i1⟩
  | 30 => ⟨S_, .f32⟩
  | 31 => ⟨S_, .f32⟩
  | 32 => ⟨S128, .f32⟩
  | 33 => ⟨S128, .f32⟩
  | 34 => ⟨S1x128, .f32⟩
  | 35 => ⟨S1x128, .f32⟩
  | 36 => ⟨S128, .f32⟩
  | 37 => ⟨S1x128, .f32⟩
  | 38 => ⟨S1x128, .f32⟩
  | 39 => ⟨S128, .f32⟩
  | 40 => ⟨S1x128, .f32⟩
  | 41 => ⟨S1x128, .f32⟩
  | 42 => ⟨S128, .f32⟩
  | 43 => ⟨S1x128, .f32⟩
  | 44 => ⟨S1x128x128, .bf16⟩
  | 45 => ⟨S128x128, .bf16⟩
  | 46 => ⟨S100000x128, .f32⟩
  | 47 => ⟨S_, .f32⟩
  | 48 => ⟨S128, .f32⟩
  | 49 => ⟨S_, .f32⟩
  | 50 => ⟨S128, .f32⟩
  | 51 => ⟨S128, .f32⟩
  | 52 => ⟨S1x128, .f32⟩
  | 53 => ⟨S_, .i32⟩
  | 54 => ⟨S_, .f32⟩
  | 55 => ⟨S128, .f32⟩
  | 56 => ⟨S1x128, .f32⟩
  | 57 => ⟨S_, .f32⟩
  | 58 => ⟨S1x128, .f32⟩
  | 59 => ⟨S1x128, .f32⟩
  | 60 => ⟨S100000x128, .f32⟩
  | 61 => ⟨S100000x128, .f32⟩
  | 62 => ⟨S100000x128, .f32⟩
  | 63 => ⟨S_, .f32⟩
  | 64 => ⟨S_, .f32⟩
  | 65 => ⟨S_, .f32⟩
  | 66 => ⟨S_, .f32⟩
  | 67 => ⟨S128, .f32⟩
  | 68 => ⟨S128, .f32⟩
  | 69 => ⟨S128, .f32⟩
  | 70 => ⟨S_, .f32⟩
  | 71 => ⟨S_, .i1⟩
  | 72 => ⟨S_, .f32⟩
  | 73 => ⟨S_, .f32⟩
  | 74 => ⟨S128, .f32⟩
  | 75 => ⟨S128, .f32⟩
  | 76 => ⟨S1x128, .f32⟩
  | 77 => ⟨S1x128, .f32⟩
  | 78 => ⟨S128, .f32⟩
  | 79 => ⟨S1x128, .f32⟩
  | 80 => ⟨S1x128, .f32⟩
  | 81 => ⟨S128, .f32⟩
  | 82 => ⟨S1x128, .f32⟩
  | 83 => ⟨S1x128, .f32⟩
  | 84 => ⟨S128, .f32⟩
  | 85 => ⟨S1x128, .f32⟩
  | 86 => ⟨S1x128, .f32⟩
  | 87 => ⟨S128, .f32⟩
  | 88 => ⟨S1x128, .f32⟩
  | 89 => ⟨S1x128, .f32⟩
  | 90 => ⟨S1x128, .f32⟩
  | 91 => ⟨S_, .f32⟩
  | 92 => ⟨S1x128, .f32⟩
  | 93 => ⟨S1x128, .f32⟩
  | 94 => ⟨S1x128, .f32⟩
  | 95 => ⟨S100000x128, .f32⟩
  | 96 => ⟨S100000x1, .f32⟩
  | 97 => ⟨S100000x128, .f32⟩
  | 98 => ⟨S100000x128, .f32⟩
  | 99 => ⟨S_, .f32⟩
  | 100 => ⟨S128x128, .f32⟩
  | 101 => ⟨S100000x1, .i32⟩
  | 102 => ⟨S128x128, .f32⟩
  | 103 => ⟨S128x2, .f32⟩
  | 104 => ⟨S1x2, .f32⟩
  | 105 => ⟨S128x2, .f32⟩
  | 106 => ⟨S128x2, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x128, .bf16⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .bf16⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S128x128, .bf16⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S128x128, .bf16⟩
  | .local _ .vmem, ⟨65, _⟩ => ⟨S1x128, .f32⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S1x128, .f32⟩
  | .local _ .vmem, ⟨71, _⟩ => ⟨S1x128, .f32⟩
  | .local _ .vmem, ⟨72, _⟩ => ⟨S1x128, .f32⟩
  | .local _ .vmem, ⟨73, _⟩ => ⟨S1x128, .f32⟩
  | .local _ .vmem, ⟨74, _⟩ => ⟨S128x128, .bf16⟩
  | .local _ .vmem, ⟨75, _⟩ => ⟨S1x128, .f32⟩
  | .local _ .vmem, ⟨76, _⟩ => ⟨S5000x128, .f32⟩
  | .local _ .vmem, ⟨77, _⟩ => ⟨S5000x128, .f32⟩
  | .local _ .vmem, ⟨78, _⟩ => ⟨S5000x128, .f32⟩
  | .local _ .vmem, ⟨79, _⟩ => ⟨S5000x128, .f32⟩
  | .local _ .vmem, ⟨80, _⟩ => ⟨S1x128, .f32⟩
  | .local _ .vmem, ⟨81, _⟩ => ⟨S1x128, .f32⟩
  | .local _ .vmem, ⟨82, _⟩ => ⟨S1x128, .f32⟩
  | .local _ .vmem, ⟨83, _⟩ => ⟨S1x128, .f32⟩
  | .local _ .vmem, ⟨84, _⟩ => ⟨S1x128, .f32⟩
  | .local _ .vmem, ⟨85, _⟩ => ⟨S1x128, .f32⟩
  | .local _ .vmem, ⟨86, _⟩ => ⟨S1x128, .f32⟩
  | .local _ .vmem, ⟨87, _⟩ => ⟨S1x128, .f32⟩
  | .local _ .vmem, ⟨88, _⟩ => ⟨S5000x128, .f32⟩
  | .local _ .vmem, ⟨89, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c : Ref sig .tc := ⟨.hbm, 22, rfl⟩
abbrev main_v6 : Ref sig .tc := ⟨.hbm, 23, rfl⟩
abbrev main_v7 : Ref sig .tc := ⟨.hbm, 24, rfl⟩
abbrev main_c_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_1 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_3 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_cst_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_cst_1 : Ref sig .tc := ⟨.hbm, 58, rfl⟩
abbrev main_call0_v8 : Ref sig .tc := ⟨.hbm, 59, rfl⟩
abbrev main_call0_cst_2 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_cst_3 : Ref sig .tc := ⟨.hbm, 64, rfl⟩
abbrev main_call0_v12 : Ref sig .tc := ⟨.hbm, 65, rfl⟩
abbrev main_call0_cst_4 : Ref sig .tc := ⟨.hbm, 66, rfl⟩
abbrev main_call0_call0_v0 : Ref sig .tc := ⟨.hbm, 67, rfl⟩
abbrev main_call0_call0_v1 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_4 : Ref sig .tc := ⟨.hbm, 83, rfl⟩
abbrev main_v40 : Ref sig .tc := ⟨.hbm, 84, rfl⟩
abbrev main_cst_5 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_c_6 : Ref sig .tc := ⟨.hbm, 89, rfl⟩
abbrev main_call1_cst : Ref sig .tc := ⟨.hbm, 90, rfl⟩
abbrev main_call1_v0 : Ref sig .tc := ⟨.hbm, 91, rfl⟩
abbrev main_call1_v1 : Ref sig .tc := ⟨.hbm, 92, rfl⟩
abbrev main_call1_cst_0 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_call1_v5 : Ref sig .tc := ⟨.hbm, 97, rfl⟩
abbrev main_call1_v6 : Ref sig .tc := ⟨.hbm, 98, rfl⟩
abbrev main_call1_v7 : Ref sig .tc := ⟨.hbm, 99, rfl⟩
abbrev main_call1_cst_1 : Ref sig .tc := ⟨.hbm, 100, rfl⟩
abbrev main_call1_v8 : Ref sig .tc := ⟨.hbm, 101, rfl⟩
abbrev main_call1_cst_2 : Ref sig .tc := ⟨.hbm, 102, rfl⟩
abbrev main_call1_v9 : Ref sig .tc := ⟨.hbm, 103, rfl⟩
abbrev main_call1_v10 : Ref sig .tc := ⟨.hbm, 104, rfl⟩
abbrev main_call1_v11 : Ref sig .tc := ⟨.hbm, 105, rfl⟩
abbrev main_call1_cst_3 : Ref sig .tc := ⟨.hbm, 106, rfl⟩
abbrev main_call1_v12 : Ref sig .tc := ⟨.hbm, 107, rfl⟩
abbrev main_call1_cst_4 : Ref sig .tc := ⟨.hbm, 108, rfl⟩
abbrev main_call1_call0_v0 : Ref sig .tc := ⟨.hbm, 109, rfl⟩
abbrev main_call1_call0_v1 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_cst_7 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_c_8 : Ref sig .tc := ⟨.hbm, 132, rfl⟩
abbrev main_v64 : Ref sig .tc := ⟨.hbm, 133, rfl⟩
abbrev main_v65 : Ref sig .tc := ⟨.hbm, 134, rfl⟩
abbrev main_c_9 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_cst_10 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_cst_11 : Ref sig .tc := ⟨.hbm, 151, rfl⟩
abbrev main_v80 : Ref sig .tc := ⟨.hbm, 152, rfl⟩
abbrev main_cst_12 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_c_13 : Ref sig .tc := ⟨.hbm, 157, rfl⟩
abbrev main_call2_cst : Ref sig .tc := ⟨.hbm, 158, rfl⟩
abbrev main_call2_v0 : Ref sig .tc := ⟨.hbm, 159, rfl⟩
abbrev main_call2_v1 : Ref sig .tc := ⟨.hbm, 160, rfl⟩
abbrev main_call2_cst_0 : Ref sig .tc := ⟨.hbm, 161, rfl⟩
abbrev main_call2_v2 : Ref sig .tc := ⟨.hbm, 162, rfl⟩
abbrev main_call2_v3 : Ref sig .tc := ⟨.hbm, 163, rfl⟩
abbrev main_call2_v4 : Ref sig .tc := ⟨.hbm, 164, rfl⟩
abbrev main_call2_v5 : Ref sig .tc := ⟨.hbm, 165, rfl⟩
abbrev main_call2_v6 : Ref sig .tc := ⟨.hbm, 166, rfl⟩
abbrev main_call2_v7 : Ref sig .tc := ⟨.hbm, 167, rfl⟩
abbrev main_call2_cst_1 : Ref sig .tc := ⟨.hbm, 168, rfl⟩
abbrev main_call2_v8 : Ref sig .tc := ⟨.hbm, 169, rfl⟩
abbrev main_call2_cst_2 : Ref sig .tc := ⟨.hbm, 170, rfl⟩
abbrev main_call2_v9 : Ref sig .tc := ⟨.hbm, 171, rfl⟩
abbrev main_call2_v10 : Ref sig .tc := ⟨.hbm, 172, rfl⟩
abbrev main_call2_v11 : Ref sig .tc := ⟨.hbm, 173, rfl⟩
abbrev main_call2_cst_3 : Ref sig .tc := ⟨.hbm, 174, rfl⟩
abbrev main_call2_v12 : Ref sig .tc := ⟨.hbm, 175, rfl⟩
abbrev main_call2_cst_4 : Ref sig .tc := ⟨.hbm, 176, rfl⟩
abbrev main_call2_call0_v0 : Ref sig .tc := ⟨.hbm, 177, rfl⟩
abbrev main_call2_call0_v1 : Ref sig .tc := ⟨.hbm, 178, rfl⟩
abbrev main_v84 : Ref sig .tc := ⟨.hbm, 179, rfl⟩
abbrev main_v85 : Ref sig .tc := ⟨.hbm, 180, rfl⟩
abbrev main_v86 : Ref sig .tc := ⟨.hbm, 181, rfl⟩
abbrev main_v87 : Ref sig .tc := ⟨.hbm, 182, rfl⟩
abbrev main_v88 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_cst_14 : Ref sig .tc := ⟨.hbm, 193, rfl⟩
abbrev main_v98 : Ref sig .tc := ⟨.hbm, 194, rfl⟩
abbrev main_cst_15 : Ref sig .tc := ⟨.hbm, 195, rfl⟩
abbrev main_v99 : Ref sig .tc := ⟨.hbm, 196, rfl⟩
abbrev main_v100 : Ref sig .tc := ⟨.hbm, 197, rfl⟩
abbrev main_v101 : Ref sig .tc := ⟨.hbm, 198, rfl⟩
abbrev main_c_16 : Ref sig .tc := ⟨.hbm, 199, rfl⟩
abbrev main_call3_cst : Ref sig .tc := ⟨.hbm, 200, rfl⟩
abbrev main_call3_v0 : Ref sig .tc := ⟨.hbm, 201, rfl⟩
abbrev main_call3_v1 : Ref sig .tc := ⟨.hbm, 202, rfl⟩
abbrev main_call3_cst_0 : Ref sig .tc := ⟨.hbm, 203, rfl⟩
abbrev main_call3_v2 : Ref sig .tc := ⟨.hbm, 204, rfl⟩
abbrev main_call3_v3 : Ref sig .tc := ⟨.hbm, 205, rfl⟩
abbrev main_call3_v4 : Ref sig .tc := ⟨.hbm, 206, rfl⟩
abbrev main_call3_v5 : Ref sig .tc := ⟨.hbm, 207, rfl⟩
abbrev main_call3_v6 : Ref sig .tc := ⟨.hbm, 208, rfl⟩
abbrev main_call3_v7 : Ref sig .tc := ⟨.hbm, 209, rfl⟩
abbrev main_call3_cst_1 : Ref sig .tc := ⟨.hbm, 210, rfl⟩
abbrev main_call3_v8 : Ref sig .tc := ⟨.hbm, 211, rfl⟩
abbrev main_call3_cst_2 : Ref sig .tc := ⟨.hbm, 212, rfl⟩
abbrev main_call3_v9 : Ref sig .tc := ⟨.hbm, 213, rfl⟩
abbrev main_call3_v10 : Ref sig .tc := ⟨.hbm, 214, rfl⟩
abbrev main_call3_v11 : Ref sig .tc := ⟨.hbm, 215, rfl⟩
abbrev main_call3_cst_3 : Ref sig .tc := ⟨.hbm, 216, rfl⟩
abbrev main_call3_v12 : Ref sig .tc := ⟨.hbm, 217, rfl⟩
abbrev main_call3_cst_4 : Ref sig .tc := ⟨.hbm, 218, rfl⟩
abbrev main_call3_call0_v0 : Ref sig .tc := ⟨.hbm, 219, rfl⟩
abbrev main_call3_call0_v1 : Ref sig .tc := ⟨.hbm, 220, rfl⟩
abbrev main_v102 : Ref sig .tc := ⟨.hbm, 221, rfl⟩
abbrev main_v103 : Ref sig .tc := ⟨.hbm, 222, rfl⟩
abbrev main_v104 : Ref sig .tc := ⟨.hbm, 223, rfl⟩
abbrev main_v105 : Ref sig .tc := ⟨.hbm, 224, rfl⟩
abbrev main_v106 : Ref sig .tc := ⟨.hbm, 225, rfl⟩
abbrev main_v107 : Ref sig .tc := ⟨.hbm, 226, rfl⟩
abbrev main_v108 : Ref sig .tc := ⟨.hbm, 227, rfl⟩
abbrev main_v109 : Ref sig .tc := ⟨.hbm, 228, rfl⟩
abbrev main_v110 : Ref sig .tc := ⟨.hbm, 229, rfl⟩
abbrev main_v111 : Ref sig .tc := ⟨.hbm, 230, rfl⟩
abbrev main_v112 : Ref sig .tc := ⟨.hbm, 231, rfl⟩
abbrev main_v113 : Ref sig .tc := ⟨.hbm, 232, rfl⟩
abbrev main_v114 : Ref sig .tc := ⟨.hbm, 233, rfl⟩
abbrev main_v115 : Ref sig .tc := ⟨.hbm, 234, rfl⟩
abbrev main_v116 : Ref sig .tc := ⟨.hbm, 235, rfl⟩
abbrev main_v117 : Ref sig .tc := ⟨.hbm, 236, rfl⟩
abbrev main_cst_17 : Ref sig .tc := ⟨.hbm, 237, rfl⟩
abbrev main_v118 : Ref sig .tc := ⟨.hbm, 238, rfl⟩
abbrev main_v119 : Ref sig .tc := ⟨.hbm, 239, rfl⟩
abbrev main_v120 : Ref sig .tc := ⟨.hbm, 240, rfl⟩
abbrev main_v121 : Ref sig .tc := ⟨.hbm, 241, rfl⟩
abbrev main_c_18 : Ref sig .tc := ⟨.hbm, 242, rfl⟩
abbrev main_v122 : Ref sig .tc := ⟨.hbm, 243, rfl⟩
abbrev main_v123 : Ref sig .tc := ⟨.hbm, 244, rfl⟩
abbrev main_c_19 : Ref sig .tc := ⟨.hbm, 245, rfl⟩
abbrev main_v124 : Ref sig .tc := ⟨.hbm, 246, rfl⟩
abbrev main_v125 : Ref sig .tc := ⟨.hbm, 247, rfl⟩
abbrev main_v126 : Ref sig .tc := ⟨.hbm, 248, rfl⟩
abbrev main_v127 : Ref sig .tc := ⟨.hbm, 249, rfl⟩
abbrev main_v128 : Ref sig .tc := ⟨.hbm, 250, rfl⟩
abbrev main_cst_20 : Ref sig .tc := ⟨.hbm, 251, rfl⟩
abbrev main_v129 : Ref sig .tc := ⟨.hbm, 252, rfl⟩
abbrev main_v130 : Ref sig .tc := ⟨.hbm, 253, rfl⟩
abbrev main_v131 : Ref sig .tc := ⟨.hbm, 254, rfl⟩
abbrev main_v132 : Ref sig .tc := ⟨.hbm, 255, rfl⟩
abbrev main_v133 : Ref sig .tc := ⟨.hbm, 256, rfl⟩
abbrev main_v134 : Ref sig .tc := ⟨.hbm, 257, rfl⟩
abbrev main_v135 : Ref sig .tc := ⟨.hbm, 258, rfl⟩
abbrev main_v136 : Ref sig .tc := ⟨.hbm, 259, rfl⟩
abbrev main_v137 : Ref sig .tc := ⟨.hbm, 260, rfl⟩
abbrev main_cst_21 : Ref sig .tc := ⟨.hbm, 261, rfl⟩
abbrev main_v138 : Ref sig .tc := ⟨.hbm, 262, rfl⟩
abbrev main_cst_22 : Ref sig .tc := ⟨.hbm, 263, rfl⟩
abbrev main_v139 : Ref sig .tc := ⟨.hbm, 264, rfl⟩
abbrev main_v140 : Ref sig .tc := ⟨.hbm, 265, rfl⟩
abbrev main_v141 : Ref sig .tc := ⟨.hbm, 266, rfl⟩
abbrev main_c_23 : Ref sig .tc := ⟨.hbm, 267, rfl⟩
abbrev main_call4_cst : Ref sig .tc := ⟨.hbm, 268, rfl⟩
abbrev main_call4_v0 : Ref sig .tc := ⟨.hbm, 269, rfl⟩
abbrev main_call4_v1 : Ref sig .tc := ⟨.hbm, 270, rfl⟩
abbrev main_call4_cst_0 : Ref sig .tc := ⟨.hbm, 271, rfl⟩
abbrev main_call4_v2 : Ref sig .tc := ⟨.hbm, 272, rfl⟩
abbrev main_call4_v3 : Ref sig .tc := ⟨.hbm, 273, rfl⟩
abbrev main_call4_v4 : Ref sig .tc := ⟨.hbm, 274, rfl⟩
abbrev main_call4_v5 : Ref sig .tc := ⟨.hbm, 275, rfl⟩
abbrev main_call4_v6 : Ref sig .tc := ⟨.hbm, 276, rfl⟩
abbrev main_call4_v7 : Ref sig .tc := ⟨.hbm, 277, rfl⟩
abbrev main_call4_cst_1 : Ref sig .tc := ⟨.hbm, 278, rfl⟩
abbrev main_call4_v8 : Ref sig .tc := ⟨.hbm, 279, rfl⟩
abbrev main_call4_cst_2 : Ref sig .tc := ⟨.hbm, 280, rfl⟩
abbrev main_call4_v9 : Ref sig .tc := ⟨.hbm, 281, rfl⟩
abbrev main_call4_v10 : Ref sig .tc := ⟨.hbm, 282, rfl⟩
abbrev main_call4_v11 : Ref sig .tc := ⟨.hbm, 283, rfl⟩
abbrev main_call4_cst_3 : Ref sig .tc := ⟨.hbm, 284, rfl⟩
abbrev main_call4_v12 : Ref sig .tc := ⟨.hbm, 285, rfl⟩
abbrev main_call4_cst_4 : Ref sig .tc := ⟨.hbm, 286, rfl⟩
abbrev main_call4_call0_v0 : Ref sig .tc := ⟨.hbm, 287, rfl⟩
abbrev main_call4_call0_v1 : Ref sig .tc := ⟨.hbm, 288, rfl⟩
abbrev main_v142 : Ref sig .tc := ⟨.hbm, 289, rfl⟩
abbrev main_v143 : Ref sig .tc := ⟨.hbm, 290, rfl⟩
abbrev main_v144 : Ref sig .tc := ⟨.hbm, 291, rfl⟩
abbrev main_v145 : Ref sig .tc := ⟨.hbm, 292, rfl⟩
abbrev main_v146 : Ref sig .tc := ⟨.hbm, 293, rfl⟩
abbrev main_v147 : Ref sig .tc := ⟨.hbm, 294, rfl⟩
abbrev main_v148 : Ref sig .tc := ⟨.hbm, 295, rfl⟩
abbrev main_v149 : Ref sig .tc := ⟨.hbm, 296, rfl⟩
abbrev main_v150 : Ref sig .tc := ⟨.hbm, 297, rfl⟩
abbrev main_v151 : Ref sig .tc := ⟨.hbm, 298, rfl⟩
abbrev main_v152 : Ref sig .tc := ⟨.hbm, 299, rfl⟩
abbrev main_v153 : Ref sig .tc := ⟨.hbm, 300, rfl⟩
abbrev main_v154 : Ref sig .tc := ⟨.hbm, 301, rfl⟩
abbrev main_v155 : Ref sig .tc := ⟨.hbm, 302, rfl⟩
abbrev main_cst_24 : Ref sig .tc := ⟨.hbm, 303, rfl⟩
abbrev main_v156 : Ref sig .tc := ⟨.hbm, 304, rfl⟩
abbrev main_cst_25 : Ref sig .tc := ⟨.hbm, 305, rfl⟩
abbrev main_v157 : Ref sig .tc := ⟨.hbm, 306, rfl⟩
abbrev main_v158 : Ref sig .tc := ⟨.hbm, 307, rfl⟩
abbrev main_v159 : Ref sig .tc := ⟨.hbm, 308, rfl⟩
abbrev main_c_26 : Ref sig .tc := ⟨.hbm, 309, rfl⟩
abbrev main_call5_cst : Ref sig .tc := ⟨.hbm, 310, rfl⟩
abbrev main_call5_v0 : Ref sig .tc := ⟨.hbm, 311, rfl⟩
abbrev main_call5_v1 : Ref sig .tc := ⟨.hbm, 312, rfl⟩
abbrev main_call5_cst_0 : Ref sig .tc := ⟨.hbm, 313, rfl⟩
abbrev main_call5_v2 : Ref sig .tc := ⟨.hbm, 314, rfl⟩
abbrev main_call5_v3 : Ref sig .tc := ⟨.hbm, 315, rfl⟩
abbrev main_call5_v4 : Ref sig .tc := ⟨.hbm, 316, rfl⟩
abbrev main_call5_v5 : Ref sig .tc := ⟨.hbm, 317, rfl⟩
abbrev main_call5_v6 : Ref sig .tc := ⟨.hbm, 318, rfl⟩
abbrev main_call5_v7 : Ref sig .tc := ⟨.hbm, 319, rfl⟩
abbrev main_call5_cst_1 : Ref sig .tc := ⟨.hbm, 320, rfl⟩
abbrev main_call5_v8 : Ref sig .tc := ⟨.hbm, 321, rfl⟩
abbrev main_call5_cst_2 : Ref sig .tc := ⟨.hbm, 322, rfl⟩
abbrev main_call5_v9 : Ref sig .tc := ⟨.hbm, 323, rfl⟩
abbrev main_call5_v10 : Ref sig .tc := ⟨.hbm, 324, rfl⟩
abbrev main_call5_v11 : Ref sig .tc := ⟨.hbm, 325, rfl⟩
abbrev main_call5_cst_3 : Ref sig .tc := ⟨.hbm, 326, rfl⟩
abbrev main_call5_v12 : Ref sig .tc := ⟨.hbm, 327, rfl⟩
abbrev main_call5_cst_4 : Ref sig .tc := ⟨.hbm, 328, rfl⟩
abbrev main_call5_call0_v0 : Ref sig .tc := ⟨.hbm, 329, rfl⟩
abbrev main_call5_call0_v1 : Ref sig .tc := ⟨.hbm, 330, rfl⟩
abbrev main_v160 : Ref sig .tc := ⟨.hbm, 331, rfl⟩
abbrev main_v161 : Ref sig .tc := ⟨.hbm, 332, rfl⟩
abbrev main_v162 : Ref sig .tc := ⟨.hbm, 333, rfl⟩
abbrev main_v163 : Ref sig .tc := ⟨.hbm, 334, rfl⟩
abbrev main_v164 : Ref sig .tc := ⟨.hbm, 335, rfl⟩
abbrev main_v165 : Ref sig .tc := ⟨.hbm, 336, rfl⟩
abbrev main_v166 : Ref sig .tc := ⟨.hbm, 337, rfl⟩
abbrev main_v167 : Ref sig .tc := ⟨.hbm, 338, rfl⟩
abbrev main_v168 : Ref sig .tc := ⟨.hbm, 339, rfl⟩
abbrev main_v169 : Ref sig .tc := ⟨.hbm, 340, rfl⟩
abbrev main_v170 : Ref sig .tc := ⟨.hbm, 341, rfl⟩
abbrev main_v171 : Ref sig .tc := ⟨.hbm, 342, rfl⟩
abbrev main_v172 : Ref sig .tc := ⟨.hbm, 343, rfl⟩
abbrev main_v173 : Ref sig .tc := ⟨.hbm, 344, rfl⟩
abbrev main_v174 : Ref sig .tc := ⟨.hbm, 345, rfl⟩
abbrev main_v175 : Ref sig .tc := ⟨.hbm, 346, rfl⟩
abbrev main_cst_27 : Ref sig .tc := ⟨.hbm, 347, rfl⟩
abbrev main_v176 : Ref sig .tc := ⟨.hbm, 348, rfl⟩
abbrev main_v177 : Ref sig .tc := ⟨.hbm, 349, rfl⟩
abbrev main_v178 : Ref sig .tc := ⟨.hbm, 350, rfl⟩
abbrev main_v179 : Ref sig .tc := ⟨.hbm, 351, rfl⟩
abbrev main_v180 : Ref sig .tc := ⟨.hbm, 352, rfl⟩
abbrev main_v181 : Ref sig .tc := ⟨.hbm, 353, rfl⟩
abbrev main_v182 : Ref sig .tc := ⟨.hbm, 354, rfl⟩
abbrev main_cst_28 : Ref sig .tc := ⟨.hbm, 355, rfl⟩
abbrev main_v183 : Ref sig .tc := ⟨.hbm, 356, rfl⟩
abbrev main_v184 : Ref sig .tc := ⟨.hbm, 357, rfl⟩
abbrev main_v185 : Ref sig .tc := ⟨.hbm, 358, rfl⟩
abbrev main_v186 : Ref sig .tc := ⟨.hbm, 359, rfl⟩
abbrev main_v187 : Ref sig .tc := ⟨.hbm, 360, rfl⟩
abbrev main_v188 : Ref sig .tc := ⟨.hbm, 361, rfl⟩
abbrev main_v189 : Ref sig .tc := ⟨.hbm, 362, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg9_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg4_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg6_0 : Ref sig .tc := ⟨.vmem, 45, rfl⟩
abbrev cc4_stg7_0 : Ref sig .tc := ⟨.vmem, 46, rfl⟩
abbrev cc4_stg7_1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc5_stg6_0 : Ref sig .tc := ⟨.vmem, 55, rfl⟩
abbrev cc5_stg7_0 : Ref sig .tc := ⟨.vmem, 56, rfl⟩
abbrev cc5_stg8_0 : Ref sig .tc := ⟨.vmem, 57, rfl⟩
abbrev cc5_stg9_0 : Ref sig .tc := ⟨.vmem, 58, rfl⟩
abbrev cc5_stg9_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg3_0 : Ref sig .tc := ⟨.vmem, 65, rfl⟩
abbrev cc6_stg4_0 : Ref sig .tc := ⟨.vmem, 66, rfl⟩
abbrev cc6_stg4_1 : Ref sig .tc := ⟨.vmem, 67, rfl⟩
abbrev cc7_stg0_0 : Ref sig .tc := ⟨.vmem, 68, rfl⟩
abbrev cc7_stg0_1 : Ref sig .tc := ⟨.vmem, 69, rfl⟩
abbrev cc7_stg1_0 : Ref sig .tc := ⟨.vmem, 70, rfl⟩
abbrev cc7_stg2_0 : Ref sig .tc := ⟨.vmem, 71, rfl⟩
abbrev cc7_stg3_0 : Ref sig .tc := ⟨.vmem, 72, rfl⟩
abbrev cc7_stg4_0 : Ref sig .tc := ⟨.vmem, 73, rfl⟩
abbrev cc7_stg5_0 : Ref sig .tc := ⟨.vmem, 74, rfl⟩
abbrev cc7_stg6_0 : Ref sig .tc := ⟨.vmem, 75, rfl⟩
abbrev cc7_stg7_0 : Ref sig .tc := ⟨.vmem, 76, rfl⟩
abbrev cc7_stg7_1 : Ref sig .tc := ⟨.vmem, 77, rfl⟩
abbrev cc8_stg0_0 : Ref sig .tc := ⟨.vmem, 78, rfl⟩
abbrev cc8_stg0_1 : Ref sig .tc := ⟨.vmem, 79, rfl⟩
abbrev cc8_stg1_0 : Ref sig .tc := ⟨.vmem, 80, rfl⟩
abbrev cc8_stg2_0 : Ref sig .tc := ⟨.vmem, 81, rfl⟩
abbrev cc8_stg3_0 : Ref sig .tc := ⟨.vmem, 82, rfl⟩
abbrev cc8_stg4_0 : Ref sig .tc := ⟨.vmem, 83, rfl⟩
abbrev cc8_stg5_0 : Ref sig .tc := ⟨.vmem, 84, rfl⟩
abbrev cc8_stg6_0 : Ref sig .tc := ⟨.vmem, 85, rfl⟩
abbrev cc8_stg7_0 : Ref sig .tc := ⟨.vmem, 86, rfl⟩
abbrev cc8_stg8_0 : Ref sig .tc := ⟨.vmem, 87, rfl⟩
abbrev cc8_stg9_0 : Ref sig .tc := ⟨.vmem, 88, rfl⟩
abbrev cc8_stg9_1 : Ref sig .tc := ⟨.vmem, 89, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem9_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem4_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem4_0 : DmaSem sig := 43
abbrev cc4_sem5_0 : DmaSem sig := 44
abbrev cc4_sem6_0 : DmaSem sig := 45
abbrev cc4_sem7_0 : DmaSem sig := 46
abbrev cc4_sem7_1 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem3_0 : DmaSem sig := 52
abbrev cc5_sem4_0 : DmaSem sig := 53
abbrev cc5_sem5_0 : DmaSem sig := 54
abbrev cc5_sem6_0 : DmaSem sig := 55
abbrev cc5_sem7_0 : DmaSem sig := 56
abbrev cc5_sem8_0 : DmaSem sig := 57
abbrev cc5_sem9_0 : DmaSem sig := 58
abbrev cc5_sem9_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc6_sem4_0 : DmaSem sig := 66
abbrev cc6_sem4_1 : DmaSem sig := 67
abbrev cc7_sem0_0 : DmaSem sig := 68
abbrev cc7_sem0_1 : DmaSem sig := 69
abbrev cc7_sem1_0 : DmaSem sig := 70
abbrev cc7_sem2_0 : DmaSem sig := 71
abbrev cc7_sem3_0 : DmaSem sig := 72
abbrev cc7_sem4_0 : DmaSem sig := 73
abbrev cc7_sem5_0 : DmaSem sig := 74
abbrev cc7_sem6_0 : DmaSem sig := 75
abbrev cc7_sem7_0 : DmaSem sig := 76
abbrev cc7_sem7_1 : DmaSem sig := 77
abbrev cc8_sem0_0 : DmaSem sig := 78
abbrev cc8_sem0_1 : DmaSem sig := 79
abbrev cc8_sem1_0 : DmaSem sig := 80
abbrev cc8_sem2_0 : DmaSem sig := 81
abbrev cc8_sem3_0 : DmaSem sig := 82
abbrev cc8_sem4_0 : DmaSem sig := 83
abbrev cc8_sem5_0 : DmaSem sig := 84
abbrev cc8_sem6_0 : DmaSem sig := 85
abbrev cc8_sem7_0 : DmaSem sig := 86
abbrev cc8_sem8_0 : DmaSem sig := 87
abbrev cc8_sem9_0 : DmaSem sig := 88
abbrev cc8_sem9_1 : DmaSem sig := 89

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S5000x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x128 .bf16 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x128 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 2 → Memref sig .tc .vmem S5000x128 .f32 := fun | 0 => Memref.whole cc8_stg9_0 | 1 => Memref.whole cc8_stg9_1 | ⟨_ + 2, h⟩ => absurd h (Nat.not_lt.2 (Nat.le_add_left _ _))
abbrev sem8_9 : Fin 2 → DmaSem sig := fun | 0 => cc8_sem9_0 | 1 => cc8_sem9_1 | ⟨_ + 2, h⟩ => absurd h (Nat.not_lt.2 (Nat.le_add_left _ _))
abbrev reads8_9 : Fin grid8.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  shapeCasts_S128_S1x128 : S128.ShapeCasts S1x128
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  slices_S3x128_S1x128_1_0 : S3x128.Slices ![1, 0] S1x128
  slices_S3x128x128_S1x128x128_1_0_0 : S3x128x128.Slices ![1, 0, 0] S1x128x128
  slices_S3x128_S1x128_2_0 : S3x128.Slices ![2, 0] S1x128
  slices_S3x128x128_S1x128x128_2_0_0 : S3x128x128.Slices ![2, 0, 0] S1x128x128
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S128x128 : S_.BroadcastsInDim S128x128 (![] : Fin 0 → Fin S128x128.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S128x128_S100000x1_S100000x128_1_0_0_1_wf : ScatterDims.WF S128x128 S100000x1 S100000x128 [1] [0] [0] 1
  dot_S128x128_S128x2_S128x2_1_0_0_1_n_n_wf : DotDims.WF S128x128 S128x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S100000x128.size a
  hwx2_9 : ∀ i : grid2.Coords, EltTy.bits .f32 = 32 ∨ (Rect.block (s := S100000x128) S5000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .bf16 = 32 ∨ (Rect.block (s := S128x128) S128x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .bf16 = 32 ∨ (Rect.block (s := S128x128) S128x128.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S100000x128.size a
  hwx4_7 : ∀ i : grid4.Coords, EltTy.bits .f32 = 32 ∨ (Rect.block (s := S100000x128) S5000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S5000x128.size a ≤ S100000x128.size a
  hwx5_9 : ∀ i : grid5.Coords, EltTy.bits .f32 = 32 ∨ (Rect.block (s := S100000x128) S5000x128.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .bf16 = 32 ∨ (Rect.block (s := S128x128) S128x128.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S100000x128.size a
  hwx6_4 : ∀ i : grid6.Coords, EltTy.bits .f32 = 32 ∨ (Rect.block (s := S100000x128) S5000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x128.size a ≤ S128x128.size a
  hwx7_5 : ∀ i : grid7.Coords, EltTy.bits .bf16 = 32 ∨ (Rect.block (s := S128x128) S128x128.size (cc7_transform_5 i) (hinb7_5 i)).WholeWords (EltTy.packing .bf16)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x128.size a ≤ S100000x128.size a
  hwx7_7 : ∀ i : grid7.Coords, EltTy.bits .f32 = 32 ∨ (Rect.block (s := S100000x128) S5000x128.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x128.size a ≤ S1x128.size a
  hwx8_7 : ∀ i : grid8.Coords, EltTy.bits .f32 = 32 ∨ (Rect.block (s := S1x128) S1x128.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x128.size a ≤ S1x128.size a
  hwx8_8 : ∀ i : grid8.Coords, EltTy.bits .f32 = 32 ∨ (Rect.block (s := S1x128) S1x128.size (cc8_transform_8 i) (hinb8_8 i)).WholeWords (EltTy.packing .f32)
  hstage8_9 : ∀ j, (stage8_9 j).IsWhole
  nbuf8_9 : grid8.bufCount reads8_9 false = 2
  hreads8_9 : ∀ i i' : grid8.Coords, (∀ a, reads8_9 a = true → i a = i' a) → cc8_transform_9 i = cc8_transform_9 i'
  hinb8_9 : ∀ (i : grid8.Coords) a, (cc8_transform_9 i a + 1) * S5000x128.size a ≤ S100000x128.size a
  hwx8_9 : ∀ i : grid8.Coords, EltTy.bits .f32 = 32 ∨ (Rect.block (s := S100000x128) S5000x128.size (cc8_transform_9 i) (hinb8_9 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

abbrev win0_0 : Pipeline.Window sig grid0 :=
  Pipeline.Window.ofSpec (Memref.whole main_v15) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v39) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v62) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v54) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v57) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v63) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v73) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v78) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v79) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v79) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v83) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v85) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v88) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v91) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v96) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v94) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v97) S5000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v97) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v101) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v103) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v106) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v109) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v109) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v120) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v112) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v115) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v121) S5000x128.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v131) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v121) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v136) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v134) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v137) S5000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v137) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v141) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v143) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v146) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v149) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v154) S128x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v152) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v155) S5000x128.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v155) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v159) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v161) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v164) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v167) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v167) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v178) S1x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v170) S1x128.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v173) S1x128.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v179) S5000x128.size cc8_transform_9 reads8_9 true false 2 stage8_9 sem8_9
    hrank8 hreads8_9 hinb8_9 nbuf8_9 (Memref.isWhole_whole _) hwx8_9 hstage8_9

abbrev win8 : Fin 10 → Pipeline.Window sig grid8 := fun | 0 => win8_0 | 1 => win8_1 | 2 => win8_2 | 3 => win8_3 | 4 => win8_4 | 5 => win8_5 | 6 => win8_6 | 7 => win8_7 | 8 => win8_8 | 9 => win8_9 | ⟨_ + 10, h⟩ => absurd h (Nat.not_lt.2 (Nat.le_add_left _ _))
abbrev spec8 : Fin 10 → Pipeline.WinSpec sig grid8.rank := fun w => (win8 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S100000x1 : Shape := ⟨2, ![100000, 1]⟩
abbrev S1x2 : Shape := ⟨2, ![1, 2]⟩

abbrev nBuf : Space → Nat
  | .hbm => 562
  | .vmem => 0
  | .smem => 0
  | _ => 0

abbrev hbmTy0_0 (i : Nat) : BufTy := match i % 128 with
  | 0 => ⟨S100000x128, .f32⟩
  | 1 => ⟨S2x1600000, .i32⟩
  | 2 => ⟨S100000, .f32⟩
  | 3 => ⟨S100000, .i32⟩
  | 4 => ⟨S3x128x128, .f32⟩
  | 5 => ⟨S3x128, .f32⟩
  | 6 => ⟨S3x128, .f32⟩
  | 7 => ⟨S3x128, .f32⟩
  | 8 => ⟨S3x128x128, .f32⟩
  | 9 => ⟨S3x128, .f32⟩
  | 10 => ⟨S3x128, .f32⟩
  | 11 => ⟨S3x128, .f32⟩
  | 12 => ⟨S3x128, .f32⟩
  | 13 => ⟨S3x128, .f32⟩
  | 14 => ⟨S128x2, .f32⟩
  | 15 => ⟨S2, .f32⟩
  | 16 => ⟨S1x1600000, .i32⟩
  | 17 => ⟨S1600000, .i32⟩
  | 18 => ⟨S1x1600000, .i32⟩
  | 19 => ⟨S1600000, .i32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x128, .f32⟩
  | 29 => ⟨S_, .f32⟩
  | 30 => ⟨S100000x128, .f32⟩
  | 31 => ⟨S1600000x1, .i32⟩
  | 32 => ⟨S100000x128, .f32⟩
  | 33 => ⟨S100000x128, .f32⟩
  | 34 => ⟨S1x128x128, .f32⟩
  | 35 => ⟨S128x128, .f32⟩
  | 36 => ⟨S100000x128, .f32⟩
  | 37 => ⟨S1x128, .f32⟩
  | 38 => ⟨S128, .f32⟩
  | 39 => ⟨S1x128, .f32⟩
  | 40 => ⟨S100000x128, .f32⟩
  | 41 => ⟨S100000x128, .f32⟩
  | 42 => ⟨S1x128, .f32⟩
  | 43 => ⟨S128, .f32⟩
  | 44 => ⟨S1x128, .f32⟩
  | 45 => ⟨S128, .f32⟩
  | 46 => ⟨S_, .f32⟩
  | 47 => ⟨S128, .f32⟩
  | 48 => ⟨S_, .f32⟩
  | 49 => ⟨S128, .f32⟩
  | 50 => ⟨S128, .f32⟩
  | 51 => ⟨S_, .i32⟩
  | 52 => ⟨S_, .f32⟩
  | 53 => ⟨S128, .f32⟩
  | 54 => ⟨S1x128, .f32⟩
  | 55 => ⟨S_, .f32⟩
  | 56 => ⟨S1x128, .f32⟩
  | 57 => ⟨S1x128, .f32⟩
  | 58 => ⟨S100000x128, .f32⟩
  | 59 => ⟨S100000x128, .f32⟩
  | 60 => ⟨S100000x128, .f32⟩
  | 61 => ⟨S_, .f32⟩
  | 62 => ⟨S_, .f32⟩
  | 63 => ⟨S_, .f32⟩
  | 64 => ⟨S_, .f32⟩
  | 65 => ⟨S128, .f32⟩
  | 66 => ⟨S128, .f32⟩
  | 67 => ⟨S128, .f32⟩
  | 68 => ⟨S_, .f32⟩
  | 69 => ⟨S_, .i1⟩
  | 70 => ⟨S_, .f32⟩
  | 71 => ⟨S_, .f32⟩
  | 72 => ⟨S128, .f32⟩
  | 73 => ⟨S128, .f32⟩
  | 74 => ⟨S1x128, .f32⟩
  | 75 => ⟨S100000x128, .f32⟩
  | 76 => ⟨S100000x128, .f32⟩
  | 77 => ⟨S_, .f32⟩
  | 78 => ⟨S128, .f32⟩
  | 79 => ⟨S128, .f32⟩
  | 80 => ⟨S128, .f32⟩
  | 81 => ⟨S1x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S1x128x128, .f32⟩
  | 91 => ⟨S128x128, .f32⟩
  | 92 => ⟨S100000x128, .f32⟩
  | 93 => ⟨S1x128, .f32⟩
  | 94 => ⟨S128, .f32⟩
  | 95 => ⟨S1x128, .f32⟩
  | 96 => ⟨S100000x128, .f32⟩
  | 97 => ⟨S100000x128, .f32⟩
  | 98 => ⟨S1x128, .f32⟩
  | 99 => ⟨S128, .f32⟩
  | 100 => ⟨S1x128, .f32⟩
  | 101 => ⟨S128, .f32⟩
  | 102 => ⟨S_, .f32⟩
  | 103 => ⟨S128, .f32⟩
  | 104 => ⟨S_, .f32⟩
  | 105 => ⟨S128, .f32⟩
  | 106 => ⟨S128, .f32⟩
  | 107 => ⟨S_, .i32⟩
  | 108 => ⟨S_, .f32⟩
  | 109 => ⟨S128, .f32⟩
  | 110 => ⟨S1x128, .f32⟩
  | 111 => ⟨S_, .f32⟩
  | 112 => ⟨S1x128, .f32⟩
  | 113 => ⟨S1x128, .f32⟩
  | 114 => ⟨S100000x128, .f32⟩
  | 115 => ⟨S100000x128, .f32⟩
  | 116 => ⟨S100000x128, .f32⟩
  | 117 => ⟨S_, .f32⟩
  | 118 => ⟨S_, .f32⟩
  | 119 => ⟨S_, .f32⟩
  | 120 => ⟨S_, .f32⟩
  | 121 => ⟨S128, .f32⟩
  | 122 => ⟨S128, .f32⟩
  | 123 => ⟨S128, .f32⟩
  | 124 => ⟨S_, .f32⟩
  | 125 => ⟨S_, .i1⟩
  | 126 => ⟨S_, .f32⟩
  | 127 => ⟨S_, .f32⟩
  | _ => ⟨S100000x128, .f32⟩

abbrev hbmTy0_1 (i : Nat) : BufTy := match i % 128 with
  | 0 => ⟨S128, .f32⟩
  | 1 => ⟨S128, .f32⟩
  | 2 => ⟨S1x128, .f32⟩
  | 3 => ⟨S100000x128, .f32⟩
  | 4 => ⟨S100000x128, .f32⟩
  | 5 => ⟨S_, .f32⟩
  | 6 => ⟨S128, .f32⟩
  | 7 => ⟨S128, .f32⟩
  | 8 => ⟨S128, .f32⟩
  | 9 => ⟨S1x128, .f32⟩
  | 10 => ⟨S100000x128, .f32⟩
  | 11 => ⟨S100000x128, .f32⟩
  | 12 => ⟨S1x128, .f32⟩
  | 13 => ⟨S100000x128, .f32⟩
  | 14 => ⟨S100000x128, .f32⟩
  | 15 => ⟨S1x128, .f32⟩
  | 16 => ⟨S100000x128, .f32⟩
  | 17 => ⟨S100000x128, .f32⟩
  | 18 => ⟨S1x128, .f32⟩
  | 19 => ⟨S128, .f32⟩
  | 20 => ⟨S1x128, .f32⟩
  | 21 => ⟨S128, .f32⟩
  | 22 => ⟨S_, .f32⟩
  | 23 => ⟨S128, .f32⟩
  | 24 => ⟨S_, .f32⟩
  | 25 => ⟨S128, .f32⟩
  | 26 => ⟨S128, .f32⟩
  | 27 => ⟨S_, .i32⟩
  | 28 => ⟨S_, .f32⟩
  | 29 => ⟨S128, .f32⟩
  | 30 => ⟨S1x128, .f32⟩
  | 31 => ⟨S_, .f32⟩
  | 32 => ⟨S1x128, .f32⟩
  | 33 => ⟨S1x128, .f32⟩
  | 34 => ⟨S100000x128, .f32⟩
  | 35 => ⟨S100000x128, .f32⟩
  | 36 => ⟨S100000x128, .f32⟩
  | 37 => ⟨S_, .f32⟩
  | 38 => ⟨S_, .f32⟩
  | 39 => ⟨S_, .f32⟩
  | 40 => ⟨S_, .f32⟩
  | 41 => ⟨S128, .f32⟩
  | 42 => ⟨S128, .f32⟩
  | 43 => ⟨S128, .f32⟩
  | 44 => ⟨S_, .f32⟩
  | 45 => ⟨S_, .i1⟩
  | 46 => ⟨S_, .f32⟩
  | 47 => ⟨S_, .f32⟩
  | 48 => ⟨S128, .f32⟩
  | 49 => ⟨S128, .f32⟩
  | 50 => ⟨S1x128, .f32⟩
  | 51 => ⟨S100000x128, .f32⟩
  | 52 => ⟨S100000x128, .f32⟩
  | 53 => ⟨S_, .f32⟩
  | 54 => ⟨S128, .f32⟩
  | 55 => ⟨S128, .f32⟩
  | 56 => ⟨S128, .f32⟩
  | 57 => ⟨S1x128, .f32⟩
  | 58 => ⟨S100000x128, .f32⟩
  | 59 => ⟨S100000x128, .f32⟩
  | 60 => ⟨S1x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000x128, .f32⟩
  | 78 => ⟨S_, .f32⟩
  | 79 => ⟨S100000x128, .f32⟩
  | 80 => ⟨S1600000x1, .i32⟩
  | 81 => ⟨S100000x128, .f32⟩
  | 82 => ⟨S100000x128, .f32⟩
  | 83 => ⟨S1x128x128, .f32⟩
  | 84 => ⟨S128x128, .f32⟩
  | 85 => ⟨S100000x128, .f32⟩
  | 86 => ⟨S1x128, .f32⟩
  | 87 => ⟨S128, .f32⟩
  | 88 => ⟨S1x128, .f32⟩
  | 89 => ⟨S100000x128, .f32⟩
  | 90 => ⟨S100000x128, .f32⟩
  | 91 => ⟨S1x128, .f32⟩
  | 92 => ⟨S128, .f32⟩
  | 93 => ⟨S1x128, .f32⟩
  | 94 => ⟨S128, .f32⟩
  | 95 => ⟨S_, .f32⟩
  | 96 => ⟨S128, .f32⟩
  | 97 => ⟨S_, .f32⟩
  | 98 => ⟨S128, .f32⟩
  | 99 => ⟨S128, .f32⟩
  | 100 => ⟨S_, .i32⟩
  | 101 => ⟨S_, .f32⟩
  | 102 => ⟨S128, .f32⟩
  | 103 => ⟨S1x128, .f32⟩
  | 104 => ⟨S_, .f32⟩
  | 105 => ⟨S1x128, .f32⟩
  | 106 => ⟨S1x128, .f32⟩
  | 107 => ⟨S100000x128, .f32⟩
  | 108 => ⟨S100000x128, .f32⟩
  | 109 => ⟨S100000x128, .f32⟩
  | 110 => ⟨S_, .f32⟩
  | 111 => ⟨S_, .f32⟩
  | 112 => ⟨S_, .f32⟩
  | 113 => ⟨S_, .f32⟩
  | 114 => ⟨S128, .f32⟩
  | 115 => ⟨S128, .f32⟩
  | 116 => ⟨S128, .f32⟩
  | 117 => ⟨S_, .f32⟩
  | 118 => ⟨S_, .i1⟩
  | 119 => ⟨S_, .f32⟩
  | 120 => ⟨S_, .f32⟩
  | 121 => ⟨S128, .f32⟩
  | 122 => ⟨S128, .f32⟩
  | 123 => ⟨S1x128, .f32⟩
  | 124 => ⟨S100000x128, .f32⟩
  | 125 => ⟨S100000x128, .f32⟩
  | 126 => ⟨S_, .f32⟩
  | 127 => ⟨S128, .f32⟩
  | _ => ⟨S100000x128, .f32⟩

abbrev hbmTy0_2 (i : Nat) : BufTy := match i % 128 with
  | 0 => ⟨S128, .f32⟩
  | 1 => ⟨S128, .f32⟩
  | 2 => ⟨S1x128, .f32⟩
  | 3 => ⟨S100000x128, .f32⟩
  | 4 => ⟨S100000x128, .f32⟩
  | 5 => ⟨S1x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S1x128x128, .f32⟩
  | 12 => ⟨S128x128, .f32⟩
  | 13 => ⟨S100000x128, .f32⟩
  | 14 => ⟨S1x128, .f32⟩
  | 15 => ⟨S128, .f32⟩
  | 16 => ⟨S1x128, .f32⟩
  | 17 => ⟨S100000x128, .f32⟩
  | 18 => ⟨S100000x128, .f32⟩
  | 19 => ⟨S1x128, .f32⟩
  | 20 => ⟨S128, .f32⟩
  | 21 => ⟨S1x128, .f32⟩
  | 22 => ⟨S128, .f32⟩
  | 23 => ⟨S_, .f32⟩
  | 24 => ⟨S128, .f32⟩
  | 25 => ⟨S_, .f32⟩
  | 26 => ⟨S128, .f32⟩
  | 27 => ⟨S128, .f32⟩
  | 28 => ⟨S_, .i32⟩
  | 29 => ⟨S_, .f32⟩
  | 30 => ⟨S128, .f32⟩
  | 31 => ⟨S1x128, .f32⟩
  | 32 => ⟨S_, .f32⟩
  | 33 => ⟨S1x128, .f32⟩
  | 34 => ⟨S1x128, .f32⟩
  | 35 => ⟨S100000x128, .f32⟩
  | 36 => ⟨S100000x128, .f32⟩
  | 37 => ⟨S100000x128, .f32⟩
  | 38 => ⟨S_, .f32⟩
  | 39 => ⟨S_, .f32⟩
  | 40 => ⟨S_, .f32⟩
  | 41 => ⟨S_, .f32⟩
  | 42 => ⟨S128, .f32⟩
  | 43 => ⟨S128, .f32⟩
  | 44 => ⟨S128, .f32⟩
  | 45 => ⟨S_, .f32⟩
  | 46 => ⟨S_, .i1⟩
  | 47 => ⟨S_, .f32⟩
  | 48 => ⟨S_, .f32⟩
  | 49 => ⟨S128, .f32⟩
  | 50 => ⟨S128, .f32⟩
  | 51 => ⟨S1x128, .f32⟩
  | 52 => ⟨S100000x128, .f32⟩
  | 53 => ⟨S100000x128, .f32⟩
  | 54 => ⟨S_, .f32⟩
  | 55 => ⟨S128, .f32⟩
  | 56 => ⟨S128, .f32⟩
  | 57 => ⟨S128, .f32⟩
  | 58 => ⟨S1x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S1x128, .f32⟩
  | 65 => ⟨S100000x128, .f32⟩
  | 66 => ⟨S100000x128, .f32⟩
  | 67 => ⟨S1x128, .f32⟩
  | 68 => ⟨S128, .f32⟩
  | 69 => ⟨S1x128, .f32⟩
  | 70 => ⟨S128, .f32⟩
  | 71 => ⟨S_, .f32⟩
  | 72 => ⟨S128, .f32⟩
  | 73 => ⟨S_, .f32⟩
  | 74 => ⟨S128, .f32⟩
  | 75 => ⟨S128, .f32⟩
  | 76 => ⟨S_, .i32⟩
  | 77 => ⟨S_, .f32⟩
  | 78 => ⟨S128, .f32⟩
  | 79 => ⟨S1x128, .f32⟩
  | 80 => ⟨S_, .f32⟩
  | 81 => ⟨S1x128, .f32⟩
  | 82 => ⟨S1x128, .f32⟩
  | 83 => ⟨S100000x128, .f32⟩
  | 84 => ⟨S100000x128, .f32⟩
  | 85 => ⟨S100000x128, .f32⟩
  | 86 => ⟨S_, .f32⟩
  | 87 => ⟨S_, .f32⟩
  | 88 => ⟨S_, .f32⟩
  | 89 => ⟨S_, .f32⟩
  | 90 => ⟨S128, .f32⟩
  | 91 => ⟨S128, .f32⟩
  | 92 => ⟨S128, .f32⟩
  | 93 => ⟨S_, .f32⟩
  | 94 => ⟨S_, .i1⟩
  | 95 => ⟨S_, .f32⟩
  | 96 => ⟨S_, .f32⟩
  | 97 => ⟨S128, .f32⟩
  | 98 => ⟨S128, .f32⟩
  | 99 => ⟨S1x128, .f32⟩
  | 100 => ⟨S100000x128, .f32⟩
  | 101 => ⟨S100000x128, .f32⟩
  | 102 => ⟨S_, .f32⟩
  | 103 => ⟨S128, .f32⟩
  | 104 => ⟨S128, .f32⟩
  | 105 => ⟨S128, .f32⟩
  | 106 => ⟨S1x128, .f32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x128, .f32⟩
  | 127 => ⟨S_, .f32⟩
  | _ => ⟨S100000x128, .f32⟩

abbrev hbmTy0_3 (i : Nat) : BufTy := match i % 128 with
  | 0 => ⟨S100000x128, .f32⟩
  | 1 => ⟨S1600000x1, .i32⟩
  | 2 => ⟨S100000x128, .f32⟩
  | 3 => ⟨S100000x128, .f32⟩
  | 4 => ⟨S1x128x128, .f32⟩
  | 5 => ⟨S128x128, .f32⟩
  | 6 => ⟨S100000x128, .f32⟩
  | 7 => ⟨S1x128, .f32⟩
  | 8 => ⟨S128, .f32⟩
  | 9 => ⟨S1x128, .f32⟩
  | 10 => ⟨S100000x128, .f32⟩
  | 11 => ⟨S100000x128, .f32⟩
  | 12 => ⟨S1x128, .f32⟩
  | 13 => ⟨S128, .f32⟩
  | 14 => ⟨S1x128, .f32⟩
  | 15 => ⟨S128, .f32⟩
  | 16 => ⟨S_, .f32⟩
  | 17 => ⟨S128, .f32⟩
  | 18 => ⟨S_, .f32⟩
  | 19 => ⟨S128, .f32⟩
  | 20 => ⟨S128, .f32⟩
  | 21 => ⟨S_, .i32⟩
  | 22 => ⟨S_, .f32⟩
  | 23 => ⟨S128, .f32⟩
  | 24 => ⟨S1x128, .f32⟩
  | 25 => ⟨S_, .f32⟩
  | 26 => ⟨S1x128, .f32⟩
  | 27 => ⟨S1x128, .f32⟩
  | 28 => ⟨S100000x128, .f32⟩
  | 29 => ⟨S100000x128, .f32⟩
  | 30 => ⟨S100000x128, .f32⟩
  | 31 => ⟨S_, .f32⟩
  | 32 => ⟨S_, .f32⟩
  | 33 => ⟨S_, .f32⟩
  | 34 => ⟨S_, .f32⟩
  | 35 => ⟨S128, .f32⟩
  | 36 => ⟨S128, .f32⟩
  | 37 => ⟨S128, .f32⟩
  | 38 => ⟨S_, .f32⟩
  | 39 => ⟨S_, .i1⟩
  | 40 => ⟨S_, .f32⟩
  | 41 => ⟨S_, .f32⟩
  | 42 => ⟨S128, .f32⟩
  | 43 => ⟨S128, .f32⟩
  | 44 => ⟨S1x128, .f32⟩
  | 45 => ⟨S100000x128, .f32⟩
  | 46 => ⟨S100000x128, .f32⟩
  | 47 => ⟨S_, .f32⟩
  | 48 => ⟨S128, .f32⟩
  | 49 => ⟨S128, .f32⟩
  | 50 => ⟨S128, .f32⟩
  | 51 => ⟨S1x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S1x128, .f32⟩
  | 58 => ⟨S100000x128, .f32⟩
  | 59 => ⟨S100000x128, .f32⟩
  | 60 => ⟨S1x128x128, .f32⟩
  | 61 => ⟨S128x128, .f32⟩
  | 62 => ⟨S100000x128, .f32⟩
  | 63 => ⟨S1x128, .f32⟩
  | 64 => ⟨S128, .f32⟩
  | 65 => ⟨S1x128, .f32⟩
  | 66 => ⟨S100000x128, .f32⟩
  | 67 => ⟨S100000x128, .f32⟩
  | 68 => ⟨S1x128, .f32⟩
  | 69 => ⟨S128, .f32⟩
  | 70 => ⟨S1x128, .f32⟩
  | 71 => ⟨S128, .f32⟩
  | 72 => ⟨S_, .f32⟩
  | 73 => ⟨S128, .f32⟩
  | 74 => ⟨S_, .f32⟩
  | 75 => ⟨S128, .f32⟩
  | 76 => ⟨S128, .f32⟩
  | 77 => ⟨S_, .i32⟩
  | 78 => ⟨S_, .f32⟩
  | 79 => ⟨S128, .f32⟩
  | 80 => ⟨S1x128, .f32⟩
  | 81 => ⟨S_, .f32⟩
  | 82 => ⟨S1x128, .f32⟩
  | 83 => ⟨S1x128, .f32⟩
  | 84 => ⟨S100000x128, .f32⟩
  | 85 => ⟨S100000x128, .f32⟩
  | 86 => ⟨S100000x128, .f32⟩
  | 87 => ⟨S_, .f32⟩
  | 88 => ⟨S_, .f32⟩
  | 89 => ⟨S_, .f32⟩
  | 90 => ⟨S_, .f32⟩
  | 91 => ⟨S128, .f32⟩
  | 92 => ⟨S128, .f32⟩
  | 93 => ⟨S128, .f32⟩
  | 94 => ⟨S_, .f32⟩
  | 95 => ⟨S_, .i1⟩
  | 96 => ⟨S_, .f32⟩
  | 97 => ⟨S_, .f32⟩
  | 98 => ⟨S128, .f32⟩
  | 99 => ⟨S128, .f32⟩
  | 100 => ⟨S1x128, .f32⟩
  | 101 => ⟨S100000x128, .f32⟩
  | 102 => ⟨S100000x128, .f32⟩
  | 103 => ⟨S_, .f32⟩
  | 104 => ⟨S128, .f32⟩
  | 105 => ⟨S128, .f32⟩
  | 106 => ⟨S128, .f32⟩
  | 107 => ⟨S1x128, .f32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S1x128, .f32⟩
  | 114 => ⟨S100000x128, .f32⟩
  | 115 => ⟨S100000x128, .f32⟩
  | 116 => ⟨S1x128, .f32⟩
  | 117 => ⟨S128, .f32⟩
  | 118 => ⟨S1x128, .f32⟩
  | 119 => ⟨S128, .f32⟩
  | 120 => ⟨S_, .f32⟩
  | 121 => ⟨S128, .f32⟩
  | 122 => ⟨S_, .f32⟩
  | 123 => ⟨S128, .f32⟩
  | 124 => ⟨S128, .f32⟩
  | 125 => ⟨S_, .i32⟩
  | 126 => ⟨S_, .f32⟩
  | 127 => ⟨S128, .f32⟩
  | _ => ⟨S100000x128, .f32⟩

abbrev hbmTy0_4 (i : Nat) : BufTy := match i % 128 with
  | 0 => ⟨S1x128, .f32⟩
  | 1 => ⟨S_, .f32⟩
  | 2 => ⟨S1x128, .f32⟩
  | 3 => ⟨S1x128, .f32⟩
  | 4 => ⟨S100000x128, .f32⟩
  | 5 => ⟨S100000x128, .f32⟩
  | 6 => ⟨S100000x128, .f32⟩
  | 7 => ⟨S_, .f32⟩
  | 8 => ⟨S_, .f32⟩
  | 9 => ⟨S_, .f32⟩
  | 10 => ⟨S_, .f32⟩
  | 11 => ⟨S128, .f32⟩
  | 12 => ⟨S128, .f32⟩
  | 13 => ⟨S128, .f32⟩
  | 14 => ⟨S_, .f32⟩
  | 15 => ⟨S_, .i1⟩
  | 16 => ⟨S_, .f32⟩
  | 17 => ⟨S_, .f32⟩
  | 18 => ⟨S128, .f32⟩
  | 19 => ⟨S128, .f32⟩
  | 20 => ⟨S1x128, .f32⟩
  | 21 => ⟨S100000x128, .f32⟩
  | 22 => ⟨S100000x128, .f32⟩
  | 23 => ⟨S_, .f32⟩
  | 24 => ⟨S128, .f32⟩
  | 25 => ⟨S128, .f32⟩
  | 26 => ⟨S128, .f32⟩
  | 27 => ⟨S1x128, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S100000x128, .f32⟩
  | 38 => ⟨S100000x128, .f32⟩
  | 39 => ⟨S100000x1, .f32⟩
  | 40 => ⟨S100000x128, .f32⟩
  | 41 => ⟨S100000x128, .f32⟩
  | 42 => ⟨S_, .f32⟩
  | 43 => ⟨S128x128, .f32⟩
  | 44 => ⟨S100000x1, .i32⟩
  | 45 => ⟨S128x128, .f32⟩
  | 46 => ⟨S128x2, .f32⟩
  | 47 => ⟨S1x2, .f32⟩
  | 48 => ⟨S128x2, .f32⟩
  | 49 => ⟨S128x2, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_1 : Ref sig .tc := ⟨.hbm, 46, rfl⟩
abbrev main_v27 : Ref sig .tc := ⟨.hbm, 47, rfl⟩
abbrev main_cst_2 : Ref sig .tc := ⟨.hbm, 48, rfl⟩
abbrev main_v28 : Ref sig .tc := ⟨.hbm, 49, rfl⟩
abbrev main_v29 : Ref sig .tc := ⟨.hbm, 50, rfl⟩
abbrev main_c_3 : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_cst_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_cst_1 : Ref sig .tc := ⟨.hbm, 62, rfl⟩
abbrev main_call0_v8 : Ref sig .tc := ⟨.hbm, 63, rfl⟩
abbrev main_call0_cst_2 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_cst_3 : Ref sig .tc := ⟨.hbm, 68, rfl⟩
abbrev main_call0_v12 : Ref sig .tc := ⟨.hbm, 69, rfl⟩
abbrev main_call0_cst_4 : Ref sig .tc := ⟨.hbm, 70, rfl⟩
abbrev main_call0_call0_v0 : Ref sig .tc := ⟨.hbm, 71, rfl⟩
abbrev main_call0_call0_v1 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_cst_4 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_5 : Ref sig .tc := ⟨.hbm, 102, rfl⟩
abbrev main_v58 : Ref sig .tc := ⟨.hbm, 103, rfl⟩
abbrev main_cst_6 : Ref sig .tc := ⟨.hbm, 104, rfl⟩
abbrev main_v59 : Ref sig .tc := ⟨.hbm, 105, rfl⟩
abbrev main_v60 : Ref sig .tc := ⟨.hbm, 106, rfl⟩
abbrev main_c_7 : Ref sig .tc := ⟨.hbm, 107, rfl⟩
abbrev main_call1_cst : Ref sig .tc := ⟨.hbm, 108, rfl⟩
abbrev main_call1_v0 : Ref sig .tc := ⟨.hbm, 109, rfl⟩
abbrev main_call1_v1 : Ref sig .tc := ⟨.hbm, 110, rfl⟩
abbrev main_call1_cst_0 : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_call1_v5 : Ref sig .tc := ⟨.hbm, 115, rfl⟩
abbrev main_call1_v6 : Ref sig .tc := ⟨.hbm, 116, rfl⟩
abbrev main_call1_v7 : Ref sig .tc := ⟨.hbm, 117, rfl⟩
abbrev main_call1_cst_1 : Ref sig .tc := ⟨.hbm, 118, rfl⟩
abbrev main_call1_v8 : Ref sig .tc := ⟨.hbm, 119, rfl⟩
abbrev main_call1_cst_2 : Ref sig .tc := ⟨.hbm, 120, rfl⟩
abbrev main_call1_v9 : Ref sig .tc := ⟨.hbm, 121, rfl⟩
abbrev main_call1_v10 : Ref sig .tc := ⟨.hbm, 122, rfl⟩
abbrev main_call1_v11 : Ref sig .tc := ⟨.hbm, 123, rfl⟩
abbrev main_call1_cst_3 : Ref sig .tc := ⟨.hbm, 124, rfl⟩
abbrev main_call1_v12 : Ref sig .tc := ⟨.hbm, 125, rfl⟩
abbrev main_call1_cst_4 : Ref sig .tc := ⟨.hbm, 126, rfl⟩
abbrev main_call1_call0_v0 : Ref sig .tc := ⟨.hbm, 127, rfl⟩
abbrev main_call1_call0_v1 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_cst_8 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_cst_9 : Ref sig .tc := ⟨.hbm, 150, rfl⟩
abbrev main_v81 : Ref sig .tc := ⟨.hbm, 151, rfl⟩
abbrev main_cst_10 : Ref sig .tc := ⟨.hbm, 152, rfl⟩
abbrev main_v82 : Ref sig .tc := ⟨.hbm, 153, rfl⟩
abbrev main_v83 : Ref sig .tc := ⟨.hbm, 154, rfl⟩
abbrev main_c_11 : Ref sig .tc := ⟨.hbm, 155, rfl⟩
abbrev main_call2_cst : Ref sig .tc := ⟨.hbm, 156, rfl⟩
abbrev main_call2_v0 : Ref sig .tc := ⟨.hbm, 157, rfl⟩
abbrev main_call2_v1 : Ref sig .tc := ⟨.hbm, 158, rfl⟩
abbrev main_call2_cst_0 : Ref sig .tc := ⟨.hbm, 159, rfl⟩
abbrev main_call2_v2 : Ref sig .tc := ⟨.hbm, 160, rfl⟩
abbrev main_call2_v3 : Ref sig .tc := ⟨.hbm, 161, rfl⟩
abbrev main_call2_v4 : Ref sig .tc := ⟨.hbm, 162, rfl⟩
abbrev main_call2_v5 : Ref sig .tc := ⟨.hbm, 163, rfl⟩
abbrev main_call2_v6 : Ref sig .tc := ⟨.hbm, 164, rfl⟩
abbrev main_call2_v7 : Ref sig .tc := ⟨.hbm, 165, rfl⟩
abbrev main_call2_cst_1 : Ref sig .tc := ⟨.hbm, 166, rfl⟩
abbrev main_call2_v8 : Ref sig .tc := ⟨.hbm, 167, rfl⟩
abbrev main_call2_cst_2 : Ref sig .tc := ⟨.hbm, 168, rfl⟩
abbrev main_call2_v9 : Ref sig .tc := ⟨.hbm, 169, rfl⟩
abbrev main_call2_v10 : Ref sig .tc := ⟨.hbm, 170, rfl⟩
abbrev main_call2_v11 : Ref sig .tc := ⟨.hbm, 171, rfl⟩
abbrev main_call2_cst_3 : Ref sig .tc := ⟨.hbm, 172, rfl⟩
abbrev main_call2_v12 : Ref sig .tc := ⟨.hbm, 173, rfl⟩
abbrev main_call2_cst_4 : Ref sig .tc := ⟨.hbm, 174, rfl⟩
abbrev main_call2_call0_v0 : Ref sig .tc := ⟨.hbm, 175, rfl⟩
abbrev main_call2_call0_v1 : Ref sig .tc := ⟨.hbm, 176, rfl⟩
abbrev main_v84 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_cst_12 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_v92 : Ref sig .tc := ⟨.hbm, 186, rfl⟩
abbrev main_v93 : Ref sig .tc := ⟨.hbm, 187, rfl⟩
abbrev main_v94 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_v99 : Ref sig .tc := ⟨.hbm, 193, rfl⟩
abbrev main_call3_cst : Ref sig .tc := ⟨.hbm, 194, rfl⟩
abbrev main_call3_v0 : Ref sig .tc := ⟨.hbm, 195, rfl⟩
abbrev main_v100 : Ref sig .tc := ⟨.hbm, 196, rfl⟩
abbrev main_c_13 : Ref sig .tc := ⟨.hbm, 197, rfl⟩
abbrev main_v101 : Ref sig .tc := ⟨.hbm, 198, rfl⟩
abbrev main_v102 : Ref sig .tc := ⟨.hbm, 199, rfl⟩
abbrev main_c_14 : Ref sig .tc := ⟨.hbm, 200, rfl⟩
abbrev main_v103 : Ref sig .tc := ⟨.hbm, 201, rfl⟩
abbrev main_v104 : Ref sig .tc := ⟨.hbm, 202, rfl⟩
abbrev main_v105 : Ref sig .tc := ⟨.hbm, 203, rfl⟩
abbrev main_v106 : Ref sig .tc := ⟨.hbm, 204, rfl⟩
abbrev main_v107 : Ref sig .tc := ⟨.hbm, 205, rfl⟩
abbrev main_cst_15 : Ref sig .tc := ⟨.hbm, 206, rfl⟩
abbrev main_v108 : Ref sig .tc := ⟨.hbm, 207, rfl⟩
abbrev main_v109 : Ref sig .tc := ⟨.hbm, 208, rfl⟩
abbrev main_v110 : Ref sig .tc := ⟨.hbm, 209, rfl⟩
abbrev main_v111 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_v115 : Ref sig .tc := ⟨.hbm, 214, rfl⟩
abbrev main_v116 : Ref sig .tc := ⟨.hbm, 215, rfl⟩
abbrev main_v117 : Ref sig .tc := ⟨.hbm, 216, rfl⟩
abbrev main_v118 : Ref sig .tc := ⟨.hbm, 217, rfl⟩
abbrev main_v119 : Ref sig .tc := ⟨.hbm, 218, rfl⟩
abbrev main_v120 : Ref sig .tc := ⟨.hbm, 219, rfl⟩
abbrev main_v121 : Ref sig .tc := ⟨.hbm, 220, rfl⟩
abbrev main_v122 : Ref sig .tc := ⟨.hbm, 221, rfl⟩
abbrev main_v123 : Ref sig .tc := ⟨.hbm, 222, rfl⟩
abbrev main_cst_16 : Ref sig .tc := ⟨.hbm, 223, rfl⟩
abbrev main_v124 : Ref sig .tc := ⟨.hbm, 224, rfl⟩
abbrev main_cst_17 : Ref sig .tc := ⟨.hbm, 225, rfl⟩
abbrev main_v125 : Ref sig .tc := ⟨.hbm, 226, rfl⟩
abbrev main_v126 : Ref sig .tc := ⟨.hbm, 227, rfl⟩
abbrev main_c_18 : Ref sig .tc := ⟨.hbm, 228, rfl⟩
abbrev main_call4_cst : Ref sig .tc := ⟨.hbm, 229, rfl⟩
abbrev main_call4_v0 : Ref sig .tc := ⟨.hbm, 230, rfl⟩
abbrev main_call4_v1 : Ref sig .tc := ⟨.hbm, 231, rfl⟩
abbrev main_call4_cst_0 : Ref sig .tc := ⟨.hbm, 232, rfl⟩
abbrev main_call4_v2 : Ref sig .tc := ⟨.hbm, 233, rfl⟩
abbrev main_call4_v3 : Ref sig .tc := ⟨.hbm, 234, rfl⟩
abbrev main_call4_v4 : Ref sig .tc := ⟨.hbm, 235, rfl⟩
abbrev main_call4_v5 : Ref sig .tc := ⟨.hbm, 236, rfl⟩
abbrev main_call4_v6 : Ref sig .tc := ⟨.hbm, 237, rfl⟩
abbrev main_call4_v7 : Ref sig .tc := ⟨.hbm, 238, rfl⟩
abbrev main_call4_cst_1 : Ref sig .tc := ⟨.hbm, 239, rfl⟩
abbrev main_call4_v8 : Ref sig .tc := ⟨.hbm, 240, rfl⟩
abbrev main_call4_cst_2 : Ref sig .tc := ⟨.hbm, 241, rfl⟩
abbrev main_call4_v9 : Ref sig .tc := ⟨.hbm, 242, rfl⟩
abbrev main_call4_v10 : Ref sig .tc := ⟨.hbm, 243, rfl⟩
abbrev main_call4_v11 : Ref sig .tc := ⟨.hbm, 244, rfl⟩
abbrev main_call4_cst_3 : Ref sig .tc := ⟨.hbm, 245, rfl⟩
abbrev main_call4_v12 : Ref sig .tc := ⟨.hbm, 246, rfl⟩
abbrev main_call4_cst_4 : Ref sig .tc := ⟨.hbm, 247, rfl⟩
abbrev main_call4_call0_v0 : Ref sig .tc := ⟨.hbm, 248, rfl⟩
abbrev main_call4_call0_v1 : Ref sig .tc := ⟨.hbm, 249, rfl⟩
abbrev main_v127 : Ref sig .tc := ⟨.hbm, 250, rfl⟩
abbrev main_v128 : Ref sig .tc := ⟨.hbm, 251, rfl⟩
abbrev main_v129 : Ref sig .tc := ⟨.hbm, 252, rfl⟩
abbrev main_v130 : Ref sig .tc := ⟨.hbm, 253, rfl⟩
abbrev main_cst_19 : Ref sig .tc := ⟨.hbm, 254, rfl⟩
abbrev main_v131 : Ref sig .tc := ⟨.hbm, 255, rfl⟩
abbrev main_v132 : Ref sig .tc := ⟨.hbm, 256, rfl⟩
abbrev main_v133 : Ref sig .tc := ⟨.hbm, 257, rfl⟩
abbrev main_v134 : Ref sig .tc := ⟨.hbm, 258, rfl⟩
abbrev main_v135 : Ref sig .tc := ⟨.hbm, 259, rfl⟩
abbrev main_v136 : Ref sig .tc := ⟨.hbm, 260, rfl⟩
abbrev main_v137 : Ref sig .tc := ⟨.hbm, 261, rfl⟩
abbrev main_v138 : Ref sig .tc := ⟨.hbm, 262, rfl⟩
abbrev main_v139 : Ref sig .tc := ⟨.hbm, 263, rfl⟩
abbrev main_v140 : Ref sig .tc := ⟨.hbm, 264, rfl⟩
abbrev main_v141 : Ref sig .tc := ⟨.hbm, 265, rfl⟩
abbrev main_v142 : Ref sig .tc := ⟨.hbm, 266, rfl⟩
abbrev main_v143 : Ref sig .tc := ⟨.hbm, 267, rfl⟩
abbrev main_v144 : Ref sig .tc := ⟨.hbm, 268, rfl⟩
abbrev main_v145 : Ref sig .tc := ⟨.hbm, 269, rfl⟩
abbrev main_v146 : Ref sig .tc := ⟨.hbm, 270, rfl⟩
abbrev main_v147 : Ref sig .tc := ⟨.hbm, 271, rfl⟩
abbrev main_v148 : Ref sig .tc := ⟨.hbm, 272, rfl⟩
abbrev main_v149 : Ref sig .tc := ⟨.hbm, 273, rfl⟩
abbrev main_v150 : Ref sig .tc := ⟨.hbm, 274, rfl⟩
abbrev main_v151 : Ref sig .tc := ⟨.hbm, 275, rfl⟩
abbrev main_v152 : Ref sig .tc := ⟨.hbm, 276, rfl⟩
abbrev main_v153 : Ref sig .tc := ⟨.hbm, 277, rfl⟩
abbrev main_v154 : Ref sig .tc := ⟨.hbm, 278, rfl⟩
abbrev main_cst_20 : Ref sig .tc := ⟨.hbm, 279, rfl⟩
abbrev main_v155 : Ref sig .tc := ⟨.hbm, 280, rfl⟩
abbrev main_cst_21 : Ref sig .tc := ⟨.hbm, 281, rfl⟩
abbrev main_v156 : Ref sig .tc := ⟨.hbm, 282, rfl⟩
abbrev main_v157 : Ref sig .tc := ⟨.hbm, 283, rfl⟩
abbrev main_c_22 : Ref sig .tc := ⟨.hbm, 284, rfl⟩
abbrev main_call5_cst : Ref sig .tc := ⟨.hbm, 285, rfl⟩
abbrev main_call5_v0 : Ref sig .tc := ⟨.hbm, 286, rfl⟩
abbrev main_call5_v1 : Ref sig .tc := ⟨.hbm, 287, rfl⟩
abbrev main_call5_cst_0 : Ref sig .tc := ⟨.hbm, 288, rfl⟩
abbrev main_call5_v2 : Ref sig .tc := ⟨.hbm, 289, rfl⟩
abbrev main_call5_v3 : Ref sig .tc := ⟨.hbm, 290, rfl⟩
abbrev main_call5_v4 : Ref sig .tc := ⟨.hbm, 291, rfl⟩
abbrev main_call5_v5 : Ref sig .tc := ⟨.hbm, 292, rfl⟩
abbrev main_call5_v6 : Ref sig .tc := ⟨.hbm, 293, rfl⟩
abbrev main_call5_v7 : Ref sig .tc := ⟨.hbm, 294, rfl⟩
abbrev main_call5_cst_1 : Ref sig .tc := ⟨.hbm, 295, rfl⟩
abbrev main_call5_v8 : Ref sig .tc := ⟨.hbm, 296, rfl⟩
abbrev main_call5_cst_2 : Ref sig .tc := ⟨.hbm, 297, rfl⟩
abbrev main_call5_v9 : Ref sig .tc := ⟨.hbm, 298, rfl⟩
abbrev main_call5_v10 : Ref sig .tc := ⟨.hbm, 299, rfl⟩
abbrev main_call5_v11 : Ref sig .tc := ⟨.hbm, 300, rfl⟩
abbrev main_call5_cst_3 : Ref sig .tc := ⟨.hbm, 301, rfl⟩
abbrev main_call5_v12 : Ref sig .tc := ⟨.hbm, 302, rfl⟩
abbrev main_call5_cst_4 : Ref sig .tc := ⟨.hbm, 303, rfl⟩
abbrev main_call5_call0_v0 : Ref sig .tc := ⟨.hbm, 304, rfl⟩
abbrev main_call5_call0_v1 : Ref sig .tc := ⟨.hbm, 305, rfl⟩
abbrev main_v158 : Ref sig .tc := ⟨.hbm, 306, rfl⟩
abbrev main_v159 : Ref sig .tc := ⟨.hbm, 307, rfl⟩
abbrev main_v160 : Ref sig .tc := ⟨.hbm, 308, rfl⟩
abbrev main_v161 : Ref sig .tc := ⟨.hbm, 309, rfl⟩
abbrev main_cst_23 : Ref sig .tc := ⟨.hbm, 310, rfl⟩
abbrev main_v162 : Ref sig .tc := ⟨.hbm, 311, rfl⟩
abbrev main_v163 : Ref sig .tc := ⟨.hbm, 312, rfl⟩
abbrev main_v164 : Ref sig .tc := ⟨.hbm, 313, rfl⟩
abbrev main_v165 : Ref sig .tc := ⟨.hbm, 314, rfl⟩
abbrev main_v166 : Ref sig .tc := ⟨.hbm, 315, rfl⟩
abbrev main_v167 : Ref sig .tc := ⟨.hbm, 316, rfl⟩
abbrev main_v168 : Ref sig .tc := ⟨.hbm, 317, rfl⟩
abbrev main_v169 : Ref sig .tc := ⟨.hbm, 318, rfl⟩
abbrev main_v170 : Ref sig .tc := ⟨.hbm, 319, rfl⟩
abbrev main_v171 : Ref sig .tc := ⟨.hbm, 320, rfl⟩
abbrev main_v172 : Ref sig .tc := ⟨.hbm, 321, rfl⟩
abbrev main_v173 : Ref sig .tc := ⟨.hbm, 322, rfl⟩
abbrev main_v174 : Ref sig .tc := ⟨.hbm, 323, rfl⟩
abbrev main_v175 : Ref sig .tc := ⟨.hbm, 324, rfl⟩
abbrev main_v176 : Ref sig .tc := ⟨.hbm, 325, rfl⟩
abbrev main_v177 : Ref sig .tc := ⟨.hbm, 326, rfl⟩
abbrev main_cst_24 : Ref sig .tc := ⟨.hbm, 327, rfl⟩
abbrev main_v178 : Ref sig .tc := ⟨.hbm, 328, rfl⟩
abbrev main_cst_25 : Ref sig .tc := ⟨.hbm, 329, rfl⟩
abbrev main_v179 : Ref sig .tc := ⟨.hbm, 330, rfl⟩
abbrev main_v180 : Ref sig .tc := ⟨.hbm, 331, rfl⟩
abbrev main_c_26 : Ref sig .tc := ⟨.hbm, 332, rfl⟩
abbrev main_call6_cst : Ref sig .tc := ⟨.hbm, 333, rfl⟩
abbrev main_call6_v0 : Ref sig .tc := ⟨.hbm, 334, rfl⟩
abbrev main_call6_v1 : Ref sig .tc := ⟨.hbm, 335, rfl⟩
abbrev main_call6_cst_0 : Ref sig .tc := ⟨.hbm, 336, rfl⟩
abbrev main_call6_v2 : Ref sig .tc := ⟨.hbm, 337, rfl⟩
abbrev main_call6_v3 : Ref sig .tc := ⟨.hbm, 338, rfl⟩
abbrev main_call6_v4 : Ref sig .tc := ⟨.hbm, 339, rfl⟩
abbrev main_call6_v5 : Ref sig .tc := ⟨.hbm, 340, rfl⟩
abbrev main_call6_v6 : Ref sig .tc := ⟨.hbm, 341, rfl⟩
abbrev main_call6_v7 : Ref sig .tc := ⟨.hbm, 342, rfl⟩
abbrev main_call6_cst_1 : Ref sig .tc := ⟨.hbm, 343, rfl⟩
abbrev main_call6_v8 : Ref sig .tc := ⟨.hbm, 344, rfl⟩
abbrev main_call6_cst_2 : Ref sig .tc := ⟨.hbm, 345, rfl⟩
abbrev main_call6_v9 : Ref sig .tc := ⟨.hbm, 346, rfl⟩
abbrev main_call6_v10 : Ref sig .tc := ⟨.hbm, 347, rfl⟩
abbrev main_call6_v11 : Ref sig .tc := ⟨.hbm, 348, rfl⟩
abbrev main_call6_cst_3 : Ref sig .tc := ⟨.hbm, 349, rfl⟩
abbrev main_call6_v12 : Ref sig .tc := ⟨.hbm, 350, rfl⟩
abbrev main_call6_cst_4 : Ref sig .tc := ⟨.hbm, 351, rfl⟩
abbrev main_call6_call0_v0 : Ref sig .tc := ⟨.hbm, 352, rfl⟩
abbrev main_call6_call0_v1 : Ref sig .tc := ⟨.hbm, 353, rfl⟩
abbrev main_v181 : Ref sig .tc := ⟨.hbm, 354, rfl⟩
abbrev main_v182 : Ref sig .tc := ⟨.hbm, 355, rfl⟩
abbrev main_v183 : Ref sig .tc := ⟨.hbm, 356, rfl⟩
abbrev main_v184 : Ref sig .tc := ⟨.hbm, 357, rfl⟩
abbrev main_cst_27 : Ref sig .tc := ⟨.hbm, 358, rfl⟩
abbrev main_v185 : Ref sig .tc := ⟨.hbm, 359, rfl⟩
abbrev main_v186 : Ref sig .tc := ⟨.hbm, 360, rfl⟩
abbrev main_v187 : Ref sig .tc := ⟨.hbm, 361, rfl⟩
abbrev main_v188 : Ref sig .tc := ⟨.hbm, 362, rfl⟩
abbrev main_v189 : Ref sig .tc := ⟨.hbm, 363, rfl⟩
abbrev main_v190 : Ref sig .tc := ⟨.hbm, 364, rfl⟩
abbrev main_v191 : Ref sig .tc := ⟨.hbm, 365, rfl⟩
abbrev main_v192 : Ref sig .tc := ⟨.hbm, 366, rfl⟩
abbrev main_v193 : Ref sig .tc := ⟨.hbm, 367, rfl⟩
abbrev main_v194 : Ref sig .tc := ⟨.hbm, 368, rfl⟩
abbrev main_v195 : Ref sig .tc := ⟨.hbm, 369, rfl⟩
abbrev main_v196 : Ref sig .tc := ⟨.hbm, 370, rfl⟩
abbrev main_call7_cst : Ref sig .tc := ⟨.hbm, 371, rfl⟩
abbrev main_call7_v0 : Ref sig .tc := ⟨.hbm, 372, rfl⟩
abbrev main_v197 : Ref sig .tc := ⟨.hbm, 373, rfl⟩
abbrev main_c_28 : Ref sig .tc := ⟨.hbm, 374, rfl⟩
abbrev main_v198 : Ref sig .tc := ⟨.hbm, 375, rfl⟩
abbrev main_v199 : Ref sig .tc := ⟨.hbm, 376, rfl⟩
abbrev main_c_29 : Ref sig .tc := ⟨.hbm, 377, rfl⟩
abbrev main_v200 : Ref sig .tc := ⟨.hbm, 378, rfl⟩
abbrev main_v201 : Ref sig .tc := ⟨.hbm, 379, rfl⟩
abbrev main_v202 : Ref sig .tc := ⟨.hbm, 380, rfl⟩
abbrev main_v203 : Ref sig .tc := ⟨.hbm, 381, rfl⟩
abbrev main_v204 : Ref sig .tc := ⟨.hbm, 382, rfl⟩
abbrev main_cst_30 : Ref sig .tc := ⟨.hbm, 383, rfl⟩
abbrev main_v205 : Ref sig .tc := ⟨.hbm, 384, rfl⟩
abbrev main_v206 : Ref sig .tc := ⟨.hbm, 385, rfl⟩
abbrev main_v207 : Ref sig .tc := ⟨.hbm, 386, rfl⟩
abbrev main_v208 : Ref sig .tc := ⟨.hbm, 387, rfl⟩
abbrev main_v209 : Ref sig .tc := ⟨.hbm, 388, rfl⟩
abbrev main_v210 : Ref sig .tc := ⟨.hbm, 389, rfl⟩
abbrev main_v211 : Ref sig .tc := ⟨.hbm, 390, rfl⟩
abbrev main_v212 : Ref sig .tc := ⟨.hbm, 391, rfl⟩
abbrev main_v213 : Ref sig .tc := ⟨.hbm, 392, rfl⟩
abbrev main_v214 : Ref sig .tc := ⟨.hbm, 393, rfl⟩
abbrev main_v215 : Ref sig .tc := ⟨.hbm, 394, rfl⟩
abbrev main_v216 : Ref sig .tc := ⟨.hbm, 395, rfl⟩
abbrev main_v217 : Ref sig .tc := ⟨.hbm, 396, rfl⟩
abbrev main_v218 : Ref sig .tc := ⟨.hbm, 397, rfl⟩
abbrev main_v219 : Ref sig .tc := ⟨.hbm, 398, rfl⟩
abbrev main_v220 : Ref sig .tc := ⟨.hbm, 399, rfl⟩
abbrev main_cst_31 : Ref sig .tc := ⟨.hbm, 400, rfl⟩
abbrev main_v221 : Ref sig .tc := ⟨.hbm, 401, rfl⟩
abbrev main_cst_32 : Ref sig .tc := ⟨.hbm, 402, rfl⟩
abbrev main_v222 : Ref sig .tc := ⟨.hbm, 403, rfl⟩
abbrev main_v223 : Ref sig .tc := ⟨.hbm, 404, rfl⟩
abbrev main_c_33 : Ref sig .tc := ⟨.hbm, 405, rfl⟩
abbrev main_call8_cst : Ref sig .tc := ⟨.hbm, 406, rfl⟩
abbrev main_call8_v0 : Ref sig .tc := ⟨.hbm, 407, rfl⟩
abbrev main_call8_v1 : Ref sig .tc := ⟨.hbm, 408, rfl⟩
abbrev main_call8_cst_0 : Ref sig .tc := ⟨.hbm, 409, rfl⟩
abbrev main_call8_v2 : Ref sig .tc := ⟨.hbm, 410, rfl⟩
abbrev main_call8_v3 : Ref sig .tc := ⟨.hbm, 411, rfl⟩
abbrev main_call8_v4 : Ref sig .tc := ⟨.hbm, 412, rfl⟩
abbrev main_call8_v5 : Ref sig .tc := ⟨.hbm, 413, rfl⟩
abbrev main_call8_v6 : Ref sig .tc := ⟨.hbm, 414, rfl⟩
abbrev main_call8_v7 : Ref sig .tc := ⟨.hbm, 415, rfl⟩
abbrev main_call8_cst_1 : Ref sig .tc := ⟨.hbm, 416, rfl⟩
abbrev main_call8_v8 : Ref sig .tc := ⟨.hbm, 417, rfl⟩
abbrev main_call8_cst_2 : Ref sig .tc := ⟨.hbm, 418, rfl⟩
abbrev main_call8_v9 : Ref sig .tc := ⟨.hbm, 419, rfl⟩
abbrev main_call8_v10 : Ref sig .tc := ⟨.hbm, 420, rfl⟩
abbrev main_call8_v11 : Ref sig .tc := ⟨.hbm, 421, rfl⟩
abbrev main_call8_cst_3 : Ref sig .tc := ⟨.hbm, 422, rfl⟩
abbrev main_call8_v12 : Ref sig .tc := ⟨.hbm, 423, rfl⟩
abbrev main_call8_cst_4 : Ref sig .tc := ⟨.hbm, 424, rfl⟩
abbrev main_call8_call0_v0 : Ref sig .tc := ⟨.hbm, 425, rfl⟩
abbrev main_call8_call0_v1 : Ref sig .tc := ⟨.hbm, 426, rfl⟩
abbrev main_v224 : Ref sig .tc := ⟨.hbm, 427, rfl⟩
abbrev main_v225 : Ref sig .tc := ⟨.hbm, 428, rfl⟩
abbrev main_v226 : Ref sig .tc := ⟨.hbm, 429, rfl⟩
abbrev main_v227 : Ref sig .tc := ⟨.hbm, 430, rfl⟩
abbrev main_cst_34 : Ref sig .tc := ⟨.hbm, 431, rfl⟩
abbrev main_v228 : Ref sig .tc := ⟨.hbm, 432, rfl⟩
abbrev main_v229 : Ref sig .tc := ⟨.hbm, 433, rfl⟩
abbrev main_v230 : Ref sig .tc := ⟨.hbm, 434, rfl⟩
abbrev main_v231 : Ref sig .tc := ⟨.hbm, 435, rfl⟩
abbrev main_v232 : Ref sig .tc := ⟨.hbm, 436, rfl⟩
abbrev main_v233 : Ref sig .tc := ⟨.hbm, 437, rfl⟩
abbrev main_v234 : Ref sig .tc := ⟨.hbm, 438, rfl⟩
abbrev main_v235 : Ref sig .tc := ⟨.hbm, 439, rfl⟩
abbrev main_v236 : Ref sig .tc := ⟨.hbm, 440, rfl⟩
abbrev main_v237 : Ref sig .tc := ⟨.hbm, 441, rfl⟩
abbrev main_v238 : Ref sig .tc := ⟨.hbm, 442, rfl⟩
abbrev main_v239 : Ref sig .tc := ⟨.hbm, 443, rfl⟩
abbrev main_v240 : Ref sig .tc := ⟨.hbm, 444, rfl⟩
abbrev main_v241 : Ref sig .tc := ⟨.hbm, 445, rfl⟩
abbrev main_v242 : Ref sig .tc := ⟨.hbm, 446, rfl⟩
abbrev main_v243 : Ref sig .tc := ⟨.hbm, 447, rfl⟩
abbrev main_v244 : Ref sig .tc := ⟨.hbm, 448, rfl⟩
abbrev main_v245 : Ref sig .tc := ⟨.hbm, 449, rfl⟩
abbrev main_v246 : Ref sig .tc := ⟨.hbm, 450, rfl⟩
abbrev main_v247 : Ref sig .tc := ⟨.hbm, 451, rfl⟩
abbrev main_v248 : Ref sig .tc := ⟨.hbm, 452, rfl⟩
abbrev main_v249 : Ref sig .tc := ⟨.hbm, 453, rfl⟩
abbrev main_v250 : Ref sig .tc := ⟨.hbm, 454, rfl⟩
abbrev main_v251 : Ref sig .tc := ⟨.hbm, 455, rfl⟩
abbrev main_cst_35 : Ref sig .tc := ⟨.hbm, 456, rfl⟩
abbrev main_v252 : Ref sig .tc := ⟨.hbm, 457, rfl⟩
abbrev main_cst_36 : Ref sig .tc := ⟨.hbm, 458, rfl⟩
abbrev main_v253 : Ref sig .tc := ⟨.hbm, 459, rfl⟩
abbrev main_v254 : Ref sig .tc := ⟨.hbm, 460, rfl⟩
abbrev main_c_37 : Ref sig .tc := ⟨.hbm, 461, rfl⟩
abbrev main_call9_cst : Ref sig .tc := ⟨.hbm, 462, rfl⟩
abbrev main_call9_v0 : Ref sig .tc := ⟨.hbm, 463, rfl⟩
abbrev main_call9_v1 : Ref sig .tc := ⟨.hbm, 464, rfl⟩
abbrev main_call9_cst_0 : Ref sig .tc := ⟨.hbm, 465, rfl⟩
abbrev main_call9_v2 : Ref sig .tc := ⟨.hbm, 466, rfl⟩
abbrev main_call9_v3 : Ref sig .tc := ⟨.hbm, 467, rfl⟩
abbrev main_call9_v4 : Ref sig .tc := ⟨.hbm, 468, rfl⟩
abbrev main_call9_v5 : Ref sig .tc := ⟨.hbm, 469, rfl⟩
abbrev main_call9_v6 : Ref sig .tc := ⟨.hbm, 470, rfl⟩
abbrev main_call9_v7 : Ref sig .tc := ⟨.hbm, 471, rfl⟩
abbrev main_call9_cst_1 : Ref sig .tc := ⟨.hbm, 472, rfl⟩
abbrev main_call9_v8 : Ref sig .tc := ⟨.hbm, 473, rfl⟩
abbrev main_call9_cst_2 : Ref sig .tc := ⟨.hbm, 474, rfl⟩
abbrev main_call9_v9 : Ref sig .tc := ⟨.hbm, 475, rfl⟩
abbrev main_call9_v10 : Ref sig .tc := ⟨.hbm, 476, rfl⟩
abbrev main_call9_v11 : Ref sig .tc := ⟨.hbm, 477, rfl⟩
abbrev main_call9_cst_3 : Ref sig .tc := ⟨.hbm, 478, rfl⟩
abbrev main_call9_v12 : Ref sig .tc := ⟨.hbm, 479, rfl⟩
abbrev main_call9_cst_4 : Ref sig .tc := ⟨.hbm, 480, rfl⟩
abbrev main_call9_call0_v0 : Ref sig .tc := ⟨.hbm, 481, rfl⟩
abbrev main_call9_call0_v1 : Ref sig .tc := ⟨.hbm, 482, rfl⟩
abbrev main_v255 : Ref sig .tc := ⟨.hbm, 483, rfl⟩
abbrev main_v256 : Ref sig .tc := ⟨.hbm, 484, rfl⟩
abbrev main_v257 : Ref sig .tc := ⟨.hbm, 485, rfl⟩
abbrev main_v258 : Ref sig .tc := ⟨.hbm, 486, rfl⟩
abbrev main_cst_38 : Ref sig .tc := ⟨.hbm, 487, rfl⟩
abbrev main_v259 : Ref sig .tc := ⟨.hbm, 488, rfl⟩
abbrev main_v260 : Ref sig .tc := ⟨.hbm, 489, rfl⟩
abbrev main_v261 : Ref sig .tc := ⟨.hbm, 490, rfl⟩
abbrev main_v262 : Ref sig .tc := ⟨.hbm, 491, rfl⟩
abbrev main_v263 : Ref sig .tc := ⟨.hbm, 492, rfl⟩
abbrev main_v264 : Ref sig .tc := ⟨.hbm, 493, rfl⟩
abbrev main_v265 : Ref sig .tc := ⟨.hbm, 494, rfl⟩
abbrev main_v266 : Ref sig .tc := ⟨.hbm, 495, rfl⟩
abbrev main_v267 : Ref sig .tc := ⟨.hbm, 496, rfl⟩
abbrev main_v268 : Ref sig .tc := ⟨.hbm, 497, rfl⟩
abbrev main_v269 : Ref sig .tc := ⟨.hbm, 498, rfl⟩
abbrev main_v270 : Ref sig .tc := ⟨.hbm, 499, rfl⟩
abbrev main_v271 : Ref sig .tc := ⟨.hbm, 500, rfl⟩
abbrev main_v272 : Ref sig .tc := ⟨.hbm, 501, rfl⟩
abbrev main_v273 : Ref sig .tc := ⟨.hbm, 502, rfl⟩
abbrev main_v274 : Ref sig .tc := ⟨.hbm, 503, rfl⟩
abbrev main_cst_39 : Ref sig .tc := ⟨.hbm, 504, rfl⟩
abbrev main_v275 : Ref sig .tc := ⟨.hbm, 505, rfl⟩
abbrev main_cst_40 : Ref sig .tc := ⟨.hbm, 506, rfl⟩
abbrev main_v276 : Ref sig .tc := ⟨.hbm, 507, rfl⟩
abbrev main_v277 : Ref sig .tc := ⟨.hbm, 508, rfl⟩
abbrev main_c_41 : Ref sig .tc := ⟨.hbm, 509, rfl⟩
abbrev main_call10_cst : Ref sig .tc := ⟨.hbm, 510, rfl⟩
abbrev main_call10_v0 : Ref sig .tc := ⟨.hbm, 511, rfl⟩
abbrev main_call10_v1 : Ref sig .tc := ⟨.hbm, 512, rfl⟩
abbrev main_call10_cst_0 : Ref sig .tc := ⟨.hbm, 513, rfl⟩
abbrev main_call10_v2 : Ref sig .tc := ⟨.hbm, 514, rfl⟩
abbrev main_call10_v3 : Ref sig .tc := ⟨.hbm, 515, rfl⟩
abbrev main_call10_v4 : Ref sig .tc := ⟨.hbm, 516, rfl⟩
abbrev main_call10_v5 : Ref sig .tc := ⟨.hbm, 517, rfl⟩
abbrev main_call10_v6 : Ref sig .tc := ⟨.hbm, 518, rfl⟩
abbrev main_call10_v7 : Ref sig .tc := ⟨.hbm, 519, rfl⟩
abbrev main_call10_cst_1 : Ref sig .tc := ⟨.hbm, 520, rfl⟩
abbrev main_call10_v8 : Ref sig .tc := ⟨.hbm, 521, rfl⟩
abbrev main_call10_cst_2 : Ref sig .tc := ⟨.hbm, 522, rfl⟩
abbrev main_call10_v9 : Ref sig .tc := ⟨.hbm, 523, rfl⟩
abbrev main_call10_v10 : Ref sig .tc := ⟨.hbm, 524, rfl⟩
abbrev main_call10_v11 : Ref sig .tc := ⟨.hbm, 525, rfl⟩
abbrev main_call10_cst_3 : Ref sig .tc := ⟨.hbm, 526, rfl⟩
abbrev main_call10_v12 : Ref sig .tc := ⟨.hbm, 527, rfl⟩
abbrev main_call10_cst_4 : Ref sig .tc := ⟨.hbm, 528, rfl⟩
abbrev main_call10_call0_v0 : Ref sig .tc := ⟨.hbm, 529, rfl⟩
abbrev main_call10_call0_v1 : Ref sig .tc := ⟨.hbm, 530, rfl⟩
abbrev main_v278 : Ref sig .tc := ⟨.hbm, 531, rfl⟩
abbrev main_v279 : Ref sig .tc := ⟨.hbm, 532, rfl⟩
abbrev main_v280 : Ref sig .tc := ⟨.hbm, 533, rfl⟩
abbrev main_v281 : Ref sig .tc := ⟨.hbm, 534, rfl⟩
abbrev main_cst_42 : Ref sig .tc := ⟨.hbm, 535, rfl⟩
abbrev main_v282 : Ref sig .tc := ⟨.hbm, 536, rfl⟩
abbrev main_v283 : Ref sig .tc := ⟨.hbm, 537, rfl⟩
abbrev main_v284 : Ref sig .tc := ⟨.hbm, 538, rfl⟩
abbrev main_v285 : Ref sig .tc := ⟨.hbm, 539, rfl⟩
abbrev main_v286 : Ref sig .tc := ⟨.hbm, 540, rfl⟩
abbrev main_v287 : Ref sig .tc := ⟨.hbm, 541, rfl⟩
abbrev main_v288 : Ref sig .tc := ⟨.hbm, 542, rfl⟩
abbrev main_v289 : Ref sig .tc := ⟨.hbm, 543, rfl⟩
abbrev main_v290 : Ref sig .tc := ⟨.hbm, 544, rfl⟩
abbrev main_v291 : Ref sig .tc := ⟨.hbm, 545, rfl⟩
abbrev main_v292 : Ref sig .tc := ⟨.hbm, 546, rfl⟩
abbrev main_v293 : Ref sig .tc := ⟨.hbm, 547, rfl⟩
abbrev main_call11_cst : Ref sig .tc := ⟨.hbm, 548, rfl⟩
abbrev main_call11_v0 : Ref sig .tc := ⟨.hbm, 549, rfl⟩
abbrev main_v294 : Ref sig .tc := ⟨.hbm, 550, rfl⟩
abbrev main_v295 : Ref sig .tc := ⟨.hbm, 551, rfl⟩
abbrev main_v296 : Ref sig .tc := ⟨.hbm, 552, rfl⟩
abbrev main_v297 : Ref sig .tc := ⟨.hbm, 553, rfl⟩
abbrev main_cst_43 : Ref sig .tc := ⟨.hbm, 554, rfl⟩
abbrev main_v298 : Ref sig .tc := ⟨.hbm, 555, rfl⟩
abbrev main_v299 : Ref sig .tc := ⟨.hbm, 556, rfl⟩
abbrev main_v300 : Ref sig .tc := ⟨.hbm, 557, rfl⟩
abbrev main_v301 : Ref sig .tc := ⟨.hbm, 558, rfl⟩
abbrev main_v302 : Ref sig .tc := ⟨.hbm, 559, rfl⟩
abbrev main_v303 : Ref sig .tc := ⟨.hbm, 560, rfl⟩
abbrev main_v304 : Ref sig .tc := ⟨.hbm, 561, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S128x128 : S_.BroadcastsInDim S128x128 (![] : Fin 0 → Fin S128x128.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S128x128_S100000x1_S100000x128_1_0_0_1_wf : ScatterDims.WF S128x128 S100000x1 S100000x128 [1] [0] [0] 1
  dot_S128x128_S128x2_S128x2_1_0_0_1_n_n_wf : DotDims.WF S128x128 S128x2 S128x2 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

class Facts : Prop extends Facts₀ where

variable [Facts]
-- ==== Proof.KB.Common.lean ====
/-
  A valuation of a core's buffers, read at the TensorCore's references: the form a pipeline's proof data takes its arrays in.
-/
import proofs.«141748_j59863254171699_1_alg».proof.Proof.Gen.Kernel.Launch

noncomputable section

namespace Cert.Kernel.Hand

open Cert.Kernel Idealize.ShloMosaic Idealize.ShloMosaic.TcCoe Idealize.SL.Sem

variable {F : FTy → Type} [FloatOps F]

/-- A valuation of the core's buffers read at the TensorCore's references. -/
abbrev Vof (W : Dev nD → Valuation τ sig (Elt F)) : (c : Dev nD) → (b : Ref sig .tc) → Buf (Elt F) ((c : Thread nD τ).loc b) :=
  fun c b => W c b

end Cert.Kernel.Hand

end
-- ==== Proof.KB.Region0.lean ====
/-
  Region 0 of @main as a pipeline — the first kernel of a layer: the sum of two blocks of rows, times a 128 × 128 matrix, plus a row of biases —: what its body leaves in the output window's buffer, the body's
  triple, the proof data and the body obligation, at a PARAMETER V (the buffers' contents when the region is entered), for
  any float values. The body's arithmetic stays the one named payload; nothing here opens it.
-/
import proofs.«141748_j59863254171699_1_alg».proof.Proof.Gen.Kernel.Launch
import proofs.«141748_j59863254171699_1_alg».proof.Proof.Gen.Kernel.Skeleton
import proofs.«141748_j59863254171699_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not (unfetched, the block
    index has not moved), for any proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses, and what it leaves in the output window's buffer -/

abbrev r0_big : Rect S5000x128 := Rect.unit (s := S5000x128) ![0, 0] S5000x128.size inb_S5000x128_S5000x128_0_0
abbrev r0_mat : Rect S128x128 := Rect.unit (s := S128x128) ![0, 0] S128x128.size inb_S128x128_S128x128_0_0
abbrev r0_row : Rect S1x128 := Rect.unit (s := S1x128) ![0, 0] S1x128.size inb_S1x128_S1x128_0_0

/-- The output window's staging buffer after the body, from the input windows' blocks: its one store, of the whole block. -/
def out0_4 (x0 : Vec F S5000x128 .f32) (x1 : Vec F S5000x128 .f32) (x2 : Vec F S128x128 .bf16) (x3 : Vec F S1x128 .f32) : Vec F S5000x128 .f32 :=
  View.canon [⟨r0_big, k0_pay1 (View.ld x0 r0_big) (View.ld x1 r0_big) (View.ld x2 r0_mat) (View.ld x3 r0_row)⟩]

/-- The store covers the buffer. -/
theorem cover0_4 (p0 : Vec F S5000x128 .f32) (y : S5000x128.Idx) :
    ∃ pc ∈ ([⟨r0_big, p0⟩] : List (View.Piece (Elt F) S5000x128 .f32)), y ∈ pc.1.set :=
  View.cover_of_tiled [⟨r0_big, p0⟩] S5000x128.size (by rfl) y

/-! ## The body's triple -/

set_option maxHeartbeats 1000000 in
/-- The kernel body on whole staging memrefs, the inputs' at read contents and the output's at anything, runs to the
    continuation holding the inputs' as they were and the output's at out0_4 of the inputs'. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x128 .f32) (x2 : Vec F S128x128 .bf16) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__combine_matmul_kernel i arg1 harg1 arg2 harg2 arg3 harg3 arg4 harg4 arg5 harg5) K := by
  simp only [cc0__combine_matmul_kernel_eq_skeleton]; unfold cc0__combine_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core c: the arrays as the region finds them; after the body at point t each input's
    buffer at its block and the output's at out0_4 of the input blocks; the class invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and the
    core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.LibRegionA.lean ====
/-
  A kernel region of a program of several regions, as the segment record the regions kit asks for, for a kernel whose
  body needs of the region's invariant only the class invariant (the scoped buffers no window stages, at some contents,
  and the generator register at some state), owes nothing, has no semaphores of its own and no prefetched table — and
  whose windows MAY SHARE ARRAYS.

  The thread state around the region is "every unscoped buffer of the core at a valuation, the generator register at
  some state, nothing owed". At the entry the unscoped buffers split into the DISTINCT buffers behind the windows'
  arrays (`arrBufs`) and the rest; that split needs the arrays unscoped and nothing about their being distinct. What
  depends on how the windows sit on the arrays is stated as two hypotheses:

  * `hsplit`: the buffers behind the arrays, whole at the full share at the entry valuation, yield the proof data's
    `arrays` at the entry contents (each window at the share the proof data names: windows reading one array divide
    its full share among them);
  * `hjoin`: the proof data's `arrays` at the contents after the last point yield those buffers whole at the full
    share at the exit valuation.

  With distinct arrays both are the library's (`arrays_split` and its converse). The exit valuation agrees with the
  entry valuation off the arrays (`hrest`).
-/
import Idealize.ShloMosaic.Lib.Pipeline.Frame
import Idealize.ShloMosaic.Lib.Pipeline.Regions
import Idealize.ShloMosaic.Lib.Pipeline.RegionsLoop

noncomputable section

namespace Idealize.ShloMosaic

open Idealize.SL
open Idealize.SL.BI (sProp bigSep bigSep_map bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

section RegionA

variable {Λ₀ : SL.Sem.Labels} {P : Type} [Fintype P] {U : Type} [URA U]

local notation "𝕄" => MT nD τ sig Unit Val ℕ U ℕ

variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

/-- What rides beside the unscoped buffers through every segment: the core's generator register at some state and
    its `owes`, at nothing. -/
abbrev rideA (c : Dev nD) : sProp 𝕄 :=
  iprop((∃ r, prngReg c r) ∗ ∃ W, owes (c.tc : Thread nD τ) (0 : CellTallies nD τ sig Unit) W)

-- a library lemma stated over `pin pcs a p` unifies with the record's fields only when unification may unfold plain
-- definitions in a metavariable's type
set_option backward.isDefEq.respectTransparency.types false in
/-- THE REGION RECORD: entered from every unscoped buffer at `W c`, left at `W' c`. -/
def regionA (p : P)
    (hw : WinFacts₀ (pcs p).spec)
    (hpos : ∀ w : Fin (pin pcs a p).W, 0 < ((pin pcs a p).spec w).block.numel)
    (hstage : ∀ (w : Fin (pin pcs a p).W) (s : Fin ((pin pcs a p).spec w).nbuf), (((pin pcs a p).spec w).stage s).IsWhole)
    (hbody : ∀ c, BodyObligationLoose (pdats p c) defs₀ 𝒱₀ () Set.univ)
    (howed : ∀ c t, (pdats p c).owed t = 0)
    (hrec : ∀ c, (pdats p c).recorded 0 = Set.univ)
    (hΦ : ∀ c t, (pdats p c).Φ t = ΦA (pin pcs a p).spec c)
    (hpref : ∀ c, (BI.emp : sProp 𝕄) ⊢ prefHeld (pcs p).pre c (fun _ => fullShare) (a p).1)
    (W W' : Dev nD → Valuation τ sig Val)
    (hsplit : ∀ c, (arrBufs (pin pcs a p).spec c (fun b => W c b) : sProp 𝕄) ⊢ (pdats p c).arrays ((pdats p c).arrAt · 0))
    (hjoin : ∀ c, (pdats p c).arrays ((pdats p c).arrAt · (pin pcs a p).N)
      ⊢ (arrBufs (pin pcs a p).spec c (fun b => W' c b) : sProp 𝕄))
    (hrest : ∀ c (b : Ref sig .tc), b ∉ Finset.univ.image (arrRef (pin pcs a p).spec) → W' c b = W c b) :
    RegionSeg pcs a pdats () defs₀ 𝒱₀ L lv p where
  win := hw
  block_pos := hpos
  stage_whole := hstage
  K := PEmpty
  osem k := k.elim
  ho := OwnSemFacts.none _
  hbody := hbody
  hwaits := hwaits_of_owed_zero pcs a pdats () L lv p howed
  pre c := iprop(StableHlo.held (c.tc : Thread nD τ) (ucRefs τ sig) (W c) ∗ rideA c)
  post c := iprop(StableHlo.held (c.tc : Thread nD τ) (ucRefs τ sig) (W' c) ∗ rideA c)
  X c := iprop(∃ r, prngReg c r)
  Y c := iprop(∃ r, prngReg c r)
  Z c := unscopedRest (pin pcs a p).spec c (fun b => W c b)
  hentry c := by
    rw [ownSems0_none, ← unscopedBufs_held c (W c), unscopedBufs_split₀ (pin pcs a) p hw.arr_unscoped c (fun b => W c b)]
    iintro ⟨⟨⟨Ha, Hrest⟩, Hp, HO⟩, -, -⟩
    ihave Ha' := hsplit c $$ Ha
    imodintro
    isplitl [Ha']; · iexact Ha'
    isplitr; · iapply (hpref c); iempintro
    isplitl [HO]
    · unfold Dat.owesAt owesWithin
      icases HO with ⟨%Wo, HO⟩; iexists Wo; isplitr; · ipureintro; exact fun _ _ => Or.inl (by rw [hrec c]; trivial)
      rw [howed c 0]; iexact HO
    isplitl [Hp]; · iexact Hp
    iexact Hrest
  hin c := by
    rw [hΦ c 0]; unfold ΦA
    iintro ⟨Hp, -, Hr⟩
    isplitl [Hr]; · iexact Hr
    iexact Hp
  hout c := by
    rw [ownSems0_none, hΦ c (Fin.last _)]; unfold ΦA
    iintro ⟨Hr, Hp⟩
    isplitl [Hp]; · iexact Hp
    isplitr; · iempintro
    iexact Hr
  hexit c := by
    rw [← unscopedBufs_held c (W' c), unscopedBufs_split₀ (pin pcs a) p hw.arr_unscoped c (fun b => W' c b)]
    have hr : (unscopedRest (pin pcs a p).spec c (fun b => W c b) : sProp 𝕄)
        = unscopedRest (pin pcs a p).spec c (fun b => W' c b) := by
      unfold unscopedRest
      exact bigSep_congr fun b hb => by beta_reduce; rw [hrest c b (Finset.mem_sdiff.mp hb).2]
    iintro ⟨Ha, HO, HY, Hrest⟩
    ihave Ha' := hjoin c $$ Ha
    imodintro
    isplitl [Ha' Hrest]
    · isplitl [Ha']; · iexact Ha'
      rw [← hr]; iexact Hrest
    isplitl [HY]; · iexact HY
    unfold Dat.owesAt owesWithin
    icases HO with ⟨%Wo, -, HO⟩; iexists Wo
    rw [howed c (Fin.last _)]; iexact HO

end RegionA

end Pipeline

end Idealize.ShloMosaic

end
-- ==== Proof.LibSharedArrays.lean ====
/-
  Windows that share arrays: the pipeline's `arrays` against the distinct buffers behind them.

  A pipeline's proof data holds, per window, the window's array at a share (`Dat.arrays`: a separating conjunction over
  the WINDOWS). What a region is handed is each buffer once, whole at the full share (`arrBufs`: a separating
  conjunction over the DISTINCT buffers behind the windows' arrays). When no two windows have the same array the two
  are the same conjunction re-indexed. When several windows read one array they are not: the conjunction over the
  windows has to be regrouped by array, and on each array the windows' shares have to make up the full share.

  1. `bigSep_fiberwise`: a separating conjunction over a finite set is the conjunction, over the image of the set under
     any map, of the conjunctions over the map's fibres.
  2. `arrays_eq_fibres`: `Dat.arrays`, at contents read off a valuation of the buffers, regrouped by array.
  3. `arrays_split_fibres` / `arrays_join_fibres`: from (to) `arrBufs`, given per array that the full share splits into
     (is made up of) the shares of the windows on it.
  4. The two fibres that occur in practice: one window alone on its array at the full share (`fibre_single`); two
     windows on one array at the two halves of the full share (`fibre_pair`).
-/
import Idealize.ShloMosaic.Lib.Pipeline.Launch

noncomputable section

namespace Idealize.SL.BI

open Idealize.SL Idealize.SL.RA
open scoped Idealize.SL.BI

variable {M : Type*} [URA M] {I : Type*}

/-- A separating conjunction over `s` regrouped by the fibres of `f`: over the image of `s`, per value `b`, the
    conjunction over the members of `s` that `f` sends to `b`. -/
theorem bigSep_fiberwise [DecidableEq I] {J : Type*} [DecidableEq J] (s : Finset I) (f : I → J) (Φ : I → sProp M) :
    bigSep s Φ = bigSep (s.image f) (fun b => bigSep (s.filter fun i => f i = b) Φ) := by
  induction s using Finset.induction_on with
  | empty => rw [Finset.image_empty, bigSep_empty, bigSep_empty]
  | insert i s hi ih =>
    have hni : i ∉ s.filter fun j => f j = f i := fun h => hi (Finset.mem_filter.mp h).1
    have hhead : (insert i s).filter (fun j => f j = f i) = insert i (s.filter fun j => f j = f i) := by
      rw [Finset.filter_insert, if_pos rfl]
    have htail : ∀ b, b ≠ f i → (insert i s).filter (fun j => f j = b) = s.filter fun j => f j = b := by
      intro b hb; rw [Finset.filter_insert, if_neg (fun h => hb h.symm)]
    rw [bigSep_insert hi, ih, Finset.image_insert]
    by_cases hmem : f i ∈ s.image f
    · -- the value is met already: the new member joins its fibre
      rw [Finset.insert_eq_of_mem hmem,
        bigSep_erase hmem (Φ := fun b => bigSep (s.filter fun j => f j = b) Φ),
        bigSep_erase hmem (Φ := fun b => bigSep ((insert i s).filter fun j => f j = b) Φ)]
      have e : bigSep ((s.image f).erase (f i)) (fun b => bigSep ((insert i s).filter fun j => f j = b) Φ)
          = bigSep ((s.image f).erase (f i)) (fun b => bigSep (s.filter fun j => f j = b) Φ) :=
        bigSep_congr fun b hb => by rw [htail b (Finset.ne_of_mem_erase hb)]
      rw [e, hhead, bigSep_insert hni]
      exact (equiv_iff.mp ⟨sep_assoc, sep_assoc'⟩).symm
    · -- a new value: the new member is its fibre
      have e : bigSep (s.image f) (fun b => bigSep ((insert i s).filter fun j => f j = b) Φ)
          = bigSep (s.image f) (fun b => bigSep (s.filter fun j => f j = b) Φ) :=
        bigSep_congr fun b hb => by rw [htail b (fun h => hmem (h ▸ hb))]
      have hempty : s.filter (fun j => f j = f i) = ∅ :=
        Finset.filter_eq_empty_iff.mpr fun j hj h => hmem (Finset.mem_image.mpr ⟨j, hj, h⟩)
      rw [bigSep_insert hmem, e, hhead, hempty, bigSep_insert (Finset.notMem_empty i), bigSep_empty,
        equiv_iff.mp sep_emp]

end Idealize.SL.BI

namespace Idealize.ShloMosaic

open Idealize.SL
open Idealize.SL.BI (sProp bigSep bigSep_congr bigSep_mono bigSep_fiberwise bigSep_singleton bigSep_insert)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

namespace Pipeline

section Shared

variable {Λ₀ : SL.Sem.Labels} {P : Type}
variable (cfgs : P → Cfg sig Λ₀) (dats : (p : P) → (c : Dev nD) → Dat τ Val Ix Name U Lvl (cfgs p) c) (p : P)

local notation "cfg" => cfgs p

/-- The pipeline's `arrays`, at contents read off a valuation `V` of the buffers (`hF`), regrouped by array: per
    buffer behind some window's array, that buffer at `V` once per window on it, at the window's share. -/
theorem arrays_eq_fibres (c : Dev nD) (harr : ∀ w, ((cfg).spec w).arr.IsWhole)
    (V : (b : Ref sig .tc) → Buf Val ((c.tc : Thread nD τ).loc b))
    (F : (w : Fin (cfg).W) → Buf Val (((cfg).spec w).arr.view.loc (c.tc : Thread nD τ))) (hF : ∀ w, F w = V (arrRef (cfg).spec w)) :
    (dats p c).arrays F
      = bigSep (Finset.univ.image (arrRef (cfg).spec)) fun b =>
          bigSep (Finset.univ.filter fun w => arrRef (cfg).spec w = b) fun w =>
            (((c.tc : Thread nD τ).loc b) ↦{(dats p c).share w} V b : sProp 𝕄) := by
  classical
  have h1 : (dats p c).arrays F
      = bigSep Finset.univ fun w => (((c.tc : Thread nD τ).loc (arrRef (cfg).spec w)) ↦{(dats p c).share w} V (arrRef (cfg).spec w) : sProp 𝕄) := by
    unfold Dat.arrays
    exact bigSep_congr fun w _ => by rw [(harr w).set_eq_univ, hF]
  rw [h1, bigSep_fiberwise Finset.univ (arrRef (cfg).spec)]
  exact bigSep_congr fun b _ => bigSep_congr fun w hw => by
    have h := (Finset.mem_filter.mp hw).2
    subst h; rfl

/-- ENTRY with shared arrays: the buffers behind the arrays, whole at the full share at `V`, yield the pipeline's
    `arrays`, given per buffer that the full share splits into the shares of the windows on it. -/
theorem arrays_split_fibres (c : Dev nD) (harr : ∀ w, ((cfg).spec w).arr.IsWhole)
    (V : (b : Ref sig .tc) → Buf Val ((c.tc : Thread nD τ).loc b))
    (F : (w : Fin (cfg).W) → Buf Val (((cfg).spec w).arr.view.loc (c.tc : Thread nD τ))) (hF : ∀ w, F w = V (arrRef (cfg).spec w))
    (hfib : ∀ b ∈ Finset.univ.image (arrRef (cfg).spec),
      (((c.tc : Thread nD τ).loc b) ↦{fullShare} V b : sProp 𝕄)
        ⊢ bigSep (Finset.univ.filter fun w => arrRef (cfg).spec w = b) fun w =>
            (((c.tc : Thread nD τ).loc b) ↦{(dats p c).share w} V b : sProp 𝕄)) :
    (arrBufs (cfg).spec c V : sProp 𝕄) ⊢ (dats p c).arrays F := by
  rw [arrays_eq_fibres cfgs dats p c harr V F hF]
  unfold arrBufs
  exact bigSep_mono hfib

/-- EXIT with shared arrays: the pipeline's `arrays` yield the buffers behind them whole at the full share, given per
    buffer that the shares of the windows on it make up the full share. -/
theorem arrays_join_fibres (c : Dev nD) (harr : ∀ w, ((cfg).spec w).arr.IsWhole)
    (V : (b : Ref sig .tc) → Buf Val ((c.tc : Thread nD τ).loc b))
    (F : (w : Fin (cfg).W) → Buf Val (((cfg).spec w).arr.view.loc (c.tc : Thread nD τ))) (hF : ∀ w, F w = V (arrRef (cfg).spec w))
    (hfib : ∀ b ∈ Finset.univ.image (arrRef (cfg).spec),
      (bigSep (Finset.univ.filter fun w => arrRef (cfg).spec w = b) fun w =>
            (((c.tc : Thread nD τ).loc b) ↦{(dats p c).share w} V b : sProp 𝕄))
        ⊢ (((c.tc : Thread nD τ).loc b) ↦{fullShare} V b : sProp 𝕄)) :
    (dats p c).arrays F ⊢ (arrBufs (cfg).spec c V : sProp 𝕄) := by
  rw [arrays_eq_fibres cfgs dats p c harr V F hF]
  unfold arrBufs
  exact bigSep_mono hfib

/-- A window alone on its array, at the full share: the fibre is the buffer once. -/
theorem fibre_single (c : Dev nD) (V : (b : Ref sig .tc) → Buf Val ((c.tc : Thread nD τ).loc b)) (b : Ref sig .tc) (w₀ : Fin (cfg).W)
    (hfil : (Finset.univ.filter fun w => arrRef (cfg).spec w = b) = {w₀}) (hq : (dats p c).share w₀ = fullShare) :
    (bigSep (Finset.univ.filter fun w => arrRef (cfg).spec w = b) fun w =>
          (((c.tc : Thread nD τ).loc b) ↦{(dats p c).share w} V b : sProp 𝕄))
      = (((c.tc : Thread nD τ).loc b) ↦{fullShare} V b : sProp 𝕄) := by
  rw [hfil, bigSep_singleton, hq]

/-- Two windows on one array, at the two halves of the full share: the fibre is the buffer at the full share. -/
theorem fibre_pair (c : Dev nD) (V : (b : Ref sig .tc) → Buf Val ((c.tc : Thread nD τ).loc b)) (b : Ref sig .tc) (w₁ w₂ : Fin (cfg).W)
    (hne : w₁ ≠ w₂) (hfil : (Finset.univ.filter fun w => arrRef (cfg).spec w = b) = {w₁, w₂})
    (h₁ : (dats p c).share w₁ = fullShare.left) (h₂ : (dats p c).share w₂ = fullShare.right) :
    (bigSep (Finset.univ.filter fun w => arrRef (cfg).spec w = b) fun w =>
          (((c.tc : Thread nD τ).loc b) ↦{(dats p c).share w} V b : sProp 𝕄))
      = (((c.tc : Thread nD τ).loc b) ↦{fullShare} V b : sProp 𝕄) := by
  classical
  rw [hfil, bigSep_insert (by rw [Finset.mem_singleton]; exact hne), bigSep_singleton, h₁, h₂]
  have hmem : (fullShare : PosShare TreeShare) ∈ PCS.op (fullShare : PosShare TreeShare).left (fullShare : PosShare TreeShare).right := by
    rw [show PCS.op (fullShare : PosShare TreeShare).left (fullShare : PosShare TreeShare).right = Part.some fullShare from
      PosShare.left_op_right fullShare]
    exact Part.mem_some _
  have h : (((c.tc : Thread nD τ).loc b) ↦{fullShare} V b : sProp 𝕄)
      ⊣⊢ iprop((((c.tc : Thread nD τ).loc b) ↦{fullShare.left} V b) ∗ (((c.tc : Thread nD τ).loc b) ↦{fullShare.right} V b)) :=
    pointsTo_share hmem
  exact (BI.equiv_iff.mp ⟨h.1, h.2⟩).symm

end Shared

end Pipeline

end Idealize.ShloMosaic

end
-- ==== Proof.KB.Reg0.lean ====
/-
  Region 0's arrays against the buffers behind them: every window is alone on its array, at the full share. At the entry the buffers, whole at the
  full share at the entry valuation, yield the proof data's arrays; at the exit the arrays (the inputs as entered, the output at
  what the write-backs leave) yield the buffers at the valuation updated at the output's array.
-/
import proofs.«141748_j59863254171699_1_alg».proof.Proof.KB.Common
import proofs.«141748_j59863254171699_1_alg».proof.Proof.KB.Region0
import proofs.«141748_j59863254171699_1_alg».proof.Proof.LibRegionA
import proofs.«141748_j59863254171699_1_alg».proof.Proof.LibSharedArrays

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The valuation region 0 leaves: the entry valuation updated at the output window's array. -/
def W0' (c : Dev nD) : Valuation τ sig (Elt F) :=
  Function.update (W c) (Proc.devRef .tc main_v21) ((dat0 (Vof W) c).arrAt 4 cfg0.N)

/-- Per buffer behind some window's array, the shares of the windows on it make up the full share. -/
theorem fibres0 (c : Dev nD) (V : (b : Ref sig .tc) → Buf (Elt F) ((c : Thread nD τ).loc b)) :
    ∀ b ∈ Finset.univ.image (Pipeline.arrRef cfg0.spec),
      (bigSep (Finset.univ.filter fun w => Pipeline.arrRef cfg0.spec w = b) fun w =>
          ((((c : Thread nD τ)).loc b) ↦{(dat0 (Vof W) c).share w} V b : sProp 𝕄))
        = ((((c : Thread nD τ)).loc b) ↦{fullShare} V b : sProp 𝕄) := by
  intro b hb
  obtain ⟨w, -, rfl⟩ := Finset.mem_image.mp hb
  fin_cases w
  · exact Pipeline.fibre_single (fun _ : Unit => cfg0) (fun _ c => dat0 (Vof W) c) () c V _ 0 (by decide) rfl
  · exact Pipeline.fibre_single (fun _ : Unit => cfg0) (fun _ c => dat0 (Vof W) c) () c V _ 1 (by decide) rfl
  · exact Pipeline.fibre_single (fun _ : Unit => cfg0) (fun _ c => dat0 (Vof W) c) () c V _ 2 (by decide) rfl
  · exact Pipeline.fibre_single (fun _ : Unit => cfg0) (fun _ c => dat0 (Vof W) c) () c V _ 3 (by decide) rfl
  · exact Pipeline.fibre_single (fun _ : Unit => cfg0) (fun _ c => dat0 (Vof W) c) () c V _ 4 (by decide) rfl

/-- ENTRY: the buffers behind the region's arrays at the entry valuation yield the proof data's arrays. -/
theorem hsplit0 (c : Dev nD) :
    (Pipeline.arrBufs cfg0.spec c (Vof W c) : sProp 𝕄) ⊢ (dat0 (Vof W) c).arrays ((dat0 (Vof W) c).arrAt · 0) :=
  Pipeline.arrays_split_fibres (fun _ : Unit => cfg0) (fun _ c => dat0 (Vof W) c) () c arr_whole0 (Vof W c) _
    (fun w => A_eq0 (Vof W) c w) fun b hb => Entails.of_eq (fibres0 W c (Vof W c) b hb).symm

/-- What the exit valuation holds at each window's array: an input's array as entered, the output's at what the
    write-backs leave. -/
theorem arrAt0' (c : Dev nD) (w : Fin cfg0.W) :
    (dat0 (Vof W) c).arrAt w cfg0.N = Vof (W0' W) c (Pipeline.arrRef cfg0.spec w) := by
  have hin : ∀ w : Fin cfg0.W, (cfg0.win w).isOut = false →
      (dat0 (Vof W) c).arrAt w cfg0.N = W c (Proc.devRef .tc (Pipeline.arrRef cfg0.spec w)) := fun w hw =>
    ((dat0 (Vof W) c).arrAt_in w hw _).trans (A_eq0 (Vof W) c w)
  have hne : ∀ w : Fin cfg0.W, Pipeline.arrRef cfg0.spec w ≠ main_v21 →
      W0' W c (Proc.devRef .tc (Pipeline.arrRef cfg0.spec w)) = W c (Proc.devRef .tc (Pipeline.arrRef cfg0.spec w)) := fun w hw => by
    unfold W0'; exact Function.update_of_ne (StableHlo.devRef_ne_of_ne hw) _ _
  by_cases h9 : w = 4
  · subst h9
    show _ = W0' W c (Proc.devRef .tc main_v21)
    unfold W0'; rw [Function.update_self]
  · have hw : (cfg0.win w).isOut = false := by fin_cases w <;> first | rfl | exact absurd rfl h9
    have hr : Pipeline.arrRef cfg0.spec w ≠ main_v21 := by fin_cases w <;> first | decide | exact absurd rfl h9
    exact (hin w hw).trans (hne w hr).symm

/-- EXIT: the proof data's arrays after the last point yield the buffers behind them at the exit valuation. -/
theorem hjoin0 (c : Dev nD) :
    (dat0 (Vof W) c).arrays ((dat0 (Vof W) c).arrAt · cfg0.N) ⊢ (Pipeline.arrBufs cfg0.spec c (Vof (W0' W) c) : sProp 𝕄) :=
  Pipeline.arrays_join_fibres (fun _ : Unit => cfg0) (fun _ c => dat0 (Vof W) c) () c arr_whole0 (Vof (W0' W) c) _
    (arrAt0' W c) fun b hb => Entails.of_eq (fibres0 W c (Vof (W0' W) c) b hb)

/-- Off the region's arrays the exit valuation is the entry valuation. -/
theorem hrest0 (c : Dev nD) (b : Ref sig .tc) (hb : b ∉ Finset.univ.image (Pipeline.arrRef cfg0.spec)) :
    W0' W c b = W c b := by
  unfold W0'
  refine Function.update_of_ne (StableHlo.devRef_ne_of_ne fun h => hb ?_) _ _
  exact Finset.mem_image.mpr ⟨4, Finset.mem_univ _, h.symm⟩

end Cert.Kernel.Hand

end
-- ==== Proof.KB.Region1.lean ====
/-
  Region 1 of @main as a pipeline — the second kernel of a layer: a block of rows normalised with given per-feature mean and variance, scaled and shifted, times a 128 × 128 matrix, plus a row of biases —: what its body leaves in the output window's buffer, the body's
  triple, the proof data and the body obligation, at a PARAMETER V (the buffers' contents when the region is entered), for
  any float values. The body's arithmetic stays the one named payload; nothing here opens it.
-/
import proofs.«141748_j59863254171699_1_alg».proof.Proof.Gen.Kernel.Launch
import proofs.«141748_j59863254171699_1_alg».proof.Proof.Gen.Kernel.Skeleton
import proofs.«141748_j59863254171699_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not (unfetched, the block
    index has not moved), for any proof data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses, and what it leaves in the output window's buffer -/

abbrev r1_big : Rect S5000x128 := Rect.unit (s := S5000x128) ![0, 0] S5000x128.size inb_S5000x128_S5000x128_0_0
abbrev r1_row : Rect S1x128 := Rect.unit (s := S1x128) ![0, 0] S1x128.size inb_S1x128_S1x128_0_0
abbrev r1_mat : Rect S128x128 := Rect.unit (s := S128x128) ![0, 0] S128x128.size inb_S128x128_S128x128_0_0

/-- The output window's staging buffer after the body, from the input windows' blocks: its one store, of the whole block. -/
def out1_7 (x0 : Vec F S5000x128 .f32) (x1 : Vec F S1x128 .f32) (x2 : Vec F S1x128 .f32) (x3 : Vec F S1x128 .f32) (x4 : Vec F S1x128 .f32) (x5 : Vec F S128x128 .bf16) (x6 : Vec F S1x128 .f32) : Vec F S5000x128 .f32 :=
  View.canon [⟨r1_big, k1_pay1 (View.ld x0 r1_big) (View.ld x2 r1_row) (View.ld x1 r1_row) (View.ld x3 r1_row) (View.ld x4 r1_row) (View.ld x5 r1_mat) (View.ld x6 r1_row)⟩]

/-- The store covers the buffer. -/
theorem cover1_7 (p0 : Vec F S5000x128 .f32) (y : S5000x128.Idx) :
    ∃ pc ∈ ([⟨r1_big, p0⟩] : List (View.Piece (Elt F) S5000x128 .f32)), y ∈ pc.1.set :=
  View.cover_of_tiled [⟨r1_big, p0⟩] S5000x128.size (by rfl) y

/-! ## The body's triple -/

set_option maxHeartbeats 1000000 in
/-- The kernel body on whole staging memrefs, the inputs' at read contents and the output's at anything, runs to the
    continuation holding the inputs' as they were and the output's at out1_7 of the inputs'. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S128x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__bn_matmul_kernel i arg1 harg1 arg2 harg2 arg3 harg3 arg4 harg4 arg5 harg5 arg6 harg6 arg7 harg7 arg8 harg8) K := by
  simp only [cc1__bn_matmul_kernel_eq_skeleton]; unfold cc1__bn_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core c: the arrays as the region finds them; after the body at point t each input's
    buffer at its block and the output's at out1_7 of the input blocks; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and the
    core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Reg1.lean ====
/-
  Region 1's arrays against the buffers behind them: every window is alone on its array, at the full share. At the entry the buffers, whole at the
  full share at the entry valuation, yield the proof data's arrays; at the exit the arrays (the inputs as entered, the output at
  what the write-backs leave) yield the buffers at the valuation updated at the output's array.
-/
import proofs.«141748_j59863254171699_1_alg».proof.Proof.KB.Common
import proofs.«141748_j59863254171699_1_alg».proof.Proof.KB.Region1
import proofs.«141748_j59863254171699_1_alg».proof.Proof.LibRegionA
import proofs.«141748_j59863254171699_1_alg».proof.Proof.LibSharedArrays

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The valuation region 1 leaves: the entry valuation updated at the output window's array. -/
def W1' (c : Dev nD) : Valuation τ sig (Elt F) :=
  Function.update (W c) (Proc.devRef .tc main_v39) ((dat1 (Vof W) c).arrAt 7 cfg1.N)

/-- Per buffer behind some window's array, the shares of the windows on it make up the full share. -/
theorem fibres1 (c : Dev nD) (V : (b : Ref sig .tc) → Buf (Elt F) ((c : Thread nD τ).loc b)) :
    ∀ b ∈ Finset.univ.image (Pipeline.arrRef cfg1.spec),
      (bigSep (Finset.univ.filter fun w => Pipeline.arrRef cfg1.spec w = b) fun w =>
          ((((c : Thread nD τ)).loc b) ↦{(dat1 (Vof W) c).share w} V b : sProp 𝕄))
        = ((((c : Thread nD τ)).loc b) ↦{fullShare} V b : sProp 𝕄) := by
  intro b hb
  obtain ⟨w, -, rfl⟩ := Finset.mem_image.mp hb
  fin_cases w
  · exact Pipeline.fibre_single (fun _ : Unit => cfg1) (fun _ c => dat1 (Vof W) c) () c V _ 0 (by decide) rfl
  · exact Pipeline.fibre_single (fun _ : Unit => cfg1) (fun _ c => dat1 (Vof W) c) () c V _ 1 (by decide) rfl
  · exact Pipeline.fibre_single (fun _ : Unit => cfg1) (fun _ c => dat1 (Vof W) c) () c V _ 2 (by decide) rfl
  · exact Pipeline.fibre_single (fun _ : Unit => cfg1) (fun _ c => dat1 (Vof W) c) () c V _ 3 (by decide) rfl
  · exact Pipeline.fibre_single (fun _ : Unit => cfg1) (fun _ c => dat1 (Vof W) c) () c V _ 4 (by decide) rfl
  · exact Pipeline.fibre_single (fun _ : Unit => cfg1) (fun _ c => dat1 (Vof W) c) () c V _ 5 (by decide) rfl
  · exact Pipeline.fibre_single (fun _ : Unit => cfg1) (fun _ c => dat1 (Vof W) c) () c V _ 6 (by decide) rfl
  · exact Pipeline.fibre_single (fun _ : Unit => cfg1) (fun _ c => dat1 (Vof W) c) () c V _ 7 (by decide) rfl

/-- ENTRY: the buffers behind the region's arrays at the entry valuation yield the proof data's arrays. -/
theorem hsplit1 (c : Dev nD) :
    (Pipeline.arrBufs cfg1.spec c (Vof W c) : sProp 𝕄) ⊢ (dat1 (Vof W) c).arrays ((dat1 (Vof W) c).arrAt · 0) :=
  Pipeline.arrays_split_fibres (fun _ : Unit => cfg1) (fun _ c => dat1 (Vof W) c) () c arr_whole1 (Vof W c) _
    (fun w => A_eq1 (Vof W) c w) fun b hb => Entails.of_eq (fibres1 W c (Vof W c) b hb).symm

/-- What the exit valuation holds at each window's array: an input's array as entered, the output's at what the
    write-backs leave. -/
theorem arrAt1' (c : Dev nD) (w : Fin cfg1.W) :
    (dat1 (Vof W) c).arrAt w cfg1.N = Vof (W1' W) c (Pipeline.arrRef cfg1.spec w) := by
  have hin : ∀ w : Fin cfg1.W, (cfg1.win w).isOut = false →
      (dat1 (Vof W) c).arrAt w cfg1.N = W c (Proc.devRef .tc (Pipeline.arrRef cfg1.spec w)) := fun w hw =>
    ((dat1 (Vof W) c).arrAt_in w hw _).trans (A_eq1 (Vof W) c w)
  have hne : ∀ w : Fin cfg1.W, Pipeline.arrRef cfg1.spec w ≠ main_v39 →
      W1' W c (Proc.devRef .tc (Pipeline.arrRef cfg1.spec w)) = W c (Proc.devRef .tc (Pipeline.arrRef cfg1.spec w)) := fun w hw => by
    unfold W1'; exact Function.update_of_ne (StableHlo.devRef_ne_of_ne hw) _ _
  by_cases h9 : w = 7
  · subst h9
    show _ = W1' W c (Proc.devRef .tc main_v39)
    unfold W1'; rw [Function.update_self]
  · have hw : (cfg1.win w).isOut = false := by fin_cases w <;> first | rfl | exact absurd rfl h9
    have hr : Pipeline.arrRef cfg1.spec w ≠ main_v39 := by fin_cases w <;> first | decide | exact absurd rfl h9
    exact (hin w hw).trans (hne w hr).symm

/-- EXIT: the proof data's arrays after the last point yield the buffers behind them at the exit valuation. -/
theorem hjoin1 (c : Dev nD) :
    (dat1 (Vof W) c).arrays ((dat1 (Vof W) c).arrAt · cfg1.N) ⊢ (Pipeline.arrBufs cfg1.spec c (Vof (W1' W) c) : sProp 𝕄) :=
  Pipeline.arrays_join_fibres (fun _ : Unit => cfg1) (fun _ c => dat1 (Vof W) c) () c arr_whole1 (Vof (W1' W) c) _
    (arrAt1' W c) fun b hb => Entails.of_eq (fibres1 W c (Vof (W1' W) c) b hb)

/-- Off the region's arrays the exit valuation is the entry valuation. -/
theorem hrest1 (c : Dev nD) (b : Ref sig .tc) (hb : b ∉ Finset.univ.image (Pipeline.arrRef cfg1.spec)) :
    W1' W c b = W c b := by
  unfold W1'
  refine Function.update_of_ne (StableHlo.devRef_ne_of_ne fun h => hb ?_) _ _
  exact Finset.mem_image.mpr ⟨7, Finset.mem_univ _, h.symm⟩

end Cert.Kernel.Hand

end
-- ==== Proof.KB.Region2.lean ====
/-
  Region 2 of @main as a pipeline — the third kernel of a layer: a block of rows normalised twice with given per-feature statistics, then the maximum with zero; windows 4 and 5 read ONE array and hold the two halves of its full share —: what its body leaves in the output window's buffer, the body's
  triple, the proof data and the body obligation, at a PARAMETER V (the buffers' contents when the region is entered), for
  any float values. The body's arithmetic stays the one named payload; nothing here opens it.
-/
import proofs.«141748_j59863254171699_1_alg».proof.Proof.Gen.Kernel.Launch
import proofs.«141748_j59863254171699_1_alg».proof.Proof.Gen.Kernel.Skeleton
import proofs.«141748_j59863254171699_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, fetched there or not (unfetched, the block
    index has not moved), for any proof data whose array is V's and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses, and what it leaves in the output window's buffer -/

abbrev r2_big : Rect S5000x128 := Rect.unit (s := S5000x128) ![0, 0] S5000x128.size inb_S5000x128_S5000x128_0_0
abbrev r2_row : Rect S1x128 := Rect.unit (s := S1x128) ![0, 0] S1x128.size inb_S1x128_S1x128_0_0

/-- The output window's staging buffer after the body, from the input windows' blocks: its one store, of the whole block. -/
def out2_9 (x0 : Vec F S5000x128 .f32) (x1 : Vec F S1x128 .f32) (x2 : Vec F S1x128 .f32) (x3 : Vec F S1x128 .f32) (x4 : Vec F S1x128 .f32) (x5 : Vec F S1x128 .f32) (x6 : Vec F S1x128 .f32) (x7 : Vec F S1x128 .f32) (x8 : Vec F S1x128 .f32) : Vec F S5000x128 .f32 :=
  View.canon [⟨r2_big, k2_pay1 (k2_pay2 (View.ld x0 r2_big) (View.ld x2 r2_row) (View.ld x1 r2_row) (View.ld x3 r2_row) (View.ld x4 r2_row) (View.ld x6 r2_row) (View.ld x5 r2_row) (View.ld x7 r2_row)) (k2_pay3 (View.ld x8 r2_row))⟩]

/-- The store covers the buffer. -/
theorem cover2_9 (p0 : Vec F S5000x128 .f32) (y : S5000x128.Idx) :
    ∃ pc ∈ ([⟨r2_big, p0⟩] : List (View.Piece (Elt F) S5000x128 .f32)), y ∈ pc.1.set :=
  View.cover_of_tiled [⟨r2_big, p0⟩] S5000x128.size (by rfl) y

/-! ## The body's triple -/

set_option maxHeartbeats 1000000 in
/-- The kernel body on whole staging memrefs, the inputs' at read contents and the output's at anything, runs to the
    continuation holding the inputs' as they were and the output's at out2_9 of the inputs'. -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S5000x128 .f32) (harg10 : arg10.IsWhole)
    (x0 : Vec F S5000x128 .f32) (x1 : Vec F S1x128 .f32) (x2 : Vec F S1x128 .f32) (x3 : Vec F S1x128 .f32) (x4 : Vec F S1x128 .f32) (x5 : Vec F S1x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__double_bn_relu_kernel i arg1 harg1 arg2 harg2 arg3 harg3 arg4 harg4 arg5 harg5 arg6 harg6 arg7 harg7 arg8 harg8 arg9 harg9 arg10 harg10) K := by
  simp only [cc2__double_bn_relu_kernel_eq_skeleton]; unfold cc2__double_bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The pipeline's proof data -/

/-- The proof data of pipeline 2 on core c: the arrays as the region finds them; after the body at point t each input's
    buffer at its block and the output's at out2_9 of the input blocks; the class invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q w := match w with
    | ⟨4, _⟩ => fullShare.left
    | ⟨5, _⟩ => fullShare.right
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' memrefs hold their blocks, so the body's triple applies; the invariant and the
    core's owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Reg2.lean ====
/-
  Region 2's arrays against the buffers behind them: windows 4 and 5 read one array, each at one half of its full share;
  every other window is alone on its array at the full share. At the entry the buffers, whole at the
  full share at the entry valuation, yield the proof data's arrays; at the exit the arrays (the inputs as entered, the output at
  what the write-backs leave) yield the buffers at the valuation updated at the output's array.
-/
import proofs.«141748_j59863254171699_1_alg».proof.Proof.KB.Common
import proofs.«141748_j59863254171699_1_alg».proof.Proof.KB.Region2
import proofs.«141748_j59863254171699_1_alg».proof.Proof.LibRegionA
import proofs.«141748_j59863254171699_1_alg».proof.Proof.LibSharedArrays

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The valuation region 2 leaves: the entry valuation updated at the output window's array. -/
def W2' (c : Dev nD) : Valuation τ sig (Elt F) :=
  Function.update (W c) (Proc.devRef .tc main_v63) ((dat2 (Vof W) c).arrAt 9 cfg2.N)

/-- Per buffer behind some window's array, the shares of the windows on it make up the full share. -/
theorem fibres2 (c : Dev nD) (V : (b : Ref sig .tc) → Buf (Elt F) ((c : Thread nD τ).loc b)) :
    ∀ b ∈ Finset.univ.image (Pipeline.arrRef cfg2.spec),
      (bigSep (Finset.univ.filter fun w => Pipeline.arrRef cfg2.spec w = b) fun w =>
          ((((c : Thread nD τ)).loc b) ↦{(dat2 (Vof W) c).share w} V b : sProp 𝕄))
        = ((((c : Thread nD τ)).loc b) ↦{fullShare} V b : sProp 𝕄) := by
  intro b hb
  obtain ⟨w, -, rfl⟩ := Finset.mem_image.mp hb
  fin_cases w
  · exact Pipeline.fibre_single (fun _ : Unit => cfg2) (fun _ c => dat2 (Vof W) c) () c V _ 0 (by decide) rfl
  · exact Pipeline.fibre_single (fun _ : Unit => cfg2) (fun _ c => dat2 (Vof W) c) () c V _ 1 (by decide) rfl
  · exact Pipeline.fibre_single (fun _ : Unit => cfg2) (fun _ c => dat2 (Vof W) c) () c V _ 2 (by decide) rfl
  · exact Pipeline.fibre_single (fun _ : Unit => cfg2) (fun _ c => dat2 (Vof W) c) () c V _ 3 (by decide) rfl
  · exact Pipeline.fibre_pair (fun _ : Unit => cfg2) (fun _ c => dat2 (Vof W) c) () c V _ 4 5 (by decide) (by decide) rfl rfl
  · exact Pipeline.fibre_pair (fun _ : Unit => cfg2) (fun _ c => dat2 (Vof W) c) () c V _ 4 5 (by decide) (by decide) rfl rfl
  · exact Pipeline.fibre_single (fun _ : Unit => cfg2) (fun _ c => dat2 (Vof W) c) () c V _ 6 (by decide) rfl
  · exact Pipeline.fibre_single (fun _ : Unit => cfg2) (fun _ c => dat2 (Vof W) c) () c V _ 7 (by decide) rfl
  · exact Pipeline.fibre_single (fun _ : Unit => cfg2) (fun _ c => dat2 (Vof W) c) () c V _ 8 (by decide) rfl
  · exact Pipeline.fibre_single (fun _ : Unit => cfg2) (fun _ c => dat2 (Vof W) c) () c V _ 9 (by decide) rfl

/-- ENTRY: the buffers behind the region's arrays at the entry valuation yield the proof data's arrays. -/
theorem hsplit2 (c : Dev nD) :
    (Pipeline.arrBufs cfg2.spec c (Vof W c) : sProp 𝕄) ⊢ (dat2 (Vof W) c).arrays ((dat2 (Vof W) c).arrAt · 0) :=
  Pipeline.arrays_split_fibres (fun _ : Unit => cfg2) (fun _ c => dat2 (Vof W) c) () c arr_whole2 (Vof W c) _
    (fun w => A_eq2 (Vof W) c w) fun b hb => Entails.of_eq (fibres2 W c (Vof W c) b hb).symm

/-- What the exit valuation holds at each window's array: an input's array as entered, the output's at what the
    write-backs leave. -/
theorem arrAt2' (c : Dev nD) (w : Fin cfg2.W) :
    (dat2 (Vof W) c).arrAt w cfg2.N = Vof (W2' W) c (Pipeline.arrRef cfg2.spec w) := by
  have hin : ∀ w : Fin cfg2.W, (cfg2.win w).isOut = false →
      (dat2 (Vof W) c).arrAt w cfg2.N = W c (Proc.devRef .tc (Pipeline.arrRef cfg2.spec w)) := fun w hw =>
    ((dat2 (Vof W) c).arrAt_in w hw _).trans (A_eq2 (Vof W) c w)
  have hne : ∀ w : Fin cfg2.W, Pipeline.arrRef cfg2.spec w ≠ main_v63 →
      W2' W c (Proc.devRef .tc (Pipeline.arrRef cfg2.spec w)) = W c (Proc.devRef .tc (Pipeline.arrRef cfg2.spec w)) := fun w hw => by
    unfold W2'; exact Function.update_of_ne (StableHlo.devRef_ne_of_ne hw) _ _
  by_cases h9 : w = 9
  · subst h9
    show _ = W2' W c (Proc.devRef .tc main_v63)
    unfold W2'; rw [Function.update_self]
  · have hw : (cfg2.win w).isOut = false := by fin_cases w <;> first | rfl | exact absurd rfl h9
    have hr : Pipeline.arrRef cfg2.spec w ≠ main_v63 := by fin_cases w <;> first | decide | exact absurd rfl h9
    exact (hin w hw).trans (hne w hr).symm

/-- EXIT: the proof data's arrays after the last point yield the buffers behind them at the exit valuation. -/
theorem hjoin2 (c : Dev nD) :
    (dat2 (Vof W) c).arrays ((dat2 (Vof W) c).arrAt · cfg2.N) ⊢ (Pipeline.arrBufs cfg2.spec c (Vof (W2' W) c) : sProp 𝕄) :=
  Pipeline.arrays_join_fibres (fun _ : Unit => cfg2) (fun _ c => dat2 (Vof W) c) () c arr_whole2 (Vof (W2' W) c) _
    (arrAt2' W c) fun b hb => Entails.of_eq (fibres2 W c (Vof (W2' W) c) b hb)

/-- Off the region's arrays the exit valuation is the entry valuation. -/
theorem hrest2 (c : Dev nD) (b : Ref sig .tc) (hb : b ∉ Finset.univ.image (Pipeline.arrRef cfg2.spec)) :
    W2' W c b = W c b := by
  unfold W2'
  refine Function.update_of_ne (StableHlo.devRef_ne_of_ne fun h => hb ?_) _ _
  exact Finset.mem_image.mpr ⟨9, Finset.mem_univ _, h.symm⟩

end Cert.Kernel.Hand

end
-- ==== Proof.KB.Region3.lean ====
/-
  Region 3 of @main as a pipeline — the first kernel of a layer: the sum of two blocks of rows, times a 128 × 128 matrix, plus a row of biases —: what its body leaves in the output window's buffer, the body's
  triple, the proof data and the body obligation, at a PARAMETER V (the buffers' contents when the region is entered), for
  any float values. The body's arithmetic stays the one named payload; nothing here opens it.
-/
import proofs.«141748_j59863254171699_1_alg».proof.Proof.Gen.Kernel.Launch
import proofs.«141748_j59863254171699_1_alg».proof.Proof.Gen.Kernel.Skeleton
import proofs.«141748_j59863254171699_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's current staging buffer holds its block at every point, fetched there or not (unfetched, the block
    index has not moved), for any proof data whose array is V's and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses, and what it leaves in the output window's buffer -/

abbrev r3_big : Rect S5000x128 := Rect.unit (s := S5000x128) ![0, 0] S5000x128.size inb_S5000x128_S5000x128_0_0
abbrev r3_mat : Rect S128x128 := Rect.unit (s := S128x128) ![0, 0] S128x128.size inb_S128x128_S128x128_0_0
abbrev r3_row : Rect S1x128 := Rect.unit (s := S1x128) ![0, 0] S1x128.size inb_S1x128_S1x128_0_0

/-- The output window's staging buffer after the body, from the input windows' blocks: its one store, of the whole block. -/
def out3_4 (x0 : Vec F S5000x128 .f32) (x1 : Vec F S5000x128 .f32) (x2 : Vec F S128x128 .bf16) (x3 : Vec F S1x128 .f32) : Vec F S5000x128 .f32 :=
  View.canon [⟨r3_big, k3_pay1 (View.ld x0 r3_big) (View.ld x1 r3_big) (View.ld x2 r3_mat) (View.ld x3 r3_row)⟩]

/-- The store covers the buffer. -/
theorem cover3_4 (p0 : Vec F S5000x128 .f32) (y : S5000x128.Idx) :
    ∃ pc ∈ ([⟨r3_big, p0⟩] : List (View.Piece (Elt F) S5000x128 .f32)), y ∈ pc.1.set :=
  View.cover_of_tiled [⟨r3_big, p0⟩] S5000x128.size (by rfl) y

/-! ## The body's triple -/

set_option maxHeartbeats 1000000 in
/-- The kernel body on whole staging memrefs, the inputs' at read contents and the output's at anything, runs to the
    continuation holding the inputs' as they were and the output's at out3_4 of the inputs'. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x128 .f32) (x2 : Vec F S128x128 .bf16) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__combine_matmul_kernel i arg1 harg1 arg2 harg2 arg3 harg3 arg4 harg4 arg5 harg5) K := by
  simp only [cc3__combine_matmul_kernel_eq_skeleton]; unfold cc3__combine_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of pipeline 3 on core c: the arrays as the region finds them; after the body at point t each input's
    buffer at its block and the output's at out3_4 of the input blocks; the class invariant; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and the
    core's owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Reg3.lean ====
/-
  Region 3's arrays against the buffers behind them: every window is alone on its array, at the full share. At the entry the buffers, whole at the
  full share at the entry valuation, yield the proof data's arrays; at the exit the arrays (the inputs as entered, the output at
  what the write-backs leave) yield the buffers at the valuation updated at the output's array.
-/
import proofs.«141748_j59863254171699_1_alg».proof.Proof.KB.Common
import proofs.«141748_j59863254171699_1_alg».proof.Proof.KB.Region3
import proofs.«141748_j59863254171699_1_alg».proof.Proof.LibRegionA
import proofs.«141748_j59863254171699_1_alg».proof.Proof.LibSharedArrays

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The valuation region 3 leaves: the entry valuation updated at the output window's array. -/
def W3' (c : Dev nD) : Valuation τ sig (Elt F) :=
  Function.update (W c) (Proc.devRef .tc main_v79) ((dat3 (Vof W) c).arrAt 4 cfg3.N)

/-- Per buffer behind some window's array, the shares of the windows on it make up the full share. -/
theorem fibres3 (c : Dev nD) (V : (b : Ref sig .tc) → Buf (Elt F) ((c : Thread nD τ).loc b)) :
    ∀ b ∈ Finset.univ.image (Pipeline.arrRef cfg3.spec),
      (bigSep (Finset.univ.filter fun w => Pipeline.arrRef cfg3.spec w = b) fun w =>
          ((((c : Thread nD τ)).loc b) ↦{(dat3 (Vof W) c).share w} V b : sProp 𝕄))
        = ((((c : Thread nD τ)).loc b) ↦{fullShare} V b : sProp 𝕄) := by
  intro b hb
  obtain ⟨w, -, rfl⟩ := Finset.mem_image.mp hb
  fin_cases w
  · exact Pipeline.fibre_single (fun _ : Unit => cfg3) (fun _ c => dat3 (Vof W) c) () c V _ 0 (by decide) rfl
  · exact Pipeline.fibre_single (fun _ : Unit => cfg3) (fun _ c => dat3 (Vof W) c) () c V _ 1 (by decide) rfl
  · exact Pipeline.fibre_single (fun _ : Unit => cfg3) (fun _ c => dat3 (Vof W) c) () c V _ 2 (by decide) rfl
  · exact Pipeline.fibre_single (fun _ : Unit => cfg3) (fun _ c => dat3 (Vof W) c) () c V _ 3 (by decide) rfl
  · exact Pipeline.fibre_single (fun _ : Unit => cfg3) (fun _ c => dat3 (Vof W) c) () c V _ 4 (by decide) rfl

/-- ENTRY: the buffers behind the region's arrays at the entry valuation yield the proof data's arrays. -/
theorem hsplit3 (c : Dev nD) :
    (Pipeline.arrBufs cfg3.spec c (Vof W c) : sProp 𝕄) ⊢ (dat3 (Vof W) c).arrays ((dat3 (Vof W) c).arrAt · 0) :=
  Pipeline.arrays_split_fibres (fun _ : Unit => cfg3) (fun _ c => dat3 (Vof W) c) () c arr_whole3 (Vof W c) _
    (fun w => A_eq3 (Vof W) c w) fun b hb => Entails.of_eq (fibres3 W c (Vof W c) b hb).symm

/-- What the exit valuation holds at each window's array: an input's array as entered, the output's at what the
    write-backs leave. -/
theorem arrAt3' (c : Dev nD) (w : Fin cfg3.W) :
    (dat3 (Vof W) c).arrAt w cfg3.N = Vof (W3' W) c (Pipeline.arrRef cfg3.spec w) := by
  have hin : ∀ w : Fin cfg3.W, (cfg3.win w).isOut = false →
      (dat3 (Vof W) c).arrAt w cfg3.N = W c (Proc.devRef .tc (Pipeline.arrRef cfg3.spec w)) := fun w hw =>
    ((dat3 (Vof W) c).arrAt_in w hw _).trans (A_eq3 (Vof W) c w)
  have hne : ∀ w : Fin cfg3.W, Pipeline.arrRef cfg3.spec w ≠ main_v79 →
      W3' W c (Proc.devRef .tc (Pipeline.arrRef cfg3.spec w)) = W c (Proc.devRef .tc (Pipeline.arrRef cfg3.spec w)) := fun w hw => by
    unfold W3'; exact Function.update_of_ne (StableHlo.devRef_ne_of_ne hw) _ _
  by_cases h9 : w = 4
  · subst h9
    show _ = W3' W c (Proc.devRef .tc main_v79)
    unfold W3'; rw [Function.update_self]
  · have hw : (cfg3.win w).isOut = false := by fin_cases w <;> first | rfl | exact absurd rfl h9
    have hr : Pipeline.arrRef cfg3.spec w ≠ main_v79 := by fin_cases w <;> first | decide | exact absurd rfl h9
    exact (hin w hw).trans (hne w hr).symm

/-- EXIT: the proof data's arrays after the last point yield the buffers behind them at the exit valuation. -/
theorem hjoin3 (c : Dev nD) :
    (dat3 (Vof W) c).arrays ((dat3 (Vof W) c).arrAt · cfg3.N) ⊢ (Pipeline.arrBufs cfg3.spec c (Vof (W3' W) c) : sProp 𝕄) :=
  Pipeline.arrays_join_fibres (fun _ : Unit => cfg3) (fun _ c => dat3 (Vof W) c) () c arr_whole3 (Vof (W3' W) c) _
    (arrAt3' W c) fun b hb => Entails.of_eq (fibres3 W c (Vof (W3' W) c) b hb)

/-- Off the region's arrays the exit valuation is the entry valuation. -/
theorem hrest3 (c : Dev nD) (b : Ref sig .tc) (hb : b ∉ Finset.univ.image (Pipeline.arrRef cfg3.spec)) :
    W3' W c b = W c b := by
  unfold W3'
  refine Function.update_of_ne (StableHlo.devRef_ne_of_ne fun h => hb ?_) _ _
  exact Finset.mem_image.mpr ⟨4, Finset.mem_univ _, h.symm⟩

end Cert.Kernel.Hand

end
-- ==== Proof.KB.Region4.lean ====
/-
  Region 4 of @main as a pipeline — the second kernel of a layer: a block of rows normalised with given per-feature mean and variance, scaled and shifted, times a 128 × 128 matrix, plus a row of biases —: what its body leaves in the output window's buffer, the body's
  triple, the proof data and the body obligation, at a PARAMETER V (the buffers' contents when the region is entered), for
  any float values. The body's arithmetic stays the one named payload; nothing here opens it.
-/
import proofs.«141748_j59863254171699_1_alg».proof.Proof.Gen.Kernel.Launch
import proofs.«141748_j59863254171699_1_alg».proof.Proof.Gen.Kernel.Skeleton
import proofs.«141748_j59863254171699_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's current staging buffer holds its block at every point, fetched there or not (unfetched, the block
    index has not moved), for any proof data whose array is V's and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses, and what it leaves in the output window's buffer -/

abbrev r4_big : Rect S5000x128 := Rect.unit (s := S5000x128) ![0, 0] S5000x128.size inb_S5000x128_S5000x128_0_0
abbrev r4_row : Rect S1x128 := Rect.unit (s := S1x128) ![0, 0] S1x128.size inb_S1x128_S1x128_0_0
abbrev r4_mat : Rect S128x128 := Rect.unit (s := S128x128) ![0, 0] S128x128.size inb_S128x128_S128x128_0_0

/-- The output window's staging buffer after the body, from the input windows' blocks: its one store, of the whole block. -/
def out4_7 (x0 : Vec F S5000x128 .f32) (x1 : Vec F S1x128 .f32) (x2 : Vec F S1x128 .f32) (x3 : Vec F S1x128 .f32) (x4 : Vec F S1x128 .f32) (x5 : Vec F S128x128 .bf16) (x6 : Vec F S1x128 .f32) : Vec F S5000x128 .f32 :=
  View.canon [⟨r4_big, k4_pay1 (View.ld x0 r4_big) (View.ld x2 r4_row) (View.ld x1 r4_row) (View.ld x3 r4_row) (View.ld x4 r4_row) (View.ld x5 r4_mat) (View.ld x6 r4_row)⟩]

/-- The store covers the buffer. -/
theorem cover4_7 (p0 : Vec F S5000x128 .f32) (y : S5000x128.Idx) :
    ∃ pc ∈ ([⟨r4_big, p0⟩] : List (View.Piece (Elt F) S5000x128 .f32)), y ∈ pc.1.set :=
  View.cover_of_tiled [⟨r4_big, p0⟩] S5000x128.size (by rfl) y

/-! ## The body's triple -/

set_option maxHeartbeats 1000000 in
/-- The kernel body on whole staging memrefs, the inputs' at read contents and the output's at anything, runs to the
    continuation holding the inputs' as they were and the output's at out4_7 of the inputs'. -/
theorem sound_kernel4 (c : Dev nD) (E : Set ℕ) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S128x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out4_7 x0 x1 x2 x3 x4 x5 x6)) -∗ K ⟨⟩))
      ⊢ wp frame (wpE (defs₀ (F := F)) Variants.none c none) E (cc4__bn_matmul_kernel i arg1 harg1 arg2 harg2 arg3 harg3 arg4 harg4 arg5 harg5 arg6 harg6 arg7 harg7 arg8 harg8) K := by
  simp only [cc4__bn_matmul_kernel_eq_skeleton]; unfold cc4__bn_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)

/-! ## The pipeline's proof data -/

/-- The proof data of pipeline 4 on core c: the arrays as the region finds them; after the body at point t each input's
    buffer at its block and the output's at out4_7 of the input blocks; the class invariant; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

/-- The body at any point: the inputs' memrefs hold their blocks, so the body's triple applies; the invariant and the
    core's owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.Reg4.lean ====
/-
  Region 4's arrays against the buffers behind them: every window is alone on its array, at the full share. At the entry the buffers, whole at the
  full share at the entry valuation, yield the proof data's arrays; at the exit the arrays (the inputs as entered, the output at
  what the write-backs leave) yield the buffers at the valuation updated at the output's array.
-/
import proofs.«141748_j59863254171699_1_alg».proof.Proof.KB.Common
import proofs.«141748_j59863254171699_1_alg».proof.Proof.KB.Region4
import proofs.«141748_j59863254171699_1_alg».proof.Proof.LibRegionA
import proofs.«141748_j59863254171699_1_alg».proof.Proof.LibSharedArrays

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The valuation region 4 leaves: the entry valuation updated at the output window's array. -/
def W4' (c : Dev nD) : Valuation τ sig (Elt F) :=
  Function.update (W c) (Proc.devRef .tc main_v97) ((dat4 (Vof W) c).arrAt 7 cfg4.N)

/-- Per buffer behind some window's array, the shares of the windows on it make up the full share. -/
theorem fibres4 (c : Dev nD) (V : (b : Ref sig .tc) → Buf (Elt F) ((c : Thread nD τ).loc b)) :
    ∀ b ∈ Finset.univ.image (Pipeline.arrRef cfg4.spec),
      (bigSep (Finset.univ.filter fun w => Pipeline.arrRef cfg4.spec w = b) fun w =>
          ((((c : Thread nD τ)).loc b) ↦{(dat4 (Vof W) c).share w} V b : sProp 𝕄))
        = ((((c : Thread nD τ)).loc b) ↦{fullShare} V b : sProp 𝕄) := by
  intro b hb
  obtain ⟨w, -, rfl⟩ := Finset.mem_image.mp hb
  fin_cases w
  · exact Pipeline.fibre_single (fun _ : Unit => cfg4) (fun _ c => dat4 (Vof W) c) () c V _ 0 (by decide) rfl
  · exact Pipeline.fibre_single (fun _ : Unit => cfg4) (fun _ c => dat4 (Vof W) c) () c V _ 1 (by decide) rfl
  · exact Pipeline.fibre_single (fun _ : Unit => cfg4) (fun _ c => dat4 (Vof W) c) () c V _ 2 (by decide) rfl
  · exact Pipeline.fibre_single (fun _ : Unit => cfg4) (fun _ c => dat4 (Vof W) c) () c V _ 3 (by decide) rfl
  · exact Pipeline.fibre_single (fun _ : Unit => cfg4) (fun _ c => dat4 (Vof W) c) () c V _ 4 (by decide) rfl
  · exact Pipeline.fibre_single (fun _ : Unit => cfg4) (fun _ c => dat4 (Vof W) c) () c V _ 5 (by decide) rfl
  · exact Pipeline.fibre_single (fun _ : Unit => cfg4) (fun _ c => dat4 (Vof W) c) () c V _ 6 (by decide) rfl
  · exact Pipeline.fibre_single (fun _ : Unit => cfg4) (fun _ c => dat4 (Vof W) c) () c V _ 7 (by decide) rfl

/-- ENTRY: the buffers behind the region's arrays at the entry valuation yield the proof data's arrays. -/
theorem hsplit4 (c : Dev nD) :
    (Pipeline.arrBufs cfg4.spec c (Vof W c) : sProp 𝕄) ⊢ (dat4 (Vof W) c).arrays ((dat4 (Vof W) c).arrAt · 0) :=
  Pipeline.arrays_split_fibres (fun _ : Unit => cfg4) (fun _ c => dat4 (Vof W) c) () c arr_whole4 (Vof W c) _
    (fun w => A_eq4 (Vof W) c w) fun b hb => Entails.of_eq (fibres4 W c (Vof W c) b hb).symm

/-- What the exit valuation holds at each window's array: an input's array as entered, the output's at what the
    write-backs leave. -/
theorem arrAt4' (c : Dev nD) (w : Fin cfg4.W) :
    (dat4 (Vof W) c).arrAt w cfg4.N = Vof (W4' W) c (Pipeline.arrRef cfg4.spec w) := by
  have hin : ∀ w : Fin cfg4.W, (cfg4.win w).isOut = false →
      (dat4 (Vof W) c).arrAt w cfg4.N = W c (Proc.devRef .tc (Pipeline.arrRef cfg4.spec w)) := fun w hw =>
    ((dat4 (Vof W) c).arrAt_in w hw _).trans (A_eq4 (Vof W) c w)
  have hne : ∀ w : Fin cfg4.W, Pipeline.arrRef cfg4.spec w ≠ main_v97 →
      W4' W c (Proc.devRef .tc (Pipeline.arrRef cfg4.spec w)) = W c (Proc.devRef .tc (Pipeline.arrRef cfg4.spec w)) := fun w hw => by
    unfold W4'; exact Function.update_of_ne (StableHlo.devRef_ne_of_ne hw) _ _
  by_cases h9 : w = 7
  · subst h9
    show _ = W4' W c (Proc.devRef .tc main_v97)
    unfold W4'; rw [Function.update_self]
  · have hw : (cfg4.win w).isOut = false := by fin_cases w <;> first | rfl | exact absurd rfl h9
    have hr : Pipeline.arrRef cfg4.spec w ≠ main_v97 := by fin_cases w <;> first | decide | exact absurd rfl h9
    exact (hin w hw).trans (hne w hr).symm

/-- EXIT: the proof data's arrays after the last point yield the buffers behind them at the exit valuation. -/
theorem hjoin4 (c : Dev nD) :
    (dat4 (Vof W) c).arrays ((dat4 (Vof W) c).arrAt · cfg4.N) ⊢ (Pipeline.arrBufs cfg4.spec c (Vof (W4' W) c) : sProp 𝕄) :=
  Pipeline.arrays_join_fibres (fun _ : Unit => cfg4) (fun _ c => dat4 (Vof W) c) () c arr_whole4 (Vof (W4' W) c) _
    (arrAt4' W c) fun b hb => Entails.of_eq (fibres4 W c (Vof (W4' W) c) b hb)

/-- Off the region's arrays the exit valuation is the entry valuation. -/
theorem hrest4 (c : Dev nD) (b : Ref sig .tc) (hb : b ∉ Finset.univ.image (Pipeline.arrRef cfg4.spec)) :
    W4' W c b = W c b := by
  unfold W4'
  refine Function.update_of_ne (StableHlo.devRef_ne_of_ne fun h => hb ?_) _ _
  exact Finset.mem_image.mpr ⟨7, Finset.mem_univ _, h.symm⟩

end Cert.Kernel.Hand

end
-- ==== Proof.KB.Region5.lean ====
/-
  Region 5 of @main as a pipeline — the third kernel of a layer: a block of rows normalised twice with given per-feature statistics, then the maximum with zero; windows 4 and 5 read ONE array and hold the two halves of its full share —: what its body leaves in the output window's buffer, the body's
  triple, the proof data and the body obligation, at a PARAMETER V (the buffers' contents when the region is entered), for
  any float values. The body's arithmetic stays the one named payload; nothing here opens it.
-/
import proofs.«141748_j59863254171699_1_alg».proof.Proof.Gen.Kernel.Launch
import proofs.«141748_j59863254171699_1_alg».proof.Proof.Gen.Kernel.Skeleton
import proofs.«141748_j59863254171699_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! An input window's current staging buffer holds its block at every point, fetched there or not (unfetched, the block
    index has not moved), for any proof data whose array is V's and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses, and what it leaves in the output window's buffer -/

abbrev r5_big : Rect S5000x128 := Rect.unit (s := S5000x128) ![0, 0] S5000x128.size inb_S5000x128_S5000x128_0_0
abbrev r5_row : Rect S1x128 := Rect.unit (s := S1x128) ![0, 0] S1x128.size inb_S1x128_S1x128_0_0

/-- The output window's staging buffer after the body, from the input windows' blocks: its one store, of the whole block. -/
def out5_9 (x0 : Vec F S5000x128 .f32) (x1 : Vec F S1x128 .f32) (x2 : Vec F S1x128 .f32) (x3 : Vec F S1x128 .f32) (x4 : Vec F S1x128 .f32) (x5 : Vec F S1x128 .f32) (x6 : Vec F S1x128 .f32) (x7 : Vec F S1x128 .f32) (x8 : Vec F S1x128 .f32) : Vec F S5000x128 .f32 :=
  View.canon [⟨r5_big, k5_pay1 (k5_pay2 (View.ld x0 r5_big) (View.ld x2 r5_row) (View.ld x1 r5_row) (View.ld x3 r5_row) (View.ld x4 r5_row) (View.ld x6 r5_row) (View.ld x5 r5_row) (View.ld x7 r5_row)) (k5_pay3 (View.ld x8 r5_row))⟩]

/-- The store covers the buffer. -/
theorem cover5_9 (p0 : Vec F S5000x128 .f32) (y : S5000x128.Idx) :
    ∃ pc ∈ ([⟨r5_big, p0⟩] : List (View.Piece (Elt F) S5000x128 .f32)), y ∈ pc.1.set :=
  View.cover_of_tiled [⟨r5_big, p0⟩] S5000x128.size (by rfl) y

/-! ## The body's triple -/

set_option maxHeartbeats 1000000 in
/-- The kernel body on whole staging memrefs, the inputs' at read contents and the output's at anything, runs to the
    continuation holding the inputs' as they were and the output's at out5_9 of the inputs'. -/
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S5000x128 .f32) (harg10 : arg10.IsWhole)
    (x0 : Vec F S5000x128 .f32) (x1 : Vec F S1x128 .f32) (x2 : Vec F S1x128 .f32) (x3 : Vec F S1x128 .f32) (x4 : Vec F S1x128 .f32) (x5 : Vec F S1x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out5_9 x0 x1 x2 x3 x4 x5 x6 x7 x8)) -∗ K ⟨⟩))
      ⊢ wp frame (wpE (defs₀ (F := F)) Variants.none c none) E (cc5__double_bn_relu_kernel i arg1 harg1 arg2 harg2 arg3 harg3 arg4 harg4 arg5 harg5 arg6 harg6 arg7 harg7 arg8 harg8 arg9 harg9 arg10 harg10) K := by
  simp only [cc5__double_bn_relu_kernel_eq_skeleton]; unfold cc5__double_bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover5_9 _)

/-! ## The pipeline's proof data -/

/-- The proof data of pipeline 5 on core c: the arrays as the region finds them; after the body at point t each input's
    buffer at its block and the output's at out5_9 of the input blocks; the class invariant; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 (iblk5 V c 0 t) (iblk5 V c 1 t) (iblk5 V c 2 t) (iblk5 V c 3 t) (iblk5 V c 4 t) (iblk5 V c 5 t) (iblk5 V c 6 t) (iblk5 V c 7 t) (iblk5 V c 8 t)
  Φ _ := Pipeline.ΦA spec5 c
  q w := match w with
    | ⟨4, _⟩ => fullShare.left
    | ⟨5, _⟩ => fullShare.right
    | _ => fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) (iblk5 V c 6 t) (iblk5 V c 7 t) (iblk5 V c 8 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d

/-! ## The body obligation, at a generic point -/

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

/-- The body at any point: the inputs' memrefs hold their blocks, so the body's triple applies; the invariant and the
    core's owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KB.Reg5.lean ====
/-
  Region 5's arrays against the buffers behind them: windows 4 and 5 read one array, each at one half of its full share;
  every other window is alone on its array at the full share. At the entry the buffers, whole at the
  full share at the entry valuation, yield the proof data's arrays; at the exit the arrays (the inputs as entered, the output at
  what the write-backs leave) yield the buffers at the valuation updated at the output's array.
-/
import proofs.«141748_j59863254171699_1_alg».proof.Proof.KB.Common
import proofs.«141748_j59863254171699_1_alg».proof.Proof.KB.Region5
import proofs.«141748_j59863254171699_1_alg».proof.Proof.LibRegionA
import proofs.«141748_j59863254171699_1_alg».proof.Proof.LibSharedArrays

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The valuation region 5 leaves: the entry valuation updated at the output window's array. -/
def W5' (c : Dev nD) : Valuation τ sig (Elt F) :=
  Function.update (W c) (Proc.devRef .tc main_v121) ((dat5 (Vof W) c).arrAt 9 cfg5.N)

/-- Per buffer behind some window's array, the shares of the windows on it make up the full share. -/
theorem fibres5 (c : Dev nD) (V : (b : Ref sig .tc) → Buf (Elt F) ((c : Thread nD τ).loc b)) :
    ∀ b ∈ Finset.univ.image (Pipeline.arrRef cfg5.spec),
      (bigSep (Finset.univ.filter fun w => Pipeline.arrRef cfg5.spec w = b) fun w =>
          ((((c : Thread nD τ)).loc b) ↦{(dat5 (Vof W) c).share w} V b : sProp 𝕄))
        = ((((c : Thread nD τ)).loc b) ↦{fullShare} V b : sProp 𝕄) := by
  intro b hb
  obtain ⟨w, -, rfl⟩ := Finset.mem_image.mp hb
  fin_cases w
  · exact Pipeline.fibre_single (fun _ : Unit => cfg5) (fun _ c => dat5 (Vof W) c) () c V _ 0 (by decide) rfl
  · exact Pipeline.fibre_single (fun _ : Unit => cfg5) (fun _ c => dat5 (Vof W) c) () c V _ 1 (by decide) rfl
  · exact Pipeline.fibre_single (fun _ : Unit => cfg5) (fun _ c => dat5 (Vof W) c) () c V _ 2 (by decide) rfl
  · exact Pipeline.fibre_single (fun _ : Unit => cfg5) (fun _ c => dat5 (Vof W) c) () c V _ 3 (by decide) rfl
  · exact Pipeline.fibre_pair (fun _ : Unit => cfg5) (fun _ c => dat5 (Vof W) c) () c V _ 4 5 (by decide) (by decide) rfl rfl
  · exact Pipeline.fibre_pair (fun _ : Unit => cfg5) (fun _ c => dat5 (Vof W) c) () c V _ 4 5 (by decide) (by decide) rfl rfl
  · exact Pipeline.fibre_single (fun _ : Unit => cfg5) (fun _ c => dat5 (Vof W) c) () c V _ 6 (by decide) rfl
  · exact Pipeline.fibre_single (fun _ : Unit => cfg5) (fun _ c => dat5 (Vof W) c) () c V _ 7 (by decide) rfl
  · exact Pipeline.fibre_single (fun _ : Unit => cfg5) (fun _ c => dat5 (Vof W) c) () c V _ 8 (by decide) rfl
  · exact Pipeline.fibre_single (fun _ : Unit => cfg5) (fun _ c => dat5 (Vof W) c) () c V _ 9 (by decide) rfl

/-- ENTRY: the buffers behind the region's arrays at the entry valuation yield the proof data's arrays. -/
theorem hsplit5 (c : Dev nD) :
    (Pipeline.arrBufs cfg5.spec c (Vof W c) : sProp 𝕄) ⊢ (dat5 (Vof W) c).arrays ((dat5 (Vof W) c).arrAt · 0) :=
  Pipeline.arrays_split_fibres (fun _ : Unit => cfg5) (fun _ c => dat5 (Vof W) c) () c arr_whole5 (Vof W c) _
    (fun w => A_eq5 (Vof W) c w) fun b hb => Entails.of_eq (fibres5 W c (Vof W c) b hb).symm

/-- What the exit valuation holds at each window's array: an input's array as entered, the output's at what the
    write-backs leave. -/
theorem arrAt5' (c : Dev nD) (w : Fin cfg5.W) :
    (dat5 (Vof W) c).arrAt w cfg5.N = Vof (W5' W) c (Pipeline.arrRef cfg5.spec w) := by
  have hin : ∀ w : Fin cfg5.W, (cfg5.win w).isOut = false →
      (dat5 (Vof W) c).arrAt w cfg5.N = W c (Proc.devRef .tc (Pipeline.arrRef cfg5.spec w)) := fun w hw =>
    ((dat5 (Vof W) c).arrAt_in w hw _).trans (A_eq5 (Vof W) c w)
  have hne : ∀ w : Fin cfg5.W, Pipeline.arrRef cfg5.spec w ≠ main_v121 →
      W5' W c (Proc.devRef .tc (Pipeline.arrRef cfg5.spec w)) = W c (Proc.devRef .tc (Pipeline.arrRef cfg5.spec w)) := fun w hw => by
    unfold W5'; exact Function.update_of_ne (StableHlo.devRef_ne_of_ne hw) _ _
  by_cases h9 : w = 9
  · subst h9
    show _ = W5' W c (Proc.devRef .tc main_v121)
    unfold W5'; rw [Function.update_self]
  · have hw : (cfg5.win w).isOut = false := by fin_cases w <;> first | rfl | exact absurd rfl h9
    have hr : Pipeline.arrRef cfg5.spec w ≠ main_v121 := by fin_cases w <;> first | decide | exact absurd rfl h9
    exact (hin w hw).trans (hne w hr).symm

/-- EXIT: the proof data's arrays after the last point yield the buffers behind them at the exit valuation. -/
theorem hjoin5 (c : Dev nD) :
    (dat5 (Vof W) c).arrays ((dat5 (Vof W) c).arrAt · cfg5.N) ⊢ (Pipeline.arrBufs cfg5.spec c (Vof (W5' W) c) : sProp 𝕄) :=
  Pipeline.arrays_join_fibres (fun _ : Unit => cfg5) (fun _ c => dat5 (Vof W) c) () c arr_whole5 (Vof (W5' W) c) _
    (arrAt5' W c) fun b hb => Entails.of_eq (fibres5 W c (Vof (W5' W) c) b hb)

/-- Off the region's arrays the exit valuation is the entry valuation. -/
theorem hrest5 (c : Dev nD) (b : Ref sig .tc) (hb : b ∉ Finset.univ.image (Pipeline.arrRef cfg5.spec)) :
    W5' W c b = W c b := by
  unfold W5'
  refine Function.update_of_ne (StableHlo.devRef_ne_of_ne fun h => hb ?_) _ _
  exact Finset.mem_image.mpr ⟨9, Finset.mem_univ _, h.symm⟩

end Cert.Kernel.Hand

end
-- ==== Proof.KB.Region6.lean ====
/-
  Region 6 of @main as a pipeline — the first kernel of a layer: the sum of two blocks of rows, times a 128 × 128 matrix, plus a row of biases —: what its body leaves in the output window's buffer, the body's
  triple, the proof data and the body obligation, at a PARAMETER V (the buffers' contents when the region is entered), for
  any float values. The body's arithmetic stays the one named payload; nothing here opens it.
-/
import proofs.«141748_j59863254171699_1_alg».proof.Proof.Gen.Kernel.Launch
import proofs.«141748_j59863254171699_1_alg».proof.Proof.Gen.Kernel.Skeleton
import proofs.«141748_j59863254171699_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! An input window's current staging buffer holds its block at every point, fetched there or not (unfetched, the block
    index has not moved), for any proof data whose array is V's and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses, and what it leaves in the output window's buffer -/

abbrev r6_big : Rect S5000x128 := Rect.unit (s := S5000x128) ![0, 0] S5000x128.size inb_S5000x128_S5000x128_0_0
abbrev r6_mat : Rect S128x128 := Rect.unit (s := S128x128) ![0, 0] S128x128.size inb_S128x128_S128x128_0_0
abbrev r6_row : Rect S1x128 := Rect.unit (s := S1x128) ![0, 0] S1x128.size inb_S1x128_S1x128_0_0

/-- The output window's staging buffer after the body, from the input windows' blocks: its one store, of the whole block. -/
def out6_4 (x0 : Vec F S5000x128 .f32) (x1 : Vec F S5000x128 .f32) (x2 : Vec F S128x128 .bf16) (x3 : Vec F S1x128 .f32) : Vec F S5000x128 .f32 :=
  View.canon [⟨r6_big, k6_pay1 (View.ld x0 r6_big) (View.ld x1 r6_big) (View.ld x2 r6_mat) (View.ld x3 r6_row)⟩]

/-- The store covers the buffer. -/
theorem cover6_4 (p0 : Vec F S5000x128 .f32) (y : S5000x128.Idx) :
    ∃ pc ∈ ([⟨r6_big, p0⟩] : List (View.Piece (Elt F) S5000x128 .f32)), y ∈ pc.1.set :=
  View.cover_of_tiled [⟨r6_big, p0⟩] S5000x128.size (by rfl) y

/-! ## The body's triple -/

set_option maxHeartbeats 1000000 in
/-- The kernel body on whole staging memrefs, the inputs' at read contents and the output's at anything, runs to the
    continuation holding the inputs' as they were and the output's at out6_4 of the inputs'. -/
theorem sound_kernel6 (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x128 .f32) (x2 : Vec F S128x128 .bf16) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out6_4 x0 x1 x2 x3)) -∗ K ⟨⟩))
      ⊢ wp frame (wpE (defs₀ (F := F)) Variants.none c none) E (cc6__combine_matmul_kernel i arg1 harg1 arg2 harg2 arg3 harg3 arg4 harg4 arg5 harg5) K := by
  simp only [cc6__combine_matmul_kernel_eq_skeleton]; unfold cc6__combine_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _)

/-! ## The pipeline's proof data -/

/-- The proof data of pipeline 6 on core c: the arrays as the region finds them; after the body at point t each input's
    buffer at its block and the output's at out6_4 of the input blocks; the class invariant; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 (iblk6 V c 0 t) (iblk6 V c 1 t) (iblk6 V c 2 t) (iblk6 V c 3 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-! ## The body obligation, at a generic point -/

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

/-- The body at any point: the inputs' memrefs hold their blocks, so the body's triple applies; the invariant and the
    core's owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KB.Reg6.lean ====
/-
  Region 6's arrays against the buffers behind them: every window is alone on its array, at the full share. At the entry the buffers, whole at the
  full share at the entry valuation, yield the proof data's arrays; at the exit the arrays (the inputs as entered, the output at
  what the write-backs leave) yield the buffers at the valuation updated at the output's array.
-/
import proofs.«141748_j59863254171699_1_alg».proof.Proof.KB.Common
import proofs.«141748_j59863254171699_1_alg».proof.Proof.KB.Region6
import proofs.«141748_j59863254171699_1_alg».proof.Proof.LibRegionA
import proofs.«141748_j59863254171699_1_alg».proof.Proof.LibSharedArrays

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The valuation region 6 leaves: the entry valuation updated at the output window's array. -/
def W6' (c : Dev nD) : Valuation τ sig (Elt F) :=
  Function.update (W c) (Proc.devRef .tc main_v137) ((dat6 (Vof W) c).arrAt 4 cfg6.N)

/-- Per buffer behind some window's array, the shares of the windows on it make up the full share. -/
theorem fibres6 (c : Dev nD) (V : (b : Ref sig .tc) → Buf (Elt F) ((c : Thread nD τ).loc b)) :
    ∀ b ∈ Finset.univ.image (Pipeline.arrRef cfg6.spec),
      (bigSep (Finset.univ.filter fun w => Pipeline.arrRef cfg6.spec w = b) fun w =>
          ((((c : Thread nD τ)).loc b) ↦{(dat6 (Vof W) c).share w} V b : sProp 𝕄))
        = ((((c : Thread nD τ)).loc b) ↦{fullShare} V b : sProp 𝕄) := by
  intro b hb
  obtain ⟨w, -, rfl⟩ := Finset.mem_image.mp hb
  fin_cases w
  · exact Pipeline.fibre_single (fun _ : Unit => cfg6) (fun _ c => dat6 (Vof W) c) () c V _ 0 (by decide) rfl
  · exact Pipeline.fibre_single (fun _ : Unit => cfg6) (fun _ c => dat6 (Vof W) c) () c V _ 1 (by decide) rfl
  · exact Pipeline.fibre_single (fun _ : Unit => cfg6) (fun _ c => dat6 (Vof W) c) () c V _ 2 (by decide) rfl
  · exact Pipeline.fibre_single (fun _ : Unit => cfg6) (fun _ c => dat6 (Vof W) c) () c V _ 3 (by decide) rfl
  · exact Pipeline.fibre_single (fun _ : Unit => cfg6) (fun _ c => dat6 (Vof W) c) () c V _ 4 (by decide) rfl

/-- ENTRY: the buffers behind the region's arrays at the entry valuation yield the proof data's arrays. -/
theorem hsplit6 (c : Dev nD) :
    (Pipeline.arrBufs cfg6.spec c (Vof W c) : sProp 𝕄) ⊢ (dat6 (Vof W) c).arrays ((dat6 (Vof W) c).arrAt · 0) :=
  Pipeline.arrays_split_fibres (fun _ : Unit => cfg6) (fun _ c => dat6 (Vof W) c) () c arr_whole6 (Vof W c) _
    (fun w => A_eq6 (Vof W) c w) fun b hb => Entails.of_eq (fibres6 W c (Vof W c) b hb).symm

/-- What the exit valuation holds at each window's array: an input's array as entered, the output's at what the
    write-backs leave. -/
theorem arrAt6' (c : Dev nD) (w : Fin cfg6.W) :
    (dat6 (Vof W) c).arrAt w cfg6.N = Vof (W6' W) c (Pipeline.arrRef cfg6.spec w) := by
  have hin : ∀ w : Fin cfg6.W, (cfg6.win w).isOut = false →
      (dat6 (Vof W) c).arrAt w cfg6.N = W c (Proc.devRef .tc (Pipeline.arrRef cfg6.spec w)) := fun w hw =>
    ((dat6 (Vof W) c).arrAt_in w hw _).trans (A_eq6 (Vof W) c w)
  have hne : ∀ w : Fin cfg6.W, Pipeline.arrRef cfg6.spec w ≠ main_v137 →
      W6' W c (Proc.devRef .tc (Pipeline.arrRef cfg6.spec w)) = W c (Proc.devRef .tc (Pipeline.arrRef cfg6.spec w)) := fun w hw => by
    unfold W6'; exact Function.update_of_ne (StableHlo.devRef_ne_of_ne hw) _ _
  by_cases h9 : w = 4
  · subst h9
    show _ = W6' W c (Proc.devRef .tc main_v137)
    unfold W6'; rw [Function.update_self]
  · have hw : (cfg6.win w).isOut = false := by fin_cases w <;> first | rfl | exact absurd rfl h9
    have hr : Pipeline.arrRef cfg6.spec w ≠ main_v137 := by fin_cases w <;> first | decide | exact absurd rfl h9
    exact (hin w hw).trans (hne w hr).symm

/-- EXIT: the proof data's arrays after the last point yield the buffers behind them at the exit valuation. -/
theorem hjoin6 (c : Dev nD) :
    (dat6 (Vof W) c).arrays ((dat6 (Vof W) c).arrAt · cfg6.N) ⊢ (Pipeline.arrBufs cfg6.spec c (Vof (W6' W) c) : sProp 𝕄) :=
  Pipeline.arrays_join_fibres (fun _ : Unit => cfg6) (fun _ c => dat6 (Vof W) c) () c arr_whole6 (Vof (W6' W) c) _
    (arrAt6' W c) fun b hb => Entails.of_eq (fibres6 W c (Vof (W6' W) c) b hb)

/-- Off the region's arrays the exit valuation is the entry valuation. -/
theorem hrest6 (c : Dev nD) (b : Ref sig .tc) (hb : b ∉ Finset.univ.image (Pipeline.arrRef cfg6.spec)) :
    W6' W c b = W c b := by
  unfold W6'
  refine Function.update_of_ne (StableHlo.devRef_ne_of_ne fun h => hb ?_) _ _
  exact Finset.mem_image.mpr ⟨4, Finset.mem_univ _, h.symm⟩

end Cert.Kernel.Hand

end
-- ==== Proof.KB.Region7.lean ====
/-
  Region 7 of @main as a pipeline — the second kernel of a layer: a block of rows normalised with given per-feature mean and variance, scaled and shifted, times a 128 × 128 matrix, plus a row of biases —: what its body leaves in the output window's buffer, the body's
  triple, the proof data and the body obligation, at a PARAMETER V (the buffers' contents when the region is entered), for
  any float values. The body's arithmetic stays the one named payload; nothing here opens it.
-/
import proofs.«141748_j59863254171699_1_alg».proof.Proof.Gen.Kernel.Launch
import proofs.«141748_j59863254171699_1_alg».proof.Proof.Gen.Kernel.Skeleton
import proofs.«141748_j59863254171699_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! An input window's current staging buffer holds its block at every point, fetched there or not (unfetched, the block
    index has not moved), for any proof data whose array is V's and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses, and what it leaves in the output window's buffer -/

abbrev r7_big : Rect S5000x128 := Rect.unit (s := S5000x128) ![0, 0] S5000x128.size inb_S5000x128_S5000x128_0_0
abbrev r7_row : Rect S1x128 := Rect.unit (s := S1x128) ![0, 0] S1x128.size inb_S1x128_S1x128_0_0
abbrev r7_mat : Rect S128x128 := Rect.unit (s := S128x128) ![0, 0] S128x128.size inb_S128x128_S128x128_0_0

/-- The output window's staging buffer after the body, from the input windows' blocks: its one store, of the whole block. -/
def out7_7 (x0 : Vec F S5000x128 .f32) (x1 : Vec F S1x128 .f32) (x2 : Vec F S1x128 .f32) (x3 : Vec F S1x128 .f32) (x4 : Vec F S1x128 .f32) (x5 : Vec F S128x128 .bf16) (x6 : Vec F S1x128 .f32) : Vec F S5000x128 .f32 :=
  View.canon [⟨r7_big, k7_pay1 (View.ld x0 r7_big) (View.ld x2 r7_row) (View.ld x1 r7_row) (View.ld x3 r7_row) (View.ld x4 r7_row) (View.ld x5 r7_mat) (View.ld x6 r7_row)⟩]

/-- The store covers the buffer. -/
theorem cover7_7 (p0 : Vec F S5000x128 .f32) (y : S5000x128.Idx) :
    ∃ pc ∈ ([⟨r7_big, p0⟩] : List (View.Piece (Elt F) S5000x128 .f32)), y ∈ pc.1.set :=
  View.cover_of_tiled [⟨r7_big, p0⟩] S5000x128.size (by rfl) y

/-! ## The body's triple -/

set_option maxHeartbeats 1000000 in
/-- The kernel body on whole staging memrefs, the inputs' at read contents and the output's at anything, runs to the
    continuation holding the inputs' as they were and the output's at out7_7 of the inputs'. -/
theorem sound_kernel7 (c : Dev nD) (E : Set ℕ) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S128x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7_7 x0 x1 x2 x3 x4 x5 x6)) -∗ K ⟨⟩))
      ⊢ wp frame (wpE (defs₀ (F := F)) Variants.none c none) E (cc7__bn_matmul_kernel i arg1 harg1 arg2 harg2 arg3 harg3 arg4 harg4 arg5 harg5 arg6 harg6 arg7 harg7 arg8 harg8) K := by
  simp only [cc7__bn_matmul_kernel_eq_skeleton]; unfold cc7__bn_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7_7 _)

/-! ## The pipeline's proof data -/

/-- The proof data of pipeline 7 on core c: the arrays as the region finds them; after the body at point t each input's
    buffer at its block and the output's at out7_7 of the input blocks; the class invariant; nothing owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 (iblk7 V c 0 t) (iblk7 V c 1 t) (iblk7 V c 2 t) (iblk7 V c 3 t) (iblk7 V c 4 t) (iblk7 V c 5 t) (iblk7 V c 6 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = out7_7 (iblk7 V c 0 t) (iblk7 V c 1 t) (iblk7 V c 2 t) (iblk7 V c 3 t) (iblk7 V c 4 t) (iblk7 V c 5 t) (iblk7 V c 6 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d

/-! ## The body obligation, at a generic point -/

/-- What the body is called with at point t, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

/-- The body at any point: the inputs' memrefs hold their blocks, so the body's triple applies; the invariant and the
    core's owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel7 c Set.univ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.KB.Reg7.lean ====
/-
  Region 7's arrays against the buffers behind them: every window is alone on its array, at the full share. At the entry the buffers, whole at the
  full share at the entry valuation, yield the proof data's arrays; at the exit the arrays (the inputs as entered, the output at
  what the write-backs leave) yield the buffers at the valuation updated at the output's array.
-/
import proofs.«141748_j59863254171699_1_alg».proof.Proof.KB.Common
import proofs.«141748_j59863254171699_1_alg».proof.Proof.KB.Region7
import proofs.«141748_j59863254171699_1_alg».proof.Proof.LibRegionA
import proofs.«141748_j59863254171699_1_alg».proof.Proof.LibSharedArrays

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The valuation region 7 leaves: the entry valuation updated at the output window's array. -/
def W7' (c : Dev nD) : Valuation τ sig (Elt F) :=
  Function.update (W c) (Proc.devRef .tc main_v155) ((dat7 (Vof W) c).arrAt 7 cfg7.N)

/-- Per buffer behind some window's array, the shares of the windows on it make up the full share. -/
theorem fibres7 (c : Dev nD) (V : (b : Ref sig .tc) → Buf (Elt F) ((c : Thread nD τ).loc b)) :
    ∀ b ∈ Finset.univ.image (Pipeline.arrRef cfg7.spec),
      (bigSep (Finset.univ.filter fun w => Pipeline.arrRef cfg7.spec w = b) fun w =>
          ((((c : Thread nD τ)).loc b) ↦{(dat7 (Vof W) c).share w} V b : sProp 𝕄))
        = ((((c : Thread nD τ)).loc b) ↦{fullShare} V b : sProp 𝕄) := by
  intro b hb
  obtain ⟨w, -, rfl⟩ := Finset.mem_image.mp hb
  fin_cases w
  · exact Pipeline.fibre_single (fun _ : Unit => cfg7) (fun _ c => dat7 (Vof W) c) () c V _ 0 (by decide) rfl
  · exact Pipeline.fibre_single (fun _ : Unit => cfg7) (fun _ c => dat7 (Vof W) c) () c V _ 1 (by decide) rfl
  · exact Pipeline.fibre_single (fun _ : Unit => cfg7) (fun _ c => dat7 (Vof W) c) () c V _ 2 (by decide) rfl
  · exact Pipeline.fibre_single (fun _ : Unit => cfg7) (fun _ c => dat7 (Vof W) c) () c V _ 3 (by decide) rfl
  · exact Pipeline.fibre_single (fun _ : Unit => cfg7) (fun _ c => dat7 (Vof W) c) () c V _ 4 (by decide) rfl
  · exact Pipeline.fibre_single (fun _ : Unit => cfg7) (fun _ c => dat7 (Vof W) c) () c V _ 5 (by decide) rfl
  · exact Pipeline.fibre_single (fun _ : Unit => cfg7) (fun _ c => dat7 (Vof W) c) () c V _ 6 (by decide) rfl
  · exact Pipeline.fibre_single (fun _ : Unit => cfg7) (fun _ c => dat7 (Vof W) c) () c V _ 7 (by decide) rfl

/-- ENTRY: the buffers behind the region's arrays at the entry valuation yield the proof data's arrays. -/
theorem hsplit7 (c : Dev nD) :
    (Pipeline.arrBufs cfg7.spec c (Vof W c) : sProp 𝕄) ⊢ (dat7 (Vof W) c).arrays ((dat7 (Vof W) c).arrAt · 0) :=
  Pipeline.arrays_split_fibres (fun _ : Unit => cfg7) (fun _ c => dat7 (Vof W) c) () c arr_whole7 (Vof W c) _
    (fun w => A_eq7 (Vof W) c w) fun b hb => Entails.of_eq (fibres7 W c (Vof W c) b hb).symm

/-- What the exit valuation holds at each window's array: an input's array as entered, the output's at what the
    write-backs leave. -/
theorem arrAt7' (c : Dev nD) (w : Fin cfg7.W) :
    (dat7 (Vof W) c).arrAt w cfg7.N = Vof (W7' W) c (Pipeline.arrRef cfg7.spec w) := by
  have hin : ∀ w : Fin cfg7.W, (cfg7.win w).isOut = false →
      (dat7 (Vof W) c).arrAt w cfg7.N = W c (Proc.devRef .tc (Pipeline.arrRef cfg7.spec w)) := fun w hw =>
    ((dat7 (Vof W) c).arrAt_in w hw _).trans (A_eq7 (Vof W) c w)
  have hne : ∀ w : Fin cfg7.W, Pipeline.arrRef cfg7.spec w ≠ main_v155 →
      W7' W c (Proc.devRef .tc (Pipeline.arrRef cfg7.spec w)) = W c (Proc.devRef .tc (Pipeline.arrRef cfg7.spec w)) := fun w hw => by
    unfold W7'; exact Function.update_of_ne (StableHlo.devRef_ne_of_ne hw) _ _
  by_cases h9 : w = 7
  · subst h9
    show _ = W7' W c (Proc.devRef .tc main_v155)
    unfold W7'; rw [Function.update_self]
  · have hw : (cfg7.win w).isOut = false := by fin_cases w <;> first | rfl | exact absurd rfl h9
    have hr : Pipeline.arrRef cfg7.spec w ≠ main_v155 := by fin_cases w <;> first | decide | exact absurd rfl h9
    exact (hin w hw).trans (hne w hr).symm

/-- EXIT: the proof data's arrays after the last point yield the buffers behind them at the exit valuation. -/
theorem hjoin7 (c : Dev nD) :
    (dat7 (Vof W) c).arrays ((dat7 (Vof W) c).arrAt · cfg7.N) ⊢ (Pipeline.arrBufs cfg7.spec c (Vof (W7' W) c) : sProp 𝕄) :=
  Pipeline.arrays_join_fibres (fun _ : Unit => cfg7) (fun _ c => dat7 (Vof W) c) () c arr_whole7 (Vof (W7' W) c) _
    (arrAt7' W c) fun b hb => Entails.of_eq (fibres7 W c (Vof (W7' W) c) b hb)

/-- Off the region's arrays the exit valuation is the entry valuation. -/
theorem hrest7 (c : Dev nD) (b : Ref sig .tc) (hb : b ∉ Finset.univ.image (Pipeline.arrRef cfg7.spec)) :
    W7' W c b = W c b := by
  unfold W7'
  refine Function.update_of_ne (StableHlo.devRef_ne_of_ne fun h => hb ?_) _ _
  exact Finset.mem_image.mpr ⟨7, Finset.mem_univ _, h.symm⟩

end Cert.Kernel.Hand

end
-- ==== Proof.KB.Region8.lean ====
/-
  Region 8 of @main as a pipeline — the third kernel of a layer: a block of rows normalised twice with given per-feature statistics, then the maximum with zero; windows 4 and 5 read ONE array and hold the two halves of its full share —: what its body leaves in the output window's buffer, the body's
  triple, the proof data and the body obligation, at a PARAMETER V (the buffers' contents when the region is entered), for
  any float values. The body's arithmetic stays the one named payload; nothing here opens it.
-/
import proofs.«141748_j59863254171699_1_alg».proof.Proof.Gen.Kernel.Launch
import proofs.«141748_j59863254171699_1_alg».proof.Proof.Gen.Kernel.Skeleton
import proofs.«141748_j59863254171699_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! An input window's current staging buffer holds its block at every point, fetched there or not (unfetched, the block
    index has not moved), for any proof data whose array is V's and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)
theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses, and what it leaves in the output window's buffer -/

abbrev r8_big : Rect S5000x128 := Rect.unit (s := S5000x128) ![0, 0] S5000x128.size inb_S5000x128_S5000x128_0_0
abbrev r8_row : Rect S1x128 := Rect.unit (s := S1x128) ![0, 0] S1x128.size inb_S1x128_S1x128_0_0

/-- The output window's staging buffer after the body, from the input windows' blocks: its one store, of the whole block. -/
def out8_9 (x0 : Vec F S5000x128 .f32) (x1 : Vec F S1x128 .f32) (x2 : Vec F S1x128 .f32) (x3 : Vec F S1x128 .f32) (x4 : Vec F S1x128 .f32) (x5 : Vec F S1x128 .f32) (x6 : Vec F S1x128 .f32) (x7 : Vec F S1x128 .f32) (x8 : Vec F S1x128 .f32) : Vec F S5000x128 .f32 :=
  View.canon [⟨r8_big, k8_pay1 (k8_pay2 (View.ld x0 r8_big) (View.ld x2 r8_row) (View.ld x1 r8_row) (View.ld x3 r8_row) (View.ld x4 r8_row) (View.ld x6 r8_row) (View.ld x5 r8_row) (View.ld x7 r8_row)) (k8_pay3 (View.ld x8 r8_row))⟩]

/-- The store covers the buffer. -/
theorem cover8_9 (p0 : Vec F S5000x128 .f32) (y : S5000x128.Idx) :
    ∃ pc ∈ ([⟨r8_big, p0⟩] : List (View.Piece (Elt F) S5000x128 .f32)), y ∈ pc.1.set :=
  View.cover_of_tiled [⟨r8_big, p0⟩] S5000x128.size (by rfl) y

/-! ## The body's triple -/

set_option maxHeartbeats 1000000 in
/-- The kernel body on whole staging memrefs, the inputs' at read contents and the output's at anything, runs to the
    continuation holding the inputs' as they were and the output's at out8_9 of the inputs'. -/
theorem sound_kernel8 (c : Dev nD) (E : Set ℕ) (i : grid8.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S5000x128 .f32) (harg10 : arg10.IsWhole)
    (x0 : Vec F S5000x128 .f32) (x1 : Vec F S1x128 .f32) (x2 : Vec F S1x128 .f32) (x3 : Vec F S1x128 .f32) (x4 : Vec F S1x128 .f32) (x5 : Vec F S1x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out8_9 x0 x1 x2 x3 x4 x5 x6 x7 x8)) -∗ K ⟨⟩))
      ⊢ wp frame (wpE (defs₀ (F := F)) Variants.none c none) E (cc8__double_bn_relu_kernel i arg1 harg1 arg2 harg2 arg3 harg3 arg4 harg4 arg5 harg5 arg6 harg6 arg7 harg7 arg8 harg8 arg9 harg9 arg10 harg10) K := by
  simp only [cc8__double_bn_relu_kernel_eq_skeleton]; unfold cc8__double_bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover8_9 _)

/-! ## The pipeline's proof data -/

/-- The proof data of pipeline 8 on core c: the arrays as the region finds them; after the body at point t each input's
    buffer at its block and the output's at out8_9 of the input blocks; the class invariant; nothing owed. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => out8_9 (iblk8 V c 0 t) (iblk8 V c 1 t) (iblk8 V c 2 t) (iblk8 V c 3 t) (iblk8 V c 4 t) (iblk8 V c 5 t) (iblk8 V c 6 t) (iblk8 V c 7 t) (iblk8 V c 8 t)
  Φ _ := Pipeline.ΦA spec8 c
  q w := match w with
    | ⟨4, _⟩ => fullShare.left
    | ⟨5, _⟩ => fullShare.right
    | _ => fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = out8_9 (iblk8 V c 0 t) (iblk8 V c 1 t) (iblk8 V c 2 t) (iblk8 V c 3 t) (iblk8 V c 4 t) (iblk8 V c 5 t) (iblk8 V c 6 t) (iblk8 V c 7 t) (iblk8 V c 8 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d

/-! ## The body obligation, at a generic point -/

/-- What the body is called with at point t, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t))

/-- The body at any point: the inputs' memrefs hold their blocks, so the body's triple applies; the invariant and the
    core's owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel8 c Set.univ _ _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) (iblk8 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.KB.Reg8.lean ====
/-
  Region 8's arrays against the buffers behind them: windows 4 and 5 read one array, each at one half of its full share;
  every other window is alone on its array at the full share. At the entry the buffers, whole at the
  full share at the entry valuation, yield the proof data's arrays; at the exit the arrays (the inputs as entered, the output at
  what the write-backs leave) yield the buffers at the valuation updated at the output's array.
-/
import proofs.«141748_j59863254171699_1_alg».proof.Proof.KB.Common
import proofs.«141748_j59863254171699_1_alg».proof.Proof.KB.Region8
import proofs.«141748_j59863254171699_1_alg».proof.Proof.LibRegionA
import proofs.«141748_j59863254171699_1_alg».proof.Proof.LibSharedArrays

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The valuation region 8 leaves: the entry valuation updated at the output window's array. -/
def W8' (c : Dev nD) : Valuation τ sig (Elt F) :=
  Function.update (W c) (Proc.devRef .tc main_v179) ((dat8 (Vof W) c).arrAt 9 cfg8.N)

/-- Per buffer behind some window's array, the shares of the windows on it make up the full share. -/
theorem fibres8 (c : Dev nD) (V : (b : Ref sig .tc) → Buf (Elt F) ((c : Thread nD τ).loc b)) :
    ∀ b ∈ Finset.univ.image (Pipeline.arrRef cfg8.spec),
      (bigSep (Finset.univ.filter fun w => Pipeline.arrRef cfg8.spec w = b) fun w =>
          ((((c : Thread nD τ)).loc b) ↦{(dat8 (Vof W) c).share w} V b : sProp 𝕄))
        = ((((c : Thread nD τ)).loc b) ↦{fullShare} V b : sProp 𝕄) := by
  intro b hb
  obtain ⟨w, -, rfl⟩ := Finset.mem_image.mp hb
  fin_cases w
  · exact Pipeline.fibre_single (fun _ : Unit => cfg8) (fun _ c => dat8 (Vof W) c) () c V _ 0 (by decide) rfl
  · exact Pipeline.fibre_single (fun _ : Unit => cfg8) (fun _ c => dat8 (Vof W) c) () c V _ 1 (by decide) rfl
  · exact Pipeline.fibre_single (fun _ : Unit => cfg8) (fun _ c => dat8 (Vof W) c) () c V _ 2 (by decide) rfl
  · exact Pipeline.fibre_single (fun _ : Unit => cfg8) (fun _ c => dat8 (Vof W) c) () c V _ 3 (by decide) rfl
  · exact Pipeline.fibre_pair (fun _ : Unit => cfg8) (fun _ c => dat8 (Vof W) c) () c V _ 4 5 (by decide) (by decide) rfl rfl
  · exact Pipeline.fibre_pair (fun _ : Unit => cfg8) (fun _ c => dat8 (Vof W) c) () c V _ 4 5 (by decide) (by decide) rfl rfl
  · exact Pipeline.fibre_single (fun _ : Unit => cfg8) (fun _ c => dat8 (Vof W) c) () c V _ 6 (by decide) rfl
  · exact Pipeline.fibre_single (fun _ : Unit => cfg8) (fun _ c => dat8 (Vof W) c) () c V _ 7 (by decide) rfl
  · exact Pipeline.fibre_single (fun _ : Unit => cfg8) (fun _ c => dat8 (Vof W) c) () c V _ 8 (by decide) rfl
  · exact Pipeline.fibre_single (fun _ : Unit => cfg8) (fun _ c => dat8 (Vof W) c) () c V _ 9 (by decide) rfl

/-- ENTRY: the buffers behind the region's arrays at the entry valuation yield the proof data's arrays. -/
theorem hsplit8 (c : Dev nD) :
    (Pipeline.arrBufs cfg8.spec c (Vof W c) : sProp 𝕄) ⊢ (dat8 (Vof W) c).arrays ((dat8 (Vof W) c).arrAt · 0) :=
  Pipeline.arrays_split_fibres (fun _ : Unit => cfg8) (fun _ c => dat8 (Vof W) c) () c arr_whole8 (Vof W c) _
    (fun w => A_eq8 (Vof W) c w) fun b hb => Entails.of_eq (fibres8 W c (Vof W c) b hb).symm

/-- What the exit valuation holds at each window's array: an input's array as entered, the output's at what the
    write-backs leave. -/
theorem arrAt8' (c : Dev nD) (w : Fin cfg8.W) :
    (dat8 (Vof W) c).arrAt w cfg8.N = Vof (W8' W) c (Pipeline.arrRef cfg8.spec w) := by
  have hin : ∀ w : Fin cfg8.W, (cfg8.win w).isOut = false →
      (dat8 (Vof W) c).arrAt w cfg8.N = W c (Proc.devRef .tc (Pipeline.arrRef cfg8.spec w)) := fun w hw =>
    ((dat8 (Vof W) c).arrAt_in w hw _).trans (A_eq8 (Vof W) c w)
  have hne : ∀ w : Fin cfg8.W, Pipeline.arrRef cfg8.spec w ≠ main_v179 →
      W8' W c (Proc.devRef .tc (Pipeline.arrRef cfg8.spec w)) = W c (Proc.devRef .tc (Pipeline.arrRef cfg8.spec w)) := fun w hw => by
    unfold W8'; exact Function.update_of_ne (StableHlo.devRef_ne_of_ne hw) _ _
  by_cases h9 : w = 9
  · subst h9
    show _ = W8' W c (Proc.devRef .tc main_v179)
    unfold W8'; rw [Function.update_self]
  · have hw : (cfg8.win w).isOut = false := by fin_cases w <;> first | rfl | exact absurd rfl h9
    have hr : Pipeline.arrRef cfg8.spec w ≠ main_v179 := by fin_cases w <;> first | decide | exact absurd rfl h9
    exact (hin w hw).trans (hne w hr).symm

/-- EXIT: the proof data's arrays after the last point yield the buffers behind them at the exit valuation. -/
theorem hjoin8 (c : Dev nD) :
    (dat8 (Vof W) c).arrays ((dat8 (Vof W) c).arrAt · cfg8.N) ⊢ (Pipeline.arrBufs cfg8.spec c (Vof (W8' W) c) : sProp 𝕄) :=
  Pipeline.arrays_join_fibres (fun _ : Unit => cfg8) (fun _ c => dat8 (Vof W) c) () c arr_whole8 (Vof (W8' W) c) _
    (arrAt8' W c) fun b hb => Entails.of_eq (fibres8 W c (Vof (W8' W) c) b hb)

/-- Off the region's arrays the exit valuation is the entry valuation. -/
theorem hrest8 (c : Dev nD) (b : Ref sig .tc) (hb : b ∉ Finset.univ.image (Pipeline.arrRef cfg8.spec)) :
    W8' W c b = W c b := by
  unfold W8'
  refine Function.update_of_ne (StableHlo.devRef_ne_of_ne fun h => hb ?_) _ _
  exact Finset.mem_image.mpr ⟨9, Finset.mem_univ _, h.symm⟩

end Cert.Kernel.Hand

end
-- ==== Proof.KB.Frame.lean ====
/-
  The frame of the program: from any memory with zero counters every weakly fair execution of @main terminates, nothing
  faulting, and every argument array ends as launched — for any float values.

  @main is thirty-one items: twenty-two stretches of host operations and nine kernel regions. The contents of a core's
  unscoped buffers between two items are a fold from the launch memory (X0 … X31): a host stretch applies its operations, a
  region updates the one array it writes. Every region's record is the class-A record entered from "every unscoped buffer at
  the fold's valuation, the generator register at some state, nothing owed"; the generated conditional frame takes the nine
  records, the rest states and the fold and gives the claim.
-/
import proofs.«141748_j59863254171699_1_alg».proof.Proof.Gen.Kernel.Regions
import proofs.«141748_j59863254171699_1_alg».proof.Proof.KB.Reg0
import proofs.«141748_j59863254171699_1_alg».proof.Proof.KB.Reg1
import proofs.«141748_j59863254171699_1_alg».proof.Proof.KB.Reg2
import proofs.«141748_j59863254171699_1_alg».proof.Proof.KB.Reg3
import proofs.«141748_j59863254171699_1_alg».proof.Proof.KB.Reg4
import proofs.«141748_j59863254171699_1_alg».proof.Proof.KB.Reg5
import proofs.«141748_j59863254171699_1_alg».proof.Proof.KB.Reg6
import proofs.«141748_j59863254171699_1_alg».proof.Proof.KB.Reg7
import proofs.«141748_j59863254171699_1_alg».proof.Proof.KB.Reg8

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core c's unscoped buffers at launch. -/
abbrev X0 (c : Dev nD) : Valuation τ sig (Elt F) := fun b => m (c, b)
/-- After item 0, the host stretch hostOps0. -/
abbrev X1 (c : Dev nD) : Valuation τ sig (Elt F) := StableHlo.after hostOps0 (X0 m c)
/-- After item 1, region 0: the entry valuation updated at the region's output array. -/
abbrev X2 (c : Dev nD) : Valuation τ sig (Elt F) := W0' (X1 m) c
/-- After item 2, the host stretch hostOps1. -/
abbrev X3 (c : Dev nD) : Valuation τ sig (Elt F) := StableHlo.after hostOps1 (X2 m c)
/-- After item 3, the host stretch hostOps1_1. -/
abbrev X4 (c : Dev nD) : Valuation τ sig (Elt F) := StableHlo.after hostOps1_1 (X3 m c)
/-- After item 4, the host stretch hostOps1_2. -/
abbrev X5 (c : Dev nD) : Valuation τ sig (Elt F) := StableHlo.after hostOps1_2 (X4 m c)
/-- After item 5, region 1: the entry valuation updated at the region's output array. -/
abbrev X6 (c : Dev nD) : Valuation τ sig (Elt F) := W1' (X5 m) c
/-- After item 6, the host stretch hostOps2. -/
abbrev X7 (c : Dev nD) : Valuation τ sig (Elt F) := StableHlo.after hostOps2 (X6 m c)
/-- After item 7, the host stretch hostOps2_1. -/
abbrev X8 (c : Dev nD) : Valuation τ sig (Elt F) := StableHlo.after hostOps2_1 (X7 m c)
/-- After item 8, the host stretch hostOps2_2. -/
abbrev X9 (c : Dev nD) : Valuation τ sig (Elt F) := StableHlo.after hostOps2_2 (X8 m c)
/-- After item 9, region 2: the entry valuation updated at the region's output array. -/
abbrev X10 (c : Dev nD) : Valuation τ sig (Elt F) := W2' (X9 m) c
/-- After item 10, the host stretch hostOps3. -/
abbrev X11 (c : Dev nD) : Valuation τ sig (Elt F) := StableHlo.after hostOps3 (X10 m c)
/-- After item 11, region 3: the entry valuation updated at the region's output array. -/
abbrev X12 (c : Dev nD) : Valuation τ sig (Elt F) := W3' (X11 m) c
/-- After item 12, the host stretch hostOps4. -/
abbrev X13 (c : Dev nD) : Valuation τ sig (Elt F) := StableHlo.after hostOps4 (X12 m c)
/-- After item 13, the host stretch hostOps4_1. -/
abbrev X14 (c : Dev nD) : Valuation τ sig (Elt F) := StableHlo.after hostOps4_1 (X13 m c)
/-- After item 14, the host stretch hostOps4_2. -/
abbrev X15 (c : Dev nD) : Valuation τ sig (Elt F) := StableHlo.after hostOps4_2 (X14 m c)
/-- After item 15, region 4: the entry valuation updated at the region's output array. -/
abbrev X16 (c : Dev nD) : Valuation τ sig (Elt F) := W4' (X15 m) c
/-- After item 16, the host stretch hostOps5. -/
abbrev X17 (c : Dev nD) : Valuation τ sig (Elt F) := StableHlo.after hostOps5 (X16 m c)
/-- After item 17, the host stretch hostOps5_1. -/
abbrev X18 (c : Dev nD) : Valuation τ sig (Elt F) := StableHlo.after hostOps5_1 (X17 m c)
/-- After item 18, the host stretch hostOps5_2. -/
abbrev X19 (c : Dev nD) : Valuation τ sig (Elt F) := StableHlo.after hostOps5_2 (X18 m c)
/-- After item 19, region 5: the entry valuation updated at the region's output array. -/
abbrev X20 (c : Dev nD) : Valuation τ sig (Elt F) := W5' (X19 m) c
/-- After item 20, the host stretch hostOps6. -/
abbrev X21 (c : Dev nD) : Valuation τ sig (Elt F) := StableHlo.after hostOps6 (X20 m c)
/-- After item 21, region 6: the entry valuation updated at the region's output array. -/
abbrev X22 (c : Dev nD) : Valuation τ sig (Elt F) := W6' (X21 m) c
/-- After item 22, the host stretch hostOps7. -/
abbrev X23 (c : Dev nD) : Valuation τ sig (Elt F) := StableHlo.after hostOps7 (X22 m c)
/-- After item 23, the host stretch hostOps7_1. -/
abbrev X24 (c : Dev nD) : Valuation τ sig (Elt F) := StableHlo.after hostOps7_1 (X23 m c)
/-- After item 24, the host stretch hostOps7_2. -/
abbrev X25 (c : Dev nD) : Valuation τ sig (Elt F) := StableHlo.after hostOps7_2 (X24 m c)
/-- After item 25, region 7: the entry valuation updated at the region's output array. -/
abbrev X26 (c : Dev nD) : Valuation τ sig (Elt F) := W7' (X25 m) c
/-- After item 26, the host stretch hostOps8. -/
abbrev X27 (c : Dev nD) : Valuation τ sig (Elt F) := StableHlo.after hostOps8 (X26 m c)
/-- After item 27, the host stretch hostOps8_1. -/
abbrev X28 (c : Dev nD) : Valuation τ sig (Elt F) := StableHlo.after hostOps8_1 (X27 m c)
/-- After item 28, the host stretch hostOps8_2. -/
abbrev X29 (c : Dev nD) : Valuation τ sig (Elt F) := StableHlo.after hostOps8_2 (X28 m c)
/-- After item 29, region 8: the entry valuation updated at the region's output array. -/
abbrev X30 (c : Dev nD) : Valuation τ sig (Elt F) := W8' (X29 m) c
/-- After item 30, the host stretch hostOps9. -/
abbrev X31 (c : Dev nD) : Valuation τ sig (Elt F) := StableHlo.after hostOps9 (X30 m c)

/-- What the regions leave, read off the fold: the contents the generated valuations are written over. -/
def outs : Outs (F := F) := fun J r c => match J with
  | 2 => X2 m c r
  | 6 => X6 m c r
  | 10 => X10 m c r
  | 12 => X12 m c r
  | 16 => X16 m c r
  | 20 => X20 m c r
  | 22 => X22 m c r
  | 26 => X26 m c r
  | 30 => X30 m c r
  | _ => X0 m c r

/-! The generated valuations, at these contents, are the fold. -/
theorem hV1 (c : Dev nD) : V1 m c = X1 m c := rfl
theorem hV2 (c : Dev nD) : V2 m (outs m) c = X2 m c := by
  show Function.update (V1 m c) main_v21 (X2 m c main_v21) = _
  rw [hV1]
  show Function.update (X1 m c) _ (W0' (X1 m) c _) = W0' (X1 m) c
  unfold W0'; rw [Function.update_self]
theorem hV3 (c : Dev nD) : V3 m (outs m) c = X3 m c := by
  show StableHlo.after hostOps1 (V2 m (outs m) c) = _
  rw [hV2]
theorem hV4 (c : Dev nD) : V4 m (outs m) c = X4 m c := by
  show StableHlo.after hostOps1_1 (V3 m (outs m) c) = _
  rw [hV3]
theorem hV5 (c : Dev nD) : V5 m (outs m) c = X5 m c := by
  show StableHlo.after hostOps1_2 (V4 m (outs m) c) = _
  rw [hV4]
theorem hV6 (c : Dev nD) : V6 m (outs m) c = X6 m c := by
  show Function.update (V5 m (outs m) c) main_v39 (X6 m c main_v39) = _
  rw [hV5]
  show Function.update (X5 m c) _ (W1' (X5 m) c _) = W1' (X5 m) c
  unfold W1'; rw [Function.update_self]
theorem hV7 (c : Dev nD) : V7 m (outs m) c = X7 m c := by
  show StableHlo.after hostOps2 (V6 m (outs m) c) = _
  rw [hV6]
theorem hV8 (c : Dev nD) : V8 m (outs m) c = X8 m c := by
  show StableHlo.after hostOps2_1 (V7 m (outs m) c) = _
  rw [hV7]
theorem hV9 (c : Dev nD) : V9 m (outs m) c = X9 m c := by
  show StableHlo.after hostOps2_2 (V8 m (outs m) c) = _
  rw [hV8]
theorem hV10 (c : Dev nD) : V10 m (outs m) c = X10 m c := by
  show Function.update (V9 m (outs m) c) main_v63 (X10 m c main_v63) = _
  rw [hV9]
  show Function.update (X9 m c) _ (W2' (X9 m) c _) = W2' (X9 m) c
  unfold W2'; rw [Function.update_self]
theorem hV11 (c : Dev nD) : V11 m (outs m) c = X11 m c := by
  show StableHlo.after hostOps3 (V10 m (outs m) c) = _
  rw [hV10]
theorem hV12 (c : Dev nD) : V12 m (outs m) c = X12 m c := by
  show Function.update (V11 m (outs m) c) main_v79 (X12 m c main_v79) = _
  rw [hV11]
  show Function.update (X11 m c) _ (W3' (X11 m) c _) = W3' (X11 m) c
  unfold W3'; rw [Function.update_self]
theorem hV13 (c : Dev nD) : V13 m (outs m) c = X13 m c := by
  show StableHlo.after hostOps4 (V12 m (outs m) c) = _
  rw [hV12]
theorem hV14 (c : Dev nD) : V14 m (outs m) c = X14 m c := by
  show StableHlo.after hostOps4_1 (V13 m (outs m) c) = _
  rw [hV13]
theorem hV15 (c : Dev nD) : V15 m (outs m) c = X15 m c := by
  show StableHlo.after hostOps4_2 (V14 m (outs m) c) = _
  rw [hV14]
theorem hV16 (c : Dev nD) : V16 m (outs m) c = X16 m c := by
  show Function.update (V15 m (outs m) c) main_v97 (X16 m c main_v97) = _
  rw [hV15]
  show Function.update (X15 m c) _ (W4' (X15 m) c _) = W4' (X15 m) c
  unfold W4'; rw [Function.update_self]
theorem hV17 (c : Dev nD) : V17 m (outs m) c = X17 m c := by
  show StableHlo.after hostOps5 (V16 m (outs m) c) = _
  rw [hV16]
theorem hV18 (c : Dev nD) : V18 m (outs m) c = X18 m c := by
  show StableHlo.after hostOps5_1 (V17 m (outs m) c) = _
  rw [hV17]
theorem hV19 (c : Dev nD) : V19 m (outs m) c = X19 m c := by
  show StableHlo.after hostOps5_2 (V18 m (outs m) c) = _
  rw [hV18]
theorem hV20 (c : Dev nD) : V20 m (outs m) c = X20 m c := by
  show Function.update (V19 m (outs m) c) main_v121 (X20 m c main_v121) = _
  rw [hV19]
  show Function.update (X19 m c) _ (W5' (X19 m) c _) = W5' (X19 m) c
  unfold W5'; rw [Function.update_self]
theorem hV21 (c : Dev nD) : V21 m (outs m) c = X21 m c := by
  show StableHlo.after hostOps6 (V20 m (outs m) c) = _
  rw [hV20]
theorem hV22 (c : Dev nD) : V22 m (outs m) c = X22 m c := by
  show Function.update (V21 m (outs m) c) main_v137 (X22 m c main_v137) = _
  rw [hV21]
  show Function.update (X21 m c) _ (W6' (X21 m) c _) = W6' (X21 m) c
  unfold W6'; rw [Function.update_self]
theorem hV23 (c : Dev nD) : V23 m (outs m) c = X23 m c := by
  show StableHlo.after hostOps7 (V22 m (outs m) c) = _
  rw [hV22]
theorem hV24 (c : Dev nD) : V24 m (outs m) c = X24 m c := by
  show StableHlo.after hostOps7_1 (V23 m (outs m) c) = _
  rw [hV23]
theorem hV25 (c : Dev nD) : V25 m (outs m) c = X25 m c := by
  show StableHlo.after hostOps7_2 (V24 m (outs m) c) = _
  rw [hV24]
theorem hV26 (c : Dev nD) : V26 m (outs m) c = X26 m c := by
  show Function.update (V25 m (outs m) c) main_v155 (X26 m c main_v155) = _
  rw [hV25]
  show Function.update (X25 m c) _ (W7' (X25 m) c _) = W7' (X25 m) c
  unfold W7'; rw [Function.update_self]
theorem hV27 (c : Dev nD) : V27 m (outs m) c = X27 m c := by
  show StableHlo.after hostOps8 (V26 m (outs m) c) = _
  rw [hV26]
theorem hV28 (c : Dev nD) : V28 m (outs m) c = X28 m c := by
  show StableHlo.after hostOps8_1 (V27 m (outs m) c) = _
  rw [hV27]
theorem hV29 (c : Dev nD) : V29 m (outs m) c = X29 m c := by
  show StableHlo.after hostOps8_2 (V28 m (outs m) c) = _
  rw [hV28]
theorem hV30 (c : Dev nD) : V30 m (outs m) c = X30 m c := by
  show Function.update (V29 m (outs m) c) main_v179 (X30 m c main_v179) = _
  rw [hV29]
  show Function.update (X29 m c) _ (W8' (X29 m) c _) = W8' (X29 m) c
  unfold W8'; rw [Function.update_self]
theorem hV31 (c : Dev nD) : V31 m (outs m) c = X31 m c := by
  show StableHlo.after hostOps9 (V30 m (outs m) c) = _
  rw [hV30]

/-! ## The proof data family, the regions' records -/

/-- Every pipeline's proof data, each at its region's entry valuation. -/
def pdats : (p : Fin 9) → (c : Dev nD) → Dat τ (Elt F) Unit ℕ (UR sig nD τ) ℕ (cfgs p) c
  | ⟨0, _⟩ => fun c => dat0 (Vof (X1 m)) c
  | ⟨1, _⟩ => fun c => dat1 (Vof (X5 m)) c
  | ⟨2, _⟩ => fun c => dat2 (Vof (X9 m)) c
  | ⟨3, _⟩ => fun c => dat3 (Vof (X11 m)) c
  | ⟨4, _⟩ => fun c => dat4 (Vof (X15 m)) c
  | ⟨5, _⟩ => fun c => dat5 (Vof (X19 m)) c
  | ⟨6, _⟩ => fun c => dat6 (Vof (X21 m)) c
  | ⟨7, _⟩ => fun c => dat7 (Vof (X25 m)) c
  | ⟨8, _⟩ => fun c => dat8 (Vof (X29 m)) c

/-- No core owes another anything: no level is assigned. -/
abbrev L₀ : GSem nD τ sig → Finset Unit := fun _ => ∅
abbrev lv₀ : GSem nD τ sig → Unit → ℕ := fun _ _ => 0

/-- No pipeline has a prefetched table. -/
theorem hpref (p : Fin 9) (c : Dev nD) :
    (BI.emp : sProp 𝕄) ⊢ Pipeline.prefHeld (pcfgs (F := F) p).pre c (fun _ => fullShare) (adm (F := F) p).1 := by
  unfold Pipeline.prefHeld
  rw [show (Finset.univ : Finset (Fin 0)) = ∅ from rfl, BI.bigSep_empty]

-- the records' fields are stated over the pinned configuration, which unifies with the printed one only when unification may
-- unfold plain definitions in a metavariable's type
set_option backward.isDefEq.respectTransparency.types false

/-- Region 0: entered from every unscoped buffer at X1, left at X2. -/
def reg0 : Pipeline.RegionSeg (pcfgs (F := F)) adm (pdats m) () defs₀ Variants.none L₀ lv₀ 0 :=
  Pipeline.regionA (pcfgs (F := F)) adm (pdats m) defs₀ Variants.none L₀ lv₀ 0 launch0.win.to₀ launch0.block_pos launch0.stage_whole
    (fun c => (body_obligation0 (Vof (X1 m)) c).loose) (fun _ _ => rfl) (fun _ => rfl) (fun _ _ => rfl) (hpref 0)
    (X1 m) (X2 m) (hsplit0 (X1 m)) (hjoin0 (X1 m)) (hrest0 (X1 m))

/-- Region 1: entered from every unscoped buffer at X5, left at X6. -/
def reg1 : Pipeline.RegionSeg (pcfgs (F := F)) adm (pdats m) () defs₀ Variants.none L₀ lv₀ 1 :=
  Pipeline.regionA (pcfgs (F := F)) adm (pdats m) defs₀ Variants.none L₀ lv₀ 1 launch1.win.to₀ launch1.block_pos launch1.stage_whole
    (fun c => (body_obligation1 (Vof (X5 m)) c).loose) (fun _ _ => rfl) (fun _ => rfl) (fun _ _ => rfl) (hpref 1)
    (X5 m) (X6 m) (hsplit1 (X5 m)) (hjoin1 (X5 m)) (hrest1 (X5 m))

/-- Region 2: entered from every unscoped buffer at X9, left at X10. -/
def reg2 : Pipeline.RegionSeg (pcfgs (F := F)) adm (pdats m) () defs₀ Variants.none L₀ lv₀ 2 :=
  Pipeline.regionA (pcfgs (F := F)) adm (pdats m) defs₀ Variants.none L₀ lv₀ 2 winFacts₀2 block_pos2 stage_whole2
    (fun c => (body_obligation2 (Vof (X9 m)) c).loose) (fun _ _ => rfl) (fun _ => rfl) (fun _ _ => rfl) (hpref 2)
    (X9 m) (X10 m) (hsplit2 (X9 m)) (hjoin2 (X9 m)) (hrest2 (X9 m))

/-- Region 3: entered from every unscoped buffer at X11, left at X12. -/
def reg3 : Pipeline.RegionSeg (pcfgs (F := F)) adm (pdats m) () defs₀ Variants.none L₀ lv₀ 3 :=
  Pipeline.regionA (pcfgs (F := F)) adm (pdats m) defs₀ Variants.none L₀ lv₀ 3 launch3.win.to₀ launch3.block_pos launch3.stage_whole
    (fun c => (body_obligation3 (Vof (X11 m)) c).loose) (fun _ _ => rfl) (fun _ => rfl) (fun _ _ => rfl) (hpref 3)
    (X11 m) (X12 m) (hsplit3 (X11 m)) (hjoin3 (X11 m)) (hrest3 (X11 m))

/-- Region 4: entered from every unscoped buffer at X15, left at X16. -/
def reg4 : Pipeline.RegionSeg (pcfgs (F := F)) adm (pdats m) () defs₀ Variants.none L₀ lv₀ 4 :=
  Pipeline.regionA (pcfgs (F := F)) adm (pdats m) defs₀ Variants.none L₀ lv₀ 4 launch4.win.to₀ launch4.block_pos launch4.stage_whole
    (fun c => (body_obligation4 (Vof (X15 m)) c).loose) (fun _ _ => rfl) (fun _ => rfl) (fun _ _ => rfl) (hpref 4)
    (X15 m) (X16 m) (hsplit4 (X15 m)) (hjoin4 (X15 m)) (hrest4 (X15 m))

/-- Region 5: entered from every unscoped buffer at X19, left at X20. -/
def reg5 : Pipeline.RegionSeg (pcfgs (F := F)) adm (pdats m) () defs₀ Variants.none L₀ lv₀ 5 :=
  Pipeline.regionA (pcfgs (F := F)) adm (pdats m) defs₀ Variants.none L₀ lv₀ 5 winFacts₀5 block_pos5 stage_whole5
    (fun c => (body_obligation5 (Vof (X19 m)) c).loose) (fun _ _ => rfl) (fun _ => rfl) (fun _ _ => rfl) (hpref 5)
    (X19 m) (X20 m) (hsplit5 (X19 m)) (hjoin5 (X19 m)) (hrest5 (X19 m))

/-- Region 6: entered from every unscoped buffer at X21, left at X22. -/
def reg6 : Pipeline.RegionSeg (pcfgs (F := F)) adm (pdats m) () defs₀ Variants.none L₀ lv₀ 6 :=
  Pipeline.regionA (pcfgs (F := F)) adm (pdats m) defs₀ Variants.none L₀ lv₀ 6 launch6.win.to₀ launch6.block_pos launch6.stage_whole
    (fun c => (body_obligation6 (Vof (X21 m)) c).loose) (fun _ _ => rfl) (fun _ => rfl) (fun _ _ => rfl) (hpref 6)
    (X21 m) (X22 m) (hsplit6 (X21 m)) (hjoin6 (X21 m)) (hrest6 (X21 m))

/-- Region 7: entered from every unscoped buffer at X25, left at X26. -/
def reg7 : Pipeline.RegionSeg (pcfgs (F := F)) adm (pdats m) () defs₀ Variants.none L₀ lv₀ 7 :=
  Pipeline.regionA (pcfgs (F := F)) adm (pdats m) defs₀ Variants.none L₀ lv₀ 7 launch7.win.to₀ launch7.block_pos launch7.stage_whole
    (fun c => (body_obligation7 (Vof (X25 m)) c).loose) (fun _ _ => rfl) (fun _ => rfl) (fun _ _ => rfl) (hpref 7)
    (X25 m) (X26 m) (hsplit7 (X25 m)) (hjoin7 (X25 m)) (hrest7 (X25 m))

/-- Region 8: entered from every unscoped buffer at X29, left at X30. -/
def reg8 : Pipeline.RegionSeg (pcfgs (F := F)) adm (pdats m) () defs₀ Variants.none L₀ lv₀ 8 :=
  Pipeline.regionA (pcfgs (F := F)) adm (pdats m) defs₀ Variants.none L₀ lv₀ 8 winFacts₀8 block_pos8 stage_whole8
    (fun c => (body_obligation8 (Vof (X29 m)) c).loose) (fun _ _ => rfl) (fun _ => rfl) (fun _ _ => rfl) (hpref 8)
    (X29 m) (X30 m) (hsplit8 (X29 m)) (hjoin8 (X29 m)) (hrest8 (X29 m))

/-! ## The frame -/

/-- THE FRAME, at any float values. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_cond m emb₁ () Variants.none L₀ lv₀ (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Pipeline.rideA c)
    (hE0 := by
      refine Pipeline.initEach L₀ lv₀ fun c => ?_
      iintro ⟨⟨-, HO, -, Hp, -⟩, -⟩
      imodintro
      isplitl [Hp]; · iexists _; iexact Hp
      iexists ∅; iexact HO)
    (hE9 := fun c => by iintro ⟨-, HO⟩; iexact HO)
    (reg0 m) (fun c => by rw [hV1]; exact .rfl) (fun c => by rw [hV2]; exact .rfl)
    (reg1 m) (fun c => by rw [hV5]; exact .rfl) (fun c => by rw [hV6]; exact .rfl)
    (reg2 m) (fun c => by rw [hV9]; exact .rfl) (fun c => by rw [hV10]; exact .rfl)
    (reg3 m) (fun c => by rw [hV11]; exact .rfl) (fun c => by rw [hV12]; exact .rfl)
    (reg4 m) (fun c => by rw [hV15]; exact .rfl) (fun c => by rw [hV16]; exact .rfl)
    (reg5 m) (fun c => by rw [hV19]; exact .rfl) (fun c => by rw [hV20]; exact .rfl)
    (reg6 m) (fun c => by rw [hV21]; exact .rfl) (fun c => by rw [hV22]; exact .rfl)
    (reg7 m) (fun c => by rw [hV25]; exact .rfl) (fun c => by rw [hV26]; exact .rfl)
    (reg8 m) (fun c => by rw [hV29]; exact .rfl) (fun c => by rw [hV30]; exact .rfl)

end Cert.Kernel.Hand

end
-- ==== Proof.KI.RunCond.lean ====
/-
  The kernel program's run WITH ITS VALUES: as the frame, from the nine regions' records, but the final state is read whole —
  every unscoped buffer of every core ends at the fold's last valuation — instead of at the arguments only. The launch over
  the segment list is the generated conditional frame's, step for step; what differs is the reading at the end.
-/
import proofs.«141748_j59863254171699_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The conditional run: given the regions' records, every unscoped buffer ends at the generated fold's last valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 9) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 10 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE9 : ∀ c : Dev nD, E 9 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V9 m outs c) ∗ E 2 c) ⊢ R2.pre c)
    (hpost2 : ∀ c : Dev nD, R2.post c ⊢ iprop(StableHlo.held (c : Thread nD τ) (Pipeline.ucRefs τ sig) (V10 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V11 m outs c) ∗ E 3 c) ⊢ R3.pre c)
    (hpost3 : ∀ c : Dev nD, R3.post c ⊢ iprop(StableHlo.held (c : Thread nD τ) (Pipeline.ucRefs τ sig) (V12 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V15 m outs c) ∗ E 4 c) ⊢ R4.pre c)
    (hpost4 : ∀ c : Dev nD, R4.post c ⊢ iprop(StableHlo.held (c : Thread nD τ) (Pipeline.ucRefs τ sig) (V16 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V19 m outs c) ∗ E 5 c) ⊢ R5.pre c)
    (hpost5 : ∀ c : Dev nD, R5.post c ⊢ iprop(StableHlo.held (c : Thread nD τ) (Pipeline.ucRefs τ sig) (V20 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V21 m outs c) ∗ E 6 c) ⊢ R6.pre c)
    (hpost6 : ∀ c : Dev nD, R6.post c ⊢ iprop(StableHlo.held (c : Thread nD τ) (Pipeline.ucRefs τ sig) (V22 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V25 m outs c) ∗ E 7 c) ⊢ R7.pre c)
    (hpost7 : ∀ c : Dev nD, R7.post c ⊢ iprop(StableHlo.held (c : Thread nD τ) (Pipeline.ucRefs τ sig) (V26 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V29 m outs c) ∗ E 8 c) ⊢ R8.pre c)
    (hpost8 : ∀ c : Dev nD, R8.post c ⊢ iprop(StableHlo.held (c : Thread nD τ) (Pipeline.ucRefs τ sig) (V30 m outs c) ∗ E 9 c)) :
    θ_run defs (onTc (τ := τ) (main (F := F))) ⟨m, fun _ => 0, ρ⟩ (fun r => ∀ c : Dev nD,
      ∀ b ∈ Pipeline.ucRefs τ sig, r.2.mem ((c : Thread nD τ).1, b) = V31 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8)
    (fun c Q => by
      rewrite [main_chain c, Seg.run_eq_chain,
        show (segs m outs 𝒱₀ L lv E ι pdats R0 R1 R2 R3 R4 R5 R6 R7 R8 c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          Prog.lift (.customCall (Pipeline.entry 4) ()),
          StableHlo.seq hostOps5,
          StableHlo.seq hostOps5_1,
          StableHlo.seq hostOps5_2,
          Prog.lift (.customCall (Pipeline.entry 5) ()),
          StableHlo.seq hostOps6,
          Prog.lift (.customCall (Pipeline.entry 6) ()),
          StableHlo.seq hostOps7,
          StableHlo.seq hostOps7_1,
          StableHlo.seq hostOps7_2,
          Prog.lift (.customCall (Pipeline.entry 7) ()),
          StableHlo.seq hostOps8,
          StableHlo.seq hostOps8_1,
          StableHlo.seq hostOps8_2,
          Prog.lift (.customCall (Pipeline.entry 8) ()),
          StableHlo.seq hostOps9 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V31 m outs c))
    (hch := fun c => ⟨.rfl, hpre0 c, hpost0 c, .rfl, .rfl, hpre1 c, hpost1 c, .rfl, .rfl, hpre2 c, hpost2 c, hpre3 c, hpost3 c, .rfl, .rfl, hpre4 c, hpost4 c, .rfl, .rfl, hpre5 c, hpost5 c, hpre6 c, hpost6 c, .rfl, .rfl, hpre7 c, hpost7 c, .rfl, .rfl, hpre8 c, hpost8 c, sep_mono .rfl (hE9 c)⟩)
    (hinit := ?_) (QY := fun c s => ∀ b ∈ Pipeline.ucRefs τ sig, s.mem ((c : Thread nD τ).1, b) = V31 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V31 m outs c) s') $$ [Hh HSI]
    · isplitl [Hh] <;> iassumption
    icases Hr with ⟨%h, HSI⟩
    imodintro
    isplitr
    · ipureintro
      exact h
    · iexact HSI

end Cert.KernelIdeal.Hand

end
-- ==== Proof.KI.Common.lean ====
/-
  A valuation of a core's buffers, read at the TensorCore's references: the form a pipeline's proof data takes its arrays in.
-/
import proofs.«141748_j59863254171699_1_alg».proof.Proof.Gen.KernelIdeal.Launch

noncomputable section

namespace Cert.KernelIdeal.Hand

open Cert.KernelIdeal Idealize.ShloMosaic Idealize.ShloMosaic.TcCoe Idealize.SL.Sem

variable {F : FTy → Type} [FloatOps F]

/-- A valuation of the core's buffers read at the TensorCore's references. -/
abbrev Vof (W : Dev nD → Valuation τ sig (Elt F)) : (c : Dev nD) → (b : Ref sig .tc) → Buf (Elt F) ((c : Thread nD τ).loc b) :=
  fun c b => W c b

end Cert.KernelIdeal.Hand

end
-- ==== Proof.KI.Region0.lean ====
/-
  Region 0 of @main as a pipeline — the first kernel of a layer: the sum of two blocks of rows, times a 128 × 128 matrix, plus a row of biases —: what its body leaves in the output window's buffer, the body's
  triple, the proof data and the body obligation, at a PARAMETER V (the buffers' contents when the region is entered), for
  any float values. The body's arithmetic stays the one named payload; nothing here opens it.
-/
import proofs.«141748_j59863254171699_1_alg».proof.Proof.Gen.KernelIdeal.Launch
import proofs.«141748_j59863254171699_1_alg».proof.Proof.Gen.KernelIdeal.Skeleton
import proofs.«141748_j59863254171699_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not (unfetched, the block
    index has not moved), for any proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses, and what it leaves in the output window's buffer -/

abbrev r0_big : Rect S5000x128 := Rect.unit (s := S5000x128) ![0, 0] S5000x128.size inb_S5000x128_S5000x128_0_0
abbrev r0_mat : Rect S128x128 := Rect.unit (s := S128x128) ![0, 0] S128x128.size inb_S128x128_S128x128_0_0
abbrev r0_row : Rect S1x128 := Rect.unit (s := S1x128) ![0, 0] S1x128.size inb_S1x128_S1x128_0_0

/-- The output window's staging buffer after the body, from the input windows' blocks: its one store, of the whole block. -/
def out0_4 (x0 : Vec F S5000x128 .f32) (x1 : Vec F S5000x128 .f32) (x2 : Vec F S128x128 .bf16) (x3 : Vec F S1x128 .f32) : Vec F S5000x128 .f32 :=
  View.canon [⟨r0_big, k0_pay1 (View.ld x0 r0_big) (View.ld x1 r0_big) (View.ld x2 r0_mat) (View.ld x3 r0_row)⟩]

/-- The store covers the buffer. -/
theorem cover0_4 (p0 : Vec F S5000x128 .f32) (y : S5000x128.Idx) :
    ∃ pc ∈ ([⟨r0_big, p0⟩] : List (View.Piece (Elt F) S5000x128 .f32)), y ∈ pc.1.set :=
  View.cover_of_tiled [⟨r0_big, p0⟩] S5000x128.size (by rfl) y

/-! ## The body's triple -/

set_option maxHeartbeats 1000000 in
/-- The kernel body on whole staging memrefs, the inputs' at read contents and the output's at anything, runs to the
    continuation holding the inputs' as they were and the output's at out0_4 of the inputs'. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x128 .f32) (x2 : Vec F S128x128 .bf16) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__combine_matmul_kernel i arg1 harg1 arg2 harg2 arg3 harg3 arg4 harg4 arg5 harg5) K := by
  simp only [cc0__combine_matmul_kernel_eq_skeleton]; unfold cc0__combine_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core c: the arrays as the region finds them; after the body at point t each input's
    buffer at its block and the output's at out0_4 of the input blocks; the class invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and the
    core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg0.lean ====
/-
  Region 0's arrays against the buffers behind them: every window is alone on its array, at the full share. At the entry the buffers, whole at the
  full share at the entry valuation, yield the proof data's arrays; at the exit the arrays (the inputs as entered, the output at
  what the write-backs leave) yield the buffers at the valuation updated at the output's array.
-/
import proofs.«141748_j59863254171699_1_alg».proof.Proof.KI.Common
import proofs.«141748_j59863254171699_1_alg».proof.Proof.KI.Region0
import proofs.«141748_j59863254171699_1_alg».proof.Proof.LibRegionA
import proofs.«141748_j59863254171699_1_alg».proof.Proof.LibSharedArrays

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The valuation region 0 leaves: the entry valuation updated at the output window's array. -/
def W0' (c : Dev nD) : Valuation τ sig (Elt F) :=
  Function.update (W c) (Proc.devRef .tc main_v21) ((dat0 (Vof W) c).arrAt 4 cfg0.N)

/-- Per buffer behind some window's array, the shares of the windows on it make up the full share. -/
theorem fibres0 (c : Dev nD) (V : (b : Ref sig .tc) → Buf (Elt F) ((c : Thread nD τ).loc b)) :
    ∀ b ∈ Finset.univ.image (Pipeline.arrRef cfg0.spec),
      (bigSep (Finset.univ.filter fun w => Pipeline.arrRef cfg0.spec w = b) fun w =>
          ((((c : Thread nD τ)).loc b) ↦{(dat0 (Vof W) c).share w} V b : sProp 𝕄))
        = ((((c : Thread nD τ)).loc b) ↦{fullShare} V b : sProp 𝕄) := by
  intro b hb
  obtain ⟨w, -, rfl⟩ := Finset.mem_image.mp hb
  fin_cases w
  · exact Pipeline.fibre_single (fun _ : Unit => cfg0) (fun _ c => dat0 (Vof W) c) () c V _ 0 (by decide) rfl
  · exact Pipeline.fibre_single (fun _ : Unit => cfg0) (fun _ c => dat0 (Vof W) c) () c V _ 1 (by decide) rfl
  · exact Pipeline.fibre_single (fun _ : Unit => cfg0) (fun _ c => dat0 (Vof W) c) () c V _ 2 (by decide) rfl
  · exact Pipeline.fibre_single (fun _ : Unit => cfg0) (fun _ c => dat0 (Vof W) c) () c V _ 3 (by decide) rfl
  · exact Pipeline.fibre_single (fun _ : Unit => cfg0) (fun _ c => dat0 (Vof W) c) () c V _ 4 (by decide) rfl

/-- ENTRY: the buffers behind the region's arrays at the entry valuation yield the proof data's arrays. -/
theorem hsplit0 (c : Dev nD) :
    (Pipeline.arrBufs cfg0.spec c (Vof W c) : sProp 𝕄) ⊢ (dat0 (Vof W) c).arrays ((dat0 (Vof W) c).arrAt · 0) :=
  Pipeline.arrays_split_fibres (fun _ : Unit => cfg0) (fun _ c => dat0 (Vof W) c) () c arr_whole0 (Vof W c) _
    (fun w => A_eq0 (Vof W) c w) fun b hb => Entails.of_eq (fibres0 W c (Vof W c) b hb).symm

/-- What the exit valuation holds at each window's array: an input's array as entered, the output's at what the
    write-backs leave. -/
theorem arrAt0' (c : Dev nD) (w : Fin cfg0.W) :
    (dat0 (Vof W) c).arrAt w cfg0.N = Vof (W0' W) c (Pipeline.arrRef cfg0.spec w) := by
  have hin : ∀ w : Fin cfg0.W, (cfg0.win w).isOut = false →
      (dat0 (Vof W) c).arrAt w cfg0.N = W c (Proc.devRef .tc (Pipeline.arrRef cfg0.spec w)) := fun w hw =>
    ((dat0 (Vof W) c).arrAt_in w hw _).trans (A_eq0 (Vof W) c w)
  have hne : ∀ w : Fin cfg0.W, Pipeline.arrRef cfg0.spec w ≠ main_v21 →
      W0' W c (Proc.devRef .tc (Pipeline.arrRef cfg0.spec w)) = W c (Proc.devRef .tc (Pipeline.arrRef cfg0.spec w)) := fun w hw => by
    unfold W0'; exact Function.update_of_ne (StableHlo.devRef_ne_of_ne hw) _ _
  by_cases h9 : w = 4
  · subst h9
    show _ = W0' W c (Proc.devRef .tc main_v21)
    unfold W0'; rw [Function.update_self]
  · have hw : (cfg0.win w).isOut = false := by fin_cases w <;> first | rfl | exact absurd rfl h9
    have hr : Pipeline.arrRef cfg0.spec w ≠ main_v21 := by fin_cases w <;> first | decide | exact absurd rfl h9
    exact (hin w hw).trans (hne w hr).symm

/-- EXIT: the proof data's arrays after the last point yield the buffers behind them at the exit valuation. -/
theorem hjoin0 (c : Dev nD) :
    (dat0 (Vof W) c).arrays ((dat0 (Vof W) c).arrAt · cfg0.N) ⊢ (Pipeline.arrBufs cfg0.spec c (Vof (W0' W) c) : sProp 𝕄) :=
  Pipeline.arrays_join_fibres (fun _ : Unit => cfg0) (fun _ c => dat0 (Vof W) c) () c arr_whole0 (Vof (W0' W) c) _
    (arrAt0' W c) fun b hb => Entails.of_eq (fibres0 W c (Vof (W0' W) c) b hb)

/-- Off the region's arrays the exit valuation is the entry valuation. -/
theorem hrest0 (c : Dev nD) (b : Ref sig .tc) (hb : b ∉ Finset.univ.image (Pipeline.arrRef cfg0.spec)) :
    W0' W c b = W c b := by
  unfold W0'
  refine Function.update_of_ne (StableHlo.devRef_ne_of_ne fun h => hb ?_) _ _
  exact Finset.mem_image.mpr ⟨4, Finset.mem_univ _, h.symm⟩

end Cert.KernelIdeal.Hand

end
-- ==== Proof.KI.Region1.lean ====
/-
  Region 1 of @main as a pipeline — the second kernel of a layer: a block of rows normalised with given per-feature mean and variance, scaled and shifted, times a 128 × 128 matrix, plus a row of biases —: what its body leaves in the output window's buffer, the body's
  triple, the proof data and the body obligation, at a PARAMETER V (the buffers' contents when the region is entered), for
  any float values. The body's arithmetic stays the one named payload; nothing here opens it.
-/
import proofs.«141748_j59863254171699_1_alg».proof.Proof.Gen.KernelIdeal.Launch
import proofs.«141748_j59863254171699_1_alg».proof.Proof.Gen.KernelIdeal.Skeleton
import proofs.«141748_j59863254171699_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not (unfetched, the block
    index has not moved), for any proof data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses, and what it leaves in the output window's buffer -/

abbrev r1_big : Rect S5000x128 := Rect.unit (s := S5000x128) ![0, 0] S5000x128.size inb_S5000x128_S5000x128_0_0
abbrev r1_row : Rect S1x128 := Rect.unit (s := S1x128) ![0, 0] S1x128.size inb_S1x128_S1x128_0_0
abbrev r1_mat : Rect S128x128 := Rect.unit (s := S128x128) ![0, 0] S128x128.size inb_S128x128_S128x128_0_0

/-- The output window's staging buffer after the body, from the input windows' blocks: its one store, of the whole block. -/
def out1_7 (x0 : Vec F S5000x128 .f32) (x1 : Vec F S1x128 .f32) (x2 : Vec F S1x128 .f32) (x3 : Vec F S1x128 .f32) (x4 : Vec F S1x128 .f32) (x5 : Vec F S128x128 .bf16) (x6 : Vec F S1x128 .f32) : Vec F S5000x128 .f32 :=
  View.canon [⟨r1_big, k1_pay1 (View.ld x0 r1_big) (View.ld x2 r1_row) (View.ld x1 r1_row) (View.ld x3 r1_row) (View.ld x4 r1_row) (View.ld x5 r1_mat) (View.ld x6 r1_row)⟩]

/-- The store covers the buffer. -/
theorem cover1_7 (p0 : Vec F S5000x128 .f32) (y : S5000x128.Idx) :
    ∃ pc ∈ ([⟨r1_big, p0⟩] : List (View.Piece (Elt F) S5000x128 .f32)), y ∈ pc.1.set :=
  View.cover_of_tiled [⟨r1_big, p0⟩] S5000x128.size (by rfl) y

/-! ## The body's triple -/

set_option maxHeartbeats 1000000 in
/-- The kernel body on whole staging memrefs, the inputs' at read contents and the output's at anything, runs to the
    continuation holding the inputs' as they were and the output's at out1_7 of the inputs'. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S128x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__bn_matmul_kernel i arg1 harg1 arg2 harg2 arg3 harg3 arg4 harg4 arg5 harg5 arg6 harg6 arg7 harg7 arg8 harg8) K := by
  simp only [cc1__bn_matmul_kernel_eq_skeleton]; unfold cc1__bn_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core c: the arrays as the region finds them; after the body at point t each input's
    buffer at its block and the output's at out1_7 of the input blocks; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and the
    core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg1.lean ====
/-
  Region 1's arrays against the buffers behind them: every window is alone on its array, at the full share. At the entry the buffers, whole at the
  full share at the entry valuation, yield the proof data's arrays; at the exit the arrays (the inputs as entered, the output at
  what the write-backs leave) yield the buffers at the valuation updated at the output's array.
-/
import proofs.«141748_j59863254171699_1_alg».proof.Proof.KI.Common
import proofs.«141748_j59863254171699_1_alg».proof.Proof.KI.Region1
import proofs.«141748_j59863254171699_1_alg».proof.Proof.LibRegionA
import proofs.«141748_j59863254171699_1_alg».proof.Proof.LibSharedArrays

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The valuation region 1 leaves: the entry valuation updated at the output window's array. -/
def W1' (c : Dev nD) : Valuation τ sig (Elt F) :=
  Function.update (W c) (Proc.devRef .tc main_v39) ((dat1 (Vof W) c).arrAt 7 cfg1.N)

/-- Per buffer behind some window's array, the shares of the windows on it make up the full share. -/
theorem fibres1 (c : Dev nD) (V : (b : Ref sig .tc) → Buf (Elt F) ((c : Thread nD τ).loc b)) :
    ∀ b ∈ Finset.univ.image (Pipeline.arrRef cfg1.spec),
      (bigSep (Finset.univ.filter fun w => Pipeline.arrRef cfg1.spec w = b) fun w =>
          ((((c : Thread nD τ)).loc b) ↦{(dat1 (Vof W) c).share w} V b : sProp 𝕄))
        = ((((c : Thread nD τ)).loc b) ↦{fullShare} V b : sProp 𝕄) := by
  intro b hb
  obtain ⟨w, -, rfl⟩ := Finset.mem_image.mp hb
  fin_cases w
  · exact Pipeline.fibre_single (fun _ : Unit => cfg1) (fun _ c => dat1 (Vof W) c) () c V _ 0 (by decide) rfl
  · exact Pipeline.fibre_single (fun _ : Unit => cfg1) (fun _ c => dat1 (Vof W) c) () c V _ 1 (by decide) rfl
  · exact Pipeline.fibre_single (fun _ : Unit => cfg1) (fun _ c => dat1 (Vof W) c) () c V _ 2 (by decide) rfl
  · exact Pipeline.fibre_single (fun _ : Unit => cfg1) (fun _ c => dat1 (Vof W) c) () c V _ 3 (by decide) rfl
  · exact Pipeline.fibre_single (fun _ : Unit => cfg1) (fun _ c => dat1 (Vof W) c) () c V _ 4 (by decide) rfl
  · exact Pipeline.fibre_single (fun _ : Unit => cfg1) (fun _ c => dat1 (Vof W) c) () c V _ 5 (by decide) rfl
  · exact Pipeline.fibre_single (fun _ : Unit => cfg1) (fun _ c => dat1 (Vof W) c) () c V _ 6 (by decide) rfl
  · exact Pipeline.fibre_single (fun _ : Unit => cfg1) (fun _ c => dat1 (Vof W) c) () c V _ 7 (by decide) rfl

/-- ENTRY: the buffers behind the region's arrays at the entry valuation yield the proof data's arrays. -/
theorem hsplit1 (c : Dev nD) :
    (Pipeline.arrBufs cfg1.spec c (Vof W c) : sProp 𝕄) ⊢ (dat1 (Vof W) c).arrays ((dat1 (Vof W) c).arrAt · 0) :=
  Pipeline.arrays_split_fibres (fun _ : Unit => cfg1) (fun _ c => dat1 (Vof W) c) () c arr_whole1 (Vof W c) _
    (fun w => A_eq1 (Vof W) c w) fun b hb => Entails.of_eq (fibres1 W c (Vof W c) b hb).symm

/-- What the exit valuation holds at each window's array: an input's array as entered, the output's at what the
    write-backs leave. -/
theorem arrAt1' (c : Dev nD) (w : Fin cfg1.W) :
    (dat1 (Vof W) c).arrAt w cfg1.N = Vof (W1' W) c (Pipeline.arrRef cfg1.spec w) := by
  have hin : ∀ w : Fin cfg1.W, (cfg1.win w).isOut = false →
      (dat1 (Vof W) c).arrAt w cfg1.N = W c (Proc.devRef .tc (Pipeline.arrRef cfg1.spec w)) := fun w hw =>
    ((dat1 (Vof W) c).arrAt_in w hw _).trans (A_eq1 (Vof W) c w)
  have hne : ∀ w : Fin cfg1.W, Pipeline.arrRef cfg1.spec w ≠ main_v39 →
      W1' W c (Proc.devRef .tc (Pipeline.arrRef cfg1.spec w)) = W c (Proc.devRef .tc (Pipeline.arrRef cfg1.spec w)) := fun w hw => by
    unfold W1'; exact Function.update_of_ne (StableHlo.devRef_ne_of_ne hw) _ _
  by_cases h9 : w = 7
  · subst h9
    show _ = W1' W c (Proc.devRef .tc main_v39)
    unfold W1'; rw [Function.update_self]
  · have hw : (cfg1.win w).isOut = false := by fin_cases w <;> first | rfl | exact absurd rfl h9
    have hr : Pipeline.arrRef cfg1.spec w ≠ main_v39 := by fin_cases w <;> first | decide | exact absurd rfl h9
    exact (hin w hw).trans (hne w hr).symm

/-- EXIT: the proof data's arrays after the last point yield the buffers behind them at the exit valuation. -/
theorem hjoin1 (c : Dev nD) :
    (dat1 (Vof W) c).arrays ((dat1 (Vof W) c).arrAt · cfg1.N) ⊢ (Pipeline.arrBufs cfg1.spec c (Vof (W1' W) c) : sProp 𝕄) :=
  Pipeline.arrays_join_fibres (fun _ : Unit => cfg1) (fun _ c => dat1 (Vof W) c) () c arr_whole1 (Vof (W1' W) c) _
    (arrAt1' W c) fun b hb => Entails.of_eq (fibres1 W c (Vof (W1' W) c) b hb)

/-- Off the region's arrays the exit valuation is the entry valuation. -/
theorem hrest1 (c : Dev nD) (b : Ref sig .tc) (hb : b ∉ Finset.univ.image (Pipeline.arrRef cfg1.spec)) :
    W1' W c b = W c b := by
  unfold W1'
  refine Function.update_of_ne (StableHlo.devRef_ne_of_ne fun h => hb ?_) _ _
  exact Finset.mem_image.mpr ⟨7, Finset.mem_univ _, h.symm⟩

end Cert.KernelIdeal.Hand

end
-- ==== Proof.KI.Region2.lean ====
/-
  Region 2 of @main as a pipeline — the third kernel of a layer: a block of rows normalised twice with given per-feature statistics, then the maximum with zero; windows 4 and 5 read ONE array and hold the two halves of its full share —: what its body leaves in the output window's buffer, the body's
  triple, the proof data and the body obligation, at a PARAMETER V (the buffers' contents when the region is entered), for
  any float values. The body's arithmetic stays the one named payload; nothing here opens it.
-/
import proofs.«141748_j59863254171699_1_alg».proof.Proof.Gen.KernelIdeal.Launch
import proofs.«141748_j59863254171699_1_alg».proof.Proof.Gen.KernelIdeal.Skeleton
import proofs.«141748_j59863254171699_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, fetched there or not (unfetched, the block
    index has not moved), for any proof data whose array is V's and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses, and what it leaves in the output window's buffer -/

abbrev r2_big : Rect S5000x128 := Rect.unit (s := S5000x128) ![0, 0] S5000x128.size inb_S5000x128_S5000x128_0_0
abbrev r2_row : Rect S1x128 := Rect.unit (s := S1x128) ![0, 0] S1x128.size inb_S1x128_S1x128_0_0

/-- The output window's staging buffer after the body, from the input windows' blocks: its one store, of the whole block. -/
def out2_9 (x0 : Vec F S5000x128 .f32) (x1 : Vec F S1x128 .f32) (x2 : Vec F S1x128 .f32) (x3 : Vec F S1x128 .f32) (x4 : Vec F S1x128 .f32) (x5 : Vec F S1x128 .f32) (x6 : Vec F S1x128 .f32) (x7 : Vec F S1x128 .f32) (x8 : Vec F S1x128 .f32) : Vec F S5000x128 .f32 :=
  View.canon [⟨r2_big, k2_pay1 (k2_pay2 (View.ld x0 r2_big) (View.ld x2 r2_row) (View.ld x1 r2_row) (View.ld x3 r2_row) (View.ld x4 r2_row) (View.ld x6 r2_row) (View.ld x5 r2_row) (View.ld x7 r2_row)) (k2_pay3 (View.ld x8 r2_row))⟩]

/-- The store covers the buffer. -/
theorem cover2_9 (p0 : Vec F S5000x128 .f32) (y : S5000x128.Idx) :
    ∃ pc ∈ ([⟨r2_big, p0⟩] : List (View.Piece (Elt F) S5000x128 .f32)), y ∈ pc.1.set :=
  View.cover_of_tiled [⟨r2_big, p0⟩] S5000x128.size (by rfl) y

/-! ## The body's triple -/

set_option maxHeartbeats 1000000 in
/-- The kernel body on whole staging memrefs, the inputs' at read contents and the output's at anything, runs to the
    continuation holding the inputs' as they were and the output's at out2_9 of the inputs'. -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S5000x128 .f32) (harg10 : arg10.IsWhole)
    (x0 : Vec F S5000x128 .f32) (x1 : Vec F S1x128 .f32) (x2 : Vec F S1x128 .f32) (x3 : Vec F S1x128 .f32) (x4 : Vec F S1x128 .f32) (x5 : Vec F S1x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__double_bn_relu_kernel i arg1 harg1 arg2 harg2 arg3 harg3 arg4 harg4 arg5 harg5 arg6 harg6 arg7 harg7 arg8 harg8 arg9 harg9 arg10 harg10) K := by
  simp only [cc2__double_bn_relu_kernel_eq_skeleton]; unfold cc2__double_bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The pipeline's proof data -/

/-- The proof data of pipeline 2 on core c: the arrays as the region finds them; after the body at point t each input's
    buffer at its block and the output's at out2_9 of the input blocks; the class invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q w := match w with
    | ⟨4, _⟩ => fullShare.left
    | ⟨5, _⟩ => fullShare.right
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' memrefs hold their blocks, so the body's triple applies; the invariant and the
    core's owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg2.lean ====
/-
  Region 2's arrays against the buffers behind them: windows 4 and 5 read one array, each at one half of its full share;
  every other window is alone on its array at the full share. At the entry the buffers, whole at the
  full share at the entry valuation, yield the proof data's arrays; at the exit the arrays (the inputs as entered, the output at
  what the write-backs leave) yield the buffers at the valuation updated at the output's array.
-/
import proofs.«141748_j59863254171699_1_alg».proof.Proof.KI.Common
import proofs.«141748_j59863254171699_1_alg».proof.Proof.KI.Region2
import proofs.«141748_j59863254171699_1_alg».proof.Proof.LibRegionA
import proofs.«141748_j59863254171699_1_alg».proof.Proof.LibSharedArrays

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The valuation region 2 leaves: the entry valuation updated at the output window's array. -/
def W2' (c : Dev nD) : Valuation τ sig (Elt F) :=
  Function.update (W c) (Proc.devRef .tc main_v63) ((dat2 (Vof W) c).arrAt 9 cfg2.N)

/-- Per buffer behind some window's array, the shares of the windows on it make up the full share. -/
theorem fibres2 (c : Dev nD) (V : (b : Ref sig .tc) → Buf (Elt F) ((c : Thread nD τ).loc b)) :
    ∀ b ∈ Finset.univ.image (Pipeline.arrRef cfg2.spec),
      (bigSep (Finset.univ.filter fun w => Pipeline.arrRef cfg2.spec w = b) fun w =>
          ((((c : Thread nD τ)).loc b) ↦{(dat2 (Vof W) c).share w} V b : sProp 𝕄))
        = ((((c : Thread nD τ)).loc b) ↦{fullShare} V b : sProp 𝕄) := by
  intro b hb
  obtain ⟨w, -, rfl⟩ := Finset.mem_image.mp hb
  fin_cases w
  · exact Pipeline.fibre_single (fun _ : Unit => cfg2) (fun _ c => dat2 (Vof W) c) () c V _ 0 (by decide) rfl
  · exact Pipeline.fibre_single (fun _ : Unit => cfg2) (fun _ c => dat2 (Vof W) c) () c V _ 1 (by decide) rfl
  · exact Pipeline.fibre_single (fun _ : Unit => cfg2) (fun _ c => dat2 (Vof W) c) () c V _ 2 (by decide) rfl
  · exact Pipeline.fibre_single (fun _ : Unit => cfg2) (fun _ c => dat2 (Vof W) c) () c V _ 3 (by decide) rfl
  · exact Pipeline.fibre_pair (fun _ : Unit => cfg2) (fun _ c => dat2 (Vof W) c) () c V _ 4 5 (by decide) (by decide) rfl rfl
  · exact Pipeline.fibre_pair (fun _ : Unit => cfg2) (fun _ c => dat2 (Vof W) c) () c V _ 4 5 (by decide) (by decide) rfl rfl
  · exact Pipeline.fibre_single (fun _ : Unit => cfg2) (fun _ c => dat2 (Vof W) c) () c V _ 6 (by decide) rfl
  · exact Pipeline.fibre_single (fun _ : Unit => cfg2) (fun _ c => dat2 (Vof W) c) () c V _ 7 (by decide) rfl
  · exact Pipeline.fibre_single (fun _ : Unit => cfg2) (fun _ c => dat2 (Vof W) c) () c V _ 8 (by decide) rfl
  · exact Pipeline.fibre_single (fun _ : Unit => cfg2) (fun _ c => dat2 (Vof W) c) () c V _ 9 (by decide) rfl

/-- ENTRY: the buffers behind the region's arrays at the entry valuation yield the proof data's arrays. -/
theorem hsplit2 (c : Dev nD) :
    (Pipeline.arrBufs cfg2.spec c (Vof W c) : sProp 𝕄) ⊢ (dat2 (Vof W) c).arrays ((dat2 (Vof W) c).arrAt · 0) :=
  Pipeline.arrays_split_fibres (fun _ : Unit => cfg2) (fun _ c => dat2 (Vof W) c) () c arr_whole2 (Vof W c) _
    (fun w => A_eq2 (Vof W) c w) fun b hb => Entails.of_eq (fibres2 W c (Vof W c) b hb).symm

/-- What the exit valuation holds at each window's array: an input's array as entered, the output's at what the
    write-backs leave. -/
theorem arrAt2' (c : Dev nD) (w : Fin cfg2.W) :
    (dat2 (Vof W) c).arrAt w cfg2.N = Vof (W2' W) c (Pipeline.arrRef cfg2.spec w) := by
  have hin : ∀ w : Fin cfg2.W, (cfg2.win w).isOut = false →
      (dat2 (Vof W) c).arrAt w cfg2.N = W c (Proc.devRef .tc (Pipeline.arrRef cfg2.spec w)) := fun w hw =>
    ((dat2 (Vof W) c).arrAt_in w hw _).trans (A_eq2 (Vof W) c w)
  have hne : ∀ w : Fin cfg2.W, Pipeline.arrRef cfg2.spec w ≠ main_v63 →
      W2' W c (Proc.devRef .tc (Pipeline.arrRef cfg2.spec w)) = W c (Proc.devRef .tc (Pipeline.arrRef cfg2.spec w)) := fun w hw => by
    unfold W2'; exact Function.update_of_ne (StableHlo.devRef_ne_of_ne hw) _ _
  by_cases h9 : w = 9
  · subst h9
    show _ = W2' W c (Proc.devRef .tc main_v63)
    unfold W2'; rw [Function.update_self]
  · have hw : (cfg2.win w).isOut = false := by fin_cases w <;> first | rfl | exact absurd rfl h9
    have hr : Pipeline.arrRef cfg2.spec w ≠ main_v63 := by fin_cases w <;> first | decide | exact absurd rfl h9
    exact (hin w hw).trans (hne w hr).symm

/-- EXIT: the proof data's arrays after the last point yield the buffers behind them at the exit valuation. -/
theorem hjoin2 (c : Dev nD) :
    (dat2 (Vof W) c).arrays ((dat2 (Vof W) c).arrAt · cfg2.N) ⊢ (Pipeline.arrBufs cfg2.spec c (Vof (W2' W) c) : sProp 𝕄) :=
  Pipeline.arrays_join_fibres (fun _ : Unit => cfg2) (fun _ c => dat2 (Vof W) c) () c arr_whole2 (Vof (W2' W) c) _
    (arrAt2' W c) fun b hb => Entails.of_eq (fibres2 W c (Vof (W2' W) c) b hb)

/-- Off the region's arrays the exit valuation is the entry valuation. -/
theorem hrest2 (c : Dev nD) (b : Ref sig .tc) (hb : b ∉ Finset.univ.image (Pipeline.arrRef cfg2.spec)) :
    W2' W c b = W c b := by
  unfold W2'
  refine Function.update_of_ne (StableHlo.devRef_ne_of_ne fun h => hb ?_) _ _
  exact Finset.mem_image.mpr ⟨9, Finset.mem_univ _, h.symm⟩

end Cert.KernelIdeal.Hand

end
-- ==== Proof.KI.Region3.lean ====
/-
  Region 3 of @main as a pipeline — the first kernel of a layer: the sum of two blocks of rows, times a 128 × 128 matrix, plus a row of biases —: what its body leaves in the output window's buffer, the body's
  triple, the proof data and the body obligation, at a PARAMETER V (the buffers' contents when the region is entered), for
  any float values. The body's arithmetic stays the one named payload; nothing here opens it.
-/
import proofs.«141748_j59863254171699_1_alg».proof.Proof.Gen.KernelIdeal.Launch
import proofs.«141748_j59863254171699_1_alg».proof.Proof.Gen.KernelIdeal.Skeleton
import proofs.«141748_j59863254171699_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's current staging buffer holds its block at every point, fetched there or not (unfetched, the block
    index has not moved), for any proof data whose array is V's and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses, and what it leaves in the output window's buffer -/

abbrev r3_big : Rect S5000x128 := Rect.unit (s := S5000x128) ![0, 0] S5000x128.size inb_S5000x128_S5000x128_0_0
abbrev r3_mat : Rect S128x128 := Rect.unit (s := S128x128) ![0, 0] S128x128.size inb_S128x128_S128x128_0_0
abbrev r3_row : Rect S1x128 := Rect.unit (s := S1x128) ![0, 0] S1x128.size inb_S1x128_S1x128_0_0

/-- The output window's staging buffer after the body, from the input windows' blocks: its one store, of the whole block. -/
def out3_4 (x0 : Vec F S5000x128 .f32) (x1 : Vec F S5000x128 .f32) (x2 : Vec F S128x128 .bf16) (x3 : Vec F S1x128 .f32) : Vec F S5000x128 .f32 :=
  View.canon [⟨r3_big, k3_pay1 (View.ld x0 r3_big) (View.ld x1 r3_big) (View.ld x2 r3_mat) (View.ld x3 r3_row)⟩]

/-- The store covers the buffer. -/
theorem cover3_4 (p0 : Vec F S5000x128 .f32) (y : S5000x128.Idx) :
    ∃ pc ∈ ([⟨r3_big, p0⟩] : List (View.Piece (Elt F) S5000x128 .f32)), y ∈ pc.1.set :=
  View.cover_of_tiled [⟨r3_big, p0⟩] S5000x128.size (by rfl) y

/-! ## The body's triple -/

set_option maxHeartbeats 1000000 in
/-- The kernel body on whole staging memrefs, the inputs' at read contents and the output's at anything, runs to the
    continuation holding the inputs' as they were and the output's at out3_4 of the inputs'. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x128 .f32) (x2 : Vec F S128x128 .bf16) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__combine_matmul_kernel i arg1 harg1 arg2 harg2 arg3 harg3 arg4 harg4 arg5 harg5) K := by
  simp only [cc3__combine_matmul_kernel_eq_skeleton]; unfold cc3__combine_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of pipeline 3 on core c: the arrays as the region finds them; after the body at point t each input's
    buffer at its block and the output's at out3_4 of the input blocks; the class invariant; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and the
    core's owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg3.lean ====
/-
  Region 3's arrays against the buffers behind them: every window is alone on its array, at the full share. At the entry the buffers, whole at the
  full share at the entry valuation, yield the proof data's arrays; at the exit the arrays (the inputs as entered, the output at
  what the write-backs leave) yield the buffers at the valuation updated at the output's array.
-/
import proofs.«141748_j59863254171699_1_alg».proof.Proof.KI.Common
import proofs.«141748_j59863254171699_1_alg».proof.Proof.KI.Region3
import proofs.«141748_j59863254171699_1_alg».proof.Proof.LibRegionA
import proofs.«141748_j59863254171699_1_alg».proof.Proof.LibSharedArrays

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The valuation region 3 leaves: the entry valuation updated at the output window's array. -/
def W3' (c : Dev nD) : Valuation τ sig (Elt F) :=
  Function.update (W c) (Proc.devRef .tc main_v79) ((dat3 (Vof W) c).arrAt 4 cfg3.N)

/-- Per buffer behind some window's array, the shares of the windows on it make up the full share. -/
theorem fibres3 (c : Dev nD) (V : (b : Ref sig .tc) → Buf (Elt F) ((c : Thread nD τ).loc b)) :
    ∀ b ∈ Finset.univ.image (Pipeline.arrRef cfg3.spec),
      (bigSep (Finset.univ.filter fun w => Pipeline.arrRef cfg3.spec w = b) fun w =>
          ((((c : Thread nD τ)).loc b) ↦{(dat3 (Vof W) c).share w} V b : sProp 𝕄))
        = ((((c : Thread nD τ)).loc b) ↦{fullShare} V b : sProp 𝕄) := by
  intro b hb
  obtain ⟨w, -, rfl⟩ := Finset.mem_image.mp hb
  fin_cases w
  · exact Pipeline.fibre_single (fun _ : Unit => cfg3) (fun _ c => dat3 (Vof W) c) () c V _ 0 (by decide) rfl
  · exact Pipeline.fibre_single (fun _ : Unit => cfg3) (fun _ c => dat3 (Vof W) c) () c V _ 1 (by decide) rfl
  · exact Pipeline.fibre_single (fun _ : Unit => cfg3) (fun _ c => dat3 (Vof W) c) () c V _ 2 (by decide) rfl
  · exact Pipeline.fibre_single (fun _ : Unit => cfg3) (fun _ c => dat3 (Vof W) c) () c V _ 3 (by decide) rfl
  · exact Pipeline.fibre_single (fun _ : Unit => cfg3) (fun _ c => dat3 (Vof W) c) () c V _ 4 (by decide) rfl

/-- ENTRY: the buffers behind the region's arrays at the entry valuation yield the proof data's arrays. -/
theorem hsplit3 (c : Dev nD) :
    (Pipeline.arrBufs cfg3.spec c (Vof W c) : sProp 𝕄) ⊢ (dat3 (Vof W) c).arrays ((dat3 (Vof W) c).arrAt · 0) :=
  Pipeline.arrays_split_fibres (fun _ : Unit => cfg3) (fun _ c => dat3 (Vof W) c) () c arr_whole3 (Vof W c) _
    (fun w => A_eq3 (Vof W) c w) fun b hb => Entails.of_eq (fibres3 W c (Vof W c) b hb).symm

/-- What the exit valuation holds at each window's array: an input's array as entered, the output's at what the
    write-backs leave. -/
theorem arrAt3' (c : Dev nD) (w : Fin cfg3.W) :
    (dat3 (Vof W) c).arrAt w cfg3.N = Vof (W3' W) c (Pipeline.arrRef cfg3.spec w) := by
  have hin : ∀ w : Fin cfg3.W, (cfg3.win w).isOut = false →
      (dat3 (Vof W) c).arrAt w cfg3.N = W c (Proc.devRef .tc (Pipeline.arrRef cfg3.spec w)) := fun w hw =>
    ((dat3 (Vof W) c).arrAt_in w hw _).trans (A_eq3 (Vof W) c w)
  have hne : ∀ w : Fin cfg3.W, Pipeline.arrRef cfg3.spec w ≠ main_v79 →
      W3' W c (Proc.devRef .tc (Pipeline.arrRef cfg3.spec w)) = W c (Proc.devRef .tc (Pipeline.arrRef cfg3.spec w)) := fun w hw => by
    unfold W3'; exact Function.update_of_ne (StableHlo.devRef_ne_of_ne hw) _ _
  by_cases h9 : w = 4
  · subst h9
    show _ = W3' W c (Proc.devRef .tc main_v79)
    unfold W3'; rw [Function.update_self]
  · have hw : (cfg3.win w).isOut = false := by fin_cases w <;> first | rfl | exact absurd rfl h9
    have hr : Pipeline.arrRef cfg3.spec w ≠ main_v79 := by fin_cases w <;> first | decide | exact absurd rfl h9
    exact (hin w hw).trans (hne w hr).symm

/-- EXIT: the proof data's arrays after the last point yield the buffers behind them at the exit valuation. -/
theorem hjoin3 (c : Dev nD) :
    (dat3 (Vof W) c).arrays ((dat3 (Vof W) c).arrAt · cfg3.N) ⊢ (Pipeline.arrBufs cfg3.spec c (Vof (W3' W) c) : sProp 𝕄) :=
  Pipeline.arrays_join_fibres (fun _ : Unit => cfg3) (fun _ c => dat3 (Vof W) c) () c arr_whole3 (Vof (W3' W) c) _
    (arrAt3' W c) fun b hb => Entails.of_eq (fibres3 W c (Vof (W3' W) c) b hb)

/-- Off the region's arrays the exit valuation is the entry valuation. -/
theorem hrest3 (c : Dev nD) (b : Ref sig .tc) (hb : b ∉ Finset.univ.image (Pipeline.arrRef cfg3.spec)) :
    W3' W c b = W c b := by
  unfold W3'
  refine Function.update_of_ne (StableHlo.devRef_ne_of_ne fun h => hb ?_) _ _
  exact Finset.mem_image.mpr ⟨4, Finset.mem_univ _, h.symm⟩

end Cert.KernelIdeal.Hand

end
-- ==== Proof.KI.Region4.lean ====
/-
  Region 4 of @main as a pipeline — the second kernel of a layer: a block of rows normalised with given per-feature mean and variance, scaled and shifted, times a 128 × 128 matrix, plus a row of biases —: what its body leaves in the output window's buffer, the body's
  triple, the proof data and the body obligation, at a PARAMETER V (the buffers' contents when the region is entered), for
  any float values. The body's arithmetic stays the one named payload; nothing here opens it.
-/
import proofs.«141748_j59863254171699_1_alg».proof.Proof.Gen.KernelIdeal.Launch
import proofs.«141748_j59863254171699_1_alg».proof.Proof.Gen.KernelIdeal.Skeleton
import proofs.«141748_j59863254171699_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's current staging buffer holds its block at every point, fetched there or not (unfetched, the block
    index has not moved), for any proof data whose array is V's and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses, and what it leaves in the output window's buffer -/

abbrev r4_big : Rect S5000x128 := Rect.unit (s := S5000x128) ![0, 0] S5000x128.size inb_S5000x128_S5000x128_0_0
abbrev r4_row : Rect S1x128 := Rect.unit (s := S1x128) ![0, 0] S1x128.size inb_S1x128_S1x128_0_0
abbrev r4_mat : Rect S128x128 := Rect.unit (s := S128x128) ![0, 0] S128x128.size inb_S128x128_S128x128_0_0

/-- The output window's staging buffer after the body, from the input windows' blocks: its one store, of the whole block. -/
def out4_7 (x0 : Vec F S5000x128 .f32) (x1 : Vec F S1x128 .f32) (x2 : Vec F S1x128 .f32) (x3 : Vec F S1x128 .f32) (x4 : Vec F S1x128 .f32) (x5 : Vec F S128x128 .bf16) (x6 : Vec F S1x128 .f32) : Vec F S5000x128 .f32 :=
  View.canon [⟨r4_big, k4_pay1 (View.ld x0 r4_big) (View.ld x2 r4_row) (View.ld x1 r4_row) (View.ld x3 r4_row) (View.ld x4 r4_row) (View.ld x5 r4_mat) (View.ld x6 r4_row)⟩]

/-- The store covers the buffer. -/
theorem cover4_7 (p0 : Vec F S5000x128 .f32) (y : S5000x128.Idx) :
    ∃ pc ∈ ([⟨r4_big, p0⟩] : List (View.Piece (Elt F) S5000x128 .f32)), y ∈ pc.1.set :=
  View.cover_of_tiled [⟨r4_big, p0⟩] S5000x128.size (by rfl) y

/-! ## The body's triple -/

set_option maxHeartbeats 1000000 in
/-- The kernel body on whole staging memrefs, the inputs' at read contents and the output's at anything, runs to the
    continuation holding the inputs' as they were and the output's at out4_7 of the inputs'. -/
theorem sound_kernel4 (c : Dev nD) (E : Set ℕ) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S128x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out4_7 x0 x1 x2 x3 x4 x5 x6)) -∗ K ⟨⟩))
      ⊢ wp frame (wpE (defs₀ (F := F)) Variants.none c none) E (cc4__bn_matmul_kernel i arg1 harg1 arg2 harg2 arg3 harg3 arg4 harg4 arg5 harg5 arg6 harg6 arg7 harg7 arg8 harg8) K := by
  simp only [cc4__bn_matmul_kernel_eq_skeleton]; unfold cc4__bn_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)

/-! ## The pipeline's proof data -/

/-- The proof data of pipeline 4 on core c: the arrays as the region finds them; after the body at point t each input's
    buffer at its block and the output's at out4_7 of the input blocks; the class invariant; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

/-- The body at any point: the inputs' memrefs hold their blocks, so the body's triple applies; the invariant and the
    core's owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg4.lean ====
/-
  Region 4's arrays against the buffers behind them: every window is alone on its array, at the full share. At the entry the buffers, whole at the
  full share at the entry valuation, yield the proof data's arrays; at the exit the arrays (the inputs as entered, the output at
  what the write-backs leave) yield the buffers at the valuation updated at the output's array.
-/
import proofs.«141748_j59863254171699_1_alg».proof.Proof.KI.Common
import proofs.«141748_j59863254171699_1_alg».proof.Proof.KI.Region4
import proofs.«141748_j59863254171699_1_alg».proof.Proof.LibRegionA
import proofs.«141748_j59863254171699_1_alg».proof.Proof.LibSharedArrays

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The valuation region 4 leaves: the entry valuation updated at the output window's array. -/
def W4' (c : Dev nD) : Valuation τ sig (Elt F) :=
  Function.update (W c) (Proc.devRef .tc main_v97) ((dat4 (Vof W) c).arrAt 7 cfg4.N)

/-- Per buffer behind some window's array, the shares of the windows on it make up the full share. -/
theorem fibres4 (c : Dev nD) (V : (b : Ref sig .tc) → Buf (Elt F) ((c : Thread nD τ).loc b)) :
    ∀ b ∈ Finset.univ.image (Pipeline.arrRef cfg4.spec),
      (bigSep (Finset.univ.filter fun w => Pipeline.arrRef cfg4.spec w = b) fun w =>
          ((((c : Thread nD τ)).loc b) ↦{(dat4 (Vof W) c).share w} V b : sProp 𝕄))
        = ((((c : Thread nD τ)).loc b) ↦{fullShare} V b : sProp 𝕄) := by
  intro b hb
  obtain ⟨w, -, rfl⟩ := Finset.mem_image.mp hb
  fin_cases w
  · exact Pipeline.fibre_single (fun _ : Unit => cfg4) (fun _ c => dat4 (Vof W) c) () c V _ 0 (by decide) rfl
  · exact Pipeline.fibre_single (fun _ : Unit => cfg4) (fun _ c => dat4 (Vof W) c) () c V _ 1 (by decide) rfl
  · exact Pipeline.fibre_single (fun _ : Unit => cfg4) (fun _ c => dat4 (Vof W) c) () c V _ 2 (by decide) rfl
  · exact Pipeline.fibre_single (fun _ : Unit => cfg4) (fun _ c => dat4 (Vof W) c) () c V _ 3 (by decide) rfl
  · exact Pipeline.fibre_single (fun _ : Unit => cfg4) (fun _ c => dat4 (Vof W) c) () c V _ 4 (by decide) rfl
  · exact Pipeline.fibre_single (fun _ : Unit => cfg4) (fun _ c => dat4 (Vof W) c) () c V _ 5 (by decide) rfl
  · exact Pipeline.fibre_single (fun _ : Unit => cfg4) (fun _ c => dat4 (Vof W) c) () c V _ 6 (by decide) rfl
  · exact Pipeline.fibre_single (fun _ : Unit => cfg4) (fun _ c => dat4 (Vof W) c) () c V _ 7 (by decide) rfl

/-- ENTRY: the buffers behind the region's arrays at the entry valuation yield the proof data's arrays. -/
theorem hsplit4 (c : Dev nD) :
    (Pipeline.arrBufs cfg4.spec c (Vof W c) : sProp 𝕄) ⊢ (dat4 (Vof W) c).arrays ((dat4 (Vof W) c).arrAt · 0) :=
  Pipeline.arrays_split_fibres (fun _ : Unit => cfg4) (fun _ c => dat4 (Vof W) c) () c arr_whole4 (Vof W c) _
    (fun w => A_eq4 (Vof W) c w) fun b hb => Entails.of_eq (fibres4 W c (Vof W c) b hb).symm

/-- What the exit valuation holds at each window's array: an input's array as entered, the output's at what the
    write-backs leave. -/
theorem arrAt4' (c : Dev nD) (w : Fin cfg4.W) :
    (dat4 (Vof W) c).arrAt w cfg4.N = Vof (W4' W) c (Pipeline.arrRef cfg4.spec w) := by
  have hin : ∀ w : Fin cfg4.W, (cfg4.win w).isOut = false →
      (dat4 (Vof W) c).arrAt w cfg4.N = W c (Proc.devRef .tc (Pipeline.arrRef cfg4.spec w)) := fun w hw =>
    ((dat4 (Vof W) c).arrAt_in w hw _).trans (A_eq4 (Vof W) c w)
  have hne : ∀ w : Fin cfg4.W, Pipeline.arrRef cfg4.spec w ≠ main_v97 →
      W4' W c (Proc.devRef .tc (Pipeline.arrRef cfg4.spec w)) = W c (Proc.devRef .tc (Pipeline.arrRef cfg4.spec w)) := fun w hw => by
    unfold W4'; exact Function.update_of_ne (StableHlo.devRef_ne_of_ne hw) _ _
  by_cases h9 : w = 7
  · subst h9
    show _ = W4' W c (Proc.devRef .tc main_v97)
    unfold W4'; rw [Function.update_self]
  · have hw : (cfg4.win w).isOut = false := by fin_cases w <;> first | rfl | exact absurd rfl h9
    have hr : Pipeline.arrRef cfg4.spec w ≠ main_v97 := by fin_cases w <;> first | decide | exact absurd rfl h9
    exact (hin w hw).trans (hne w hr).symm

/-- EXIT: the proof data's arrays after the last point yield the buffers behind them at the exit valuation. -/
theorem hjoin4 (c : Dev nD) :
    (dat4 (Vof W) c).arrays ((dat4 (Vof W) c).arrAt · cfg4.N) ⊢ (Pipeline.arrBufs cfg4.spec c (Vof (W4' W) c) : sProp 𝕄) :=
  Pipeline.arrays_join_fibres (fun _ : Unit => cfg4) (fun _ c => dat4 (Vof W) c) () c arr_whole4 (Vof (W4' W) c) _
    (arrAt4' W c) fun b hb => Entails.of_eq (fibres4 W c (Vof (W4' W) c) b hb)

/-- Off the region's arrays the exit valuation is the entry valuation. -/
theorem hrest4 (c : Dev nD) (b : Ref sig .tc) (hb : b ∉ Finset.univ.image (Pipeline.arrRef cfg4.spec)) :
    W4' W c b = W c b := by
  unfold W4'
  refine Function.update_of_ne (StableHlo.devRef_ne_of_ne fun h => hb ?_) _ _
  exact Finset.mem_image.mpr ⟨7, Finset.mem_univ _, h.symm⟩

end Cert.KernelIdeal.Hand

end
-- ==== Proof.KI.Region5.lean ====
/-
  Region 5 of @main as a pipeline — the third kernel of a layer: a block of rows normalised twice with given per-feature statistics, then the maximum with zero; windows 4 and 5 read ONE array and hold the two halves of its full share —: what its body leaves in the output window's buffer, the body's
  triple, the proof data and the body obligation, at a PARAMETER V (the buffers' contents when the region is entered), for
  any float values. The body's arithmetic stays the one named payload; nothing here opens it.
-/
import proofs.«141748_j59863254171699_1_alg».proof.Proof.Gen.KernelIdeal.Launch
import proofs.«141748_j59863254171699_1_alg».proof.Proof.Gen.KernelIdeal.Skeleton
import proofs.«141748_j59863254171699_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! An input window's current staging buffer holds its block at every point, fetched there or not (unfetched, the block
    index has not moved), for any proof data whose array is V's and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses, and what it leaves in the output window's buffer -/

abbrev r5_big : Rect S5000x128 := Rect.unit (s := S5000x128) ![0, 0] S5000x128.size inb_S5000x128_S5000x128_0_0
abbrev r5_row : Rect S1x128 := Rect.unit (s := S1x128) ![0, 0] S1x128.size inb_S1x128_S1x128_0_0

/-- The output window's staging buffer after the body, from the input windows' blocks: its one store, of the whole block. -/
def out5_9 (x0 : Vec F S5000x128 .f32) (x1 : Vec F S1x128 .f32) (x2 : Vec F S1x128 .f32) (x3 : Vec F S1x128 .f32) (x4 : Vec F S1x128 .f32) (x5 : Vec F S1x128 .f32) (x6 : Vec F S1x128 .f32) (x7 : Vec F S1x128 .f32) (x8 : Vec F S1x128 .f32) : Vec F S5000x128 .f32 :=
  View.canon [⟨r5_big, k5_pay1 (k5_pay2 (View.ld x0 r5_big) (View.ld x2 r5_row) (View.ld x1 r5_row) (View.ld x3 r5_row) (View.ld x4 r5_row) (View.ld x6 r5_row) (View.ld x5 r5_row) (View.ld x7 r5_row)) (k5_pay3 (View.ld x8 r5_row))⟩]

/-- The store covers the buffer. -/
theorem cover5_9 (p0 : Vec F S5000x128 .f32) (y : S5000x128.Idx) :
    ∃ pc ∈ ([⟨r5_big, p0⟩] : List (View.Piece (Elt F) S5000x128 .f32)), y ∈ pc.1.set :=
  View.cover_of_tiled [⟨r5_big, p0⟩] S5000x128.size (by rfl) y

/-! ## The body's triple -/

set_option maxHeartbeats 1000000 in
/-- The kernel body on whole staging memrefs, the inputs' at read contents and the output's at anything, runs to the
    continuation holding the inputs' as they were and the output's at out5_9 of the inputs'. -/
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S5000x128 .f32) (harg10 : arg10.IsWhole)
    (x0 : Vec F S5000x128 .f32) (x1 : Vec F S1x128 .f32) (x2 : Vec F S1x128 .f32) (x3 : Vec F S1x128 .f32) (x4 : Vec F S1x128 .f32) (x5 : Vec F S1x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out5_9 x0 x1 x2 x3 x4 x5 x6 x7 x8)) -∗ K ⟨⟩))
      ⊢ wp frame (wpE (defs₀ (F := F)) Variants.none c none) E (cc5__double_bn_relu_kernel i arg1 harg1 arg2 harg2 arg3 harg3 arg4 harg4 arg5 harg5 arg6 harg6 arg7 harg7 arg8 harg8 arg9 harg9 arg10 harg10) K := by
  simp only [cc5__double_bn_relu_kernel_eq_skeleton]; unfold cc5__double_bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover5_9 _)

/-! ## The pipeline's proof data -/

/-- The proof data of pipeline 5 on core c: the arrays as the region finds them; after the body at point t each input's
    buffer at its block and the output's at out5_9 of the input blocks; the class invariant; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 (iblk5 V c 0 t) (iblk5 V c 1 t) (iblk5 V c 2 t) (iblk5 V c 3 t) (iblk5 V c 4 t) (iblk5 V c 5 t) (iblk5 V c 6 t) (iblk5 V c 7 t) (iblk5 V c 8 t)
  Φ _ := Pipeline.ΦA spec5 c
  q w := match w with
    | ⟨4, _⟩ => fullShare.left
    | ⟨5, _⟩ => fullShare.right
    | _ => fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) (iblk5 V c 6 t) (iblk5 V c 7 t) (iblk5 V c 8 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d

/-! ## The body obligation, at a generic point -/

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

/-- The body at any point: the inputs' memrefs hold their blocks, so the body's triple applies; the invariant and the
    core's owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg5.lean ====
/-
  Region 5's arrays against the buffers behind them: windows 4 and 5 read one array, each at one half of its full share;
  every other window is alone on its array at the full share. At the entry the buffers, whole at the
  full share at the entry valuation, yield the proof data's arrays; at the exit the arrays (the inputs as entered, the output at
  what the write-backs leave) yield the buffers at the valuation updated at the output's array.
-/
import proofs.«141748_j59863254171699_1_alg».proof.Proof.KI.Common
import proofs.«141748_j59863254171699_1_alg».proof.Proof.KI.Region5
import proofs.«141748_j59863254171699_1_alg».proof.Proof.LibRegionA
import proofs.«141748_j59863254171699_1_alg».proof.Proof.LibSharedArrays

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The valuation region 5 leaves: the entry valuation updated at the output window's array. -/
def W5' (c : Dev nD) : Valuation τ sig (Elt F) :=
  Function.update (W c) (Proc.devRef .tc main_v121) ((dat5 (Vof W) c).arrAt 9 cfg5.N)

/-- Per buffer behind some window's array, the shares of the windows on it make up the full share. -/
theorem fibres5 (c : Dev nD) (V : (b : Ref sig .tc) → Buf (Elt F) ((c : Thread nD τ).loc b)) :
    ∀ b ∈ Finset.univ.image (Pipeline.arrRef cfg5.spec),
      (bigSep (Finset.univ.filter fun w => Pipeline.arrRef cfg5.spec w = b) fun w =>
          ((((c : Thread nD τ)).loc b) ↦{(dat5 (Vof W) c).share w} V b : sProp 𝕄))
        = ((((c : Thread nD τ)).loc b) ↦{fullShare} V b : sProp 𝕄) := by
  intro b hb
  obtain ⟨w, -, rfl⟩ := Finset.mem_image.mp hb
  fin_cases w
  · exact Pipeline.fibre_single (fun _ : Unit => cfg5) (fun _ c => dat5 (Vof W) c) () c V _ 0 (by decide) rfl
  · exact Pipeline.fibre_single (fun _ : Unit => cfg5) (fun _ c => dat5 (Vof W) c) () c V _ 1 (by decide) rfl
  · exact Pipeline.fibre_single (fun _ : Unit => cfg5) (fun _ c => dat5 (Vof W) c) () c V _ 2 (by decide) rfl
  · exact Pipeline.fibre_single (fun _ : Unit => cfg5) (fun _ c => dat5 (Vof W) c) () c V _ 3 (by decide) rfl
  · exact Pipeline.fibre_pair (fun _ : Unit => cfg5) (fun _ c => dat5 (Vof W) c) () c V _ 4 5 (by decide) (by decide) rfl rfl
  · exact Pipeline.fibre_pair (fun _ : Unit => cfg5) (fun _ c => dat5 (Vof W) c) () c V _ 4 5 (by decide) (by decide) rfl rfl
  · exact Pipeline.fibre_single (fun _ : Unit => cfg5) (fun _ c => dat5 (Vof W) c) () c V _ 6 (by decide) rfl
  · exact Pipeline.fibre_single (fun _ : Unit => cfg5) (fun _ c => dat5 (Vof W) c) () c V _ 7 (by decide) rfl
  · exact Pipeline.fibre_single (fun _ : Unit => cfg5) (fun _ c => dat5 (Vof W) c) () c V _ 8 (by decide) rfl
  · exact Pipeline.fibre_single (fun _ : Unit => cfg5) (fun _ c => dat5 (Vof W) c) () c V _ 9 (by decide) rfl

/-- ENTRY: the buffers behind the region's arrays at the entry valuation yield the proof data's arrays. -/
theorem hsplit5 (c : Dev nD) :
    (Pipeline.arrBufs cfg5.spec c (Vof W c) : sProp 𝕄) ⊢ (dat5 (Vof W) c).arrays ((dat5 (Vof W) c).arrAt · 0) :=
  Pipeline.arrays_split_fibres (fun _ : Unit => cfg5) (fun _ c => dat5 (Vof W) c) () c arr_whole5 (Vof W c) _
    (fun w => A_eq5 (Vof W) c w) fun b hb => Entails.of_eq (fibres5 W c (Vof W c) b hb).symm

/-- What the exit valuation holds at each window's array: an input's array as entered, the output's at what the
    write-backs leave. -/
theorem arrAt5' (c : Dev nD) (w : Fin cfg5.W) :
    (dat5 (Vof W) c).arrAt w cfg5.N = Vof (W5' W) c (Pipeline.arrRef cfg5.spec w) := by
  have hin : ∀ w : Fin cfg5.W, (cfg5.win w).isOut = false →
      (dat5 (Vof W) c).arrAt w cfg5.N = W c (Proc.devRef .tc (Pipeline.arrRef cfg5.spec w)) := fun w hw =>
    ((dat5 (Vof W) c).arrAt_in w hw _).trans (A_eq5 (Vof W) c w)
  have hne : ∀ w : Fin cfg5.W, Pipeline.arrRef cfg5.spec w ≠ main_v121 →
      W5' W c (Proc.devRef .tc (Pipeline.arrRef cfg5.spec w)) = W c (Proc.devRef .tc (Pipeline.arrRef cfg5.spec w)) := fun w hw => by
    unfold W5'; exact Function.update_of_ne (StableHlo.devRef_ne_of_ne hw) _ _
  by_cases h9 : w = 9
  · subst h9
    show _ = W5' W c (Proc.devRef .tc main_v121)
    unfold W5'; rw [Function.update_self]
  · have hw : (cfg5.win w).isOut = false := by fin_cases w <;> first | rfl | exact absurd rfl h9
    have hr : Pipeline.arrRef cfg5.spec w ≠ main_v121 := by fin_cases w <;> first | decide | exact absurd rfl h9
    exact (hin w hw).trans (hne w hr).symm

/-- EXIT: the proof data's arrays after the last point yield the buffers behind them at the exit valuation. -/
theorem hjoin5 (c : Dev nD) :
    (dat5 (Vof W) c).arrays ((dat5 (Vof W) c).arrAt · cfg5.N) ⊢ (Pipeline.arrBufs cfg5.spec c (Vof (W5' W) c) : sProp 𝕄) :=
  Pipeline.arrays_join_fibres (fun _ : Unit => cfg5) (fun _ c => dat5 (Vof W) c) () c arr_whole5 (Vof (W5' W) c) _
    (arrAt5' W c) fun b hb => Entails.of_eq (fibres5 W c (Vof (W5' W) c) b hb)

/-- Off the region's arrays the exit valuation is the entry valuation. -/
theorem hrest5 (c : Dev nD) (b : Ref sig .tc) (hb : b ∉ Finset.univ.image (Pipeline.arrRef cfg5.spec)) :
    W5' W c b = W c b := by
  unfold W5'
  refine Function.update_of_ne (StableHlo.devRef_ne_of_ne fun h => hb ?_) _ _
  exact Finset.mem_image.mpr ⟨9, Finset.mem_univ _, h.symm⟩

end Cert.KernelIdeal.Hand

end
-- ==== Proof.KI.Region6.lean ====
/-
  Region 6 of @main as a pipeline — the first kernel of a layer: the sum of two blocks of rows, times a 128 × 128 matrix, plus a row of biases —: what its body leaves in the output window's buffer, the body's
  triple, the proof data and the body obligation, at a PARAMETER V (the buffers' contents when the region is entered), for
  any float values. The body's arithmetic stays the one named payload; nothing here opens it.
-/
import proofs.«141748_j59863254171699_1_alg».proof.Proof.Gen.KernelIdeal.Launch
import proofs.«141748_j59863254171699_1_alg».proof.Proof.Gen.KernelIdeal.Skeleton
import proofs.«141748_j59863254171699_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! An input window's current staging buffer holds its block at every point, fetched there or not (unfetched, the block
    index has not moved), for any proof data whose array is V's and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses, and what it leaves in the output window's buffer -/

abbrev r6_big : Rect S5000x128 := Rect.unit (s := S5000x128) ![0, 0] S5000x128.size inb_S5000x128_S5000x128_0_0
abbrev r6_mat : Rect S128x128 := Rect.unit (s := S128x128) ![0, 0] S128x128.size inb_S128x128_S128x128_0_0
abbrev r6_row : Rect S1x128 := Rect.unit (s := S1x128) ![0, 0] S1x128.size inb_S1x128_S1x128_0_0

/-- The output window's staging buffer after the body, from the input windows' blocks: its one store, of the whole block. -/
def out6_4 (x0 : Vec F S5000x128 .f32) (x1 : Vec F S5000x128 .f32) (x2 : Vec F S128x128 .bf16) (x3 : Vec F S1x128 .f32) : Vec F S5000x128 .f32 :=
  View.canon [⟨r6_big, k6_pay1 (View.ld x0 r6_big) (View.ld x1 r6_big) (View.ld x2 r6_mat) (View.ld x3 r6_row)⟩]

/-- The store covers the buffer. -/
theorem cover6_4 (p0 : Vec F S5000x128 .f32) (y : S5000x128.Idx) :
    ∃ pc ∈ ([⟨r6_big, p0⟩] : List (View.Piece (Elt F) S5000x128 .f32)), y ∈ pc.1.set :=
  View.cover_of_tiled [⟨r6_big, p0⟩] S5000x128.size (by rfl) y

/-! ## The body's triple -/

set_option maxHeartbeats 1000000 in
/-- The kernel body on whole staging memrefs, the inputs' at read contents and the output's at anything, runs to the
    continuation holding the inputs' as they were and the output's at out6_4 of the inputs'. -/
theorem sound_kernel6 (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x128 .f32) (x2 : Vec F S128x128 .bf16) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out6_4 x0 x1 x2 x3)) -∗ K ⟨⟩))
      ⊢ wp frame (wpE (defs₀ (F := F)) Variants.none c none) E (cc6__combine_matmul_kernel i arg1 harg1 arg2 harg2 arg3 harg3 arg4 harg4 arg5 harg5) K := by
  simp only [cc6__combine_matmul_kernel_eq_skeleton]; unfold cc6__combine_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _)

/-! ## The pipeline's proof data -/

/-- The proof data of pipeline 6 on core c: the arrays as the region finds them; after the body at point t each input's
    buffer at its block and the output's at out6_4 of the input blocks; the class invariant; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 (iblk6 V c 0 t) (iblk6 V c 1 t) (iblk6 V c 2 t) (iblk6 V c 3 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-! ## The body obligation, at a generic point -/

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

/-- The body at any point: the inputs' memrefs hold their blocks, so the body's triple applies; the invariant and the
    core's owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Reg6.lean ====
/-
  Region 6's arrays against the buffers behind them: every window is alone on its array, at the full share. At the entry the buffers, whole at the
  full share at the entry valuation, yield the proof data's arrays; at the exit the arrays (the inputs as entered, the output at
  what the write-backs leave) yield the buffers at the valuation updated at the output's array.
-/
import proofs.«141748_j59863254171699_1_alg».proof.Proof.KI.Common
import proofs.«141748_j59863254171699_1_alg».proof.Proof.KI.Region6
import proofs.«141748_j59863254171699_1_alg».proof.Proof.LibRegionA
import proofs.«141748_j59863254171699_1_alg».proof.Proof.LibSharedArrays

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The valuation region 6 leaves: the entry valuation updated at the output window's array. -/
def W6' (c : Dev nD) : Valuation τ sig (Elt F) :=
  Function.update (W c) (Proc.devRef .tc main_v137) ((dat6 (Vof W) c).arrAt 4 cfg6.N)

/-- Per buffer behind some window's array, the shares of the windows on it make up the full share. -/
theorem fibres6 (c : Dev nD) (V : (b : Ref sig .tc) → Buf (Elt F) ((c : Thread nD τ).loc b)) :
    ∀ b ∈ Finset.univ.image (Pipeline.arrRef cfg6.spec),
      (bigSep (Finset.univ.filter fun w => Pipeline.arrRef cfg6.spec w = b) fun w =>
          ((((c : Thread nD τ)).loc b) ↦{(dat6 (Vof W) c).share w} V b : sProp 𝕄))
        = ((((c : Thread nD τ)).loc b) ↦{fullShare} V b : sProp 𝕄) := by
  intro b hb
  obtain ⟨w, -, rfl⟩ := Finset.mem_image.mp hb
  fin_cases w
  · exact Pipeline.fibre_single (fun _ : Unit => cfg6) (fun _ c => dat6 (Vof W) c) () c V _ 0 (by decide) rfl
  · exact Pipeline.fibre_single (fun _ : Unit => cfg6) (fun _ c => dat6 (Vof W) c) () c V _ 1 (by decide) rfl
  · exact Pipeline.fibre_single (fun _ : Unit => cfg6) (fun _ c => dat6 (Vof W) c) () c V _ 2 (by decide) rfl
  · exact Pipeline.fibre_single (fun _ : Unit => cfg6) (fun _ c => dat6 (Vof W) c) () c V _ 3 (by decide) rfl
  · exact Pipeline.fibre_single (fun _ : Unit => cfg6) (fun _ c => dat6 (Vof W) c) () c V _ 4 (by decide) rfl

/-- ENTRY: the buffers behind the region's arrays at the entry valuation yield the proof data's arrays. -/
theorem hsplit6 (c : Dev nD) :
    (Pipeline.arrBufs cfg6.spec c (Vof W c) : sProp 𝕄) ⊢ (dat6 (Vof W) c).arrays ((dat6 (Vof W) c).arrAt · 0) :=
  Pipeline.arrays_split_fibres (fun _ : Unit => cfg6) (fun _ c => dat6 (Vof W) c) () c arr_whole6 (Vof W c) _
    (fun w => A_eq6 (Vof W) c w) fun b hb => Entails.of_eq (fibres6 W c (Vof W c) b hb).symm

/-- What the exit valuation holds at each window's array: an input's array as entered, the output's at what the
    write-backs leave. -/
theorem arrAt6' (c : Dev nD) (w : Fin cfg6.W) :
    (dat6 (Vof W) c).arrAt w cfg6.N = Vof (W6' W) c (Pipeline.arrRef cfg6.spec w) := by
  have hin : ∀ w : Fin cfg6.W, (cfg6.win w).isOut = false →
      (dat6 (Vof W) c).arrAt w cfg6.N = W c (Proc.devRef .tc (Pipeline.arrRef cfg6.spec w)) := fun w hw =>
    ((dat6 (Vof W) c).arrAt_in w hw _).trans (A_eq6 (Vof W) c w)
  have hne : ∀ w : Fin cfg6.W, Pipeline.arrRef cfg6.spec w ≠ main_v137 →
      W6' W c (Proc.devRef .tc (Pipeline.arrRef cfg6.spec w)) = W c (Proc.devRef .tc (Pipeline.arrRef cfg6.spec w)) := fun w hw => by
    unfold W6'; exact Function.update_of_ne (StableHlo.devRef_ne_of_ne hw) _ _
  by_cases h9 : w = 4
  · subst h9
    show _ = W6' W c (Proc.devRef .tc main_v137)
    unfold W6'; rw [Function.update_self]
  · have hw : (cfg6.win w).isOut = false := by fin_cases w <;> first | rfl | exact absurd rfl h9
    have hr : Pipeline.arrRef cfg6.spec w ≠ main_v137 := by fin_cases w <;> first | decide | exact absurd rfl h9
    exact (hin w hw).trans (hne w hr).symm

/-- EXIT: the proof data's arrays after the last point yield the buffers behind them at the exit valuation. -/
theorem hjoin6 (c : Dev nD) :
    (dat6 (Vof W) c).arrays ((dat6 (Vof W) c).arrAt · cfg6.N) ⊢ (Pipeline.arrBufs cfg6.spec c (Vof (W6' W) c) : sProp 𝕄) :=
  Pipeline.arrays_join_fibres (fun _ : Unit => cfg6) (fun _ c => dat6 (Vof W) c) () c arr_whole6 (Vof (W6' W) c) _
    (arrAt6' W c) fun b hb => Entails.of_eq (fibres6 W c (Vof (W6' W) c) b hb)

/-- Off the region's arrays the exit valuation is the entry valuation. -/
theorem hrest6 (c : Dev nD) (b : Ref sig .tc) (hb : b ∉ Finset.univ.image (Pipeline.arrRef cfg6.spec)) :
    W6' W c b = W c b := by
  unfold W6'
  refine Function.update_of_ne (StableHlo.devRef_ne_of_ne fun h => hb ?_) _ _
  exact Finset.mem_image.mpr ⟨4, Finset.mem_univ _, h.symm⟩

end Cert.KernelIdeal.Hand

end
-- ==== Proof.KI.Region7.lean ====
/-
  Region 7 of @main as a pipeline — the second kernel of a layer: a block of rows normalised with given per-feature mean and variance, scaled and shifted, times a 128 × 128 matrix, plus a row of biases —: what its body leaves in the output window's buffer, the body's
  triple, the proof data and the body obligation, at a PARAMETER V (the buffers' contents when the region is entered), for
  any float values. The body's arithmetic stays the one named payload; nothing here opens it.
-/
import proofs.«141748_j59863254171699_1_alg».proof.Proof.Gen.KernelIdeal.Launch
import proofs.«141748_j59863254171699_1_alg».proof.Proof.Gen.KernelIdeal.Skeleton
import proofs.«141748_j59863254171699_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! An input window's current staging buffer holds its block at every point, fetched there or not (unfetched, the block
    index has not moved), for any proof data whose array is V's and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses, and what it leaves in the output window's buffer -/

abbrev r7_big : Rect S5000x128 := Rect.unit (s := S5000x128) ![0, 0] S5000x128.size inb_S5000x128_S5000x128_0_0
abbrev r7_row : Rect S1x128 := Rect.unit (s := S1x128) ![0, 0] S1x128.size inb_S1x128_S1x128_0_0
abbrev r7_mat : Rect S128x128 := Rect.unit (s := S128x128) ![0, 0] S128x128.size inb_S128x128_S128x128_0_0

/-- The output window's staging buffer after the body, from the input windows' blocks: its one store, of the whole block. -/
def out7_7 (x0 : Vec F S5000x128 .f32) (x1 : Vec F S1x128 .f32) (x2 : Vec F S1x128 .f32) (x3 : Vec F S1x128 .f32) (x4 : Vec F S1x128 .f32) (x5 : Vec F S128x128 .bf16) (x6 : Vec F S1x128 .f32) : Vec F S5000x128 .f32 :=
  View.canon [⟨r7_big, k7_pay1 (View.ld x0 r7_big) (View.ld x2 r7_row) (View.ld x1 r7_row) (View.ld x3 r7_row) (View.ld x4 r7_row) (View.ld x5 r7_mat) (View.ld x6 r7_row)⟩]

/-- The store covers the buffer. -/
theorem cover7_7 (p0 : Vec F S5000x128 .f32) (y : S5000x128.Idx) :
    ∃ pc ∈ ([⟨r7_big, p0⟩] : List (View.Piece (Elt F) S5000x128 .f32)), y ∈ pc.1.set :=
  View.cover_of_tiled [⟨r7_big, p0⟩] S5000x128.size (by rfl) y

/-! ## The body's triple -/

set_option maxHeartbeats 1000000 in
/-- The kernel body on whole staging memrefs, the inputs' at read contents and the output's at anything, runs to the
    continuation holding the inputs' as they were and the output's at out7_7 of the inputs'. -/
theorem sound_kernel7 (c : Dev nD) (E : Set ℕ) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S128x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7_7 x0 x1 x2 x3 x4 x5 x6)) -∗ K ⟨⟩))
      ⊢ wp frame (wpE (defs₀ (F := F)) Variants.none c none) E (cc7__bn_matmul_kernel i arg1 harg1 arg2 harg2 arg3 harg3 arg4 harg4 arg5 harg5 arg6 harg6 arg7 harg7 arg8 harg8) K := by
  simp only [cc7__bn_matmul_kernel_eq_skeleton]; unfold cc7__bn_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7_7 _)

/-! ## The pipeline's proof data -/

/-- The proof data of pipeline 7 on core c: the arrays as the region finds them; after the body at point t each input's
    buffer at its block and the output's at out7_7 of the input blocks; the class invariant; nothing owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 (iblk7 V c 0 t) (iblk7 V c 1 t) (iblk7 V c 2 t) (iblk7 V c 3 t) (iblk7 V c 4 t) (iblk7 V c 5 t) (iblk7 V c 6 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = out7_7 (iblk7 V c 0 t) (iblk7 V c 1 t) (iblk7 V c 2 t) (iblk7 V c 3 t) (iblk7 V c 4 t) (iblk7 V c 5 t) (iblk7 V c 6 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d

/-! ## The body obligation, at a generic point -/

/-- What the body is called with at point t, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

/-- The body at any point: the inputs' memrefs hold their blocks, so the body's triple applies; the invariant and the
    core's owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel7 c Set.univ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Reg7.lean ====
/-
  Region 7's arrays against the buffers behind them: every window is alone on its array, at the full share. At the entry the buffers, whole at the
  full share at the entry valuation, yield the proof data's arrays; at the exit the arrays (the inputs as entered, the output at
  what the write-backs leave) yield the buffers at the valuation updated at the output's array.
-/
import proofs.«141748_j59863254171699_1_alg».proof.Proof.KI.Common
import proofs.«141748_j59863254171699_1_alg».proof.Proof.KI.Region7
import proofs.«141748_j59863254171699_1_alg».proof.Proof.LibRegionA
import proofs.«141748_j59863254171699_1_alg».proof.Proof.LibSharedArrays

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The valuation region 7 leaves: the entry valuation updated at the output window's array. -/
def W7' (c : Dev nD) : Valuation τ sig (Elt F) :=
  Function.update (W c) (Proc.devRef .tc main_v155) ((dat7 (Vof W) c).arrAt 7 cfg7.N)

/-- Per buffer behind some window's array, the shares of the windows on it make up the full share. -/
theorem fibres7 (c : Dev nD) (V : (b : Ref sig .tc) → Buf (Elt F) ((c : Thread nD τ).loc b)) :
    ∀ b ∈ Finset.univ.image (Pipeline.arrRef cfg7.spec),
      (bigSep (Finset.univ.filter fun w => Pipeline.arrRef cfg7.spec w = b) fun w =>
          ((((c : Thread nD τ)).loc b) ↦{(dat7 (Vof W) c).share w} V b : sProp 𝕄))
        = ((((c : Thread nD τ)).loc b) ↦{fullShare} V b : sProp 𝕄) := by
  intro b hb
  obtain ⟨w, -, rfl⟩ := Finset.mem_image.mp hb
  fin_cases w
  · exact Pipeline.fibre_single (fun _ : Unit => cfg7) (fun _ c => dat7 (Vof W) c) () c V _ 0 (by decide) rfl
  · exact Pipeline.fibre_single (fun _ : Unit => cfg7) (fun _ c => dat7 (Vof W) c) () c V _ 1 (by decide) rfl
  · exact Pipeline.fibre_single (fun _ : Unit => cfg7) (fun _ c => dat7 (Vof W) c) () c V _ 2 (by decide) rfl
  · exact Pipeline.fibre_single (fun _ : Unit => cfg7) (fun _ c => dat7 (Vof W) c) () c V _ 3 (by decide) rfl
  · exact Pipeline.fibre_single (fun _ : Unit => cfg7) (fun _ c => dat7 (Vof W) c) () c V _ 4 (by decide) rfl
  · exact Pipeline.fibre_single (fun _ : Unit => cfg7) (fun _ c => dat7 (Vof W) c) () c V _ 5 (by decide) rfl
  · exact Pipeline.fibre_single (fun _ : Unit => cfg7) (fun _ c => dat7 (Vof W) c) () c V _ 6 (by decide) rfl
  · exact Pipeline.fibre_single (fun _ : Unit => cfg7) (fun _ c => dat7 (Vof W) c) () c V _ 7 (by decide) rfl

/-- ENTRY: the buffers behind the region's arrays at the entry valuation yield the proof data's arrays. -/
theorem hsplit7 (c : Dev nD) :
    (Pipeline.arrBufs cfg7.spec c (Vof W c) : sProp 𝕄) ⊢ (dat7 (Vof W) c).arrays ((dat7 (Vof W) c).arrAt · 0) :=
  Pipeline.arrays_split_fibres (fun _ : Unit => cfg7) (fun _ c => dat7 (Vof W) c) () c arr_whole7 (Vof W c) _
    (fun w => A_eq7 (Vof W) c w) fun b hb => Entails.of_eq (fibres7 W c (Vof W c) b hb).symm

/-- What the exit valuation holds at each window's array: an input's array as entered, the output's at what the
    write-backs leave. -/
theorem arrAt7' (c : Dev nD) (w : Fin cfg7.W) :
    (dat7 (Vof W) c).arrAt w cfg7.N = Vof (W7' W) c (Pipeline.arrRef cfg7.spec w) := by
  have hin : ∀ w : Fin cfg7.W, (cfg7.win w).isOut = false →
      (dat7 (Vof W) c).arrAt w cfg7.N = W c (Proc.devRef .tc (Pipeline.arrRef cfg7.spec w)) := fun w hw =>
    ((dat7 (Vof W) c).arrAt_in w hw _).trans (A_eq7 (Vof W) c w)
  have hne : ∀ w : Fin cfg7.W, Pipeline.arrRef cfg7.spec w ≠ main_v155 →
      W7' W c (Proc.devRef .tc (Pipeline.arrRef cfg7.spec w)) = W c (Proc.devRef .tc (Pipeline.arrRef cfg7.spec w)) := fun w hw => by
    unfold W7'; exact Function.update_of_ne (StableHlo.devRef_ne_of_ne hw) _ _
  by_cases h9 : w = 7
  · subst h9
    show _ = W7' W c (Proc.devRef .tc main_v155)
    unfold W7'; rw [Function.update_self]
  · have hw : (cfg7.win w).isOut = false := by fin_cases w <;> first | rfl | exact absurd rfl h9
    have hr : Pipeline.arrRef cfg7.spec w ≠ main_v155 := by fin_cases w <;> first | decide | exact absurd rfl h9
    exact (hin w hw).trans (hne w hr).symm

/-- EXIT: the proof data's arrays after the last point yield the buffers behind them at the exit valuation. -/
theorem hjoin7 (c : Dev nD) :
    (dat7 (Vof W) c).arrays ((dat7 (Vof W) c).arrAt · cfg7.N) ⊢ (Pipeline.arrBufs cfg7.spec c (Vof (W7' W) c) : sProp 𝕄) :=
  Pipeline.arrays_join_fibres (fun _ : Unit => cfg7) (fun _ c => dat7 (Vof W) c) () c arr_whole7 (Vof (W7' W) c) _
    (arrAt7' W c) fun b hb => Entails.of_eq (fibres7 W c (Vof (W7' W) c) b hb)

/-- Off the region's arrays the exit valuation is the entry valuation. -/
theorem hrest7 (c : Dev nD) (b : Ref sig .tc) (hb : b ∉ Finset.univ.image (Pipeline.arrRef cfg7.spec)) :
    W7' W c b = W c b := by
  unfold W7'
  refine Function.update_of_ne (StableHlo.devRef_ne_of_ne fun h => hb ?_) _ _
  exact Finset.mem_image.mpr ⟨7, Finset.mem_univ _, h.symm⟩

end Cert.KernelIdeal.Hand

end
-- ==== Proof.KI.Region8.lean ====
/-
  Region 8 of @main as a pipeline — the third kernel of a layer: a block of rows normalised twice with given per-feature statistics, then the maximum with zero; windows 4 and 5 read ONE array and hold the two halves of its full share —: what its body leaves in the output window's buffer, the body's
  triple, the proof data and the body obligation, at a PARAMETER V (the buffers' contents when the region is entered), for
  any float values. The body's arithmetic stays the one named payload; nothing here opens it.
-/
import proofs.«141748_j59863254171699_1_alg».proof.Proof.Gen.KernelIdeal.Launch
import proofs.«141748_j59863254171699_1_alg».proof.Proof.Gen.KernelIdeal.Skeleton
import proofs.«141748_j59863254171699_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! An input window's current staging buffer holds its block at every point, fetched there or not (unfetched, the block
    index has not moved), for any proof data whose array is V's and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)
theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses, and what it leaves in the output window's buffer -/

abbrev r8_big : Rect S5000x128 := Rect.unit (s := S5000x128) ![0, 0] S5000x128.size inb_S5000x128_S5000x128_0_0
abbrev r8_row : Rect S1x128 := Rect.unit (s := S1x128) ![0, 0] S1x128.size inb_S1x128_S1x128_0_0

/-- The output window's staging buffer after the body, from the input windows' blocks: its one store, of the whole block. -/
def out8_9 (x0 : Vec F S5000x128 .f32) (x1 : Vec F S1x128 .f32) (x2 : Vec F S1x128 .f32) (x3 : Vec F S1x128 .f32) (x4 : Vec F S1x128 .f32) (x5 : Vec F S1x128 .f32) (x6 : Vec F S1x128 .f32) (x7 : Vec F S1x128 .f32) (x8 : Vec F S1x128 .f32) : Vec F S5000x128 .f32 :=
  View.canon [⟨r8_big, k8_pay1 (k8_pay2 (View.ld x0 r8_big) (View.ld x2 r8_row) (View.ld x1 r8_row) (View.ld x3 r8_row) (View.ld x4 r8_row) (View.ld x6 r8_row) (View.ld x5 r8_row) (View.ld x7 r8_row)) (k8_pay3 (View.ld x8 r8_row))⟩]

/-- The store covers the buffer. -/
theorem cover8_9 (p0 : Vec F S5000x128 .f32) (y : S5000x128.Idx) :
    ∃ pc ∈ ([⟨r8_big, p0⟩] : List (View.Piece (Elt F) S5000x128 .f32)), y ∈ pc.1.set :=
  View.cover_of_tiled [⟨r8_big, p0⟩] S5000x128.size (by rfl) y

/-! ## The body's triple -/

set_option maxHeartbeats 1000000 in
/-- The kernel body on whole staging memrefs, the inputs' at read contents and the output's at anything, runs to the
    continuation holding the inputs' as they were and the output's at out8_9 of the inputs'. -/
theorem sound_kernel8 (c : Dev nD) (E : Set ℕ) (i : grid8.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S5000x128 .f32) (harg10 : arg10.IsWhole)
    (x0 : Vec F S5000x128 .f32) (x1 : Vec F S1x128 .f32) (x2 : Vec F S1x128 .f32) (x3 : Vec F S1x128 .f32) (x4 : Vec F S1x128 .f32) (x5 : Vec F S1x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out8_9 x0 x1 x2 x3 x4 x5 x6 x7 x8)) -∗ K ⟨⟩))
      ⊢ wp frame (wpE (defs₀ (F := F)) Variants.none c none) E (cc8__double_bn_relu_kernel i arg1 harg1 arg2 harg2 arg3 harg3 arg4 harg4 arg5 harg5 arg6 harg6 arg7 harg7 arg8 harg8 arg9 harg9 arg10 harg10) K := by
  simp only [cc8__double_bn_relu_kernel_eq_skeleton]; unfold cc8__double_bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover8_9 _)

/-! ## The pipeline's proof data -/

/-- The proof data of pipeline 8 on core c: the arrays as the region finds them; after the body at point t each input's
    buffer at its block and the output's at out8_9 of the input blocks; the class invariant; nothing owed. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => out8_9 (iblk8 V c 0 t) (iblk8 V c 1 t) (iblk8 V c 2 t) (iblk8 V c 3 t) (iblk8 V c 4 t) (iblk8 V c 5 t) (iblk8 V c 6 t) (iblk8 V c 7 t) (iblk8 V c 8 t)
  Φ _ := Pipeline.ΦA spec8 c
  q w := match w with
    | ⟨4, _⟩ => fullShare.left
    | ⟨5, _⟩ => fullShare.right
    | _ => fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = out8_9 (iblk8 V c 0 t) (iblk8 V c 1 t) (iblk8 V c 2 t) (iblk8 V c 3 t) (iblk8 V c 4 t) (iblk8 V c 5 t) (iblk8 V c 6 t) (iblk8 V c 7 t) (iblk8 V c 8 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d

/-! ## The body obligation, at a generic point -/

/-- What the body is called with at point t, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t))

/-- The body at any point: the inputs' memrefs hold their blocks, so the body's triple applies; the invariant and the
    core's owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel8 c Set.univ _ _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) (iblk8 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Reg8.lean ====
/-
  Region 8's arrays against the buffers behind them: windows 4 and 5 read one array, each at one half of its full share;
  every other window is alone on its array at the full share. At the entry the buffers, whole at the
  full share at the entry valuation, yield the proof data's arrays; at the exit the arrays (the inputs as entered, the output at
  what the write-backs leave) yield the buffers at the valuation updated at the output's array.
-/
import proofs.«141748_j59863254171699_1_alg».proof.Proof.KI.Common
import proofs.«141748_j59863254171699_1_alg».proof.Proof.KI.Region8
import proofs.«141748_j59863254171699_1_alg».proof.Proof.LibRegionA
import proofs.«141748_j59863254171699_1_alg».proof.Proof.LibSharedArrays

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The valuation region 8 leaves: the entry valuation updated at the output window's array. -/
def W8' (c : Dev nD) : Valuation τ sig (Elt F) :=
  Function.update (W c) (Proc.devRef .tc main_v179) ((dat8 (Vof W) c).arrAt 9 cfg8.N)

/-- Per buffer behind some window's array, the shares of the windows on it make up the full share. -/
theorem fibres8 (c : Dev nD) (V : (b : Ref sig .tc) → Buf (Elt F) ((c : Thread nD τ).loc b)) :
    ∀ b ∈ Finset.univ.image (Pipeline.arrRef cfg8.spec),
      (bigSep (Finset.univ.filter fun w => Pipeline.arrRef cfg8.spec w = b) fun w =>
          ((((c : Thread nD τ)).loc b) ↦{(dat8 (Vof W) c).share w} V b : sProp 𝕄))
        = ((((c : Thread nD τ)).loc b) ↦{fullShare} V b : sProp 𝕄) := by
  intro b hb
  obtain ⟨w, -, rfl⟩ := Finset.mem_image.mp hb
  fin_cases w
  · exact Pipeline.fibre_single (fun _ : Unit => cfg8) (fun _ c => dat8 (Vof W) c) () c V _ 0 (by decide) rfl
  · exact Pipeline.fibre_single (fun _ : Unit => cfg8) (fun _ c => dat8 (Vof W) c) () c V _ 1 (by decide) rfl
  · exact Pipeline.fibre_single (fun _ : Unit => cfg8) (fun _ c => dat8 (Vof W) c) () c V _ 2 (by decide) rfl
  · exact Pipeline.fibre_single (fun _ : Unit => cfg8) (fun _ c => dat8 (Vof W) c) () c V _ 3 (by decide) rfl
  · exact Pipeline.fibre_pair (fun _ : Unit => cfg8) (fun _ c => dat8 (Vof W) c) () c V _ 4 5 (by decide) (by decide) rfl rfl
  · exact Pipeline.fibre_pair (fun _ : Unit => cfg8) (fun _ c => dat8 (Vof W) c) () c V _ 4 5 (by decide) (by decide) rfl rfl
  · exact Pipeline.fibre_single (fun _ : Unit => cfg8) (fun _ c => dat8 (Vof W) c) () c V _ 6 (by decide) rfl
  · exact Pipeline.fibre_single (fun _ : Unit => cfg8) (fun _ c => dat8 (Vof W) c) () c V _ 7 (by decide) rfl
  · exact Pipeline.fibre_single (fun _ : Unit => cfg8) (fun _ c => dat8 (Vof W) c) () c V _ 8 (by decide) rfl
  · exact Pipeline.fibre_single (fun _ : Unit => cfg8) (fun _ c => dat8 (Vof W) c) () c V _ 9 (by decide) rfl

/-- ENTRY: the buffers behind the region's arrays at the entry valuation yield the proof data's arrays. -/
theorem hsplit8 (c : Dev nD) :
    (Pipeline.arrBufs cfg8.spec c (Vof W c) : sProp 𝕄) ⊢ (dat8 (Vof W) c).arrays ((dat8 (Vof W) c).arrAt · 0) :=
  Pipeline.arrays_split_fibres (fun _ : Unit => cfg8) (fun _ c => dat8 (Vof W) c) () c arr_whole8 (Vof W c) _
    (fun w => A_eq8 (Vof W) c w) fun b hb => Entails.of_eq (fibres8 W c (Vof W c) b hb).symm

/-- What the exit valuation holds at each window's array: an input's array as entered, the output's at what the
    write-backs leave. -/
theorem arrAt8' (c : Dev nD) (w : Fin cfg8.W) :
    (dat8 (Vof W) c).arrAt w cfg8.N = Vof (W8' W) c (Pipeline.arrRef cfg8.spec w) := by
  have hin : ∀ w : Fin cfg8.W, (cfg8.win w).isOut = false →
      (dat8 (Vof W) c).arrAt w cfg8.N = W c (Proc.devRef .tc (Pipeline.arrRef cfg8.spec w)) := fun w hw =>
    ((dat8 (Vof W) c).arrAt_in w hw _).trans (A_eq8 (Vof W) c w)
  have hne : ∀ w : Fin cfg8.W, Pipeline.arrRef cfg8.spec w ≠ main_v179 →
      W8' W c (Proc.devRef .tc (Pipeline.arrRef cfg8.spec w)) = W c (Proc.devRef .tc (Pipeline.arrRef cfg8.spec w)) := fun w hw => by
    unfold W8'; exact Function.update_of_ne (StableHlo.devRef_ne_of_ne hw) _ _
  by_cases h9 : w = 9
  · subst h9
    show _ = W8' W c (Proc.devRef .tc main_v179)
    unfold W8'; rw [Function.update_self]
  · have hw : (cfg8.win w).isOut = false := by fin_cases w <;> first | rfl | exact absurd rfl h9
    have hr : Pipeline.arrRef cfg8.spec w ≠ main_v179 := by fin_cases w <;> first | decide | exact absurd rfl h9
    exact (hin w hw).trans (hne w hr).symm

/-- EXIT: the proof data's arrays after the last point yield the buffers behind them at the exit valuation. -/
theorem hjoin8 (c : Dev nD) :
    (dat8 (Vof W) c).arrays ((dat8 (Vof W) c).arrAt · cfg8.N) ⊢ (Pipeline.arrBufs cfg8.spec c (Vof (W8' W) c) : sProp 𝕄) :=
  Pipeline.arrays_join_fibres (fun _ : Unit => cfg8) (fun _ c => dat8 (Vof W) c) () c arr_whole8 (Vof (W8' W) c) _
    (arrAt8' W c) fun b hb => Entails.of_eq (fibres8 W c (Vof (W8' W) c) b hb)

/-- Off the region's arrays the exit valuation is the entry valuation. -/
theorem hrest8 (c : Dev nD) (b : Ref sig .tc) (hb : b ∉ Finset.univ.image (Pipeline.arrRef cfg8.spec)) :
    W8' W c b = W c b := by
  unfold W8'
  refine Function.update_of_ne (StableHlo.devRef_ne_of_ne fun h => hb ?_) _ _
  exact Finset.mem_image.mpr ⟨9, Finset.mem_univ _, h.symm⟩

end Cert.KernelIdeal.Hand

end
-- ==== Proof.KI.Frame.lean ====
/-
  The frame of the program: from any memory with zero counters every weakly fair execution of @main terminates, nothing
  faulting, and every argument array ends as launched — for any float values.

  @main is thirty-one items: twenty-two stretches of host operations and nine kernel regions. The contents of a core's
  unscoped buffers between two items are a fold from the launch memory (X0 … X31): a host stretch applies its operations, a
  region updates the one array it writes. Every region's record is the class-A record entered from "every unscoped buffer at
  the fold's valuation, the generator register at some state, nothing owed"; the generated conditional frame takes the nine
  records, the rest states and the fold and gives the claim.
-/
import proofs.«141748_j59863254171699_1_alg».proof.Proof.Gen.KernelIdeal.Regions
import proofs.«141748_j59863254171699_1_alg».proof.Proof.KI.RunCond
import proofs.«141748_j59863254171699_1_alg».proof.Proof.KI.Reg0
import proofs.«141748_j59863254171699_1_alg».proof.Proof.KI.Reg1
import proofs.«141748_j59863254171699_1_alg».proof.Proof.KI.Reg2
import proofs.«141748_j59863254171699_1_alg».proof.Proof.KI.Reg3
import proofs.«141748_j59863254171699_1_alg».proof.Proof.KI.Reg4
import proofs.«141748_j59863254171699_1_alg».proof.Proof.KI.Reg5
import proofs.«141748_j59863254171699_1_alg».proof.Proof.KI.Reg6
import proofs.«141748_j59863254171699_1_alg».proof.Proof.KI.Reg7
import proofs.«141748_j59863254171699_1_alg».proof.Proof.KI.Reg8

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core c's unscoped buffers at launch. -/
abbrev X0 (c : Dev nD) : Valuation τ sig (Elt F) := fun b => m (c, b)
/-- After item 0, the host stretch hostOps0. -/
abbrev X1 (c : Dev nD) : Valuation τ sig (Elt F) := StableHlo.after hostOps0 (X0 m c)
/-- After item 1, region 0: the entry valuation updated at the region's output array. -/
abbrev X2 (c : Dev nD) : Valuation τ sig (Elt F) := W0' (X1 m) c
/-- After item 2, the host stretch hostOps1. -/
abbrev X3 (c : Dev nD) : Valuation τ sig (Elt F) := StableHlo.after hostOps1 (X2 m c)
/-- After item 3, the host stretch hostOps1_1. -/
abbrev X4 (c : Dev nD) : Valuation τ sig (Elt F) := StableHlo.after hostOps1_1 (X3 m c)
/-- After item 4, the host stretch hostOps1_2. -/
abbrev X5 (c : Dev nD) : Valuation τ sig (Elt F) := StableHlo.after hostOps1_2 (X4 m c)
/-- After item 5, region 1: the entry valuation updated at the region's output array. -/
abbrev X6 (c : Dev nD) : Valuation τ sig (Elt F) := W1' (X5 m) c
/-- After item 6, the host stretch hostOps2. -/
abbrev X7 (c : Dev nD) : Valuation τ sig (Elt F) := StableHlo.after hostOps2 (X6 m c)
/-- After item 7, the host stretch hostOps2_1. -/
abbrev X8 (c : Dev nD) : Valuation τ sig (Elt F) := StableHlo.after hostOps2_1 (X7 m c)
/-- After item 8, the host stretch hostOps2_2. -/
abbrev X9 (c : Dev nD) : Valuation τ sig (Elt F) := StableHlo.after hostOps2_2 (X8 m c)
/-- After item 9, region 2: the entry valuation updated at the region's output array. -/
abbrev X10 (c : Dev nD) : Valuation τ sig (Elt F) := W2' (X9 m) c
/-- After item 10, the host stretch hostOps3. -/
abbrev X11 (c : Dev nD) : Valuation τ sig (Elt F) := StableHlo.after hostOps3 (X10 m c)
/-- After item 11, region 3: the entry valuation updated at the region's output array. -/
abbrev X12 (c : Dev nD) : Valuation τ sig (Elt F) := W3' (X11 m) c
/-- After item 12, the host stretch hostOps4. -/
abbrev X13 (c : Dev nD) : Valuation τ sig (Elt F) := StableHlo.after hostOps4 (X12 m c)
/-- After item 13, the host stretch hostOps4_1. -/
abbrev X14 (c : Dev nD) : Valuation τ sig (Elt F) := StableHlo.after hostOps4_1 (X13 m c)
/-- After item 14, the host stretch hostOps4_2. -/
abbrev X15 (c : Dev nD) : Valuation τ sig (Elt F) := StableHlo.after hostOps4_2 (X14 m c)
/-- After item 15, region 4: the entry valuation updated at the region's output array. -/
abbrev X16 (c : Dev nD) : Valuation τ sig (Elt F) := W4' (X15 m) c
/-- After item 16, the host stretch hostOps5. -/
abbrev X17 (c : Dev nD) : Valuation τ sig (Elt F) := StableHlo.after hostOps5 (X16 m c)
/-- After item 17, the host stretch hostOps5_1. -/
abbrev X18 (c : Dev nD) : Valuation τ sig (Elt F) := StableHlo.after hostOps5_1 (X17 m c)
/-- After item 18, the host stretch hostOps5_2. -/
abbrev X19 (c : Dev nD) : Valuation τ sig (Elt F) := StableHlo.after hostOps5_2 (X18 m c)
/-- After item 19, region 5: the entry valuation updated at the region's output array. -/
abbrev X20 (c : Dev nD) : Valuation τ sig (Elt F) := W5' (X19 m) c
/-- After item 20, the host stretch hostOps6. -/
abbrev X21 (c : Dev nD) : Valuation τ sig (Elt F) := StableHlo.after hostOps6 (X20 m c)
/-- After item 21, region 6: the entry valuation updated at the region's output array. -/
abbrev X22 (c : Dev nD) : Valuation τ sig (Elt F) := W6' (X21 m) c
/-- After item 22, the host stretch hostOps7. -/
abbrev X23 (c : Dev nD) : Valuation τ sig (Elt F) := StableHlo.after hostOps7 (X22 m c)
/-- After item 23, the host stretch hostOps7_1. -/
abbrev X24 (c : Dev nD) : Valuation τ sig (Elt F) := StableHlo.after hostOps7_1 (X23 m c)
/-- After item 24, the host stretch hostOps7_2. -/
abbrev X25 (c : Dev nD) : Valuation τ sig (Elt F) := StableHlo.after hostOps7_2 (X24 m c)
/-- After item 25, region 7: the entry valuation updated at the region's output array. -/
abbrev X26 (c : Dev nD) : Valuation τ sig (Elt F) := W7' (X25 m) c
/-- After item 26, the host stretch hostOps8. -/
abbrev X27 (c : Dev nD) : Valuation τ sig (Elt F) := StableHlo.after hostOps8 (X26 m c)
/-- After item 27, the host stretch hostOps8_1. -/
abbrev X28 (c : Dev nD) : Valuation τ sig (Elt F) := StableHlo.after hostOps8_1 (X27 m c)
/-- After item 28, the host stretch hostOps8_2. -/
abbrev X29 (c : Dev nD) : Valuation τ sig (Elt F) := StableHlo.after hostOps8_2 (X28 m c)
/-- After item 29, region 8: the entry valuation updated at the region's output array. -/
abbrev X30 (c : Dev nD) : Valuation τ sig (Elt F) := W8' (X29 m) c
/-- After item 30, the host stretch hostOps9. -/
abbrev X31 (c : Dev nD) : Valuation τ sig (Elt F) := StableHlo.after hostOps9 (X30 m c)

/-- What the regions leave, read off the fold: the contents the generated valuations are written over. -/
def outs : Outs (F := F) := fun J r c => match J with
  | 2 => X2 m c r
  | 6 => X6 m c r
  | 10 => X10 m c r
  | 12 => X12 m c r
  | 16 => X16 m c r
  | 20 => X20 m c r
  | 22 => X22 m c r
  | 26 => X26 m c r
  | 30 => X30 m c r
  | _ => X0 m c r

/-! The generated valuations, at these contents, are the fold. -/
theorem hV1 (c : Dev nD) : V1 m c = X1 m c := rfl
theorem hV2 (c : Dev nD) : V2 m (outs m) c = X2 m c := by
  show Function.update (V1 m c) main_v21 (X2 m c main_v21) = _
  rw [hV1]
  show Function.update (X1 m c) _ (W0' (X1 m) c _) = W0' (X1 m) c
  unfold W0'; rw [Function.update_self]
theorem hV3 (c : Dev nD) : V3 m (outs m) c = X3 m c := by
  show StableHlo.after hostOps1 (V2 m (outs m) c) = _
  rw [hV2]
theorem hV4 (c : Dev nD) : V4 m (outs m) c = X4 m c := by
  show StableHlo.after hostOps1_1 (V3 m (outs m) c) = _
  rw [hV3]
theorem hV5 (c : Dev nD) : V5 m (outs m) c = X5 m c := by
  show StableHlo.after hostOps1_2 (V4 m (outs m) c) = _
  rw [hV4]
theorem hV6 (c : Dev nD) : V6 m (outs m) c = X6 m c := by
  show Function.update (V5 m (outs m) c) main_v39 (X6 m c main_v39) = _
  rw [hV5]
  show Function.update (X5 m c) _ (W1' (X5 m) c _) = W1' (X5 m) c
  unfold W1'; rw [Function.update_self]
theorem hV7 (c : Dev nD) : V7 m (outs m) c = X7 m c := by
  show StableHlo.after hostOps2 (V6 m (outs m) c) = _
  rw [hV6]
theorem hV8 (c : Dev nD) : V8 m (outs m) c = X8 m c := by
  show StableHlo.after hostOps2_1 (V7 m (outs m) c) = _
  rw [hV7]
theorem hV9 (c : Dev nD) : V9 m (outs m) c = X9 m c := by
  show StableHlo.after hostOps2_2 (V8 m (outs m) c) = _
  rw [hV8]
theorem hV10 (c : Dev nD) : V10 m (outs m) c = X10 m c := by
  show Function.update (V9 m (outs m) c) main_v63 (X10 m c main_v63) = _
  rw [hV9]
  show Function.update (X9 m c) _ (W2' (X9 m) c _) = W2' (X9 m) c
  unfold W2'; rw [Function.update_self]
theorem hV11 (c : Dev nD) : V11 m (outs m) c = X11 m c := by
  show StableHlo.after hostOps3 (V10 m (outs m) c) = _
  rw [hV10]
theorem hV12 (c : Dev nD) : V12 m (outs m) c = X12 m c := by
  show Function.update (V11 m (outs m) c) main_v79 (X12 m c main_v79) = _
  rw [hV11]
  show Function.update (X11 m c) _ (W3' (X11 m) c _) = W3' (X11 m) c
  unfold W3'; rw [Function.update_self]
theorem hV13 (c : Dev nD) : V13 m (outs m) c = X13 m c := by
  show StableHlo.after hostOps4 (V12 m (outs m) c) = _
  rw [hV12]
theorem hV14 (c : Dev nD) : V14 m (outs m) c = X14 m c := by
  show StableHlo.after hostOps4_1 (V13 m (outs m) c) = _
  rw [hV13]
theorem hV15 (c : Dev nD) : V15 m (outs m) c = X15 m c := by
  show StableHlo.after hostOps4_2 (V14 m (outs m) c) = _
  rw [hV14]
theorem hV16 (c : Dev nD) : V16 m (outs m) c = X16 m c := by
  show Function.update (V15 m (outs m) c) main_v97 (X16 m c main_v97) = _
  rw [hV15]
  show Function.update (X15 m c) _ (W4' (X15 m) c _) = W4' (X15 m) c
  unfold W4'; rw [Function.update_self]
theorem hV17 (c : Dev nD) : V17 m (outs m) c = X17 m c := by
  show StableHlo.after hostOps5 (V16 m (outs m) c) = _
  rw [hV16]
theorem hV18 (c : Dev nD) : V18 m (outs m) c = X18 m c := by
  show StableHlo.after hostOps5_1 (V17 m (outs m) c) = _
  rw [hV17]
theorem hV19 (c : Dev nD) : V19 m (outs m) c = X19 m c := by
  show StableHlo.after hostOps5_2 (V18 m (outs m) c) = _
  rw [hV18]
theorem hV20 (c : Dev nD) : V20 m (outs m) c = X20 m c := by
  show Function.update (V19 m (outs m) c) main_v121 (X20 m c main_v121) = _
  rw [hV19]
  show Function.update (X19 m c) _ (W5' (X19 m) c _) = W5' (X19 m) c
  unfold W5'; rw [Function.update_self]
theorem hV21 (c : Dev nD) : V21 m (outs m) c = X21 m c := by
  show StableHlo.after hostOps6 (V20 m (outs m) c) = _
  rw [hV20]
theorem hV22 (c : Dev nD) : V22 m (outs m) c = X22 m c := by
  show Function.update (V21 m (outs m) c) main_v137 (X22 m c main_v137) = _
  rw [hV21]
  show Function.update (X21 m c) _ (W6' (X21 m) c _) = W6' (X21 m) c
  unfold W6'; rw [Function.update_self]
theorem hV23 (c : Dev nD) : V23 m (outs m) c = X23 m c := by
  show StableHlo.after hostOps7 (V22 m (outs m) c) = _
  rw [hV22]
theorem hV24 (c : Dev nD) : V24 m (outs m) c = X24 m c := by
  show StableHlo.after hostOps7_1 (V23 m (outs m) c) = _
  rw [hV23]
theorem hV25 (c : Dev nD) : V25 m (outs m) c = X25 m c := by
  show StableHlo.after hostOps7_2 (V24 m (outs m) c) = _
  rw [hV24]
theorem hV26 (c : Dev nD) : V26 m (outs m) c = X26 m c := by
  show Function.update (V25 m (outs m) c) main_v155 (X26 m c main_v155) = _
  rw [hV25]
  show Function.update (X25 m c) _ (W7' (X25 m) c _) = W7' (X25 m) c
  unfold W7'; rw [Function.update_self]
theorem hV27 (c : Dev nD) : V27 m (outs m) c = X27 m c := by
  show StableHlo.after hostOps8 (V26 m (outs m) c) = _
  rw [hV26]
theorem hV28 (c : Dev nD) : V28 m (outs m) c = X28 m c := by
  show StableHlo.after hostOps8_1 (V27 m (outs m) c) = _
  rw [hV27]
theorem hV29 (c : Dev nD) : V29 m (outs m) c = X29 m c := by
  show StableHlo.after hostOps8_2 (V28 m (outs m) c) = _
  rw [hV28]
theorem hV30 (c : Dev nD) : V30 m (outs m) c = X30 m c := by
  show Function.update (V29 m (outs m) c) main_v179 (X30 m c main_v179) = _
  rw [hV29]
  show Function.update (X29 m c) _ (W8' (X29 m) c _) = W8' (X29 m) c
  unfold W8'; rw [Function.update_self]
theorem hV31 (c : Dev nD) : V31 m (outs m) c = X31 m c := by
  show StableHlo.after hostOps9 (V30 m (outs m) c) = _
  rw [hV30]

/-! ## The proof data family, the regions' records -/

/-- Every pipeline's proof data, each at its region's entry valuation. -/
def pdats : (p : Fin 9) → (c : Dev nD) → Dat τ (Elt F) Unit ℕ (UR sig nD τ) ℕ (cfgs p) c
  | ⟨0, _⟩ => fun c => dat0 (Vof (X1 m)) c
  | ⟨1, _⟩ => fun c => dat1 (Vof (X5 m)) c
  | ⟨2, _⟩ => fun c => dat2 (Vof (X9 m)) c
  | ⟨3, _⟩ => fun c => dat3 (Vof (X11 m)) c
  | ⟨4, _⟩ => fun c => dat4 (Vof (X15 m)) c
  | ⟨5, _⟩ => fun c => dat5 (Vof (X19 m)) c
  | ⟨6, _⟩ => fun c => dat6 (Vof (X21 m)) c
  | ⟨7, _⟩ => fun c => dat7 (Vof (X25 m)) c
  | ⟨8, _⟩ => fun c => dat8 (Vof (X29 m)) c

/-- No core owes another anything: no level is assigned. -/
abbrev L₀ : GSem nD τ sig → Finset Unit := fun _ => ∅
abbrev lv₀ : GSem nD τ sig → Unit → ℕ := fun _ _ => 0

/-- No pipeline has a prefetched table. -/
theorem hpref (p : Fin 9) (c : Dev nD) :
    (BI.emp : sProp 𝕄) ⊢ Pipeline.prefHeld (pcfgs (F := F) p).pre c (fun _ => fullShare) (adm (F := F) p).1 := by
  unfold Pipeline.prefHeld
  rw [show (Finset.univ : Finset (Fin 0)) = ∅ from rfl, BI.bigSep_empty]

-- the records' fields are stated over the pinned configuration, which unifies with the printed one only when unification may
-- unfold plain definitions in a metavariable's type
set_option backward.isDefEq.respectTransparency.types false

/-- Region 0: entered from every unscoped buffer at X1, left at X2. -/
def reg0 : Pipeline.RegionSeg (pcfgs (F := F)) adm (pdats m) () defs₀ Variants.none L₀ lv₀ 0 :=
  Pipeline.regionA (pcfgs (F := F)) adm (pdats m) defs₀ Variants.none L₀ lv₀ 0 launch0.win.to₀ launch0.block_pos launch0.stage_whole
    (fun c => (body_obligation0 (Vof (X1 m)) c).loose) (fun _ _ => rfl) (fun _ => rfl) (fun _ _ => rfl) (hpref 0)
    (X1 m) (X2 m) (hsplit0 (X1 m)) (hjoin0 (X1 m)) (hrest0 (X1 m))

/-- Region 1: entered from every unscoped buffer at X5, left at X6. -/
def reg1 : Pipeline.RegionSeg (pcfgs (F := F)) adm (pdats m) () defs₀ Variants.none L₀ lv₀ 1 :=
  Pipeline.regionA (pcfgs (F := F)) adm (pdats m) defs₀ Variants.none L₀ lv₀ 1 launch1.win.to₀ launch1.block_pos launch1.stage_whole
    (fun c => (body_obligation1 (Vof (X5 m)) c).loose) (fun _ _ => rfl) (fun _ => rfl) (fun _ _ => rfl) (hpref 1)
    (X5 m) (X6 m) (hsplit1 (X5 m)) (hjoin1 (X5 m)) (hrest1 (X5 m))

/-- Region 2: entered from every unscoped buffer at X9, left at X10. -/
def reg2 : Pipeline.RegionSeg (pcfgs (F := F)) adm (pdats m) () defs₀ Variants.none L₀ lv₀ 2 :=
  Pipeline.regionA (pcfgs (F := F)) adm (pdats m) defs₀ Variants.none L₀ lv₀ 2 winFacts₀2 block_pos2 stage_whole2
    (fun c => (body_obligation2 (Vof (X9 m)) c).loose) (fun _ _ => rfl) (fun _ => rfl) (fun _ _ => rfl) (hpref 2)
    (X9 m) (X10 m) (hsplit2 (X9 m)) (hjoin2 (X9 m)) (hrest2 (X9 m))

/-- Region 3: entered from every unscoped buffer at X11, left at X12. -/
def reg3 : Pipeline.RegionSeg (pcfgs (F := F)) adm (pdats m) () defs₀ Variants.none L₀ lv₀ 3 :=
  Pipeline.regionA (pcfgs (F := F)) adm (pdats m) defs₀ Variants.none L₀ lv₀ 3 launch3.win.to₀ launch3.block_pos launch3.stage_whole
    (fun c => (body_obligation3 (Vof (X11 m)) c).loose) (fun _ _ => rfl) (fun _ => rfl) (fun _ _ => rfl) (hpref 3)
    (X11 m) (X12 m) (hsplit3 (X11 m)) (hjoin3 (X11 m)) (hrest3 (X11 m))

/-- Region 4: entered from every unscoped buffer at X15, left at X16. -/
def reg4 : Pipeline.RegionSeg (pcfgs (F := F)) adm (pdats m) () defs₀ Variants.none L₀ lv₀ 4 :=
  Pipeline.regionA (pcfgs (F := F)) adm (pdats m) defs₀ Variants.none L₀ lv₀ 4 launch4.win.to₀ launch4.block_pos launch4.stage_whole
    (fun c => (body_obligation4 (Vof (X15 m)) c).loose) (fun _ _ => rfl) (fun _ => rfl) (fun _ _ => rfl) (hpref 4)
    (X15 m) (X16 m) (hsplit4 (X15 m)) (hjoin4 (X15 m)) (hrest4 (X15 m))

/-- Region 5: entered from every unscoped buffer at X19, left at X20. -/
def reg5 : Pipeline.RegionSeg (pcfgs (F := F)) adm (pdats m) () defs₀ Variants.none L₀ lv₀ 5 :=
  Pipeline.regionA (pcfgs (F := F)) adm (pdats m) defs₀ Variants.none L₀ lv₀ 5 winFacts₀5 block_pos5 stage_whole5
    (fun c => (body_obligation5 (Vof (X19 m)) c).loose) (fun _ _ => rfl) (fun _ => rfl) (fun _ _ => rfl) (hpref 5)
    (X19 m) (X20 m) (hsplit5 (X19 m)) (hjoin5 (X19 m)) (hrest5 (X19 m))

/-- Region 6: entered from every unscoped buffer at X21, left at X22. -/
def reg6 : Pipeline.RegionSeg (pcfgs (F := F)) adm (pdats m) () defs₀ Variants.none L₀ lv₀ 6 :=
  Pipeline.regionA (pcfgs (F := F)) adm (pdats m) defs₀ Variants.none L₀ lv₀ 6 launch6.win.to₀ launch6.block_pos launch6.stage_whole
    (fun c => (body_obligation6 (Vof (X21 m)) c).loose) (fun _ _ => rfl) (fun _ => rfl) (fun _ _ => rfl) (hpref 6)
    (X21 m) (X22 m) (hsplit6 (X21 m)) (hjoin6 (X21 m)) (hrest6 (X21 m))

/-- Region 7: entered from every unscoped buffer at X25, left at X26. -/
def reg7 : Pipeline.RegionSeg (pcfgs (F := F)) adm (pdats m) () defs₀ Variants.none L₀ lv₀ 7 :=
  Pipeline.regionA (pcfgs (F := F)) adm (pdats m) defs₀ Variants.none L₀ lv₀ 7 launch7.win.to₀ launch7.block_pos launch7.stage_whole
    (fun c => (body_obligation7 (Vof (X25 m)) c).loose) (fun _ _ => rfl) (fun _ => rfl) (fun _ _ => rfl) (hpref 7)
    (X25 m) (X26 m) (hsplit7 (X25 m)) (hjoin7 (X25 m)) (hrest7 (X25 m))

/-- Region 8: entered from every unscoped buffer at X29, left at X30. -/
def reg8 : Pipeline.RegionSeg (pcfgs (F := F)) adm (pdats m) () defs₀ Variants.none L₀ lv₀ 8 :=
  Pipeline.regionA (pcfgs (F := F)) adm (pdats m) defs₀ Variants.none L₀ lv₀ 8 winFacts₀8 block_pos8 stage_whole8
    (fun c => (body_obligation8 (Vof (X29 m)) c).loose) (fun _ _ => rfl) (fun _ => rfl) (fun _ _ => rfl) (hpref 8)
    (X29 m) (X30 m) (hsplit8 (X29 m)) (hjoin8 (X29 m)) (hrest8 (X29 m))

/-! ## The frame -/

/-- THE FRAME, at any float values. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_cond m emb₁ () Variants.none L₀ lv₀ (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Pipeline.rideA c)
    (hE0 := by
      refine Pipeline.initEach L₀ lv₀ fun c => ?_
      iintro ⟨⟨-, HO, -, Hp, -⟩, -⟩
      imodintro
      isplitl [Hp]; · iexists _; iexact Hp
      iexists ∅; iexact HO)
    (hE9 := fun c => by iintro ⟨-, HO⟩; iexact HO)
    (reg0 m) (fun c => by rw [hV1]; exact .rfl) (fun c => by rw [hV2]; exact .rfl)
    (reg1 m) (fun c => by rw [hV5]; exact .rfl) (fun c => by rw [hV6]; exact .rfl)
    (reg2 m) (fun c => by rw [hV9]; exact .rfl) (fun c => by rw [hV10]; exact .rfl)
    (reg3 m) (fun c => by rw [hV11]; exact .rfl) (fun c => by rw [hV12]; exact .rfl)
    (reg4 m) (fun c => by rw [hV15]; exact .rfl) (fun c => by rw [hV16]; exact .rfl)
    (reg5 m) (fun c => by rw [hV19]; exact .rfl) (fun c => by rw [hV20]; exact .rfl)
    (reg6 m) (fun c => by rw [hV21]; exact .rfl) (fun c => by rw [hV22]; exact .rfl)
    (reg7 m) (fun c => by rw [hV25]; exact .rfl) (fun c => by rw [hV26]; exact .rfl)
    (reg8 m) (fun c => by rw [hV29]; exact .rfl) (fun c => by rw [hV30]; exact .rfl)

/-- THE RUN WITH VALUES: every unscoped buffer of every core ends at the fold's last valuation X31. -/
theorem run (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = X31 m c b) :=
  (θ_run defs _ _).mono (fun r h c b hb => (h c b hb).trans (congrFun (hV31 m c) b))
  (run_cond m emb₁ () Variants.none L₀ lv₀ (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Pipeline.rideA c)
    (hE0 := by
      refine Pipeline.initEach L₀ lv₀ fun c => ?_
      iintro ⟨⟨-, HO, -, Hp, -⟩, -⟩
      imodintro
      isplitl [Hp]; · iexists _; iexact Hp
      iexists ∅; iexact HO)
    (hE9 := fun c => by iintro ⟨-, HO⟩; iexact HO)
    (reg0 m) (fun c => by rw [hV1]; exact .rfl) (fun c => by rw [hV2]; exact .rfl)
    (reg1 m) (fun c => by rw [hV5]; exact .rfl) (fun c => by rw [hV6]; exact .rfl)
    (reg2 m) (fun c => by rw [hV9]; exact .rfl) (fun c => by rw [hV10]; exact .rfl)
    (reg3 m) (fun c => by rw [hV11]; exact .rfl) (fun c => by rw [hV12]; exact .rfl)
    (reg4 m) (fun c => by rw [hV15]; exact .rfl) (fun c => by rw [hV16]; exact .rfl)
    (reg5 m) (fun c => by rw [hV19]; exact .rfl) (fun c => by rw [hV20]; exact .rfl)
    (reg6 m) (fun c => by rw [hV21]; exact .rfl) (fun c => by rw [hV22]; exact .rfl)
    (reg7 m) (fun c => by rw [hV25]; exact .rfl) (fun c => by rw [hV26]; exact .rfl)
    (reg8 m) (fun c => by rw [hV29]; exact .rfl) (fun c => by rw [hV30]; exact .rfl))

end Cert.KernelIdeal.Hand

end
-- ==== Proof.RF.Run.lean ====
/-
  The reference's run. Its @main is a straight line of host operations, printed in 6 windows, with three outlined functions
  (the batch variance of a column, a selection, the rectifier) called from it; unfolded at their calls it is 546 operations.
  On a signature that scopes nothing such a line runs to the end from any memory, every buffer ending at the fold of the
  operations' results over its launch contents; no operation writes an argument, so the arguments end as launched.
-/
import proofs.«141748_j59863254171699_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Statements of window 0 of @main, the outlined functions' bodies at their calls: 81 operations. -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v13 main_arg0 main_v14 (addf : (⟨S100000x128, .f32⟩ : BufTy).Contents (Elt F) → (⟨S100000x128, .f32⟩ : BufTy).Contents (Elt F) → (⟨S100000x128, .f32⟩ : BufTy).Contents (Elt F)),
    StableHlo.unary main_arg4 main_v15 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v15 main_v16 rfl shapeCasts_S1x128x128_S128x128,
    StableHlo.binary main_v14 main_v16 main_v17 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v18 ((extractStridedSlice S1x128 ![0, 0] · slices_S3x128_S1x128_0_0) : (⟨S3x128, .f32⟩ : BufTy).Contents (Elt F) → (⟨S1x128, .f32⟩ : BufTy).Contents (Elt F)),
    StableHlo.reshape main_v18 main_v19 rfl shapeCasts_S1x128_S128,
    StableHlo.unary main_v19 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S100000x128 ![0, 1] bcast_S1x128_S100000x128_0_1 : (⟨S1x128, .f32⟩ : BufTy).Contents (Elt F) → (⟨S100000x128, .f32⟩ : BufTy).Contents (Elt F)),
    StableHlo.binary main_v17 main_v21 main_v22 (addf : (⟨S100000x128, .f32⟩ : BufTy).Contents (Elt F) → (⟨S100000x128, .f32⟩ : BufTy).Contents (Elt F) → (⟨S100000x128, .f32⟩ : BufTy).Contents (Elt F)),
    StableHlo.unary main_arg6 main_v23 ((extractStridedSlice S1x128 ![0, 0] · slices_S3x128_S1x128_0_0) : (⟨S3x128, .f32⟩ : BufTy).Contents (Elt F) → (⟨S1x128, .f32⟩ : BufTy).Contents (Elt F)),
    StableHlo.reshape main_v23 main_v24 rfl shapeCasts_S1x128_S128,
    StableHlo.unary main_arg7 main_v25 ((extractStridedSlice S1x128 ![0, 0] · slices_S3x128_S1x128_0_0) : (⟨S3x128, .f32⟩ : BufTy).Contents (Elt F) → (⟨S1x128, .f32⟩ : BufTy).Contents (Elt F)),
    StableHlo.reshape main_v25 main_v26 rfl shapeCasts_S1x128_S128,
    StableHlo.nullary main_cst_1 (constant S_ .f32 0x00000000#32),
    StableHlo.binary main_v22 main_cst_1 main_v27 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v28 (broadcastInDim S128 ![] bcast_S_S128 : (⟨S_, .f32⟩ : BufTy).Contents (Elt F) → (⟨S128, .f32⟩ : BufTy).Contents (Elt F)),
    StableHlo.binary main_v27 main_v28 main_v29 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (.of main_v22) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v22) main_call0.v4 main_call0.v5 subf,
    StableHlo.TRef.binary main_call0.v5 main_call0.v5 main_call0.v6 mulf,
    StableHlo.TRef.unary (.of main_c_3) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v29 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S100000x128 ![0, 1] bcast_S1x128_S100000x128_0_1 : (⟨S1x128, .f32⟩ : BufTy).Contents (Elt F) → (⟨S100000x128, .f32⟩ : BufTy).Contents (Elt F)),
    StableHlo.binary main_v22 main_v32 main_v33 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v34 (broadcastInDim S128 ![] bcast_S_S128 : (⟨S_, .f32⟩ : BufTy).Contents (Elt F) → (⟨S128, .f32⟩ : BufTy).Contents (Elt F)),
    StableHlo.binary main_v30 main_v34 main_v35 (addf : (⟨S128, .f32⟩ : BufTy).Contents (Elt F) → (⟨S128, .f32⟩ : BufTy).Contents (Elt F) → (⟨S128, .f32⟩ : BufTy).Contents (Elt F)),
    StableHlo.unary main_v35 main_v36 (Host.rsqrt : (⟨S128, .f32⟩ : BufTy).Contents (Elt F) → (⟨S128, .f32⟩ : BufTy).Contents (Elt F)),
    StableHlo.unary main_v36 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v33 main_v38 main_v39 (mulf : (⟨S100000x128, .f32⟩ : BufTy).Contents (Elt F) → (⟨S100000x128, .f32⟩ : BufTy).Contents (Elt F) → (⟨S100000x128, .f32⟩ : BufTy).Contents (Elt F)),
    StableHlo.unary main_v24 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v41 main_v42 (mulf : (⟨S100000x128, .f32⟩ : BufTy).Contents (Elt F) → (⟨S100000x128, .f32⟩ : BufTy).Contents (Elt F) → (⟨S100000x128, .f32⟩ : BufTy).Contents (Elt F)),
    StableHlo.unary main_v26 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S100000x128 ![0, 1] bcast_S1x128_S100000x128_0_1 : (⟨S1x128, .f32⟩ : BufTy).Contents (Elt F) → (⟨S100000x128, .f32⟩ : BufTy).Contents (Elt F)),
    StableHlo.binary main_v42 main_v44 main_v45 (addf : (⟨S100000x128, .f32⟩ : BufTy).Contents (Elt F) → (⟨S100000x128, .f32⟩ : BufTy).Contents (Elt F) → (⟨S100000x128, .f32⟩ : BufTy).Contents (Elt F)),
    StableHlo.unary main_arg8 main_v46 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v46 main_v47 rfl shapeCasts_S1x128x128_S128x128,
    StableHlo.binary main_v45 main_v47 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v49 ((extractStridedSlice S1x128 ![0, 0] · slices_S3x128_S1x128_0_0) : (⟨S3x128, .f32⟩ : BufTy).Contents (Elt F) → (⟨S1x128, .f32⟩ : BufTy).Contents (Elt F)),
    StableHlo.reshape main_v49 main_v50 rfl shapeCasts_S1x128_S128,
    StableHlo.unary main_v50 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S100000x128 ![0, 1] bcast_S1x128_S100000x128_0_1 : (⟨S1x128, .f32⟩ : BufTy).Contents (Elt F) → (⟨S100000x128, .f32⟩ : BufTy).Contents (Elt F)) ]
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub ..⟩
theorem ops0_fresh : (ops0 : List (HloOp τ sig (Elt F))).Forall fun op => op.fresh = ∅ := by
  simp only [List.Forall]; repeat' constructor
/-- The references window 0's operations write. -/
abbrev ops0_W : List (Ref sig .tc) := [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_v22, main_v23, main_v24, main_v25, main_v26, main_cst_1, main_v27, main_cst_2, main_v28, main_v29, main_c_3, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v30, main_v31, main_v32, main_v33, main_cst_4, main_v34, main_v35, main_v36, main_v37, main_v38, main_v39, main_v40, main_v41, main_v42, main_v43, main_v44, main_v45, main_v46, main_v47, main_v48, main_v49, main_v50, main_v51, main_v52]
theorem ops0_writes : (ops0 : List (HloOp τ sig (Elt F))).Forall fun op => op.writes ⊆ (ops0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
set_option maxRecDepth 16384 in
set_option maxHeartbeats 4000000 in
/-- Window 0 is that straight line: the functions' definitions unfolded at their calls, sequencing reassociated. -/
theorem part0_eq (c : Dev nD) : main_part0 (F := F) c = seq ops0 := by
  simp only [main_part0, fn_var.body, fn_where.body, fn_relu.body, seq, bind_assoc, pure_bind]
  rfl

/-- Statements of window 1 of @main, the outlined functions' bodies at their calls: 104 operations. -/
abbrev ops1 : List (HloOp τ sig (Elt F)) :=
  [ StableHlo.binary main_v48 main_v52 main_v53 (addf : (⟨S100000x128, .f32⟩ : BufTy).Contents (Elt F) → (⟨S100000x128, .f32⟩ : BufTy).Contents (Elt F) → (⟨S100000x128, .f32⟩ : BufTy).Contents (Elt F)),
    StableHlo.unary main_arg10 main_v54 ((extractStridedSlice S1x128 ![0, 0] · slices_S3x128_S1x128_0_0) : (⟨S3x128, .f32⟩ : BufTy).Contents (Elt F) → (⟨S1x128, .f32⟩ : BufTy).Contents (Elt F)),
    StableHlo.reshape main_v54 main_v55 rfl shapeCasts_S1x128_S128,
    StableHlo.unary main_arg11 main_v56 ((extractStridedSlice S1x128 ![0, 0] · slices_S3x128_S1x128_0_0) : (⟨S3x128, .f32⟩ : BufTy).Contents (Elt F) → (⟨S1x128, .f32⟩ : BufTy).Contents (Elt F)),
    StableHlo.reshape main_v56 main_v57 rfl shapeCasts_S1x128_S128,
    StableHlo.nullary main_cst_5 (constant S_ .f32 0x00000000#32),
    StableHlo.binary main_v53 main_cst_5 main_v58 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_6 (constant S_ .f32 0x47C35000#32),
    StableHlo.unary main_cst_6 main_v59 (broadcastInDim S128 ![] bcast_S_S128 : (⟨S_, .f32⟩ : BufTy).Contents (Elt F) → (⟨S128, .f32⟩ : BufTy).Contents (Elt F)),
    StableHlo.binary main_v58 main_v59 main_v60 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call1.cst (constant S_ .f32 0x00000000#32),
    StableHlo.TRef.binary (.of main_v53) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v53) main_call1.v4 main_call1.v5 subf,
    StableHlo.TRef.binary main_call1.v5 main_call1.v5 main_call1.v6 mulf,
    StableHlo.TRef.unary (.of main_c_7) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v60 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S100000x128 ![0, 1] bcast_S1x128_S100000x128_0_1 : (⟨S1x128, .f32⟩ : BufTy).Contents (Elt F) → (⟨S100000x128, .f32⟩ : BufTy).Contents (Elt F)),
    StableHlo.binary main_v53 main_v63 main_v64 (subf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x3727C5AC#32),
    StableHlo.unary main_cst_8 main_v65 (broadcastInDim S128 ![] bcast_S_S128 : (⟨S_, .f32⟩ : BufTy).Contents (Elt F) → (⟨S128, .f32⟩ : BufTy).Contents (Elt F)),
    StableHlo.binary main_v61 main_v65 main_v66 (addf : (⟨S128, .f32⟩ : BufTy).Contents (Elt F) → (⟨S128, .f32⟩ : BufTy).Contents (Elt F) → (⟨S128, .f32⟩ : BufTy).Contents (Elt F)),
    StableHlo.unary main_v66 main_v67 (Host.rsqrt : (⟨S128, .f32⟩ : BufTy).Contents (Elt F) → (⟨S128, .f32⟩ : BufTy).Contents (Elt F)),
    StableHlo.unary main_v67 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v69 main_v70 (mulf : (⟨S100000x128, .f32⟩ : BufTy).Contents (Elt F) → (⟨S100000x128, .f32⟩ : BufTy).Contents (Elt F) → (⟨S100000x128, .f32⟩ : BufTy).Contents (Elt F)),
    StableHlo.unary main_v55 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S100000x128 ![0, 1] bcast_S1x128_S100000x128_0_1 : (⟨S1x128, .f32⟩ : BufTy).Contents (Elt F) → (⟨S100000x128, .f32⟩ : BufTy).Contents (Elt F)),
    StableHlo.binary main_v70 main_v72 main_v73 (mulf : (⟨S100000x128, .f32⟩ : BufTy).Contents (Elt F) → (⟨S100000x128, .f32⟩ : BufTy).Contents (Elt F) → (⟨S100000x128, .f32⟩ : BufTy).Contents (Elt F)),
    StableHlo.unary main_v57 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S100000x128 ![0, 1] bcast_S1x128_S100000x128_0_1 : (⟨S1x128, .f32⟩ : BufTy).Contents (Elt F) → (⟨S100000x128, .f32⟩ : BufTy).Contents (Elt F)),
    StableHlo.binary main_v73 main_v75 main_v76 (addf : (⟨S100000x128, .f32⟩ : BufTy).Contents (Elt F) → (⟨S100000x128, .f32⟩ : BufTy).Contents (Elt F) → (⟨S100000x128, .f32⟩ : BufTy).Contents (Elt F)),
    StableHlo.unary main_arg12 main_v77 ((extractStridedSlice S1x128 ![0, 0] · slices_S3x128_S1x128_0_0) : (⟨S3x128, .f32⟩ : BufTy).Contents (Elt F) → (⟨S1x128, .f32⟩ : BufTy).Contents (Elt F)),
    StableHlo.reshape main_v77 main_v78 rfl shapeCasts_S1x128_S128,
    StableHlo.unary main_arg13 main_v79 ((extractStridedSlice S1x128 ![0, 0] · slices_S3x128_S1x128_0_0) : (⟨S3x128, .f32⟩ : BufTy).Contents (Elt F) → (⟨S1x128, .f32⟩ : BufTy).Contents (Elt F)),
    StableHlo.reshape main_v79 main_v80 rfl shapeCasts_S1x128_S128,
    StableHlo.nullary main_cst_9 (constant S_ .f32 0x00000000#32),
    StableHlo.binary main_v76 main_cst_9 main_v81 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_10 (constant S_ .f32 0x47C35000#32),
    StableHlo.unary main_cst_10 main_v82 (broadcastInDim S128 ![] bcast_S_S128 : (⟨S_, .f32⟩ : BufTy).Contents (Elt F) → (⟨S128, .f32⟩ : BufTy).Contents (Elt F)),
    StableHlo.binary main_v81 main_v82 main_v83 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary main_call2.cst (constant S_ .f32 0x00000000#32),
    StableHlo.TRef.binary (.of main_v76) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v76) main_call2.v4 main_call2.v5 subf,
    StableHlo.TRef.binary main_call2.v5 main_call2.v5 main_call2.v6 mulf,
    StableHlo.TRef.unary (.of main_c_11) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v83 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S100000x128 ![0, 1] bcast_S1x128_S100000x128_0_1 : (⟨S1x128, .f32⟩ : BufTy).Contents (Elt F) → (⟨S100000x128, .f32⟩ : BufTy).Contents (Elt F)),
    StableHlo.binary main_v76 main_v86 main_v87 (subf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x3727C5AC#32),
    StableHlo.unary main_cst_12 main_v88 (broadcastInDim S128 ![] bcast_S_S128 : (⟨S_, .f32⟩ : BufTy).Contents (Elt F) → (⟨S128, .f32⟩ : BufTy).Contents (Elt F)),
    StableHlo.binary main_v84 main_v88 main_v89 (addf : (⟨S128, .f32⟩ : BufTy).Contents (Elt F) → (⟨S128, .f32⟩ : BufTy).Contents (Elt F) → (⟨S128, .f32⟩ : BufTy).Contents (Elt F)),
    StableHlo.unary main_v89 main_v90 (Host.rsqrt : (⟨S128, .f32⟩ : BufTy).Contents (Elt F) → (⟨S128, .f32⟩ : BufTy).Contents (Elt F)),
    StableHlo.unary main_v90 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S100000x128 ![0, 1] bcast_S1x128_S100000x128_0_1 : (⟨S1x128, .f32⟩ : BufTy).Contents (Elt F) → (⟨S100000x128, .f32⟩ : BufTy).Contents (Elt F)),
    StableHlo.binary main_v87 main_v92 main_v93 (mulf : (⟨S100000x128, .f32⟩ : BufTy).Contents (Elt F) → (⟨S100000x128, .f32⟩ : BufTy).Contents (Elt F) → (⟨S100000x128, .f32⟩ : BufTy).Contents (Elt F)),
    StableHlo.unary main_v78 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S100000x128 ![0, 1] bcast_S1x128_S100000x128_0_1 : (⟨S1x128, .f32⟩ : BufTy).Contents (Elt F) → (⟨S100000x128, .f32⟩ : BufTy).Contents (Elt F)),
    StableHlo.binary main_v93 main_v95 main_v96 (mulf : (⟨S100000x128, .f32⟩ : BufTy).Contents (Elt F) → (⟨S100000x128, .f32⟩ : BufTy).Contents (Elt F) → (⟨S100000x128, .f32⟩ : BufTy).Contents (Elt F)),
    StableHlo.unary main_v80 main_v97 (broadcastInDim S1x128 ![1] bcast_S128_S1x128_1 : (⟨S128, .f32⟩ : BufTy).Contents (Elt F) → (⟨S1x128, .f32⟩ : BufTy).Contents (Elt F)),
    StableHlo.unary main_v97 main_v98 (broadcastInDim S100000x128 ![0, 1] bcast_S1x128_S100000x128_0_1 : (⟨S1x128, .f32⟩ : BufTy).Contents (Elt F) → (⟨S100000x128, .f32⟩ : BufTy).Contents (Elt F)),
    StableHlo.binary main_v96 main_v98 main_v99 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v99) main_call3.v0 main_call3.v1 maximumf,
    StableHlo.nullary main_c_13 (constantI S_ 32 0#32),
    StableHlo.unary main_c_13 main_v101 (broadcastInDim S1600000 ![] bcast_S_S1600000 : (⟨S_, .i32⟩ : BufTy).Contents (Elt F) → (⟨S1600000, .i32⟩ : BufTy).Contents (Elt F)),
    StableHlo.binary main_v1 main_v101 main_v102 (cmpi .slt : (⟨S1600000, .i32⟩ : BufTy).Contents (Elt F) → (⟨S1600000, .i32⟩ : BufTy).Contents (Elt F) → (⟨S1600000, .i1⟩ : BufTy).Contents (Elt F)),
    StableHlo.nullary main_c_14 (constantI S_ 32 100000#32) ]
theorem ops1_sub : (ops1 : List (HloOp τ sig (Elt F))).Forall fun op => op.bufs ⊆ tcRefs τ sig :=
  ⟨binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub ..⟩
theorem ops1_fresh : (ops1 : List (HloOp τ sig (Elt F))).Forall fun op => op.fresh = ∅ := by
  simp only [List.Forall]; repeat' constructor
/-- The references window 1's operations write. -/
abbrev ops1_W : List (Ref sig .tc) := [main_v53, main_v54, main_v55, main_v56, main_v57, main_cst_5, main_v58, main_cst_6, main_v59, main_v60, main_c_7, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v61, main_v62, main_v63, main_v64, main_cst_8, main_v65, main_v66, main_v67, main_v68, main_v69, main_v70, main_v71, main_v72, main_v73, main_v74, main_v75, main_v76, main_v77, main_v78, main_v79, main_v80, main_cst_9, main_v81, main_cst_10, main_v82, main_v83, main_c_11, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v84, main_v85, main_v86, main_v87, main_cst_12, main_v88, main_v89, main_v90, main_v91, main_v92, main_v93, main_v94, main_v95, main_v96, main_v97, main_v98, main_v99, main_call3_cst, main_call3_v0, main_v100, main_c_13, main_v101, main_v102, main_c_14]
theorem ops1_writes : (ops1 : List (HloOp τ sig (Elt F))).Forall fun op => op.writes ⊆ (ops1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
set_option maxRecDepth 16384 in
set_option maxHeartbeats 4000000 in
/-- Window 1 is that straight line: the functions' definitions unfolded at their calls, sequencing reassociated. -/
theorem part1_eq (c : Dev nD) : main_part1 (F := F) c = seq ops1 := by
  simp only [main_part1, fn_var.body, fn_where.body, fn_relu.body, seq, bind_assoc, pure_bind]
  rfl

/-- Statements of window 2 of @main, the outlined functions' bodies at their calls: 81 operations. -/
abbrev ops2 : List (HloOp τ sig (Elt F)) :=
  [ StableHlo.unary main_c_14 main_v103 (broadcastInDim S1600000 ![] bcast_S_S1600000 : (⟨S_, .i32⟩ : BufTy).Contents (Elt F) → (⟨S1600000, .i32⟩ : BufTy).Contents (Elt F)),
    StableHlo.binary main_v1 main_v103 main_v104 (addi : (⟨S1600000, .i32⟩ : BufTy).Contents (Elt F) → (⟨S1600000, .i32⟩ : BufTy).Contents (Elt F) → (⟨S1600000, .i32⟩ : BufTy).Contents (Elt F)),
    StableHlo.ternary main_v102 main_v104 main_v1 main_v105 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v105 main_v106 (broadcastInDim S1600000x1 ![0] bcast_S1600000_S1600000x1_0 : (⟨S1600000, .i32⟩ : BufTy).Contents (Elt F) → (⟨S1600000x1, .i32⟩ : BufTy).Contents (Elt F)),
    StableHlo.binary main_v100 main_v106 main_v107 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_15 (constant S_ .f32 0x00000000#32),
    StableHlo.unary main_cst_15 main_v108 (broadcastInDim S100000x128 ![] bcast_S_S100000x128 : (⟨S_, .f32⟩ : BufTy).Contents (Elt F) → (⟨S100000x128, .f32⟩ : BufTy).Contents (Elt F)),
    StableHlo.unary main_v3 main_v109 (broadcastInDim S1600000x1 ![0] bcast_S1600000_S1600000x1_0 : (⟨S1600000, .i32⟩ : BufTy).Contents (Elt F) → (⟨S1600000x1, .i32⟩ : BufTy).Contents (Elt F)),
    StableHlo.ternary main_v108 main_v109 main_v107 main_v110 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v110 main_v100 main_v111 (addf : (⟨S100000x128, .f32⟩ : BufTy).Contents (Elt F) → (⟨S100000x128, .f32⟩ : BufTy).Contents (Elt F) → (⟨S100000x128, .f32⟩ : BufTy).Contents (Elt F)),
    StableHlo.unary main_arg4 main_v112 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v112 main_v113 rfl shapeCasts_S1x128x128_S128x128,
    StableHlo.binary main_v111 main_v113 main_v114 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v115 ((extractStridedSlice S1x128 ![1, 0] · slices_S3x128_S1x128_1_0) : (⟨S3x128, .f32⟩ : BufTy).Contents (Elt F) → (⟨S1x128, .f32⟩ : BufTy).Contents (Elt F)),
    StableHlo.reshape main_v115 main_v116 rfl shapeCasts_S1x128_S128,
    StableHlo.unary main_v116 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S100000x128 ![0, 1] bcast_S1x128_S100000x128_0_1 : (⟨S1x128, .f32⟩ : BufTy).Contents (Elt F) → (⟨S100000x128, .f32⟩ : BufTy).Contents (Elt F)),
    StableHlo.binary main_v114 main_v118 main_v119 (addf : (⟨S100000x128, .f32⟩ : BufTy).Contents (Elt F) → (⟨S100000x128, .f32⟩ : BufTy).Contents (Elt F) → (⟨S100000x128, .f32⟩ : BufTy).Contents (Elt F)),
    StableHlo.unary main_arg6 main_v120 ((extractStridedSlice S1x128 ![1, 0] · slices_S3x128_S1x128_1_0) : (⟨S3x128, .f32⟩ : BufTy).Contents (Elt F) → (⟨S1x128, .f32⟩ : BufTy).Contents (Elt F)),
    StableHlo.reshape main_v120 main_v121 rfl shapeCasts_S1x128_S128,
    StableHlo.unary main_arg7 main_v122 ((extractStridedSlice S1x128 ![1, 0] · slices_S3x128_S1x128_1_0) : (⟨S3x128, .f32⟩ : BufTy).Contents (Elt F) → (⟨S1x128, .f32⟩ : BufTy).Contents (Elt F)),
    StableHlo.reshape main_v122 main_v123 rfl shapeCasts_S1x128_S128,
    StableHlo.nullary main_cst_16 (constant S_ .f32 0x00000000#32),
    StableHlo.binary main_v119 main_cst_16 main_v124 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_17 (constant S_ .f32 0x47C35000#32),
    StableHlo.unary main_cst_17 main_v125 (broadcastInDim S128 ![] bcast_S_S128 : (⟨S_, .f32⟩ : BufTy).Contents (Elt F) → (⟨S128, .f32⟩ : BufTy).Contents (Elt F)),
    StableHlo.binary main_v124 main_v125 main_v126 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary main_call4.cst (constant S_ .f32 0x00000000#32),
    StableHlo.TRef.binary (.of main_v119) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v119) main_call4.v4 main_call4.v5 subf,
    StableHlo.TRef.binary main_call4.v5 main_call4.v5 main_call4.v6 mulf,
    StableHlo.TRef.unary (.of main_c_18) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v126 main_v128 (broadcastInDim S1x128 ![1] bcast_S128_S1x128_1 : (⟨S128, .f32⟩ : BufTy).Contents (Elt F) → (⟨S1x128, .f32⟩ : BufTy).Contents (Elt F)),
    StableHlo.unary main_v128 main_v129 (broadcastInDim S100000x128 ![0, 1] bcast_S1x128_S100000x128_0_1 : (⟨S1x128, .f32⟩ : BufTy).Contents (Elt F) → (⟨S100000x128, .f32⟩ : BufTy).Contents (Elt F)),
    StableHlo.binary main_v119 main_v129 main_v130 (subf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x3727C5AC#32),
    StableHlo.unary main_cst_19 main_v131 (broadcastInDim S128 ![] bcast_S_S128 : (⟨S_, .f32⟩ : BufTy).Contents (Elt F) → (⟨S128, .f32⟩ : BufTy).Contents (Elt F)),
    StableHlo.binary main_v127 main_v131 main_v132 (addf : (⟨S128, .f32⟩ : BufTy).Contents (Elt F) → (⟨S128, .f32⟩ : BufTy).Contents (Elt F) → (⟨S128, .f32⟩ : BufTy).Contents (Elt F)),
    StableHlo.unary main_v132 main_v133 (Host.rsqrt : (⟨S128, .f32⟩ : BufTy).Contents (Elt F) → (⟨S128, .f32⟩ : BufTy).Contents (Elt F)),
    StableHlo.unary main_v133 main_v134 (broadcastInDim S1x128 ![1] bcast_S128_S1x128_1 : (⟨S128, .f32⟩ : BufTy).Contents (Elt F) → (⟨S1x128, .f32⟩ : BufTy).Contents (Elt F)),
    StableHlo.unary main_v134 main_v135 (broadcastInDim S100000x128 ![0, 1] bcast_S1x128_S100000x128_0_1 : (⟨S1x128, .f32⟩ : BufTy).Contents (Elt F) → (⟨S100000x128, .f32⟩ : BufTy).Contents (Elt F)),
    StableHlo.binary main_v130 main_v135 main_v136 (mulf : (⟨S100000x128, .f32⟩ : BufTy).Contents (Elt F) → (⟨S100000x128, .f32⟩ : BufTy).Contents (Elt F) → (⟨S100000x128, .f32⟩ : BufTy).Contents (Elt F)),
    StableHlo.unary main_v121 main_v137 (broadcastInDim S1x128 ![1] bcast_S128_S1x128_1 : (⟨S128, .f32⟩ : BufTy).Contents (Elt F) → (⟨S1x128, .f32⟩ : BufTy).Contents (Elt F)),
    StableHlo.unary main_v137 main_v138 (broadcastInDim S100000x128 ![0, 1] bcast_S1x128_S100000x128_0_1 : (⟨S1x128, .f32⟩ : BufTy).Contents (Elt F) → (⟨S100000x128, .f32⟩ : BufTy).Contents (Elt F)),
    StableHlo.binary main_v136 main_v138 main_v139 (mulf : (⟨S100000x128, .f32⟩ : BufTy).Contents (Elt F) → (⟨S100000x128, .f32⟩ : BufTy).Contents (Elt F) → (⟨S100000x128, .f32⟩ : BufTy).Contents (Elt F)),
    StableHlo.unary main_v123 main_v140 (broadcastInDim S1x128 ![1] bcast_S128_S1x128_1 : (⟨S128, .f32⟩ : BufTy).Contents (Elt F) → (⟨S1x128, .f32⟩ : BufTy).Contents (Elt F)),
    StableHlo.unary main_v140 main_v141 (broadcastInDim S100000x128 ![0, 1] bcast_S1x128_S100000x128_0_1 : (⟨S1x128, .f32⟩ : BufTy).Contents (Elt F) → (⟨S100000x128, .f32⟩ : BufTy).Contents (Elt F)),
    StableHlo.binary main_v139 main_v141 main_v142 (addf : (⟨S100000x128, .f32⟩ : BufTy).Contents (Elt F) → (⟨S100000x128, .f32⟩ : BufTy).Contents (Elt F) → (⟨S100000x128, .f32⟩ : BufTy).Contents (Elt F)),
    StableHlo.unary main_arg8 main_v143 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v143 main_v144 rfl shapeCasts_S1x128x128_S128x128,
    StableHlo.binary main_v142 main_v144 main_v145 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v146 ((extractStridedSlice S1x128 ![1, 0] · slices_S3x128_S1x128_1_0) : (⟨S3x128, .f32⟩ : BufTy).Contents (Elt F) → (⟨S1x128, .f32⟩ : BufTy).Contents (Elt F)),
    StableHlo.reshape main_v146 main_v147 rfl shapeCasts_S1x128_S128,
    StableHlo.unary main_v147 main_v148 (broadcastInDim S1x128 ![1] bcast_S128_S1x128_1 : (⟨S128, .f32⟩ : BufTy).Contents (Elt F) → (⟨S1x128, .f32⟩ : BufTy).Contents (Elt F)),
    StableHlo.unary main_v148 main_v149 (broadcastInDim S100000x128 ![0, 1] bcast_S1x128_S100000x128_0_1 : (⟨S1x128, .f32⟩ : BufTy).Contents (Elt F) → (⟨S100000x128, .f32⟩ : BufTy).Contents (Elt F)),
    StableHlo.binary main_v145 main_v149 main_v150 (addf : (⟨S100000x128, .f32⟩ : BufTy).Contents (Elt F) → (⟨S100000x128, .f32⟩ : BufTy).Contents (Elt F) → (⟨S100000x128, .f32⟩ : BufTy).Contents (Elt F)),
    StableHlo.unary main_arg10 main_v151 ((extractStridedSlice S1x128 ![1, 0] · slices_S3x128_S1x128_1_0) : (⟨S3x128, .f32⟩ : BufTy).Contents (Elt F) → (⟨S1x128, .f32⟩ : BufTy).Contents (Elt F)),
    StableHlo.reshape main_v151 main_v152 rfl shapeCasts_S1x128_S128,
    StableHlo.unary main_arg11 main_v153 ((extractStridedSlice S1x128 ![1, 0] · slices_S3x128_S1x128_1_0) : (⟨S3x128, .f32⟩ : BufTy).Contents (Elt F) → (⟨S1x128, .f32⟩ : BufTy).Contents (Elt F)),
    StableHlo.reshape main_v153 main_v154 rfl shapeCasts_S1x128_S128,
    StableHlo.nullary main_cst_20 (constant S_ .f32 0x00000000#32),
    StableHlo.binary main_v150 main_cst_20 main_v155 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_21 (constant S_ .f32 0x47C35000#32) ]
theorem ops2_sub : (ops2 : List (HloOp τ sig (Elt F))).Forall fun op => op.bufs ⊆ tcRefs τ sig :=
  ⟨unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub ..⟩
theorem ops2_fresh : (ops2 : List (HloOp τ sig (Elt F))).Forall fun op => op.fresh = ∅ := by
  simp only [List.Forall]; repeat' constructor
/-- The references window 2's operations write. -/
abbrev ops2_W : List (Ref sig .tc) := [main_v103, main_v104, main_v105, main_v106, main_v107, main_cst_15, main_v108, main_v109, main_v110, main_v111, main_v112, main_v113, main_v114, main_v115, main_v116, main_v117, main_v118, main_v119, main_v120, main_v121, main_v122, main_v123, main_cst_16, main_v124, main_cst_17, main_v125, main_v126, main_c_18, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v127, main_v128, main_v129, main_v130, main_cst_19, main_v131, main_v132, main_v133, main_v134, main_v135, main_v136, main_v137, main_v138, main_v139, main_v140, main_v141, main_v142, main_v143, main_v144, main_v145, main_v146, main_v147, main_v148, main_v149, main_v150, main_v151, main_v152, main_v153, main_v154, main_cst_20, main_v155, main_cst_21]
theorem ops2_writes : (ops2 : List (HloOp τ sig (Elt F))).Forall fun op => op.writes ⊆ (ops2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
set_option maxRecDepth 16384 in
set_option maxHeartbeats 4000000 in
/-- Window 2 is that straight line: the functions' definitions unfolded at their calls, sequencing reassociated. -/
theorem part2_eq (c : Dev nD) : main_part2 (F := F) c = seq ops2 := by
  simp only [main_part2, fn_var.body, fn_where.body, fn_relu.body, seq, bind_assoc, pure_bind]
  rfl

/-- Statements of window 3 of @main, the outlined functions' bodies at their calls: 104 operations. -/
abbrev ops3 : List (HloOp τ sig (Elt F)) :=
  [ StableHlo.unary main_cst_21 main_v156 (broadcastInDim S128 ![] bcast_S_S128 : (⟨S_, .f32⟩ : BufTy).Contents (Elt F) → (⟨S128, .f32⟩ : BufTy).Contents (Elt F)),
    StableHlo.binary main_v155 main_v156 main_v157 (Host.divf : (⟨S128, .f32⟩ : BufTy).Contents (Elt F) → (⟨S128, .f32⟩ : BufTy).Contents (Elt F) → (⟨S128, .f32⟩ : BufTy).Contents (Elt F)),
    StableHlo.nullary main_c_22 (constantI S_ 32 0#32),
    StableHlo.TRef.nullary main_call5.cst (constant S_ .f32 0x00000000#32),
    StableHlo.TRef.binary (.of main_v150) main_call5.cst main_call5.v0 (fun x v => Host.reduceAdd x v reducesTo_S100000x128_S128_d0 h_S_),
    StableHlo.TRef.unary main_call5.v0 main_call5.v1 (broadcastInDim S1x128 ![1] bcast_S128_S1x128_1),
    StableHlo.TRef.nullary main_call5.cst_0 (constant S_ .f32 0x47C35000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S100000x128 ![0, 1] bcast_S1x128_S100000x128_0_1),
    StableHlo.TRef.binary (.of main_v150) main_call5.v4 main_call5.v5 subf,
    StableHlo.TRef.binary main_call5.v5 main_call5.v5 main_call5.v6 mulf,
    StableHlo.TRef.unary (.of main_c_22) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v157 main_v159 (broadcastInDim S1x128 ![1] bcast_S128_S1x128_1 : (⟨S128, .f32⟩ : BufTy).Contents (Elt F) → (⟨S1x128, .f32⟩ : BufTy).Contents (Elt F)),
    StableHlo.unary main_v159 main_v160 (broadcastInDim S100000x128 ![0, 1] bcast_S1x128_S100000x128_0_1 : (⟨S1x128, .f32⟩ : BufTy).Contents (Elt F) → (⟨S100000x128, .f32⟩ : BufTy).Contents (Elt F)),
    StableHlo.binary main_v150 main_v160 main_v161 (subf : (⟨S100000x128, .f32⟩ : BufTy).Contents (Elt F) → (⟨S100000x128, .f32⟩ : BufTy).Contents (Elt F) → (⟨S100000x128, .f32⟩ : BufTy).Contents (Elt F)),
    StableHlo.nullary main_cst_23 (constant S_ .f32 0x3727C5AC#32),
    StableHlo.unary main_cst_23 main_v162 (broadcastInDim S128 ![] bcast_S_S128 : (⟨S_, .f32⟩ : BufTy).Contents (Elt F) → (⟨S128, .f32⟩ : BufTy).Contents (Elt F)),
    StableHlo.binary main_v158 main_v162 main_v163 (addf : (⟨S128, .f32⟩ : BufTy).Contents (Elt F) → (⟨S128, .f32⟩ : BufTy).Contents (Elt F) → (⟨S128, .f32⟩ : BufTy).Contents (Elt F)),
    StableHlo.unary main_v163 main_v164 (Host.rsqrt : (⟨S128, .f32⟩ : BufTy).Contents (Elt F) → (⟨S128, .f32⟩ : BufTy).Contents (Elt F)),
    StableHlo.unary main_v164 main_v165 (broadcastInDim S1x128 ![1] bcast_S128_S1x128_1 : (⟨S128, .f32⟩ : BufTy).Contents (Elt F) → (⟨S1x128, .f32⟩ : BufTy).Contents (Elt F)),
    StableHlo.unary main_v165 main_v166 (broadcastInDim S100000x128 ![0, 1] bcast_S1x128_S100000x128_0_1 : (⟨S1x128, .f32⟩ : BufTy).Contents (Elt F) → (⟨S100000x128, .f32⟩ : BufTy).Contents (Elt F)),
    StableHlo.binary main_v161 main_v166 main_v167 (mulf : (⟨S100000x128, .f32⟩ : BufTy).Contents (Elt F) → (⟨S100000x128, .f32⟩ : BufTy).Contents (Elt F) → (⟨S100000x128, .f32⟩ : BufTy).Contents (Elt F)),
    StableHlo.unary main_v152 main_v168 (broadcastInDim S1x128 ![1] bcast_S128_S1x128_1 : (⟨S128, .f32⟩ : BufTy).Contents (Elt F) → (⟨S1x128, .f32⟩ : BufTy).Contents (Elt F)),
    StableHlo.unary main_v168 main_v169 (broadcastInDim S100000x128 ![0, 1] bcast_S1x128_S100000x128_0_1 : (⟨S1x128, .f32⟩ : BufTy).Contents (Elt F) → (⟨S100000x128, .f32⟩ : BufTy).Contents (Elt F)),
    StableHlo.binary main_v167 main_v169 main_v170 (mulf : (⟨S100000x128, .f32⟩ : BufTy).Contents (Elt F) → (⟨S100000x128, .f32⟩ : BufTy).Contents (Elt F) → (⟨S100000x128, .f32⟩ : BufTy).Contents (Elt F)),
    StableHlo.unary main_v154 main_v171 (broadcastInDim S1x128 ![1] bcast_S128_S1x128_1 : (⟨S128, .f32⟩ : BufTy).Contents (Elt F) → (⟨S1x128, .f32⟩ : BufTy).Contents (Elt F)),
    StableHlo.unary main_v171 main_v172 (broadcastInDim S100000x128 ![0, 1] bcast_S1x128_S100000x128_0_1 : (⟨S1x128, .f32⟩ : BufTy).Contents (Elt F) → (⟨S100000x128, .f32⟩ : BufTy).Contents (Elt F)),
    StableHlo.binary main_v170 main_v172 main_v173 (addf : (⟨S100000x128, .f32⟩ : BufTy).Contents (Elt F) → (⟨S100000x128, .f32⟩ : BufTy).Contents (Elt F) → (⟨S100000x128, .f32⟩ : BufTy).Contents (Elt F)),
    StableHlo.unary main_arg12 main_v174 ((extractStridedSlice S1x128 ![1, 0] · slices_S3x128_S1x128_1_0) : (⟨S3x128, .f32⟩ : BufTy).Contents (Elt F) → (⟨S1x128, .f32⟩ : BufTy).Contents (Elt F)),
    StableHlo.reshape main_v174 main_v175 rfl shapeCasts_S1x128_S128,
    StableHlo.unary main_arg13 main_v176 ((extractStridedSlice S1x128 ![1, 0] · slices_S3x128_S1x128_1_0) : (⟨S3x128, .f32⟩ : BufTy).Contents (Elt F) → (⟨S1x128, .f32⟩ : BufTy).Contents (Elt F)),
    StableHlo.reshape main_v176 main_v177 rfl shapeCasts_S1x128_S128,
    StableHlo.nullary main_cst_24 (constant S_ .f32 0x00000000#32),
    StableHlo.binary main_v173 main_cst_24 main_v178 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_25 (constant S_ .f32 0x47C35000#32),
    StableHlo.unary main_cst_25 main_v179 (broadcastInDim S128 ![] bcast_S_S128 : (⟨S_, .f32⟩ : BufTy).Contents (Elt F) → (⟨S128, .f32⟩ : BufTy).Contents (Elt F)),
    StableHlo.binary main_v178 main_v179 main_v180 (Host.divf : (⟨S128, .f32⟩ : BufTy).Contents (Elt F) → (⟨S128, .f32⟩ : BufTy).Contents (Elt F) → (⟨S128, .f32⟩ : BufTy).Contents (Elt F)),
    StableHlo.nullary main_c_26 (constantI S_ 32 0#32),
    StableHlo.TRef.nullary main_call6.cst (constant S_ .f32 0x00000000#32),
    StableHlo.TRef.binary (.of main_v173) main_call6.cst main_call6.v0 (fun x v => Host.reduceAdd x v reducesTo_S100000x128_S128_d0 h_S_),
    StableHlo.TRef.unary main_call6.v0 main_call6.v1 (broadcastInDim S1x128 ![1] bcast_S128_S1x128_1),
    StableHlo.TRef.nullary main_call6.cst_0 (constant S_ .f32 0x47C35000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S100000x128 ![0, 1] bcast_S1x128_S100000x128_0_1),
    StableHlo.TRef.binary (.of main_v173) main_call6.v4 main_call6.v5 subf,
    StableHlo.TRef.binary main_call6.v5 main_call6.v5 main_call6.v6 mulf,
    StableHlo.TRef.unary (.of main_c_26) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v180 main_v182 (broadcastInDim S1x128 ![1] bcast_S128_S1x128_1 : (⟨S128, .f32⟩ : BufTy).Contents (Elt F) → (⟨S1x128, .f32⟩ : BufTy).Contents (Elt F)),
    StableHlo.unary main_v182 main_v183 (broadcastInDim S100000x128 ![0, 1] bcast_S1x128_S100000x128_0_1 : (⟨S1x128, .f32⟩ : BufTy).Contents (Elt F) → (⟨S100000x128, .f32⟩ : BufTy).Contents (Elt F)),
    StableHlo.binary main_v173 main_v183 main_v184 (subf : (⟨S100000x128, .f32⟩ : BufTy).Contents (Elt F) → (⟨S100000x128, .f32⟩ : BufTy).Contents (Elt F) → (⟨S100000x128, .f32⟩ : BufTy).Contents (Elt F)),
    StableHlo.nullary main_cst_27 (constant S_ .f32 0x3727C5AC#32),
    StableHlo.unary main_cst_27 main_v185 (broadcastInDim S128 ![] bcast_S_S128 : (⟨S_, .f32⟩ : BufTy).Contents (Elt F) → (⟨S128, .f32⟩ : BufTy).Contents (Elt F)),
    StableHlo.binary main_v181 main_v185 main_v186 (addf : (⟨S128, .f32⟩ : BufTy).Contents (Elt F) → (⟨S128, .f32⟩ : BufTy).Contents (Elt F) → (⟨S128, .f32⟩ : BufTy).Contents (Elt F)),
    StableHlo.unary main_v186 main_v187 (Host.rsqrt : (⟨S128, .f32⟩ : BufTy).Contents (Elt F) → (⟨S128, .f32⟩ : BufTy).Contents (Elt F)),
    StableHlo.unary main_v187 main_v188 (broadcastInDim S1x128 ![1] bcast_S128_S1x128_1 : (⟨S128, .f32⟩ : BufTy).Contents (Elt F) → (⟨S1x128, .f32⟩ : BufTy).Contents (Elt F)),
    StableHlo.unary main_v188 main_v189 (broadcastInDim S100000x128 ![0, 1] bcast_S1x128_S100000x128_0_1 : (⟨S1x128, .f32⟩ : BufTy).Contents (Elt F) → (⟨S100000x128, .f32⟩ : BufTy).Contents (Elt F)),
    StableHlo.binary main_v184 main_v189 main_v190 (mulf : (⟨S100000x128, .f32⟩ : BufTy).Contents (Elt F) → (⟨S100000x128, .f32⟩ : BufTy).Contents (Elt F) → (⟨S100000x128, .f32⟩ : BufTy).Contents (Elt F)),
    StableHlo.unary main_v175 main_v191 (broadcastInDim S1x128 ![1] bcast_S128_S1x128_1 : (⟨S128, .f32⟩ : BufTy).Contents (Elt F) → (⟨S1x128, .f32⟩ : BufTy).Contents (Elt F)),
    StableHlo.unary main_v191 main_v192 (broadcastInDim S100000x128 ![0, 1] bcast_S1x128_S100000x128_0_1 : (⟨S1x128, .f32⟩ : BufTy).Contents (Elt F) → (⟨S100000x128, .f32⟩ : BufTy).Contents (Elt F)),
    StableHlo.binary main_v190 main_v192 main_v193 (mulf : (⟨S100000x128, .f32⟩ : BufTy).Contents (Elt F) → (⟨S100000x128, .f32⟩ : BufTy).Contents (Elt F) → (⟨S100000x128, .f32⟩ : BufTy).Contents (Elt F)),
    StableHlo.unary main_v177 main_v194 (broadcastInDim S1x128 ![1] bcast_S128_S1x128_1 : (⟨S128, .f32⟩ : BufTy).Contents (Elt F) → (⟨S1x128, .f32⟩ : BufTy).Contents (Elt F)),
    StableHlo.unary main_v194 main_v195 (broadcastInDim S100000x128 ![0, 1] bcast_S1x128_S100000x128_0_1 : (⟨S1x128, .f32⟩ : BufTy).Contents (Elt F) → (⟨S100000x128, .f32⟩ : BufTy).Contents (Elt F)),
    StableHlo.binary main_v193 main_v195 main_v196 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (.of main_v196) main_call7.v0 main_call7.v1 maximumf,
    StableHlo.nullary main_c_28 (constantI S_ 32 0#32),
    StableHlo.unary main_c_28 main_v198 (broadcastInDim S1600000 ![] bcast_S_S1600000 : (⟨S_, .i32⟩ : BufTy).Contents (Elt F) → (⟨S1600000, .i32⟩ : BufTy).Contents (Elt F)),
    StableHlo.binary main_v1 main_v198 main_v199 (cmpi .slt : (⟨S1600000, .i32⟩ : BufTy).Contents (Elt F) → (⟨S1600000, .i32⟩ : BufTy).Contents (Elt F) → (⟨S1600000, .i1⟩ : BufTy).Contents (Elt F)),
    StableHlo.nullary main_c_29 (constantI S_ 32 100000#32),
    StableHlo.unary main_c_29 main_v200 (broadcastInDim S1600000 ![] bcast_S_S1600000 : (⟨S_, .i32⟩ : BufTy).Contents (Elt F) → (⟨S1600000, .i32⟩ : BufTy).Contents (Elt F)),
    StableHlo.binary main_v1 main_v200 main_v201 (addi : (⟨S1600000, .i32⟩ : BufTy).Contents (Elt F) → (⟨S1600000, .i32⟩ : BufTy).Contents (Elt F) → (⟨S1600000, .i32⟩ : BufTy).Contents (Elt F)),
    StableHlo.ternary main_v199 main_v201 main_v1 main_v202 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v202 main_v203 (broadcastInDim S1600000x1 ![0] bcast_S1600000_S1600000x1_0 : (⟨S1600000, .i32⟩ : BufTy).Contents (Elt F) → (⟨S1600000x1, .i32⟩ : BufTy).Contents (Elt F)),
    StableHlo.binary main_v197 main_v203 main_v204 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_30 (constant S_ .f32 0x00000000#32),
    StableHlo.unary main_cst_30 main_v205 (broadcastInDim S100000x128 ![] bcast_S_S100000x128 : (⟨S_, .f32⟩ : BufTy).Contents (Elt F) → (⟨S100000x128, .f32⟩ : BufTy).Contents (Elt F)),
    StableHlo.unary main_v3 main_v206 (broadcastInDim S1600000x1 ![0] bcast_S1600000_S1600000x1_0 : (⟨S1600000, .i32⟩ : BufTy).Contents (Elt F) → (⟨S1600000x1, .i32⟩ : BufTy).Contents (Elt F)) ]
theorem ops3_sub : (ops3 : List (HloOp τ sig (Elt F))).Forall fun op => op.bufs ⊆ tcRefs τ sig :=
  ⟨unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub ..⟩
theorem ops3_fresh : (ops3 : List (HloOp τ sig (Elt F))).Forall fun op => op.fresh = ∅ := by
  simp only [List.Forall]; repeat' constructor
/-- The references window 3's operations write. -/
abbrev ops3_W : List (Ref sig .tc) := [main_v156, main_v157, main_c_22, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v158, main_v159, main_v160, main_v161, main_cst_23, main_v162, main_v163, main_v164, main_v165, main_v166, main_v167, main_v168, main_v169, main_v170, main_v171, main_v172, main_v173, main_v174, main_v175, main_v176, main_v177, main_cst_24, main_v178, main_cst_25, main_v179, main_v180, main_c_26, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v181, main_v182, main_v183, main_v184, main_cst_27, main_v185, main_v186, main_v187, main_v188, main_v189, main_v190, main_v191, main_v192, main_v193, main_v194, main_v195, main_v196, main_call7_cst, main_call7_v0, main_v197, main_c_28, main_v198, main_v199, main_c_29, main_v200, main_v201, main_v202, main_v203, main_v204, main_cst_30, main_v205, main_v206]
theorem ops3_writes : (ops3 : List (HloOp τ sig (Elt F))).Forall fun op => op.writes ⊆ (ops3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
set_option maxRecDepth 16384 in
set_option maxHeartbeats 4000000 in
/-- Window 3 is that straight line: the functions' definitions unfolded at their calls, sequencing reassociated. -/
theorem part3_eq (c : Dev nD) : main_part3 (F := F) c = seq ops3 := by
  simp only [main_part3, fn_var.body, fn_where.body, fn_relu.body, seq, bind_assoc, pure_bind]
  rfl

/-- Statements of window 4 of @main, the outlined functions' bodies at their calls: 102 operations. -/
abbrev ops4 : List (HloOp τ sig (Elt F)) :=
  [ StableHlo.ternary main_v205 main_v206 main_v204 main_v207 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v207 main_v197 main_v208 (addf : (⟨S100000x128, .f32⟩ : BufTy).Contents (Elt F) → (⟨S100000x128, .f32⟩ : BufTy).Contents (Elt F) → (⟨S100000x128, .f32⟩ : BufTy).Contents (Elt F)),
    StableHlo.unary main_arg4 main_v209 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v209 main_v210 rfl shapeCasts_S1x128x128_S128x128,
    StableHlo.binary main_v208 main_v210 main_v211 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v212 ((extractStridedSlice S1x128 ![2, 0] · slices_S3x128_S1x128_2_0) : (⟨S3x128, .f32⟩ : BufTy).Contents (Elt F) → (⟨S1x128, .f32⟩ : BufTy).Contents (Elt F)),
    StableHlo.reshape main_v212 main_v213 rfl shapeCasts_S1x128_S128,
    StableHlo.unary main_v213 main_v214 (broadcastInDim S1x128 ![1] bcast_S128_S1x128_1 : (⟨S128, .f32⟩ : BufTy).Contents (Elt F) → (⟨S1x128, .f32⟩ : BufTy).Contents (Elt F)),
    StableHlo.unary main_v214 main_v215 (broadcastInDim S100000x128 ![0, 1] bcast_S1x128_S100000x128_0_1 : (⟨S1x128, .f32⟩ : BufTy).Contents (Elt F) → (⟨S100000x128, .f32⟩ : BufTy).Contents (Elt F)),
    StableHlo.binary main_v211 main_v215 main_v216 (addf : (⟨S100000x128, .f32⟩ : BufTy).Contents (Elt F) → (⟨S100000x128, .f32⟩ : BufTy).Contents (Elt F) → (⟨S100000x128, .f32⟩ : BufTy).Contents (Elt F)),
    StableHlo.unary main_arg6 main_v217 ((extractStridedSlice S1x128 ![2, 0] · slices_S3x128_S1x128_2_0) : (⟨S3x128, .f32⟩ : BufTy).Contents (Elt F) → (⟨S1x128, .f32⟩ : BufTy).Contents (Elt F)),
    StableHlo.reshape main_v217 main_v218 rfl shapeCasts_S1x128_S128,
    StableHlo.unary main_arg7 main_v219 ((extractStridedSlice S1x128 ![2, 0] · slices_S3x128_S1x128_2_0) : (⟨S3x128, .f32⟩ : BufTy).Contents (Elt F) → (⟨S1x128, .f32⟩ : BufTy).Contents (Elt F)),
    StableHlo.reshape main_v219 main_v220 rfl shapeCasts_S1x128_S128,
    StableHlo.nullary main_cst_31 (constant S_ .f32 0x00000000#32),
    StableHlo.binary main_v216 main_cst_31 main_v221 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_32 (constant S_ .f32 0x47C35000#32),
    StableHlo.unary main_cst_32 main_v222 (broadcastInDim S128 ![] bcast_S_S128 : (⟨S_, .f32⟩ : BufTy).Contents (Elt F) → (⟨S128, .f32⟩ : BufTy).Contents (Elt F)),
    StableHlo.binary main_v221 main_v222 main_v223 (Host.divf : (⟨S128, .f32⟩ : BufTy).Contents (Elt F) → (⟨S128, .f32⟩ : BufTy).Contents (Elt F) → (⟨S128, .f32⟩ : BufTy).Contents (Elt F)),
    StableHlo.nullary main_c_33 (constantI S_ 32 0#32),
    StableHlo.TRef.nullary main_call8.cst (constant S_ .f32 0x00000000#32),
    StableHlo.TRef.binary (.of main_v216) main_call8.cst main_call8.v0 (fun x v => Host.reduceAdd x v reducesTo_S100000x128_S128_d0 h_S_),
    StableHlo.TRef.unary main_call8.v0 main_call8.v1 (broadcastInDim S1x128 ![1] bcast_S128_S1x128_1),
    StableHlo.TRef.nullary main_call8.cst_0 (constant S_ .f32 0x47C35000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S100000x128 ![0, 1] bcast_S1x128_S100000x128_0_1),
    StableHlo.TRef.binary (.of main_v216) main_call8.v4 main_call8.v5 subf,
    StableHlo.TRef.binary main_call8.v5 main_call8.v5 main_call8.v6 mulf,
    StableHlo.TRef.unary (.of main_c_33) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v223 main_v225 (broadcastInDim S1x128 ![1] bcast_S128_S1x128_1 : (⟨S128, .f32⟩ : BufTy).Contents (Elt F) → (⟨S1x128, .f32⟩ : BufTy).Contents (Elt F)),
    StableHlo.unary main_v225 main_v226 (broadcastInDim S100000x128 ![0, 1] bcast_S1x128_S100000x128_0_1 : (⟨S1x128, .f32⟩ : BufTy).Contents (Elt F) → (⟨S100000x128, .f32⟩ : BufTy).Contents (Elt F)),
    StableHlo.binary main_v216 main_v226 main_v227 (subf : (⟨S100000x128, .f32⟩ : BufTy).Contents (Elt F) → (⟨S100000x128, .f32⟩ : BufTy).Contents (Elt F) → (⟨S100000x128, .f32⟩ : BufTy).Contents (Elt F)),
    StableHlo.nullary main_cst_34 (constant S_ .f32 0x3727C5AC#32),
    StableHlo.unary main_cst_34 main_v228 (broadcastInDim S128 ![] bcast_S_S128 : (⟨S_, .f32⟩ : BufTy).Contents (Elt F) → (⟨S128, .f32⟩ : BufTy).Contents (Elt F)),
    StableHlo.binary main_v224 main_v228 main_v229 (addf : (⟨S128, .f32⟩ : BufTy).Contents (Elt F) → (⟨S128, .f32⟩ : BufTy).Contents (Elt F) → (⟨S128, .f32⟩ : BufTy).Contents (Elt F)),
    StableHlo.unary main_v229 main_v230 (Host.rsqrt : (⟨S128, .f32⟩ : BufTy).Contents (Elt F) → (⟨S128, .f32⟩ : BufTy).Contents (Elt F)),
    StableHlo.unary main_v230 main_v231 (broadcastInDim S1x128 ![1] bcast_S128_S1x128_1 : (⟨S128, .f32⟩ : BufTy).Contents (Elt F) → (⟨S1x128, .f32⟩ : BufTy).Contents (Elt F)),
    StableHlo.unary main_v231 main_v232 (broadcastInDim S100000x128 ![0, 1] bcast_S1x128_S100000x128_0_1 : (⟨S1x128, .f32⟩ : BufTy).Contents (Elt F) → (⟨S100000x128, .f32⟩ : BufTy).Contents (Elt F)),
    StableHlo.binary main_v227 main_v232 main_v233 (mulf : (⟨S100000x128, .f32⟩ : BufTy).Contents (Elt F) → (⟨S100000x128, .f32⟩ : BufTy).Contents (Elt F) → (⟨S100000x128, .f32⟩ : BufTy).Contents (Elt F)),
    StableHlo.unary main_v218 main_v234 (broadcastInDim S1x128 ![1] bcast_S128_S1x128_1 : (⟨S128, .f32⟩ : BufTy).Contents (Elt F) → (⟨S1x128, .f32⟩ : BufTy).Contents (Elt F)),
    StableHlo.unary main_v234 main_v235 (broadcastInDim S100000x128 ![0, 1] bcast_S1x128_S100000x128_0_1 : (⟨S1x128, .f32⟩ : BufTy).Contents (Elt F) → (⟨S100000x128, .f32⟩ : BufTy).Contents (Elt F)),
    StableHlo.binary main_v233 main_v235 main_v236 (mulf : (⟨S100000x128, .f32⟩ : BufTy).Contents (Elt F) → (⟨S100000x128, .f32⟩ : BufTy).Contents (Elt F) → (⟨S100000x128, .f32⟩ : BufTy).Contents (Elt F)),
    StableHlo.unary main_v220 main_v237 (broadcastInDim S1x128 ![1] bcast_S128_S1x128_1 : (⟨S128, .f32⟩ : BufTy).Contents (Elt F) → (⟨S1x128, .f32⟩ : BufTy).Contents (Elt F)),
    StableHlo.unary main_v237 main_v238 (broadcastInDim S100000x128 ![0, 1] bcast_S1x128_S100000x128_0_1 : (⟨S1x128, .f32⟩ : BufTy).Contents (Elt F) → (⟨S100000x128, .f32⟩ : BufTy).Contents (Elt F)),
    StableHlo.binary main_v236 main_v238 main_v239 (addf : (⟨S100000x128, .f32⟩ : BufTy).Contents (Elt F) → (⟨S100000x128, .f32⟩ : BufTy).Contents (Elt F) → (⟨S100000x128, .f32⟩ : BufTy).Contents (Elt F)),
    StableHlo.unary main_arg8 main_v240 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v240 main_v241 rfl shapeCasts_S1x128x128_S128x128,
    StableHlo.binary main_v239 main_v241 main_v242 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v243 ((extractStridedSlice S1x128 ![2, 0] · slices_S3x128_S1x128_2_0) : (⟨S3x128, .f32⟩ : BufTy).Contents (Elt F) → (⟨S1x128, .f32⟩ : BufTy).Contents (Elt F)),
    StableHlo.reshape main_v243 main_v244 rfl shapeCasts_S1x128_S128,
    StableHlo.unary main_v244 main_v245 (broadcastInDim S1x128 ![1] bcast_S128_S1x128_1 : (⟨S128, .f32⟩ : BufTy).Contents (Elt F) → (⟨S1x128, .f32⟩ : BufTy).Contents (Elt F)),
    StableHlo.unary main_v245 main_v246 (broadcastInDim S100000x128 ![0, 1] bcast_S1x128_S100000x128_0_1 : (⟨S1x128, .f32⟩ : BufTy).Contents (Elt F) → (⟨S100000x128, .f32⟩ : BufTy).Contents (Elt F)),
    StableHlo.binary main_v242 main_v246 main_v247 (addf : (⟨S100000x128, .f32⟩ : BufTy).Contents (Elt F) → (⟨S100000x128, .f32⟩ : BufTy).Contents (Elt F) → (⟨S100000x128, .f32⟩ : BufTy).Contents (Elt F)),
    StableHlo.unary main_arg10 main_v248 ((extractStridedSlice S1x128 ![2, 0] · slices_S3x128_S1x128_2_0) : (⟨S3x128, .f32⟩ : BufTy).Contents (Elt F) → (⟨S1x128, .f32⟩ : BufTy).Contents (Elt F)),
    StableHlo.reshape main_v248 main_v249 rfl shapeCasts_S1x128_S128,
    StableHlo.unary main_arg11 main_v250 ((extractStridedSlice S1x128 ![2, 0] · slices_S3x128_S1x128_2_0) : (⟨S3x128, .f32⟩ : BufTy).Contents (Elt F) → (⟨S1x128, .f32⟩ : BufTy).Contents (Elt F)),
    StableHlo.reshape main_v250 main_v251 rfl shapeCasts_S1x128_S128,
    StableHlo.nullary main_cst_35 (constant S_ .f32 0x00000000#32),
    StableHlo.binary main_v247 main_cst_35 main_v252 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_36 (constant S_ .f32 0x47C35000#32),
    StableHlo.unary main_cst_36 main_v253 (broadcastInDim S128 ![] bcast_S_S128 : (⟨S_, .f32⟩ : BufTy).Contents (Elt F) → (⟨S128, .f32⟩ : BufTy).Contents (Elt F)),
    StableHlo.binary main_v252 main_v253 main_v254 (Host.divf : (⟨S128, .f32⟩ : BufTy).Contents (Elt F) → (⟨S128, .f32⟩ : BufTy).Contents (Elt F) → (⟨S128, .f32⟩ : BufTy).Contents (Elt F)),
    StableHlo.nullary main_c_37 (constantI S_ 32 0#32),
    StableHlo.TRef.nullary main_call9.cst (constant S_ .f32 0x00000000#32),
    StableHlo.TRef.binary (.of main_v247) main_call9.cst main_call9.v0 (fun x v => Host.reduceAdd x v reducesTo_S100000x128_S128_d0 h_S_),
    StableHlo.TRef.unary main_call9.v0 main_call9.v1 (broadcastInDim S1x128 ![1] bcast_S128_S1x128_1),
    StableHlo.TRef.nullary main_call9.cst_0 (constant S_ .f32 0x47C35000#32),
    StableHlo.TRef.unary main_call9.cst_0 main_call9.v2 (broadcastInDim S1x128 ![] bcast_S_S1x128),
    StableHlo.TRef.binary main_call9.v1 main_call9.v2 main_call9.v3 Host.divf,
    StableHlo.TRef.unary main_call9.v3 main_call9.v4 (broadcastInDim S100000x128 ![0, 1] bcast_S1x128_S100000x128_0_1),
    StableHlo.TRef.binary (.of main_v247) main_call9.v4 main_call9.v5 subf,
    StableHlo.TRef.binary main_call9.v5 main_call9.v5 main_call9.v6 mulf,
    StableHlo.TRef.unary (.of main_c_37) main_call9.v7 (sitofp .f32),
    StableHlo.TRef.nullary main_call9.cst_1 (constant S_ .f32 0x47C35000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S100000x128_S128_d0 h_S_),
    StableHlo.TRef.unary main_call9.v8 main_call9.v10 (broadcastInDim S128 ![] bcast_S_S128),
    StableHlo.TRef.binary main_call9.v9 main_call9.v10 main_call9.v11 Host.divf,
    StableHlo.TRef.nullary main_call9.cst_3 (constant S_ .f32 0x00000000#32),
    StableHlo.TRef.binary main_call9.v8 main_call9.cst_3 main_call9.v12 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S128 ![] bcast_S_S128),
    StableHlo.TRef.ternary main_call9.v12 main_call9.v11 main_call9.call0.v1 main_call9.call0.v2 (fun p a b => select (broadcastInDim S128 ![] bcast_S_S128 p) a b),
    StableHlo.unary main_v254 main_v256 (broadcastInDim S1x128 ![1] bcast_S128_S1x128_1 : (⟨S128, .f32⟩ : BufTy).Contents (Elt F) → (⟨S1x128, .f32⟩ : BufTy).Contents (Elt F)),
    StableHlo.unary main_v256 main_v257 (broadcastInDim S100000x128 ![0, 1] bcast_S1x128_S100000x128_0_1 : (⟨S1x128, .f32⟩ : BufTy).Contents (Elt F) → (⟨S100000x128, .f32⟩ : BufTy).Contents (Elt F)),
    StableHlo.binary main_v247 main_v257 main_v258 (subf : (⟨S100000x128, .f32⟩ : BufTy).Contents (Elt F) → (⟨S100000x128, .f32⟩ : BufTy).Contents (Elt F) → (⟨S100000x128, .f32⟩ : BufTy).Contents (Elt F)),
    StableHlo.nullary main_cst_38 (constant S_ .f32 0x3727C5AC#32) ]
theorem ops4_sub : (ops4 : List (HloOp τ sig (Elt F))).Forall fun op => op.bufs ⊆ tcRefs τ sig :=
  ⟨ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub ..⟩
theorem ops4_fresh : (ops4 : List (HloOp τ sig (Elt F))).Forall fun op => op.fresh = ∅ := by
  simp only [List.Forall]; repeat' constructor
/-- The references window 4's operations write. -/
abbrev ops4_W : List (Ref sig .tc) := [main_v207, main_v208, main_v209, main_v210, main_v211, main_v212, main_v213, main_v214, main_v215, main_v216, main_v217, main_v218, main_v219, main_v220, main_cst_31, main_v221, main_cst_32, main_v222, main_v223, main_c_33, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v224, main_v225, main_v226, main_v227, main_cst_34, main_v228, main_v229, main_v230, main_v231, main_v232, main_v233, main_v234, main_v235, main_v236, main_v237, main_v238, main_v239, main_v240, main_v241, main_v242, main_v243, main_v244, main_v245, main_v246, main_v247, main_v248, main_v249, main_v250, main_v251, main_cst_35, main_v252, main_cst_36, main_v253, main_v254, main_c_37, main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_cst_3, main_call9_v12, main_call9_cst_4, main_call9_call0_v0, main_call9_call0_v1, main_v255, main_v256, main_v257, main_v258, main_cst_38]
theorem ops4_writes : (ops4 : List (HloOp τ sig (Elt F))).Forall fun op => op.writes ⊆ (ops4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
set_option maxRecDepth 16384 in
set_option maxHeartbeats 4000000 in
/-- Window 4 is that straight line: the functions' definitions unfolded at their calls, sequencing reassociated. -/
theorem part4_eq (c : Dev nD) : main_part4 (F := F) c = seq ops4 := by
  simp only [main_part4, fn_var.body, fn_where.body, fn_relu.body, seq, bind_assoc, pure_bind]
  rfl

/-- Statements of window 5 of @main, the outlined functions' bodies at their calls: 74 operations. -/
abbrev ops5 : List (HloOp τ sig (Elt F)) :=
  [ StableHlo.unary main_cst_38 main_v259 (broadcastInDim S128 ![] bcast_S_S128 : (⟨S_, .f32⟩ : BufTy).Contents (Elt F) → (⟨S128, .f32⟩ : BufTy).Contents (Elt F)),
    StableHlo.binary main_v255 main_v259 main_v260 (addf : (⟨S128, .f32⟩ : BufTy).Contents (Elt F) → (⟨S128, .f32⟩ : BufTy).Contents (Elt F) → (⟨S128, .f32⟩ : BufTy).Contents (Elt F)),
    StableHlo.unary main_v260 main_v261 (Host.rsqrt : (⟨S128, .f32⟩ : BufTy).Contents (Elt F) → (⟨S128, .f32⟩ : BufTy).Contents (Elt F)),
    StableHlo.unary main_v261 main_v262 (broadcastInDim S1x128 ![1] bcast_S128_S1x128_1 : (⟨S128, .f32⟩ : BufTy).Contents (Elt F) → (⟨S1x128, .f32⟩ : BufTy).Contents (Elt F)),
    StableHlo.unary main_v262 main_v263 (broadcastInDim S100000x128 ![0, 1] bcast_S1x128_S100000x128_0_1 : (⟨S1x128, .f32⟩ : BufTy).Contents (Elt F) → (⟨S100000x128, .f32⟩ : BufTy).Contents (Elt F)),
    StableHlo.binary main_v258 main_v263 main_v264 (mulf : (⟨S100000x128, .f32⟩ : BufTy).Contents (Elt F) → (⟨S100000x128, .f32⟩ : BufTy).Contents (Elt F) → (⟨S100000x128, .f32⟩ : BufTy).Contents (Elt F)),
    StableHlo.unary main_v249 main_v265 (broadcastInDim S1x128 ![1] bcast_S128_S1x128_1 : (⟨S128, .f32⟩ : BufTy).Contents (Elt F) → (⟨S1x128, .f32⟩ : BufTy).Contents (Elt F)),
    StableHlo.unary main_v265 main_v266 (broadcastInDim S100000x128 ![0, 1] bcast_S1x128_S100000x128_0_1 : (⟨S1x128, .f32⟩ : BufTy).Contents (Elt F) → (⟨S100000x128, .f32⟩ : BufTy).Contents (Elt F)),
    StableHlo.binary main_v264 main_v266 main_v267 (mulf : (⟨S100000x128, .f32⟩ : BufTy).Contents (Elt F) → (⟨S100000x128, .f32⟩ : BufTy).Contents (Elt F) → (⟨S100000x128, .f32⟩ : BufTy).Contents (Elt F)),
    StableHlo.unary main_v251 main_v268 (broadcastInDim S1x128 ![1] bcast_S128_S1x128_1 : (⟨S128, .f32⟩ : BufTy).Contents (Elt F) → (⟨S1x128, .f32⟩ : BufTy).Contents (Elt F)),
    StableHlo.unary main_v268 main_v269 (broadcastInDim S100000x128 ![0, 1] bcast_S1x128_S100000x128_0_1 : (⟨S1x128, .f32⟩ : BufTy).Contents (Elt F) → (⟨S100000x128, .f32⟩ : BufTy).Contents (Elt F)),
    StableHlo.binary main_v267 main_v269 main_v270 (addf : (⟨S100000x128, .f32⟩ : BufTy).Contents (Elt F) → (⟨S100000x128, .f32⟩ : BufTy).Contents (Elt F) → (⟨S100000x128, .f32⟩ : BufTy).Contents (Elt F)),
    StableHlo.unary main_arg12 main_v271 ((extractStridedSlice S1x128 ![2, 0] · slices_S3x128_S1x128_2_0) : (⟨S3x128, .f32⟩ : BufTy).Contents (Elt F) → (⟨S1x128, .f32⟩ : BufTy).Contents (Elt F)),
    StableHlo.reshape main_v271 main_v272 rfl shapeCasts_S1x128_S128,
    StableHlo.unary main_arg13 main_v273 ((extractStridedSlice S1x128 ![2, 0] · slices_S3x128_S1x128_2_0) : (⟨S3x128, .f32⟩ : BufTy).Contents (Elt F) → (⟨S1x128, .f32⟩ : BufTy).Contents (Elt F)),
    StableHlo.reshape main_v273 main_v274 rfl shapeCasts_S1x128_S128,
    StableHlo.nullary main_cst_39 (constant S_ .f32 0x00000000#32),
    StableHlo.binary main_v270 main_cst_39 main_v275 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_40 (constant S_ .f32 0x47C35000#32),
    StableHlo.unary main_cst_40 main_v276 (broadcastInDim S128 ![] bcast_S_S128 : (⟨S_, .f32⟩ : BufTy).Contents (Elt F) → (⟨S128, .f32⟩ : BufTy).Contents (Elt F)),
    StableHlo.binary main_v275 main_v276 main_v277 (Host.divf : (⟨S128, .f32⟩ : BufTy).Contents (Elt F) → (⟨S128, .f32⟩ : BufTy).Contents (Elt F) → (⟨S128, .f32⟩ : BufTy).Contents (Elt F)),
    StableHlo.nullary main_c_41 (constantI S_ 32 0#32),
    StableHlo.TRef.nullary main_call10.cst (constant S_ .f32 0x00000000#32),
    StableHlo.TRef.binary (.of main_v270) main_call10.cst main_call10.v0 (fun x v => Host.reduceAdd x v reducesTo_S100000x128_S128_d0 h_S_),
    StableHlo.TRef.unary main_call10.v0 main_call10.v1 (broadcastInDim S1x128 ![1] bcast_S128_S1x128_1),
    StableHlo.TRef.nullary main_call10.cst_0 (constant S_ .f32 0x47C35000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S100000x128 ![0, 1] bcast_S1x128_S100000x128_0_1),
    StableHlo.TRef.binary (.of main_v270) main_call10.v4 main_call10.v5 subf,
    StableHlo.TRef.binary main_call10.v5 main_call10.v5 main_call10.v6 mulf,
    StableHlo.TRef.unary (.of main_c_41) main_call10.v7 (sitofp .f32),
    StableHlo.TRef.nullary main_call10.cst_1 (constant S_ .f32 0x47C35000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S100000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v277 main_v279 (broadcastInDim S1x128 ![1] bcast_S128_S1x128_1 : (⟨S128, .f32⟩ : BufTy).Contents (Elt F) → (⟨S1x128, .f32⟩ : BufTy).Contents (Elt F)),
    StableHlo.unary main_v279 main_v280 (broadcastInDim S100000x128 ![0, 1] bcast_S1x128_S100000x128_0_1 : (⟨S1x128, .f32⟩ : BufTy).Contents (Elt F) → (⟨S100000x128, .f32⟩ : BufTy).Contents (Elt F)),
    StableHlo.binary main_v270 main_v280 main_v281 (subf : (⟨S100000x128, .f32⟩ : BufTy).Contents (Elt F) → (⟨S100000x128, .f32⟩ : BufTy).Contents (Elt F) → (⟨S100000x128, .f32⟩ : BufTy).Contents (Elt F)),
    StableHlo.nullary main_cst_42 (constant S_ .f32 0x3727C5AC#32),
    StableHlo.unary main_cst_42 main_v282 (broadcastInDim S128 ![] bcast_S_S128 : (⟨S_, .f32⟩ : BufTy).Contents (Elt F) → (⟨S128, .f32⟩ : BufTy).Contents (Elt F)),
    StableHlo.binary main_v278 main_v282 main_v283 (addf : (⟨S128, .f32⟩ : BufTy).Contents (Elt F) → (⟨S128, .f32⟩ : BufTy).Contents (Elt F) → (⟨S128, .f32⟩ : BufTy).Contents (Elt F)),
    StableHlo.unary main_v283 main_v284 (Host.rsqrt : (⟨S128, .f32⟩ : BufTy).Contents (Elt F) → (⟨S128, .f32⟩ : BufTy).Contents (Elt F)),
    StableHlo.unary main_v284 main_v285 (broadcastInDim S1x128 ![1] bcast_S128_S1x128_1 : (⟨S128, .f32⟩ : BufTy).Contents (Elt F) → (⟨S1x128, .f32⟩ : BufTy).Contents (Elt F)),
    StableHlo.unary main_v285 main_v286 (broadcastInDim S100000x128 ![0, 1] bcast_S1x128_S100000x128_0_1 : (⟨S1x128, .f32⟩ : BufTy).Contents (Elt F) → (⟨S100000x128, .f32⟩ : BufTy).Contents (Elt F)),
    StableHlo.binary main_v281 main_v286 main_v287 (mulf : (⟨S100000x128, .f32⟩ : BufTy).Contents (Elt F) → (⟨S100000x128, .f32⟩ : BufTy).Contents (Elt F) → (⟨S100000x128, .f32⟩ : BufTy).Contents (Elt F)),
    StableHlo.unary main_v272 main_v288 (broadcastInDim S1x128 ![1] bcast_S128_S1x128_1 : (⟨S128, .f32⟩ : BufTy).Contents (Elt F) → (⟨S1x128, .f32⟩ : BufTy).Contents (Elt F)),
    StableHlo.unary main_v288 main_v289 (broadcastInDim S100000x128 ![0, 1] bcast_S1x128_S100000x128_0_1 : (⟨S1x128, .f32⟩ : BufTy).Contents (Elt F) → (⟨S100000x128, .f32⟩ : BufTy).Contents (Elt F)),
    StableHlo.binary main_v287 main_v289 main_v290 (mulf : (⟨S100000x128, .f32⟩ : BufTy).Contents (Elt F) → (⟨S100000x128, .f32⟩ : BufTy).Contents (Elt F) → (⟨S100000x128, .f32⟩ : BufTy).Contents (Elt F)),
    StableHlo.unary main_v274 main_v291 (broadcastInDim S1x128 ![1] bcast_S128_S1x128_1 : (⟨S128, .f32⟩ : BufTy).Contents (Elt F) → (⟨S1x128, .f32⟩ : BufTy).Contents (Elt F)),
    StableHlo.unary main_v291 main_v292 (broadcastInDim S100000x128 ![0, 1] bcast_S1x128_S100000x128_0_1 : (⟨S1x128, .f32⟩ : BufTy).Contents (Elt F) → (⟨S100000x128, .f32⟩ : BufTy).Contents (Elt F)),
    StableHlo.binary main_v290 main_v292 main_v293 (addf : (⟨S100000x128, .f32⟩ : BufTy).Contents (Elt F) → (⟨S100000x128, .f32⟩ : BufTy).Contents (Elt F) → (⟨S100000x128, .f32⟩ : BufTy).Contents (Elt F)),
    StableHlo.TRef.nullary main_call11.cst (constant S_ .f32 0x00000000#32),
    StableHlo.TRef.unary main_call11.cst main_call11.v0 (broadcastInDim S100000x128 ![] bcast_S_S100000x128),
    StableHlo.TRef.binary (.of main_v293) main_call11.v0 main_call11.v1 maximumf,
    StableHlo.unary main_arg2 main_v295 (broadcastInDim S100000x1 ![0] bcast_S100000_S100000x1_0 : (⟨S100000, .f32⟩ : BufTy).Contents (Elt F) → (⟨S100000x1, .f32⟩ : BufTy).Contents (Elt F)),
    StableHlo.unary main_v295 main_v296 (broadcastInDim S100000x128 ![0, 1] bcast_S100000x1_S100000x128_0_1 : (⟨S100000x1, .f32⟩ : BufTy).Contents (Elt F) → (⟨S100000x128, .f32⟩ : BufTy).Contents (Elt F)),
    StableHlo.binary main_v294 main_v296 main_v297 (mulf : (⟨S100000x128, .f32⟩ : BufTy).Contents (Elt F) → (⟨S100000x128, .f32⟩ : BufTy).Contents (Elt F) → (⟨S100000x128, .f32⟩ : BufTy).Contents (Elt F)),
    StableHlo.nullary main_cst_43 (constant S_ .f32 0x00000000#32),
    StableHlo.unary main_cst_43 main_v298 (broadcastInDim S128x128 ![] bcast_S_S128x128 : (⟨S_, .f32⟩ : BufTy).Contents (Elt F) → (⟨S128x128, .f32⟩ : BufTy).Contents (Elt F)),
    StableHlo.unary main_arg3 main_v299 (broadcastInDim S100000x1 ![0] bcast_S100000_S100000x1_0 : (⟨S100000, .i32⟩ : BufTy).Contents (Elt F) → (⟨S100000x1, .i32⟩ : BufTy).Contents (Elt F)),
    StableHlo.ternary main_v298 main_v299 main_v297 main_v300 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    StableHlo.binary main_v300 main_arg14 main_v301 ((fun l r => Host.dotGeneral dot_S128x128_S128x2_S128x2_1_0_0_1_n_n none l r) : (⟨S128x128, .f32⟩ : BufTy).Contents (Elt F) → (⟨S128x2, .f32⟩ : BufTy).Contents (Elt F) → (⟨S128x2, .f32⟩ : BufTy).Contents (Elt F)),
    StableHlo.unary main_arg15 main_v302 (broadcastInDim S1x2 ![1] bcast_S2_S1x2_1 : (⟨S2, .f32⟩ : BufTy).Contents (Elt F) → (⟨S1x2, .f32⟩ : BufTy).Contents (Elt F)),
    StableHlo.unary main_v302 main_v303 (broadcastInDim S128x2 ![0, 1] bcast_S1x2_S128x2_0_1 : (⟨S1x2, .f32⟩ : BufTy).Contents (Elt F) → (⟨S128x2, .f32⟩ : BufTy).Contents (Elt F)),
    StableHlo.binary main_v301 main_v303 main_v304 (addf : (⟨S128x2, .f32⟩ : BufTy).Contents (Elt F) → (⟨S128x2, .f32⟩ : BufTy).Contents (Elt F) → (⟨S128x2, .f32⟩ : BufTy).Contents (Elt F)) ]
theorem ops5_sub : (ops5 : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub ..⟩
theorem ops5_fresh : (ops5 : List (HloOp τ sig (Elt F))).Forall fun op => op.fresh = ∅ := by
  simp only [List.Forall]; repeat' constructor
/-- The references window 5's operations write. -/
abbrev ops5_W : List (Ref sig .tc) := [main_v259, main_v260, main_v261, main_v262, main_v263, main_v264, main_v265, main_v266, main_v267, main_v268, main_v269, main_v270, main_v271, main_v272, main_v273, main_v274, main_cst_39, main_v275, main_cst_40, main_v276, main_v277, main_c_41, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v278, main_v279, main_v280, main_v281, main_cst_42, main_v282, main_v283, main_v284, main_v285, main_v286, main_v287, main_v288, main_v289, main_v290, main_v291, main_v292, main_v293, main_call11_cst, main_call11_v0, main_v294, main_v295, main_v296, main_v297, main_cst_43, main_v298, main_v299, main_v300, main_v301, main_v302, main_v303, main_v304]
theorem ops5_writes : (ops5 : List (HloOp τ sig (Elt F))).Forall fun op => op.writes ⊆ (ops5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
set_option maxRecDepth 16384 in
set_option maxHeartbeats 4000000 in
/-- Window 5 is that straight line: the functions' definitions unfolded at their calls, sequencing reassociated. -/
theorem part5_eq (c : Dev nD) : main_part5 (F := F) c = seq ops5 := by
  simp only [main_part5, fn_var.body, fn_where.body, fn_relu.body, seq, bind_assoc, pure_bind]

/-- @main's operations, in order. -/
abbrev ops : List (HloOp τ sig (Elt F)) := ops0 ++ ops1 ++ ops2 ++ ops3 ++ ops4 ++ ops5

theorem main_eq (c : Dev nD) : main (F := F) c = seq ops := by
  show (do main_part0 (F := F) c; main_part1 (F := F) c; main_part2 (F := F) c; main_part3 (F := F) c; main_part4 (F := F) c; main_part5 (F := F) c) = _
  rw [part0_eq, part1_eq, part2_eq, part3_eq, part4_eq, part5_eq]
  simp only [ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with (((((h | h) | h) | h) | h) | h)
    · exact List.forall_iff_forall_mem.mp ops0_sub op h
    · exact List.forall_iff_forall_mem.mp ops1_sub op h
    · exact List.forall_iff_forall_mem.mp ops2_sub op h
    · exact List.forall_iff_forall_mem.mp ops3_sub op h
    · exact List.forall_iff_forall_mem.mp ops4_sub op h
    · exact List.forall_iff_forall_mem.mp ops5_sub op h

theorem ops_fresh : ∀ op ∈ (ops : List (HloOp τ sig (Elt F))), op.fresh = ∅ := fun op h => by
  simp only [ops, List.mem_append] at h
  rcases h with (((((h | h) | h) | h) | h) | h)
  · exact List.forall_iff_forall_mem.mp ops0_fresh op h
  · exact List.forall_iff_forall_mem.mp ops1_fresh op h
  · exact List.forall_iff_forall_mem.mp ops2_fresh op h
  · exact List.forall_iff_forall_mem.mp ops3_fresh op h
  · exact List.forall_iff_forall_mem.mp ops4_fresh op h
  · exact List.forall_iff_forall_mem.mp ops5_fresh op h

/-- The fold of a concatenation is the folds in turn. -/
theorem after_append (l₁ l₂ : List (HloOp τ sig (Elt F))) (V : Valuation τ sig (Elt F)) : after (l₁ ++ l₂) V = after l₂ (after l₁ V) := by
  induction l₁ generalizing V with
  | nil => rfl
  | cons op l ih => exact ih _

/-- No operation writes an argument: the fold keeps it. -/
theorem after_arg (V : Valuation τ sig (Elt F)) (r : Ref sig .tc)
    (h0 : r ∉ ops0_W) (h1 : r ∉ ops1_W) (h2 : r ∉ ops2_W) (h3 : r ∉ ops3_W) (h4 : r ∉ ops4_W) (h5 : r ∉ ops5_W) : after ops V (Proc.devRef .tc r) = V (Proc.devRef .tc r) := by
  simp only [ops, after_append]
  rw [after_of_writes_sub ops5 _ ops5_writes h5, after_of_writes_sub ops4 _ ops4_writes h4, after_of_writes_sub ops3 _ ops3_writes h3, after_of_writes_sub ops2 _ ops2_writes h2, after_of_writes_sub ops1 _ ops1_writes h1, after_of_writes_sub ops0 _ ops0_writes h0]

/-- THE RUN: every weakly fair execution of @main terminates, each buffer at the fold over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- THE FRAME: the arguments end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c main_arg0).trans (after_arg _ main_arg0 (by decide) (by decide) (by decide) (by decide) (by decide) (by decide)),
    (h c main_arg1).trans (after_arg _ main_arg1 (by decide) (by decide) (by decide) (by decide) (by decide) (by decide)),
    (h c main_arg2).trans (after_arg _ main_arg2 (by decide) (by decide) (by decide) (by decide) (by decide) (by decide)),
    (h c main_arg3).trans (after_arg _ main_arg3 (by decide) (by decide) (by decide) (by decide) (by decide) (by decide)),
    (h c main_arg4).trans (after_arg _ main_arg4 (by decide) (by decide) (by decide) (by decide) (by decide) (by decide)),
    (h c main_arg5).trans (after_arg _ main_arg5 (by decide) (by decide) (by decide) (by decide) (by decide) (by decide)),
    (h c main_arg6).trans (after_arg _ main_arg6 (by decide) (by decide) (by decide) (by decide) (by decide) (by decide)),
    (h c main_arg7).trans (after_arg _ main_arg7 (by decide) (by decide) (by decide) (by decide) (by decide) (by decide)),
    (h c main_arg8).trans (after_arg _ main_arg8 (by decide) (by decide) (by decide) (by decide) (by decide) (by decide)),
    (h c main_arg9).trans (after_arg _ main_arg9 (by decide) (by decide) (by decide) (by decide) (by decide) (by decide)),
    (h c main_arg10).trans (after_arg _ main_arg10 (by decide) (by decide) (by decide) (by decide) (by decide) (by decide)),
    (h c main_arg11).trans (after_arg _ main_arg11 (by decide) (by decide) (by decide) (by decide) (by decide) (by decide)),
    (h c main_arg12).trans (after_arg _ main_arg12 (by decide) (by decide) (by decide) (by decide) (by decide) (by decide)),
    (h c main_arg13).trans (after_arg _ main_arg13 (by decide) (by decide) (by decide) (by decide) (by decide) (by decide)),
    (h c main_arg14).trans (after_arg _ main_arg14 (by decide) (by decide) (by decide) (by decide) (by decide) (by decide)),
    (h c main_arg15).trans (after_arg _ main_arg15 (by decide) (by decide) (by decide) (by decide) (by decide) (by decide))⟩) (run m ρ)

end Cert.ReferenceIdeal.Hand

end
-- ==== Proof.KI.Chain.lean ====
/-
  The chain of valuations through one layer as a function of the layer's ENTRY valuation: the host operations before the first
  kernel, that kernel's output array written, the host operations before the second, its output written, the host operations
  before the third, its output written. The program's first stretch of host operations also prepares, once, what all three layers
  read (the two edge lists and the converted weights): its first six operations, split off here, so that the three layers have
  one shape.
-/
import proofs.«141748_j59863254171699_1_alg».proof.Proof.KI.Frame

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- The first stretch's preparation: the edge lists cut out of the edge array, the two weight stacks converted. -/
abbrev pre0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.unary main_arg4 main_v4 ((truncf .bf16 · bitsLt_bf16_f32) : (⟨S3x128x128, .f32⟩ : BufTy).Contents (Elt F) → (⟨S3x128x128, .bf16⟩ : BufTy).Contents (Elt F)),
    StableHlo.unary main_arg8 main_v5 ((truncf .bf16 · bitsLt_bf16_f32) : (⟨S3x128x128, .f32⟩ : BufTy).Contents (Elt F) → (⟨S3x128x128, .bf16⟩ : BufTy).Contents (Elt F)) ]
/-- The first stretch's remainder: what every layer does before its first kernel. -/
abbrev rest0 : List (HloOp τ sig (Elt F)) :=
  [ StableHlo.nullary main_c (constantI S_ 32 0#32),
    StableHlo.unary main_c main_v6 (broadcastInDim S1600000 ![] bcast_S_S1600000 : (⟨S_, .i32⟩ : BufTy).Contents (Elt F) → (⟨S1600000, .i32⟩ : BufTy).Contents (Elt F)),
    StableHlo.binary main_v1 main_v6 main_v7 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v8 (broadcastInDim S1600000 ![] bcast_S_S1600000 : (⟨S_, .i32⟩ : BufTy).Contents (Elt F) → (⟨S1600000, .i32⟩ : BufTy).Contents (Elt F)),
    StableHlo.binary main_v1 main_v8 main_v9 (addi : (⟨S1600000, .i32⟩ : BufTy).Contents (Elt F) → (⟨S1600000, .i32⟩ : BufTy).Contents (Elt F) → (⟨S1600000, .i32⟩ : BufTy).Contents (Elt F)),
    StableHlo.ternary main_v7 main_v9 main_v1 main_v10 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v10 main_v11 (broadcastInDim S1600000x1 ![0] bcast_S1600000_S1600000x1_0 : (⟨S1600000, .i32⟩ : BufTy).Contents (Elt F) → (⟨S1600000x1, .i32⟩ : BufTy).Contents (Elt F)),
    StableHlo.binary main_arg0 main_v11 main_v12 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v13 (broadcastInDim S100000x128 ![] bcast_S_S100000x128 : (⟨S_, .f32⟩ : BufTy).Contents (Elt F) → (⟨S100000x128, .f32⟩ : BufTy).Contents (Elt F)),
    StableHlo.unary main_v3 main_v14 (broadcastInDim S1600000x1 ![0] bcast_S1600000_S1600000x1_0 : (⟨S1600000, .i32⟩ : BufTy).Contents (Elt F) → (⟨S1600000x1, .i32⟩ : BufTy).Contents (Elt F)),
    StableHlo.ternary main_v13 main_v14 main_v12 main_v15 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg5 main_v16 ((extractStridedSlice S1x128 ![0, 0] · slices_S3x128_S1x128_0_0) : (⟨S3x128, .f32⟩ : BufTy).Contents (Elt F) → (⟨S1x128, .f32⟩ : BufTy).Contents (Elt F)),
    StableHlo.reshape main_v16 main_v17 rfl shapeCasts_S1x128_S128,
    StableHlo.reshape main_v17 main_v18 rfl shapeCasts_S128_S1x128,
    StableHlo.unary main_v4 main_v19 ((extractStridedSlice S1x128x128 ![0, 0, 0] · slices_S3x128x128_S1x128x128_0_0_0) : (⟨S3x128x128, .bf16⟩ : BufTy).Contents (Elt F) → (⟨S1x128x128, .bf16⟩ : BufTy).Contents (Elt F)),
    StableHlo.reshape main_v19 main_v20 rfl shapeCasts_S1x128x128_S128x128 ]
theorem hostOps0_split : (hostOps0 : List (HloOp τ sig (Elt F))) = pre0 ++ rest0 := rfl

/-- The fold of a concatenation is the folds in turn. -/
theorem after_append' (l₁ l₂ : List (HloOp τ sig (Elt F))) (V : Valuation τ sig (Elt F)) : after (l₁ ++ l₂) V = after l₂ (after l₁ V) := by
  induction l₁ generalizing V with
  | nil => rfl
  | cons op l ih => exact ih _

variable (Z : Dev nD → Valuation τ sig (Elt F))

/-! Layer 1: regions 0, 1, 2. -/
abbrev L1A : Dev nD → Valuation τ sig (Elt F) := fun c => after rest0 (Z c)
abbrev L1A' : Dev nD → Valuation τ sig (Elt F) := W0' (L1A Z)
abbrev L1B : Dev nD → Valuation τ sig (Elt F) := fun c => after hostOps1_2 (after hostOps1_1 (after hostOps1 (L1A' Z c)))
abbrev L1B' : Dev nD → Valuation τ sig (Elt F) := W1' (L1B Z)
abbrev L1C : Dev nD → Valuation τ sig (Elt F) := fun c => after hostOps2_2 (after hostOps2_1 (after hostOps2 (L1B' Z c)))
abbrev L1C' : Dev nD → Valuation τ sig (Elt F) := W2' (L1C Z)

/-! Layer 2: regions 3, 4, 5. -/
abbrev L2A : Dev nD → Valuation τ sig (Elt F) := fun c => after hostOps3 (Z c)
abbrev L2A' : Dev nD → Valuation τ sig (Elt F) := W3' (L2A Z)
abbrev L2B : Dev nD → Valuation τ sig (Elt F) := fun c => after hostOps4_2 (after hostOps4_1 (after hostOps4 (L2A' Z c)))
abbrev L2B' : Dev nD → Valuation τ sig (Elt F) := W4' (L2B Z)
abbrev L2C : Dev nD → Valuation τ sig (Elt F) := fun c => after hostOps5_2 (after hostOps5_1 (after hostOps5 (L2B' Z c)))
abbrev L2C' : Dev nD → Valuation τ sig (Elt F) := W5' (L2C Z)

/-! Layer 3: regions 6, 7, 8. -/
abbrev L3A : Dev nD → Valuation τ sig (Elt F) := fun c => after hostOps6 (Z c)
abbrev L3A' : Dev nD → Valuation τ sig (Elt F) := W6' (L3A Z)
abbrev L3B : Dev nD → Valuation τ sig (Elt F) := fun c => after hostOps7_2 (after hostOps7_1 (after hostOps7 (L3A' Z c)))
abbrev L3B' : Dev nD → Valuation τ sig (Elt F) := W7' (L3B Z)
abbrev L3C : Dev nD → Valuation τ sig (Elt F) := fun c => after hostOps8_2 (after hostOps8_1 (after hostOps8 (L3B' Z c)))
abbrev L3C' : Dev nD → Valuation τ sig (Elt F) := W8' (L3C Z)

variable (m : (ℓ : Loc nD τ sig) → Buf (Elt F) ℓ)

/-- The entry valuation of layer 1: the launch contents after the preparation. -/
abbrev E1 : Dev nD → Valuation τ sig (Elt F) := fun c => after pre0 (X0 m c)

theorem X10_eq : X10 m = L1C' (E1 m) := by
  funext c
  show W2' (X9 m) c = W2' (L1C (E1 m)) c
  have h1 : X1 m = L1A (E1 m) := funext fun c => by
    show after hostOps0 (X0 m c) = after rest0 (after pre0 (X0 m c))
    rw [hostOps0_split, after_append']
  have h9 : X9 m = L1C (E1 m) := by
    show (fun c => after hostOps2_2 (after hostOps2_1 (after hostOps2 (W1' (fun c => after hostOps1_2 (after hostOps1_1 (after hostOps1 (W0' (X1 m) c)))) c)))) = _
    rw [h1]
  rw [h9]
theorem X20_eq : X20 m = L2C' (X10 m) := rfl
theorem X30_eq : X30 m = L3C' (X20 m) := rfl

end Cert.KernelIdeal.Hand

end
-- ==== Proof.RF.Stages.lean ====
/-
  The reference's operations cut where the mathematics cuts: per layer the first linear map (up to p1), the first
  normalisation and the second linear map (up to p2), the two further normalisations and the rectifier (up to the layer's
  output); then the readout. The fold over all operations is the folds over the stages in turn.
-/
import proofs.«141748_j59863254171699_1_alg».proof.Proof.RF.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev RA1 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v13 main_arg0 main_v14 (addf : (⟨S100000x128, .f32⟩ : BufTy).Contents (Elt F) → (⟨S100000x128, .f32⟩ : BufTy).Contents (Elt F) → (⟨S100000x128, .f32⟩ : BufTy).Contents (Elt F)),
    StableHlo.unary main_arg4 main_v15 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v15 main_v16 rfl shapeCasts_S1x128x128_S128x128,
    StableHlo.binary main_v14 main_v16 main_v17 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v18 ((extractStridedSlice S1x128 ![0, 0] · slices_S3x128_S1x128_0_0) : (⟨S3x128, .f32⟩ : BufTy).Contents (Elt F) → (⟨S1x128, .f32⟩ : BufTy).Contents (Elt F)),
    StableHlo.reshape main_v18 main_v19 rfl shapeCasts_S1x128_S128,
    StableHlo.unary main_v19 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S100000x128 ![0, 1] bcast_S1x128_S100000x128_0_1 : (⟨S1x128, .f32⟩ : BufTy).Contents (Elt F) → (⟨S100000x128, .f32⟩ : BufTy).Contents (Elt F)),
    StableHlo.binary main_v17 main_v21 main_v22 (addf : (⟨S100000x128, .f32⟩ : BufTy).Contents (Elt F) → (⟨S100000x128, .f32⟩ : BufTy).Contents (Elt F) → (⟨S100000x128, .f32⟩ : BufTy).Contents (Elt F)) ]

abbrev RB1 : List (HloOp τ sig (Elt F)) :=
  [ StableHlo.unary main_arg6 main_v23 ((extractStridedSlice S1x128 ![0, 0] · slices_S3x128_S1x128_0_0) : (⟨S3x128, .f32⟩ : BufTy).Contents (Elt F) → (⟨S1x128, .f32⟩ : BufTy).Contents (Elt F)),
    StableHlo.reshape main_v23 main_v24 rfl shapeCasts_S1x128_S128,
    StableHlo.unary main_arg7 main_v25 ((extractStridedSlice S1x128 ![0, 0] · slices_S3x128_S1x128_0_0) : (⟨S3x128, .f32⟩ : BufTy).Contents (Elt F) → (⟨S1x128, .f32⟩ : BufTy).Contents (Elt F)),
    StableHlo.reshape main_v25 main_v26 rfl shapeCasts_S1x128_S128,
    StableHlo.nullary main_cst_1 (constant S_ .f32 0x00000000#32),
    StableHlo.binary main_v22 main_cst_1 main_v27 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v28 (broadcastInDim S128 ![] bcast_S_S128 : (⟨S_, .f32⟩ : BufTy).Contents (Elt F) → (⟨S128, .f32⟩ : BufTy).Contents (Elt F)),
    StableHlo.binary main_v27 main_v28 main_v29 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (.of main_v22) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v22) main_call0.v4 main_call0.v5 subf,
    StableHlo.TRef.binary main_call0.v5 main_call0.v5 main_call0.v6 mulf,
    StableHlo.TRef.unary (.of main_c_3) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v29 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S100000x128 ![0, 1] bcast_S1x128_S100000x128_0_1 : (⟨S1x128, .f32⟩ : BufTy).Contents (Elt F) → (⟨S100000x128, .f32⟩ : BufTy).Contents (Elt F)),
    StableHlo.binary main_v22 main_v32 main_v33 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v34 (broadcastInDim S128 ![] bcast_S_S128 : (⟨S_, .f32⟩ : BufTy).Contents (Elt F) → (⟨S128, .f32⟩ : BufTy).Contents (Elt F)),
    StableHlo.binary main_v30 main_v34 main_v35 (addf : (⟨S128, .f32⟩ : BufTy).Contents (Elt F) → (⟨S128, .f32⟩ : BufTy).Contents (Elt F) → (⟨S128, .f32⟩ : BufTy).Contents (Elt F)),
    StableHlo.unary main_v35 main_v36 (Host.rsqrt : (⟨S128, .f32⟩ : BufTy).Contents (Elt F) → (⟨S128, .f32⟩ : BufTy).Contents (Elt F)),
    StableHlo.unary main_v36 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v33 main_v38 main_v39 (mulf : (⟨S100000x128, .f32⟩ : BufTy).Contents (Elt F) → (⟨S100000x128, .f32⟩ : BufTy).Contents (Elt F) → (⟨S100000x128, .f32⟩ : BufTy).Contents (Elt F)),
    StableHlo.unary main_v24 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v41 main_v42 (mulf : (⟨S100000x128, .f32⟩ : BufTy).Contents (Elt F) → (⟨S100000x128, .f32⟩ : BufTy).Contents (Elt F) → (⟨S100000x128, .f32⟩ : BufTy).Contents (Elt F)),
    StableHlo.unary main_v26 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S100000x128 ![0, 1] bcast_S1x128_S100000x128_0_1 : (⟨S1x128, .f32⟩ : BufTy).Contents (Elt F) → (⟨S100000x128, .f32⟩ : BufTy).Contents (Elt F)),
    StableHlo.binary main_v42 main_v44 main_v45 (addf : (⟨S100000x128, .f32⟩ : BufTy).Contents (Elt F) → (⟨S100000x128, .f32⟩ : BufTy).Contents (Elt F) → (⟨S100000x128, .f32⟩ : BufTy).Contents (Elt F)),
    StableHlo.unary main_arg8 main_v46 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v46 main_v47 rfl shapeCasts_S1x128x128_S128x128,
    StableHlo.binary main_v45 main_v47 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v49 ((extractStridedSlice S1x128 ![0, 0] · slices_S3x128_S1x128_0_0) : (⟨S3x128, .f32⟩ : BufTy).Contents (Elt F) → (⟨S1x128, .f32⟩ : BufTy).Contents (Elt F)),
    StableHlo.reshape main_v49 main_v50 rfl shapeCasts_S1x128_S128,
    StableHlo.unary main_v50 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S100000x128 ![0, 1] bcast_S1x128_S100000x128_0_1 : (⟨S1x128, .f32⟩ : BufTy).Contents (Elt F) → (⟨S100000x128, .f32⟩ : BufTy).Contents (Elt F)),
    StableHlo.binary main_v48 main_v52 main_v53 (addf : (⟨S100000x128, .f32⟩ : BufTy).Contents (Elt F) → (⟨S100000x128, .f32⟩ : BufTy).Contents (Elt F) → (⟨S100000x128, .f32⟩ : BufTy).Contents (Elt F)) ]

abbrev RC1 : List (HloOp τ sig (Elt F)) :=
  [ StableHlo.unary main_arg10 main_v54 ((extractStridedSlice S1x128 ![0, 0] · slices_S3x128_S1x128_0_0) : (⟨S3x128, .f32⟩ : BufTy).Contents (Elt F) → (⟨S1x128, .f32⟩ : BufTy).Contents (Elt F)),
    StableHlo.reshape main_v54 main_v55 rfl shapeCasts_S1x128_S128,
    StableHlo.unary main_arg11 main_v56 ((extractStridedSlice S1x128 ![0, 0] · slices_S3x128_S1x128_0_0) : (⟨S3x128, .f32⟩ : BufTy).Contents (Elt F) → (⟨S1x128, .f32⟩ : BufTy).Contents (Elt F)),
    StableHlo.reshape main_v56 main_v57 rfl shapeCasts_S1x128_S128,
    StableHlo.nullary main_cst_5 (constant S_ .f32 0x00000000#32),
    StableHlo.binary main_v53 main_cst_5 main_v58 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_6 (constant S_ .f32 0x47C35000#32),
    StableHlo.unary main_cst_6 main_v59 (broadcastInDim S128 ![] bcast_S_S128 : (⟨S_, .f32⟩ : BufTy).Contents (Elt F) → (⟨S128, .f32⟩ : BufTy).Contents (Elt F)),
    StableHlo.binary main_v58 main_v59 main_v60 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call1.cst (constant S_ .f32 0x00000000#32),
    StableHlo.TRef.binary (.of main_v53) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v53) main_call1.v4 main_call1.v5 subf,
    StableHlo.TRef.binary main_call1.v5 main_call1.v5 main_call1.v6 mulf,
    StableHlo.TRef.unary (.of main_c_7) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v60 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S100000x128 ![0, 1] bcast_S1x128_S100000x128_0_1 : (⟨S1x128, .f32⟩ : BufTy).Contents (Elt F) → (⟨S100000x128, .f32⟩ : BufTy).Contents (Elt F)),
    StableHlo.binary main_v53 main_v63 main_v64 (subf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x3727C5AC#32),
    StableHlo.unary main_cst_8 main_v65 (broadcastInDim S128 ![] bcast_S_S128 : (⟨S_, .f32⟩ : BufTy).Contents (Elt F) → (⟨S128, .f32⟩ : BufTy).Contents (Elt F)),
    StableHlo.binary main_v61 main_v65 main_v66 (addf : (⟨S128, .f32⟩ : BufTy).Contents (Elt F) → (⟨S128, .f32⟩ : BufTy).Contents (Elt F) → (⟨S128, .f32⟩ : BufTy).Contents (Elt F)),
    StableHlo.unary main_v66 main_v67 (Host.rsqrt : (⟨S128, .f32⟩ : BufTy).Contents (Elt F) → (⟨S128, .f32⟩ : BufTy).Contents (Elt F)),
    StableHlo.unary main_v67 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v69 main_v70 (mulf : (⟨S100000x128, .f32⟩ : BufTy).Contents (Elt F) → (⟨S100000x128, .f32⟩ : BufTy).Contents (Elt F) → (⟨S100000x128, .f32⟩ : BufTy).Contents (Elt F)),
    StableHlo.unary main_v55 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S100000x128 ![0, 1] bcast_S1x128_S100000x128_0_1 : (⟨S1x128, .f32⟩ : BufTy).Contents (Elt F) → (⟨S100000x128, .f32⟩ : BufTy).Contents (Elt F)),
    StableHlo.binary main_v70 main_v72 main_v73 (mulf : (⟨S100000x128, .f32⟩ : BufTy).Contents (Elt F) → (⟨S100000x128, .f32⟩ : BufTy).Contents (Elt F) → (⟨S100000x128, .f32⟩ : BufTy).Contents (Elt F)),
    StableHlo.unary main_v57 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S100000x128 ![0, 1] bcast_S1x128_S100000x128_0_1 : (⟨S1x128, .f32⟩ : BufTy).Contents (Elt F) → (⟨S100000x128, .f32⟩ : BufTy).Contents (Elt F)),
    StableHlo.binary main_v73 main_v75 main_v76 (addf : (⟨S100000x128, .f32⟩ : BufTy).Contents (Elt F) → (⟨S100000x128, .f32⟩ : BufTy).Contents (Elt F) → (⟨S100000x128, .f32⟩ : BufTy).Contents (Elt F)),
    StableHlo.unary main_arg12 main_v77 ((extractStridedSlice S1x128 ![0, 0] · slices_S3x128_S1x128_0_0) : (⟨S3x128, .f32⟩ : BufTy).Contents (Elt F) → (⟨S1x128, .f32⟩ : BufTy).Contents (Elt F)),
    StableHlo.reshape main_v77 main_v78 rfl shapeCasts_S1x128_S128,
    StableHlo.unary main_arg13 main_v79 ((extractStridedSlice S1x128 ![0, 0] · slices_S3x128_S1x128_0_0) : (⟨S3x128, .f32⟩ : BufTy).Contents (Elt F) → (⟨S1x128, .f32⟩ : BufTy).Contents (Elt F)),
    StableHlo.reshape main_v79 main_v80 rfl shapeCasts_S1x128_S128,
    StableHlo.nullary main_cst_9 (constant S_ .f32 0x00000000#32),
    StableHlo.binary main_v76 main_cst_9 main_v81 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_10 (constant S_ .f32 0x47C35000#32),
    StableHlo.unary main_cst_10 main_v82 (broadcastInDim S128 ![] bcast_S_S128 : (⟨S_, .f32⟩ : BufTy).Contents (Elt F) → (⟨S128, .f32⟩ : BufTy).Contents (Elt F)),
    StableHlo.binary main_v81 main_v82 main_v83 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary main_call2.cst (constant S_ .f32 0x00000000#32),
    StableHlo.TRef.binary (.of main_v76) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v76) main_call2.v4 main_call2.v5 subf,
    StableHlo.TRef.binary main_call2.v5 main_call2.v5 main_call2.v6 mulf,
    StableHlo.TRef.unary (.of main_c_11) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v83 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S100000x128 ![0, 1] bcast_S1x128_S100000x128_0_1 : (⟨S1x128, .f32⟩ : BufTy).Contents (Elt F) → (⟨S100000x128, .f32⟩ : BufTy).Contents (Elt F)),
    StableHlo.binary main_v76 main_v86 main_v87 (subf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x3727C5AC#32),
    StableHlo.unary main_cst_12 main_v88 (broadcastInDim S128 ![] bcast_S_S128 : (⟨S_, .f32⟩ : BufTy).Contents (Elt F) → (⟨S128, .f32⟩ : BufTy).Contents (Elt F)),
    StableHlo.binary main_v84 main_v88 main_v89 (addf : (⟨S128, .f32⟩ : BufTy).Contents (Elt F) → (⟨S128, .f32⟩ : BufTy).Contents (Elt F) → (⟨S128, .f32⟩ : BufTy).Contents (Elt F)),
    StableHlo.unary main_v89 main_v90 (Host.rsqrt : (⟨S128, .f32⟩ : BufTy).Contents (Elt F) → (⟨S128, .f32⟩ : BufTy).Contents (Elt F)),
    StableHlo.unary main_v90 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S100000x128 ![0, 1] bcast_S1x128_S100000x128_0_1 : (⟨S1x128, .f32⟩ : BufTy).Contents (Elt F) → (⟨S100000x128, .f32⟩ : BufTy).Contents (Elt F)),
    StableHlo.binary main_v87 main_v92 main_v93 (mulf : (⟨S100000x128, .f32⟩ : BufTy).Contents (Elt F) → (⟨S100000x128, .f32⟩ : BufTy).Contents (Elt F) → (⟨S100000x128, .f32⟩ : BufTy).Contents (Elt F)),
    StableHlo.unary main_v78 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S100000x128 ![0, 1] bcast_S1x128_S100000x128_0_1 : (⟨S1x128, .f32⟩ : BufTy).Contents (Elt F) → (⟨S100000x128, .f32⟩ : BufTy).Contents (Elt F)),
    StableHlo.binary main_v93 main_v95 main_v96 (mulf : (⟨S100000x128, .f32⟩ : BufTy).Contents (Elt F) → (⟨S100000x128, .f32⟩ : BufTy).Contents (Elt F) → (⟨S100000x128, .f32⟩ : BufTy).Contents (Elt F)),
    StableHlo.unary main_v80 main_v97 (broadcastInDim S1x128 ![1] bcast_S128_S1x128_1 : (⟨S128, .f32⟩ : BufTy).Contents (Elt F) → (⟨S1x128, .f32⟩ : BufTy).Contents (Elt F)),
    StableHlo.unary main_v97 main_v98 (broadcastInDim S100000x128 ![0, 1] bcast_S1x128_S100000x128_0_1 : (⟨S1x128, .f32⟩ : BufTy).Contents (Elt F) → (⟨S100000x128, .f32⟩ : BufTy).Contents (Elt F)),
    StableHlo.binary main_v96 main_v98 main_v99 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v99) main_call3.v0 main_call3.v1 maximumf ]

abbrev RA2 : List (HloOp τ sig (Elt F)) :=
  [ StableHlo.nullary main_c_13 (constantI S_ 32 0#32),
    StableHlo.unary main_c_13 main_v101 (broadcastInDim S1600000 ![] bcast_S_S1600000 : (⟨S_, .i32⟩ : BufTy).Contents (Elt F) → (⟨S1600000, .i32⟩ : BufTy).Contents (Elt F)),
    StableHlo.binary main_v1 main_v101 main_v102 (cmpi .slt : (⟨S1600000, .i32⟩ : BufTy).Contents (Elt F) → (⟨S1600000, .i32⟩ : BufTy).Contents (Elt F) → (⟨S1600000, .i1⟩ : BufTy).Contents (Elt F)),
    StableHlo.nullary main_c_14 (constantI S_ 32 100000#32),
    StableHlo.unary main_c_14 main_v103 (broadcastInDim S1600000 ![] bcast_S_S1600000 : (⟨S_, .i32⟩ : BufTy).Contents (Elt F) → (⟨S1600000, .i32⟩ : BufTy).Contents (Elt F)),
    StableHlo.binary main_v1 main_v103 main_v104 (addi : (⟨S1600000, .i32⟩ : BufTy).Contents (Elt F) → (⟨S1600000, .i32⟩ : BufTy).Contents (Elt F) → (⟨S1600000, .i32⟩ : BufTy).Contents (Elt F)),
    StableHlo.ternary main_v102 main_v104 main_v1 main_v105 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v105 main_v106 (broadcastInDim S1600000x1 ![0] bcast_S1600000_S1600000x1_0 : (⟨S1600000, .i32⟩ : BufTy).Contents (Elt F) → (⟨S1600000x1, .i32⟩ : BufTy).Contents (Elt F)),
    StableHlo.binary main_v100 main_v106 main_v107 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_15 (constant S_ .f32 0x00000000#32),
    StableHlo.unary main_cst_15 main_v108 (broadcastInDim S100000x128 ![] bcast_S_S100000x128 : (⟨S_, .f32⟩ : BufTy).Contents (Elt F) → (⟨S100000x128, .f32⟩ : BufTy).Contents (Elt F)),
    StableHlo.unary main_v3 main_v109 (broadcastInDim S1600000x1 ![0] bcast_S1600000_S1600000x1_0 : (⟨S1600000, .i32⟩ : BufTy).Contents (Elt F) → (⟨S1600000x1, .i32⟩ : BufTy).Contents (Elt F)),
    StableHlo.ternary main_v108 main_v109 main_v107 main_v110 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v110 main_v100 main_v111 (addf : (⟨S100000x128, .f32⟩ : BufTy).Contents (Elt F) → (⟨S100000x128, .f32⟩ : BufTy).Contents (Elt F) → (⟨S100000x128, .f32⟩ : BufTy).Contents (Elt F)),
    StableHlo.unary main_arg4 main_v112 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v112 main_v113 rfl shapeCasts_S1x128x128_S128x128,
    StableHlo.binary main_v111 main_v113 main_v114 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v115 ((extractStridedSlice S1x128 ![1, 0] · slices_S3x128_S1x128_1_0) : (⟨S3x128, .f32⟩ : BufTy).Contents (Elt F) → (⟨S1x128, .f32⟩ : BufTy).Contents (Elt F)),
    StableHlo.reshape main_v115 main_v116 rfl shapeCasts_S1x128_S128,
    StableHlo.unary main_v116 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S100000x128 ![0, 1] bcast_S1x128_S100000x128_0_1 : (⟨S1x128, .f32⟩ : BufTy).Contents (Elt F) → (⟨S100000x128, .f32⟩ : BufTy).Contents (Elt F)),
    StableHlo.binary main_v114 main_v118 main_v119 (addf : (⟨S100000x128, .f32⟩ : BufTy).Contents (Elt F) → (⟨S100000x128, .f32⟩ : BufTy).Contents (Elt F) → (⟨S100000x128, .f32⟩ : BufTy).Contents (Elt F)) ]

abbrev RB2 : List (HloOp τ sig (Elt F)) :=
  [ StableHlo.unary main_arg6 main_v120 ((extractStridedSlice S1x128 ![1, 0] · slices_S3x128_S1x128_1_0) : (⟨S3x128, .f32⟩ : BufTy).Contents (Elt F) → (⟨S1x128, .f32⟩ : BufTy).Contents (Elt F)),
    StableHlo.reshape main_v120 main_v121 rfl shapeCasts_S1x128_S128,
    StableHlo.unary main_arg7 main_v122 ((extractStridedSlice S1x128 ![1, 0] · slices_S3x128_S1x128_1_0) : (⟨S3x128, .f32⟩ : BufTy).Contents (Elt F) → (⟨S1x128, .f32⟩ : BufTy).Contents (Elt F)),
    StableHlo.reshape main_v122 main_v123 rfl shapeCasts_S1x128_S128,
    StableHlo.nullary main_cst_16 (constant S_ .f32 0x00000000#32),
    StableHlo.binary main_v119 main_cst_16 main_v124 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_17 (constant S_ .f32 0x47C35000#32),
    StableHlo.unary main_cst_17 main_v125 (broadcastInDim S128 ![] bcast_S_S128 : (⟨S_, .f32⟩ : BufTy).Contents (Elt F) → (⟨S128, .f32⟩ : BufTy).Contents (Elt F)),
    StableHlo.binary main_v124 main_v125 main_v126 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary main_call4.cst (constant S_ .f32 0x00000000#32),
    StableHlo.TRef.binary (.of main_v119) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v119) main_call4.v4 main_call4.v5 subf,
    StableHlo.TRef.binary main_call4.v5 main_call4.v5 main_call4.v6 mulf,
    StableHlo.TRef.unary (.of main_c_18) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v126 main_v128 (broadcastInDim S1x128 ![1] bcast_S128_S1x128_1 : (⟨S128, .f32⟩ : BufTy).Contents (Elt F) → (⟨S1x128, .f32⟩ : BufTy).Contents (Elt F)),
    StableHlo.unary main_v128 main_v129 (broadcastInDim S100000x128 ![0, 1] bcast_S1x128_S100000x128_0_1 : (⟨S1x128, .f32⟩ : BufTy).Contents (Elt F) → (⟨S100000x128, .f32⟩ : BufTy).Contents (Elt F)),
    StableHlo.binary main_v119 main_v129 main_v130 (subf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x3727C5AC#32),
    StableHlo.unary main_cst_19 main_v131 (broadcastInDim S128 ![] bcast_S_S128 : (⟨S_, .f32⟩ : BufTy).Contents (Elt F) → (⟨S128, .f32⟩ : BufTy).Contents (Elt F)),
    StableHlo.binary main_v127 main_v131 main_v132 (addf : (⟨S128, .f32⟩ : BufTy).Contents (Elt F) → (⟨S128, .f32⟩ : BufTy).Contents (Elt F) → (⟨S128, .f32⟩ : BufTy).Contents (Elt F)),
    StableHlo.unary main_v132 main_v133 (Host.rsqrt : (⟨S128, .f32⟩ : BufTy).Contents (Elt F) → (⟨S128, .f32⟩ : BufTy).Contents (Elt F)),
    StableHlo.unary main_v133 main_v134 (broadcastInDim S1x128 ![1] bcast_S128_S1x128_1 : (⟨S128, .f32⟩ : BufTy).Contents (Elt F) → (⟨S1x128, .f32⟩ : BufTy).Contents (Elt F)),
    StableHlo.unary main_v134 main_v135 (broadcastInDim S100000x128 ![0, 1] bcast_S1x128_S100000x128_0_1 : (⟨S1x128, .f32⟩ : BufTy).Contents (Elt F) → (⟨S100000x128, .f32⟩ : BufTy).Contents (Elt F)),
    StableHlo.binary main_v130 main_v135 main_v136 (mulf : (⟨S100000x128, .f32⟩ : BufTy).Contents (Elt F) → (⟨S100000x128, .f32⟩ : BufTy).Contents (Elt F) → (⟨S100000x128, .f32⟩ : BufTy).Contents (Elt F)),
    StableHlo.unary main_v121 main_v137 (broadcastInDim S1x128 ![1] bcast_S128_S1x128_1 : (⟨S128, .f32⟩ : BufTy).Contents (Elt F) → (⟨S1x128, .f32⟩ : BufTy).Contents (Elt F)),
    StableHlo.unary main_v137 main_v138 (broadcastInDim S100000x128 ![0, 1] bcast_S1x128_S100000x128_0_1 : (⟨S1x128, .f32⟩ : BufTy).Contents (Elt F) → (⟨S100000x128, .f32⟩ : BufTy).Contents (Elt F)),
    StableHlo.binary main_v136 main_v138 main_v139 (mulf : (⟨S100000x128, .f32⟩ : BufTy).Contents (Elt F) → (⟨S100000x128, .f32⟩ : BufTy).Contents (Elt F) → (⟨S100000x128, .f32⟩ : BufTy).Contents (Elt F)),
    StableHlo.unary main_v123 main_v140 (broadcastInDim S1x128 ![1] bcast_S128_S1x128_1 : (⟨S128, .f32⟩ : BufTy).Contents (Elt F) → (⟨S1x128, .f32⟩ : BufTy).Contents (Elt F)),
    StableHlo.unary main_v140 main_v141 (broadcastInDim S100000x128 ![0, 1] bcast_S1x128_S100000x128_0_1 : (⟨S1x128, .f32⟩ : BufTy).Contents (Elt F) → (⟨S100000x128, .f32⟩ : BufTy).Contents (Elt F)),
    StableHlo.binary main_v139 main_v141 main_v142 (addf : (⟨S100000x128, .f32⟩ : BufTy).Contents (Elt F) → (⟨S100000x128, .f32⟩ : BufTy).Contents (Elt F) → (⟨S100000x128, .f32⟩ : BufTy).Contents (Elt F)),
    StableHlo.unary main_arg8 main_v143 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v143 main_v144 rfl shapeCasts_S1x128x128_S128x128,
    StableHlo.binary main_v142 main_v144 main_v145 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v146 ((extractStridedSlice S1x128 ![1, 0] · slices_S3x128_S1x128_1_0) : (⟨S3x128, .f32⟩ : BufTy).Contents (Elt F) → (⟨S1x128, .f32⟩ : BufTy).Contents (Elt F)),
    StableHlo.reshape main_v146 main_v147 rfl shapeCasts_S1x128_S128,
    StableHlo.unary main_v147 main_v148 (broadcastInDim S1x128 ![1] bcast_S128_S1x128_1 : (⟨S128, .f32⟩ : BufTy).Contents (Elt F) → (⟨S1x128, .f32⟩ : BufTy).Contents (Elt F)),
    StableHlo.unary main_v148 main_v149 (broadcastInDim S100000x128 ![0, 1] bcast_S1x128_S100000x128_0_1 : (⟨S1x128, .f32⟩ : BufTy).Contents (Elt F) → (⟨S100000x128, .f32⟩ : BufTy).Contents (Elt F)),
    StableHlo.binary main_v145 main_v149 main_v150 (addf : (⟨S100000x128, .f32⟩ : BufTy).Contents (Elt F) → (⟨S100000x128, .f32⟩ : BufTy).Contents (Elt F) → (⟨S100000x128, .f32⟩ : BufTy).Contents (Elt F)) ]

abbrev RC2 : List (HloOp τ sig (Elt F)) :=
  [ StableHlo.unary main_arg10 main_v151 ((extractStridedSlice S1x128 ![1, 0] · slices_S3x128_S1x128_1_0) : (⟨S3x128, .f32⟩ : BufTy).Contents (Elt F) → (⟨S1x128, .f32⟩ : BufTy).Contents (Elt F)),
    StableHlo.reshape main_v151 main_v152 rfl shapeCasts_S1x128_S128,
    StableHlo.unary main_arg11 main_v153 ((extractStridedSlice S1x128 ![1, 0] · slices_S3x128_S1x128_1_0) : (⟨S3x128, .f32⟩ : BufTy).Contents (Elt F) → (⟨S1x128, .f32⟩ : BufTy).Contents (Elt F)),
    StableHlo.reshape main_v153 main_v154 rfl shapeCasts_S1x128_S128,
    StableHlo.nullary main_cst_20 (constant S_ .f32 0x00000000#32),
    StableHlo.binary main_v150 main_cst_20 main_v155 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_21 (constant S_ .f32 0x47C35000#32),
    StableHlo.unary main_cst_21 main_v156 (broadcastInDim S128 ![] bcast_S_S128 : (⟨S_, .f32⟩ : BufTy).Contents (Elt F) → (⟨S128, .f32⟩ : BufTy).Contents (Elt F)),
    StableHlo.binary main_v155 main_v156 main_v157 (Host.divf : (⟨S128, .f32⟩ : BufTy).Contents (Elt F) → (⟨S128, .f32⟩ : BufTy).Contents (Elt F) → (⟨S128, .f32⟩ : BufTy).Contents (Elt F)),
    StableHlo.nullary main_c_22 (constantI S_ 32 0#32),
    StableHlo.TRef.nullary main_call5.cst (constant S_ .f32 0x00000000#32),
    StableHlo.TRef.binary (.of main_v150) main_call5.cst main_call5.v0 (fun x v => Host.reduceAdd x v reducesTo_S100000x128_S128_d0 h_S_),
    StableHlo.TRef.unary main_call5.v0 main_call5.v1 (broadcastInDim S1x128 ![1] bcast_S128_S1x128_1),
    StableHlo.TRef.nullary main_call5.cst_0 (constant S_ .f32 0x47C35000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S100000x128 ![0, 1] bcast_S1x128_S100000x128_0_1),
    StableHlo.TRef.binary (.of main_v150) main_call5.v4 main_call5.v5 subf,
    StableHlo.TRef.binary main_call5.v5 main_call5.v5 main_call5.v6 mulf,
    StableHlo.TRef.unary (.of main_c_22) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v157 main_v159 (broadcastInDim S1x128 ![1] bcast_S128_S1x128_1 : (⟨S128, .f32⟩ : BufTy).Contents (Elt F) → (⟨S1x128, .f32⟩ : BufTy).Contents (Elt F)),
    StableHlo.unary main_v159 main_v160 (broadcastInDim S100000x128 ![0, 1] bcast_S1x128_S100000x128_0_1 : (⟨S1x128, .f32⟩ : BufTy).Contents (Elt F) → (⟨S100000x128, .f32⟩ : BufTy).Contents (Elt F)),
    StableHlo.binary main_v150 main_v160 main_v161 (subf : (⟨S100000x128, .f32⟩ : BufTy).Contents (Elt F) → (⟨S100000x128, .f32⟩ : BufTy).Contents (Elt F) → (⟨S100000x128, .f32⟩ : BufTy).Contents (Elt F)),
    StableHlo.nullary main_cst_23 (constant S_ .f32 0x3727C5AC#32),
    StableHlo.unary main_cst_23 main_v162 (broadcastInDim S128 ![] bcast_S_S128 : (⟨S_, .f32⟩ : BufTy).Contents (Elt F) → (⟨S128, .f32⟩ : BufTy).Contents (Elt F)),
    StableHlo.binary main_v158 main_v162 main_v163 (addf : (⟨S128, .f32⟩ : BufTy).Contents (Elt F) → (⟨S128, .f32⟩ : BufTy).Contents (Elt F) → (⟨S128, .f32⟩ : BufTy).Contents (Elt F)),
    StableHlo.unary main_v163 main_v164 (Host.rsqrt : (⟨S128, .f32⟩ : BufTy).Contents (Elt F) → (⟨S128, .f32⟩ : BufTy).Contents (Elt F)),
    StableHlo.unary main_v164 main_v165 (broadcastInDim S1x128 ![1] bcast_S128_S1x128_1 : (⟨S128, .f32⟩ : BufTy).Contents (Elt F) → (⟨S1x128, .f32⟩ : BufTy).Contents (Elt F)),
    StableHlo.unary main_v165 main_v166 (broadcastInDim S100000x128 ![0, 1] bcast_S1x128_S100000x128_0_1 : (⟨S1x128, .f32⟩ : BufTy).Contents (Elt F) → (⟨S100000x128, .f32⟩ : BufTy).Contents (Elt F)),
    StableHlo.binary main_v161 main_v166 main_v167 (mulf : (⟨S100000x128, .f32⟩ : BufTy).Contents (Elt F) → (⟨S100000x128, .f32⟩ : BufTy).Contents (Elt F) → (⟨S100000x128, .f32⟩ : BufTy).Contents (Elt F)),
    StableHlo.unary main_v152 main_v168 (broadcastInDim S1x128 ![1] bcast_S128_S1x128_1 : (⟨S128, .f32⟩ : BufTy).Contents (Elt F) → (⟨S1x128, .f32⟩ : BufTy).Contents (Elt F)),
    StableHlo.unary main_v168 main_v169 (broadcastInDim S100000x128 ![0, 1] bcast_S1x128_S100000x128_0_1 : (⟨S1x128, .f32⟩ : BufTy).Contents (Elt F) → (⟨S100000x128, .f32⟩ : BufTy).Contents (Elt F)),
    StableHlo.binary main_v167 main_v169 main_v170 (mulf : (⟨S100000x128, .f32⟩ : BufTy).Contents (Elt F) → (⟨S100000x128, .f32⟩ : BufTy).Contents (Elt F) → (⟨S100000x128, .f32⟩ : BufTy).Contents (Elt F)),
    StableHlo.unary main_v154 main_v171 (broadcastInDim S1x128 ![1] bcast_S128_S1x128_1 : (⟨S128, .f32⟩ : BufTy).Contents (Elt F) → (⟨S1x128, .f32⟩ : BufTy).Contents (Elt F)),
    StableHlo.unary main_v171 main_v172 (broadcastInDim S100000x128 ![0, 1] bcast_S1x128_S100000x128_0_1 : (⟨S1x128, .f32⟩ : BufTy).Contents (Elt F) → (⟨S100000x128, .f32⟩ : BufTy).Contents (Elt F)),
    StableHlo.binary main_v170 main_v172 main_v173 (addf : (⟨S100000x128, .f32⟩ : BufTy).Contents (Elt F) → (⟨S100000x128, .f32⟩ : BufTy).Contents (Elt F) → (⟨S100000x128, .f32⟩ : BufTy).Contents (Elt F)),
    StableHlo.unary main_arg12 main_v174 ((extractStridedSlice S1x128 ![1, 0] · slices_S3x128_S1x128_1_0) : (⟨S3x128, .f32⟩ : BufTy).Contents (Elt F) → (⟨S1x128, .f32⟩ : BufTy).Contents (Elt F)),
    StableHlo.reshape main_v174 main_v175 rfl shapeCasts_S1x128_S128,
    StableHlo.unary main_arg13 main_v176 ((extractStridedSlice S1x128 ![1, 0] · slices_S3x128_S1x128_1_0) : (⟨S3x128, .f32⟩ : BufTy).Contents (Elt F) → (⟨S1x128, .f32⟩ : BufTy).Contents (Elt F)),
    StableHlo.reshape main_v176 main_v177 rfl shapeCasts_S1x128_S128,
    StableHlo.nullary main_cst_24 (constant S_ .f32 0x00000000#32),
    StableHlo.binary main_v173 main_cst_24 main_v178 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_25 (constant S_ .f32 0x47C35000#32),
    StableHlo.unary main_cst_25 main_v179 (broadcastInDim S128 ![] bcast_S_S128 : (⟨S_, .f32⟩ : BufTy).Contents (Elt F) → (⟨S128, .f32⟩ : BufTy).Contents (Elt F)),
    StableHlo.binary main_v178 main_v179 main_v180 (Host.divf : (⟨S128, .f32⟩ : BufTy).Contents (Elt F) → (⟨S128, .f32⟩ : BufTy).Contents (Elt F) → (⟨S128, .f32⟩ : BufTy).Contents (Elt F)),
    StableHlo.nullary main_c_26 (constantI S_ 32 0#32),
    StableHlo.TRef.nullary main_call6.cst (constant S_ .f32 0x00000000#32),
    StableHlo.TRef.binary (.of main_v173) main_call6.cst main_call6.v0 (fun x v => Host.reduceAdd x v reducesTo_S100000x128_S128_d0 h_S_),
    StableHlo.TRef.unary main_call6.v0 main_call6.v1 (broadcastInDim S1x128 ![1] bcast_S128_S1x128_1),
    StableHlo.TRef.nullary main_call6.cst_0 (constant S_ .f32 0x47C35000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S100000x128 ![0, 1] bcast_S1x128_S100000x128_0_1),
    StableHlo.TRef.binary (.of main_v173) main_call6.v4 main_call6.v5 subf,
    StableHlo.TRef.binary main_call6.v5 main_call6.v5 main_call6.v6 mulf,
    StableHlo.TRef.unary (.of main_c_26) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v180 main_v182 (broadcastInDim S1x128 ![1] bcast_S128_S1x128_1 : (⟨S128, .f32⟩ : BufTy).Contents (Elt F) → (⟨S1x128, .f32⟩ : BufTy).Contents (Elt F)),
    StableHlo.unary main_v182 main_v183 (broadcastInDim S100000x128 ![0, 1] bcast_S1x128_S100000x128_0_1 : (⟨S1x128, .f32⟩ : BufTy).Contents (Elt F) → (⟨S100000x128, .f32⟩ : BufTy).Contents (Elt F)),
    StableHlo.binary main_v173 main_v183 main_v184 (subf : (⟨S100000x128, .f32⟩ : BufTy).Contents (Elt F) → (⟨S100000x128, .f32⟩ : BufTy).Contents (Elt F) → (⟨S100000x128, .f32⟩ : BufTy).Contents (Elt F)),
    StableHlo.nullary main_cst_27 (constant S_ .f32 0x3727C5AC#32),
    StableHlo.unary main_cst_27 main_v185 (broadcastInDim S128 ![] bcast_S_S128 : (⟨S_, .f32⟩ : BufTy).Contents (Elt F) → (⟨S128, .f32⟩ : BufTy).Contents (Elt F)),
    StableHlo.binary main_v181 main_v185 main_v186 (addf : (⟨S128, .f32⟩ : BufTy).Contents (Elt F) → (⟨S128, .f32⟩ : BufTy).Contents (Elt F) → (⟨S128, .f32⟩ : BufTy).Contents (Elt F)),
    StableHlo.unary main_v186 main_v187 (Host.rsqrt : (⟨S128, .f32⟩ : BufTy).Contents (Elt F) → (⟨S128, .f32⟩ : BufTy).Contents (Elt F)),
    StableHlo.unary main_v187 main_v188 (broadcastInDim S1x128 ![1] bcast_S128_S1x128_1 : (⟨S128, .f32⟩ : BufTy).Contents (Elt F) → (⟨S1x128, .f32⟩ : BufTy).Contents (Elt F)),
    StableHlo.unary main_v188 main_v189 (broadcastInDim S100000x128 ![0, 1] bcast_S1x128_S100000x128_0_1 : (⟨S1x128, .f32⟩ : BufTy).Contents (Elt F) → (⟨S100000x128, .f32⟩ : BufTy).Contents (Elt F)),
    StableHlo.binary main_v184 main_v189 main_v190 (mulf : (⟨S100000x128, .f32⟩ : BufTy).Contents (Elt F) → (⟨S100000x128, .f32⟩ : BufTy).Contents (Elt F) → (⟨S100000x128, .f32⟩ : BufTy).Contents (Elt F)),
    StableHlo.unary main_v175 main_v191 (broadcastInDim S1x128 ![1] bcast_S128_S1x128_1 : (⟨S128, .f32⟩ : BufTy).Contents (Elt F) → (⟨S1x128, .f32⟩ : BufTy).Contents (Elt F)),
    StableHlo.unary main_v191 main_v192 (broadcastInDim S100000x128 ![0, 1] bcast_S1x128_S100000x128_0_1 : (⟨S1x128, .f32⟩ : BufTy).Contents (Elt F) → (⟨S100000x128, .f32⟩ : BufTy).Contents (Elt F)),
    StableHlo.binary main_v190 main_v192 main_v193 (mulf : (⟨S100000x128, .f32⟩ : BufTy).Contents (Elt F) → (⟨S100000x128, .f32⟩ : BufTy).Contents (Elt F) → (⟨S100000x128, .f32⟩ : BufTy).Contents (Elt F)),
    StableHlo.unary main_v177 main_v194 (broadcastInDim S1x128 ![1] bcast_S128_S1x128_1 : (⟨S128, .f32⟩ : BufTy).Contents (Elt F) → (⟨S1x128, .f32⟩ : BufTy).Contents (Elt F)),
    StableHlo.unary main_v194 main_v195 (broadcastInDim S100000x128 ![0, 1] bcast_S1x128_S100000x128_0_1 : (⟨S1x128, .f32⟩ : BufTy).Contents (Elt F) → (⟨S100000x128, .f32⟩ : BufTy).Contents (Elt F)),
    StableHlo.binary main_v193 main_v195 main_v196 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (.of main_v196) main_call7.v0 main_call7.v1 maximumf ]

abbrev RA3 : List (HloOp τ sig (Elt F)) :=
  [ StableHlo.nullary main_c_28 (constantI S_ 32 0#32),
    StableHlo.unary main_c_28 main_v198 (broadcastInDim S1600000 ![] bcast_S_S1600000 : (⟨S_, .i32⟩ : BufTy).Contents (Elt F) → (⟨S1600000, .i32⟩ : BufTy).Contents (Elt F)),
    StableHlo.binary main_v1 main_v198 main_v199 (cmpi .slt : (⟨S1600000, .i32⟩ : BufTy).Contents (Elt F) → (⟨S1600000, .i32⟩ : BufTy).Contents (Elt F) → (⟨S1600000, .i1⟩ : BufTy).Contents (Elt F)),
    StableHlo.nullary main_c_29 (constantI S_ 32 100000#32),
    StableHlo.unary main_c_29 main_v200 (broadcastInDim S1600000 ![] bcast_S_S1600000 : (⟨S_, .i32⟩ : BufTy).Contents (Elt F) → (⟨S1600000, .i32⟩ : BufTy).Contents (Elt F)),
    StableHlo.binary main_v1 main_v200 main_v201 (addi : (⟨S1600000, .i32⟩ : BufTy).Contents (Elt F) → (⟨S1600000, .i32⟩ : BufTy).Contents (Elt F) → (⟨S1600000, .i32⟩ : BufTy).Contents (Elt F)),
    StableHlo.ternary main_v199 main_v201 main_v1 main_v202 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v202 main_v203 (broadcastInDim S1600000x1 ![0] bcast_S1600000_S1600000x1_0 : (⟨S1600000, .i32⟩ : BufTy).Contents (Elt F) → (⟨S1600000x1, .i32⟩ : BufTy).Contents (Elt F)),
    StableHlo.binary main_v197 main_v203 main_v204 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_30 (constant S_ .f32 0x00000000#32),
    StableHlo.unary main_cst_30 main_v205 (broadcastInDim S100000x128 ![] bcast_S_S100000x128 : (⟨S_, .f32⟩ : BufTy).Contents (Elt F) → (⟨S100000x128, .f32⟩ : BufTy).Contents (Elt F)),
    StableHlo.unary main_v3 main_v206 (broadcastInDim S1600000x1 ![0] bcast_S1600000_S1600000x1_0 : (⟨S1600000, .i32⟩ : BufTy).Contents (Elt F) → (⟨S1600000x1, .i32⟩ : BufTy).Contents (Elt F)),
    StableHlo.ternary main_v205 main_v206 main_v204 main_v207 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v207 main_v197 main_v208 (addf : (⟨S100000x128, .f32⟩ : BufTy).Contents (Elt F) → (⟨S100000x128, .f32⟩ : BufTy).Contents (Elt F) → (⟨S100000x128, .f32⟩ : BufTy).Contents (Elt F)),
    StableHlo.unary main_arg4 main_v209 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v209 main_v210 rfl shapeCasts_S1x128x128_S128x128,
    StableHlo.binary main_v208 main_v210 main_v211 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v212 ((extractStridedSlice S1x128 ![2, 0] · slices_S3x128_S1x128_2_0) : (⟨S3x128, .f32⟩ : BufTy).Contents (Elt F) → (⟨S1x128, .f32⟩ : BufTy).Contents (Elt F)),
    StableHlo.reshape main_v212 main_v213 rfl shapeCasts_S1x128_S128,
    StableHlo.unary main_v213 main_v214 (broadcastInDim S1x128 ![1] bcast_S128_S1x128_1 : (⟨S128, .f32⟩ : BufTy).Contents (Elt F) → (⟨S1x128, .f32⟩ : BufTy).Contents (Elt F)),
    StableHlo.unary main_v214 main_v215 (broadcastInDim S100000x128 ![0, 1] bcast_S1x128_S100000x128_0_1 : (⟨S1x128, .f32⟩ : BufTy).Contents (Elt F) → (⟨S100000x128, .f32⟩ : BufTy).Contents (Elt F)),
    StableHlo.binary main_v211 main_v215 main_v216 (addf : (⟨S100000x128, .f32⟩ : BufTy).Contents (Elt F) → (⟨S100000x128, .f32⟩ : BufTy).Contents (Elt F) → (⟨S100000x128, .f32⟩ : BufTy).Contents (Elt F)) ]

abbrev RB3 : List (HloOp τ sig (Elt F)) :=
  [ StableHlo.unary main_arg6 main_v217 ((extractStridedSlice S1x128 ![2, 0] · slices_S3x128_S1x128_2_0) : (⟨S3x128, .f32⟩ : BufTy).Contents (Elt F) → (⟨S1x128, .f32⟩ : BufTy).Contents (Elt F)),
    StableHlo.reshape main_v217 main_v218 rfl shapeCasts_S1x128_S128,
    StableHlo.unary main_arg7 main_v219 ((extractStridedSlice S1x128 ![2, 0] · slices_S3x128_S1x128_2_0) : (⟨S3x128, .f32⟩ : BufTy).Contents (Elt F) → (⟨S1x128, .f32⟩ : BufTy).Contents (Elt F)),
    StableHlo.reshape main_v219 main_v220 rfl shapeCasts_S1x128_S128,
    StableHlo.nullary main_cst_31 (constant S_ .f32 0x00000000#32),
    StableHlo.binary main_v216 main_cst_31 main_v221 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_32 (constant S_ .f32 0x47C35000#32),
    StableHlo.unary main_cst_32 main_v222 (broadcastInDim S128 ![] bcast_S_S128 : (⟨S_, .f32⟩ : BufTy).Contents (Elt F) → (⟨S128, .f32⟩ : BufTy).Contents (Elt F)),
    StableHlo.binary main_v221 main_v222 main_v223 (Host.divf : (⟨S128, .f32⟩ : BufTy).Contents (Elt F) → (⟨S128, .f32⟩ : BufTy).Contents (Elt F) → (⟨S128, .f32⟩ : BufTy).Contents (Elt F)),
    StableHlo.nullary main_c_33 (constantI S_ 32 0#32),
    StableHlo.TRef.nullary main_call8.cst (constant S_ .f32 0x00000000#32),
    StableHlo.TRef.binary (.of main_v216) main_call8.cst main_call8.v0 (fun x v => Host.reduceAdd x v reducesTo_S100000x128_S128_d0 h_S_),
    StableHlo.TRef.unary main_call8.v0 main_call8.v1 (broadcastInDim S1x128 ![1] bcast_S128_S1x128_1),
    StableHlo.TRef.nullary main_call8.cst_0 (constant S_ .f32 0x47C35000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S100000x128 ![0, 1] bcast_S1x128_S100000x128_0_1),
    StableHlo.TRef.binary (.of main_v216) main_call8.v4 main_call8.v5 subf,
    StableHlo.TRef.binary main_call8.v5 main_call8.v5 main_call8.v6 mulf,
    StableHlo.TRef.unary (.of main_c_33) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v223 main_v225 (broadcastInDim S1x128 ![1] bcast_S128_S1x128_1 : (⟨S128, .f32⟩ : BufTy).Contents (Elt F) → (⟨S1x128, .f32⟩ : BufTy).Contents (Elt F)),
    StableHlo.unary main_v225 main_v226 (broadcastInDim S100000x128 ![0, 1] bcast_S1x128_S100000x128_0_1 : (⟨S1x128, .f32⟩ : BufTy).Contents (Elt F) → (⟨S100000x128, .f32⟩ : BufTy).Contents (Elt F)),
    StableHlo.binary main_v216 main_v226 main_v227 (subf : (⟨S100000x128, .f32⟩ : BufTy).Contents (Elt F) → (⟨S100000x128, .f32⟩ : BufTy).Contents (Elt F) → (⟨S100000x128, .f32⟩ : BufTy).Contents (Elt F)),
    StableHlo.nullary main_cst_34 (constant S_ .f32 0x3727C5AC#32),
    StableHlo.unary main_cst_34 main_v228 (broadcastInDim S128 ![] bcast_S_S128 : (⟨S_, .f32⟩ : BufTy).Contents (Elt F) → (⟨S128, .f32⟩ : BufTy).Contents (Elt F)),
    StableHlo.binary main_v224 main_v228 main_v229 (addf : (⟨S128, .f32⟩ : BufTy).Contents (Elt F) → (⟨S128, .f32⟩ : BufTy).Contents (Elt F) → (⟨S128, .f32⟩ : BufTy).Contents (Elt F)),
    StableHlo.unary main_v229 main_v230 (Host.rsqrt : (⟨S128, .f32⟩ : BufTy).Contents (Elt F) → (⟨S128, .f32⟩ : BufTy).Contents (Elt F)),
    StableHlo.unary main_v230 main_v231 (broadcastInDim S1x128 ![1] bcast_S128_S1x128_1 : (⟨S128, .f32⟩ : BufTy).Contents (Elt F) → (⟨S1x128, .f32⟩ : BufTy).Contents (Elt F)),
    StableHlo.unary main_v231 main_v232 (broadcastInDim S100000x128 ![0, 1] bcast_S1x128_S100000x128_0_1 : (⟨S1x128, .f32⟩ : BufTy).Contents (Elt F) → (⟨S100000x128, .f32⟩ : BufTy).Contents (Elt F)),
    StableHlo.binary main_v227 main_v232 main_v233 (mulf : (⟨S100000x128, .f32⟩ : BufTy).Contents (Elt F) → (⟨S100000x128, .f32⟩ : BufTy).Contents (Elt F) → (⟨S100000x128, .f32⟩ : BufTy).Contents (Elt F)),
    StableHlo.unary main_v218 main_v234 (broadcastInDim S1x128 ![1] bcast_S128_S1x128_1 : (⟨S128, .f32⟩ : BufTy).Contents (Elt F) → (⟨S1x128, .f32⟩ : BufTy).Contents (Elt F)),
    StableHlo.unary main_v234 main_v235 (broadcastInDim S100000x128 ![0, 1] bcast_S1x128_S100000x128_0_1 : (⟨S1x128, .f32⟩ : BufTy).Contents (Elt F) → (⟨S100000x128, .f32⟩ : BufTy).Contents (Elt F)),
    StableHlo.binary main_v233 main_v235 main_v236 (mulf : (⟨S100000x128, .f32⟩ : BufTy).Contents (Elt F) → (⟨S100000x128, .f32⟩ : BufTy).Contents (Elt F) → (⟨S100000x128, .f32⟩ : BufTy).Contents (Elt F)),
    StableHlo.unary main_v220 main_v237 (broadcastInDim S1x128 ![1] bcast_S128_S1x128_1 : (⟨S128, .f32⟩ : BufTy).Contents (Elt F) → (⟨S1x128, .f32⟩ : BufTy).Contents (Elt F)),
    StableHlo.unary main_v237 main_v238 (broadcastInDim S100000x128 ![0, 1] bcast_S1x128_S100000x128_0_1 : (⟨S1x128, .f32⟩ : BufTy).Contents (Elt F) → (⟨S100000x128, .f32⟩ : BufTy).Contents (Elt F)),
    StableHlo.binary main_v236 main_v238 main_v239 (addf : (⟨S100000x128, .f32⟩ : BufTy).Contents (Elt F) → (⟨S100000x128, .f32⟩ : BufTy).Contents (Elt F) → (⟨S100000x128, .f32⟩ : BufTy).Contents (Elt F)),
    StableHlo.unary main_arg8 main_v240 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v240 main_v241 rfl shapeCasts_S1x128x128_S128x128,
    StableHlo.binary main_v239 main_v241 main_v242 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v243 ((extractStridedSlice S1x128 ![2, 0] · slices_S3x128_S1x128_2_0) : (⟨S3x128, .f32⟩ : BufTy).Contents (Elt F) → (⟨S1x128, .f32⟩ : BufTy).Contents (Elt F)),
    StableHlo.reshape main_v243 main_v244 rfl shapeCasts_S1x128_S128,
    StableHlo.unary main_v244 main_v245 (broadcastInDim S1x128 ![1] bcast_S128_S1x128_1 : (⟨S128, .f32⟩ : BufTy).Contents (Elt F) → (⟨S1x128, .f32⟩ : BufTy).Contents (Elt F)),
    StableHlo.unary main_v245 main_v246 (broadcastInDim S100000x128 ![0, 1] bcast_S1x128_S100000x128_0_1 : (⟨S1x128, .f32⟩ : BufTy).Contents (Elt F) → (⟨S100000x128, .f32⟩ : BufTy).Contents (Elt F)),
    StableHlo.binary main_v242 main_v246 main_v247 (addf : (⟨S100000x128, .f32⟩ : BufTy).Contents (Elt F) → (⟨S100000x128, .f32⟩ : BufTy).Contents (Elt F) → (⟨S100000x128, .f32⟩ : BufTy).Contents (Elt F)) ]

abbrev RC3 : List (HloOp τ sig (Elt F)) :=
  [ StableHlo.unary main_arg10 main_v248 ((extractStridedSlice S1x128 ![2, 0] · slices_S3x128_S1x128_2_0) : (⟨S3x128, .f32⟩ : BufTy).Contents (Elt F) → (⟨S1x128, .f32⟩ : BufTy).Contents (Elt F)),
    StableHlo.reshape main_v248 main_v249 rfl shapeCasts_S1x128_S128,
    StableHlo.unary main_arg11 main_v250 ((extractStridedSlice S1x128 ![2, 0] · slices_S3x128_S1x128_2_0) : (⟨S3x128, .f32⟩ : BufTy).Contents (Elt F) → (⟨S1x128, .f32⟩ : BufTy).Contents (Elt F)),
    StableHlo.reshape main_v250 main_v251 rfl shapeCasts_S1x128_S128,
    StableHlo.nullary main_cst_35 (constant S_ .f32 0x00000000#32),
    StableHlo.binary main_v247 main_cst_35 main_v252 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_36 (constant S_ .f32 0x47C35000#32),
    StableHlo.unary main_cst_36 main_v253 (broadcastInDim S128 ![] bcast_S_S128 : (⟨S_, .f32⟩ : BufTy).Contents (Elt F) → (⟨S128, .f32⟩ : BufTy).Contents (Elt F)),
    StableHlo.binary main_v252 main_v253 main_v254 (Host.divf : (⟨S128, .f32⟩ : BufTy).Contents (Elt F) → (⟨S128, .f32⟩ : BufTy).Contents (Elt F) → (⟨S128, .f32⟩ : BufTy).Contents (Elt F)),
    StableHlo.nullary main_c_37 (constantI S_ 32 0#32),
    StableHlo.TRef.nullary main_call9.cst (constant S_ .f32 0x00000000#32),
    StableHlo.TRef.binary (.of main_v247) main_call9.cst main_call9.v0 (fun x v => Host.reduceAdd x v reducesTo_S100000x128_S128_d0 h_S_),
    StableHlo.TRef.unary main_call9.v0 main_call9.v1 (broadcastInDim S1x128 ![1] bcast_S128_S1x128_1),
    StableHlo.TRef.nullary main_call9.cst_0 (constant S_ .f32 0x47C35000#32),
    StableHlo.TRef.unary main_call9.cst_0 main_call9.v2 (broadcastInDim S1x128 ![] bcast_S_S1x128),
    StableHlo.TRef.binary main_call9.v1 main_call9.v2 main_call9.v3 Host.divf,
    StableHlo.TRef.unary main_call9.v3 main_call9.v4 (broadcastInDim S100000x128 ![0, 1] bcast_S1x128_S100000x128_0_1),
    StableHlo.TRef.binary (.of main_v247) main_call9.v4 main_call9.v5 subf,
    StableHlo.TRef.binary main_call9.v5 main_call9.v5 main_call9.v6 mulf,
    StableHlo.TRef.unary (.of main_c_37) main_call9.v7 (sitofp .f32),
    StableHlo.TRef.nullary main_call9.cst_1 (constant S_ .f32 0x47C35000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S100000x128_S128_d0 h_S_),
    StableHlo.TRef.unary main_call9.v8 main_call9.v10 (broadcastInDim S128 ![] bcast_S_S128),
    StableHlo.TRef.binary main_call9.v9 main_call9.v10 main_call9.v11 Host.divf,
    StableHlo.TRef.nullary main_call9.cst_3 (constant S_ .f32 0x00000000#32),
    StableHlo.TRef.binary main_call9.v8 main_call9.cst_3 main_call9.v12 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S128 ![] bcast_S_S128),
    StableHlo.TRef.ternary main_call9.v12 main_call9.v11 main_call9.call0.v1 main_call9.call0.v2 (fun p a b => select (broadcastInDim S128 ![] bcast_S_S128 p) a b),
    StableHlo.unary main_v254 main_v256 (broadcastInDim S1x128 ![1] bcast_S128_S1x128_1 : (⟨S128, .f32⟩ : BufTy).Contents (Elt F) → (⟨S1x128, .f32⟩ : BufTy).Contents (Elt F)),
    StableHlo.unary main_v256 main_v257 (broadcastInDim S100000x128 ![0, 1] bcast_S1x128_S100000x128_0_1 : (⟨S1x128, .f32⟩ : BufTy).Contents (Elt F) → (⟨S100000x128, .f32⟩ : BufTy).Contents (Elt F)),
    StableHlo.binary main_v247 main_v257 main_v258 (subf : (⟨S100000x128, .f32⟩ : BufTy).Contents (Elt F) → (⟨S100000x128, .f32⟩ : BufTy).Contents (Elt F) → (⟨S100000x128, .f32⟩ : BufTy).Contents (Elt F)),
    StableHlo.nullary main_cst_38 (constant S_ .f32 0x3727C5AC#32),
    StableHlo.unary main_cst_38 main_v259 (broadcastInDim S128 ![] bcast_S_S128 : (⟨S_, .f32⟩ : BufTy).Contents (Elt F) → (⟨S128, .f32⟩ : BufTy).Contents (Elt F)),
    StableHlo.binary main_v255 main_v259 main_v260 (addf : (⟨S128, .f32⟩ : BufTy).Contents (Elt F) → (⟨S128, .f32⟩ : BufTy).Contents (Elt F) → (⟨S128, .f32⟩ : BufTy).Contents (Elt F)),
    StableHlo.unary main_v260 main_v261 (Host.rsqrt : (⟨S128, .f32⟩ : BufTy).Contents (Elt F) → (⟨S128, .f32⟩ : BufTy).Contents (Elt F)),
    StableHlo.unary main_v261 main_v262 (broadcastInDim S1x128 ![1] bcast_S128_S1x128_1 : (⟨S128, .f32⟩ : BufTy).Contents (Elt F) → (⟨S1x128, .f32⟩ : BufTy).Contents (Elt F)),
    StableHlo.unary main_v262 main_v263 (broadcastInDim S100000x128 ![0, 1] bcast_S1x128_S100000x128_0_1 : (⟨S1x128, .f32⟩ : BufTy).Contents (Elt F) → (⟨S100000x128, .f32⟩ : BufTy).Contents (Elt F)),
    StableHlo.binary main_v258 main_v263 main_v264 (mulf : (⟨S100000x128, .f32⟩ : BufTy).Contents (Elt F) → (⟨S100000x128, .f32⟩ : BufTy).Contents (Elt F) → (⟨S100000x128, .f32⟩ : BufTy).Contents (Elt F)),
    StableHlo.unary main_v249 main_v265 (broadcastInDim S1x128 ![1] bcast_S128_S1x128_1 : (⟨S128, .f32⟩ : BufTy).Contents (Elt F) → (⟨S1x128, .f32⟩ : BufTy).Contents (Elt F)),
    StableHlo.unary main_v265 main_v266 (broadcastInDim S100000x128 ![0, 1] bcast_S1x128_S100000x128_0_1 : (⟨S1x128, .f32⟩ : BufTy).Contents (Elt F) → (⟨S100000x128, .f32⟩ : BufTy).Contents (Elt F)),
    StableHlo.binary main_v264 main_v266 main_v267 (mulf : (⟨S100000x128, .f32⟩ : BufTy).Contents (Elt F) → (⟨S100000x128, .f32⟩ : BufTy).Contents (Elt F) → (⟨S100000x128, .f32⟩ : BufTy).Contents (Elt F)),
    StableHlo.unary main_v251 main_v268 (broadcastInDim S1x128 ![1] bcast_S128_S1x128_1 : (⟨S128, .f32⟩ : BufTy).Contents (Elt F) → (⟨S1x128, .f32⟩ : BufTy).Contents (Elt F)),
    StableHlo.unary main_v268 main_v269 (broadcastInDim S100000x128 ![0, 1] bcast_S1x128_S100000x128_0_1 : (⟨S1x128, .f32⟩ : BufTy).Contents (Elt F) → (⟨S100000x128, .f32⟩ : BufTy).Contents (Elt F)),
    StableHlo.binary main_v267 main_v269 main_v270 (addf : (⟨S100000x128, .f32⟩ : BufTy).Contents (Elt F) → (⟨S100000x128, .f32⟩ : BufTy).Contents (Elt F) → (⟨S100000x128, .f32⟩ : BufTy).Contents (Elt F)),
    StableHlo.unary main_arg12 main_v271 ((extractStridedSlice S1x128 ![2, 0] · slices_S3x128_S1x128_2_0) : (⟨S3x128, .f32⟩ : BufTy).Contents (Elt F) → (⟨S1x128, .f32⟩ : BufTy).Contents (Elt F)),
    StableHlo.reshape main_v271 main_v272 rfl shapeCasts_S1x128_S128,
    StableHlo.unary main_arg13 main_v273 ((extractStridedSlice S1x128 ![2, 0] · slices_S3x128_S1x128_2_0) : (⟨S3x128, .f32⟩ : BufTy).Contents (Elt F) → (⟨S1x128, .f32⟩ : BufTy).Contents (Elt F)),
    StableHlo.reshape main_v273 main_v274 rfl shapeCasts_S1x128_S128,
    StableHlo.nullary main_cst_39 (constant S_ .f32 0x00000000#32),
    StableHlo.binary main_v270 main_cst_39 main_v275 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_40 (constant S_ .f32 0x47C35000#32),
    StableHlo.unary main_cst_40 main_v276 (broadcastInDim S128 ![] bcast_S_S128 : (⟨S_, .f32⟩ : BufTy).Contents (Elt F) → (⟨S128, .f32⟩ : BufTy).Contents (Elt F)),
    StableHlo.binary main_v275 main_v276 main_v277 (Host.divf : (⟨S128, .f32⟩ : BufTy).Contents (Elt F) → (⟨S128, .f32⟩ : BufTy).Contents (Elt F) → (⟨S128, .f32⟩ : BufTy).Contents (Elt F)),
    StableHlo.nullary main_c_41 (constantI S_ 32 0#32),
    StableHlo.TRef.nullary main_call10.cst (constant S_ .f32 0x00000000#32),
    StableHlo.TRef.binary (.of main_v270) main_call10.cst main_call10.v0 (fun x v => Host.reduceAdd x v reducesTo_S100000x128_S128_d0 h_S_),
    StableHlo.TRef.unary main_call10.v0 main_call10.v1 (broadcastInDim S1x128 ![1] bcast_S128_S1x128_1),
    StableHlo.TRef.nullary main_call10.cst_0 (constant S_ .f32 0x47C35000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S100000x128 ![0, 1] bcast_S1x128_S100000x128_0_1),
    StableHlo.TRef.binary (.of main_v270) main_call10.v4 main_call10.v5 subf,
    StableHlo.TRef.binary main_call10.v5 main_call10.v5 main_call10.v6 mulf,
    StableHlo.TRef.unary (.of main_c_41) main_call10.v7 (sitofp .f32),
    StableHlo.TRef.nullary main_call10.cst_1 (constant S_ .f32 0x47C35000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S100000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v277 main_v279 (broadcastInDim S1x128 ![1] bcast_S128_S1x128_1 : (⟨S128, .f32⟩ : BufTy).Contents (Elt F) → (⟨S1x128, .f32⟩ : BufTy).Contents (Elt F)),
    StableHlo.unary main_v279 main_v280 (broadcastInDim S100000x128 ![0, 1] bcast_S1x128_S100000x128_0_1 : (⟨S1x128, .f32⟩ : BufTy).Contents (Elt F) → (⟨S100000x128, .f32⟩ : BufTy).Contents (Elt F)),
    StableHlo.binary main_v270 main_v280 main_v281 (subf : (⟨S100000x128, .f32⟩ : BufTy).Contents (Elt F) → (⟨S100000x128, .f32⟩ : BufTy).Contents (Elt F) → (⟨S100000x128, .f32⟩ : BufTy).Contents (Elt F)),
    StableHlo.nullary main_cst_42 (constant S_ .f32 0x3727C5AC#32),
    StableHlo.unary main_cst_42 main_v282 (broadcastInDim S128 ![] bcast_S_S128 : (⟨S_, .f32⟩ : BufTy).Contents (Elt F) → (⟨S128, .f32⟩ : BufTy).Contents (Elt F)),
    StableHlo.binary main_v278 main_v282 main_v283 (addf : (⟨S128, .f32⟩ : BufTy).Contents (Elt F) → (⟨S128, .f32⟩ : BufTy).Contents (Elt F) → (⟨S128, .f32⟩ : BufTy).Contents (Elt F)),
    StableHlo.unary main_v283 main_v284 (Host.rsqrt : (⟨S128, .f32⟩ : BufTy).Contents (Elt F) → (⟨S128, .f32⟩ : BufTy).Contents (Elt F)),
    StableHlo.unary main_v284 main_v285 (broadcastInDim S1x128 ![1] bcast_S128_S1x128_1 : (⟨S128, .f32⟩ : BufTy).Contents (Elt F) → (⟨S1x128, .f32⟩ : BufTy).Contents (Elt F)),
    StableHlo.unary main_v285 main_v286 (broadcastInDim S100000x128 ![0, 1] bcast_S1x128_S100000x128_0_1 : (⟨S1x128, .f32⟩ : BufTy).Contents (Elt F) → (⟨S100000x128, .f32⟩ : BufTy).Contents (Elt F)),
    StableHlo.binary main_v281 main_v286 main_v287 (mulf : (⟨S100000x128, .f32⟩ : BufTy).Contents (Elt F) → (⟨S100000x128, .f32⟩ : BufTy).Contents (Elt F) → (⟨S100000x128, .f32⟩ : BufTy).Contents (Elt F)),
    StableHlo.unary main_v272 main_v288 (broadcastInDim S1x128 ![1] bcast_S128_S1x128_1 : (⟨S128, .f32⟩ : BufTy).Contents (Elt F) → (⟨S1x128, .f32⟩ : BufTy).Contents (Elt F)),
    StableHlo.unary main_v288 main_v289 (broadcastInDim S100000x128 ![0, 1] bcast_S1x128_S100000x128_0_1 : (⟨S1x128, .f32⟩ : BufTy).Contents (Elt F) → (⟨S100000x128, .f32⟩ : BufTy).Contents (Elt F)),
    StableHlo.binary main_v287 main_v289 main_v290 (mulf : (⟨S100000x128, .f32⟩ : BufTy).Contents (Elt F) → (⟨S100000x128, .f32⟩ : BufTy).Contents (Elt F) → (⟨S100000x128, .f32⟩ : BufTy).Contents (Elt F)),
    StableHlo.unary main_v274 main_v291 (broadcastInDim S1x128 ![1] bcast_S128_S1x128_1 : (⟨S128, .f32⟩ : BufTy).Contents (Elt F) → (⟨S1x128, .f32⟩ : BufTy).Contents (Elt F)),
    StableHlo.unary main_v291 main_v292 (broadcastInDim S100000x128 ![0, 1] bcast_S1x128_S100000x128_0_1 : (⟨S1x128, .f32⟩ : BufTy).Contents (Elt F) → (⟨S100000x128, .f32⟩ : BufTy).Contents (Elt F)),
    StableHlo.binary main_v290 main_v292 main_v293 (addf : (⟨S100000x128, .f32⟩ : BufTy).Contents (Elt F) → (⟨S100000x128, .f32⟩ : BufTy).Contents (Elt F) → (⟨S100000x128, .f32⟩ : BufTy).Contents (Elt F)),
    StableHlo.TRef.nullary main_call11.cst (constant S_ .f32 0x00000000#32),
    StableHlo.TRef.unary main_call11.cst main_call11.v0 (broadcastInDim S100000x128 ![] bcast_S_S100000x128),
    StableHlo.TRef.binary (.of main_v293) main_call11.v0 main_call11.v1 maximumf ]

abbrev RT : List (HloOp τ sig (Elt F)) :=
  [ StableHlo.unary main_arg2 main_v295 (broadcastInDim S100000x1 ![0] bcast_S100000_S100000x1_0 : (⟨S100000, .f32⟩ : BufTy).Contents (Elt F) → (⟨S100000x1, .f32⟩ : BufTy).Contents (Elt F)),
    StableHlo.unary main_v295 main_v296 (broadcastInDim S100000x128 ![0, 1] bcast_S100000x1_S100000x128_0_1 : (⟨S100000x1, .f32⟩ : BufTy).Contents (Elt F) → (⟨S100000x128, .f32⟩ : BufTy).Contents (Elt F)),
    StableHlo.binary main_v294 main_v296 main_v297 (mulf : (⟨S100000x128, .f32⟩ : BufTy).Contents (Elt F) → (⟨S100000x128, .f32⟩ : BufTy).Contents (Elt F) → (⟨S100000x128, .f32⟩ : BufTy).Contents (Elt F)),
    StableHlo.nullary main_cst_43 (constant S_ .f32 0x00000000#32),
    StableHlo.unary main_cst_43 main_v298 (broadcastInDim S128x128 ![] bcast_S_S128x128 : (⟨S_, .f32⟩ : BufTy).Contents (Elt F) → (⟨S128x128, .f32⟩ : BufTy).Contents (Elt F)),
    StableHlo.unary main_arg3 main_v299 (broadcastInDim S100000x1 ![0] bcast_S100000_S100000x1_0 : (⟨S100000, .i32⟩ : BufTy).Contents (Elt F) → (⟨S100000x1, .i32⟩ : BufTy).Contents (Elt F)),
    StableHlo.ternary main_v298 main_v299 main_v297 main_v300 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    StableHlo.binary main_v300 main_arg14 main_v301 ((fun l r => Host.dotGeneral dot_S128x128_S128x2_S128x2_1_0_0_1_n_n none l r) : (⟨S128x128, .f32⟩ : BufTy).Contents (Elt F) → (⟨S128x2, .f32⟩ : BufTy).Contents (Elt F) → (⟨S128x2, .f32⟩ : BufTy).Contents (Elt F)),
    StableHlo.unary main_arg15 main_v302 (broadcastInDim S1x2 ![1] bcast_S2_S1x2_1 : (⟨S2, .f32⟩ : BufTy).Contents (Elt F) → (⟨S1x2, .f32⟩ : BufTy).Contents (Elt F)),
    StableHlo.unary main_v302 main_v303 (broadcastInDim S128x2 ![0, 1] bcast_S1x2_S128x2_0_1 : (⟨S1x2, .f32⟩ : BufTy).Contents (Elt F) → (⟨S128x2, .f32⟩ : BufTy).Contents (Elt F)),
    StableHlo.binary main_v301 main_v303 main_v304 (addf : (⟨S128x2, .f32⟩ : BufTy).Contents (Elt F) → (⟨S128x2, .f32⟩ : BufTy).Contents (Elt F) → (⟨S128x2, .f32⟩ : BufTy).Contents (Elt F)) ]

set_option maxRecDepth 65536 in
/-- The operations are the stages in order. -/
theorem ops_stages : (ops : List (HloOp τ sig (Elt F))) = RA1 ++ RB1 ++ RC1 ++ RA2 ++ RB2 ++ RC2 ++ RA3 ++ RB3 ++ RC3 ++ RT := rfl

variable (V : Valuation τ sig (Elt F))

/-- The buffers' contents after each stage. -/
abbrev Y1 : Valuation τ sig (Elt F) := after RA1 V
abbrev Y2 : Valuation τ sig (Elt F) := after RB1 (Y1 V)
abbrev Y3 : Valuation τ sig (Elt F) := after RC1 (Y2 V)
abbrev Y4 : Valuation τ sig (Elt F) := after RA2 (Y3 V)
abbrev Y5 : Valuation τ sig (Elt F) := after RB2 (Y4 V)
abbrev Y6 : Valuation τ sig (Elt F) := after RC2 (Y5 V)
abbrev Y7 : Valuation τ sig (Elt F) := after RA3 (Y6 V)
abbrev Y8 : Valuation τ sig (Elt F) := after RB3 (Y7 V)
abbrev Y9 : Valuation τ sig (Elt F) := after RC3 (Y8 V)
abbrev Y10 : Valuation τ sig (Elt F) := after RT (Y9 V)

theorem after_ops : after ops V = Y10 V := by
  rw [ops_stages]
  simp only [after_append]

end Cert.ReferenceIdeal.Hand

end
-- ==== Proof.RF.Chain.lean ====
/-
  The reference's fold through one layer as a function of the layer's ENTRY valuation: the three stages in turn. The first
  layer's first stage also cuts, once, the two edge lists out of the edge array: its first four operations, split off here.
-/
import proofs.«141748_j59863254171699_1_alg».proof.Proof.RF.Stages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev rpre : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]
abbrev RA1r : List (HloOp τ sig (Elt F)) :=
  [ StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v13 main_arg0 main_v14 (addf : (⟨S100000x128, .f32⟩ : BufTy).Contents (Elt F) → (⟨S100000x128, .f32⟩ : BufTy).Contents (Elt F) → (⟨S100000x128, .f32⟩ : BufTy).Contents (Elt F)),
    StableHlo.unary main_arg4 main_v15 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v15 main_v16 rfl shapeCasts_S1x128x128_S128x128,
    StableHlo.binary main_v14 main_v16 main_v17 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v18 ((extractStridedSlice S1x128 ![0, 0] · slices_S3x128_S1x128_0_0) : (⟨S3x128, .f32⟩ : BufTy).Contents (Elt F) → (⟨S1x128, .f32⟩ : BufTy).Contents (Elt F)),
    StableHlo.reshape main_v18 main_v19 rfl shapeCasts_S1x128_S128,
    StableHlo.unary main_v19 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S100000x128 ![0, 1] bcast_S1x128_S100000x128_0_1 : (⟨S1x128, .f32⟩ : BufTy).Contents (Elt F) → (⟨S100000x128, .f32⟩ : BufTy).Contents (Elt F)),
    StableHlo.binary main_v17 main_v21 main_v22 (addf : (⟨S100000x128, .f32⟩ : BufTy).Contents (Elt F) → (⟨S100000x128, .f32⟩ : BufTy).Contents (Elt F) → (⟨S100000x128, .f32⟩ : BufTy).Contents (Elt F)) ]
theorem RA1_split : (RA1 : List (HloOp τ sig (Elt F))) = rpre ++ RA1r := rfl

variable (V : Valuation τ sig (Elt F))

abbrev R1 : Valuation τ sig (Elt F) := after RC1 (after RB1 (after RA1r V))
abbrev R2 : Valuation τ sig (Elt F) := after RC2 (after RB2 (after RA2 V))
abbrev R3 : Valuation τ sig (Elt F) := after RC3 (after RB3 (after RA3 V))

theorem Y3_eq : Y3 V = R1 (after rpre V) := by
  show after RC1 (after RB1 (after RA1 V)) = _
  rw [RA1_split, after_append]
theorem Y6_eq : Y6 V = R2 (Y3 V) := rfl
theorem Y9_eq : Y9 V = R3 (Y6 V) := rfl
theorem Y10_eq : Y10 V = after RT (Y9 V) := rfl

end Cert.ReferenceIdeal.Hand

end
-- ==== Proof.Spec.lean ====
/-
  The three stages of a layer as index formulas over literal shapes (no program is imported).

  A layer maps node features x (100000 × 128) to new node features through three arrays:

    P1 = (agg + x) W + b                                  the aggregated features plus the node's own, through a linear map;
    P2 = N(P1; mean, var, g, bt) W + b                    normalised per feature with GIVEN statistics, scaled, shifted, through a linear map;
    X3 = max (N(N(P2; m2, v2, g2, b2); m3, v3, og, ob)) 0 normalised twice with given statistics, then the rectifier;

  where N(h; m, v, g, b) at row r and feature k is (h r k − m k) · rsqrt (v k + ε) · g k + b k. Every per-feature quantity is a
  1 × 128 row; the weights are 128 × 128; ε is the printed single-precision constant.
-/
import Idealize.ShloMosaic.PureOps.Ideal
import Idealize.ShloMosaic.Lib.ValueIdx

noncomputable section

namespace Cert.Spec

open Idealize.ShloMosaic Idealize.ShloMosaic.ValueIdx

/-- Node-feature arrays, rows of per-feature numbers, weight matrices: extended reals over literal index types. -/
abbrev Nodes := (⟨2, ![100000, 128]⟩ : Shape).Idx → EReal
abbrev Row := (⟨2, ![1, 128]⟩ : Shape).Idx → EReal
abbrev Mat := (⟨2, ![128, 128]⟩ : Shape).Idx → EReal

/-- The printed epsilon and zero. -/
abbrev eps : EReal := Ideal.ofBits .f32 0x3727C5AC#32
abbrev zero : EReal := Ideal.ofBits .f32 0x00000000#32

/-- One normalisation of a number with given statistics, scale and shift. -/
def norm1 (h m v g b : EReal) : EReal := (h - m) * Ideal.rsqrt (v + eps) * g + b

/-- The first stage: (agg + x) W + b, entry by entry. -/
def P1 (agg x : Nodes) (w : Mat) (b : Row) : Nodes := fun i =>
  (∑ k : Fin 128, (agg (ix2 (i 0) k) + x (ix2 (i 0) k)) * w (ix2 k (i 1))) + b (ix2 0 (i 1))

/-- The second stage: N(p; mean, var, g, bt) W + b, entry by entry. -/
def P2 (p : Nodes) (mean var g bt : Row) (w : Mat) (b : Row) : Nodes := fun i =>
  (∑ k : Fin 128, norm1 (p (ix2 (i 0) k)) (mean (ix2 0 k)) (var (ix2 0 k)) (g (ix2 0 k)) (bt (ix2 0 k)) * w (ix2 k (i 1)))
    + b (ix2 0 (i 1))

/-- The third stage: two normalisations with given statistics, then the maximum with zero, entry by entry. -/
def X3 (p : Nodes) (m2 v2 g2 b2 m3 v3 og ob : Row) : Nodes := fun i =>
  max (norm1 (norm1 (p i) (m2 (ix2 0 (i 1))) (v2 (ix2 0 (i 1))) (g2 (ix2 0 (i 1))) (b2 (ix2 0 (i 1))))
        (m3 (ix2 0 (i 1))) (v3 (ix2 0 (i 1))) (og (ix2 0 (i 1))) (ob (ix2 0 (i 1)))) zero

end Cert.Spec

end
-- ==== Proof.LibArrays.lean ====
/-
  Small general facts about arrays of literal shapes, used by the decoder's proof and tied to no program.

  * a product of a block of rows with a whole right operand, accumulated from zero, plus a bias vector added to every
    row, read at an entry;
  * a slot of a stack of matrices, loaded as a one-slot stack and cast to a matrix, read at an entry.
-/
import Idealize.ShloMosaic.Lib.Pipeline.Value
import Idealize.ShloMosaic.Lib.ValueIdx
import Idealize.ShloMosaic.Lib.ValueLayout
import Idealize.ShloMosaic.Lib.ValueIdxRank6
import Idealize.ShloMosaic.PureOps.Ideal.Laws

noncomputable section

namespace Cert.Decoder.Lib

open Idealize.ShloMosaic Idealize.ShloMosaic.ValueIdx

/-- Rows times a whole right operand, accumulated from the zero array: entry (p, q) is the sum over the shared axis. -/
theorem matmul_rows_apply {φ₁ φ₂ : FTy} (M K N : Nat) (x : FVec Ideal ⟨2, ![M, K]⟩ φ₁) (w : FVec Ideal ⟨2, ![K, N]⟩ φ₂)
    (p : Fin M) (q : Fin N) :
    (matmul (DotDims.plain M K N) none x w (constant ⟨2, ![M, N]⟩ .f32 0x00000000#32) : FVec Ideal ⟨2, ![M, N]⟩ .f32) (ix2 p q)
      = ∑ k : Fin K, x (ix2 p k) * w (ix2 k q) := by
  show FloatOps.matmul (DotDims.plain M K N) none x w (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A bias vector, cast to one row and broadcast down M rows, reads at (p, q) its entry q. -/
theorem bias_rows_apply {α : Type} (M N : Nat) (b : (⟨1, ![N]⟩ : Shape).Idx → α)
    (h1 : (⟨1, ![N]⟩ : Shape).ShapeCasts ⟨2, ![1, N]⟩) (h2 : (⟨2, ![1, N]⟩ : Shape).Broadcasts ⟨2, ![M, N]⟩) (p : Fin M) (q : Fin N) :
    broadcastTo ⟨2, ![M, N]⟩ (shapeCast ⟨2, ![1, N]⟩ b h1) h2 (ix2 p q) = b (ix1 q) :=
  (broadcastTo_1b_ab_apply _ h2 p q).trans (shapeCast_a_1a_apply b h1 0 q)

/-- Slot 0 of a one-slot stack of matrices, cast to a matrix, reads at (k, f) the stack at (0, k, f). -/
theorem slot_apply {α : Type} (K N : Nat) (v : (⟨3, ![1, K, N]⟩ : Shape).Idx → α)
    (h : (⟨3, ![1, K, N]⟩ : Shape).ShapeCasts ⟨2, ![K, N]⟩) (k : Fin K) (f : Fin N) :
    shapeCast ⟨2, ![K, N]⟩ v h (ix2 k f) = v (ix3 (0 : Fin 1) k f) :=
  shapeCast_apply v h _ _ (by
    rw [Shape.rowMajor_val_three, Shape.rowMajor_val_two]
    show (0 * K + k.val) * N + f.val = k.val * N + f.val
    rw [Nat.zero_mul, Nat.zero_add])

end Cert.Decoder.Lib

end
-- ==== Proof.Core.Base.lean ====
/-
  Common ground for comparing the two programs stage by stage: the two programs' valuations at the exact instance, a vector
  cast to a one-row array against the same vector broadcast to a one-row array, and the stage formulas' congruences.
-/
import proofs.«141748_j59863254171699_1_alg».proof.Proof.KI.Chain
import proofs.«141748_j59863254171699_1_alg».proof.Proof.RF.Chain
import proofs.«141748_j59863254171699_1_alg».proof.Proof.Spec
import proofs.«141748_j59863254171699_1_alg».proof.Proof.LibArrays
import Idealize.ShloMosaic.PureOps.Ideal
import Idealize.ShloMosaic.Lib.ValueLayout
import Idealize.ShloMosaic.Lib.Pipeline.Value

noncomputable section

namespace Cert.Proof.Core

open Idealize.ShloMosaic Idealize.ShloMosaic.TcCoe Idealize.SL.Sem Idealize.ShloMosaic.StableHlo Idealize.ShloMosaic.ValueIdx

/-- The kernel program's and the reference's valuations at the exact instance; the kernel program's cores. -/
abbrev KVal := Valuation Cert.KernelIdeal.τ Cert.KernelIdeal.sig (Elt Ideal)
abbrev RVal := Valuation Cert.ReferenceIdeal.τ Cert.ReferenceIdeal.sig (Elt Ideal)
abbrev KD := Dev Cert.KernelIdeal.nD

/-- A vector of 128 entries cast to a 1 × 128 array is the vector broadcast along the second axis. -/
theorem row_cast {α : Type} (v : (⟨1, ![128]⟩ : Shape).Idx → α) (h : (⟨1, ![128]⟩ : Shape).ShapeCasts ⟨2, ![1, 128]⟩)
    (hb : (⟨1, ![128]⟩ : Shape).BroadcastsInDim ⟨2, ![1, 128]⟩ ![1]) :
    shapeCast ⟨2, ![1, 128]⟩ v h = broadcastInDim ⟨2, ![1, 128]⟩ ![1] hb v := by
  funext i
  obtain ⟨a, j, rfl⟩ : ∃ (a : Fin 1) (j : Fin 128), i = ix2 a j := ⟨i 0, i 1, eq_ix2 i⟩
  have ha : a = 0 := Subsingleton.elim _ _
  subst ha
  rw [shapeCast_a_1a_apply v h 0 j]
  refine (broadcastInDim_apply ![1] hb v (ix2 0 j) (ix1 j) fun ax => ?_).symm
  match ax with
  | ⟨0, _⟩ => rfl

theorem P1_congr {agg agg' x x' : Cert.Spec.Nodes} {w w' : Cert.Spec.Mat} {b b' : Cert.Spec.Row}
    (h1 : agg = agg') (h2 : x = x') (h3 : w = w') (h4 : b = b') : Cert.Spec.P1 agg x w b = Cert.Spec.P1 agg' x' w' b' := by
  subst h1 h2 h3 h4; rfl
theorem P2_congr {p p' : Cert.Spec.Nodes} {m m' v v' g g' bt bt' b b' : Cert.Spec.Row} {w w' : Cert.Spec.Mat}
    (h1 : p = p') (h2 : m = m') (h3 : v = v') (h4 : g = g') (h5 : bt = bt') (h6 : w = w') (h7 : b = b') :
    Cert.Spec.P2 p m v g bt w b = Cert.Spec.P2 p' m' v' g' bt' w' b' := by
  subst h1 h2 h3 h4 h5 h6 h7; rfl
theorem X3_congr {p p' : Cert.Spec.Nodes} {m2 m2' v2 v2' g2 g2' b2 b2' m3 m3' v3 v3' og og' ob ob' : Cert.Spec.Row}
    (h1 : p = p') (h2 : m2 = m2') (h3 : v2 = v2') (h4 : g2 = g2') (h5 : b2 = b2') (h6 : m3 = m3') (h7 : v3 = v3') (h8 : og = og') (h9 : ob = ob') :
    Cert.Spec.X3 p m2 v2 g2 b2 m3 v3 og ob = Cert.Spec.X3 p' m2' v2' g2' b2' m3' v3' og' ob' := by
  subst h1 h2 h3 h4 h5 h6 h7 h8 h9; rfl

end Cert.Proof.Core

end
-- ==== Proof.KI.Keep.lean ====
/-
  What a stage of a layer of the kernel program keeps: a buffer that none of the stage's host stretches writes and that is
  not the stage's kernel's output array holds after the stage what it held before.
-/
import proofs.«141748_j59863254171699_1_alg».proof.Proof.KI.Chain

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- The references pre0's operations write. -/
abbrev pre0_W : List (Ref sig .tc) := [main_v0, main_v1, main_v2, main_v3, main_v4, main_v5]
theorem pre0_writes : (pre0 : List (HloOp τ sig (Elt F))).Forall fun op => op.writes ⊆ (pre0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- The references rest0's operations write. -/
abbrev rest0_W : List (Ref sig .tc) := [main_c, main_v6, main_v7, main_c_0, main_v8, main_v9, main_v10, main_v11, main_v12, main_cst, main_v13, main_v14, main_v15, main_v16, main_v17, main_v18, main_v19, main_v20]
theorem rest0_writes : (rest0 : List (HloOp τ sig (Elt F))).Forall fun op => op.writes ⊆ (rest0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

variable (Y : Dev nD → Valuation τ sig (Elt F)) (c : Dev nD)

theorem keep_pre0 (V : Valuation τ sig (Elt F)) (r : Ref sig .tc) (h : r ∉ pre0_W) : after pre0 V (Proc.devRef .tc r) = V (Proc.devRef .tc r) :=
  after_of_writes_sub pre0 _ pre0_writes h

theorem keepA1 (r : Ref sig .tc) (h0 : r ∉ rest0_W) (ho : r ≠ main_v21) :
    W0' (fun c => after rest0 (Y c)) c (Proc.devRef .tc r) = Y c (Proc.devRef .tc r) := by
  show Function.update _ _ _ _ = _
  rw [Function.update_of_ne (devRef_ne_of_ne ho)]
  exact after_of_writes_sub rest0 _ rest0_writes h0
theorem keepB1 (r : Ref sig .tc) (h0 : r ∉ hostOps1_W) (h1 : r ∉ hostOps1_1_W) (h2 : r ∉ hostOps1_2_W) (ho : r ≠ main_v39) :
    W1' (fun c => after hostOps1_2 (after hostOps1_1 (after hostOps1 (Y c)))) c (Proc.devRef .tc r) = Y c (Proc.devRef .tc r) := by
  show Function.update _ _ _ _ = _
  rw [Function.update_of_ne (devRef_ne_of_ne ho)]
  exact (after_of_writes_sub hostOps1_2 _ hostOps1_2_writes h2).trans ((after_of_writes_sub hostOps1_1 _ hostOps1_1_writes h1).trans (after_of_writes_sub hostOps1 _ hostOps1_writes h0))
theorem keepC1 (r : Ref sig .tc) (h0 : r ∉ hostOps2_W) (h1 : r ∉ hostOps2_1_W) (h2 : r ∉ hostOps2_2_W) (ho : r ≠ main_v63) :
    W2' (fun c => after hostOps2_2 (after hostOps2_1 (after hostOps2 (Y c)))) c (Proc.devRef .tc r) = Y c (Proc.devRef .tc r) := by
  show Function.update _ _ _ _ = _
  rw [Function.update_of_ne (devRef_ne_of_ne ho)]
  exact (after_of_writes_sub hostOps2_2 _ hostOps2_2_writes h2).trans ((after_of_writes_sub hostOps2_1 _ hostOps2_1_writes h1).trans (after_of_writes_sub hostOps2 _ hostOps2_writes h0))

theorem keepA2 (r : Ref sig .tc) (h0 : r ∉ hostOps3_W) (ho : r ≠ main_v79) :
    W3' (fun c => after hostOps3 (Y c)) c (Proc.devRef .tc r) = Y c (Proc.devRef .tc r) := by
  show Function.update _ _ _ _ = _
  rw [Function.update_of_ne (devRef_ne_of_ne ho)]
  exact after_of_writes_sub hostOps3 _ hostOps3_writes h0
theorem keepB2 (r : Ref sig .tc) (h0 : r ∉ hostOps4_W) (h1 : r ∉ hostOps4_1_W) (h2 : r ∉ hostOps4_2_W) (ho : r ≠ main_v97) :
    W4' (fun c => after hostOps4_2 (after hostOps4_1 (after hostOps4 (Y c)))) c (Proc.devRef .tc r) = Y c (Proc.devRef .tc r) := by
  show Function.update _ _ _ _ = _
  rw [Function.update_of_ne (devRef_ne_of_ne ho)]
  exact (after_of_writes_sub hostOps4_2 _ hostOps4_2_writes h2).trans ((after_of_writes_sub hostOps4_1 _ hostOps4_1_writes h1).trans (after_of_writes_sub hostOps4 _ hostOps4_writes h0))
theorem keepC2 (r : Ref sig .tc) (h0 : r ∉ hostOps5_W) (h1 : r ∉ hostOps5_1_W) (h2 : r ∉ hostOps5_2_W) (ho : r ≠ main_v121) :
    W5' (fun c => after hostOps5_2 (after hostOps5_1 (after hostOps5 (Y c)))) c (Proc.devRef .tc r) = Y c (Proc.devRef .tc r) := by
  show Function.update _ _ _ _ = _
  rw [Function.update_of_ne (devRef_ne_of_ne ho)]
  exact (after_of_writes_sub hostOps5_2 _ hostOps5_2_writes h2).trans ((after_of_writes_sub hostOps5_1 _ hostOps5_1_writes h1).trans (after_of_writes_sub hostOps5 _ hostOps5_writes h0))

theorem keepA3 (r : Ref sig .tc) (h0 : r ∉ hostOps6_W) (ho : r ≠ main_v137) :
    W6' (fun c => after hostOps6 (Y c)) c (Proc.devRef .tc r) = Y c (Proc.devRef .tc r) := by
  show Function.update _ _ _ _ = _
  rw [Function.update_of_ne (devRef_ne_of_ne ho)]
  exact after_of_writes_sub hostOps6 _ hostOps6_writes h0
theorem keepB3 (r : Ref sig .tc) (h0 : r ∉ hostOps7_W) (h1 : r ∉ hostOps7_1_W) (h2 : r ∉ hostOps7_2_W) (ho : r ≠ main_v155) :
    W7' (fun c => after hostOps7_2 (after hostOps7_1 (after hostOps7 (Y c)))) c (Proc.devRef .tc r) = Y c (Proc.devRef .tc r) := by
  show Function.update _ _ _ _ = _
  rw [Function.update_of_ne (devRef_ne_of_ne ho)]
  exact (after_of_writes_sub hostOps7_2 _ hostOps7_2_writes h2).trans ((after_of_writes_sub hostOps7_1 _ hostOps7_1_writes h1).trans (after_of_writes_sub hostOps7 _ hostOps7_writes h0))
theorem keepC3 (r : Ref sig .tc) (h0 : r ∉ hostOps8_W) (h1 : r ∉ hostOps8_1_W) (h2 : r ∉ hostOps8_2_W) (ho : r ≠ main_v179) :
    W8' (fun c => after hostOps8_2 (after hostOps8_1 (after hostOps8 (Y c)))) c (Proc.devRef .tc r) = Y c (Proc.devRef .tc r) := by
  show Function.update _ _ _ _ = _
  rw [Function.update_of_ne (devRef_ne_of_ne ho)]
  exact (after_of_writes_sub hostOps8_2 _ hostOps8_2_writes h2).trans ((after_of_writes_sub hostOps8_1 _ hostOps8_1_writes h1).trans (after_of_writes_sub hostOps8 _ hostOps8_writes h0))

end Cert.KernelIdeal.Hand

end
-- ==== Proof.RF.Keep.lean ====
/-
  What the reference's stages write, and so what a layer keeps: a buffer none of a layer's three stages writes holds after
  the layer what it held before.
-/
import proofs.«141748_j59863254171699_1_alg».proof.Proof.RF.Chain

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The references rpre's operations write. -/
abbrev rpre_W : List (Ref sig .tc) := [main_v0, main_v1, main_v2, main_v3]
theorem rpre_writes : (rpre : List (HloOp τ sig (Elt F))).Forall fun op => op.writes ⊆ (rpre_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- The references RA1r's operations write. -/
abbrev RA1r_W : List (Ref sig .tc) := [main_c, main_v4, main_v5, main_c_0, main_v6, main_v7, main_v8, main_v9, main_v10, main_cst, main_v11, main_v12, main_v13, main_v14, main_v15, main_v16, main_v17, main_v18, main_v19, main_v20, main_v21, main_v22]
theorem RA1r_writes : (RA1r : List (HloOp τ sig (Elt F))).Forall fun op => op.writes ⊆ (RA1r_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- The references RB1's operations write. -/
abbrev RB1_W : List (Ref sig .tc) := [main_v23, main_v24, main_v25, main_v26, main_cst_1, main_v27, main_cst_2, main_v28, main_v29, main_c_3, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v30, main_v31, main_v32, main_v33, main_cst_4, main_v34, main_v35, main_v36, main_v37, main_v38, main_v39, main_v40, main_v41, main_v42, main_v43, main_v44, main_v45, main_v46, main_v47, main_v48, main_v49, main_v50, main_v51, main_v52, main_v53]
theorem RB1_writes : (RB1 : List (HloOp τ sig (Elt F))).Forall fun op => op.writes ⊆ (RB1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- The references RC1's operations write. -/
abbrev RC1_W : List (Ref sig .tc) := [main_v54, main_v55, main_v56, main_v57, main_cst_5, main_v58, main_cst_6, main_v59, main_v60, main_c_7, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v61, main_v62, main_v63, main_v64, main_cst_8, main_v65, main_v66, main_v67, main_v68, main_v69, main_v70, main_v71, main_v72, main_v73, main_v74, main_v75, main_v76, main_v77, main_v78, main_v79, main_v80, main_cst_9, main_v81, main_cst_10, main_v82, main_v83, main_c_11, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v84, main_v85, main_v86, main_v87, main_cst_12, main_v88, main_v89, main_v90, main_v91, main_v92, main_v93, main_v94, main_v95, main_v96, main_v97, main_v98, main_v99, main_call3_cst, main_call3_v0, main_v100]
theorem RC1_writes : (RC1 : List (HloOp τ sig (Elt F))).Forall fun op => op.writes ⊆ (RC1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- The references RA2's operations write. -/
abbrev RA2_W : List (Ref sig .tc) := [main_c_13, main_v101, main_v102, main_c_14, main_v103, main_v104, main_v105, main_v106, main_v107, main_cst_15, main_v108, main_v109, main_v110, main_v111, main_v112, main_v113, main_v114, main_v115, main_v116, main_v117, main_v118, main_v119]
theorem RA2_writes : (RA2 : List (HloOp τ sig (Elt F))).Forall fun op => op.writes ⊆ (RA2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- The references RB2's operations write. -/
abbrev RB2_W : List (Ref sig .tc) := [main_v120, main_v121, main_v122, main_v123, main_cst_16, main_v124, main_cst_17, main_v125, main_v126, main_c_18, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v127, main_v128, main_v129, main_v130, main_cst_19, main_v131, main_v132, main_v133, main_v134, main_v135, main_v136, main_v137, main_v138, main_v139, main_v140, main_v141, main_v142, main_v143, main_v144, main_v145, main_v146, main_v147, main_v148, main_v149, main_v150]
theorem RB2_writes : (RB2 : List (HloOp τ sig (Elt F))).Forall fun op => op.writes ⊆ (RB2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- The references RC2's operations write. -/
abbrev RC2_W : List (Ref sig .tc) := [main_v151, main_v152, main_v153, main_v154, main_cst_20, main_v155, main_cst_21, main_v156, main_v157, main_c_22, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v158, main_v159, main_v160, main_v161, main_cst_23, main_v162, main_v163, main_v164, main_v165, main_v166, main_v167, main_v168, main_v169, main_v170, main_v171, main_v172, main_v173, main_v174, main_v175, main_v176, main_v177, main_cst_24, main_v178, main_cst_25, main_v179, main_v180, main_c_26, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v181, main_v182, main_v183, main_v184, main_cst_27, main_v185, main_v186, main_v187, main_v188, main_v189, main_v190, main_v191, main_v192, main_v193, main_v194, main_v195, main_v196, main_call7_cst, main_call7_v0, main_v197]
theorem RC2_writes : (RC2 : List (HloOp τ sig (Elt F))).Forall fun op => op.writes ⊆ (RC2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- The references RA3's operations write. -/
abbrev RA3_W : List (Ref sig .tc) := [main_c_28, main_v198, main_v199, main_c_29, main_v200, main_v201, main_v202, main_v203, main_v204, main_cst_30, main_v205, main_v206, main_v207, main_v208, main_v209, main_v210, main_v211, main_v212, main_v213, main_v214, main_v215, main_v216]
theorem RA3_writes : (RA3 : List (HloOp τ sig (Elt F))).Forall fun op => op.writes ⊆ (RA3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- The references RB3's operations write. -/
abbrev RB3_W : List (Ref sig .tc) := [main_v217, main_v218, main_v219, main_v220, main_cst_31, main_v221, main_cst_32, main_v222, main_v223, main_c_33, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v224, main_v225, main_v226, main_v227, main_cst_34, main_v228, main_v229, main_v230, main_v231, main_v232, main_v233, main_v234, main_v235, main_v236, main_v237, main_v238, main_v239, main_v240, main_v241, main_v242, main_v243, main_v244, main_v245, main_v246, main_v247]
theorem RB3_writes : (RB3 : List (HloOp τ sig (Elt F))).Forall fun op => op.writes ⊆ (RB3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- The references RC3's operations write. -/
abbrev RC3_W : List (Ref sig .tc) := [main_v248, main_v249, main_v250, main_v251, main_cst_35, main_v252, main_cst_36, main_v253, main_v254, main_c_37, main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_cst_3, main_call9_v12, main_call9_cst_4, main_call9_call0_v0, main_call9_call0_v1, main_v255, main_v256, main_v257, main_v258, main_cst_38, main_v259, main_v260, main_v261, main_v262, main_v263, main_v264, main_v265, main_v266, main_v267, main_v268, main_v269, main_v270, main_v271, main_v272, main_v273, main_v274, main_cst_39, main_v275, main_cst_40, main_v276, main_v277, main_c_41, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v278, main_v279, main_v280, main_v281, main_cst_42, main_v282, main_v283, main_v284, main_v285, main_v286, main_v287, main_v288, main_v289, main_v290, main_v291, main_v292, main_v293, main_call11_cst, main_call11_v0, main_v294]
theorem RC3_writes : (RC3 : List (HloOp τ sig (Elt F))).Forall fun op => op.writes ⊆ (RC3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- The references RT's operations write. -/
abbrev RT_W : List (Ref sig .tc) := [main_v295, main_v296, main_v297, main_cst_43, main_v298, main_v299, main_v300, main_v301, main_v302, main_v303, main_v304]
theorem RT_writes : (RT : List (HloOp τ sig (Elt F))).Forall fun op => op.writes ⊆ (RT_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

variable (V : Valuation τ sig (Elt F))

theorem keep_pre (r : Ref sig .tc) (h : r ∉ rpre_W) : after rpre V (Proc.devRef .tc r) = V (Proc.devRef .tc r) :=
  after_of_writes_sub rpre _ rpre_writes h
theorem keep1 (r : Ref sig .tc) (hA : r ∉ RA1r_W) (hB : r ∉ RB1_W) (hC : r ∉ RC1_W) : R1 V (Proc.devRef .tc r) = V (Proc.devRef .tc r) :=
  (after_of_writes_sub RC1 _ RC1_writes hC).trans ((after_of_writes_sub RB1 _ RB1_writes hB).trans (after_of_writes_sub RA1r _ RA1r_writes hA))
theorem keep2 (r : Ref sig .tc) (hA : r ∉ RA2_W) (hB : r ∉ RB2_W) (hC : r ∉ RC2_W) : R2 V (Proc.devRef .tc r) = V (Proc.devRef .tc r) :=
  (after_of_writes_sub RC2 _ RC2_writes hC).trans ((after_of_writes_sub RB2 _ RB2_writes hB).trans (after_of_writes_sub RA2 _ RA2_writes hA))
theorem keep3 (r : Ref sig .tc) (hA : r ∉ RA3_W) (hB : r ∉ RB3_W) (hC : r ∉ RC3_W) : R3 V (Proc.devRef .tc r) = V (Proc.devRef .tc r) :=
  (after_of_writes_sub RC3 _ RC3_writes hC).trans ((after_of_writes_sub RB3 _ RB3_writes hB).trans (after_of_writes_sub RA3 _ RA3_writes hA))
theorem keepT (r : Ref sig .tc) (h : r ∉ RT_W) : after RT V (Proc.devRef .tc r) = V (Proc.devRef .tc r) :=
  after_of_writes_sub RT _ RT_writes h

end Cert.ReferenceIdeal.Hand

end
-- ==== Proof.LibRealEntries.lean ====
/-
  Extended reals that are real numbers.

  The exact instance computes on the extended reals, where distributivity and cancellation fail at ±∞. A value built from
  real entries by sums, products, differences, finite sums, exponentials, quotients by nonzero reals and finite suprema over
  nonempty index sets is again a real; `IsReal` records that, so that laws of the reals can be applied to it.
-/
import Idealize.ShloMosaic.PureOps.Ideal

namespace Cert.Lib

open Idealize.ShloMosaic

/-- The extended real `x` is (the coercion of) a real number. -/
def IsReal (x : EReal) : Prop := ∃ r : ℝ, x = (r : EReal)

namespace IsReal

theorem coe (r : ℝ) : IsReal (r : EReal) := ⟨r, rfl⟩
theorem zero : IsReal 0 := ⟨0, rfl⟩
theorem one : IsReal 1 := ⟨1, rfl⟩

theorem add {x y : EReal} (hx : IsReal x) (hy : IsReal y) : IsReal (x + y) := by
  obtain ⟨a, rfl⟩ := hx; obtain ⟨b, rfl⟩ := hy; exact ⟨a + b, (EReal.coe_add a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem exp {x : EReal} (hx : IsReal x) : IsReal (Ideal.exp x) := by
  obtain ⟨a, rfl⟩ := hx; exact ⟨Real.exp a, Ideal.exp_coe a⟩
/-- A quotient of a real by a nonzero real. -/
theorem div {x : EReal} {y : ℝ} (hx : IsReal x) (hy : y ≠ 0) : IsReal (Ideal.div x (y : EReal)) := by
  obtain ⟨a, rfl⟩ := hx; rw [Ideal.div_coe hy]; exact mul (coe a) (coe _)
theorem ite {p : Prop} [Decidable p] {x y : EReal} (hx : IsReal x) (hy : IsReal y) : IsReal (if p then x else y) := by
  split <;> assumption
theorem sum {ι : Type*} (t : Finset ι) (f : ι → EReal) (h : ∀ i ∈ t, IsReal (f i)) : IsReal (∑ i ∈ t, f i) := by
  classical
  induction t using Finset.induction_on with
  | empty => simpa using zero
  | insert i t hi ih =>
    rw [Finset.sum_insert hi]
    exact add (h i (Finset.mem_insert_self i t)) (ih fun j hj => h j (Finset.mem_insert_of_mem hj))
/-- A finite supremum of reals over a nonempty index set is a real: it is one of them. -/
theorem sup {ι : Type*} (t : Finset ι) (ht : t.Nonempty) (f : ι → EReal) (h : ∀ i ∈ t, IsReal (f i)) : IsReal (t.sup f) := by
  obtain ⟨i, hi, e⟩ := Finset.exists_mem_eq_sup t ht f
  rw [e]; exact h i hi

/-- The real a real-valued extended real is. -/
noncomputable def val {x : EReal} (hx : IsReal x) : ℝ := hx.choose
theorem coe_val {x : EReal} (hx : IsReal x) : ((val hx : ℝ) : EReal) = x := hx.choose_spec.symm

end IsReal

end Cert.Lib
-- ==== Proof.LibRealArrays.lean ====
/-
  Arrays of extended reals all of whose entries are real numbers, through the operations the printed programs apply.

  The exact instance computes on the extended reals, where the laws that cancel and distribute hold only away from ±∞. A
  precondition "every float input is finite" gives real ENTRIES of the argument arrays; to use a law of the reals further
  down a program, every intermediate array has to be known to have real entries too. This file carries that knowledge
  through the operations one at a time, at the exact instance:

  * re-indexing operations (a shape cast, a broadcast, a slice, a gather) read entries of their operand;
  * the pointwise sum, difference, product and maximum of arrays with real entries; a change of float format;
  * a splat of a real constant; a selection between two arrays with real entries;
  * a quotient by an array of nonzero real numbers; the reciprocal square root of an array of positive real numbers;
  * the sum-shaped operations — the matrix unit's product into an accumulator, the host's dot product, the host's sum over
    axes from an initial value, the host's accumulating scatter — whose entries are finite sums of products or of entries.
-/
import proofs.«141748_j59863254171699_1_alg».proof.Proof.LibRealEntries
import Idealize.ShloMosaic.PureOps.Ideal

noncomputable section

namespace Cert.Lib

open Idealize.ShloMosaic

/-- The larger of two real numbers is a real number. -/
theorem IsReal.max {x y : EReal} (hx : IsReal x) (hy : IsReal y) : IsReal (max x y) := by
  obtain ⟨a, rfl⟩ := hx; obtain ⟨b, rfl⟩ := hy
  exact ⟨_, (EReal.coe_strictMono.monotone.map_max (a := a) (b := b)).symm⟩

/-- The reciprocal square root of a positive real number is a real number. -/
theorem IsReal.rsqrt_of_pos {a : ℝ} (ha : 0 < a) : IsReal (Ideal.rsqrt (a : EReal)) :=
  ⟨(Real.sqrt a)⁻¹, by rw [Ideal.rsqrt_coe, if_neg (not_lt.2 ha.le), if_neg ha.ne']⟩

/-- A finite sum of squares of real numbers divided by a positive real number is a non-negative real number: what a
    batch variance is, so that adding a positive epsilon gives a positive real number under the reciprocal square root. -/
theorem IsReal.nonneg_div_sum_sq {ι : Type*} (t : Finset ι) (d : ι → EReal) (hd : ∀ i ∈ t, IsReal (d i)) {n : ℝ} (hn : 0 < n) :
    ∃ r : ℝ, 0 ≤ r ∧ Ideal.div (∑ i ∈ t, d i * d i) (n : EReal) = (r : EReal) := by
  classical
  choose! f hf using hd
  have hs : (∑ i ∈ t, d i * d i) = ((∑ i ∈ t, f i * f i : ℝ) : EReal) := by
    have hc : ∀ (s : Finset ι) (g : ι → ℝ), ((∑ i ∈ s, g i : ℝ) : EReal) = ∑ i ∈ s, (g i : EReal) := fun s g => by
      induction s using Finset.induction_on with
      | empty => simp
      | insert a s ha ih => rw [Finset.sum_insert ha, Finset.sum_insert ha, EReal.coe_add, ih]
    rw [hc]; exact Finset.sum_congr rfl fun i hi => by rw [hf i hi, ← EReal.coe_mul]
  refine ⟨(∑ i ∈ t, f i * f i) / n, div_nonneg (Finset.sum_nonneg fun i _ => mul_self_nonneg _) hn.le, ?_⟩
  rw [hs, Ideal.div_coe hn.ne', ← EReal.coe_mul, mul_one_div]

/-- A non-negative real number plus a positive real number, under the reciprocal square root, is a real number. -/
theorem IsReal.rsqrt_nonneg_add_pos {x : EReal} (hx : ∃ r : ℝ, 0 ≤ r ∧ x = (r : EReal)) {e : ℝ} (he : 0 < e) :
    IsReal (Ideal.rsqrt (x + (e : EReal))) := by
  obtain ⟨r, hr, rfl⟩ := hx
  rw [← EReal.coe_add]; exact IsReal.rsqrt_of_pos (add_pos_of_nonneg_of_pos hr he)

/-- Every entry of the array is a real number. -/
def AllReal {ι : Type*} (x : ι → EReal) : Prop := ∀ i, IsReal (x i)

namespace AllReal

variable {s t : Shape} {φ ψ : FTy}

/-! ## Re-indexing -/

/-- An array that reads entries of an array with real entries has real entries. -/
theorem reindex {ι κ : Type*} {x : ι → EReal} (hx : AllReal x) (f : κ → ι) : AllReal fun j => x (f j) := fun j => hx (f j)

theorem shapeCast {x : FVec Ideal s φ} (hx : AllReal x) (h : s.ShapeCasts t) :
    AllReal (Idealize.ShloMosaic.shapeCast t x h) := fun j => hx _
theorem broadcastTo {x : FVec Ideal s φ} (hx : AllReal x) (h : s.Broadcasts t) :
    AllReal (Idealize.ShloMosaic.broadcastTo t x h) := fun j => hx _
theorem broadcastInDim {x : FVec Ideal s φ} (hx : AllReal x) (dims : Fin s.rank → Fin t.rank) (h : s.BroadcastsInDim t dims) :
    AllReal (Idealize.ShloMosaic.broadcastInDim t dims h x) := fun j => hx _
theorem extractStridedSlice {x : FVec Ideal s φ} (hx : AllReal x) (off : Fin s.rank → Nat) (h : s.Slices off t) :
    AllReal (Idealize.ShloMosaic.extractStridedSlice t off x h) := fun j => hx _
/-- A gather reads operand entries (the start indices read signed and clamped: always inside the operand). -/
theorem gather {si : Shape} {w : Nat} {x : FVec Ideal s φ} (hx : AllReal x) (d : GatherDims s si t) (idx : IVec si w) :
    AllReal (Host.gather d x idx) := fun j => hx _

/-! ## Constants, pointwise operations -/

/-- A splat of a real number. -/
theorem broadcast {r : EReal} (hr : IsReal r) : AllReal (Idealize.ShloMosaic.broadcast t r) := fun _ => hr
/-- A splat of a float constant whose word encodes a real number. -/
theorem constant {b : BitVec φ.bits} (hb : IsReal (Ideal.ofBits φ b)) : AllReal (Idealize.ShloMosaic.constant (F := Ideal) t φ b) := fun _ => hb

theorem addf {x y : FVec Ideal s φ} (hx : AllReal x) (hy : AllReal y) : AllReal (Idealize.ShloMosaic.addf x y) :=
  fun i => (hx i).add (hy i)
theorem subf {x y : FVec Ideal s φ} (hx : AllReal x) (hy : AllReal y) : AllReal (Idealize.ShloMosaic.subf x y) :=
  fun i => (hx i).sub (hy i)
theorem mulf {x y : FVec Ideal s φ} (hx : AllReal x) (hy : AllReal y) : AllReal (Idealize.ShloMosaic.mulf x y) :=
  fun i => (hx i).mul (hy i)
theorem maximumf {x y : FVec Ideal s φ} (hx : AllReal x) (hy : AllReal y) : AllReal (Idealize.ShloMosaic.maximumf x y) :=
  fun i => (hx i).max (hy i)
/-- A change of float format is the identity at the exact instance. -/
theorem truncf {x : FVec Ideal s φ} (hx : AllReal x) (h : ψ.bits < φ.bits) : AllReal (Idealize.ShloMosaic.truncf ψ x h) := fun i => hx i
theorem select {c : IVec s 1} {x y : FVec Ideal s φ} (hx : AllReal x) (hy : AllReal y) : AllReal (Idealize.ShloMosaic.select c x y) :=
  fun i => IsReal.ite (p := c i = 1) (hx i) (hy i)

/-- The host's quotient by an array of nonzero real numbers. -/
theorem hostDivf {x y : FVec Ideal s φ} (hx : AllReal x) (hy : ∀ i, ∃ r : ℝ, r ≠ 0 ∧ y i = (r : EReal)) : AllReal (Host.divf x y) := fun i => by
  obtain ⟨r, hr, e⟩ := hy i
  show IsReal (Ideal.div (x i) (y i)); rw [e]; exact (hx i).div hr
/-- The reciprocal square root of an array of positive real numbers, in a kernel and on the host. -/
theorem rsqrt {x : FVec Ideal s φ} (hx : ∀ i, ∃ r : ℝ, 0 < r ∧ x i = (r : EReal)) : AllReal (Idealize.ShloMosaic.rsqrt x) := fun i => by
  obtain ⟨r, hr, e⟩ := hx i
  show IsReal (Ideal.rsqrt (x i)); rw [e]; exact IsReal.rsqrt_of_pos hr
theorem hostRsqrt {x : FVec Ideal s φ} (hx : ∀ i, ∃ r : ℝ, 0 < r ∧ x i = (r : EReal)) : AllReal (Host.rsqrt x) := fun i => by
  obtain ⟨r, hr, e⟩ := hx i
  show IsReal (Ideal.rsqrt (x i)); rw [e]; exact IsReal.rsqrt_of_pos hr

/-! ## Sum-shaped operations -/

/-- The matrix unit's product into an accumulator: each entry is the accumulator's plus a finite sum of products. -/
theorem matmul {sl sr so : Shape} {φ₁ φ₂ : FTy} (d : DotDims sl sr so) (prec : Option ContractPrecision)
    {lhs : FVec Ideal sl φ₁} {rhs : FVec Ideal sr φ₂} {acc : FVec Ideal so .f32}
    (hl : AllReal lhs) (hr : AllReal rhs) (ha : AllReal acc) : AllReal (FloatOps.matmul d prec lhs rhs acc) := fun j =>
  (ha j).add (IsReal.sum _ _ fun k _ => (hl _).mul (hr _))

/-- The host's dot product: each entry is a finite sum of products. -/
theorem dotGeneral {sl sr so : Shape} {φ₁ φ₂ : FTy} (d : DotDims sl sr so) (prec : Option ContractPrecision) (sched : HostSchedule)
    {lhs : FVec Ideal sl φ₁} {rhs : FVec Ideal sr φ₂} (hl : AllReal lhs) (hr : AllReal rhs) :
    AllReal (FloatOps.dotGeneral d prec sched lhs rhs) := fun j =>
  IsReal.zero.add (IsReal.sum _ _ fun k _ => (hl _).mul (hr _))

/-- The host's float sum over axes from a real initial value: each entry is the initial value plus a finite sum of entries. -/
theorem hostReduceAdd {axes : List (Fin s.rank)} (h : s.ReducesTo axes t) (sched : HostSchedule)
    {x : FVec Ideal s φ} {init : Ideal φ} (hx : AllReal x) (hi : IsReal init) :
    AllReal (FloatOps.hostReduceAdd axes h sched x init) := fun j =>
  hi.add (IsReal.sum _ _ fun i _ => hx i)

/-- The host's accumulating scatter: each entry is the operand's plus a finite sum of update entries. -/
theorem hostScatterAdd {si su : Shape} {w : Nat} (d : ScatterDims s si su) (sched : HostSchedule)
    {x : FVec Ideal s φ} (idx : IVec si w) {upd : FVec Ideal su φ} (hx : AllReal x) (hu : AllReal upd) :
    AllReal (FloatOps.hostScatterAdd d sched x idx upd) := fun i =>
  (hx i).add (IsReal.sum _ _ fun j _ => hu j)

/-! The same, in the spelling the printed host programs use. -/

theorem hostDotGeneral {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (Host.dotGeneral d prec lhs rhs) := dotGeneral d prec _ hl hr

theorem hostReduceAdd' {axes : List (Fin s.rank)} {u : Shape} (h : s.ReducesTo axes t) (hu : 0 < u.numel)
    {x : FVec Ideal s φ} {init : u.Idx → Ideal φ} (hx : AllReal x) (hi : AllReal init) :
    AllReal (Host.reduceAdd x init h hu) := hostReduceAdd h _ hx (hi _)

theorem hostScatterAdd' {si su : Shape} {w : Nat} (d : ScatterDims s si su)
    {x : FVec Ideal s φ} (idx : IVec si w) {upd : FVec Ideal su φ} (hx : AllReal x) (hu : AllReal upd) :
    AllReal (Host.scatterAdd d x idx upd) := hostScatterAdd d _ idx hx hu

end AllReal

end Cert.Lib

end
-- ==== Proof.Core.Env.lean ====
/-
  What every layer reads besides the node features: the two edge lists, the two converted weight stacks and the arguments,
  equal in the two programs, the float ones with real entries. A layer writes none of them.
-/
import proofs.«141748_j59863254171699_1_alg».proof.Proof.Core.Base
import proofs.«141748_j59863254171699_1_alg».proof.Proof.KI.Keep
import proofs.«141748_j59863254171699_1_alg».proof.Proof.RF.Keep
import proofs.«141748_j59863254171699_1_alg».proof.Proof.LibRealArrays

set_option maxRecDepth 65536

noncomputable section

namespace Cert.Proof.Core

open Idealize.ShloMosaic Idealize.ShloMosaic.TcCoe Idealize.SL.Sem Idealize.ShloMosaic.StableHlo Cert.Lib

structure Env (Z : KD → KVal) (Z' : RVal) (c : KD) : Prop where
  s : Z c (Cert.KernelIdeal.main_v1 : DevRef _ _) = Z' (Cert.ReferenceIdeal.main_v1 : DevRef _ _)
  d : Z c (Cert.KernelIdeal.main_v3 : DevRef _ _) = Z' (Cert.ReferenceIdeal.main_v3 : DevRef _ _)
  w1 : Z c (Cert.KernelIdeal.main_v4 : DevRef _ _) = Z' (Cert.ReferenceIdeal.main_arg4 : DevRef _ _)
  w2 : Z c (Cert.KernelIdeal.main_v5 : DevRef _ _) = Z' (Cert.ReferenceIdeal.main_arg8 : DevRef _ _)
  a2 : Z c (Cert.KernelIdeal.main_arg2 : DevRef _ _) = Z' (Cert.ReferenceIdeal.main_arg2 : DevRef _ _)
  a3 : Z c (Cert.KernelIdeal.main_arg3 : DevRef _ _) = Z' (Cert.ReferenceIdeal.main_arg3 : DevRef _ _)
  a5 : Z c (Cert.KernelIdeal.main_arg5 : DevRef _ _) = Z' (Cert.ReferenceIdeal.main_arg5 : DevRef _ _)
  a6 : Z c (Cert.KernelIdeal.main_arg6 : DevRef _ _) = Z' (Cert.ReferenceIdeal.main_arg6 : DevRef _ _)
  a7 : Z c (Cert.KernelIdeal.main_arg7 : DevRef _ _) = Z' (Cert.ReferenceIdeal.main_arg7 : DevRef _ _)
  a9 : Z c (Cert.KernelIdeal.main_arg9 : DevRef _ _) = Z' (Cert.ReferenceIdeal.main_arg9 : DevRef _ _)
  a10 : Z c (Cert.KernelIdeal.main_arg10 : DevRef _ _) = Z' (Cert.ReferenceIdeal.main_arg10 : DevRef _ _)
  a11 : Z c (Cert.KernelIdeal.main_arg11 : DevRef _ _) = Z' (Cert.ReferenceIdeal.main_arg11 : DevRef _ _)
  a12 : Z c (Cert.KernelIdeal.main_arg12 : DevRef _ _) = Z' (Cert.ReferenceIdeal.main_arg12 : DevRef _ _)
  a13 : Z c (Cert.KernelIdeal.main_arg13 : DevRef _ _) = Z' (Cert.ReferenceIdeal.main_arg13 : DevRef _ _)
  a14 : Z c (Cert.KernelIdeal.main_arg14 : DevRef _ _) = Z' (Cert.ReferenceIdeal.main_arg14 : DevRef _ _)
  a15 : Z c (Cert.KernelIdeal.main_arg15 : DevRef _ _) = Z' (Cert.ReferenceIdeal.main_arg15 : DevRef _ _)
  r4 : AllReal (Z' (Cert.ReferenceIdeal.main_arg4 : DevRef _ _))
  r5 : AllReal (Z' (Cert.ReferenceIdeal.main_arg5 : DevRef _ _))
  r6 : AllReal (Z' (Cert.ReferenceIdeal.main_arg6 : DevRef _ _))
  r7 : AllReal (Z' (Cert.ReferenceIdeal.main_arg7 : DevRef _ _))
  r8 : AllReal (Z' (Cert.ReferenceIdeal.main_arg8 : DevRef _ _))
  r9 : AllReal (Z' (Cert.ReferenceIdeal.main_arg9 : DevRef _ _))
  r10 : AllReal (Z' (Cert.ReferenceIdeal.main_arg10 : DevRef _ _))
  r11 : AllReal (Z' (Cert.ReferenceIdeal.main_arg11 : DevRef _ _))
  r12 : AllReal (Z' (Cert.ReferenceIdeal.main_arg12 : DevRef _ _))
  r13 : AllReal (Z' (Cert.ReferenceIdeal.main_arg13 : DevRef _ _))

end Cert.Proof.Core

end
-- ==== Proof.LibLinearAt.lean ====
/-
  Affine maps between rows, read at one entry.

  A matrix product of an M × K array with a K × N array, plus a bias given as ONE ROW (1 × N) repeated down the
  M rows, has at entry (p, q) the value  (∑ k, x (p, k) * w (k, q)) + b (0, q).  The two ways the programs spell it —
  a product accumulated from the zero array with the row cast and repeated, and a contraction with the row laid along
  both axes — are read here at an entry, each as that same expression, for every M, K, N.  A change of number format
  is the identity on the extended reals, so the lemmas apply as they stand to operands that were converted first.
-/
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws
import proofs.«141748_j59863254171699_1_alg».proof.Proof.LibArrays

noncomputable section

namespace Cert.LinearAt

open Idealize.ShloMosaic Idealize.ShloMosaic.ValueIdx

/-- A product of an M × K array with a K × N array, accumulated from the zero array: entry (p, q) is the sum over the
    shared axis.  The contraction record is any one that is the plain rows-by-columns contraction. -/
theorem matmul_apply {φ₁ φ₂ : FTy} (M K N : Nat) (d : DotDims ⟨2, ![M, K]⟩ ⟨2, ![K, N]⟩ ⟨2, ![M, N]⟩)
    (hd : d = DotDims.plain M K N) (x : FVec Ideal ⟨2, ![M, K]⟩ φ₁) (w : FVec Ideal ⟨2, ![K, N]⟩ φ₂) (p : Fin M) (q : Fin N) :
    (matmul d none x w (constant ⟨2, ![M, N]⟩ .f32 0x00000000#32) : FVec Ideal ⟨2, ![M, N]⟩ .f32) (ix2 p q)
      = ∑ k : Fin K, x (ix2 p k) * w (ix2 k q) := by
  subst hd
  exact Cert.Decoder.Lib.matmul_rows_apply M K N x w p q

/-- The same product written as a contraction with no accumulator: entry (p, q) is the same sum. -/
theorem dot_apply {φ₁ φ₂ : FTy} (M K N : Nat) (d : DotDims ⟨2, ![M, K]⟩ ⟨2, ![K, N]⟩ ⟨2, ![M, N]⟩)
    (hd : d = DotDims.plain M K N) (x : FVec Ideal ⟨2, ![M, K]⟩ φ₁) (w : FVec Ideal ⟨2, ![K, N]⟩ φ₂) (p : Fin M) (q : Fin N) :
    (Host.dotGeneral d none x w : FVec Ideal ⟨2, ![M, N]⟩ .f32) (ix2 p q) = ∑ k : Fin K, x (ix2 p k) * w (ix2 k q) := by
  subst hd
  exact StackMember.dotGeneral_plain_apply none x w p q

/-- One row, cast to its own shape and repeated down M rows, reads at (p, q) the row's entry q. -/
theorem row_repeat_apply {α : Type} (M N : Nat) (b : (⟨2, ![1, N]⟩ : Shape).Idx → α)
    (h1 : (⟨2, ![1, N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix2 (0 : Fin 1) q) := by
  rw [shapeCast_self]
  exact broadcastTo_1b_ab_apply b h2 p q

/-- One row laid along both axes of an M × N array (its row axis of extent one stretched) reads at (p, q) the row's
    entry q. -/
theorem row_stretch_apply {α : Type} (M N : Nat) (b : (⟨2, ![1, N]⟩ : Shape).Idx → α)
    (dims : Fin (⟨2, ![1, N]⟩ : Shape).rank → Fin (⟨2, ![M, N]⟩ : Shape).rank) (hdims : (dims 1).val = 1)
    (h : (⟨2, ![1, N]⟩ : Shape).BroadcastsInDim ⟨2, ![M, N]⟩ dims) (p : Fin M) (q : Fin N) :
    broadcastInDim ⟨2, ![M, N]⟩ dims h b (ix2 p q) = b (ix2 (0 : Fin 1) q) := by
  refine broadcastInDim_apply dims h b (ix2 p q) (ix2 (0 : Fin 1) q) fun a => ?_
  match a with
  | ⟨0, _⟩ => rfl
  | ⟨1, _⟩ =>
    have e : dims 1 = (1 : Fin 2) := Fin.ext hdims
    show q.val = if N = 1 then 0 else ((ix2 p q : (⟨2, ![M, N]⟩ : Shape).Idx) (dims 1)).val
    rw [e]
    show q.val = if N = 1 then 0 else q.val
    split
    · have := q.isLt; omega
    · rfl

/-- Product accumulated from zero plus the repeated row, at entry (p, q). -/
theorem matmul_bias_apply {φ₁ φ₂ : FTy} (M K N : Nat) (d : DotDims ⟨2, ![M, K]⟩ ⟨2, ![K, N]⟩ ⟨2, ![M, N]⟩)
    (hd : d = DotDims.plain M K N) (x : FVec Ideal ⟨2, ![M, K]⟩ φ₁) (w : FVec Ideal ⟨2, ![K, N]⟩ φ₂)
    (b : FVec Ideal ⟨2, ![1, N]⟩ .f32)
    (h1 : (⟨2, ![1, N]⟩ : Shape).ShapeCasts ⟨2, ![1, N]⟩) (h2 : (⟨2, ![1, N]⟩ : Shape).Broadcasts ⟨2, ![M, N]⟩)
    (p : Fin M) (q : Fin N) :
    (addf (matmul d none x w (constant ⟨2, ![M, N]⟩ .f32 0x00000000#32))
        (broadcastTo ⟨2, ![M, N]⟩ (shapeCast ⟨2, ![1, N]⟩ b h1) h2) : FVec Ideal ⟨2, ![M, N]⟩ .f32) (ix2 p q)
      = (∑ k : Fin K, x (ix2 p k) * w (ix2 k q)) + b (ix2 (0 : Fin 1) q) := by
  rw [addf_apply, matmul_apply M K N d hd x w p q, row_repeat_apply M N b h1 h2 p q]

/-- Contraction plus the stretched row, at entry (p, q). -/
theorem dot_bias_apply {φ₁ φ₂ : FTy} (M K N : Nat) (d : DotDims ⟨2, ![M, K]⟩ ⟨2, ![K, N]⟩ ⟨2, ![M, N]⟩)
    (hd : d = DotDims.plain M K N) (x : FVec Ideal ⟨2, ![M, K]⟩ φ₁) (w : FVec Ideal ⟨2, ![K, N]⟩ φ₂)
    (b : FVec Ideal ⟨2, ![1, N]⟩ .f32)
    (dims : Fin (⟨2, ![1, N]⟩ : Shape).rank → Fin (⟨2, ![M, N]⟩ : Shape).rank) (hdims : (dims 1).val = 1)
    (h : (⟨2, ![1, N]⟩ : Shape).BroadcastsInDim ⟨2, ![M, N]⟩ dims) (p : Fin M) (q : Fin N) :
    (addf (Host.dotGeneral d none x w) (broadcastInDim ⟨2, ![M, N]⟩ dims h b) : FVec Ideal ⟨2, ![M, N]⟩ .f32) (ix2 p q)
      = (∑ k : Fin K, x (ix2 p k) * w (ix2 k q)) + b (ix2 (0 : Fin 1) q) := by
  rw [addf_apply, dot_apply M K N d hd x w p q, row_stretch_apply M N b dims hdims h p q]

end Cert.LinearAt

end
-- ==== Proof.KI.Val0.lean ====
/-
  The first kernel of layer 1, from blocks to the array. The grid has 20 points. Point t reads rows 5000 t … 5000 t + 4999 of the
  aggregated features and of the node features, and, whole, the 128 × 128 weights and the 1 × 128 bias row; it writes back
  rows 5000 t … 5000 t + 4999 of the output. Entry (p, q) of the stored block is
      (∑ k, (agg (5000 t + p, k) + x (5000 t + p, k)) · w (k, q)) + b (0, q)
  (a change of number format is the identity on the extended reals), and the 20 blocks tile the 100000 rows: the output
  array ends holding the first stage P1 of the arrays as the region finds them.
-/
import proofs.«141748_j59863254171699_1_alg».proof.Proof.KI.Region0
import proofs.«141748_j59863254171699_1_alg».proof.Proof.LibLinearAt
import proofs.«141748_j59863254171699_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The zero offsets, as a function. -/
theorem val0_hz : (![0, 0] : Fin 2 → Nat) = fun _ => 0 := funext fun a => by fin_cases a <;> rfl

/-- Row p of block t is row 5000 t + p of the array. -/
def rowOf0 (t : Fin 20) (p : Fin 5000) : Fin 100000 := ⟨t.val * 5000 + p.val, by have := t.isLt; have := p.isLt; omega⟩

/-- Window 0's block at point t is rows 5000 t … 5000 t + 4999 of its array. -/
theorem val0_blk0 (c : Dev nD) (t : Fin cfg0.N) (p : Fin 5000) (q : Fin 128) :
    iblk0 V c 0 t (ix2 p q) = V c main_v15 (ix2 (rowOf0 t p) q) := by
  obtain ⟨e0, e1⟩ : win0_0.index t (0 : Fin 2) = t.val ∧ win0_0.index t (1 : Fin 2) = 0 :=
    (by decide +kernel : ∀ t : Fin grid0.N, win0_0.index t (0 : Fin 2) = t.val ∧ win0_0.index t (1 : Fin 2) = 0) t
  show V c main_v15 (((cfg0.win 0).blk t).view.emb (ix2 p q)) = _
  refine congrArg (V c main_v15) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * q.val = q.val; omega

/-- Window 1's block at point t is rows 5000 t … 5000 t + 4999 of its array. -/
theorem val0_blk1 (c : Dev nD) (t : Fin cfg0.N) (p : Fin 5000) (q : Fin 128) :
    iblk0 V c 1 t (ix2 p q) = V c main_arg0 (ix2 (rowOf0 t p) q) := by
  obtain ⟨e0, e1⟩ : win0_1.index t (0 : Fin 2) = t.val ∧ win0_1.index t (1 : Fin 2) = 0 :=
    (by decide +kernel : ∀ t : Fin grid0.N, win0_1.index t (0 : Fin 2) = t.val ∧ win0_1.index t (1 : Fin 2) = 0) t
  show V c main_arg0 (((cfg0.win 1).blk t).view.emb (ix2 p q)) = _
  refine congrArg (V c main_arg0) (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * q.val = q.val; omega

/-- Window 2's block is its one whole 128 × 128 matrix, whatever the point. -/
theorem val0_mat2 (c : Dev nD) (t : Fin cfg0.N) (k q : Fin 128) :
    iblk0 V c 2 t (ix2 k q) = V c main_v20 (ix2 k q) := by
  obtain ⟨e0, e1⟩ : win0_2.index t (0 : Fin 2) = 0 ∧ win0_2.index t (1 : Fin 2) = 0 :=
    (by decide +kernel : ∀ t : Fin grid0.N, win0_2.index t (0 : Fin 2) = 0 ∧ win0_2.index t (1 : Fin 2) = 0) t
  show V c main_v20 (((cfg0.win 2).blk t).view.emb (ix2 k q)) = _
  refine congrArg (V c main_v20) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- Window 3's block is its one whole row of per-feature numbers, whatever the point. -/
theorem val0_row3 (c : Dev nD) (t : Fin cfg0.N) (q : Fin 128) :
    iblk0 V c 3 t (ix2 0 q) = V c main_v18 (ix2 0 q) := by
  obtain ⟨e0, e1⟩ : win0_3.index t (0 : Fin 2) = 0 ∧ win0_3.index t (1 : Fin 2) = 0 :=
    (by decide +kernel : ∀ t : Fin grid0.N, win0_3.index t (0 : Fin 2) = 0 ∧ win0_3.index t (1 : Fin 2) = 0) t
  show V c main_v18 (((cfg0.win 3).blk t).view.emb (ix2 0 q)) = _
  refine congrArg (V c main_v18) (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-- The output's block at point t sits at rows 5000 t … 5000 t + 4999. -/
theorem val0_emb (t : Fin cfg0.N) (p : Fin 5000) (q : Fin 128) :
    ((cfg0.win 4).blk t).view.emb (ix2 p q) = ix2 (rowOf0 t p) q := by
  obtain ⟨e0, e1⟩ : win0_4.index t (0 : Fin 2) = t.val ∧ win0_4.index t (1 : Fin 2) = 0 :=
    (by decide +kernel : ∀ t : Fin grid0.N, win0_4.index t (0 : Fin 2) = t.val ∧ win0_4.index t (1 : Fin 2) = 0) t
  refine funext fun a => Fin.ext ?_
  match a with
  | ⟨0, _⟩ => show win0_4.index t (0 : Fin 2) * 5000 + 1 * p.val = t.val * 5000 + p.val; omega
  | ⟨1, _⟩ => show win0_4.index t (1 : Fin 2) * 128 + 1 * q.val = q.val; omega

/-- The first kernel's arithmetic at an entry: the product of the summed block with the weights, accumulated from the zero
    array, plus the bias row repeated down the rows. -/
theorem pay0_apply (agg x : Vec Ideal S5000x128 .f32) (w : Vec Ideal S128x128 .bf16) (b : Vec Ideal S1x128 .f32) (p : Fin 5000) (q : Fin 128) :
    k0_pay1 (F := Ideal) agg x w b (ix2 p q)
      = (∑ k : Fin 128, (agg (ix2 p k) + x (ix2 p k)) * w (ix2 k q)) + b (ix2 0 q) := by
  unfold k0_pay1
  refine (Cert.LinearAt.matmul_bias_apply 5000 128 128 dot_S5000x128_S128x128_S5000x128_1_0_0_1_n_n rfl _ _ b _ _ p q).trans ?_
  simp only [shapeCast_self]
  rfl

/-- What point t writes back is block t of the first stage of the arrays as the region finds them. -/
theorem val0_flushed (c : Dev nD) (t : Fin cfg0.N) :
    (dat0 (F := Ideal) V c).flushed 4 t = ((cfg0.win 4).blk t).view.read (Elt Ideal)
      (Cert.Spec.P1 (V c main_v15) (V c main_arg0) (V c main_v20) (V c main_v18)) := by
  show (cfg0.win 4).cut (grid0.coords t) ((dat0 (F := Ideal) V c).after 4 t) = _
  rw [after0_4]
  unfold out0_4
  rw [View.canon_unit_zero val0_hz]
  simp only [View.ld_unit_zero (S := S5000x128) val0_hz, View.ld_unit_zero (S := S128x128) val0_hz, View.ld_unit_zero (S := S1x128) val0_hz]
  funext j
  obtain ⟨p, q, rfl⟩ : ∃ (p : Fin 5000) (q : Fin 128), j = ix2 p q := ⟨j 0, j 1, eq_ix2 j⟩
  refine (pay0_apply _ _ _ _ p q).trans ?_
  simp only [val0_blk0, val0_blk1, val0_mat2, val0_row3]
  show _ = Cert.Spec.P1 (V c main_v15) (V c main_arg0) (V c main_v20) (V c main_v18)
    (((cfg0.win 4).blk t).view.emb (ix2 p q))
  rw [val0_emb]
  rfl

/-- Every index of the array is in some point's block: row r is in block r / 5000. -/
theorem val0_cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ : ∃ t : Fin cfg0.N, t.val = (i 0).val / 5000 := ⟨⟨(i 0).val / 5000, by show _ < 20; omega⟩, rfl⟩
  obtain ⟨e0, e1⟩ : win0_4.index t (0 : Fin 2) = t.val ∧ win0_4.index t (1 : Fin 2) = 0 :=
    (by decide +kernel : ∀ t : Fin grid0.N, win0_4.index t (0 : Fin 2) = t.val ∧ win0_4.index t (1 : Fin 2) = 0) t
  refine ⟨t, flush0_4 t, ?_⟩
  show i ∈ ((View.whole main_v21).slice (win0_4.rect t)).set
  rw [View.set_slice_whole, Rect.mem_set_unit]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- The array after the region: the first stage of the arrays as the region finds them. -/
theorem final0 (c : Dev nD) : (dat0 (F := Ideal) V c).arrAt 4 cfg0.N
    = Cert.Spec.P1 (V c main_v15) (V c main_arg0) (V c main_v20) (V c main_v18) :=
  (dat0 (F := Ideal) V c).arrAt_eq_of_cover 4 _ (fun t _ => val0_flushed V c t) (fun i => val0_cover i)

end Cert.KernelIdeal.Hand

end
-- ==== Proof.RF.BridgeA.lean ====
/-
  The reference's first stage read at an entry.

  The program forms (agg + x), contracts it with the 128 × 128 weight over the shared axis, and adds the bias: a
  128-vector laid out as a 1 × 128 row and that row repeated down the 100000 rows.  At row r and feature j this is

      (∑ k, (agg r k + x r k) · w k j) + b j,

  which is the first stage of the specification with the bias read as the 1 × 128 row.
-/
import proofs.«141748_j59863254171699_1_alg».proof.ReferenceIdeal
import proofs.«141748_j59863254171699_1_alg».proof.Proof.Spec
import proofs.«141748_j59863254171699_1_alg».proof.Proof.LibLinearAt
import Idealize.ShloMosaic.Lib.ValueIdx
import Idealize.ShloMosaic.Lib.Pipeline.Value

noncomputable section

namespace Cert.ReferenceIdeal.Hand

open Cert.ReferenceIdeal Idealize.ShloMosaic Idealize.ShloMosaic.ValueIdx

variable [Facts₀]
open Facts₀

/-- A 128-vector as a 1 × 128 row. -/
local notation "bc1 " v:max => broadcastInDim S1x128 ![1] bcast_S128_S1x128_1 v
/-- A 1 × 128 row repeated down the 100000 rows. -/
local notation "bc2 " r:max => broadcastInDim S100000x128 ![0, 1] bcast_S1x128_S100000x128_0_1 r

/-- The program's contraction is the plain rows-by-columns one. -/
theorem dotD_plain :
    dot_S100000x128_S128x128_S100000x128_1_0_0_1_n_n = DotDims.plain 100000 128 128 := rfl

/-- The first stage as the program computes it is the first stage of the specification. -/
theorem bridgeA (agg x : FVec Ideal S100000x128 .f32) (w : FVec Ideal S128x128 .f32) (b : FVec Ideal S128 .f32) :
    addf (Host.dotGeneral dot_S100000x128_S128x128_S100000x128_1_0_0_1_n_n none (addf agg x) w) (bc2 (bc1 b))
      = Cert.Spec.P1 agg x w (bc1 b) := by
  funext i
  obtain ⟨r, j, rfl⟩ : ∃ r j, i = ix2 r j := ⟨_, _, eq_ix2 i⟩
  rw [Cert.LinearAt.dot_bias_apply 100000 128 128 _ dotD_plain (addf agg x) w (bc1 b) ![0, 1] rfl
    bcast_S1x128_S100000x128_0_1 r j]
  rfl

end Cert.ReferenceIdeal.Hand

end
-- ==== Proof.Consts.lean ====
/-
  The float constants the two programs spell, as the extended reals their patterns denote at the exact instance: the
  epsilon of the normalisations (single precision's nearest to 1e-5: a positive rational), the number of rows 100000, and zero.
-/
import Idealize.ShloMosaic.PureOps.Ideal

noncomputable section

namespace Cert.Consts

open Idealize.ShloMosaic

/-- The pattern of the epsilon denotes 2748779 / 2^38. -/
theorem ofBits_eps : Ideal.ofBits .f32 0x3727C5AC#32 = ((2748779 / 274877906944 : ℝ) : EReal) := by
  simp [Ideal.ofBits, Ideal.ieee, -EReal.coe_mul]; norm_num

/-- It is positive. -/
theorem eps_pos : (0 : ℝ) < 2748779 / 274877906944 := by norm_num

/-- The pattern of the row count denotes 100000. -/
theorem ofBits_rows : Ideal.ofBits .f32 0x47C35000#32 = ((100000 : ℝ) : EReal) := by
  simp [Ideal.ofBits, Ideal.ieee, -EReal.coe_mul]; norm_num

end Cert.Consts

end
-- ==== Proof.SpecReal.lean ====
/-
  Every entry of the three stages is a real number.

  The exact instance computes on the extended reals. When the inputs of a stage have real entries, its variances are
  non-negative reals and ε is the printed positive constant, each normalisation (h − m) · rsqrt (v + ε) · g + b is a
  real number: v + ε is a positive real, so its reciprocal square root is real, and sums, differences and products of
  reals are real. A finite sum of products of reals plus a real is real, and the larger of a real and zero is real. So
  the three stages have real entries. Also: for a real scale g and a non-negative real variance v, the quotient
  g² v / (v + ε) is a non-negative real.
-/
import proofs.«141748_j59863254171699_1_alg».proof.Proof.Spec
import proofs.«141748_j59863254171699_1_alg».proof.Proof.LibRealArrays
import proofs.«141748_j59863254171699_1_alg».proof.Proof.Consts
import Idealize.ShloMosaic.PureOps.Ideal.Laws

noncomputable section

namespace Cert.Spec

open Idealize.ShloMosaic Idealize.ShloMosaic.ValueIdx Cert.Lib

/-- Every entry of the row is a non-negative real number. -/
def NonnegRow (r : Row) : Prop := ∀ k : Fin 128, ∃ x : ℝ, 0 ≤ x ∧ r (ix2 0 k) = (x : EReal)

/-- The printed zero is the real number zero. -/
theorem zero_real : IsReal zero :=
  ⟨0, by show Ideal.ofBits .f32 0x00000000#32 = ((0 : ℝ) : EReal); rw [Ideal.ofBits_zero_f32, EReal.coe_zero]⟩

/-- One normalisation of a real number with real mean, scale and shift and a non-negative real variance is real. -/
theorem norm1_real {h m v g b : EReal} (hh : IsReal h) (hm : IsReal m) (hv : ∃ x : ℝ, 0 ≤ x ∧ v = (x : EReal))
    (hg : IsReal g) (hb : IsReal b) : IsReal (norm1 h m v g b) := by
  have hr : IsReal (Ideal.rsqrt (v + Ideal.ofBits .f32 0x3727C5AC#32)) := by
    rw [Cert.Consts.ofBits_eps]
    exact IsReal.rsqrt_nonneg_add_pos hv Cert.Consts.eps_pos
  exact (((hh.sub hm).mul hr).mul hg).add hb

/-- The first stage of real arrays has real entries. -/
theorem P1_real {agg x : Nodes} {w : Mat} {b : Row} (ha : AllReal agg) (hx : AllReal x) (hw : AllReal w) (hb : AllReal b) :
    AllReal (P1 agg x w b) := fun _ =>
  (IsReal.sum _ _ fun _ _ => ((ha _).add (hx _)).mul (hw _)).add (hb _)

/-- The second stage of real arrays, the variances non-negative, has real entries. -/
theorem P2_real {p : Nodes} {mean var g bt : Row} {w : Mat} {b : Row} (hp : AllReal p) (hm : AllReal mean) (hv : NonnegRow var)
    (hg : AllReal g) (hbt : AllReal bt) (hw : AllReal w) (hb : AllReal b) : AllReal (P2 p mean var g bt w b) := fun _ =>
  (IsReal.sum _ _ fun k _ => (norm1_real (hp _) (hm _) (hv k) (hg _) (hbt _)).mul (hw _)).add (hb _)

/-- The third stage of real arrays, the variances non-negative, has real entries. -/
theorem X3_real {p : Nodes} {m2 v2 g2 b2 m3 v3 og ob : Row} (hp : AllReal p) (hm2 : AllReal m2) (hv2 : NonnegRow v2)
    (hg2 : AllReal g2) (hb2 : AllReal b2) (hm3 : AllReal m3) (hv3 : NonnegRow v3) (hog : AllReal og) (hob : AllReal ob) :
    AllReal (X3 p m2 v2 g2 b2 m3 v3 og ob) := fun i =>
  IsReal.max
    (norm1_real (norm1_real (hp i) (hm2 _) (hv2 (i 1)) (hg2 _) (hb2 _)) (hm3 _) (hv3 (i 1)) (hog _) (hob _))
    zero_real

/-- For a real scale g and a non-negative real variance v, g² v / (v + ε) is a non-negative real number. -/
theorem closedVar_nonneg {g v : EReal} (hg : IsReal g) (hv : ∃ x : ℝ, 0 ≤ x ∧ v = (x : EReal)) :
    ∃ y : ℝ, 0 ≤ y ∧ Ideal.div ((g * g) * v) (v + eps) = (y : EReal) := by
  obtain ⟨a, rfl⟩ := hg
  obtain ⟨x, hx, rfl⟩ := hv
  have he := Cert.Consts.eps_pos
  have hpos : (0 : ℝ) < x + 2748779 / 274877906944 := add_pos_of_nonneg_of_pos hx he
  refine ⟨a * a * x / (x + 2748779 / 274877906944),
    div_nonneg (mul_nonneg (mul_self_nonneg a) hx) hpos.le, ?_⟩
  show Ideal.div (((a : EReal) * (a : EReal)) * (x : EReal)) ((x : EReal) + Ideal.ofBits .f32 0x3727C5AC#32) = _
  rw [Cert.Consts.ofBits_eps, ← EReal.coe_add, ← EReal.coe_mul, ← EReal.coe_mul, Ideal.div_coe hpos.ne', ← EReal.coe_mul,
    mul_one_div]

end Cert.Spec

end
-- ==== Proof.Core.StageA1.lean ====
/-
  The first stage of layer 1 in the two programs: from equal node features with real entries, equal edge lists, and equal
  (real) weights and bias, the kernel's output array is the reference's, and has real entries.

  Both programs aggregate the neighbours' features by the same gather and accumulating scatter from the zero array. The
  kernel's output array is the first stage of the specification at the arrays its region finds: the aggregate, the node
  features, the layer's slice of the converted weight stack (the conversion is the identity at the exact instance) and the
  layer's bias cast to a row. The reference's composition — the sum of the aggregate and the features, contracted with the
  layer's weight slice, plus the bias laid out as a row and repeated down the rows — is the same first stage.
-/
import proofs.«141748_j59863254171699_1_alg».proof.Proof.Core.Base
import proofs.«141748_j59863254171699_1_alg».proof.Proof.KI.Val0
import proofs.«141748_j59863254171699_1_alg».proof.Proof.RF.BridgeA
import proofs.«141748_j59863254171699_1_alg».proof.Proof.SpecReal
import proofs.«141748_j59863254171699_1_alg».proof.Proof.Gen.ReferenceIdeal

set_option maxRecDepth 65536
set_option maxHeartbeats 16000000

noncomputable section

namespace Cert.Proof.Core

open Idealize.ShloMosaic Idealize.ShloMosaic.TcCoe Idealize.SL.Sem Idealize.ShloMosaic.StableHlo Idealize.ShloMosaic.ValueIdx
open Cert.Lib Cert.ReferenceIdeal.Hand

local notation "bc1 " v:max => broadcastInDim Cert.ReferenceIdeal.S1x128 ![1] Cert.ReferenceIdeal.Gen.bcast_S128_S1x128_1 v
local notation "bc2 " r:max => broadcastInDim Cert.ReferenceIdeal.S100000x128 ![0, 1] Cert.ReferenceIdeal.Gen.bcast_S1x128_S100000x128_0_1 r

theorem stageA1 (Z : KD → KVal) (Z' : RVal) (c : KD)
    (hx : Z c (Cert.KernelIdeal.main_arg0 : DevRef Cert.KernelIdeal.τ Cert.KernelIdeal.sig) = Z' (Cert.ReferenceIdeal.main_arg0 : DevRef Cert.ReferenceIdeal.τ Cert.ReferenceIdeal.sig)) (rx : AllReal (Z' (Cert.ReferenceIdeal.main_arg0 : DevRef Cert.ReferenceIdeal.τ Cert.ReferenceIdeal.sig)))
    (hs : Z c (Cert.KernelIdeal.main_v1 : DevRef Cert.KernelIdeal.τ Cert.KernelIdeal.sig) = Z' (Cert.ReferenceIdeal.main_v1 : DevRef Cert.ReferenceIdeal.τ Cert.ReferenceIdeal.sig))
    (hd : Z c (Cert.KernelIdeal.main_v3 : DevRef Cert.KernelIdeal.τ Cert.KernelIdeal.sig) = Z' (Cert.ReferenceIdeal.main_v3 : DevRef Cert.ReferenceIdeal.τ Cert.ReferenceIdeal.sig))
    (hw : Z c (Cert.KernelIdeal.main_v4 : DevRef Cert.KernelIdeal.τ Cert.KernelIdeal.sig) = Z' (Cert.ReferenceIdeal.main_arg4 : DevRef Cert.ReferenceIdeal.τ Cert.ReferenceIdeal.sig)) (rw4 : AllReal (Z' (Cert.ReferenceIdeal.main_arg4 : DevRef Cert.ReferenceIdeal.τ Cert.ReferenceIdeal.sig)))
    (hb : Z c (Cert.KernelIdeal.main_arg5 : DevRef Cert.KernelIdeal.τ Cert.KernelIdeal.sig) = Z' (Cert.ReferenceIdeal.main_arg5 : DevRef Cert.ReferenceIdeal.τ Cert.ReferenceIdeal.sig)) (rb : AllReal (Z' (Cert.ReferenceIdeal.main_arg5 : DevRef Cert.ReferenceIdeal.τ Cert.ReferenceIdeal.sig))) :
    Cert.KernelIdeal.Hand.L1A' Z c (Cert.KernelIdeal.main_v21 : DevRef Cert.KernelIdeal.τ Cert.KernelIdeal.sig) = after Cert.ReferenceIdeal.Hand.RA1r Z' (Cert.ReferenceIdeal.main_v22 : DevRef Cert.ReferenceIdeal.τ Cert.ReferenceIdeal.sig)
      ∧ AllReal (after Cert.ReferenceIdeal.Hand.RA1r Z' (Cert.ReferenceIdeal.main_v22 : DevRef Cert.ReferenceIdeal.τ Cert.ReferenceIdeal.sig)) := by
  -- the reference's names for what the stage reads
  let X : FVec Ideal Cert.ReferenceIdeal.S100000x128 .f32 := Z' (Cert.ReferenceIdeal.main_arg0 : DevRef Cert.ReferenceIdeal.τ Cert.ReferenceIdeal.sig)
  let W : FVec Ideal Cert.ReferenceIdeal.S128x128 .f32 := shapeCast Cert.ReferenceIdeal.S128x128 (extractStridedSlice Cert.ReferenceIdeal.S1x128x128 ![0, 0, 0] (Z' (Cert.ReferenceIdeal.main_arg4 : DevRef Cert.ReferenceIdeal.τ Cert.ReferenceIdeal.sig)) Cert.ReferenceIdeal.Gen.slices_S3x128x128_S1x128x128_0_0_0) Cert.ReferenceIdeal.Gen.shapeCasts_S1x128x128_S128x128
  let B : FVec Ideal Cert.ReferenceIdeal.S128 .f32 := shapeCast Cert.ReferenceIdeal.S128 (extractStridedSlice Cert.ReferenceIdeal.S1x128 ![0, 0] (Z' (Cert.ReferenceIdeal.main_arg5 : DevRef Cert.ReferenceIdeal.τ Cert.ReferenceIdeal.sig)) Cert.ReferenceIdeal.Gen.slices_S3x128_S1x128_0_0) Cert.ReferenceIdeal.Gen.shapeCasts_S1x128_S128
  -- the reference's fold is its printed composition, the aggregate left as the fold's value at its buffer
  have hR : after Cert.ReferenceIdeal.Hand.RA1r Z' (Cert.ReferenceIdeal.main_v22 : DevRef Cert.ReferenceIdeal.τ Cert.ReferenceIdeal.sig)
      = addf (Host.dotGeneral Cert.ReferenceIdeal.dot_S100000x128_S128x128_S100000x128_1_0_0_1_n_n none
          (addf (after Cert.ReferenceIdeal.Hand.RA1r Z' (Cert.ReferenceIdeal.main_v13 : DevRef Cert.ReferenceIdeal.τ Cert.ReferenceIdeal.sig)) X) W) (bc2 (bc1 B)) := by
    dsimp only [Cert.ReferenceIdeal.Hand.RA1r]
    after_results_simp
    rfl
  -- the aggregate has real entries: an accumulating scatter of gathered real entries into the zero array
  have rAgg : AllReal (after Cert.ReferenceIdeal.Hand.RA1r Z' (Cert.ReferenceIdeal.main_v13 : DevRef Cert.ReferenceIdeal.τ Cert.ReferenceIdeal.sig)) := by
    dsimp only [Cert.ReferenceIdeal.Hand.RA1r]
    after_results_simp
    exact AllReal.hostScatterAdd' _ _ (AllReal.broadcastInDim (AllReal.constant Cert.Spec.zero_real) _ _) (AllReal.gather (φ := .f32) rx _ _)
  have rW : AllReal W := fun i => rw4 _
  have rB : AllReal (bc1 B) := fun i => rb _
  -- the kernel's output array in the reference's names
  have hK : Cert.KernelIdeal.Hand.L1A' Z c (Cert.KernelIdeal.main_v21 : DevRef Cert.KernelIdeal.τ Cert.KernelIdeal.sig)
      = Cert.Spec.P1 (after Cert.ReferenceIdeal.Hand.RA1r Z' (Cert.ReferenceIdeal.main_v13 : DevRef Cert.ReferenceIdeal.τ Cert.ReferenceIdeal.sig)) X W (bc1 B) := by
    unfold Cert.KernelIdeal.Hand.L1A' Cert.KernelIdeal.Hand.W0'
    rw [Function.update_self, Cert.KernelIdeal.Hand.final0]
    dsimp only [Cert.KernelIdeal.Hand.Vof, Cert.KernelIdeal.Hand.L1A, Cert.KernelIdeal.Hand.rest0, Cert.ReferenceIdeal.Hand.RA1r]
    after_results_simp
    refine P1_congr ?_ hx ?_ ?_
    · rw [hx, hs, hd]; rfl
    · rw [hw]; rfl
    · rw [hb]
      exact row_cast _ Cert.KernelIdeal.Gen.shapeCasts_S128_S1x128 Cert.ReferenceIdeal.Gen.bcast_S128_S1x128_1
  have hfin : after Cert.ReferenceIdeal.Hand.RA1r Z' (Cert.ReferenceIdeal.main_v22 : DevRef Cert.ReferenceIdeal.τ Cert.ReferenceIdeal.sig)
      = Cert.Spec.P1 (after Cert.ReferenceIdeal.Hand.RA1r Z' (Cert.ReferenceIdeal.main_v13 : DevRef Cert.ReferenceIdeal.τ Cert.ReferenceIdeal.sig)) X W (bc1 B) :=
    hR.trans (bridgeA _ X W B)
  refine ⟨hK.trans hfin.symm, ?_⟩
  rw [hfin]
  exact Cert.Spec.P1_real rAgg rx rW rB

end Cert.Proof.Core

end
-- ==== Proof.KI.Val1.lean ====
/-
  The second kernel of layer 1, from blocks to the array. The grid has 20 points. Point t reads rows 5000 t … 5000 t + 4999 of the
  first stage and, whole, the four 1 × 128 rows of given statistics, scale and shift, the 128 × 128 weights and the 1 × 128
  bias row; it writes back rows 5000 t … 5000 t + 4999 of the output. Entry (p, q) of the stored block is
      (∑ k, ((h (5000 t + p, k) − mean k) · rsqrt (var k + ε) · g k + bt k) · w (k, q)) + b (0, q)
  (a change of number format is the identity on the extended reals), and the 20 blocks tile the 100000 rows: the output
  array ends holding the second stage P2 of the arrays as the region finds them.
-/
import proofs.«141748_j59863254171699_1_alg».proof.Proof.KI.Region1
import proofs.«141748_j59863254171699_1_alg».proof.Proof.LibLinearAt
import proofs.«141748_j59863254171699_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The zero offsets, as a function. -/
theorem val1_hz : (![0, 0] : Fin 2 → Nat) = fun _ => 0 := funext fun a => by fin_cases a <;> rfl

/-- Row p of block t is row 5000 t + p of the array. -/
def rowOf1 (t : Fin 20) (p : Fin 5000) : Fin 100000 := ⟨t.val * 5000 + p.val, by have := t.isLt; have := p.isLt; omega⟩

/-- Window 0's block at point t is rows 5000 t … 5000 t + 4999 of its array. -/
theorem val1_blk0 (c : Dev nD) (t : Fin cfg1.N) (p : Fin 5000) (q : Fin 128) :
    iblk1 V c 0 t (ix2 p q) = V c main_v21 (ix2 (rowOf1 t p) q) := by
  obtain ⟨e0, e1⟩ : win1_0.index t (0 : Fin 2) = t.val ∧ win1_0.index t (1 : Fin 2) = 0 :=
    (by decide +kernel : ∀ t : Fin grid1.N, win1_0.index t (0 : Fin 2) = t.val ∧ win1_0.index t (1 : Fin 2) = 0) t
  show V c main_v21 (((cfg1.win 0).blk t).view.emb (ix2 p q)) = _
  refine congrArg (V c main_v21) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * q.val = q.val; omega

/-- Window 1's block is its one whole row of per-feature numbers, whatever the point. -/
theorem val1_row1 (c : Dev nD) (t : Fin cfg1.N) (q : Fin 128) :
    iblk1 V c 1 t (ix2 0 q) = V c main_v25 (ix2 0 q) := by
  obtain ⟨e0, e1⟩ : win1_1.index t (0 : Fin 2) = 0 ∧ win1_1.index t (1 : Fin 2) = 0 :=
    (by decide +kernel : ∀ t : Fin grid1.N, win1_1.index t (0 : Fin 2) = 0 ∧ win1_1.index t (1 : Fin 2) = 0) t
  show V c main_v25 (((cfg1.win 1).blk t).view.emb (ix2 0 q)) = _
  refine congrArg (V c main_v25) (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

/-- Window 2's block is its one whole row of per-feature numbers, whatever the point. -/
theorem val1_row2 (c : Dev nD) (t : Fin cfg1.N) (q : Fin 128) :
    iblk1 V c 2 t (ix2 0 q) = V c main_v27 (ix2 0 q) := by
  obtain ⟨e0, e1⟩ : win1_2.index t (0 : Fin 2) = 0 ∧ win1_2.index t (1 : Fin 2) = 0 :=
    (by decide +kernel : ∀ t : Fin grid1.N, win1_2.index t (0 : Fin 2) = 0 ∧ win1_2.index t (1 : Fin 2) = 0) t
  show V c main_v27 (((cfg1.win 2).blk t).view.emb (ix2 0 q)) = _
  refine congrArg (V c main_v27) (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-- Window 3's block is its one whole row of per-feature numbers, whatever the point. -/
theorem val1_row3 (c : Dev nD) (t : Fin cfg1.N) (q : Fin 128) :
    iblk1 V c 3 t (ix2 0 q) = V c main_v30 (ix2 0 q) := by
  obtain ⟨e0, e1⟩ : win1_3.index t (0 : Fin 2) = 0 ∧ win1_3.index t (1 : Fin 2) = 0 :=
    (by decide +kernel : ∀ t : Fin grid1.N, win1_3.index t (0 : Fin 2) = 0 ∧ win1_3.index t (1 : Fin 2) = 0) t
  show V c main_v30 (((cfg1.win 3).blk t).view.emb (ix2 0 q)) = _
  refine congrArg (V c main_v30) (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-- Window 4's block is its one whole row of per-feature numbers, whatever the point. -/
theorem val1_row4 (c : Dev nD) (t : Fin cfg1.N) (q : Fin 128) :
    iblk1 V c 4 t (ix2 0 q) = V c main_v33 (ix2 0 q) := by
  obtain ⟨e0, e1⟩ : win1_4.index t (0 : Fin 2) = 0 ∧ win1_4.index t (1 : Fin 2) = 0 :=
    (by decide +kernel : ∀ t : Fin grid1.N, win1_4.index t (0 : Fin 2) = 0 ∧ win1_4.index t (1 : Fin 2) = 0) t
  show V c main_v33 (((cfg1.win 4).blk t).view.emb (ix2 0 q)) = _
  refine congrArg (V c main_v33) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- Window 5's block is its one whole 128 × 128 matrix, whatever the point. -/
theorem val1_mat5 (c : Dev nD) (t : Fin cfg1.N) (k q : Fin 128) :
    iblk1 V c 5 t (ix2 k q) = V c main_v38 (ix2 k q) := by
  obtain ⟨e0, e1⟩ : win1_5.index t (0 : Fin 2) = 0 ∧ win1_5.index t (1 : Fin 2) = 0 :=
    (by decide +kernel : ∀ t : Fin grid1.N, win1_5.index t (0 : Fin 2) = 0 ∧ win1_5.index t (1 : Fin 2) = 0) t
  show V c main_v38 (((cfg1.win 5).blk t).view.emb (ix2 k q)) = _
  refine congrArg (V c main_v38) (funext fun a => Fin.ext ?_)
  match a with
  | ⟨0, _⟩ => show win1_5.index t (0 : Fin 2) * 128 + 1 * k.val = k.val; omega
  | ⟨1, _⟩ => show win1_5.index t (1 : Fin 2) * 128 + 1 * q.val = q.val; omega

/-- Window 6's block is its one whole row of per-feature numbers, whatever the point. -/
theorem val1_row6 (c : Dev nD) (t : Fin cfg1.N) (q : Fin 128) :
    iblk1 V c 6 t (ix2 0 q) = V c main_v36 (ix2 0 q) := by
  obtain ⟨e0, e1⟩ : win1_6.index t (0 : Fin 2) = 0 ∧ win1_6.index t (1 : Fin 2) = 0 :=
    (by decide +kernel : ∀ t : Fin grid1.N, win1_6.index t (0 : Fin 2) = 0 ∧ win1_6.index t (1 : Fin 2) = 0) t
  show V c main_v36 (((cfg1.win 6).blk t).view.emb (ix2 0 q)) = _
  refine congrArg (V c main_v36) (funext fun a => Fin.ext ?_)
  match a with
  | ⟨0, _⟩ => show win1_6.index t (0 : Fin 2) * 1 + 1 * 0 = 0; omega
  | ⟨1, _⟩ => show win1_6.index t (1 : Fin 2) * 128 + 1 * q.val = q.val; omega

/-- The output's block at point t sits at rows 5000 t … 5000 t + 4999. -/
theorem val1_emb (t : Fin cfg1.N) (p : Fin 5000) (q : Fin 128) :
    ((cfg1.win 7).blk t).view.emb (ix2 p q) = ix2 (rowOf1 t p) q := by
  obtain ⟨e0, e1⟩ : win1_7.index t (0 : Fin 2) = t.val ∧ win1_7.index t (1 : Fin 2) = 0 :=
    (by decide +kernel : ∀ t : Fin grid1.N, win1_7.index t (0 : Fin 2) = t.val ∧ win1_7.index t (1 : Fin 2) = 0) t
  refine funext fun a => Fin.ext ?_
  match a with
  | ⟨0, _⟩ => show win1_7.index t (0 : Fin 2) * 5000 + 1 * p.val = t.val * 5000 + p.val; omega
  | ⟨1, _⟩ => show win1_7.index t (1 : Fin 2) * 128 + 1 * q.val = q.val; omega

/-- The second kernel's arithmetic at an entry: the block normalised per feature with the given statistics, scaled and
    shifted, then its product with the weights, accumulated from the zero array, plus the bias row repeated down the rows. -/
theorem pay1_apply (x : Vec Ideal S5000x128 .f32) (mean var g bt : Vec Ideal S1x128 .f32) (w : Vec Ideal S128x128 .bf16)
    (b : Vec Ideal S1x128 .f32) (p : Fin 5000) (q : Fin 128) :
    k1_pay1 (F := Ideal) x var mean g bt w b (ix2 p q)
      = (∑ k : Fin 128, Cert.Spec.norm1 (x (ix2 p k)) (mean (ix2 0 k)) (var (ix2 0 k)) (g (ix2 0 k)) (bt (ix2 0 k)) * w (ix2 k q))
          + b (ix2 0 q) := by
  unfold k1_pay1
  refine (Cert.LinearAt.matmul_bias_apply 5000 128 128 dot_S5000x128_S128x128_S5000x128_1_0_0_1_n_n rfl _ _ b _ _ p q).trans ?_
  simp only [shapeCast_self]
  simp only [truncf_apply, addf_apply, mulf_apply, subf_apply, broadcastTo_1b_ab_apply]
  rfl

/-- What point t writes back is block t of the second stage of the arrays as the region finds them. -/
theorem val1_flushed (c : Dev nD) (t : Fin cfg1.N) :
    (dat1 (F := Ideal) V c).flushed 7 t = ((cfg1.win 7).blk t).view.read (Elt Ideal)
      (Cert.Spec.P2 (V c main_v21) (V c main_v25) (V c main_v27) (V c main_v30) (V c main_v33) (V c main_v38) (V c main_v36)) := by
  show (cfg1.win 7).cut (grid1.coords t) ((dat1 (F := Ideal) V c).after 7 t) = _
  rw [after1_7]
  unfold out1_7
  rw [View.canon_unit_zero val1_hz]
  simp only [View.ld_unit_zero (S := S5000x128) val1_hz, View.ld_unit_zero (S := S128x128) val1_hz, View.ld_unit_zero (S := S1x128) val1_hz]
  funext j
  obtain ⟨p, q, rfl⟩ : ∃ (p : Fin 5000) (q : Fin 128), j = ix2 p q := ⟨j 0, j 1, eq_ix2 j⟩
  refine (pay1_apply _ _ _ _ _ _ _ p q).trans ?_
  simp only [val1_blk0, val1_row1, val1_row2, val1_row3, val1_row4, val1_mat5, val1_row6]
  show _ = Cert.Spec.P2 (V c main_v21) (V c main_v25) (V c main_v27) (V c main_v30) (V c main_v33) (V c main_v38) (V c main_v36)
    (((cfg1.win 7).blk t).view.emb (ix2 p q))
  rw [val1_emb]
  rfl

/-- Every index of the array is in some point's block: row r is in block r / 5000. -/
theorem val1_cover (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  obtain ⟨t, ht⟩ : ∃ t : Fin cfg1.N, t.val = (i 0).val / 5000 := ⟨⟨(i 0).val / 5000, by show _ < 20; omega⟩, rfl⟩
  obtain ⟨e0, e1⟩ : win1_7.index t (0 : Fin 2) = t.val ∧ win1_7.index t (1 : Fin 2) = 0 :=
    (by decide +kernel : ∀ t : Fin grid1.N, win1_7.index t (0 : Fin 2) = t.val ∧ win1_7.index t (1 : Fin 2) = 0) t
  refine ⟨t, flush1_7 t, ?_⟩
  show i ∈ ((View.whole main_v39).slice (win1_7.rect t)).set
  rw [View.set_slice_whole, Rect.mem_set_unit]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- The array after the region: the second stage of the arrays as the region finds them. -/
theorem final1 (c : Dev nD) : (dat1 (F := Ideal) V c).arrAt 7 cfg1.N
    = Cert.Spec.P2 (V c main_v21) (V c main_v25) (V c main_v27) (V c main_v30) (V c main_v33) (V c main_v38) (V c main_v36) :=
  (dat1 (F := Ideal) V c).arrAt_eq_of_cover 7 _ (fun t _ => val1_flushed V c t) (fun i => val1_cover i)

end Cert.KernelIdeal.Hand

end
-- ==== Proof.RF.BridgeB.lean ====
/-
  One batch normalisation with given statistics, and the reference's second stage, read at an entry.

  The program normalises a 100000 × 128 array p with per-feature vectors m (mean), v (variance), g (scale), bt (shift):
  each 128-vector is laid out as a 1 × 128 row and the row repeated down the rows, and

      bn p m v g bt = (p − m) · rsqrt (v + ε) · g + bt      entry by entry,

  ε the printed single-precision constant splat over the 128 features.  At row r and feature j this is the
  specification's one-number normalisation of p r j with the statistics' entries j.  The second stage contracts the
  normalised array with the 128 × 128 weight and adds the bias row:

      (∑ k, norm1 (p r k) (m k) (v k) (g k) (bt k) · w k j) + b j.
-/
import proofs.«141748_j59863254171699_1_alg».proof.ReferenceIdeal
import proofs.«141748_j59863254171699_1_alg».proof.Proof.Spec
import proofs.«141748_j59863254171699_1_alg».proof.Proof.LibLinearAt
import Idealize.ShloMosaic.Lib.ValueIdx
import Idealize.ShloMosaic.Lib.Pipeline.Value

noncomputable section

namespace Cert.ReferenceIdeal.Hand

open Cert.ReferenceIdeal Idealize.ShloMosaic Idealize.ShloMosaic.ValueIdx

variable [Facts₀]
open Facts₀

/-- A 128-vector as a 1 × 128 row. -/
local notation "bc1 " v:max => broadcastInDim S1x128 ![1] bcast_S128_S1x128_1 v
/-- A 1 × 128 row repeated down the 100000 rows. -/
local notation "bc2 " r:max => broadcastInDim S100000x128 ![0, 1] bcast_S1x128_S100000x128_0_1 r
/-- The printed epsilon over the 128 features. -/
local notation "epsv" => broadcastInDim S128 ![] bcast_S_S128 (constant (F := Ideal) S_ FTy.f32 0x3727C5AC#32)

/-- A 128-vector laid out as a 1 × 128 row reads at (0, j) its entry j. -/
theorem bc1_apply {α : Type} (v : S128.Idx → α) (a : Fin 1) (j : Fin 128) :
    (bc1 v) (ix2 a j) = v (ix1 j) := by
  refine broadcastInDim_apply ![1] bcast_S128_S1x128_1 v (ix2 a j) (ix1 j) fun c => ?_
  match c with
  | ⟨0, _⟩ => rfl

/-- A 1 × 128 row repeated down the rows reads at (r, j) the row's entry j. -/
theorem bc2_apply {α : Type} (R : S1x128.Idx → α) (r : Fin 100000) (j : Fin 128) :
    (bc2 R) (ix2 r j) = R (ix2 (0 : Fin 1) j) :=
  Cert.LinearAt.row_stretch_apply 100000 128 R ![0, 1] rfl bcast_S1x128_S100000x128_0_1 r j

/-- One batch normalisation with given per-feature statistics, as the program spells it. -/
def bn (p : FVec Ideal S100000x128 .f32) (m v g bt : FVec Ideal S128 .f32) : FVec Ideal S100000x128 .f32 :=
  addf (mulf (mulf (subf p (bc2 (bc1 m))) (bc2 (bc1 (Host.rsqrt (addf v epsv))))) (bc2 (bc1 g))) (bc2 (bc1 bt))

/-- The normalisation at row r, feature j: the one-number normalisation of p r j with the statistics' entries j. -/
theorem bn_apply (p : FVec Ideal S100000x128 .f32) (m v g bt : FVec Ideal S128 .f32) (r : Fin 100000) (j : Fin 128) :
    bn p m v g bt (ix2 r j)
      = Cert.Spec.norm1 (p (ix2 r j)) ((bc1 m) (ix2 0 j)) ((bc1 v) (ix2 0 j)) ((bc1 g) (ix2 0 j)) ((bc1 bt) (ix2 0 j)) := by
  unfold bn
  rw [addf_apply, mulf_apply, mulf_apply, subf_apply, bc2_apply, bc2_apply, bc2_apply, bc2_apply, bc1_apply (Host.rsqrt _), bc1_apply v]
  rfl

/-- The second stage as the program computes it is the second stage of the specification. -/
theorem bridgeB (p : FVec Ideal S100000x128 .f32) (m v g bt b2 : FVec Ideal S128 .f32) (w : FVec Ideal S128x128 .f32) :
    addf (Host.dotGeneral dot_S100000x128_S128x128_S100000x128_1_0_0_1_n_n none (bn p m v g bt) w) (bc2 (bc1 b2))
      = Cert.Spec.P2 p (bc1 m) (bc1 v) (bc1 g) (bc1 bt) w (bc1 b2) := by
  funext i
  obtain ⟨r, j, rfl⟩ : ∃ r j, i = ix2 r j := ⟨_, _, eq_ix2 i⟩
  rw [Cert.LinearAt.dot_bias_apply 100000 128 128 dot_S100000x128_S128x128_S100000x128_1_0_0_1_n_n rfl (bn p m v g bt) w (bc1 b2) ![0, 1] rfl
    bcast_S1x128_S100000x128_0_1 r j]
  refine congrArg (· + _) (Finset.sum_congr rfl fun k _ => ?_)
  rw [bn_apply]

end Cert.ReferenceIdeal.Hand

end
-- ==== Proof.RF.Stats.lean ====
/-
  The column mean and the column variance as the reference computes them, read at a feature.

  For a 100000 × 128 array p the program takes, per feature j,

      mean j = (0 + ∑ i, p i j) / 100000,
      var j  = (0 + ∑ i, (p i j − mean j)²) / (100000 − 0),

  the sums accumulated from the printed zero, the divisions the exact instance's.  The variance is guarded by a
  selection on (100000 − 0 > 0) between the quotient and a splat of a fixed word; the count 100000 − 0 is the real
  number 100000 (the conversion of the zero word is the real 0), which is positive, so the selection takes the
  quotient, and the divisor is 100000.
-/
import proofs.«141748_j59863254171699_1_alg».proof.ReferenceIdeal
import proofs.«141748_j59863254171699_1_alg».proof.Proof.Spec
import proofs.«141748_j59863254171699_1_alg».proof.Proof.LibLinearAt
import Idealize.ShloMosaic.Lib.ValueIdx
import Idealize.ShloMosaic.Lib.Pipeline.Value
import proofs.«141748_j59863254171699_1_alg».proof.Proof.Consts
import proofs.«141748_j59863254171699_1_alg».proof.Proof.RF.BridgeB
import Idealize.ShloMosaic.PureOps.Ideal.Laws

noncomputable section

namespace Cert.ReferenceIdeal.Hand

open Cert.ReferenceIdeal Idealize.ShloMosaic Idealize.ShloMosaic.ValueIdx

variable [Facts₀]
open Facts₀

/-- A 128-vector as a 1 × 128 row. -/
local notation "bc1 " v:max => broadcastInDim S1x128 ![1] bcast_S128_S1x128_1 v
/-- A 1 × 128 row repeated down the 100000 rows. -/
local notation "bc2 " r:max => broadcastInDim S100000x128 ![0, 1] bcast_S1x128_S100000x128_0_1 r
/-- The printed zero and the printed row count, as rank-zero arrays. -/
local notation "zero0" => constant (F := Ideal) S_ FTy.f32 0x00000000#32
local notation "rows0" => constant (F := Ideal) S_ FTy.f32 0x47C35000#32
/-- The row count over the 128 features. -/
local notation "rowsv" => broadcastInDim S128 ![] bcast_S_S128 rows0
/-- The row count less the conversion of the integer zero, as a rank-zero array. -/
local notation "cnt0" => subf rows0 (sitofp FTy.f32 (constantI S_ 32 0#32))
/-- The sum down the rows, accumulated from the printed zero. -/
local notation "colsum " x:max => Host.reduceAdd x zero0 reducesTo_S100000x128_S128_d0 h_S_

/-- Dropping axis 0 of a 100000 × 128 array leaves the 128 features. -/
theorem reduces_d0 : S100000x128.Reduces [0] S128 := by decide

/-- A sum down the rows from a rank-zero initial value, read at feature j. -/
theorem colsum_apply (x : FVec Ideal S100000x128 .f32) (init : FVec Ideal S_ .f32) (j : Fin 128) :
    Host.reduceAdd x init reducesTo_S100000x128_S128_d0 h_S_ (ix1 j) = init ix0 + ∑ i : Fin 100000, x (ix2 i j) := by
  show Ideal.hostReduceAdd reducesTo_S100000x128_S128_d0 x (init (Shape.Idx.first h_S_)) (ix1 j) = _
  rw [Ideal.hostReduceAdd_single reducesTo_S100000x128_S128_d0 reduces_d0 x _ (ix1 j), eq_ix0 (Shape.Idx.first h_S_)]
  refine congrArg (init ix0 + ·) (Finset.sum_congr rfl fun i _ => congrArg x ?_)
  funext c
  match c with
  | ⟨0, _⟩ => rfl
  | ⟨1, _⟩ => rfl

/-- The column mean as the program computes it. -/
def meanOf (p : FVec Ideal S100000x128 .f32) : FVec Ideal S128 .f32 :=
  Host.divf (colsum p) rowsv

/-- The column mean at feature j: the sum down the rows from zero, divided by the row count. -/
theorem meanOf_apply (p : FVec Ideal S100000x128 .f32) (j : Fin 128) :
    meanOf p (ix1 j)
      = Ideal.div (Ideal.ofBits .f32 0x00000000#32 + ∑ i : Fin 100000, p (ix2 i j)) (Ideal.ofBits .f32 0x47C35000#32) := by
  show Ideal.div ((colsum p) (ix1 j)) (Ideal.ofBits .f32 0x47C35000#32) = _
  rw [colsum_apply]
  rfl

/-- The column variance as the program's outlined function computes it. -/
def varOf (p : FVec Ideal S100000x128 .f32) : FVec Ideal S128 .f32 :=
  select (broadcastInDim S128 ![] bcast_S_S128 (cmpf .ogt cnt0 zero0))
    (Host.divf
      (colsum (mulf
        (subf p (bc2 (Host.divf (bc1 (colsum p)) (broadcastInDim S1x128 ![] bcast_S_S1x128 rows0))))
        (subf p (bc2 (Host.divf (bc1 (colsum p)) (broadcastInDim S1x128 ![] bcast_S_S1x128 rows0))))))
      (broadcastInDim S128 ![] bcast_S_S128 cnt0))
    (broadcastInDim S128 ![] bcast_S_S128 (id (constant (F := Ideal) S_ .f32 0x7FC00000#32)))

/-- The row count less the converted zero is the row count. -/
theorem cnt_eq : Ideal.ofBits .f32 0x47C35000#32 - (((0#32 : BitVec 32).toInt : ℝ) : EReal) = Ideal.ofBits .f32 0x47C35000#32 := by
  rw [BitVec.toInt_zero, Int.cast_zero, EReal.coe_zero, sub_zero]

/-- The row count is above the printed zero. -/
theorem rows_pos : Ideal.cmp .ogt (Ideal.ofBits .f32 0x47C35000#32) (Ideal.ofBits .f32 0x00000000#32) = 1#1 := by
  have h : (0 : EReal) < ((100000 : ℝ) : EReal) := EReal.coe_pos.2 (by norm_num)
  rw [Cert.Consts.ofBits_rows, Ideal.ofBits_zero_f32]
  simp [Ideal.cmp, h]

/-- An entry less its column's mean, as the program spells the centred array. -/
theorem centred_apply (p : FVec Ideal S100000x128 .f32) (i : Fin 100000) (j : Fin 128) :
    subf p (bc2 (Host.divf (bc1 (colsum p)) (broadcastInDim S1x128 ![] bcast_S_S1x128 rows0))) (ix2 i j)
      = p (ix2 i j) - Ideal.div (Ideal.ofBits .f32 0x00000000#32 + ∑ i : Fin 100000, p (ix2 i j)) (Ideal.ofBits .f32 0x47C35000#32) := by
  rw [subf_apply, bc2_apply]
  show p (ix2 i j) - Ideal.div ((bc1 (colsum p)) (ix2 0 j)) (Ideal.ofBits .f32 0x47C35000#32) = _
  rw [bc1_apply, colsum_apply]
  rfl

/-- The guarded quotient of the program, for any centred array d whose entries in column j are known: the selection
    takes the quotient, the divisor is the row count, and the numerator is the sum of the squares from zero. -/
theorem var_core (d : FVec Ideal S100000x128 .f32) (f : Fin 100000 → EReal) (j : Fin 128)
    (h : ∀ i : Fin 100000, d (ix2 i j) = f i) :
    select (broadcastInDim S128 ![] bcast_S_S128 (cmpf .ogt cnt0 zero0))
        (Host.divf (colsum (mulf d d)) (broadcastInDim S128 ![] bcast_S_S128 cnt0))
        (broadcastInDim S128 ![] bcast_S_S128 (id (constant (F := Ideal) S_ .f32 0x7FC00000#32))) (ix1 j)
      = Ideal.div (Ideal.ofBits .f32 0x00000000#32 + ∑ i : Fin 100000, f i * f i) (Ideal.ofBits .f32 0x47C35000#32) := by
  rw [select_apply]
  have hc : (broadcastInDim S128 ![] bcast_S_S128 (cmpf .ogt cnt0 zero0)) (ix1 j) = 1#1 := by
    show Ideal.cmp .ogt (Ideal.ofBits .f32 0x47C35000#32 - (((0#32 : BitVec 32).toInt : ℝ) : EReal))
      (Ideal.ofBits .f32 0x00000000#32) = 1#1
    rw [cnt_eq, rows_pos]
  rw [hc, select_one]
  show Ideal.div ((colsum (mulf d d)) (ix1 j))
    (Ideal.ofBits .f32 0x47C35000#32 - (((0#32 : BitVec 32).toInt : ℝ) : EReal)) = _
  rw [cnt_eq, colsum_apply]
  have hs : (fun i : Fin 100000 => mulf d d (ix2 i j)) = fun i => f i * f i :=
    funext fun i => by rw [mulf_apply, h]
  rw [hs]
  rfl

/-- The column variance at feature j: the sum down the rows, from zero, of the squared distances to the column mean,
    divided by the row count. -/
theorem varOf_apply (p : FVec Ideal S100000x128 .f32) (j : Fin 128) :
    varOf p (ix1 j)
      = Ideal.div
          (Ideal.ofBits .f32 0x00000000#32 + ∑ i : Fin 100000,
            (p (ix2 i j) - Ideal.div (Ideal.ofBits .f32 0x00000000#32 + ∑ i : Fin 100000, p (ix2 i j)) (Ideal.ofBits .f32 0x47C35000#32))
              * (p (ix2 i j) - Ideal.div (Ideal.ofBits .f32 0x00000000#32 + ∑ i : Fin 100000, p (ix2 i j)) (Ideal.ofBits .f32 0x47C35000#32)))
          (Ideal.ofBits .f32 0x47C35000#32) :=
  var_core _ _ j fun i => centred_apply p i j

end Cert.ReferenceIdeal.Hand

end
-- ==== Proof.RF.StatsReal.lean ====
/-
  The column mean of an array with real entries is real, and its column variance is a non-negative real.

  The mean at feature j is (0 + ∑ i, p i j) / 100000: a finite sum of reals divided by a nonzero real. The variance is
  (0 + ∑ i, (p i j − mean j)²) / 100000: a finite sum of squares of reals divided by a positive real. The printed zero
  the sums start from is the real zero and drops out.
-/
import proofs.«141748_j59863254171699_1_alg».proof.Proof.RF.Stats
import proofs.«141748_j59863254171699_1_alg».proof.Proof.LibRealArrays

noncomputable section

namespace Cert.ReferenceIdeal.Hand

open Cert.ReferenceIdeal Idealize.ShloMosaic Idealize.ShloMosaic.ValueIdx Cert.Lib

variable [Facts₀]
open Facts₀

/-- The sum down a column of real entries, from zero, divided by the row count, is a real number. -/
theorem mean_isReal {p : FVec Ideal S100000x128 .f32} (hp : AllReal p) (j : Fin 128) :
    IsReal (Ideal.div (∑ i : Fin 100000, p (ix2 i j)) ((100000 : ℝ) : EReal)) :=
  (IsReal.sum _ _ fun _ _ => hp _).div (by norm_num)

/-- The column mean of an array with real entries has real entries. -/
theorem meanOf_real {p : FVec Ideal S100000x128 .f32} (hp : AllReal p) : AllReal (meanOf p) := by
  intro i
  obtain ⟨j, rfl⟩ : ∃ j, i = ix1 j := ⟨_, eq_ix1 i⟩
  rw [meanOf_apply, Cert.Consts.ofBits_rows, Ideal.ofBits_zero_f32, zero_add]
  exact mean_isReal hp j

/-- The column variance of an array with real entries is, at every feature, a non-negative real number. -/
theorem varOf_nonneg {p : FVec Ideal S100000x128 .f32} (hp : AllReal p) (j : Fin 128) :
    ∃ x : ℝ, 0 ≤ x ∧ varOf p (ix1 j) = (x : EReal) := by
  rw [varOf_apply, Cert.Consts.ofBits_rows, Ideal.ofBits_zero_f32]
  simp only [zero_add]
  exact IsReal.nonneg_div_sum_sq Finset.univ
    (fun i : Fin 100000 => p (ix2 i j) - Ideal.div (∑ i : Fin 100000, p (ix2 i j)) ((100000 : ℝ) : EReal))
    (fun i _ => (hp _).sub (mean_isReal hp j)) (n := 100000) (by norm_num)

end Cert.ReferenceIdeal.Hand

end
-- ==== Proof.Core.StageB1.lean ====
/-
  The second stage of layer 1 in the two programs: from equal first-stage arrays with real entries, equal (real) scale, shift
  and bias arguments and equal (real) weights, the kernel's output array is the reference's, and has real entries. Both
  programs take the column mean and the column variance of the first-stage array by the same operations; the kernel reads
  them, the scale, the shift and the bias as 1 × 128 rows (a 128-vector cast to a row is the vector laid along the second
  axis), and the second stage's formula on both sides is
      (∑ k, ((p (r, k) − mean k) · rsqrt (var k + ε) · g k + bt k) · w (k, j)) + b j.
-/
import proofs.«141748_j59863254171699_1_alg».proof.Proof.Core.Base
import proofs.«141748_j59863254171699_1_alg».proof.Proof.KI.Val1
import proofs.«141748_j59863254171699_1_alg».proof.Proof.RF.BridgeB
import proofs.«141748_j59863254171699_1_alg».proof.Proof.RF.StatsReal
import proofs.«141748_j59863254171699_1_alg».proof.Proof.SpecReal
import proofs.«141748_j59863254171699_1_alg».proof.Proof.Gen.ReferenceIdeal

set_option maxRecDepth 65536
set_option maxHeartbeats 16000000

noncomputable section

namespace Cert.Proof.Core

open Idealize.ShloMosaic Idealize.ShloMosaic.TcCoe Idealize.SL.Sem Idealize.ShloMosaic.StableHlo Idealize.ShloMosaic.ValueIdx
open Cert.Lib Cert.ReferenceIdeal.Hand

local notation "bc1 " v:max => broadcastInDim Cert.ReferenceIdeal.S1x128 ![1] Cert.ReferenceIdeal.Gen.bcast_S128_S1x128_1 v
local notation "bc2 " r:max => broadcastInDim Cert.ReferenceIdeal.S100000x128 ![0, 1] Cert.ReferenceIdeal.Gen.bcast_S1x128_S100000x128_0_1 r

theorem stageB1 (Z : KD → KVal) (Z' : RVal) (c : KD)
    (hp : Z c (Cert.KernelIdeal.main_v21 : DevRef _ _) = Z' (Cert.ReferenceIdeal.main_v22 : DevRef _ _)) (rp : AllReal (Z' (Cert.ReferenceIdeal.main_v22 : DevRef _ _)))
    (h6 : Z c (Cert.KernelIdeal.main_arg6 : DevRef _ _) = Z' (Cert.ReferenceIdeal.main_arg6 : DevRef _ _)) (r6 : AllReal (Z' (Cert.ReferenceIdeal.main_arg6 : DevRef _ _)))
    (h7 : Z c (Cert.KernelIdeal.main_arg7 : DevRef _ _) = Z' (Cert.ReferenceIdeal.main_arg7 : DevRef _ _)) (r7 : AllReal (Z' (Cert.ReferenceIdeal.main_arg7 : DevRef _ _)))
    (hw : Z c (Cert.KernelIdeal.main_v5 : DevRef _ _) = Z' (Cert.ReferenceIdeal.main_arg8 : DevRef _ _)) (rw8 : AllReal (Z' (Cert.ReferenceIdeal.main_arg8 : DevRef _ _)))
    (h9 : Z c (Cert.KernelIdeal.main_arg9 : DevRef _ _) = Z' (Cert.ReferenceIdeal.main_arg9 : DevRef _ _)) (r9 : AllReal (Z' (Cert.ReferenceIdeal.main_arg9 : DevRef _ _))) :
    Cert.KernelIdeal.Hand.W1' (fun c => after Cert.KernelIdeal.Gen.hostOps1_2 (after Cert.KernelIdeal.Gen.hostOps1_1 (after Cert.KernelIdeal.Gen.hostOps1 (Z c)))) c (Cert.KernelIdeal.main_v39 : DevRef _ _)
        = after Cert.ReferenceIdeal.Hand.RB1 Z' (Cert.ReferenceIdeal.main_v53 : DevRef _ _)
      ∧ AllReal (after Cert.ReferenceIdeal.Hand.RB1 Z' (Cert.ReferenceIdeal.main_v53 : DevRef _ _)) := by
  -- the reference's names for what the stage reads and computes
  let P : FVec Ideal Cert.ReferenceIdeal.S100000x128 .f32 := Z' (Proc.devRef .tc Cert.ReferenceIdeal.main_v22)
  let G : FVec Ideal Cert.ReferenceIdeal.S128 .f32 := (shapeCast Cert.ReferenceIdeal.S128 (extractStridedSlice Cert.ReferenceIdeal.S1x128 ![0, 0] (Z' (Proc.devRef .tc Cert.ReferenceIdeal.main_arg6)) Cert.ReferenceIdeal.Gen.slices_S3x128_S1x128_0_0) Cert.ReferenceIdeal.Gen.shapeCasts_S1x128_S128)
  let BT : FVec Ideal Cert.ReferenceIdeal.S128 .f32 := (shapeCast Cert.ReferenceIdeal.S128 (extractStridedSlice Cert.ReferenceIdeal.S1x128 ![0, 0] (Z' (Proc.devRef .tc Cert.ReferenceIdeal.main_arg7)) Cert.ReferenceIdeal.Gen.slices_S3x128_S1x128_0_0) Cert.ReferenceIdeal.Gen.shapeCasts_S1x128_S128)
  let B : FVec Ideal Cert.ReferenceIdeal.S128 .f32 := (shapeCast Cert.ReferenceIdeal.S128 (extractStridedSlice Cert.ReferenceIdeal.S1x128 ![0, 0] (Z' (Proc.devRef .tc Cert.ReferenceIdeal.main_arg9)) Cert.ReferenceIdeal.Gen.slices_S3x128_S1x128_0_0) Cert.ReferenceIdeal.Gen.shapeCasts_S1x128_S128)
  let Wt : FVec Ideal Cert.ReferenceIdeal.S128x128 .f32 := shapeCast Cert.ReferenceIdeal.S128x128 (extractStridedSlice Cert.ReferenceIdeal.S1x128x128 ![0, 0, 0] (Z' (Proc.devRef .tc Cert.ReferenceIdeal.main_arg8)) Cert.ReferenceIdeal.Gen.slices_S3x128x128_S1x128x128_0_0_0) Cert.ReferenceIdeal.Gen.shapeCasts_S1x128x128_S128x128
  let M := meanOf P
  let Vr := varOf P
  -- the reference's fold is its printed composition
  have hR : after Cert.ReferenceIdeal.Hand.RB1 Z' (Cert.ReferenceIdeal.main_v53 : DevRef _ _)
      = addf (Host.dotGeneral Cert.ReferenceIdeal.dot_S100000x128_S128x128_S100000x128_1_0_0_1_n_n none (bn P M Vr G BT) Wt) (bc2 (bc1 B)) := by
    dsimp only [Cert.ReferenceIdeal.Hand.RB1]
    after_results_simp
    rfl
  have hfin : after Cert.ReferenceIdeal.Hand.RB1 Z' (Cert.ReferenceIdeal.main_v53 : DevRef _ _)
      = Cert.Spec.P2 P (bc1 M) (bc1 Vr) (bc1 G) (bc1 BT) Wt (bc1 B) :=
    hR.trans (bridgeB P M Vr G BT B Wt)
  -- realness of everything in sight
  have rG : AllReal G := fun i => r6 _
  have rBT : AllReal BT := fun i => r7 _
  have rB : AllReal B := fun i => r9 _
  have rW : AllReal Wt := fun i => rw8 _
  have rM : AllReal M := meanOf_real rp
  have nV : ∀ j : Fin 128, ∃ x : ℝ, 0 ≤ x ∧ Vr (ix1 j) = (x : EReal) := varOf_nonneg rp
  have row_real : ∀ {v : FVec Ideal Cert.ReferenceIdeal.S128 .f32}, AllReal v → AllReal (bc1 v) := fun hv i => hv _
  have row_nn : ∀ {v : FVec Ideal Cert.ReferenceIdeal.S128 .f32}, (∀ j : Fin 128, ∃ x : ℝ, 0 ≤ x ∧ v (ix1 j) = (x : EReal)) → Cert.Spec.NonnegRow (bc1 v) :=
    fun hv k => by obtain ⟨x, hx, e⟩ := hv k; exact ⟨x, hx, (bc1_apply _ 0 k).trans e⟩
  -- the kernel's output array, row by row in the reference's names
  have hK : Cert.KernelIdeal.Hand.W1' (fun c => after Cert.KernelIdeal.Gen.hostOps1_2 (after Cert.KernelIdeal.Gen.hostOps1_1 (after Cert.KernelIdeal.Gen.hostOps1 (Z c)))) c (Cert.KernelIdeal.main_v39 : DevRef _ _)
      = Cert.Spec.P2 P (bc1 M) (bc1 Vr) (bc1 G) (bc1 BT) Wt (bc1 B) := by
    unfold Cert.KernelIdeal.Hand.W1'
    rw [Function.update_self, Cert.KernelIdeal.Hand.final1]
    dsimp only [Cert.KernelIdeal.Hand.Vof, Cert.KernelIdeal.Gen.hostOps1, Cert.KernelIdeal.Gen.hostOps1_1, Cert.KernelIdeal.Gen.hostOps1_2]
    after_results_simp
    rw [hp, h6, h7, hw, h9]
    refine P2_congr rfl ?_ ?_ ?_ ?_ ?_ ?_
    · exact (row_cast _ Cert.KernelIdeal.Gen.shapeCasts_S128_S1x128 Cert.ReferenceIdeal.Gen.bcast_S128_S1x128_1).trans rfl
    · exact (row_cast _ Cert.KernelIdeal.Gen.shapeCasts_S128_S1x128 Cert.ReferenceIdeal.Gen.bcast_S128_S1x128_1).trans rfl
    · exact (row_cast _ Cert.KernelIdeal.Gen.shapeCasts_S128_S1x128 Cert.ReferenceIdeal.Gen.bcast_S128_S1x128_1).trans rfl
    · exact (row_cast _ Cert.KernelIdeal.Gen.shapeCasts_S128_S1x128 Cert.ReferenceIdeal.Gen.bcast_S128_S1x128_1).trans rfl
    · rfl
    · exact (row_cast _ Cert.KernelIdeal.Gen.shapeCasts_S128_S1x128 Cert.ReferenceIdeal.Gen.bcast_S128_S1x128_1).trans rfl
  refine ⟨hK.trans hfin.symm, ?_⟩
  rw [hfin]
  exact Cert.Spec.P2_real rp (row_real rM) (row_nn nV) (row_real rG) (row_real rBT) rW (row_real rB)

end Cert.Proof.Core

end
-- ==== Proof.KI.PayC.lean ====
/-
  The third kernel's arithmetic at an entry. For a block of rows x and eight rows of per-feature numbers (two means, two
  variances, two scales, two shifts), the stored block holds at row r, feature j

      max ((((x r j − m2 j) · rsqrt (v2 j + ε) · g2 j + b2 j) − m3 j) · rsqrt (v3 j + ε) · og j + ob j) 0,

  every operation the exact one, ε the printed single-precision constant.
-/
import proofs.«141748_j59863254171699_1_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-- The printed epsilon, as the exact instance reads it. -/
abbrev eps : EReal := Ideal.ofBits .f32 0x3727C5AC#32

/-- The stored block of the third kernel of a layer, at an entry. -/
theorem pay2_apply (x : Vec Ideal S5000x128 .f32) (m2 v2 g2 b2 m3 v3 og ob : Vec Ideal S1x128 .f32) (r : Fin 5000) (j : Fin 128) :
    k2_pay1 (F := Ideal) (k2_pay2 x v2 m2 g2 b2 v3 m3 og) (k2_pay3 ob) (ix2 r j)
      = max ((((x (ix2 r j) - m2 (ix2 0 j)) * Ideal.rsqrt (v2 (ix2 0 j) + eps) * g2 (ix2 0 j) + b2 (ix2 0 j)) - m3 (ix2 0 j))
              * Ideal.rsqrt (v3 (ix2 0 j) + eps) * og (ix2 0 j) + ob (ix2 0 j))
          (Ideal.ofBits .f32 0x00000000#32) := by
  unfold k2_pay1 k2_pay2 k2_pay3
  simp only [shapeCast_self]
  simp only [maximumf, addf, subf, mulf, rsqrt, broadcastTo_1b_ab_apply]
  rfl

end Cert.KernelIdeal.Hand

end
-- ==== Proof.KI.Val2.lean ====
/-
  The third kernel of layer 1, from blocks to the array. The grid has 20 points. Point t reads rows 5000 t … 5000 t + 4999 of the
  node features and, whole, each 1 × 128 row of per-feature numbers; it writes back rows 5000 t … 5000 t + 4999 of the output.
  Entry (p, q) of the stored block is the third stage's formula at row 5000 t + p and feature q (two normalisations with the
  given statistics, then the maximum with zero), and the 20 blocks tile the 100000 rows: the output array ends holding the
  third stage X3 of the arrays as the region finds them.
-/
import proofs.«141748_j59863254171699_1_alg».proof.Proof.KI.Region2
import proofs.«141748_j59863254171699_1_alg».proof.Proof.KI.PayC
import proofs.«141748_j59863254171699_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The zero offsets, as a function. -/
theorem val2_hz : (![0, 0] : Fin 2 → Nat) = fun _ => 0 := funext fun a => by fin_cases a <;> rfl

/-- Row p of block t is row 5000 t + p of the array. -/
def rowOf2 (t : Fin 20) (p : Fin 5000) : Fin 100000 := ⟨t.val * 5000 + p.val, by have := t.isLt; have := p.isLt; omega⟩

/-- Window 0's block at point t is rows 5000 t … 5000 t + 4999 of its array. -/
theorem val2_blk0 (c : Dev nD) (t : Fin cfg2.N) (p : Fin 5000) (q : Fin 128) :
    iblk2 V c 0 t (ix2 p q) = V c main_v39 (ix2 (rowOf2 t p) q) := by
  obtain ⟨e0, e1⟩ : win2_0.index t (0 : Fin 2) = t.val ∧ win2_0.index t (1 : Fin 2) = 0 :=
    (by decide +kernel : ∀ t : Fin grid2.N, win2_0.index t (0 : Fin 2) = t.val ∧ win2_0.index t (1 : Fin 2) = 0) t
  show V c main_v39 (((cfg2.win 0).blk t).view.emb (ix2 p q)) = _
  refine congrArg (V c main_v39) (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * q.val = q.val; omega

/-- Window 1's block is its one whole row of per-feature numbers, whatever the point. -/
theorem val2_row1 (c : Dev nD) (t : Fin cfg2.N) (q : Fin 128) :
    iblk2 V c 1 t (ix2 0 q) = V c main_v43 (ix2 0 q) := by
  obtain ⟨e0, e1⟩ : win2_1.index t (0 : Fin 2) = 0 ∧ win2_1.index t (1 : Fin 2) = 0 :=
    (by decide +kernel : ∀ t : Fin grid2.N, win2_1.index t (0 : Fin 2) = 0 ∧ win2_1.index t (1 : Fin 2) = 0) t
  show V c main_v43 (((cfg2.win 1).blk t).view.emb (ix2 0 q)) = _
  refine congrArg (V c main_v43) (funext fun a => Fin.ext ?_)
  match a with
  | ⟨0, _⟩ => show win2_1.index t (0 : Fin 2) * 1 + 1 * 0 = 0; omega
  | ⟨1, _⟩ => show win2_1.index t (1 : Fin 2) * 128 + 1 * q.val = q.val; omega

/-- Window 2's block is its one whole row of per-feature numbers, whatever the point. -/
theorem val2_row2 (c : Dev nD) (t : Fin cfg2.N) (q : Fin 128) :
    iblk2 V c 2 t (ix2 0 q) = V c main_v45 (ix2 0 q) := by
  obtain ⟨e0, e1⟩ : win2_2.index t (0 : Fin 2) = 0 ∧ win2_2.index t (1 : Fin 2) = 0 :=
    (by decide +kernel : ∀ t : Fin grid2.N, win2_2.index t (0 : Fin 2) = 0 ∧ win2_2.index t (1 : Fin 2) = 0) t
  show V c main_v45 (((cfg2.win 2).blk t).view.emb (ix2 0 q)) = _
  refine congrArg (V c main_v45) (funext fun a => Fin.ext ?_)
  match a with
  | ⟨0, _⟩ => show win2_2.index t (0 : Fin 2) * 1 + 1 * 0 = 0; omega
  | ⟨1, _⟩ => show win2_2.index t (1 : Fin 2) * 128 + 1 * q.val = q.val; omega

/-- Window 3's block is its one whole row of per-feature numbers, whatever the point. -/
theorem val2_row3 (c : Dev nD) (t : Fin cfg2.N) (q : Fin 128) :
    iblk2 V c 3 t (ix2 0 q) = V c main_v48 (ix2 0 q) := by
  obtain ⟨e0, e1⟩ : win2_3.index t (0 : Fin 2) = 0 ∧ win2_3.index t (1 : Fin 2) = 0 :=
    (by decide +kernel : ∀ t : Fin grid2.N, win2_3.index t (0 : Fin 2) = 0 ∧ win2_3.index t (1 : Fin 2) = 0) t
  show V c main_v48 (((cfg2.win 3).blk t).view.emb (ix2 0 q)) = _
  refine congrArg (V c main_v48) (funext fun a => Fin.ext ?_)
  match a with
  | ⟨0, _⟩ => show win2_3.index t (0 : Fin 2) * 1 + 1 * 0 = 0; omega
  | ⟨1, _⟩ => show win2_3.index t (1 : Fin 2) * 128 + 1 * q.val = q.val; omega

/-- Window 4's block is its one whole row of per-feature numbers, whatever the point. -/
theorem val2_row4 (c : Dev nD) (t : Fin cfg2.N) (q : Fin 128) :
    iblk2 V c 4 t (ix2 0 q) = V c main_v51 (ix2 0 q) := by
  obtain ⟨e0, e1⟩ : win2_4.index t (0 : Fin 2) = 0 ∧ win2_4.index t (1 : Fin 2) = 0 :=
    (by decide +kernel : ∀ t : Fin grid2.N, win2_4.index t (0 : Fin 2) = 0 ∧ win2_4.index t (1 : Fin 2) = 0) t
  show V c main_v51 (((cfg2.win 4).blk t).view.emb (ix2 0 q)) = _
  refine congrArg (V c main_v51) (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

/-- Window 5's block is its one whole row of per-feature numbers, whatever the point. -/
theorem val2_row5 (c : Dev nD) (t : Fin cfg2.N) (q : Fin 128) :
    iblk2 V c 5 t (ix2 0 q) = V c main_v51 (ix2 0 q) := by
  obtain ⟨e0, e1⟩ : win2_5.index t (0 : Fin 2) = 0 ∧ win2_5.index t (1 : Fin 2) = 0 :=
    (by decide +kernel : ∀ t : Fin grid2.N, win2_5.index t (0 : Fin 2) = 0 ∧ win2_5.index t (1 : Fin 2) = 0) t
  show V c main_v51 (((cfg2.win 5).blk t).view.emb (ix2 0 q)) = _
  refine congrArg (V c main_v51) (funext fun a => Fin.ext ?_)
  match a with
  | ⟨0, _⟩ => show win2_5.index t (0 : Fin 2) * 1 + 1 * 0 = 0; omega
  | ⟨1, _⟩ => show win2_5.index t (1 : Fin 2) * 128 + 1 * q.val = q.val; omega

/-- Window 6's block is its one whole row of per-feature numbers, whatever the point. -/
theorem val2_row6 (c : Dev nD) (t : Fin cfg2.N) (q : Fin 128) :
    iblk2 V c 6 t (ix2 0 q) = V c main_v62 (ix2 0 q) := by
  obtain ⟨e0, e1⟩ : win2_6.index t (0 : Fin 2) = 0 ∧ win2_6.index t (1 : Fin 2) = 0 :=
    (by decide +kernel : ∀ t : Fin grid2.N, win2_6.index t (0 : Fin 2) = 0 ∧ win2_6.index t (1 : Fin 2) = 0) t
  show V c main_v62 (((cfg2.win 6).blk t).view.emb (ix2 0 q)) = _
  refine congrArg (V c main_v62) (funext fun a => Fin.ext ?_)
  match a with
  | ⟨0, _⟩ => show win2_6.index t (0 : Fin 2) * 1 + 1 * 0 = 0; omega
  | ⟨1, _⟩ => show win2_6.index t (1 : Fin 2) * 128 + 1 * q.val = q.val; omega

/-- Window 7's block is its one whole row of per-feature numbers, whatever the point. -/
theorem val2_row7 (c : Dev nD) (t : Fin cfg2.N) (q : Fin 128) :
    iblk2 V c 7 t (ix2 0 q) = V c main_v54 (ix2 0 q) := by
  obtain ⟨e0, e1⟩ : win2_7.index t (0 : Fin 2) = 0 ∧ win2_7.index t (1 : Fin 2) = 0 :=
    (by decide +kernel : ∀ t : Fin grid2.N, win2_7.index t (0 : Fin 2) = 0 ∧ win2_7.index t (1 : Fin 2) = 0) t
  show V c main_v54 (((cfg2.win 7).blk t).view.emb (ix2 0 q)) = _
  refine congrArg (V c main_v54) (funext fun a => Fin.ext ?_)
  match a with
  | ⟨0, _⟩ => show win2_7.index t (0 : Fin 2) * 1 + 1 * 0 = 0; omega
  | ⟨1, _⟩ => show win2_7.index t (1 : Fin 2) * 128 + 1 * q.val = q.val; omega

/-- Window 8's block is its one whole row of per-feature numbers, whatever the point. -/
theorem val2_row8 (c : Dev nD) (t : Fin cfg2.N) (q : Fin 128) :
    iblk2 V c 8 t (ix2 0 q) = V c main_v57 (ix2 0 q) := by
  obtain ⟨e0, e1⟩ : win2_8.index t (0 : Fin 2) = 0 ∧ win2_8.index t (1 : Fin 2) = 0 :=
    (by decide +kernel : ∀ t : Fin grid2.N, win2_8.index t (0 : Fin 2) = 0 ∧ win2_8.index t (1 : Fin 2) = 0) t
  show V c main_v57 (((cfg2.win 8).blk t).view.emb (ix2 0 q)) = _
  refine congrArg (V c main_v57) (funext fun a => Fin.ext ?_)
  match a with
  | ⟨0, _⟩ => show win2_8.index t (0 : Fin 2) * 1 + 1 * 0 = 0; omega
  | ⟨1, _⟩ => show win2_8.index t (1 : Fin 2) * 128 + 1 * q.val = q.val; omega

/-- The output's block at point t sits at rows 5000 t … 5000 t + 4999. -/
theorem val2_emb (t : Fin cfg2.N) (p : Fin 5000) (q : Fin 128) :
    ((cfg2.win 9).blk t).view.emb (ix2 p q) = ix2 (rowOf2 t p) q := by
  obtain ⟨e0, e1⟩ : win2_9.index t (0 : Fin 2) = t.val ∧ win2_9.index t (1 : Fin 2) = 0 :=
    (by decide +kernel : ∀ t : Fin grid2.N, win2_9.index t (0 : Fin 2) = t.val ∧ win2_9.index t (1 : Fin 2) = 0) t
  refine funext fun a => Fin.ext ?_
  match a with
  | ⟨0, _⟩ => show win2_9.index t (0 : Fin 2) * 5000 + 1 * p.val = t.val * 5000 + p.val; omega
  | ⟨1, _⟩ => show win2_9.index t (1 : Fin 2) * 128 + 1 * q.val = q.val; omega

/-- What point t writes back is block t of the third stage of the arrays as the region finds them. -/
theorem val2_flushed (c : Dev nD) (t : Fin cfg2.N) :
    (dat2 (F := Ideal) V c).flushed 9 t = ((cfg2.win 9).blk t).view.read (Elt Ideal)
      (Cert.Spec.X3 (V c main_v39) (V c main_v43) (V c main_v45) (V c main_v48) (V c main_v51) (V c main_v51) (V c main_v62) (V c main_v54) (V c main_v57)) := by
  show (cfg2.win 9).cut (grid2.coords t) ((dat2 (F := Ideal) V c).after 9 t) = _
  rw [after2_9]
  unfold out2_9
  rw [View.canon_unit_zero val2_hz]
  simp only [View.ld_unit_zero (S := S5000x128) val2_hz, View.ld_unit_zero (S := S1x128) val2_hz]
  funext j
  obtain ⟨p, q, rfl⟩ : ∃ (p : Fin 5000) (q : Fin 128), j = ix2 p q := ⟨j 0, j 1, eq_ix2 j⟩
  refine (pay2_apply _ _ _ _ _ _ _ _ _ p q).trans ?_
  rw [val2_blk0, val2_row1, val2_row2, val2_row3, val2_row4, val2_row5, val2_row6, val2_row7, val2_row8]
  show _ = Cert.Spec.X3 (V c main_v39) (V c main_v43) (V c main_v45) (V c main_v48) (V c main_v51) (V c main_v51) (V c main_v62) (V c main_v54) (V c main_v57)
    (((cfg2.win 9).blk t).view.emb (ix2 p q))
  rw [val2_emb]
  rfl

/-- Every index of the array is in some point's block: row r is in block r / 5000. -/
theorem val2_cover (i : S100000x128.Idx) :
    ∃ t : Fin cfg2.N, (cfg2.win 9).flush t = true ∧ i ∈ ((cfg2.win 9).blk t).view.set := by
  have hi0 : (i 0).val < 100000 := (i 0).isLt
  have hi1 : (i 1).val < 128 := (i 1).isLt
  obtain ⟨t, ht⟩ : ∃ t : Fin cfg2.N, t.val = (i 0).val / 5000 := ⟨⟨(i 0).val / 5000, by show _ < 20; omega⟩, rfl⟩
  obtain ⟨e0, e1⟩ : win2_9.index t (0 : Fin 2) = t.val ∧ win2_9.index t (1 : Fin 2) = 0 :=
    (by decide +kernel : ∀ t : Fin grid2.N, win2_9.index t (0 : Fin 2) = t.val ∧ win2_9.index t (1 : Fin 2) = 0) t
  refine ⟨t, flush2_9 t, ?_⟩
  show i ∈ ((View.whole main_v63).slice (win2_9.rect t)).set
  rw [View.set_slice_whole, Rect.mem_set_unit]
  intro a
  match a with
  | ⟨0, _⟩ => show win2_9.index t (0 : Fin 2) * 5000 ≤ (i 0).val ∧ (i 0).val < win2_9.index t (0 : Fin 2) * 5000 + 5000; omega
  | ⟨1, _⟩ => show win2_9.index t (1 : Fin 2) * 128 ≤ (i 1).val ∧ (i 1).val < win2_9.index t (1 : Fin 2) * 128 + 128; omega

/-- The array after the region: the third stage of the arrays as the region finds them. -/
theorem final2 (c : Dev nD) : (dat2 (F := Ideal) V c).arrAt 9 cfg2.N
    = Cert.Spec.X3 (V c main_v39) (V c main_v43) (V c main_v45) (V c main_v48) (V c main_v51) (V c main_v51) (V c main_v62) (V c main_v54) (V c main_v57) :=
  (dat2 (F := Ideal) V c).arrAt_eq_of_cover 9 _ (fun t _ => val2_flushed V c t) (fun i => val2_cover i)

end Cert.KernelIdeal.Hand

end
-- ==== Proof.RF.BridgeC.lean ====
/-
  The reference's third stage read at an entry.

  The program normalises the array twice with given per-feature statistics and takes the maximum with the zero array:

      max (bn (bn p m2 v2 g2 bt2) m3 v3 og ob) 0.

  At row r and feature j each normalisation is the one-number normalisation of its argument's entry with the
  statistics' entries j, and the zero array reads the printed zero: the third stage of the specification.
-/
import proofs.«141748_j59863254171699_1_alg».proof.ReferenceIdeal
import proofs.«141748_j59863254171699_1_alg».proof.Proof.Spec
import proofs.«141748_j59863254171699_1_alg».proof.Proof.LibLinearAt
import Idealize.ShloMosaic.Lib.ValueIdx
import Idealize.ShloMosaic.Lib.Pipeline.Value
import proofs.«141748_j59863254171699_1_alg».proof.Proof.RF.BridgeB

noncomputable section

namespace Cert.ReferenceIdeal.Hand

open Cert.ReferenceIdeal Idealize.ShloMosaic Idealize.ShloMosaic.ValueIdx

variable [Facts₀]
open Facts₀

/-- A 128-vector as a 1 × 128 row. -/
local notation "bc1 " v:max => broadcastInDim S1x128 ![1] bcast_S128_S1x128_1 v

/-- The third stage as the program computes it is the third stage of the specification. -/
theorem bridgeC (p : FVec Ideal S100000x128 .f32) (m2 v2 g2 bt2 m3 v3 og ob : FVec Ideal S128 .f32) :
    maximumf (bn (bn p m2 v2 g2 bt2) m3 v3 og ob)
        (broadcastInDim S100000x128 ![] bcast_S_S100000x128 (constant (F := Ideal) S_ .f32 0x00000000#32))
      = Cert.Spec.X3 p (bc1 m2) (bc1 v2) (bc1 g2) (bc1 bt2) (bc1 m3) (bc1 v3) (bc1 og) (bc1 ob) := by
  funext i
  obtain ⟨r, j, rfl⟩ : ∃ r j, i = ix2 r j := ⟨_, _, eq_ix2 i⟩
  rw [maximumf_apply, bn_apply, bn_apply]
  rfl

end Cert.ReferenceIdeal.Hand

end
-- ==== Proof.LibBatchNorm.lean ====
/-
  Batch normalisation with batch statistics, on the extended reals, for REAL data.

  A column of n > 0 real numbers x is normalised in two ways.

  * From the raw moments S1 = ∑ x and S2 = ∑ x², with a folded reciprocal c = 1/n:
      mean = S1 · c,  var = max (S2 · c − mean · mean) 0,
      s = g · rsqrt (var + ε),  t = b − mean · s,   and the result is  x · s + t.
  * From the centred column:
      m = S1 / n,  v = (∑ (x − m)²) / n,   and the result is  (x − m) / sqrt (v + ε) · g + b.

  Over the reals the two agree: S2/n − (S1/n)² is the mean of the squared deviations, which is
  non-negative, so the `max` is the identity and v + ε > 0. The lemmas below first say that each of the
  operations involved, applied to real numbers inside the extended reals, is the real operation (so an
  expression built from them can be read as one real number), and then state the law.

  A second, independent fact: a sum over a padded index set whose padded entries all hold one constant,
  corrected by that constant times the number of padded entries, is the sum over the unpadded part.

  Imports only the exact instance of the float operations.
-/
import Idealize.ShloMosaic.PureOps.Ideal

noncomputable section

namespace Cert.BatchNorm

open Idealize.ShloMosaic

/-! ## Real numbers inside the extended reals: each operation is the real one -/

/-- A finite sum of real numbers, read in the extended reals, is the sum of the readings. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor not zero. -/
theorem div_coe_coe (a : ℝ) {b : ℝ} (hb : b ≠ 0) : Ideal.div (a : EReal) (b : EReal) = ((a / b : ℝ) : EReal) := by
  rw [Ideal.div_coe hb, ← EReal.coe_mul, mul_one_div]

/-- The square root of a non-negative real. -/
theorem sqrt_coe_nonneg {a : ℝ} (ha : 0 ≤ a) : Ideal.sqrt (a : EReal) = ((Real.sqrt a : ℝ) : EReal) := by
  rw [Ideal.sqrt_coe, if_neg (not_lt.2 ha)]

/-- The reciprocal square root of a positive real. -/
theorem rsqrt_coe_pos {a : ℝ} (ha : 0 < a) : Ideal.rsqrt (a : EReal) = (((Real.sqrt a)⁻¹ : ℝ) : EReal) := by
  rw [Ideal.rsqrt_coe, if_neg (not_lt.2 ha.le), if_neg ha.ne']

/-- The larger of two reals. -/
theorem max_coe_coe (a b : ℝ) : max (a : EReal) (b : EReal) = ((max a b : ℝ) : EReal) :=
  (EReal.coe_strictMono.monotone.map_max (a := a) (b := b)).symm

/-! ## The law over the reals -/

section Real

variable {ι : Type*} [Fintype ι]

/-- The mean of the squares minus the square of the mean is the mean of the squared deviations. -/
theorem moments_eq_centred (x : ι → ℝ) {n : ℝ} (hn : n = Fintype.card ι) (hpos : 0 < n) :
    (∑ j, x j * x j) * (1 / n) - ((∑ j, x j) * (1 / n)) * ((∑ j, x j) * (1 / n))
      = (∑ j, (x j - (∑ k, x k) / n) * (x j - (∑ k, x k) / n)) / n := by
  have hne : n ≠ 0 := hpos.ne'
  have hcard : (∑ _j : ι, (1 : ℝ)) = n := by simp [hn]
  set S := ∑ k, x k with hS
  have hexp : (∑ j, (x j - S / n) * (x j - S / n))
      = (∑ j, x j * x j) - 2 * (S / n) * S + (S / n) * (S / n) * n := by
    have : ∀ j, (x j - S / n) * (x j - S / n) = x j * x j - 2 * (S / n) * x j + (S / n) * (S / n) * 1 := by
      intro j; ring
    rw [Finset.sum_congr rfl fun j _ => this j, Finset.sum_add_distrib, Finset.sum_sub_distrib,
      ← Finset.mul_sum, ← Finset.mul_sum, hcard]
  rw [hexp]
  field_simp
  ring

/-- The mean of the squared deviations is non-negative. -/
theorem centred_nonneg (x : ι → ℝ) {n : ℝ} (hpos : 0 < n) (m : ℝ) :
    0 ≤ (∑ j, (x j - m) * (x j - m)) / n :=
  div_nonneg (Finset.sum_nonneg fun j _ => mul_self_nonneg _) hpos.le

/-- THE LAW over the reals: scale-and-shift from the raw moments is the normalisation of the centred column. -/
theorem affine_eq_real (x : ι → ℝ) {n : ℝ} (hn : n = Fintype.card ι) (hpos : 0 < n) (g b ε : ℝ) (hε : 0 < ε) (y : ℝ) :
    let S1 := ∑ j, x j
    let S2 := ∑ j, x j * x j
    let mean := S1 * (1 / n)
    let var := max (S2 * (1 / n) - mean * mean) 0
    let s := g * (Real.sqrt (var + ε))⁻¹
    y * s + (b - mean * s)
      = (y - S1 / n) / Real.sqrt ((∑ j, (x j - S1 / n) * (x j - S1 / n)) / n + ε) * g + b := by
  intro S1 S2 mean var s
  have hv : S2 * (1 / n) - mean * mean = (∑ j, (x j - S1 / n) * (x j - S1 / n)) / n :=
    moments_eq_centred x hn hpos
  have hv0 : 0 ≤ (∑ j, (x j - S1 / n) * (x j - S1 / n)) / n := centred_nonneg x hpos _
  have hvar : var = (∑ j, (x j - S1 / n) * (x j - S1 / n)) / n := by
    show max (S2 * (1 / n) - mean * mean) 0 = _
    rw [hv, max_eq_left hv0]
  have hsq : 0 < Real.sqrt ((∑ j, (x j - S1 / n) * (x j - S1 / n)) / n + ε) :=
    Real.sqrt_pos.2 (by linarith)
  show y * (g * (Real.sqrt (var + ε))⁻¹) + (b - S1 * (1 / n) * (g * (Real.sqrt (var + ε))⁻¹)) = _
  rw [hvar]
  generalize Real.sqrt ((∑ j, (x j - S1 / n) * (x j - S1 / n)) / n + ε) = r at hsq ⊢
  have hr : r ≠ 0 := hsq.ne'
  have hne : n ≠ 0 := hpos.ne'
  field_simp
  ring

end Real

/-! ## The law on the extended reals, in the operations the two programs use -/

section Ext

variable {ι : Type*} [Fintype ι]

/-- THE LAW on the extended reals, for a column of real numbers: with the exact division, square root and reciprocal
    square root, scale-and-shift from the raw moments (the reciprocal `1/n` folded) is the normalisation of the centred
    column. Every intermediate value is a real number, so the real law applies. -/
theorem affine_eq (x : ι → ℝ) {n : ℝ} (hn : n = Fintype.card ι) (hpos : 0 < n) (g b ε : ℝ) (hε : 0 < ε) (y : ℝ) :
    let S1 : EReal := ∑ j, (x j : EReal)
    let S2 : EReal := ∑ j, (x j : EReal) * (x j : EReal)
    let c : EReal := ((1 / n : ℝ) : EReal)
    let mean : EReal := S1 * c
    let var : EReal := max (S2 * c - mean * mean) 0
    let s : EReal := (g : EReal) * Ideal.rsqrt (var + (ε : EReal))
    let m : EReal := Ideal.div S1 (n : EReal)
    let v : EReal := Ideal.div (∑ j, ((x j : EReal) - m) * ((x j : EReal) - m)) (n : EReal)
    (y : EReal) * s + ((b : EReal) - mean * s)
      = Ideal.div ((y : EReal) - m) (Ideal.sqrt (v + (ε : EReal))) * (g : EReal) + (b : EReal) := by
  intro S1 S2 c mean var s m v
  have hne : n ≠ 0 := hpos.ne'
  -- the raw moments and what is built from them are real numbers
  have hS1 : S1 = ((∑ j, x j : ℝ) : EReal) := (coe_sum _ _).symm
  have hS2 : S2 = ((∑ j, x j * x j : ℝ) : EReal) := by
    show ∑ j, (x j : EReal) * (x j : EReal) = _
    rw [coe_sum]; exact Finset.sum_congr rfl fun j _ => (EReal.coe_mul _ _).symm
  have hmean : mean = (((∑ j, x j) * (1 / n) : ℝ) : EReal) := by
    show S1 * c = _; rw [hS1, ← EReal.coe_mul]
  have hvar : var = ((max ((∑ j, x j * x j) * (1 / n) - ((∑ j, x j) * (1 / n)) * ((∑ j, x j) * (1 / n))) 0 : ℝ) : EReal) := by
    show max (S2 * c - mean * mean) 0 = _
    rw [hS2, hmean, ← EReal.coe_mul, ← EReal.coe_mul, ← EReal.coe_sub, ← EReal.coe_zero, max_coe_coe]
  have hvpos : 0 < max ((∑ j, x j * x j) * (1 / n) - ((∑ j, x j) * (1 / n)) * ((∑ j, x j) * (1 / n))) 0 + ε :=
    add_pos_of_nonneg_of_pos (le_max_right _ _) hε
  have hs : s = ((g * (Real.sqrt (max ((∑ j, x j * x j) * (1 / n) - ((∑ j, x j) * (1 / n)) * ((∑ j, x j) * (1 / n))) 0 + ε))⁻¹ : ℝ) : EReal) := by
    show (g : EReal) * Ideal.rsqrt (var + (ε : EReal)) = _
    rw [hvar, ← EReal.coe_add, rsqrt_coe_pos hvpos, ← EReal.coe_mul]
  -- the centred column is real too
  have hm : m = (((∑ j, x j) / n : ℝ) : EReal) := by
    show Ideal.div S1 (n : EReal) = _; rw [hS1, div_coe_coe _ hne]
  have hm' : Ideal.div (∑ j, (x j : EReal)) (n : EReal) = (((∑ j, x j) / n : ℝ) : EReal) := by
    rw [← coe_sum, div_coe_coe _ hne]
  have hv : v = (((∑ j, (x j - (∑ k, x k) / n) * (x j - (∑ k, x k) / n)) / n : ℝ) : EReal) := by
    show Ideal.div (∑ j, ((x j : EReal) - Ideal.div (∑ i, (x i : EReal)) (n : EReal))
      * ((x j : EReal) - Ideal.div (∑ i, (x i : EReal)) (n : EReal))) (n : EReal) = _
    rw [hm']
    have hsum : (∑ j, ((x j : EReal) - (((∑ k, x k) / n : ℝ) : EReal)) * ((x j : EReal) - (((∑ k, x k) / n : ℝ) : EReal)))
        = ((∑ j, (x j - (∑ k, x k) / n) * (x j - (∑ k, x k) / n) : ℝ) : EReal) := by
      rw [coe_sum]; exact Finset.sum_congr rfl fun j _ => by rw [← EReal.coe_sub, ← EReal.coe_mul]
    rw [hsum, div_coe_coe _ hne]
  have hv0 : 0 ≤ (∑ j, (x j - (∑ k, x k) / n) * (x j - (∑ k, x k) / n)) / n + ε :=
    (add_pos_of_nonneg_of_pos (centred_nonneg x hpos _) hε).le
  have hsq : Real.sqrt ((∑ j, (x j - (∑ k, x k) / n) * (x j - (∑ k, x k) / n)) / n + ε) ≠ 0 :=
    (Real.sqrt_pos.2 (add_pos_of_nonneg_of_pos (centred_nonneg x hpos _) hε)).ne'
  rw [hs, hmean, hm, hv, ← EReal.coe_add, sqrt_coe_nonneg hv0, ← EReal.coe_sub, div_coe_coe _ hsq,
    ← EReal.coe_mul, ← EReal.coe_mul, ← EReal.coe_mul, ← EReal.coe_sub, ← EReal.coe_add, ← EReal.coe_add]
  exact congrArg _ (affine_eq_real x hn hpos g b ε hε y)

end Ext

/-! ## A padded sum, corrected -/

/-- If every padded entry of `f` holds the constant `c`, the sum over all entries plus `−(number of padded
    entries) · c` is the sum over the entries that are not padded. -/
theorem sum_pad_correct {ι : Type*} [Fintype ι] [DecidableEq ι] (pad : Finset ι) (f : ι → ℝ) (c : ℝ)
    (hpad : ∀ i ∈ pad, f i = c) (k : ℝ) (hk : k = pad.card) :
    (∑ i, f i) + (-k) * c = ∑ i ∈ Finset.univ \ pad, f i := by
  have h1 : (∑ i, f i) = (∑ i ∈ Finset.univ \ pad, f i) + ∑ i ∈ pad, f i := by
    rw [Finset.sum_sdiff (Finset.subset_univ pad)]
  have h2 : (∑ i ∈ pad, f i) = k * c := by
    rw [Finset.sum_congr rfl hpad, Finset.sum_const, nsmul_eq_mul, hk]
  rw [h1, h2]; ring

end Cert.BatchNorm

end
-- ==== Proof.LibBnOfBn.lean ====
/-
  The batch statistics of a batch-normalised column, on the extended reals, for REAL data.

  A column of n > 0 real numbers p is normalised with its own batch statistics,

      m = (∑ p) / n,   v = (∑ (p − m)²) / n,   h i = (p i − m) · rsqrt (v + ε) · g + b      (ε > 0).

  The column h then has batch mean exactly b and batch variance exactly g² · v / (v + ε):

  * the deviations p i − m sum to zero, so ∑ h = n · b;
  * h i − b = (p i − m) · rsqrt (v + ε) · g, and rsqrt (v + ε)² = 1 / (v + ε) because v + ε > 0, so the mean of the
    squared deviations of h is g² · v / (v + ε).

  A program that normalises h again may therefore take these two closed forms in place of a second pass of sums over
  the column. Both facts are laws of the REALS (they cancel and distribute), so they are stated for real data and
  read inside the extended reals through the exact division and reciprocal square root.
-/
import proofs.«141748_j59863254171699_1_alg».proof.Proof.LibBatchNorm

noncomputable section

namespace Cert.BnOfBn

open Idealize.ShloMosaic Cert.BatchNorm

/-! ## Over the reals -/

section Real

variable {ι : Type*} [Fintype ι]

/-- The deviations from the mean sum to zero. -/
theorem sum_dev (p : ι → ℝ) {n : ℝ} (hn : n = Fintype.card ι) (hpos : 0 < n) :
    ∑ i, (p i - (∑ k, p k) / n) = 0 := by
  have hmul : n * ((∑ k, p k) / n) = ∑ k, p k := by field_simp
  rw [Finset.sum_sub_distrib, Finset.sum_const, Finset.card_univ, nsmul_eq_mul, ← hn, hmul, sub_self]

/-- The mean of a column shifted to mean zero, scaled by any factors and shifted by `b`, is `b`. -/
theorem mean_bn (p : ι → ℝ) {n : ℝ} (hn : n = Fintype.card ι) (hpos : 0 < n) (s g b : ℝ) :
    (∑ i, ((p i - (∑ k, p k) / n) * s * g + b)) / n = b := by
  have hcard : (∑ _i : ι, b) = n * b := by rw [Finset.sum_const, Finset.card_univ, nsmul_eq_mul, ← hn]
  have hlin : ∑ i, (p i - (∑ k, p k) / n) * s * g = (∑ i, (p i - (∑ k, p k) / n)) * (s * g) := by
    rw [Finset.sum_mul]; exact Finset.sum_congr rfl fun i _ => by ring
  rw [Finset.sum_add_distrib, hcard, hlin, sum_dev p hn hpos, zero_mul, zero_add]
  field_simp

/-- The mean of the squared deviations of the normalised column from `b`: the reciprocal square root squared is the
    reciprocal, since `v + ε` is positive. -/
theorem var_bn (p : ι → ℝ) {n : ℝ} (m v ε g b : ℝ) (hv : v = (∑ j, (p j - m) * (p j - m)) / n) (hvpos : 0 < v + ε) :
    (∑ j, ((p j - m) * (Real.sqrt (v + ε))⁻¹ * g + b - b) * ((p j - m) * (Real.sqrt (v + ε))⁻¹ * g + b - b)) / n
      = g * g * v / (v + ε) := by
  have hss : (Real.sqrt (v + ε))⁻¹ * (Real.sqrt (v + ε))⁻¹ = (v + ε)⁻¹ := by
    rw [← mul_inv, Real.mul_self_sqrt hvpos.le]
  have hterm : ∀ j, ((p j - m) * (Real.sqrt (v + ε))⁻¹ * g + b - b) * ((p j - m) * (Real.sqrt (v + ε))⁻¹ * g + b - b)
      = (p j - m) * (p j - m) * ((v + ε)⁻¹ * (g * g)) := by
    intro j; rw [← hss]; ring
  rw [Finset.sum_congr rfl fun j _ => hterm j, ← Finset.sum_mul, mul_div_right_comm, ← hv, div_eq_mul_inv]
  ring

end Real

/-! ## On the extended reals, in the operations the programs use -/

section Ext

variable {ι : Type*} [Fintype ι]

/-- THE STATISTICS OF A NORMALISED COLUMN on the extended reals, for a column of real numbers: with the exact division
    and reciprocal square root, the batch mean of `h i = (p i − m) · rsqrt (v + ε) · g + b` is `b`, and its batch variance
    is `(g · g) · v / (v + ε)`, where `m` and `v` are the batch mean and variance of `p`. -/
theorem stats_bn (p : ι → ℝ) {n : ℝ} (hn : n = Fintype.card ι) (hpos : 0 < n) (g b ε : ℝ) (hε : 0 < ε) :
    let M : EReal := Ideal.div (∑ j, (p j : EReal)) (n : EReal)
    let V : EReal := Ideal.div (∑ j, ((p j : EReal) - M) * ((p j : EReal) - M)) (n : EReal)
    let R : EReal := Ideal.rsqrt (V + (ε : EReal))
    let H : ι → EReal := fun i => ((p i : EReal) - M) * R * (g : EReal) + (b : EReal)
    let M' : EReal := Ideal.div (∑ j, H j) (n : EReal)
    M' = (b : EReal) ∧
      Ideal.div (∑ j, (H j - M') * (H j - M')) (n : EReal)
        = Ideal.div (((g : EReal) * (g : EReal)) * V) (V + (ε : EReal)) := by
  intro M V R H M'
  have hne : n ≠ 0 := hpos.ne'
  have hv0 : 0 ≤ (∑ j, (p j - (∑ k, p k) / n) * (p j - (∑ k, p k) / n)) / n :=
    div_nonneg (Finset.sum_nonneg fun j _ => mul_self_nonneg _) hpos.le
  have hvpos : 0 < (∑ j, (p j - (∑ k, p k) / n) * (p j - (∑ k, p k) / n)) / n + ε := add_pos_of_nonneg_of_pos hv0 hε
  generalize hm : (∑ k, p k) / n = m at hv0 hvpos
  generalize hv : (∑ j, (p j - m) * (p j - m)) / n = v at hv0 hvpos
  -- every intermediate value is a real number
  have hM : M = (m : EReal) := by
    show Ideal.div (∑ j, (p j : EReal)) (n : EReal) = _
    rw [← coe_sum, div_coe_coe _ hne, hm]
  have hV : V = (v : EReal) := by
    show Ideal.div (∑ j, ((p j : EReal) - M) * ((p j : EReal) - M)) (n : EReal) = _
    rw [hM]
    have hsum : (∑ j, ((p j : EReal) - (m : EReal)) * ((p j : EReal) - (m : EReal)))
        = ((∑ j, (p j - m) * (p j - m) : ℝ) : EReal) := by
      rw [coe_sum]; exact Finset.sum_congr rfl fun j _ => by rw [← EReal.coe_sub, ← EReal.coe_mul]
    rw [hsum, div_coe_coe _ hne, hv]
  have hR : R = (((Real.sqrt (v + ε))⁻¹ : ℝ) : EReal) := by
    show Ideal.rsqrt (V + (ε : EReal)) = _
    rw [hV, ← EReal.coe_add, rsqrt_coe_pos hvpos]
  have hH : ∀ i, H i = (((p i - m) * (Real.sqrt (v + ε))⁻¹ * g + b : ℝ) : EReal) := by
    intro i
    show ((p i : EReal) - M) * R * (g : EReal) + (b : EReal) = _
    rw [hM, hR, ← EReal.coe_sub, ← EReal.coe_mul, ← EReal.coe_mul, ← EReal.coe_add]
  have hM' : M' = (b : EReal) := by
    show Ideal.div (∑ j, H j) (n : EReal) = _
    rw [Finset.sum_congr rfl fun j _ => hH j, ← coe_sum, div_coe_coe _ hne]
    subst hm
    exact congrArg _ (mean_bn p hn hpos _ g b)
  refine ⟨hM', ?_⟩
  rw [hM']
  have hsq : (∑ j, (H j - (b : EReal)) * (H j - (b : EReal)))
      = ((∑ j, ((p j - m) * (Real.sqrt (v + ε))⁻¹ * g + b - b) * ((p j - m) * (Real.sqrt (v + ε))⁻¹ * g + b - b) : ℝ) : EReal) := by
    rw [coe_sum]; exact Finset.sum_congr rfl fun j _ => by rw [hH j, ← EReal.coe_sub, ← EReal.coe_mul]
  rw [hsq, div_coe_coe _ hne, hV, ← EReal.coe_mul, ← EReal.coe_mul, ← EReal.coe_add, div_coe_coe _ hvpos.ne']
  exact congrArg _ (var_bn p m v ε g b hv.symm hvpos)

/-- NORMALISING A NORMALISED COLUMN: with the statistics of `h` computed by two passes over `h` (its batch mean, and the
    batch mean of its squared deviations) or taken in closed form (`b`, and `(g · g) · v / (v + ε)`), the second
    normalisation is the same, entry by entry, for any second scale `g'`, shift `b'` and second epsilon `ε'` (extended reals:
    nothing is asked of them). -/
theorem bn_of_bn (p : ι → ℝ) {n : ℝ} (hn : n = Fintype.card ι) (hpos : 0 < n) (g b ε : ℝ) (hε : 0 < ε) (g' b' ε' : EReal) (i : ι) :
    let M : EReal := Ideal.div (∑ j, (p j : EReal)) (n : EReal)
    let V : EReal := Ideal.div (∑ j, ((p j : EReal) - M) * ((p j : EReal) - M)) (n : EReal)
    let R : EReal := Ideal.rsqrt (V + (ε : EReal))
    let H : ι → EReal := fun i => ((p i : EReal) - M) * R * (g : EReal) + (b : EReal)
    let M' : EReal := Ideal.div (∑ j, H j) (n : EReal)
    let V' : EReal := Ideal.div (∑ j, (H j - M') * (H j - M')) (n : EReal)
    (H i - M') * Ideal.rsqrt (V' + ε') * g' + b'
      = (H i - (b : EReal)) * Ideal.rsqrt (Ideal.div (((g : EReal) * (g : EReal)) * V) (V + (ε : EReal)) + ε') * g' + b' := by
  intro M V R H M' V'
  obtain ⟨h1, h2⟩ := stats_bn p hn hpos g b ε hε
  have hM' : M' = (b : EReal) := h1
  have hV' : V' = Ideal.div (((g : EReal) * (g : EReal)) * V) (V + (ε : EReal)) := h2
  rw [hV', hM']

end Ext

end Cert.BnOfBn

end
-- ==== Proof.LawC.lean ====
/-
  The law that joins the two programs, in the constants they print.

  For one feature column p of 100000 real entries and real g, b: let m and v be the column's batch mean and variance (sum over
  the rows divided by the printed row count), h i = (p i − m) · rsqrt (v + ε) · g + b the normalised column. The kernel
  normalises h again with the closed-form statistics (mean b, variance (g · g) · v / (v + ε)); the reference with the
  statistics it computes from h by two more sums. Entry by entry the two, and so their maxima with zero, are equal — for ANY
  second scale and shift.
-/
import proofs.«141748_j59863254171699_1_alg».proof.Proof.LibBnOfBn
import proofs.«141748_j59863254171699_1_alg».proof.Proof.Consts

noncomputable section

namespace Cert.Proof.LawC

open Idealize.ShloMosaic

/-- The printed epsilon and row count. -/
abbrev eps : EReal := Ideal.ofBits .f32 0x3727C5AC#32
abbrev rows : EReal := Ideal.ofBits .f32 0x47C35000#32

/-- THE LAYER'S LAST STEP: the kernel's entry (closed-form statistics of the normalised column) is the reference's entry
    (computed statistics), before and after the maximum with zero. -/
theorem third_step (p : Fin 100000 → ℝ) (g b : ℝ) (og ob z : EReal) (i : Fin 100000) :
    let M : EReal := Ideal.div (∑ j, (p j : EReal)) rows
    let V : EReal := Ideal.div (∑ j, ((p j : EReal) - M) * ((p j : EReal) - M)) rows
    let H : Fin 100000 → EReal := fun i => ((p i : EReal) - M) * Ideal.rsqrt (V + eps) * (g : EReal) + (b : EReal)
    let M' : EReal := Ideal.div (∑ j, H j) rows
    let V' : EReal := Ideal.div (∑ j, (H j - M') * (H j - M')) rows
    max ((H i - (b : EReal)) * Ideal.rsqrt (Ideal.div (((g : EReal) * (g : EReal)) * V) (V + eps) + eps) * og + ob) z
      = max ((H i - M') * Ideal.rsqrt (V' + eps) * og + ob) z := by
  intro M V H M' V'
  have hn : (100000 : ℝ) = Fintype.card (Fin 100000) := by simp
  have h := Cert.BnOfBn.bn_of_bn p hn (by norm_num) g b (2748779 / 274877906944) Cert.Consts.eps_pos og ob eps i
  simp only [← Cert.Consts.ofBits_eps, ← Cert.Consts.ofBits_rows] at h
  exact congrArg (max · z) h.symm

end Cert.Proof.LawC

end
-- ==== Proof.SpecLaw.lean ====
/-
  The third stage with closed-form statistics is the third stage with computed statistics.

  Given a node array p with real entries and, per feature j, its column mean m2 j and variance v2 j (sums over the 100000
  rows divided by the printed row count), a real scale g2 j and shift b2 j: normalise p to h. Take as the second
  normalisation's statistics EITHER the closed forms (mean b2 j, variance g2 j · g2 j · v2 j / (v2 j + ε)) OR the column mean
  and variance of h itself. The third stage's output is the same array.
-/
import proofs.«141748_j59863254171699_1_alg».proof.Proof.Spec
import proofs.«141748_j59863254171699_1_alg».proof.Proof.LawC
import proofs.«141748_j59863254171699_1_alg».proof.Proof.LibRealEntries
import Idealize.ShloMosaic.PureOps.Ideal.Laws

noncomputable section

namespace Cert.Spec

open Idealize.ShloMosaic Idealize.ShloMosaic.ValueIdx Cert.Lib

/-- The printed row count. -/
abbrev rows : EReal := Ideal.ofBits .f32 0x47C35000#32

set_option maxRecDepth 1000000 in
/-- The third stage at row r, feature j. -/
theorem X3_apply (p : Nodes) (m2 v2 g2 b2 m3 v3 og ob : Row) (r : Fin 100000) (j : Fin 128) :
    X3 p m2 v2 g2 b2 m3 v3 og ob (ix2 r j)
      = max (norm1 (norm1 (p (ix2 r j)) (m2 (ix2 0 j)) (v2 (ix2 0 j)) (g2 (ix2 0 j)) (b2 (ix2 0 j)))
          (m3 (ix2 0 j)) (v3 (ix2 0 j)) (og (ix2 0 j)) (ob (ix2 0 j))) zero := rfl

set_option maxRecDepth 1000000 in
theorem X3_closed_eq_computed (p : Nodes) (hp : ∀ i, IsReal (p i)) (m2 v2 g2 b2 og ob m3 v3 m3' v3' : Row)
    (hg : ∀ j : Fin 128, IsReal (g2 (ix2 0 j))) (hb : ∀ j : Fin 128, IsReal (b2 (ix2 0 j)))
    (hm2 : ∀ j : Fin 128, m2 (ix2 0 j) = Ideal.div (zero + ∑ i : Fin 100000, p (ix2 i j)) rows)
    (hv2 : ∀ j : Fin 128, v2 (ix2 0 j)
      = Ideal.div (zero + ∑ i : Fin 100000,
          (p (ix2 i j) - Ideal.div (zero + ∑ i : Fin 100000, p (ix2 i j)) rows)
            * (p (ix2 i j) - Ideal.div (zero + ∑ i : Fin 100000, p (ix2 i j)) rows)) rows)
    (hm3 : ∀ j : Fin 128, m3 (ix2 0 j) = b2 (ix2 0 j))
    (hv3 : ∀ j : Fin 128, v3 (ix2 0 j) = Ideal.div ((g2 (ix2 0 j) * g2 (ix2 0 j)) * v2 (ix2 0 j)) (v2 (ix2 0 j) + eps))
    (H : Nodes) (hH : ∀ (i : Fin 100000) (j : Fin 128),
      H (ix2 i j) = norm1 (p (ix2 i j)) (m2 (ix2 0 j)) (v2 (ix2 0 j)) (g2 (ix2 0 j)) (b2 (ix2 0 j)))
    (hm3' : ∀ j : Fin 128, m3' (ix2 0 j) = Ideal.div (zero + ∑ i : Fin 100000, H (ix2 i j)) rows)
    (hv3' : ∀ j : Fin 128, v3' (ix2 0 j)
      = Ideal.div (zero + ∑ i : Fin 100000,
          (H (ix2 i j) - Ideal.div (zero + ∑ i : Fin 100000, H (ix2 i j)) rows)
            * (H (ix2 i j) - Ideal.div (zero + ∑ i : Fin 100000, H (ix2 i j)) rows)) rows) :
    X3 p m2 v2 g2 b2 m3 v3 og ob = X3 p m2 v2 g2 b2 m3' v3' og ob := by
  funext i
  obtain ⟨r, j, rfl⟩ : ∃ (r : Fin 100000) (j : Fin 128), i = ix2 r j := ⟨i 0, i 1, eq_ix2 i⟩
  have hz : zero = 0 := Ideal.ofBits_zero_f32
  -- the column's entries, the scale and the shift as real numbers
  let pr : Fin 100000 → ℝ := fun i' => (hp (ix2 i' j)).choose
  have hpr : ∀ i' : Fin 100000, p (ix2 i' j) = ((pr i' : ℝ) : EReal) := fun i' => (hp (ix2 i' j)).choose_spec
  obtain ⟨g, hg'⟩ := hg j
  obtain ⟨b, hb'⟩ := hb j
  have key := Cert.Proof.LawC.third_step pr g b (og (ix2 0 j)) (ob (ix2 0 j)) zero r
  simp only [← hpr, ← hg', ← hb'] at key
  rw [X3_apply, X3_apply, hm3 j, hv3 j, hv3' j, hm3' j]
  simp only [hH]
  rw [hv2 j, hm2 j]
  unfold norm1
  simp only [rows, eps, Cert.Proof.LawC.rows, Cert.Proof.LawC.eps] at key ⊢
  rw [hz] at key ⊢
  simp only [zero_add] at key ⊢
  exact key

end Cert.Spec

end
-- ==== Proof.Core.StageC1.lean ====
/-
  The third stage of layer 1 in the two programs: from equal second-stage arrays with real entries and equal (real) scale and
  shift arguments, the kernel's output array (closed-form statistics of the normalised array) is the reference's (statistics
  computed from the normalised array), and has real entries.
-/
import proofs.«141748_j59863254171699_1_alg».proof.Proof.Core.Base
import proofs.«141748_j59863254171699_1_alg».proof.Proof.KI.Val2
import proofs.«141748_j59863254171699_1_alg».proof.Proof.RF.BridgeC
import proofs.«141748_j59863254171699_1_alg».proof.Proof.RF.StatsReal
import proofs.«141748_j59863254171699_1_alg».proof.Proof.SpecLaw
import proofs.«141748_j59863254171699_1_alg».proof.Proof.SpecReal
import proofs.«141748_j59863254171699_1_alg».proof.Proof.Gen.ReferenceIdeal

set_option maxRecDepth 65536
set_option maxHeartbeats 16000000

noncomputable section

namespace Cert.Proof.Core

open Idealize.ShloMosaic Idealize.ShloMosaic.TcCoe Idealize.SL.Sem Idealize.ShloMosaic.StableHlo Idealize.ShloMosaic.ValueIdx
open Cert.Lib Cert.ReferenceIdeal.Hand

local notation "bc1 " v:max => broadcastInDim Cert.ReferenceIdeal.S1x128 ![1] Cert.ReferenceIdeal.Gen.bcast_S128_S1x128_1 v

theorem stageC1 (Z : KD → KVal) (Z' : RVal) (c : KD)
    (hp : Z c (Cert.KernelIdeal.main_v39 : DevRef _ _) = Z' (Cert.ReferenceIdeal.main_v53 : DevRef _ _)) (hpR : AllReal (Z' (Cert.ReferenceIdeal.main_v53 : DevRef _ _)))
    (h10 : Z c (Cert.KernelIdeal.main_arg10 : DevRef _ _) = Z' (Cert.ReferenceIdeal.main_arg10 : DevRef _ _)) (r10 : AllReal (Z' (Cert.ReferenceIdeal.main_arg10 : DevRef _ _)))
    (h11 : Z c (Cert.KernelIdeal.main_arg11 : DevRef _ _) = Z' (Cert.ReferenceIdeal.main_arg11 : DevRef _ _)) (r11 : AllReal (Z' (Cert.ReferenceIdeal.main_arg11 : DevRef _ _)))
    (h12 : Z c (Cert.KernelIdeal.main_arg12 : DevRef _ _) = Z' (Cert.ReferenceIdeal.main_arg12 : DevRef _ _)) (r12 : AllReal (Z' (Cert.ReferenceIdeal.main_arg12 : DevRef _ _)))
    (h13 : Z c (Cert.KernelIdeal.main_arg13 : DevRef _ _) = Z' (Cert.ReferenceIdeal.main_arg13 : DevRef _ _)) (r13 : AllReal (Z' (Cert.ReferenceIdeal.main_arg13 : DevRef _ _))) :
    Cert.KernelIdeal.Hand.W2' (fun c => after Cert.KernelIdeal.Gen.hostOps2_2 (after Cert.KernelIdeal.Gen.hostOps2_1 (after Cert.KernelIdeal.Gen.hostOps2 (Z c)))) c (Cert.KernelIdeal.main_v63 : DevRef _ _)
        = after Cert.ReferenceIdeal.Hand.RC1 Z' (Cert.ReferenceIdeal.main_v100 : DevRef _ _)
      ∧ AllReal (after Cert.ReferenceIdeal.Hand.RC1 Z' (Cert.ReferenceIdeal.main_v100 : DevRef _ _)) := by
  -- the reference's names for what the stage reads and computes
  let P : FVec Ideal Cert.ReferenceIdeal.S100000x128 .f32 := Z' (Proc.devRef .tc Cert.ReferenceIdeal.main_v53)
  let G2 : FVec Ideal Cert.ReferenceIdeal.S128 .f32 := (shapeCast Cert.ReferenceIdeal.S128 (extractStridedSlice Cert.ReferenceIdeal.S1x128 ![0, 0] (Z' (Proc.devRef .tc Cert.ReferenceIdeal.main_arg10)) Cert.ReferenceIdeal.Gen.slices_S3x128_S1x128_0_0) Cert.ReferenceIdeal.Gen.shapeCasts_S1x128_S128)
  let BT2 : FVec Ideal Cert.ReferenceIdeal.S128 .f32 := (shapeCast Cert.ReferenceIdeal.S128 (extractStridedSlice Cert.ReferenceIdeal.S1x128 ![0, 0] (Z' (Proc.devRef .tc Cert.ReferenceIdeal.main_arg11)) Cert.ReferenceIdeal.Gen.slices_S3x128_S1x128_0_0) Cert.ReferenceIdeal.Gen.shapeCasts_S1x128_S128)
  let OG : FVec Ideal Cert.ReferenceIdeal.S128 .f32 := (shapeCast Cert.ReferenceIdeal.S128 (extractStridedSlice Cert.ReferenceIdeal.S1x128 ![0, 0] (Z' (Proc.devRef .tc Cert.ReferenceIdeal.main_arg12)) Cert.ReferenceIdeal.Gen.slices_S3x128_S1x128_0_0) Cert.ReferenceIdeal.Gen.shapeCasts_S1x128_S128)
  let OB : FVec Ideal Cert.ReferenceIdeal.S128 .f32 := (shapeCast Cert.ReferenceIdeal.S128 (extractStridedSlice Cert.ReferenceIdeal.S1x128 ![0, 0] (Z' (Proc.devRef .tc Cert.ReferenceIdeal.main_arg13)) Cert.ReferenceIdeal.Gen.slices_S3x128_S1x128_0_0) Cert.ReferenceIdeal.Gen.shapeCasts_S1x128_S128)
  let M2 := meanOf P
  let V2 := varOf P
  let H := bn P M2 V2 G2 BT2
  let M3 := meanOf H
  let V3 := varOf H
  let E : FVec Ideal Cert.KernelIdeal.S1x128 .f32 := broadcastInDim Cert.KernelIdeal.S1x128 ![] Cert.KernelIdeal.Gen.bcast_S_S1x128 (constant Cert.KernelIdeal.S_ .f32 0x3727C5AC#32)
  let V3K : Cert.Spec.Row := Host.divf (mulf (mulf (bc1 G2) (bc1 G2)) (bc1 V2)) (addf (bc1 V2) E)
  -- the reference's fold is its printed composition
  have hR : after Cert.ReferenceIdeal.Hand.RC1 Z' (Cert.ReferenceIdeal.main_v100 : DevRef _ _)
      = maximumf (bn H M3 V3 OG OB) (broadcastInDim Cert.ReferenceIdeal.S100000x128 ![] Cert.ReferenceIdeal.Gen.bcast_S_S100000x128 (constant (F := Ideal) Cert.ReferenceIdeal.S_ .f32 0x00000000#32)) := by
    dsimp only [Cert.ReferenceIdeal.Hand.RC1]
    after_results_simp
    rfl
  -- realness of everything in sight
  have rG2 : AllReal G2 := fun i => r10 _
  have rBT2 : AllReal BT2 := fun i => r11 _
  have rOG : AllReal OG := fun i => r12 _
  have rOB : AllReal OB := fun i => r13 _
  have rM2 : AllReal M2 := meanOf_real hpR
  have nV2 : ∀ j : Fin 128, ∃ x : ℝ, 0 ≤ x ∧ V2 (ix1 j) = (x : EReal) := varOf_nonneg hpR
  have row_real : ∀ {v : FVec Ideal Cert.ReferenceIdeal.S128 .f32}, AllReal v → AllReal (bc1 v) := fun hv i => hv _
  have row_nn : ∀ {v : FVec Ideal Cert.ReferenceIdeal.S128 .f32}, (∀ j : Fin 128, ∃ x : ℝ, 0 ≤ x ∧ v (ix1 j) = (x : EReal)) → Cert.Spec.NonnegRow (bc1 v) :=
    fun hv k => by obtain ⟨x, hx, e⟩ := hv k; exact ⟨x, hx, (bc1_apply _ 0 k).trans e⟩
  have rH : AllReal H := fun i => by
    obtain ⟨r, j, rfl⟩ : ∃ (r : Fin 100000) (j : Fin 128), i = ix2 r j := ⟨i 0, i 1, eq_ix2 i⟩
    rw [show H (ix2 r j) = _ from bn_apply P M2 V2 G2 BT2 r j]
    exact Cert.Spec.norm1_real (hpR _) (row_real rM2 _) (row_nn nV2 j) (row_real rG2 _) (row_real rBT2 _)
  have rM3 : AllReal M3 := meanOf_real rH
  have nV3 : ∀ j : Fin 128, ∃ x : ℝ, 0 ≤ x ∧ V3 (ix1 j) = (x : EReal) := varOf_nonneg rH
  -- the kernel's output array, row by row in the reference's names
  have hK : Cert.KernelIdeal.Hand.W2' (fun c => after Cert.KernelIdeal.Gen.hostOps2_2 (after Cert.KernelIdeal.Gen.hostOps2_1 (after Cert.KernelIdeal.Gen.hostOps2 (Z c)))) c (Cert.KernelIdeal.main_v63 : DevRef _ _)
      = Cert.Spec.X3 P (bc1 M2) (bc1 V2) (bc1 G2) (bc1 BT2) (bc1 BT2) V3K (bc1 OG) (bc1 OB) := by
    unfold Cert.KernelIdeal.Hand.W2'
    rw [Function.update_self, Cert.KernelIdeal.Hand.final2]
    dsimp only [Cert.KernelIdeal.Hand.Vof, Cert.KernelIdeal.Gen.hostOps2, Cert.KernelIdeal.Gen.hostOps2_1, Cert.KernelIdeal.Gen.hostOps2_2]
    after_results_simp
    have row : ∀ {vK : FVec Ideal Cert.KernelIdeal.S128 .f32} {vR : FVec Ideal Cert.ReferenceIdeal.S128 .f32}, vK = vR →
        shapeCast Cert.KernelIdeal.S1x128 vK Cert.KernelIdeal.Gen.shapeCasts_S128_S1x128 = bc1 vR :=
      fun h => (row_cast _ _ _).trans (congrArg (fun v => bc1 v) h)
    refine X3_congr hp (row ?_) (row ?_) (row ?_) (row ?_) (row ?_)
      (congrArg₂ (fun a b => Host.divf (mulf (mulf a a) b) (addf b E)) (row ?_) (row ?_)) (row ?_) (row ?_)
    all_goals first | (rw [hp]; rfl) | (rw [h10]; rfl) | (rw [h11]; rfl) | (rw [h12]; rfl) | (rw [h13]; rfl)
  -- closed-form statistics against computed ones
  have qg : ∀ j : Fin 128, IsReal ((bc1 G2) (ix2 0 j)) := fun j => row_real rG2 _
  have qb : ∀ j : Fin 128, IsReal ((bc1 BT2) (ix2 0 j)) := fun j => row_real rBT2 _
  have qm2 : ∀ j : Fin 128, (bc1 M2) (ix2 0 j) = Ideal.div (Cert.Spec.zero + ∑ i : Fin 100000, P (ix2 i j)) Cert.Spec.rows :=
    fun j => (bc1_apply M2 0 j).trans (meanOf_apply P j)
  have qv2 : ∀ j : Fin 128, (bc1 V2) (ix2 0 j)
      = Ideal.div (Cert.Spec.zero + ∑ i : Fin 100000,
          (P (ix2 i j) - Ideal.div (Cert.Spec.zero + ∑ i : Fin 100000, P (ix2 i j)) Cert.Spec.rows)
            * (P (ix2 i j) - Ideal.div (Cert.Spec.zero + ∑ i : Fin 100000, P (ix2 i j)) Cert.Spec.rows)) Cert.Spec.rows :=
    fun j => (bc1_apply V2 0 j).trans (varOf_apply P j)
  have qm3 : ∀ j : Fin 128, (bc1 BT2) (ix2 0 j) = (bc1 BT2) (ix2 0 j) := fun j => rfl
  have qv3 : ∀ j : Fin 128, V3K (ix2 0 j)
      = Ideal.div (((bc1 G2) (ix2 0 j) * (bc1 G2) (ix2 0 j)) * (bc1 V2) (ix2 0 j)) ((bc1 V2) (ix2 0 j) + Cert.Spec.eps) := fun j => rfl
  have qH : ∀ (i : Fin 100000) (j : Fin 128), H (ix2 i j)
      = Cert.Spec.norm1 (P (ix2 i j)) ((bc1 M2) (ix2 0 j)) ((bc1 V2) (ix2 0 j)) ((bc1 G2) (ix2 0 j)) ((bc1 BT2) (ix2 0 j)) :=
    fun i j => bn_apply P M2 V2 G2 BT2 i j
  have qm3' : ∀ j : Fin 128, (bc1 M3) (ix2 0 j) = Ideal.div (Cert.Spec.zero + ∑ i : Fin 100000, H (ix2 i j)) Cert.Spec.rows :=
    fun j => (bc1_apply M3 0 j).trans (meanOf_apply H j)
  have qv3' : ∀ j : Fin 128, (bc1 V3) (ix2 0 j)
      = Ideal.div (Cert.Spec.zero + ∑ i : Fin 100000,
          (H (ix2 i j) - Ideal.div (Cert.Spec.zero + ∑ i : Fin 100000, H (ix2 i j)) Cert.Spec.rows)
            * (H (ix2 i j) - Ideal.div (Cert.Spec.zero + ∑ i : Fin 100000, H (ix2 i j)) Cert.Spec.rows)) Cert.Spec.rows :=
    fun j => (bc1_apply V3 0 j).trans (varOf_apply H j)
  have hlaw : Cert.Spec.X3 P (bc1 M2) (bc1 V2) (bc1 G2) (bc1 BT2) (bc1 BT2) V3K (bc1 OG) (bc1 OB)
      = Cert.Spec.X3 P (bc1 M2) (bc1 V2) (bc1 G2) (bc1 BT2) (bc1 M3) (bc1 V3) (bc1 OG) (bc1 OB) := by
    refine Cert.Spec.X3_closed_eq_computed _ ?_ _ _ _ _ _ _ _ _ _ _ ?_ ?_ ?_ ?_ ?_ ?_ H ?_ ?_ ?_
    · exact hpR
    · exact qg
    · exact qb
    · exact qm2
    · exact qv2
    · exact qm3
    · exact qv3
    · exact qH
    · exact qm3'
    · exact qv3'
  have hfin : after Cert.ReferenceIdeal.Hand.RC1 Z' (Cert.ReferenceIdeal.main_v100 : DevRef _ _)
      = Cert.Spec.X3 P (bc1 M2) (bc1 V2) (bc1 G2) (bc1 BT2) (bc1 M3) (bc1 V3) (bc1 OG) (bc1 OB) :=
    hR.trans (bridgeC P M2 V2 G2 BT2 M3 V3 OG OB)
  refine ⟨hK.trans (hlaw.trans hfin.symm), ?_⟩
  rw [hfin]
  exact Cert.Spec.X3_real hpR (row_real rM2) (row_nn nV2) (row_real rG2) (row_real rBT2) (row_real rM3) (row_nn nV3) (row_real rOG) (row_real rOB)

end Cert.Proof.Core

end
-- ==== Proof.Core.Layer1.lean ====
/-
  Layer 1: from equal node features with real entries and the common environment, the two programs' layer outputs are
  equal and real, and the environment is kept. The three stages in turn, each read at the valuations the previous one leaves.
-/
import proofs.«141748_j59863254171699_1_alg».proof.Proof.Core.Env
import proofs.«141748_j59863254171699_1_alg».proof.Proof.Core.StageA1
import proofs.«141748_j59863254171699_1_alg».proof.Proof.Core.StageB1
import proofs.«141748_j59863254171699_1_alg».proof.Proof.Core.StageC1

set_option maxRecDepth 65536
set_option maxHeartbeats 4000000

noncomputable section

namespace Cert.Proof.Core

open Idealize.ShloMosaic Idealize.ShloMosaic.TcCoe Idealize.SL.Sem Idealize.ShloMosaic.StableHlo Cert.Lib

theorem layer1 (Z : KD → KVal) (Z' : RVal) (c : KD) (E : Env Z Z' c)
    (hx : Z c (Cert.KernelIdeal.main_arg0 : DevRef _ _) = Z' (Cert.ReferenceIdeal.main_arg0 : DevRef _ _)) (rx : AllReal (Z' (Cert.ReferenceIdeal.main_arg0 : DevRef _ _))) :
    Cert.KernelIdeal.Hand.L1C' Z c (Cert.KernelIdeal.main_v63 : DevRef _ _) = Cert.ReferenceIdeal.Hand.R1 Z' (Cert.ReferenceIdeal.main_v100 : DevRef _ _)
      ∧ AllReal (Cert.ReferenceIdeal.Hand.R1 Z' (Cert.ReferenceIdeal.main_v100 : DevRef _ _))
      ∧ Env (Cert.KernelIdeal.Hand.L1C' Z) (Cert.ReferenceIdeal.Hand.R1 Z') c := by
  obtain ⟨hA, rA⟩ := stageA1 Z Z' c hx rx E.s E.d E.w1 E.r4 E.a5 E.r5
  obtain ⟨hB, rB⟩ := stageB1 (Cert.KernelIdeal.Hand.L1A' Z) (after Cert.ReferenceIdeal.Hand.RA1r Z') c hA rA
    ((Cert.KernelIdeal.Hand.keepA1 Z c Cert.KernelIdeal.main_arg6 (by decide) (by decide)).trans (E.a6.trans (after_of_writes_sub Cert.ReferenceIdeal.Hand.RA1r Z' Cert.ReferenceIdeal.Hand.RA1r_writes (r := Cert.ReferenceIdeal.main_arg6) (by decide)).symm)) (by rw [(after_of_writes_sub Cert.ReferenceIdeal.Hand.RA1r Z' Cert.ReferenceIdeal.Hand.RA1r_writes (r := Cert.ReferenceIdeal.main_arg6) (by decide))]; exact E.r6) ((Cert.KernelIdeal.Hand.keepA1 Z c Cert.KernelIdeal.main_arg7 (by decide) (by decide)).trans (E.a7.trans (after_of_writes_sub Cert.ReferenceIdeal.Hand.RA1r Z' Cert.ReferenceIdeal.Hand.RA1r_writes (r := Cert.ReferenceIdeal.main_arg7) (by decide)).symm)) (by rw [(after_of_writes_sub Cert.ReferenceIdeal.Hand.RA1r Z' Cert.ReferenceIdeal.Hand.RA1r_writes (r := Cert.ReferenceIdeal.main_arg7) (by decide))]; exact E.r7)
    ((Cert.KernelIdeal.Hand.keepA1 Z c Cert.KernelIdeal.main_v5 (by decide) (by decide)).trans (E.w2.trans (after_of_writes_sub Cert.ReferenceIdeal.Hand.RA1r Z' Cert.ReferenceIdeal.Hand.RA1r_writes (r := Cert.ReferenceIdeal.main_arg8) (by decide)).symm)) (by rw [(after_of_writes_sub Cert.ReferenceIdeal.Hand.RA1r Z' Cert.ReferenceIdeal.Hand.RA1r_writes (r := Cert.ReferenceIdeal.main_arg8) (by decide))]; exact E.r8) ((Cert.KernelIdeal.Hand.keepA1 Z c Cert.KernelIdeal.main_arg9 (by decide) (by decide)).trans (E.a9.trans (after_of_writes_sub Cert.ReferenceIdeal.Hand.RA1r Z' Cert.ReferenceIdeal.Hand.RA1r_writes (r := Cert.ReferenceIdeal.main_arg9) (by decide)).symm)) (by rw [(after_of_writes_sub Cert.ReferenceIdeal.Hand.RA1r Z' Cert.ReferenceIdeal.Hand.RA1r_writes (r := Cert.ReferenceIdeal.main_arg9) (by decide))]; exact E.r9)
  obtain ⟨hC, rC⟩ := stageC1 (Cert.KernelIdeal.Hand.L1B' Z) (after Cert.ReferenceIdeal.Hand.RB1 (after Cert.ReferenceIdeal.Hand.RA1r Z')) c hB rB
    ((Cert.KernelIdeal.Hand.keepB1 (Cert.KernelIdeal.Hand.L1A' Z) c Cert.KernelIdeal.main_arg10 (by decide) (by decide) (by decide) (by decide)).trans ((Cert.KernelIdeal.Hand.keepA1 Z c Cert.KernelIdeal.main_arg10 (by decide) (by decide)).trans (E.a10.trans ((after_of_writes_sub Cert.ReferenceIdeal.Hand.RB1 (after Cert.ReferenceIdeal.Hand.RA1r Z') Cert.ReferenceIdeal.Hand.RB1_writes (r := Cert.ReferenceIdeal.main_arg10) (by decide)).trans (after_of_writes_sub Cert.ReferenceIdeal.Hand.RA1r Z' Cert.ReferenceIdeal.Hand.RA1r_writes (r := Cert.ReferenceIdeal.main_arg10) (by decide))).symm))) (by rw [(after_of_writes_sub Cert.ReferenceIdeal.Hand.RB1 (after Cert.ReferenceIdeal.Hand.RA1r Z') Cert.ReferenceIdeal.Hand.RB1_writes (r := Cert.ReferenceIdeal.main_arg10) (by decide)), (after_of_writes_sub Cert.ReferenceIdeal.Hand.RA1r Z' Cert.ReferenceIdeal.Hand.RA1r_writes (r := Cert.ReferenceIdeal.main_arg10) (by decide))]; exact E.r10)
    ((Cert.KernelIdeal.Hand.keepB1 (Cert.KernelIdeal.Hand.L1A' Z) c Cert.KernelIdeal.main_arg11 (by decide) (by decide) (by decide) (by decide)).trans ((Cert.KernelIdeal.Hand.keepA1 Z c Cert.KernelIdeal.main_arg11 (by decide) (by decide)).trans (E.a11.trans ((after_of_writes_sub Cert.ReferenceIdeal.Hand.RB1 (after Cert.ReferenceIdeal.Hand.RA1r Z') Cert.ReferenceIdeal.Hand.RB1_writes (r := Cert.ReferenceIdeal.main_arg11) (by decide)).trans (after_of_writes_sub Cert.ReferenceIdeal.Hand.RA1r Z' Cert.ReferenceIdeal.Hand.RA1r_writes (r := Cert.ReferenceIdeal.main_arg11) (by decide))).symm))) (by rw [(after_of_writes_sub Cert.ReferenceIdeal.Hand.RB1 (after Cert.ReferenceIdeal.Hand.RA1r Z') Cert.ReferenceIdeal.Hand.RB1_writes (r := Cert.ReferenceIdeal.main_arg11) (by decide)), (after_of_writes_sub Cert.ReferenceIdeal.Hand.RA1r Z' Cert.ReferenceIdeal.Hand.RA1r_writes (r := Cert.ReferenceIdeal.main_arg11) (by decide))]; exact E.r11)
    ((Cert.KernelIdeal.Hand.keepB1 (Cert.KernelIdeal.Hand.L1A' Z) c Cert.KernelIdeal.main_arg12 (by decide) (by decide) (by decide) (by decide)).trans ((Cert.KernelIdeal.Hand.keepA1 Z c Cert.KernelIdeal.main_arg12 (by decide) (by decide)).trans (E.a12.trans ((after_of_writes_sub Cert.ReferenceIdeal.Hand.RB1 (after Cert.ReferenceIdeal.Hand.RA1r Z') Cert.ReferenceIdeal.Hand.RB1_writes (r := Cert.ReferenceIdeal.main_arg12) (by decide)).trans (after_of_writes_sub Cert.ReferenceIdeal.Hand.RA1r Z' Cert.ReferenceIdeal.Hand.RA1r_writes (r := Cert.ReferenceIdeal.main_arg12) (by decide))).symm))) (by rw [(after_of_writes_sub Cert.ReferenceIdeal.Hand.RB1 (after Cert.ReferenceIdeal.Hand.RA1r Z') Cert.ReferenceIdeal.Hand.RB1_writes (r := Cert.ReferenceIdeal.main_arg12) (by decide)), (after_of_writes_sub Cert.ReferenceIdeal.Hand.RA1r Z' Cert.ReferenceIdeal.Hand.RA1r_writes (r := Cert.ReferenceIdeal.main_arg12) (by decide))]; exact E.r12)
    ((Cert.KernelIdeal.Hand.keepB1 (Cert.KernelIdeal.Hand.L1A' Z) c Cert.KernelIdeal.main_arg13 (by decide) (by decide) (by decide) (by decide)).trans ((Cert.KernelIdeal.Hand.keepA1 Z c Cert.KernelIdeal.main_arg13 (by decide) (by decide)).trans (E.a13.trans ((after_of_writes_sub Cert.ReferenceIdeal.Hand.RB1 (after Cert.ReferenceIdeal.Hand.RA1r Z') Cert.ReferenceIdeal.Hand.RB1_writes (r := Cert.ReferenceIdeal.main_arg13) (by decide)).trans (after_of_writes_sub Cert.ReferenceIdeal.Hand.RA1r Z' Cert.ReferenceIdeal.Hand.RA1r_writes (r := Cert.ReferenceIdeal.main_arg13) (by decide))).symm))) (by rw [(after_of_writes_sub Cert.ReferenceIdeal.Hand.RB1 (after Cert.ReferenceIdeal.Hand.RA1r Z') Cert.ReferenceIdeal.Hand.RB1_writes (r := Cert.ReferenceIdeal.main_arg13) (by decide)), (after_of_writes_sub Cert.ReferenceIdeal.Hand.RA1r Z' Cert.ReferenceIdeal.Hand.RA1r_writes (r := Cert.ReferenceIdeal.main_arg13) (by decide))]; exact E.r13)
  refine ⟨hC, rC, ?_⟩
  exact {
    s := ((Cert.KernelIdeal.Hand.keepC1 (Cert.KernelIdeal.Hand.L1B' Z) c Cert.KernelIdeal.main_v1 (by decide) (by decide) (by decide) (by decide)).trans ((Cert.KernelIdeal.Hand.keepB1 (Cert.KernelIdeal.Hand.L1A' Z) c Cert.KernelIdeal.main_v1 (by decide) (by decide) (by decide) (by decide)).trans ((Cert.KernelIdeal.Hand.keepA1 Z c Cert.KernelIdeal.main_v1 (by decide) (by decide)).trans (E.s.trans ((after_of_writes_sub Cert.ReferenceIdeal.Hand.RC1 (after Cert.ReferenceIdeal.Hand.RB1 (after Cert.ReferenceIdeal.Hand.RA1r Z')) Cert.ReferenceIdeal.Hand.RC1_writes (r := Cert.ReferenceIdeal.main_v1) (by decide)).trans ((after_of_writes_sub Cert.ReferenceIdeal.Hand.RB1 (after Cert.ReferenceIdeal.Hand.RA1r Z') Cert.ReferenceIdeal.Hand.RB1_writes (r := Cert.ReferenceIdeal.main_v1) (by decide)).trans (after_of_writes_sub Cert.ReferenceIdeal.Hand.RA1r Z' Cert.ReferenceIdeal.Hand.RA1r_writes (r := Cert.ReferenceIdeal.main_v1) (by decide)))).symm))))
    d := ((Cert.KernelIdeal.Hand.keepC1 (Cert.KernelIdeal.Hand.L1B' Z) c Cert.KernelIdeal.main_v3 (by decide) (by decide) (by decide) (by decide)).trans ((Cert.KernelIdeal.Hand.keepB1 (Cert.KernelIdeal.Hand.L1A' Z) c Cert.KernelIdeal.main_v3 (by decide) (by decide) (by decide) (by decide)).trans ((Cert.KernelIdeal.Hand.keepA1 Z c Cert.KernelIdeal.main_v3 (by decide) (by decide)).trans (E.d.trans ((after_of_writes_sub Cert.ReferenceIdeal.Hand.RC1 (after Cert.ReferenceIdeal.Hand.RB1 (after Cert.ReferenceIdeal.Hand.RA1r Z')) Cert.ReferenceIdeal.Hand.RC1_writes (r := Cert.ReferenceIdeal.main_v3) (by decide)).trans ((after_of_writes_sub Cert.ReferenceIdeal.Hand.RB1 (after Cert.ReferenceIdeal.Hand.RA1r Z') Cert.ReferenceIdeal.Hand.RB1_writes (r := Cert.ReferenceIdeal.main_v3) (by decide)).trans (after_of_writes_sub Cert.ReferenceIdeal.Hand.RA1r Z' Cert.ReferenceIdeal.Hand.RA1r_writes (r := Cert.ReferenceIdeal.main_v3) (by decide)))).symm))))
    w1 := ((Cert.KernelIdeal.Hand.keepC1 (Cert.KernelIdeal.Hand.L1B' Z) c Cert.KernelIdeal.main_v4 (by decide) (by decide) (by decide) (by decide)).trans ((Cert.KernelIdeal.Hand.keepB1 (Cert.KernelIdeal.Hand.L1A' Z) c Cert.KernelIdeal.main_v4 (by decide) (by decide) (by decide) (by decide)).trans ((Cert.KernelIdeal.Hand.keepA1 Z c Cert.KernelIdeal.main_v4 (by decide) (by decide)).trans (E.w1.trans ((after_of_writes_sub Cert.ReferenceIdeal.Hand.RC1 (after Cert.ReferenceIdeal.Hand.RB1 (after Cert.ReferenceIdeal.Hand.RA1r Z')) Cert.ReferenceIdeal.Hand.RC1_writes (r := Cert.ReferenceIdeal.main_arg4) (by decide)).trans ((after_of_writes_sub Cert.ReferenceIdeal.Hand.RB1 (after Cert.ReferenceIdeal.Hand.RA1r Z') Cert.ReferenceIdeal.Hand.RB1_writes (r := Cert.ReferenceIdeal.main_arg4) (by decide)).trans (after_of_writes_sub Cert.ReferenceIdeal.Hand.RA1r Z' Cert.ReferenceIdeal.Hand.RA1r_writes (r := Cert.ReferenceIdeal.main_arg4) (by decide)))).symm))))
    w2 := ((Cert.KernelIdeal.Hand.keepC1 (Cert.KernelIdeal.Hand.L1B' Z) c Cert.KernelIdeal.main_v5 (by decide) (by decide) (by decide) (by decide)).trans ((Cert.KernelIdeal.Hand.keepB1 (Cert.KernelIdeal.Hand.L1A' Z) c Cert.KernelIdeal.main_v5 (by decide) (by decide) (by decide) (by decide)).trans ((Cert.KernelIdeal.Hand.keepA1 Z c Cert.KernelIdeal.main_v5 (by decide) (by decide)).trans (E.w2.trans ((after_of_writes_sub Cert.ReferenceIdeal.Hand.RC1 (after Cert.ReferenceIdeal.Hand.RB1 (after Cert.ReferenceIdeal.Hand.RA1r Z')) Cert.ReferenceIdeal.Hand.RC1_writes (r := Cert.ReferenceIdeal.main_arg8) (by decide)).trans ((after_of_writes_sub Cert.ReferenceIdeal.Hand.RB1 (after Cert.ReferenceIdeal.Hand.RA1r Z') Cert.ReferenceIdeal.Hand.RB1_writes (r := Cert.ReferenceIdeal.main_arg8) (by decide)).trans (after_of_writes_sub Cert.ReferenceIdeal.Hand.RA1r Z' Cert.ReferenceIdeal.Hand.RA1r_writes (r := Cert.ReferenceIdeal.main_arg8) (by decide)))).symm))))
    a2 := ((Cert.KernelIdeal.Hand.keepC1 (Cert.KernelIdeal.Hand.L1B' Z) c Cert.KernelIdeal.main_arg2 (by decide) (by decide) (by decide) (by decide)).trans ((Cert.KernelIdeal.Hand.keepB1 (Cert.KernelIdeal.Hand.L1A' Z) c Cert.KernelIdeal.main_arg2 (by decide) (by decide) (by decide) (by decide)).trans ((Cert.KernelIdeal.Hand.keepA1 Z c Cert.KernelIdeal.main_arg2 (by decide) (by decide)).trans (E.a2.trans ((after_of_writes_sub Cert.ReferenceIdeal.Hand.RC1 (after Cert.ReferenceIdeal.Hand.RB1 (after Cert.ReferenceIdeal.Hand.RA1r Z')) Cert.ReferenceIdeal.Hand.RC1_writes (r := Cert.ReferenceIdeal.main_arg2) (by decide)).trans ((after_of_writes_sub Cert.ReferenceIdeal.Hand.RB1 (after Cert.ReferenceIdeal.Hand.RA1r Z') Cert.ReferenceIdeal.Hand.RB1_writes (r := Cert.ReferenceIdeal.main_arg2) (by decide)).trans (after_of_writes_sub Cert.ReferenceIdeal.Hand.RA1r Z' Cert.ReferenceIdeal.Hand.RA1r_writes (r := Cert.ReferenceIdeal.main_arg2) (by decide)))).symm))))
    a3 := ((Cert.KernelIdeal.Hand.keepC1 (Cert.KernelIdeal.Hand.L1B' Z) c Cert.KernelIdeal.main_arg3 (by decide) (by decide) (by decide) (by decide)).trans ((Cert.KernelIdeal.Hand.keepB1 (Cert.KernelIdeal.Hand.L1A' Z) c Cert.KernelIdeal.main_arg3 (by decide) (by decide) (by decide) (by decide)).trans ((Cert.KernelIdeal.Hand.keepA1 Z c Cert.KernelIdeal.main_arg3 (by decide) (by decide)).trans (E.a3.trans ((after_of_writes_sub Cert.ReferenceIdeal.Hand.RC1 (after Cert.ReferenceIdeal.Hand.RB1 (after Cert.ReferenceIdeal.Hand.RA1r Z')) Cert.ReferenceIdeal.Hand.RC1_writes (r := Cert.ReferenceIdeal.main_arg3) (by decide)).trans ((after_of_writes_sub Cert.ReferenceIdeal.Hand.RB1 (after Cert.ReferenceIdeal.Hand.RA1r Z') Cert.ReferenceIdeal.Hand.RB1_writes (r := Cert.ReferenceIdeal.main_arg3) (by decide)).trans (after_of_writes_sub Cert.ReferenceIdeal.Hand.RA1r Z' Cert.ReferenceIdeal.Hand.RA1r_writes (r := Cert.ReferenceIdeal.main_arg3) (by decide)))).symm))))
    a5 := ((Cert.KernelIdeal.Hand.keepC1 (Cert.KernelIdeal.Hand.L1B' Z) c Cert.KernelIdeal.main_arg5 (by decide) (by decide) (by decide) (by decide)).trans ((Cert.KernelIdeal.Hand.keepB1 (Cert.KernelIdeal.Hand.L1A' Z) c Cert.KernelIdeal.main_arg5 (by decide) (by decide) (by decide) (by decide)).trans ((Cert.KernelIdeal.Hand.keepA1 Z c Cert.KernelIdeal.main_arg5 (by decide) (by decide)).trans (E.a5.trans ((after_of_writes_sub Cert.ReferenceIdeal.Hand.RC1 (after Cert.ReferenceIdeal.Hand.RB1 (after Cert.ReferenceIdeal.Hand.RA1r Z')) Cert.ReferenceIdeal.Hand.RC1_writes (r := Cert.ReferenceIdeal.main_arg5) (by decide)).trans ((after_of_writes_sub Cert.ReferenceIdeal.Hand.RB1 (after Cert.ReferenceIdeal.Hand.RA1r Z') Cert.ReferenceIdeal.Hand.RB1_writes (r := Cert.ReferenceIdeal.main_arg5) (by decide)).trans (after_of_writes_sub Cert.ReferenceIdeal.Hand.RA1r Z' Cert.ReferenceIdeal.Hand.RA1r_writes (r := Cert.ReferenceIdeal.main_arg5) (by decide)))).symm))))
    a6 := ((Cert.KernelIdeal.Hand.keepC1 (Cert.KernelIdeal.Hand.L1B' Z) c Cert.KernelIdeal.main_arg6 (by decide) (by decide) (by decide) (by decide)).trans ((Cert.KernelIdeal.Hand.keepB1 (Cert.KernelIdeal.Hand.L1A' Z) c Cert.KernelIdeal.main_arg6 (by decide) (by decide) (by decide) (by decide)).trans ((Cert.KernelIdeal.Hand.keepA1 Z c Cert.KernelIdeal.main_arg6 (by decide) (by decide)).trans (E.a6.trans ((after_of_writes_sub Cert.ReferenceIdeal.Hand.RC1 (after Cert.ReferenceIdeal.Hand.RB1 (after Cert.ReferenceIdeal.Hand.RA1r Z')) Cert.ReferenceIdeal.Hand.RC1_writes (r := Cert.ReferenceIdeal.main_arg6) (by decide)).trans ((after_of_writes_sub Cert.ReferenceIdeal.Hand.RB1 (after Cert.ReferenceIdeal.Hand.RA1r Z') Cert.ReferenceIdeal.Hand.RB1_writes (r := Cert.ReferenceIdeal.main_arg6) (by decide)).trans (after_of_writes_sub Cert.ReferenceIdeal.Hand.RA1r Z' Cert.ReferenceIdeal.Hand.RA1r_writes (r := Cert.ReferenceIdeal.main_arg6) (by decide)))).symm))))
    a7 := ((Cert.KernelIdeal.Hand.keepC1 (Cert.KernelIdeal.Hand.L1B' Z) c Cert.KernelIdeal.main_arg7 (by decide) (by decide) (by decide) (by decide)).trans ((Cert.KernelIdeal.Hand.keepB1 (Cert.KernelIdeal.Hand.L1A' Z) c Cert.KernelIdeal.main_arg7 (by decide) (by decide) (by decide) (by decide)).trans ((Cert.KernelIdeal.Hand.keepA1 Z c Cert.KernelIdeal.main_arg7 (by decide) (by decide)).trans (E.a7.trans ((after_of_writes_sub Cert.ReferenceIdeal.Hand.RC1 (after Cert.ReferenceIdeal.Hand.RB1 (after Cert.ReferenceIdeal.Hand.RA1r Z')) Cert.ReferenceIdeal.Hand.RC1_writes (r := Cert.ReferenceIdeal.main_arg7) (by decide)).trans ((after_of_writes_sub Cert.ReferenceIdeal.Hand.RB1 (after Cert.ReferenceIdeal.Hand.RA1r Z') Cert.ReferenceIdeal.Hand.RB1_writes (r := Cert.ReferenceIdeal.main_arg7) (by decide)).trans (after_of_writes_sub Cert.ReferenceIdeal.Hand.RA1r Z' Cert.ReferenceIdeal.Hand.RA1r_writes (r := Cert.ReferenceIdeal.main_arg7) (by decide)))).symm))))
    a9 := ((Cert.KernelIdeal.Hand.keepC1 (Cert.KernelIdeal.Hand.L1B' Z) c Cert.KernelIdeal.main_arg9 (by decide) (by decide) (by decide) (by decide)).trans ((Cert.KernelIdeal.Hand.keepB1 (Cert.KernelIdeal.Hand.L1A' Z) c Cert.KernelIdeal.main_arg9 (by decide) (by decide) (by decide) (by decide)).trans ((Cert.KernelIdeal.Hand.keepA1 Z c Cert.KernelIdeal.main_arg9 (by decide) (by decide)).trans (E.a9.trans ((after_of_writes_sub Cert.ReferenceIdeal.Hand.RC1 (after Cert.ReferenceIdeal.Hand.RB1 (after Cert.ReferenceIdeal.Hand.RA1r Z')) Cert.ReferenceIdeal.Hand.RC1_writes (r := Cert.ReferenceIdeal.main_arg9) (by decide)).trans ((after_of_writes_sub Cert.ReferenceIdeal.Hand.RB1 (after Cert.ReferenceIdeal.Hand.RA1r Z') Cert.ReferenceIdeal.Hand.RB1_writes (r := Cert.ReferenceIdeal.main_arg9) (by decide)).trans (after_of_writes_sub Cert.ReferenceIdeal.Hand.RA1r Z' Cert.ReferenceIdeal.Hand.RA1r_writes (r := Cert.ReferenceIdeal.main_arg9) (by decide)))).symm))))
    a10 := ((Cert.KernelIdeal.Hand.keepC1 (Cert.KernelIdeal.Hand.L1B' Z) c Cert.KernelIdeal.main_arg10 (by decide) (by decide) (by decide) (by decide)).trans ((Cert.KernelIdeal.Hand.keepB1 (Cert.KernelIdeal.Hand.L1A' Z) c Cert.KernelIdeal.main_arg10 (by decide) (by decide) (by decide) (by decide)).trans ((Cert.KernelIdeal.Hand.keepA1 Z c Cert.KernelIdeal.main_arg10 (by decide) (by decide)).trans (E.a10.trans ((after_of_writes_sub Cert.ReferenceIdeal.Hand.RC1 (after Cert.ReferenceIdeal.Hand.RB1 (after Cert.ReferenceIdeal.Hand.RA1r Z')) Cert.ReferenceIdeal.Hand.RC1_writes (r := Cert.ReferenceIdeal.main_arg10) (by decide)).trans ((after_of_writes_sub Cert.ReferenceIdeal.Hand.RB1 (after Cert.ReferenceIdeal.Hand.RA1r Z') Cert.ReferenceIdeal.Hand.RB1_writes (r := Cert.ReferenceIdeal.main_arg10) (by decide)).trans (after_of_writes_sub Cert.ReferenceIdeal.Hand.RA1r Z' Cert.ReferenceIdeal.Hand.RA1r_writes (r := Cert.ReferenceIdeal.main_arg10) (by decide)))).symm))))
    a11 := ((Cert.KernelIdeal.Hand.keepC1 (Cert.KernelIdeal.Hand.L1B' Z) c Cert.KernelIdeal.main_arg11 (by decide) (by decide) (by decide) (by decide)).trans ((Cert.KernelIdeal.Hand.keepB1 (Cert.KernelIdeal.Hand.L1A' Z) c Cert.KernelIdeal.main_arg11 (by decide) (by decide) (by decide) (by decide)).trans ((Cert.KernelIdeal.Hand.keepA1 Z c Cert.KernelIdeal.main_arg11 (by decide) (by decide)).trans (E.a11.trans ((after_of_writes_sub Cert.ReferenceIdeal.Hand.RC1 (after Cert.ReferenceIdeal.Hand.RB1 (after Cert.ReferenceIdeal.Hand.RA1r Z')) Cert.ReferenceIdeal.Hand.RC1_writes (r := Cert.ReferenceIdeal.main_arg11) (by decide)).trans ((after_of_writes_sub Cert.ReferenceIdeal.Hand.RB1 (after Cert.ReferenceIdeal.Hand.RA1r Z') Cert.ReferenceIdeal.Hand.RB1_writes (r := Cert.ReferenceIdeal.main_arg11) (by decide)).trans (after_of_writes_sub Cert.ReferenceIdeal.Hand.RA1r Z' Cert.ReferenceIdeal.Hand.RA1r_writes (r := Cert.ReferenceIdeal.main_arg11) (by decide)))).symm))))
    a12 := ((Cert.KernelIdeal.Hand.keepC1 (Cert.KernelIdeal.Hand.L1B' Z) c Cert.KernelIdeal.main_arg12 (by decide) (by decide) (by decide) (by decide)).trans ((Cert.KernelIdeal.Hand.keepB1 (Cert.KernelIdeal.Hand.L1A' Z) c Cert.KernelIdeal.main_arg12 (by decide) (by decide) (by decide) (by decide)).trans ((Cert.KernelIdeal.Hand.keepA1 Z c Cert.KernelIdeal.main_arg12 (by decide) (by decide)).trans (E.a12.trans ((after_of_writes_sub Cert.ReferenceIdeal.Hand.RC1 (after Cert.ReferenceIdeal.Hand.RB1 (after Cert.ReferenceIdeal.Hand.RA1r Z')) Cert.ReferenceIdeal.Hand.RC1_writes (r := Cert.ReferenceIdeal.main_arg12) (by decide)).trans ((after_of_writes_sub Cert.ReferenceIdeal.Hand.RB1 (after Cert.ReferenceIdeal.Hand.RA1r Z') Cert.ReferenceIdeal.Hand.RB1_writes (r := Cert.ReferenceIdeal.main_arg12) (by decide)).trans (after_of_writes_sub Cert.ReferenceIdeal.Hand.RA1r Z' Cert.ReferenceIdeal.Hand.RA1r_writes (r := Cert.ReferenceIdeal.main_arg12) (by decide)))).symm))))
    a13 := ((Cert.KernelIdeal.Hand.keepC1 (Cert.KernelIdeal.Hand.L1B' Z) c Cert.KernelIdeal.main_arg13 (by decide) (by decide) (by decide) (by decide)).trans ((Cert.KernelIdeal.Hand.keepB1 (Cert.KernelIdeal.Hand.L1A' Z) c Cert.KernelIdeal.main_arg13 (by decide) (by decide) (by decide) (by decide)).trans ((Cert.KernelIdeal.Hand.keepA1 Z c Cert.KernelIdeal.main_arg13 (by decide) (by decide)).trans (E.a13.trans ((after_of_writes_sub Cert.ReferenceIdeal.Hand.RC1 (after Cert.ReferenceIdeal.Hand.RB1 (after Cert.ReferenceIdeal.Hand.RA1r Z')) Cert.ReferenceIdeal.Hand.RC1_writes (r := Cert.ReferenceIdeal.main_arg13) (by decide)).trans ((after_of_writes_sub Cert.ReferenceIdeal.Hand.RB1 (after Cert.ReferenceIdeal.Hand.RA1r Z') Cert.ReferenceIdeal.Hand.RB1_writes (r := Cert.ReferenceIdeal.main_arg13) (by decide)).trans (after_of_writes_sub Cert.ReferenceIdeal.Hand.RA1r Z' Cert.ReferenceIdeal.Hand.RA1r_writes (r := Cert.ReferenceIdeal.main_arg13) (by decide)))).symm))))
    a14 := ((Cert.KernelIdeal.Hand.keepC1 (Cert.KernelIdeal.Hand.L1B' Z) c Cert.KernelIdeal.main_arg14 (by decide) (by decide) (by decide) (by decide)).trans ((Cert.KernelIdeal.Hand.keepB1 (Cert.KernelIdeal.Hand.L1A' Z) c Cert.KernelIdeal.main_arg14 (by decide) (by decide) (by decide) (by decide)).trans ((Cert.KernelIdeal.Hand.keepA1 Z c Cert.KernelIdeal.main_arg14 (by decide) (by decide)).trans (E.a14.trans ((after_of_writes_sub Cert.ReferenceIdeal.Hand.RC1 (after Cert.ReferenceIdeal.Hand.RB1 (after Cert.ReferenceIdeal.Hand.RA1r Z')) Cert.ReferenceIdeal.Hand.RC1_writes (r := Cert.ReferenceIdeal.main_arg14) (by decide)).trans ((after_of_writes_sub Cert.ReferenceIdeal.Hand.RB1 (after Cert.ReferenceIdeal.Hand.RA1r Z') Cert.ReferenceIdeal.Hand.RB1_writes (r := Cert.ReferenceIdeal.main_arg14) (by decide)).trans (after_of_writes_sub Cert.ReferenceIdeal.Hand.RA1r Z' Cert.ReferenceIdeal.Hand.RA1r_writes (r := Cert.ReferenceIdeal.main_arg14) (by decide)))).symm))))
    a15 := ((Cert.KernelIdeal.Hand.keepC1 (Cert.KernelIdeal.Hand.L1B' Z) c Cert.KernelIdeal.main_arg15 (by decide) (by decide) (by decide) (by decide)).trans ((Cert.KernelIdeal.Hand.keepB1 (Cert.KernelIdeal.Hand.L1A' Z) c Cert.KernelIdeal.main_arg15 (by decide) (by decide) (by decide) (by decide)).trans ((Cert.KernelIdeal.Hand.keepA1 Z c Cert.KernelIdeal.main_arg15 (by decide) (by decide)).trans (E.a15.trans ((after_of_writes_sub Cert.ReferenceIdeal.Hand.RC1 (after Cert.ReferenceIdeal.Hand.RB1 (after Cert.ReferenceIdeal.Hand.RA1r Z')) Cert.ReferenceIdeal.Hand.RC1_writes (r := Cert.ReferenceIdeal.main_arg15) (by decide)).trans ((after_of_writes_sub Cert.ReferenceIdeal.Hand.RB1 (after Cert.ReferenceIdeal.Hand.RA1r Z') Cert.ReferenceIdeal.Hand.RB1_writes (r := Cert.ReferenceIdeal.main_arg15) (by decide)).trans (after_of_writes_sub Cert.ReferenceIdeal.Hand.RA1r Z' Cert.ReferenceIdeal.Hand.RA1r_writes (r := Cert.ReferenceIdeal.main_arg15) (by decide)))).symm))))
    r4 := (by show AllReal (after Cert.ReferenceIdeal.Hand.RC1 (after Cert.ReferenceIdeal.Hand.RB1 (after Cert.ReferenceIdeal.Hand.RA1r Z')) (Proc.devRef .tc Cert.ReferenceIdeal.main_arg4)); rw [(after_of_writes_sub Cert.ReferenceIdeal.Hand.RC1 (after Cert.ReferenceIdeal.Hand.RB1 (after Cert.ReferenceIdeal.Hand.RA1r Z')) Cert.ReferenceIdeal.Hand.RC1_writes (r := Cert.ReferenceIdeal.main_arg4) (by decide)), (after_of_writes_sub Cert.ReferenceIdeal.Hand.RB1 (after Cert.ReferenceIdeal.Hand.RA1r Z') Cert.ReferenceIdeal.Hand.RB1_writes (r := Cert.ReferenceIdeal.main_arg4) (by decide)), (after_of_writes_sub Cert.ReferenceIdeal.Hand.RA1r Z' Cert.ReferenceIdeal.Hand.RA1r_writes (r := Cert.ReferenceIdeal.main_arg4) (by decide))]; exact E.r4)
    r5 := (by show AllReal (after Cert.ReferenceIdeal.Hand.RC1 (after Cert.ReferenceIdeal.Hand.RB1 (after Cert.ReferenceIdeal.Hand.RA1r Z')) (Proc.devRef .tc Cert.ReferenceIdeal.main_arg5)); rw [(after_of_writes_sub Cert.ReferenceIdeal.Hand.RC1 (after Cert.ReferenceIdeal.Hand.RB1 (after Cert.ReferenceIdeal.Hand.RA1r Z')) Cert.ReferenceIdeal.Hand.RC1_writes (r := Cert.ReferenceIdeal.main_arg5) (by decide)), (after_of_writes_sub Cert.ReferenceIdeal.Hand.RB1 (after Cert.ReferenceIdeal.Hand.RA1r Z') Cert.ReferenceIdeal.Hand.RB1_writes (r := Cert.ReferenceIdeal.main_arg5) (by decide)), (after_of_writes_sub Cert.ReferenceIdeal.Hand.RA1r Z' Cert.ReferenceIdeal.Hand.RA1r_writes (r := Cert.ReferenceIdeal.main_arg5) (by decide))]; exact E.r5)
    r6 := (by show AllReal (after Cert.ReferenceIdeal.Hand.RC1 (after Cert.ReferenceIdeal.Hand.RB1 (after Cert.ReferenceIdeal.Hand.RA1r Z')) (Proc.devRef .tc Cert.ReferenceIdeal.main_arg6)); rw [(after_of_writes_sub Cert.ReferenceIdeal.Hand.RC1 (after Cert.ReferenceIdeal.Hand.RB1 (after Cert.ReferenceIdeal.Hand.RA1r Z')) Cert.ReferenceIdeal.Hand.RC1_writes (r := Cert.ReferenceIdeal.main_arg6) (by decide)), (after_of_writes_sub Cert.ReferenceIdeal.Hand.RB1 (after Cert.ReferenceIdeal.Hand.RA1r Z') Cert.ReferenceIdeal.Hand.RB1_writes (r := Cert.ReferenceIdeal.main_arg6) (by decide)), (after_of_writes_sub Cert.ReferenceIdeal.Hand.RA1r Z' Cert.ReferenceIdeal.Hand.RA1r_writes (r := Cert.ReferenceIdeal.main_arg6) (by decide))]; exact E.r6)
    r7 := (by show AllReal (after Cert.ReferenceIdeal.Hand.RC1 (after Cert.ReferenceIdeal.Hand.RB1 (after Cert.ReferenceIdeal.Hand.RA1r Z')) (Proc.devRef .tc Cert.ReferenceIdeal.main_arg7)); rw [(after_of_writes_sub Cert.ReferenceIdeal.Hand.RC1 (after Cert.ReferenceIdeal.Hand.RB1 (after Cert.ReferenceIdeal.Hand.RA1r Z')) Cert.ReferenceIdeal.Hand.RC1_writes (r := Cert.ReferenceIdeal.main_arg7) (by decide)), (after_of_writes_sub Cert.ReferenceIdeal.Hand.RB1 (after Cert.ReferenceIdeal.Hand.RA1r Z') Cert.ReferenceIdeal.Hand.RB1_writes (r := Cert.ReferenceIdeal.main_arg7) (by decide)), (after_of_writes_sub Cert.ReferenceIdeal.Hand.RA1r Z' Cert.ReferenceIdeal.Hand.RA1r_writes (r := Cert.ReferenceIdeal.main_arg7) (by decide))]; exact E.r7)
    r8 := (by show AllReal (after Cert.ReferenceIdeal.Hand.RC1 (after Cert.ReferenceIdeal.Hand.RB1 (after Cert.ReferenceIdeal.Hand.RA1r Z')) (Proc.devRef .tc Cert.ReferenceIdeal.main_arg8)); rw [(after_of_writes_sub Cert.ReferenceIdeal.Hand.RC1 (after Cert.ReferenceIdeal.Hand.RB1 (after Cert.ReferenceIdeal.Hand.RA1r Z')) Cert.ReferenceIdeal.Hand.RC1_writes (r := Cert.ReferenceIdeal.main_arg8) (by decide)), (after_of_writes_sub Cert.ReferenceIdeal.Hand.RB1 (after Cert.ReferenceIdeal.Hand.RA1r Z') Cert.ReferenceIdeal.Hand.RB1_writes (r := Cert.ReferenceIdeal.main_arg8) (by decide)), (after_of_writes_sub Cert.ReferenceIdeal.Hand.RA1r Z' Cert.ReferenceIdeal.Hand.RA1r_writes (r := Cert.ReferenceIdeal.main_arg8) (by decide))]; exact E.r8)
    r9 := (by show AllReal (after Cert.ReferenceIdeal.Hand.RC1 (after Cert.ReferenceIdeal.Hand.RB1 (after Cert.ReferenceIdeal.Hand.RA1r Z')) (Proc.devRef .tc Cert.ReferenceIdeal.main_arg9)); rw [(after_of_writes_sub Cert.ReferenceIdeal.Hand.RC1 (after Cert.ReferenceIdeal.Hand.RB1 (after Cert.ReferenceIdeal.Hand.RA1r Z')) Cert.ReferenceIdeal.Hand.RC1_writes (r := Cert.ReferenceIdeal.main_arg9) (by decide)), (after_of_writes_sub Cert.ReferenceIdeal.Hand.RB1 (after Cert.ReferenceIdeal.Hand.RA1r Z') Cert.ReferenceIdeal.Hand.RB1_writes (r := Cert.ReferenceIdeal.main_arg9) (by decide)), (after_of_writes_sub Cert.ReferenceIdeal.Hand.RA1r Z' Cert.ReferenceIdeal.Hand.RA1r_writes (r := Cert.ReferenceIdeal.main_arg9) (by decide))]; exact E.r9)
    r10 := (by show AllReal (after Cert.ReferenceIdeal.Hand.RC1 (after Cert.ReferenceIdeal.Hand.RB1 (after Cert.ReferenceIdeal.Hand.RA1r Z')) (Proc.devRef .tc Cert.ReferenceIdeal.main_arg10)); rw [(after_of_writes_sub Cert.ReferenceIdeal.Hand.RC1 (after Cert.ReferenceIdeal.Hand.RB1 (after Cert.ReferenceIdeal.Hand.RA1r Z')) Cert.ReferenceIdeal.Hand.RC1_writes (r := Cert.ReferenceIdeal.main_arg10) (by decide)), (after_of_writes_sub Cert.ReferenceIdeal.Hand.RB1 (after Cert.ReferenceIdeal.Hand.RA1r Z') Cert.ReferenceIdeal.Hand.RB1_writes (r := Cert.ReferenceIdeal.main_arg10) (by decide)), (after_of_writes_sub Cert.ReferenceIdeal.Hand.RA1r Z' Cert.ReferenceIdeal.Hand.RA1r_writes (r := Cert.ReferenceIdeal.main_arg10) (by decide))]; exact E.r10)
    r11 := (by show AllReal (after Cert.ReferenceIdeal.Hand.RC1 (after Cert.ReferenceIdeal.Hand.RB1 (after Cert.ReferenceIdeal.Hand.RA1r Z')) (Proc.devRef .tc Cert.ReferenceIdeal.main_arg11)); rw [(after_of_writes_sub Cert.ReferenceIdeal.Hand.RC1 (after Cert.ReferenceIdeal.Hand.RB1 (after Cert.ReferenceIdeal.Hand.RA1r Z')) Cert.ReferenceIdeal.Hand.RC1_writes (r := Cert.ReferenceIdeal.main_arg11) (by decide)), (after_of_writes_sub Cert.ReferenceIdeal.Hand.RB1 (after Cert.ReferenceIdeal.Hand.RA1r Z') Cert.ReferenceIdeal.Hand.RB1_writes (r := Cert.ReferenceIdeal.main_arg11) (by decide)), (after_of_writes_sub Cert.ReferenceIdeal.Hand.RA1r Z' Cert.ReferenceIdeal.Hand.RA1r_writes (r := Cert.ReferenceIdeal.main_arg11) (by decide))]; exact E.r11)
    r12 := (by show AllReal (after Cert.ReferenceIdeal.Hand.RC1 (after Cert.ReferenceIdeal.Hand.RB1 (after Cert.ReferenceIdeal.Hand.RA1r Z')) (Proc.devRef .tc Cert.ReferenceIdeal.main_arg12)); rw [(after_of_writes_sub Cert.ReferenceIdeal.Hand.RC1 (after Cert.ReferenceIdeal.Hand.RB1 (after Cert.ReferenceIdeal.Hand.RA1r Z')) Cert.ReferenceIdeal.Hand.RC1_writes (r := Cert.ReferenceIdeal.main_arg12) (by decide)), (after_of_writes_sub Cert.ReferenceIdeal.Hand.RB1 (after Cert.ReferenceIdeal.Hand.RA1r Z') Cert.ReferenceIdeal.Hand.RB1_writes (r := Cert.ReferenceIdeal.main_arg12) (by decide)), (after_of_writes_sub Cert.ReferenceIdeal.Hand.RA1r Z' Cert.ReferenceIdeal.Hand.RA1r_writes (r := Cert.ReferenceIdeal.main_arg12) (by decide))]; exact E.r12)
    r13 := (by show AllReal (after Cert.ReferenceIdeal.Hand.RC1 (after Cert.ReferenceIdeal.Hand.RB1 (after Cert.ReferenceIdeal.Hand.RA1r Z')) (Proc.devRef .tc Cert.ReferenceIdeal.main_arg13)); rw [(after_of_writes_sub Cert.ReferenceIdeal.Hand.RC1 (after Cert.ReferenceIdeal.Hand.RB1 (after Cert.ReferenceIdeal.Hand.RA1r Z')) Cert.ReferenceIdeal.Hand.RC1_writes (r := Cert.ReferenceIdeal.main_arg13) (by decide)), (after_of_writes_sub Cert.ReferenceIdeal.Hand.RB1 (after Cert.ReferenceIdeal.Hand.RA1r Z') Cert.ReferenceIdeal.Hand.RB1_writes (r := Cert.ReferenceIdeal.main_arg13) (by decide)), (after_of_writes_sub Cert.ReferenceIdeal.Hand.RA1r Z' Cert.ReferenceIdeal.Hand.RA1r_writes (r := Cert.ReferenceIdeal.main_arg13) (by decide))]; exact E.r13) }

end Cert.Proof.Core

end
-- ==== Proof.KI.Val3.lean ====
/-
  The first kernel of layer 2, from blocks to the array. The grid has 20 points. Point t reads rows 5000 t … 5000 t + 4999 of the
  aggregated features and of the node features, and, whole, the 128 × 128 weights and the 1 × 128 bias row; it writes back
  rows 5000 t … 5000 t + 4999 of the output. Entry (p, q) of the stored block is
      (∑ k, (agg (5000 t + p, k) + x (5000 t + p, k)) · w (k, q)) + b (0, q)
  (a change of number format is the identity on the extended reals), and the 20 blocks tile the 100000 rows: the output
  array ends holding the first stage P1 of the arrays as the region finds them.
-/
import proofs.«141748_j59863254171699_1_alg».proof.Proof.KI.Region3
import proofs.«141748_j59863254171699_1_alg».proof.Proof.LibLinearAt
import proofs.«141748_j59863254171699_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The zero offsets, as a function. -/
theorem val3_hz : (![0, 0] : Fin 2 → Nat) = fun _ => 0 := funext fun a => by fin_cases a <;> rfl

/-- Row p of block t is row 5000 t + p of the array. -/
def rowOf3 (t : Fin 20) (p : Fin 5000) : Fin 100000 := ⟨t.val * 5000 + p.val, by have := t.isLt; have := p.isLt; omega⟩

/-- Window 0's block at point t is rows 5000 t … 5000 t + 4999 of its array. -/
theorem val3_blk0 (c : Dev nD) (t : Fin cfg3.N) (p : Fin 5000) (q : Fin 128) :
    iblk3 V c 0 t (ix2 p q) = V c main_v73 (ix2 (rowOf3 t p) q) := by
  obtain ⟨e0, e1⟩ : win3_0.index t (0 : Fin 2) = t.val ∧ win3_0.index t (1 : Fin 2) = 0 :=
    (by decide +kernel : ∀ t : Fin grid3.N, win3_0.index t (0 : Fin 2) = t.val ∧ win3_0.index t (1 : Fin 2) = 0) t
  show V c main_v73 (((cfg3.win 0).blk t).view.emb (ix2 p q)) = _
  refine congrArg (V c main_v73) (funext fun a => Fin.ext ?_)
  match a with
  | ⟨0, _⟩ => show win3_0.index t (0 : Fin 2) * 5000 + 1 * p.val = t.val * 5000 + p.val; omega
  | ⟨1, _⟩ => show win3_0.index t (1 : Fin 2) * 128 + 1 * q.val = q.val; omega

/-- Window 1's block at point t is rows 5000 t … 5000 t + 4999 of its array. -/
theorem val3_blk1 (c : Dev nD) (t : Fin cfg3.N) (p : Fin 5000) (q : Fin 128) :
    iblk3 V c 1 t (ix2 p q) = V c main_v63 (ix2 (rowOf3 t p) q) := by
  obtain ⟨e0, e1⟩ : win3_1.index t (0 : Fin 2) = t.val ∧ win3_1.index t (1 : Fin 2) = 0 :=
    (by decide +kernel : ∀ t : Fin grid3.N, win3_1.index t (0 : Fin 2) = t.val ∧ win3_1.index t (1 : Fin 2) = 0) t
  show V c main_v63 (((cfg3.win 1).blk t).view.emb (ix2 p q)) = _
  refine congrArg (V c main_v63) (funext fun a => Fin.ext ?_)
  match a with
  | ⟨0, _⟩ => show win3_1.index t (0 : Fin 2) * 5000 + 1 * p.val = t.val * 5000 + p.val; omega
  | ⟨1, _⟩ => show win3_1.index t (1 : Fin 2) * 128 + 1 * q.val = q.val; omega

/-- Window 2's block is its one whole 128 × 128 matrix, whatever the point. -/
theorem val3_mat2 (c : Dev nD) (t : Fin cfg3.N) (k q : Fin 128) :
    iblk3 V c 2 t (ix2 k q) = V c main_v78 (ix2 k q) := by
  obtain ⟨e0, e1⟩ : win3_2.index t (0 : Fin 2) = 0 ∧ win3_2.index t (1 : Fin 2) = 0 :=
    (by decide +kernel : ∀ t : Fin grid3.N, win3_2.index t (0 : Fin 2) = 0 ∧ win3_2.index t (1 : Fin 2) = 0) t
  show V c main_v78 (((cfg3.win 2).blk t).view.emb (ix2 k q)) = _
  refine congrArg (V c main_v78) (funext fun a => Fin.ext ?_)
  match a with
  | ⟨0, _⟩ => show win3_2.index t (0 : Fin 2) * 128 + 1 * k.val = k.val; omega
  | ⟨1, _⟩ => show win3_2.index t (1 : Fin 2) * 128 + 1 * q.val = q.val; omega

/-- Window 3's block is its one whole row of per-feature numbers, whatever the point. -/
theorem val3_row3 (c : Dev nD) (t : Fin cfg3.N) (q : Fin 128) :
    iblk3 V c 3 t (ix2 0 q) = V c main_v76 (ix2 0 q) := by
  obtain ⟨e0, e1⟩ : win3_3.index t (0 : Fin 2) = 0 ∧ win3_3.index t (1 : Fin 2) = 0 :=
    (by decide +kernel : ∀ t : Fin grid3.N, win3_3.index t (0 : Fin 2) = 0 ∧ win3_3.index t (1 : Fin 2) = 0) t
  show V c main_v76 (((cfg3.win 3).blk t).view.emb (ix2 0 q)) = _
  refine congrArg (V c main_v76) (funext fun a => Fin.ext ?_)
  match a with
  | ⟨0, _⟩ => show win3_3.index t (0 : Fin 2) * 1 + 1 * 0 = 0; omega
  | ⟨1, _⟩ => show win3_3.index t (1 : Fin 2) * 128 + 1 * q.val = q.val; omega

/-- The output's block at point t sits at rows 5000 t … 5000 t + 4999. -/
theorem val3_emb (t : Fin cfg3.N) (p : Fin 5000) (q : Fin 128) :
    ((cfg3.win 4).blk t).view.emb (ix2 p q) = ix2 (rowOf3 t p) q := by
  obtain ⟨e0, e1⟩ : win3_4.index t (0 : Fin 2) = t.val ∧ win3_4.index t (1 : Fin 2) = 0 :=
    (by decide +kernel : ∀ t : Fin grid3.N, win3_4.index t (0 : Fin 2) = t.val ∧ win3_4.index t (1 : Fin 2) = 0) t
  refine funext fun a => Fin.ext ?_
  match a with
  | ⟨0, _⟩ => show win3_4.index t (0 : Fin 2) * 5000 + 1 * p.val = t.val * 5000 + p.val; omega
  | ⟨1, _⟩ => show win3_4.index t (1 : Fin 2) * 128 + 1 * q.val = q.val; omega

/-- The first kernel's arithmetic at an entry: the product of the summed block with the weights, accumulated from the zero
    array, plus the bias row repeated down the rows. -/
theorem pay3_apply (agg x : Vec Ideal S5000x128 .f32) (w : Vec Ideal S128x128 .bf16) (b : Vec Ideal S1x128 .f32) (p : Fin 5000) (q : Fin 128) :
    k3_pay1 (F := Ideal) agg x w b (ix2 p q)
      = (∑ k : Fin 128, (agg (ix2 p k) + x (ix2 p k)) * w (ix2 k q)) + b (ix2 0 q) := by
  unfold k3_pay1
  refine (Cert.LinearAt.matmul_bias_apply 5000 128 128 dot_S5000x128_S128x128_S5000x128_1_0_0_1_n_n rfl _ _ b _ _ p q).trans ?_
  simp only [shapeCast_self]
  rfl

/-- What point t writes back is block t of the first stage of the arrays as the region finds them. -/
theorem val3_flushed (c : Dev nD) (t : Fin cfg3.N) :
    (dat3 (F := Ideal) V c).flushed 4 t = ((cfg3.win 4).blk t).view.read (Elt Ideal)
      (Cert.Spec.P1 (V c main_v73) (V c main_v63) (V c main_v78) (V c main_v76)) := by
  show (cfg3.win 4).cut (grid3.coords t) ((dat3 (F := Ideal) V c).after 4 t) = _
  rw [after3_4]
  unfold out3_4
  rw [View.canon_unit_zero val3_hz]
  simp only [View.ld_unit_zero (S := S5000x128) val3_hz, View.ld_unit_zero (S := S128x128) val3_hz, View.ld_unit_zero (S := S1x128) val3_hz]
  funext j
  obtain ⟨p, q, rfl⟩ : ∃ (p : Fin 5000) (q : Fin 128), j = ix2 p q := ⟨j 0, j 1, eq_ix2 j⟩
  refine (pay3_apply _ _ _ _ p q).trans ?_
  simp only [val3_blk0, val3_blk1, val3_mat2, val3_row3]
  show _ = Cert.Spec.P1 (V c main_v73) (V c main_v63) (V c main_v78) (V c main_v76)
    (((cfg3.win 4).blk t).view.emb (ix2 p q))
  rw [val3_emb]
  rfl

/-- Every index of the array is in some point's block: row r is in block r / 5000. -/
theorem val3_cover (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  obtain ⟨t, ht⟩ : ∃ t : Fin cfg3.N, t.val = (i 0).val / 5000 := ⟨⟨(i 0).val / 5000, by show _ < 20; omega⟩, rfl⟩
  obtain ⟨e0, e1⟩ : win3_4.index t (0 : Fin 2) = t.val ∧ win3_4.index t (1 : Fin 2) = 0 :=
    (by decide +kernel : ∀ t : Fin grid3.N, win3_4.index t (0 : Fin 2) = t.val ∧ win3_4.index t (1 : Fin 2) = 0) t
  refine ⟨t, flush3_4 t, ?_⟩
  show i ∈ ((View.whole main_v79).slice (win3_4.rect t)).set
  rw [View.set_slice_whole, Rect.mem_set_unit]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The array after the region: the first stage of the arrays as the region finds them. -/
theorem final3 (c : Dev nD) : (dat3 (F := Ideal) V c).arrAt 4 cfg3.N
    = Cert.Spec.P1 (V c main_v73) (V c main_v63) (V c main_v78) (V c main_v76) :=
  (dat3 (F := Ideal) V c).arrAt_eq_of_cover 4 _ (fun t _ => val3_flushed V c t) (fun i => val3_cover i)

end Cert.KernelIdeal.Hand

end
-- ==== Proof.Core.StageA2.lean ====
/-
  The first stage of layer 2 in the two programs: from equal node features with real entries, equal edge lists, and equal
  (real) weights and bias, the kernel's output array is the reference's, and has real entries.

  Both programs aggregate the neighbours' features by the same gather and accumulating scatter from the zero array. The
  kernel's output array is the first stage of the specification at the arrays its region finds: the aggregate, the node
  features, the layer's slice of the converted weight stack (the conversion is the identity at the exact instance) and the
  layer's bias cast to a row. The reference's composition — the sum of the aggregate and the features, contracted with the
  layer's weight slice, plus the bias laid out as a row and repeated down the rows — is the same first stage.
-/
import proofs.«141748_j59863254171699_1_alg».proof.Proof.Core.Base
import proofs.«141748_j59863254171699_1_alg».proof.Proof.KI.Val3
import proofs.«141748_j59863254171699_1_alg».proof.Proof.RF.BridgeA
import proofs.«141748_j59863254171699_1_alg».proof.Proof.SpecReal
import proofs.«141748_j59863254171699_1_alg».proof.Proof.Gen.ReferenceIdeal

set_option maxRecDepth 65536
set_option maxHeartbeats 16000000

noncomputable section

namespace Cert.Proof.Core

open Idealize.ShloMosaic Idealize.ShloMosaic.TcCoe Idealize.SL.Sem Idealize.ShloMosaic.StableHlo Idealize.ShloMosaic.ValueIdx
open Cert.Lib Cert.ReferenceIdeal.Hand

local notation "bc1 " v:max => broadcastInDim Cert.ReferenceIdeal.S1x128 ![1] Cert.ReferenceIdeal.Gen.bcast_S128_S1x128_1 v
local notation "bc2 " r:max => broadcastInDim Cert.ReferenceIdeal.S100000x128 ![0, 1] Cert.ReferenceIdeal.Gen.bcast_S1x128_S100000x128_0_1 r

theorem stageA2 (Z : KD → KVal) (Z' : RVal) (c : KD)
    (hx : Z c (Cert.KernelIdeal.main_v63 : DevRef Cert.KernelIdeal.τ Cert.KernelIdeal.sig) = Z' (Cert.ReferenceIdeal.main_v100 : DevRef Cert.ReferenceIdeal.τ Cert.ReferenceIdeal.sig)) (rx : AllReal (Z' (Cert.ReferenceIdeal.main_v100 : DevRef Cert.ReferenceIdeal.τ Cert.ReferenceIdeal.sig)))
    (hs : Z c (Cert.KernelIdeal.main_v1 : DevRef Cert.KernelIdeal.τ Cert.KernelIdeal.sig) = Z' (Cert.ReferenceIdeal.main_v1 : DevRef Cert.ReferenceIdeal.τ Cert.ReferenceIdeal.sig))
    (hd : Z c (Cert.KernelIdeal.main_v3 : DevRef Cert.KernelIdeal.τ Cert.KernelIdeal.sig) = Z' (Cert.ReferenceIdeal.main_v3 : DevRef Cert.ReferenceIdeal.τ Cert.ReferenceIdeal.sig))
    (hw : Z c (Cert.KernelIdeal.main_v4 : DevRef Cert.KernelIdeal.τ Cert.KernelIdeal.sig) = Z' (Cert.ReferenceIdeal.main_arg4 : DevRef Cert.ReferenceIdeal.τ Cert.ReferenceIdeal.sig)) (rw4 : AllReal (Z' (Cert.ReferenceIdeal.main_arg4 : DevRef Cert.ReferenceIdeal.τ Cert.ReferenceIdeal.sig)))
    (hb : Z c (Cert.KernelIdeal.main_arg5 : DevRef Cert.KernelIdeal.τ Cert.KernelIdeal.sig) = Z' (Cert.ReferenceIdeal.main_arg5 : DevRef Cert.ReferenceIdeal.τ Cert.ReferenceIdeal.sig)) (rb : AllReal (Z' (Cert.ReferenceIdeal.main_arg5 : DevRef Cert.ReferenceIdeal.τ Cert.ReferenceIdeal.sig))) :
    Cert.KernelIdeal.Hand.L2A' Z c (Cert.KernelIdeal.main_v79 : DevRef Cert.KernelIdeal.τ Cert.KernelIdeal.sig) = after Cert.ReferenceIdeal.Hand.RA2 Z' (Cert.ReferenceIdeal.main_v119 : DevRef Cert.ReferenceIdeal.τ Cert.ReferenceIdeal.sig)
      ∧ AllReal (after Cert.ReferenceIdeal.Hand.RA2 Z' (Cert.ReferenceIdeal.main_v119 : DevRef Cert.ReferenceIdeal.τ Cert.ReferenceIdeal.sig)) := by
  -- the reference's names for what the stage reads
  let X : FVec Ideal Cert.ReferenceIdeal.S100000x128 .f32 := Z' (Cert.ReferenceIdeal.main_v100 : DevRef Cert.ReferenceIdeal.τ Cert.ReferenceIdeal.sig)
  let W : FVec Ideal Cert.ReferenceIdeal.S128x128 .f32 := shapeCast Cert.ReferenceIdeal.S128x128 (extractStridedSlice Cert.ReferenceIdeal.S1x128x128 ![1, 0, 0] (Z' (Cert.ReferenceIdeal.main_arg4 : DevRef Cert.ReferenceIdeal.τ Cert.ReferenceIdeal.sig)) Cert.ReferenceIdeal.Gen.slices_S3x128x128_S1x128x128_1_0_0) Cert.ReferenceIdeal.Gen.shapeCasts_S1x128x128_S128x128
  let B : FVec Ideal Cert.ReferenceIdeal.S128 .f32 := shapeCast Cert.ReferenceIdeal.S128 (extractStridedSlice Cert.ReferenceIdeal.S1x128 ![1, 0] (Z' (Cert.ReferenceIdeal.main_arg5 : DevRef Cert.ReferenceIdeal.τ Cert.ReferenceIdeal.sig)) Cert.ReferenceIdeal.Gen.slices_S3x128_S1x128_1_0) Cert.ReferenceIdeal.Gen.shapeCasts_S1x128_S128
  -- the reference's fold is its printed composition, the aggregate left as the fold's value at its buffer
  have hR : after Cert.ReferenceIdeal.Hand.RA2 Z' (Cert.ReferenceIdeal.main_v119 : DevRef Cert.ReferenceIdeal.τ Cert.ReferenceIdeal.sig)
      = addf (Host.dotGeneral Cert.ReferenceIdeal.dot_S100000x128_S128x128_S100000x128_1_0_0_1_n_n none
          (addf (after Cert.ReferenceIdeal.Hand.RA2 Z' (Cert.ReferenceIdeal.main_v110 : DevRef Cert.ReferenceIdeal.τ Cert.ReferenceIdeal.sig)) X) W) (bc2 (bc1 B)) := by
    dsimp only [Cert.ReferenceIdeal.Hand.RA2]
    after_results_simp
    rfl
  -- the aggregate has real entries: an accumulating scatter of gathered real entries into the zero array
  have rAgg : AllReal (after Cert.ReferenceIdeal.Hand.RA2 Z' (Cert.ReferenceIdeal.main_v110 : DevRef Cert.ReferenceIdeal.τ Cert.ReferenceIdeal.sig)) := by
    dsimp only [Cert.ReferenceIdeal.Hand.RA2]
    after_results_simp
    exact AllReal.hostScatterAdd' _ _ (AllReal.broadcastInDim (AllReal.constant Cert.Spec.zero_real) _ _) (AllReal.gather (φ := .f32) rx _ _)
  have rW : AllReal W := fun i => rw4 _
  have rB : AllReal (bc1 B) := fun i => rb _
  -- the kernel's output array in the reference's names
  have hK : Cert.KernelIdeal.Hand.L2A' Z c (Cert.KernelIdeal.main_v79 : DevRef Cert.KernelIdeal.τ Cert.KernelIdeal.sig)
      = Cert.Spec.P1 (after Cert.ReferenceIdeal.Hand.RA2 Z' (Cert.ReferenceIdeal.main_v110 : DevRef Cert.ReferenceIdeal.τ Cert.ReferenceIdeal.sig)) X W (bc1 B) := by
    unfold Cert.KernelIdeal.Hand.L2A' Cert.KernelIdeal.Hand.W3'
    rw [Function.update_self, Cert.KernelIdeal.Hand.final3]
    dsimp only [Cert.KernelIdeal.Hand.Vof, Cert.KernelIdeal.Hand.L2A, Cert.KernelIdeal.Gen.hostOps3, Cert.ReferenceIdeal.Hand.RA2]
    after_results_simp
    refine P1_congr ?_ hx ?_ ?_
    · rw [hx, hs, hd]; rfl
    · rw [hw]; rfl
    · rw [hb]
      exact row_cast _ Cert.KernelIdeal.Gen.shapeCasts_S128_S1x128 Cert.ReferenceIdeal.Gen.bcast_S128_S1x128_1
  have hfin : after Cert.ReferenceIdeal.Hand.RA2 Z' (Cert.ReferenceIdeal.main_v119 : DevRef Cert.ReferenceIdeal.τ Cert.ReferenceIdeal.sig)
      = Cert.Spec.P1 (after Cert.ReferenceIdeal.Hand.RA2 Z' (Cert.ReferenceIdeal.main_v110 : DevRef Cert.ReferenceIdeal.τ Cert.ReferenceIdeal.sig)) X W (bc1 B) :=
    hR.trans (bridgeA _ X W B)
  refine ⟨hK.trans hfin.symm, ?_⟩
  rw [hfin]
  exact Cert.Spec.P1_real rAgg rx rW rB

end Cert.Proof.Core

end
-- ==== Proof.KI.Val4.lean ====
/-
  The second kernel of layer 2, from blocks to the array. The grid has 20 points. Point t reads rows 5000 t … 5000 t + 4999 of the
  first stage and, whole, the four 1 × 128 rows of given statistics, scale and shift, the 128 × 128 weights and the 1 × 128
  bias row; it writes back rows 5000 t … 5000 t + 4999 of the output. Entry (p, q) of the stored block is
      (∑ k, ((h (5000 t + p, k) − mean k) · rsqrt (var k + ε) · g k + bt k) · w (k, q)) + b (0, q)
  (a change of number format is the identity on the extended reals), and the 20 blocks tile the 100000 rows: the output
  array ends holding the second stage P2 of the arrays as the region finds them.
-/
import proofs.«141748_j59863254171699_1_alg».proof.Proof.KI.Region4
import proofs.«141748_j59863254171699_1_alg».proof.Proof.LibLinearAt
import proofs.«141748_j59863254171699_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The zero offsets, as a function. -/
theorem val4_hz : (![0, 0] : Fin 2 → Nat) = fun _ => 0 := funext fun a => by fin_cases a <;> rfl

/-- Row p of block t is row 5000 t + p of the array. -/
def rowOf4 (t : Fin 20) (p : Fin 5000) : Fin 100000 := ⟨t.val * 5000 + p.val, by have := t.isLt; have := p.isLt; omega⟩

/-- Window 0's block at point t is rows 5000 t … 5000 t + 4999 of its array. -/
theorem val4_blk0 (c : Dev nD) (t : Fin cfg4.N) (p : Fin 5000) (q : Fin 128) :
    iblk4 V c 0 t (ix2 p q) = V c main_v79 (ix2 (rowOf4 t p) q) := by
  obtain ⟨e0, e1⟩ : win4_0.index t (0 : Fin 2) = t.val ∧ win4_0.index t (1 : Fin 2) = 0 :=
    (by decide +kernel : ∀ t : Fin grid4.N, win4_0.index t (0 : Fin 2) = t.val ∧ win4_0.index t (1 : Fin 2) = 0) t
  show V c main_v79 (((cfg4.win 0).blk t).view.emb (ix2 p q)) = _
  refine congrArg (V c main_v79) (funext fun a => Fin.ext ?_)
  match a with
  | ⟨0, _⟩ => show win4_0.index t (0 : Fin 2) * 5000 + 1 * p.val = t.val * 5000 + p.val; omega
  | ⟨1, _⟩ => show win4_0.index t (1 : Fin 2) * 128 + 1 * q.val = q.val; omega

/-- Window 1's block is its one whole row of per-feature numbers, whatever the point. -/
theorem val4_row1 (c : Dev nD) (t : Fin cfg4.N) (q : Fin 128) :
    iblk4 V c 1 t (ix2 0 q) = V c main_v83 (ix2 0 q) := by
  obtain ⟨e0, e1⟩ : win4_1.index t (0 : Fin 2) = 0 ∧ win4_1.index t (1 : Fin 2) = 0 :=
    (by decide +kernel : ∀ t : Fin grid4.N, win4_1.index t (0 : Fin 2) = 0 ∧ win4_1.index t (1 : Fin 2) = 0) t
  show V c main_v83 (((cfg4.win 1).blk t).view.emb (ix2 0 q)) = _
  refine congrArg (V c main_v83) (funext fun a => Fin.ext ?_)
  match a with
  | ⟨0, _⟩ => show win4_1.index t (0 : Fin 2) * 1 + 1 * 0 = 0; omega
  | ⟨1, _⟩ => show win4_1.index t (1 : Fin 2) * 128 + 1 * q.val = q.val; omega

/-- Window 2's block is its one whole row of per-feature numbers, whatever the point. -/
theorem val4_row2 (c : Dev nD) (t : Fin cfg4.N) (q : Fin 128) :
    iblk4 V c 2 t (ix2 0 q) = V c main_v85 (ix2 0 q) := by
  obtain ⟨e0, e1⟩ : win4_2.index t (0 : Fin 2) = 0 ∧ win4_2.index t (1 : Fin 2) = 0 :=
    (by decide +kernel : ∀ t : Fin grid4.N, win4_2.index t (0 : Fin 2) = 0 ∧ win4_2.index t (1 : Fin 2) = 0) t
  show V c main_v85 (((cfg4.win 2).blk t).view.emb (ix2 0 q)) = _
  refine congrArg (V c main_v85) (funext fun a => Fin.ext ?_)
  match a with
  | ⟨0, _⟩ => show win4_2.index t (0 : Fin 2) * 1 + 1 * 0 = 0; omega
  | ⟨1, _⟩ => show win4_2.index t (1 : Fin 2) * 128 + 1 * q.val = q.val; omega

/-- Window 3's block is its one whole row of per-feature numbers, whatever the point. -/
theorem val4_row3 (c : Dev nD) (t : Fin cfg4.N) (q : Fin 128) :
    iblk4 V c 3 t (ix2 0 q) = V c main_v88 (ix2 0 q) := by
  obtain ⟨e0, e1⟩ : win4_3.index t (0 : Fin 2) = 0 ∧ win4_3.index t (1 : Fin 2) = 0 :=
    (by decide +kernel : ∀ t : Fin grid4.N, win4_3.index t (0 : Fin 2) = 0 ∧ win4_3.index t (1 : Fin 2) = 0) t
  show V c main_v88 (((cfg4.win 3).blk t).view.emb (ix2 0 q)) = _
  refine congrArg (V c main_v88) (funext fun a => Fin.ext ?_)
  match a with
  | ⟨0, _⟩ => show win4_3.index t (0 : Fin 2) * 1 + 1 * 0 = 0; omega
  | ⟨1, _⟩ => show win4_3.index t (1 : Fin 2) * 128 + 1 * q.val = q.val; omega

/-- Window 4's block is its one whole row of per-feature numbers, whatever the point. -/
theorem val4_row4 (c : Dev nD) (t : Fin cfg4.N) (q : Fin 128) :
    iblk4 V c 4 t (ix2 0 q) = V c main_v91 (ix2 0 q) := by
  obtain ⟨e0, e1⟩ : win4_4.index t (0 : Fin 2) = 0 ∧ win4_4.index t (1 : Fin 2) = 0 :=
    (by decide +kernel : ∀ t : Fin grid4.N, win4_4.index t (0 : Fin 2) = 0 ∧ win4_4.index t (1 : Fin 2) = 0) t
  show V c main_v91 (((cfg4.win 4).blk t).view.emb (ix2 0 q)) = _
  refine congrArg (V c main_v91) (funext fun a => Fin.ext ?_)
  match a with
  | ⟨0, _⟩ => show win4_4.index t (0 : Fin 2) * 1 + 1 * 0 = 0; omega
  | ⟨1, _⟩ => show win4_4.index t (1 : Fin 2) * 128 + 1 * q.val = q.val; omega

/-- Window 5's block is its one whole 128 × 128 matrix, whatever the point. -/
theorem val4_mat5 (c : Dev nD) (t : Fin cfg4.N) (k q : Fin 128) :
    iblk4 V c 5 t (ix2 k q) = V c main_v96 (ix2 k q) := by
  obtain ⟨e0, e1⟩ : win4_5.index t (0 : Fin 2) = 0 ∧ win4_5.index t (1 : Fin 2) = 0 :=
    (by decide +kernel : ∀ t : Fin grid4.N, win4_5.index t (0 : Fin 2) = 0 ∧ win4_5.index t (1 : Fin 2) = 0) t
  show V c main_v96 (((cfg4.win 5).blk t).view.emb (ix2 k q)) = _
  refine congrArg (V c main_v96) (funext fun a => Fin.ext ?_)
  match a with
  | ⟨0, _⟩ => show win4_5.index t (0 : Fin 2) * 128 + 1 * k.val = k.val; omega
  | ⟨1, _⟩ => show win4_5.index t (1 : Fin 2) * 128 + 1 * q.val = q.val; omega

/-- Window 6's block is its one whole row of per-feature numbers, whatever the point. -/
theorem val4_row6 (c : Dev nD) (t : Fin cfg4.N) (q : Fin 128) :
    iblk4 V c 6 t (ix2 0 q) = V c main_v94 (ix2 0 q) := by
  obtain ⟨e0, e1⟩ : win4_6.index t (0 : Fin 2) = 0 ∧ win4_6.index t (1 : Fin 2) = 0 :=
    (by decide +kernel : ∀ t : Fin grid4.N, win4_6.index t (0 : Fin 2) = 0 ∧ win4_6.index t (1 : Fin 2) = 0) t
  show V c main_v94 (((cfg4.win 6).blk t).view.emb (ix2 0 q)) = _
  refine congrArg (V c main_v94) (funext fun a => Fin.ext ?_)
  match a with
  | ⟨0, _⟩ => show win4_6.index t (0 : Fin 2) * 1 + 1 * 0 = 0; omega
  | ⟨1, _⟩ => show win4_6.index t (1 : Fin 2) * 128 + 1 * q.val = q.val; omega

/-- The output's block at point t sits at rows 5000 t … 5000 t + 4999. -/
theorem val4_emb (t : Fin cfg4.N) (p : Fin 5000) (q : Fin 128) :
    ((cfg4.win 7).blk t).view.emb (ix2 p q) = ix2 (rowOf4 t p) q := by
  obtain ⟨e0, e1⟩ : win4_7.index t (0 : Fin 2) = t.val ∧ win4_7.index t (1 : Fin 2) = 0 :=
    (by decide +kernel : ∀ t : Fin grid4.N, win4_7.index t (0 : Fin 2) = t.val ∧ win4_7.index t (1 : Fin 2) = 0) t
  refine funext fun a => Fin.ext ?_
  match a with
  | ⟨0, _⟩ => show win4_7.index t (0 : Fin 2) * 5000 + 1 * p.val = t.val * 5000 + p.val; omega
  | ⟨1, _⟩ => show win4_7.index t (1 : Fin 2) * 128 + 1 * q.val = q.val; omega

/-- The second kernel's arithmetic at an entry: the block normalised per feature with the given statistics, scaled and
    shifted, then its product with the weights, accumulated from the zero array, plus the bias row repeated down the rows. -/
theorem pay4_apply (x : Vec Ideal S5000x128 .f32) (mean var g bt : Vec Ideal S1x128 .f32) (w : Vec Ideal S128x128 .bf16)
    (b : Vec Ideal S1x128 .f32) (p : Fin 5000) (q : Fin 128) :
    k4_pay1 (F := Ideal) x var mean g bt w b (ix2 p q)
      = (∑ k : Fin 128, Cert.Spec.norm1 (x (ix2 p k)) (mean (ix2 0 k)) (var (ix2 0 k)) (g (ix2 0 k)) (bt (ix2 0 k)) * w (ix2 k q))
          + b (ix2 0 q) := by
  unfold k4_pay1
  refine (Cert.LinearAt.matmul_bias_apply 5000 128 128 dot_S5000x128_S128x128_S5000x128_1_0_0_1_n_n rfl _ _ b _ _ p q).trans ?_
  simp only [shapeCast_self]
  simp only [truncf_apply, addf_apply, mulf_apply, subf_apply, broadcastTo_1b_ab_apply]
  rfl

/-- What point t writes back is block t of the second stage of the arrays as the region finds them. -/
theorem val4_flushed (c : Dev nD) (t : Fin cfg4.N) :
    (dat4 (F := Ideal) V c).flushed 7 t = ((cfg4.win 7).blk t).view.read (Elt Ideal)
      (Cert.Spec.P2 (V c main_v79) (V c main_v83) (V c main_v85) (V c main_v88) (V c main_v91) (V c main_v96) (V c main_v94)) := by
  show (cfg4.win 7).cut (grid4.coords t) ((dat4 (F := Ideal) V c).after 7 t) = _
  rw [after4_7]
  unfold out4_7
  rw [View.canon_unit_zero val4_hz]
  simp only [View.ld_unit_zero (S := S5000x128) val4_hz, View.ld_unit_zero (S := S128x128) val4_hz, View.ld_unit_zero (S := S1x128) val4_hz]
  funext j
  obtain ⟨p, q, rfl⟩ : ∃ (p : Fin 5000) (q : Fin 128), j = ix2 p q := ⟨j 0, j 1, eq_ix2 j⟩
  refine (pay4_apply _ _ _ _ _ _ _ p q).trans ?_
  simp only [val4_blk0, val4_row1, val4_row2, val4_row3, val4_row4, val4_mat5, val4_row6]
  show _ = Cert.Spec.P2 (V c main_v79) (V c main_v83) (V c main_v85) (V c main_v88) (V c main_v91) (V c main_v96) (V c main_v94)
    (((cfg4.win 7).blk t).view.emb (ix2 p q))
  rw [val4_emb]
  rfl

/-- Every index of the array is in some point's block: row r is in block r / 5000. -/
theorem val4_cover (i : S100000x128.Idx) :
    ∃ t : Fin cfg4.N, (cfg4.win 7).flush t = true ∧ i ∈ ((cfg4.win 7).blk t).view.set := by
  have hi0 : (i 0).val < 100000 := (i 0).isLt
  have hi1 : (i 1).val < 128 := (i 1).isLt
  obtain ⟨t, ht⟩ : ∃ t : Fin cfg4.N, t.val = (i 0).val / 5000 := ⟨⟨(i 0).val / 5000, by show _ < 20; omega⟩, rfl⟩
  obtain ⟨e0, e1⟩ : win4_7.index t (0 : Fin 2) = t.val ∧ win4_7.index t (1 : Fin 2) = 0 :=
    (by decide +kernel : ∀ t : Fin grid4.N, win4_7.index t (0 : Fin 2) = t.val ∧ win4_7.index t (1 : Fin 2) = 0) t
  refine ⟨t, flush4_7 t, ?_⟩
  show i ∈ ((View.whole main_v97).slice (win4_7.rect t)).set
  rw [View.set_slice_whole, Rect.mem_set_unit]
  intro a
  match a with
  | ⟨0, _⟩ => show win4_7.index t (0 : Fin 2) * 5000 ≤ (i 0).val ∧ (i 0).val < win4_7.index t (0 : Fin 2) * 5000 + 5000; omega
  | ⟨1, _⟩ => show win4_7.index t (1 : Fin 2) * 128 ≤ (i 1).val ∧ (i 1).val < win4_7.index t (1 : Fin 2) * 128 + 128; omega

/-- The array after the region: the second stage of the arrays as the region finds them. -/
theorem final4 (c : Dev nD) : (dat4 (F := Ideal) V c).arrAt 7 cfg4.N
    = Cert.Spec.P2 (V c main_v79) (V c main_v83) (V c main_v85) (V c main_v88) (V c main_v91) (V c main_v96) (V c main_v94) :=
  (dat4 (F := Ideal) V c).arrAt_eq_of_cover 7 _ (fun t _ => val4_flushed V c t) (fun i => val4_cover i)

end Cert.KernelIdeal.Hand

end
-- ==== Proof.Core.StageB2.lean ====
/-
  The second stage of layer 2 in the two programs: from equal first-stage arrays with real entries, equal (real) scale, shift
  and bias arguments and equal (real) weights, the kernel's output array is the reference's, and has real entries. Both
  programs take the column mean and the column variance of the first-stage array by the same operations; the kernel reads
  them, the scale, the shift and the bias as 1 × 128 rows (a 128-vector cast to a row is the vector laid along the second
  axis), and the second stage's formula on both sides is
      (∑ k, ((p (r, k) − mean k) · rsqrt (var k + ε) · g k + bt k) · w (k, j)) + b j.
-/
import proofs.«141748_j59863254171699_1_alg».proof.Proof.Core.Base
import proofs.«141748_j59863254171699_1_alg».proof.Proof.KI.Val4
import proofs.«141748_j59863254171699_1_alg».proof.Proof.RF.BridgeB
import proofs.«141748_j59863254171699_1_alg».proof.Proof.RF.StatsReal
import proofs.«141748_j59863254171699_1_alg».proof.Proof.SpecReal
import proofs.«141748_j59863254171699_1_alg».proof.Proof.Gen.ReferenceIdeal

set_option maxRecDepth 65536
set_option maxHeartbeats 16000000

noncomputable section

namespace Cert.Proof.Core

open Idealize.ShloMosaic Idealize.ShloMosaic.TcCoe Idealize.SL.Sem Idealize.ShloMosaic.StableHlo Idealize.ShloMosaic.ValueIdx
open Cert.Lib Cert.ReferenceIdeal.Hand

local notation "bc1 " v:max => broadcastInDim Cert.ReferenceIdeal.S1x128 ![1] Cert.ReferenceIdeal.Gen.bcast_S128_S1x128_1 v
local notation "bc2 " r:max => broadcastInDim Cert.ReferenceIdeal.S100000x128 ![0, 1] Cert.ReferenceIdeal.Gen.bcast_S1x128_S100000x128_0_1 r

theorem stageB2 (Z : KD → KVal) (Z' : RVal) (c : KD)
    (hp : Z c (Cert.KernelIdeal.main_v79 : DevRef _ _) = Z' (Cert.ReferenceIdeal.main_v119 : DevRef _ _)) (rp : AllReal (Z' (Cert.ReferenceIdeal.main_v119 : DevRef _ _)))
    (h6 : Z c (Cert.KernelIdeal.main_arg6 : DevRef _ _) = Z' (Cert.ReferenceIdeal.main_arg6 : DevRef _ _)) (r6 : AllReal (Z' (Cert.ReferenceIdeal.main_arg6 : DevRef _ _)))
    (h7 : Z c (Cert.KernelIdeal.main_arg7 : DevRef _ _) = Z' (Cert.ReferenceIdeal.main_arg7 : DevRef _ _)) (r7 : AllReal (Z' (Cert.ReferenceIdeal.main_arg7 : DevRef _ _)))
    (hw : Z c (Cert.KernelIdeal.main_v5 : DevRef _ _) = Z' (Cert.ReferenceIdeal.main_arg8 : DevRef _ _)) (rw8 : AllReal (Z' (Cert.ReferenceIdeal.main_arg8 : DevRef _ _)))
    (h9 : Z c (Cert.KernelIdeal.main_arg9 : DevRef _ _) = Z' (Cert.ReferenceIdeal.main_arg9 : DevRef _ _)) (r9 : AllReal (Z' (Cert.ReferenceIdeal.main_arg9 : DevRef _ _))) :
    Cert.KernelIdeal.Hand.W4' (fun c => after Cert.KernelIdeal.Gen.hostOps4_2 (after Cert.KernelIdeal.Gen.hostOps4_1 (after Cert.KernelIdeal.Gen.hostOps4 (Z c)))) c (Cert.KernelIdeal.main_v97 : DevRef _ _)
        = after Cert.ReferenceIdeal.Hand.RB2 Z' (Cert.ReferenceIdeal.main_v150 : DevRef _ _)
      ∧ AllReal (after Cert.ReferenceIdeal.Hand.RB2 Z' (Cert.ReferenceIdeal.main_v150 : DevRef _ _)) := by
  -- the reference's names for what the stage reads and computes
  let P : FVec Ideal Cert.ReferenceIdeal.S100000x128 .f32 := Z' (Proc.devRef .tc Cert.ReferenceIdeal.main_v119)
  let G : FVec Ideal Cert.ReferenceIdeal.S128 .f32 := (shapeCast Cert.ReferenceIdeal.S128 (extractStridedSlice Cert.ReferenceIdeal.S1x128 ![1, 0] (Z' (Proc.devRef .tc Cert.ReferenceIdeal.main_arg6)) Cert.ReferenceIdeal.Gen.slices_S3x128_S1x128_1_0) Cert.ReferenceIdeal.Gen.shapeCasts_S1x128_S128)
  let BT : FVec Ideal Cert.ReferenceIdeal.S128 .f32 := (shapeCast Cert.ReferenceIdeal.S128 (extractStridedSlice Cert.ReferenceIdeal.S1x128 ![1, 0] (Z' (Proc.devRef .tc Cert.ReferenceIdeal.main_arg7)) Cert.ReferenceIdeal.Gen.slices_S3x128_S1x128_1_0) Cert.ReferenceIdeal.Gen.shapeCasts_S1x128_S128)
  let B : FVec Ideal Cert.ReferenceIdeal.S128 .f32 := (shapeCast Cert.ReferenceIdeal.S128 (extractStridedSlice Cert.ReferenceIdeal.S1x128 ![1, 0] (Z' (Proc.devRef .tc Cert.ReferenceIdeal.main_arg9)) Cert.ReferenceIdeal.Gen.slices_S3x128_S1x128_1_0) Cert.ReferenceIdeal.Gen.shapeCasts_S1x128_S128)
  let Wt : FVec Ideal Cert.ReferenceIdeal.S128x128 .f32 := shapeCast Cert.ReferenceIdeal.S128x128 (extractStridedSlice Cert.ReferenceIdeal.S1x128x128 ![1, 0, 0] (Z' (Proc.devRef .tc Cert.ReferenceIdeal.main_arg8)) Cert.ReferenceIdeal.Gen.slices_S3x128x128_S1x128x128_1_0_0) Cert.ReferenceIdeal.Gen.shapeCasts_S1x128x128_S128x128
  let M := meanOf P
  let Vr := varOf P
  -- the reference's fold is its printed composition
  have hR : after Cert.ReferenceIdeal.Hand.RB2 Z' (Cert.ReferenceIdeal.main_v150 : DevRef _ _)
      = addf (Host.dotGeneral Cert.ReferenceIdeal.dot_S100000x128_S128x128_S100000x128_1_0_0_1_n_n none (bn P M Vr G BT) Wt) (bc2 (bc1 B)) := by
    dsimp only [Cert.ReferenceIdeal.Hand.RB2]
    after_results_simp
    rfl
  have hfin : after Cert.ReferenceIdeal.Hand.RB2 Z' (Cert.ReferenceIdeal.main_v150 : DevRef _ _)
      = Cert.Spec.P2 P (bc1 M) (bc1 Vr) (bc1 G) (bc1 BT) Wt (bc1 B) :=
    hR.trans (bridgeB P M Vr G BT B Wt)
  -- realness of everything in sight
  have rG : AllReal G := fun i => r6 _
  have rBT : AllReal BT := fun i => r7 _
  have rB : AllReal B := fun i => r9 _
  have rW : AllReal Wt := fun i => rw8 _
  have rM : AllReal M := meanOf_real rp
  have nV : ∀ j : Fin 128, ∃ x : ℝ, 0 ≤ x ∧ Vr (ix1 j) = (x : EReal) := varOf_nonneg rp
  have row_real : ∀ {v : FVec Ideal Cert.ReferenceIdeal.S128 .f32}, AllReal v → AllReal (bc1 v) := fun hv i => hv _
  have row_nn : ∀ {v : FVec Ideal Cert.ReferenceIdeal.S128 .f32}, (∀ j : Fin 128, ∃ x : ℝ, 0 ≤ x ∧ v (ix1 j) = (x : EReal)) → Cert.Spec.NonnegRow (bc1 v) :=
    fun hv k => by obtain ⟨x, hx, e⟩ := hv k; exact ⟨x, hx, (bc1_apply _ 0 k).trans e⟩
  -- the kernel's output array, row by row in the reference's names
  have hK : Cert.KernelIdeal.Hand.W4' (fun c => after Cert.KernelIdeal.Gen.hostOps4_2 (after Cert.KernelIdeal.Gen.hostOps4_1 (after Cert.KernelIdeal.Gen.hostOps4 (Z c)))) c (Cert.KernelIdeal.main_v97 : DevRef _ _)
      = Cert.Spec.P2 P (bc1 M) (bc1 Vr) (bc1 G) (bc1 BT) Wt (bc1 B) := by
    unfold Cert.KernelIdeal.Hand.W4'
    rw [Function.update_self, Cert.KernelIdeal.Hand.final4]
    dsimp only [Cert.KernelIdeal.Hand.Vof, Cert.KernelIdeal.Gen.hostOps4, Cert.KernelIdeal.Gen.hostOps4_1, Cert.KernelIdeal.Gen.hostOps4_2]
    after_results_simp
    rw [hp, h6, h7, hw, h9]
    refine P2_congr rfl ?_ ?_ ?_ ?_ ?_ ?_
    · exact (row_cast _ Cert.KernelIdeal.Gen.shapeCasts_S128_S1x128 Cert.ReferenceIdeal.Gen.bcast_S128_S1x128_1).trans rfl
    · exact (row_cast _ Cert.KernelIdeal.Gen.shapeCasts_S128_S1x128 Cert.ReferenceIdeal.Gen.bcast_S128_S1x128_1).trans rfl
    · exact (row_cast _ Cert.KernelIdeal.Gen.shapeCasts_S128_S1x128 Cert.ReferenceIdeal.Gen.bcast_S128_S1x128_1).trans rfl
    · exact (row_cast _ Cert.KernelIdeal.Gen.shapeCasts_S128_S1x128 Cert.ReferenceIdeal.Gen.bcast_S128_S1x128_1).trans rfl
    · rfl
    · exact (row_cast _ Cert.KernelIdeal.Gen.shapeCasts_S128_S1x128 Cert.ReferenceIdeal.Gen.bcast_S128_S1x128_1).trans rfl
  refine ⟨hK.trans hfin.symm, ?_⟩
  rw [hfin]
  exact Cert.Spec.P2_real rp (row_real rM) (row_nn nV) (row_real rG) (row_real rBT) rW (row_real rB)

end Cert.Proof.Core

end
-- ==== Proof.KI.Val5.lean ====
/-
  The third kernel of layer 2, from blocks to the array. The grid has 20 points. Point t reads rows 5000 t … 5000 t + 4999 of the
  node features and, whole, each 1 × 128 row of per-feature numbers; it writes back rows 5000 t … 5000 t + 4999 of the output.
  Entry (p, q) of the stored block is the third stage's formula at row 5000 t + p and feature q (two normalisations with the
  given statistics, then the maximum with zero), and the 20 blocks tile the 100000 rows: the output array ends holding the
  third stage X3 of the arrays as the region finds them.
-/
import proofs.«141748_j59863254171699_1_alg».proof.Proof.KI.Region5
import proofs.«141748_j59863254171699_1_alg».proof.Proof.KI.PayC
import proofs.«141748_j59863254171699_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The zero offsets, as a function. -/
theorem val5_hz : (![0, 0] : Fin 2 → Nat) = fun _ => 0 := funext fun a => by fin_cases a <;> rfl

/-- Row p of block t is row 5000 t + p of the array. -/
def rowOf5 (t : Fin 20) (p : Fin 5000) : Fin 100000 := ⟨t.val * 5000 + p.val, by have := t.isLt; have := p.isLt; omega⟩

/-- Window 0's block at point t is rows 5000 t … 5000 t + 4999 of its array. -/
theorem val5_blk0 (c : Dev nD) (t : Fin cfg5.N) (p : Fin 5000) (q : Fin 128) :
    iblk5 V c 0 t (ix2 p q) = V c main_v97 (ix2 (rowOf5 t p) q) := by
  obtain ⟨e0, e1⟩ : win5_0.index t (0 : Fin 2) = t.val ∧ win5_0.index t (1 : Fin 2) = 0 :=
    (by decide +kernel : ∀ t : Fin grid5.N, win5_0.index t (0 : Fin 2) = t.val ∧ win5_0.index t (1 : Fin 2) = 0) t
  show V c main_v97 (((cfg5.win 0).blk t).view.emb (ix2 p q)) = _
  refine congrArg (V c main_v97) (funext fun a => Fin.ext ?_)
  match a with
  | ⟨0, _⟩ => show win5_0.index t (0 : Fin 2) * 5000 + 1 * p.val = t.val * 5000 + p.val; omega
  | ⟨1, _⟩ => show win5_0.index t (1 : Fin 2) * 128 + 1 * q.val = q.val; omega

/-- Window 1's block is its one whole row of per-feature numbers, whatever the point. -/
theorem val5_row1 (c : Dev nD) (t : Fin cfg5.N) (q : Fin 128) :
    iblk5 V c 1 t (ix2 0 q) = V c main_v101 (ix2 0 q) := by
  obtain ⟨e0, e1⟩ : win5_1.index t (0 : Fin 2) = 0 ∧ win5_1.index t (1 : Fin 2) = 0 :=
    (by decide +kernel : ∀ t : Fin grid5.N, win5_1.index t (0 : Fin 2) = 0 ∧ win5_1.index t (1 : Fin 2) = 0) t
  show V c main_v101 (((cfg5.win 1).blk t).view.emb (ix2 0 q)) = _
  refine congrArg (V c main_v101) (funext fun a => Fin.ext ?_)
  match a with
  | ⟨0, _⟩ => show win5_1.index t (0 : Fin 2) * 1 + 1 * 0 = 0; omega
  | ⟨1, _⟩ => show win5_1.index t (1 : Fin 2) * 128 + 1 * q.val = q.val; omega

/-- Window 2's block is its one whole row of per-feature numbers, whatever the point. -/
theorem val5_row2 (c : Dev nD) (t : Fin cfg5.N) (q : Fin 128) :
    iblk5 V c 2 t (ix2 0 q) = V c main_v103 (ix2 0 q) := by
  obtain ⟨e0, e1⟩ : win5_2.index t (0 : Fin 2) = 0 ∧ win5_2.index t (1 : Fin 2) = 0 :=
    (by decide +kernel : ∀ t : Fin grid5.N, win5_2.index t (0 : Fin 2) = 0 ∧ win5_2.index t (1 : Fin 2) = 0) t
  show V c main_v103 (((cfg5.win 2).blk t).view.emb (ix2 0 q)) = _
  refine congrArg (V c main_v103) (funext fun a => Fin.ext ?_)
  match a with
  | ⟨0, _⟩ => show win5_2.index t (0 : Fin 2) * 1 + 1 * 0 = 0; omega
  | ⟨1, _⟩ => show win5_2.index t (1 : Fin 2) * 128 + 1 * q.val = q.val; omega

/-- Window 3's block is its one whole row of per-feature numbers, whatever the point. -/
theorem val5_row3 (c : Dev nD) (t : Fin cfg5.N) (q : Fin 128) :
    iblk5 V c 3 t (ix2 0 q) = V c main_v106 (ix2 0 q) := by
  obtain ⟨e0, e1⟩ : win5_3.index t (0 : Fin 2) = 0 ∧ win5_3.index t (1 : Fin 2) = 0 :=
    (by decide +kernel : ∀ t : Fin grid5.N, win5_3.index t (0 : Fin 2) = 0 ∧ win5_3.index t (1 : Fin 2) = 0) t
  show V c main_v106 (((cfg5.win 3).blk t).view.emb (ix2 0 q)) = _
  refine congrArg (V c main_v106) (funext fun a => Fin.ext ?_)
  match a with
  | ⟨0, _⟩ => show win5_3.index t (0 : Fin 2) * 1 + 1 * 0 = 0; omega
  | ⟨1, _⟩ => show win5_3.index t (1 : Fin 2) * 128 + 1 * q.val = q.val; omega

/-- Window 4's block is its one whole row of per-feature numbers, whatever the point. -/
theorem val5_row4 (c : Dev nD) (t : Fin cfg5.N) (q : Fin 128) :
    iblk5 V c 4 t (ix2 0 q) = V c main_v109 (ix2 0 q) := by
  obtain ⟨e0, e1⟩ : win5_4.index t (0 : Fin 2) = 0 ∧ win5_4.index t (1 : Fin 2) = 0 :=
    (by decide +kernel : ∀ t : Fin grid5.N, win5_4.index t (0 : Fin 2) = 0 ∧ win5_4.index t (1 : Fin 2) = 0) t
  show V c main_v109 (((cfg5.win 4).blk t).view.emb (ix2 0 q)) = _
  refine congrArg (V c main_v109) (funext fun a => Fin.ext ?_)
  match a with
  | ⟨0, _⟩ => show win5_4.index t (0 : Fin 2) * 1 + 1 * 0 = 0; omega
  | ⟨1, _⟩ => show win5_4.index t (1 : Fin 2) * 128 + 1 * q.val = q.val; omega

/-- Window 5's block is its one whole row of per-feature numbers, whatever the point. -/
theorem val5_row5 (c : Dev nD) (t : Fin cfg5.N) (q : Fin 128) :
    iblk5 V c 5 t (ix2 0 q) = V c main_v109 (ix2 0 q) := by
  obtain ⟨e0, e1⟩ : win5_5.index t (0 : Fin 2) = 0 ∧ win5_5.index t (1 : Fin 2) = 0 :=
    (by decide +kernel : ∀ t : Fin grid5.N, win5_5.index t (0 : Fin 2) = 0 ∧ win5_5.index t (1 : Fin 2) = 0) t
  show V c main_v109 (((cfg5.win 5).blk t).view.emb (ix2 0 q)) = _
  refine congrArg (V c main_v109) (funext fun a => Fin.ext ?_)
  match a with
  | ⟨0, _⟩ => show win5_5.index t (0 : Fin 2) * 1 + 1 * 0 = 0; omega
  | ⟨1, _⟩ => show win5_5.index t (1 : Fin 2) * 128 + 1 * q.val = q.val; omega

/-- Window 6's block is its one whole row of per-feature numbers, whatever the point. -/
theorem val5_row6 (c : Dev nD) (t : Fin cfg5.N) (q : Fin 128) :
    iblk5 V c 6 t (ix2 0 q) = V c main_v120 (ix2 0 q) := by
  obtain ⟨e0, e1⟩ : win5_6.index t (0 : Fin 2) = 0 ∧ win5_6.index t (1 : Fin 2) = 0 :=
    (by decide +kernel : ∀ t : Fin grid5.N, win5_6.index t (0 : Fin 2) = 0 ∧ win5_6.index t (1 : Fin 2) = 0) t
  show V c main_v120 (((cfg5.win 6).blk t).view.emb (ix2 0 q)) = _
  refine congrArg (V c main_v120) (funext fun a => Fin.ext ?_)
  match a with
  | ⟨0, _⟩ => show win5_6.index t (0 : Fin 2) * 1 + 1 * 0 = 0; omega
  | ⟨1, _⟩ => show win5_6.index t (1 : Fin 2) * 128 + 1 * q.val = q.val; omega

/-- Window 7's block is its one whole row of per-feature numbers, whatever the point. -/
theorem val5_row7 (c : Dev nD) (t : Fin cfg5.N) (q : Fin 128) :
    iblk5 V c 7 t (ix2 0 q) = V c main_v112 (ix2 0 q) := by
  obtain ⟨e0, e1⟩ : win5_7.index t (0 : Fin 2) = 0 ∧ win5_7.index t (1 : Fin 2) = 0 :=
    (by decide +kernel : ∀ t : Fin grid5.N, win5_7.index t (0 : Fin 2) = 0 ∧ win5_7.index t (1 : Fin 2) = 0) t
  show V c main_v112 (((cfg5.win 7).blk t).view.emb (ix2 0 q)) = _
  refine congrArg (V c main_v112) (funext fun a => Fin.ext ?_)
  match a with
  | ⟨0, _⟩ => show win5_7.index t (0 : Fin 2) * 1 + 1 * 0 = 0; omega
  | ⟨1, _⟩ => show win5_7.index t (1 : Fin 2) * 128 + 1 * q.val = q.val; omega

/-- Window 8's block is its one whole row of per-feature numbers, whatever the point. -/
theorem val5_row8 (c : Dev nD) (t : Fin cfg5.N) (q : Fin 128) :
    iblk5 V c 8 t (ix2 0 q) = V c main_v115 (ix2 0 q) := by
  obtain ⟨e0, e1⟩ : win5_8.index t (0 : Fin 2) = 0 ∧ win5_8.index t (1 : Fin 2) = 0 :=
    (by decide +kernel : ∀ t : Fin grid5.N, win5_8.index t (0 : Fin 2) = 0 ∧ win5_8.index t (1 : Fin 2) = 0) t
  show V c main_v115 (((cfg5.win 8).blk t).view.emb (ix2 0 q)) = _
  refine congrArg (V c main_v115) (funext fun a => Fin.ext ?_)
  match a with
  | ⟨0, _⟩ => show win5_8.index t (0 : Fin 2) * 1 + 1 * 0 = 0; omega
  | ⟨1, _⟩ => show win5_8.index t (1 : Fin 2) * 128 + 1 * q.val = q.val; omega

/-- The output's block at point t sits at rows 5000 t … 5000 t + 4999. -/
theorem val5_emb (t : Fin cfg5.N) (p : Fin 5000) (q : Fin 128) :
    ((cfg5.win 9).blk t).view.emb (ix2 p q) = ix2 (rowOf5 t p) q := by
  obtain ⟨e0, e1⟩ : win5_9.index t (0 : Fin 2) = t.val ∧ win5_9.index t (1 : Fin 2) = 0 :=
    (by decide +kernel : ∀ t : Fin grid5.N, win5_9.index t (0 : Fin 2) = t.val ∧ win5_9.index t (1 : Fin 2) = 0) t
  refine funext fun a => Fin.ext ?_
  match a with
  | ⟨0, _⟩ => show win5_9.index t (0 : Fin 2) * 5000 + 1 * p.val = t.val * 5000 + p.val; omega
  | ⟨1, _⟩ => show win5_9.index t (1 : Fin 2) * 128 + 1 * q.val = q.val; omega

/-- The third kernel's arithmetic at an entry: two normalisations with the given statistics, then the maximum with zero,
    every operation the exact one. -/
theorem pay5_apply (x : Vec Ideal S5000x128 .f32) (m2 v2 g2 b2 m3 v3 og ob : Vec Ideal S1x128 .f32) (r : Fin 5000) (j : Fin 128) :
    k5_pay1 (F := Ideal) (k5_pay2 x v2 m2 g2 b2 v3 m3 og) (k5_pay3 ob) (ix2 r j)
      = max ((((x (ix2 r j) - m2 (ix2 0 j)) * Ideal.rsqrt (v2 (ix2 0 j) + eps) * g2 (ix2 0 j) + b2 (ix2 0 j)) - m3 (ix2 0 j))
              * Ideal.rsqrt (v3 (ix2 0 j) + eps) * og (ix2 0 j) + ob (ix2 0 j))
          (Ideal.ofBits .f32 0x00000000#32) := by
  unfold k5_pay1 k5_pay2 k5_pay3
  simp only [shapeCast_self]
  simp only [maximumf, addf, subf, mulf, rsqrt, broadcastTo_1b_ab_apply]
  rfl

/-- What point t writes back is block t of the third stage of the arrays as the region finds them. -/
theorem val5_flushed (c : Dev nD) (t : Fin cfg5.N) :
    (dat5 (F := Ideal) V c).flushed 9 t = ((cfg5.win 9).blk t).view.read (Elt Ideal)
      (Cert.Spec.X3 (V c main_v97) (V c main_v101) (V c main_v103) (V c main_v106) (V c main_v109) (V c main_v109) (V c main_v120) (V c main_v112) (V c main_v115)) := by
  show (cfg5.win 9).cut (grid5.coords t) ((dat5 (F := Ideal) V c).after 9 t) = _
  rw [after5_9]
  unfold out5_9
  rw [View.canon_unit_zero val5_hz]
  simp only [View.ld_unit_zero (S := S5000x128) val5_hz, View.ld_unit_zero (S := S1x128) val5_hz]
  funext j
  obtain ⟨p, q, rfl⟩ : ∃ (p : Fin 5000) (q : Fin 128), j = ix2 p q := ⟨j 0, j 1, eq_ix2 j⟩
  refine (pay5_apply _ _ _ _ _ _ _ _ _ p q).trans ?_
  rw [val5_blk0, val5_row1, val5_row2, val5_row3, val5_row4, val5_row5, val5_row6, val5_row7, val5_row8]
  show _ = Cert.Spec.X3 (V c main_v97) (V c main_v101) (V c main_v103) (V c main_v106) (V c main_v109) (V c main_v109) (V c main_v120) (V c main_v112) (V c main_v115)
    (((cfg5.win 9).blk t).view.emb (ix2 p q))
  rw [val5_emb]
  rfl

/-- Every index of the array is in some point's block: row r is in block r / 5000. -/
theorem val5_cover (i : S100000x128.Idx) :
    ∃ t : Fin cfg5.N, (cfg5.win 9).flush t = true ∧ i ∈ ((cfg5.win 9).blk t).view.set := by
  have hi0 : (i 0).val < 100000 := (i 0).isLt
  have hi1 : (i 1).val < 128 := (i 1).isLt
  obtain ⟨t, ht⟩ : ∃ t : Fin cfg5.N, t.val = (i 0).val / 5000 := ⟨⟨(i 0).val / 5000, by show _ < 20; omega⟩, rfl⟩
  obtain ⟨e0, e1⟩ : win5_9.index t (0 : Fin 2) = t.val ∧ win5_9.index t (1 : Fin 2) = 0 :=
    (by decide +kernel : ∀ t : Fin grid5.N, win5_9.index t (0 : Fin 2) = t.val ∧ win5_9.index t (1 : Fin 2) = 0) t
  refine ⟨t, flush5_9 t, ?_⟩
  show i ∈ ((View.whole main_v121).slice (win5_9.rect t)).set
  rw [View.set_slice_whole, Rect.mem_set_unit]
  intro a
  match a with
  | ⟨0, _⟩ => show win5_9.index t (0 : Fin 2) * 5000 ≤ (i 0).val ∧ (i 0).val < win5_9.index t (0 : Fin 2) * 5000 + 5000; omega
  | ⟨1, _⟩ => show win5_9.index t (1 : Fin 2) * 128 ≤ (i 1).val ∧ (i 1).val < win5_9.index t (1 : Fin 2) * 128 + 128; omega

/-- The array after the region: the third stage of the arrays as the region finds them. -/
theorem final5 (c : Dev nD) : (dat5 (F := Ideal) V c).arrAt 9 cfg5.N
    = Cert.Spec.X3 (V c main_v97) (V c main_v101) (V c main_v103) (V c main_v106) (V c main_v109) (V c main_v109) (V c main_v120) (V c main_v112) (V c main_v115) :=
  (dat5 (F := Ideal) V c).arrAt_eq_of_cover 9 _ (fun t _ => val5_flushed V c t) (fun i => val5_cover i)

end Cert.KernelIdeal.Hand

end
-- ==== Proof.Core.StageC2.lean ====
/-
  The third stage of layer 2 in the two programs: from equal second-stage arrays with real entries and equal (real) scale and
  shift arguments, the kernel's output array (closed-form statistics of the normalised array) is the reference's (statistics
  computed from the normalised array), and has real entries.
-/
import proofs.«141748_j59863254171699_1_alg».proof.Proof.Core.Base
import proofs.«141748_j59863254171699_1_alg».proof.Proof.KI.Val5
import proofs.«141748_j59863254171699_1_alg».proof.Proof.RF.BridgeC
import proofs.«141748_j59863254171699_1_alg».proof.Proof.RF.StatsReal
import proofs.«141748_j59863254171699_1_alg».proof.Proof.SpecLaw
import proofs.«141748_j59863254171699_1_alg».proof.Proof.SpecReal
import proofs.«141748_j59863254171699_1_alg».proof.Proof.Gen.ReferenceIdeal

set_option maxRecDepth 65536
set_option maxHeartbeats 16000000

noncomputable section

namespace Cert.Proof.Core

open Idealize.ShloMosaic Idealize.ShloMosaic.TcCoe Idealize.SL.Sem Idealize.ShloMosaic.StableHlo Idealize.ShloMosaic.ValueIdx
open Cert.Lib Cert.ReferenceIdeal.Hand

local notation "bc1 " v:max => broadcastInDim Cert.ReferenceIdeal.S1x128 ![1] Cert.ReferenceIdeal.Gen.bcast_S128_S1x128_1 v

theorem stageC2 (Z : KD → KVal) (Z' : RVal) (c : KD)
    (hp : Z c (Cert.KernelIdeal.main_v97 : DevRef _ _) = Z' (Cert.ReferenceIdeal.main_v150 : DevRef _ _)) (hpR : AllReal (Z' (Cert.ReferenceIdeal.main_v150 : DevRef _ _)))
    (h10 : Z c (Cert.KernelIdeal.main_arg10 : DevRef _ _) = Z' (Cert.ReferenceIdeal.main_arg10 : DevRef _ _)) (r10 : AllReal (Z' (Cert.ReferenceIdeal.main_arg10 : DevRef _ _)))
    (h11 : Z c (Cert.KernelIdeal.main_arg11 : DevRef _ _) = Z' (Cert.ReferenceIdeal.main_arg11 : DevRef _ _)) (r11 : AllReal (Z' (Cert.ReferenceIdeal.main_arg11 : DevRef _ _)))
    (h12 : Z c (Cert.KernelIdeal.main_arg12 : DevRef _ _) = Z' (Cert.ReferenceIdeal.main_arg12 : DevRef _ _)) (r12 : AllReal (Z' (Cert.ReferenceIdeal.main_arg12 : DevRef _ _)))
    (h13 : Z c (Cert.KernelIdeal.main_arg13 : DevRef _ _) = Z' (Cert.ReferenceIdeal.main_arg13 : DevRef _ _)) (r13 : AllReal (Z' (Cert.ReferenceIdeal.main_arg13 : DevRef _ _))) :
    Cert.KernelIdeal.Hand.W5' (fun c => after Cert.KernelIdeal.Gen.hostOps5_2 (after Cert.KernelIdeal.Gen.hostOps5_1 (after Cert.KernelIdeal.Gen.hostOps5 (Z c)))) c (Cert.KernelIdeal.main_v121 : DevRef _ _)
        = after Cert.ReferenceIdeal.Hand.RC2 Z' (Cert.ReferenceIdeal.main_v197 : DevRef _ _)
      ∧ AllReal (after Cert.ReferenceIdeal.Hand.RC2 Z' (Cert.ReferenceIdeal.main_v197 : DevRef _ _)) := by
  -- the reference's names for what the stage reads and computes
  let P : FVec Ideal Cert.ReferenceIdeal.S100000x128 .f32 := Z' (Proc.devRef .tc Cert.ReferenceIdeal.main_v150)
  let G2 : FVec Ideal Cert.ReferenceIdeal.S128 .f32 := (shapeCast Cert.ReferenceIdeal.S128 (extractStridedSlice Cert.ReferenceIdeal.S1x128 ![1, 0] (Z' (Proc.devRef .tc Cert.ReferenceIdeal.main_arg10)) Cert.ReferenceIdeal.Gen.slices_S3x128_S1x128_1_0) Cert.ReferenceIdeal.Gen.shapeCasts_S1x128_S128)
  let BT2 : FVec Ideal Cert.ReferenceIdeal.S128 .f32 := (shapeCast Cert.ReferenceIdeal.S128 (extractStridedSlice Cert.ReferenceIdeal.S1x128 ![1, 0] (Z' (Proc.devRef .tc Cert.ReferenceIdeal.main_arg11)) Cert.ReferenceIdeal.Gen.slices_S3x128_S1x128_1_0) Cert.ReferenceIdeal.Gen.shapeCasts_S1x128_S128)
  let OG : FVec Ideal Cert.ReferenceIdeal.S128 .f32 := (shapeCast Cert.ReferenceIdeal.S128 (extractStridedSlice Cert.ReferenceIdeal.S1x128 ![1, 0] (Z' (Proc.devRef .tc Cert.ReferenceIdeal.main_arg12)) Cert.ReferenceIdeal.Gen.slices_S3x128_S1x128_1_0) Cert.ReferenceIdeal.Gen.shapeCasts_S1x128_S128)
  let OB : FVec Ideal Cert.ReferenceIdeal.S128 .f32 := (shapeCast Cert.ReferenceIdeal.S128 (extractStridedSlice Cert.ReferenceIdeal.S1x128 ![1, 0] (Z' (Proc.devRef .tc Cert.ReferenceIdeal.main_arg13)) Cert.ReferenceIdeal.Gen.slices_S3x128_S1x128_1_0) Cert.ReferenceIdeal.Gen.shapeCasts_S1x128_S128)
  let M2 := meanOf P
  let V2 := varOf P
  let H := bn P M2 V2 G2 BT2
  let M3 := meanOf H
  let V3 := varOf H
  let E : FVec Ideal Cert.KernelIdeal.S1x128 .f32 := broadcastInDim Cert.KernelIdeal.S1x128 ![] Cert.KernelIdeal.Gen.bcast_S_S1x128 (constant Cert.KernelIdeal.S_ .f32 0x3727C5AC#32)
  let V3K : Cert.Spec.Row := Host.divf (mulf (mulf (bc1 G2) (bc1 G2)) (bc1 V2)) (addf (bc1 V2) E)
  -- the reference's fold is its printed composition
  have hR : after Cert.ReferenceIdeal.Hand.RC2 Z' (Cert.ReferenceIdeal.main_v197 : DevRef _ _)
      = maximumf (bn H M3 V3 OG OB) (broadcastInDim Cert.ReferenceIdeal.S100000x128 ![] Cert.ReferenceIdeal.Gen.bcast_S_S100000x128 (constant (F := Ideal) Cert.ReferenceIdeal.S_ .f32 0x00000000#32)) := by
    dsimp only [Cert.ReferenceIdeal.Hand.RC2]
    after_results_simp
    rfl
  -- realness of everything in sight
  have rG2 : AllReal G2 := fun i => r10 _
  have rBT2 : AllReal BT2 := fun i => r11 _
  have rOG : AllReal OG := fun i => r12 _
  have rOB : AllReal OB := fun i => r13 _
  have rM2 : AllReal M2 := meanOf_real hpR
  have nV2 : ∀ j : Fin 128, ∃ x : ℝ, 0 ≤ x ∧ V2 (ix1 j) = (x : EReal) := varOf_nonneg hpR
  have row_real : ∀ {v : FVec Ideal Cert.ReferenceIdeal.S128 .f32}, AllReal v → AllReal (bc1 v) := fun hv i => hv _
  have row_nn : ∀ {v : FVec Ideal Cert.ReferenceIdeal.S128 .f32}, (∀ j : Fin 128, ∃ x : ℝ, 0 ≤ x ∧ v (ix1 j) = (x : EReal)) → Cert.Spec.NonnegRow (bc1 v) :=
    fun hv k => by obtain ⟨x, hx, e⟩ := hv k; exact ⟨x, hx, (bc1_apply _ 0 k).trans e⟩
  have rH : AllReal H := fun i => by
    obtain ⟨r, j, rfl⟩ : ∃ (r : Fin 100000) (j : Fin 128), i = ix2 r j := ⟨i 0, i 1, eq_ix2 i⟩
    rw [show H (ix2 r j) = _ from bn_apply P M2 V2 G2 BT2 r j]
    exact Cert.Spec.norm1_real (hpR _) (row_real rM2 _) (row_nn nV2 j) (row_real rG2 _) (row_real rBT2 _)
  have rM3 : AllReal M3 := meanOf_real rH
  have nV3 : ∀ j : Fin 128, ∃ x : ℝ, 0 ≤ x ∧ V3 (ix1 j) = (x : EReal) := varOf_nonneg rH
  -- the kernel's output array, row by row in the reference's names
  have hK : Cert.KernelIdeal.Hand.W5' (fun c => after Cert.KernelIdeal.Gen.hostOps5_2 (after Cert.KernelIdeal.Gen.hostOps5_1 (after Cert.KernelIdeal.Gen.hostOps5 (Z c)))) c (Cert.KernelIdeal.main_v121 : DevRef _ _)
      = Cert.Spec.X3 P (bc1 M2) (bc1 V2) (bc1 G2) (bc1 BT2) (bc1 BT2) V3K (bc1 OG) (bc1 OB) := by
    unfold Cert.KernelIdeal.Hand.W5'
    rw [Function.update_self, Cert.KernelIdeal.Hand.final5]
    dsimp only [Cert.KernelIdeal.Hand.Vof, Cert.KernelIdeal.Gen.hostOps5, Cert.KernelIdeal.Gen.hostOps5_1, Cert.KernelIdeal.Gen.hostOps5_2]
    after_results_simp
    have row : ∀ {vK : FVec Ideal Cert.KernelIdeal.S128 .f32} {vR : FVec Ideal Cert.ReferenceIdeal.S128 .f32}, vK = vR →
        shapeCast Cert.KernelIdeal.S1x128 vK Cert.KernelIdeal.Gen.shapeCasts_S128_S1x128 = bc1 vR :=
      fun h => (row_cast _ _ _).trans (congrArg (fun v => bc1 v) h)
    refine X3_congr hp (row ?_) (row ?_) (row ?_) (row ?_) (row ?_)
      (congrArg₂ (fun a b => Host.divf (mulf (mulf a a) b) (addf b E)) (row ?_) (row ?_)) (row ?_) (row ?_)
    all_goals first | (rw [hp]; rfl) | (rw [h10]; rfl) | (rw [h11]; rfl) | (rw [h12]; rfl) | (rw [h13]; rfl)
  -- closed-form statistics against computed ones
  have qg : ∀ j : Fin 128, IsReal ((bc1 G2) (ix2 0 j)) := fun j => row_real rG2 _
  have qb : ∀ j : Fin 128, IsReal ((bc1 BT2) (ix2 0 j)) := fun j => row_real rBT2 _
  have qm2 : ∀ j : Fin 128, (bc1 M2) (ix2 0 j) = Ideal.div (Cert.Spec.zero + ∑ i : Fin 100000, P (ix2 i j)) Cert.Spec.rows :=
    fun j => (bc1_apply M2 0 j).trans (meanOf_apply P j)
  have qv2 : ∀ j : Fin 128, (bc1 V2) (ix2 0 j)
      = Ideal.div (Cert.Spec.zero + ∑ i : Fin 100000,
          (P (ix2 i j) - Ideal.div (Cert.Spec.zero + ∑ i : Fin 100000, P (ix2 i j)) Cert.Spec.rows)
            * (P (ix2 i j) - Ideal.div (Cert.Spec.zero + ∑ i : Fin 100000, P (ix2 i j)) Cert.Spec.rows)) Cert.Spec.rows :=
    fun j => (bc1_apply V2 0 j).trans (varOf_apply P j)
  have qm3 : ∀ j : Fin 128, (bc1 BT2) (ix2 0 j) = (bc1 BT2) (ix2 0 j) := fun j => rfl
  have qv3 : ∀ j : Fin 128, V3K (ix2 0 j)
      = Ideal.div (((bc1 G2) (ix2 0 j) * (bc1 G2) (ix2 0 j)) * (bc1 V2) (ix2 0 j)) ((bc1 V2) (ix2 0 j) + Cert.Spec.eps) := fun j => rfl
  have qH : ∀ (i : Fin 100000) (j : Fin 128), H (ix2 i j)
      = Cert.Spec.norm1 (P (ix2 i j)) ((bc1 M2) (ix2 0 j)) ((bc1 V2) (ix2 0 j)) ((bc1 G2) (ix2 0 j)) ((bc1 BT2) (ix2 0 j)) :=
    fun i j => bn_apply P M2 V2 G2 BT2 i j
  have qm3' : ∀ j : Fin 128, (bc1 M3) (ix2 0 j) = Ideal.div (Cert.Spec.zero + ∑ i : Fin 100000, H (ix2 i j)) Cert.Spec.rows :=
    fun j => (bc1_apply M3 0 j).trans (meanOf_apply H j)
  have qv3' : ∀ j : Fin 128, (bc1 V3) (ix2 0 j)
      = Ideal.div (Cert.Spec.zero + ∑ i : Fin 100000,
          (H (ix2 i j) - Ideal.div (Cert.Spec.zero + ∑ i : Fin 100000, H (ix2 i j)) Cert.Spec.rows)
            * (H (ix2 i j) - Ideal.div (Cert.Spec.zero + ∑ i : Fin 100000, H (ix2 i j)) Cert.Spec.rows)) Cert.Spec.rows :=
    fun j => (bc1_apply V3 0 j).trans (varOf_apply H j)
  have hlaw : Cert.Spec.X3 P (bc1 M2) (bc1 V2) (bc1 G2) (bc1 BT2) (bc1 BT2) V3K (bc1 OG) (bc1 OB)
      = Cert.Spec.X3 P (bc1 M2) (bc1 V2) (bc1 G2) (bc1 BT2) (bc1 M3) (bc1 V3) (bc1 OG) (bc1 OB) := by
    refine Cert.Spec.X3_closed_eq_computed _ ?_ _ _ _ _ _ _ _ _ _ _ ?_ ?_ ?_ ?_ ?_ ?_ H ?_ ?_ ?_
    · exact hpR
    · exact qg
    · exact qb
    · exact qm2
    · exact qv2
    · exact qm3
    · exact qv3
    · exact qH
    · exact qm3'
    · exact qv3'
  have hfin : after Cert.ReferenceIdeal.Hand.RC2 Z' (Cert.ReferenceIdeal.main_v197 : DevRef _ _)
      = Cert.Spec.X3 P (bc1 M2) (bc1 V2) (bc1 G2) (bc1 BT2) (bc1 M3) (bc1 V3) (bc1 OG) (bc1 OB) :=
    hR.trans (bridgeC P M2 V2 G2 BT2 M3 V3 OG OB)
  refine ⟨hK.trans (hlaw.trans hfin.symm), ?_⟩
  rw [hfin]
  exact Cert.Spec.X3_real hpR (row_real rM2) (row_nn nV2) (row_real rG2) (row_real rBT2) (row_real rM3) (row_nn nV3) (row_real rOG) (row_real rOB)

end Cert.Proof.Core

end
-- ==== Proof.Core.Layer2.lean ====
/-
  Layer 2: from equal node features with real entries and the common environment, the two programs' layer outputs are
  equal and real, and the environment is kept. The three stages in turn, each read at the valuations the previous one leaves.
-/
import proofs.«141748_j59863254171699_1_alg».proof.Proof.Core.Env
import proofs.«141748_j59863254171699_1_alg».proof.Proof.Core.StageA2
import proofs.«141748_j59863254171699_1_alg».proof.Proof.Core.StageB2
import proofs.«141748_j59863254171699_1_alg».proof.Proof.Core.StageC2

set_option maxRecDepth 65536
set_option maxHeartbeats 4000000

noncomputable section

namespace Cert.Proof.Core

open Idealize.ShloMosaic Idealize.ShloMosaic.TcCoe Idealize.SL.Sem Idealize.ShloMosaic.StableHlo Cert.Lib

theorem layer2 (Z : KD → KVal) (Z' : RVal) (c : KD) (E : Env Z Z' c)
    (hx : Z c (Cert.KernelIdeal.main_v63 : DevRef _ _) = Z' (Cert.ReferenceIdeal.main_v100 : DevRef _ _)) (rx : AllReal (Z' (Cert.ReferenceIdeal.main_v100 : DevRef _ _))) :
    Cert.KernelIdeal.Hand.L2C' Z c (Cert.KernelIdeal.main_v121 : DevRef _ _) = Cert.ReferenceIdeal.Hand.R2 Z' (Cert.ReferenceIdeal.main_v197 : DevRef _ _)
      ∧ AllReal (Cert.ReferenceIdeal.Hand.R2 Z' (Cert.ReferenceIdeal.main_v197 : DevRef _ _))
      ∧ Env (Cert.KernelIdeal.Hand.L2C' Z) (Cert.ReferenceIdeal.Hand.R2 Z') c := by
  obtain ⟨hA, rA⟩ := stageA2 Z Z' c hx rx E.s E.d E.w1 E.r4 E.a5 E.r5
  obtain ⟨hB, rB⟩ := stageB2 (Cert.KernelIdeal.Hand.L2A' Z) (after Cert.ReferenceIdeal.Hand.RA2 Z') c hA rA
    ((Cert.KernelIdeal.Hand.keepA2 Z c Cert.KernelIdeal.main_arg6 (by decide) (by decide)).trans (E.a6.trans (after_of_writes_sub Cert.ReferenceIdeal.Hand.RA2 Z' Cert.ReferenceIdeal.Hand.RA2_writes (r := Cert.ReferenceIdeal.main_arg6) (by decide)).symm)) (by rw [(after_of_writes_sub Cert.ReferenceIdeal.Hand.RA2 Z' Cert.ReferenceIdeal.Hand.RA2_writes (r := Cert.ReferenceIdeal.main_arg6) (by decide))]; exact E.r6) ((Cert.KernelIdeal.Hand.keepA2 Z c Cert.KernelIdeal.main_arg7 (by decide) (by decide)).trans (E.a7.trans (after_of_writes_sub Cert.ReferenceIdeal.Hand.RA2 Z' Cert.ReferenceIdeal.Hand.RA2_writes (r := Cert.ReferenceIdeal.main_arg7) (by decide)).symm)) (by rw [(after_of_writes_sub Cert.ReferenceIdeal.Hand.RA2 Z' Cert.ReferenceIdeal.Hand.RA2_writes (r := Cert.ReferenceIdeal.main_arg7) (by decide))]; exact E.r7)
    ((Cert.KernelIdeal.Hand.keepA2 Z c Cert.KernelIdeal.main_v5 (by decide) (by decide)).trans (E.w2.trans (after_of_writes_sub Cert.ReferenceIdeal.Hand.RA2 Z' Cert.ReferenceIdeal.Hand.RA2_writes (r := Cert.ReferenceIdeal.main_arg8) (by decide)).symm)) (by rw [(after_of_writes_sub Cert.ReferenceIdeal.Hand.RA2 Z' Cert.ReferenceIdeal.Hand.RA2_writes (r := Cert.ReferenceIdeal.main_arg8) (by decide))]; exact E.r8) ((Cert.KernelIdeal.Hand.keepA2 Z c Cert.KernelIdeal.main_arg9 (by decide) (by decide)).trans (E.a9.trans (after_of_writes_sub Cert.ReferenceIdeal.Hand.RA2 Z' Cert.ReferenceIdeal.Hand.RA2_writes (r := Cert.ReferenceIdeal.main_arg9) (by decide)).symm)) (by rw [(after_of_writes_sub Cert.ReferenceIdeal.Hand.RA2 Z' Cert.ReferenceIdeal.Hand.RA2_writes (r := Cert.ReferenceIdeal.main_arg9) (by decide))]; exact E.r9)
  obtain ⟨hC, rC⟩ := stageC2 (Cert.KernelIdeal.Hand.L2B' Z) (after Cert.ReferenceIdeal.Hand.RB2 (after Cert.ReferenceIdeal.Hand.RA2 Z')) c hB rB
    ((Cert.KernelIdeal.Hand.keepB2 (Cert.KernelIdeal.Hand.L2A' Z) c Cert.KernelIdeal.main_arg10 (by decide) (by decide) (by decide) (by decide)).trans ((Cert.KernelIdeal.Hand.keepA2 Z c Cert.KernelIdeal.main_arg10 (by decide) (by decide)).trans (E.a10.trans ((after_of_writes_sub Cert.ReferenceIdeal.Hand.RB2 (after Cert.ReferenceIdeal.Hand.RA2 Z') Cert.ReferenceIdeal.Hand.RB2_writes (r := Cert.ReferenceIdeal.main_arg10) (by decide)).trans (after_of_writes_sub Cert.ReferenceIdeal.Hand.RA2 Z' Cert.ReferenceIdeal.Hand.RA2_writes (r := Cert.ReferenceIdeal.main_arg10) (by decide))).symm))) (by rw [(after_of_writes_sub Cert.ReferenceIdeal.Hand.RB2 (after Cert.ReferenceIdeal.Hand.RA2 Z') Cert.ReferenceIdeal.Hand.RB2_writes (r := Cert.ReferenceIdeal.main_arg10) (by decide)), (after_of_writes_sub Cert.ReferenceIdeal.Hand.RA2 Z' Cert.ReferenceIdeal.Hand.RA2_writes (r := Cert.ReferenceIdeal.main_arg10) (by decide))]; exact E.r10)
    ((Cert.KernelIdeal.Hand.keepB2 (Cert.KernelIdeal.Hand.L2A' Z) c Cert.KernelIdeal.main_arg11 (by decide) (by decide) (by decide) (by decide)).trans ((Cert.KernelIdeal.Hand.keepA2 Z c Cert.KernelIdeal.main_arg11 (by decide) (by decide)).trans (E.a11.trans ((after_of_writes_sub Cert.ReferenceIdeal.Hand.RB2 (after Cert.ReferenceIdeal.Hand.RA2 Z') Cert.ReferenceIdeal.Hand.RB2_writes (r := Cert.ReferenceIdeal.main_arg11) (by decide)).trans (after_of_writes_sub Cert.ReferenceIdeal.Hand.RA2 Z' Cert.ReferenceIdeal.Hand.RA2_writes (r := Cert.ReferenceIdeal.main_arg11) (by decide))).symm))) (by rw [(after_of_writes_sub Cert.ReferenceIdeal.Hand.RB2 (after Cert.ReferenceIdeal.Hand.RA2 Z') Cert.ReferenceIdeal.Hand.RB2_writes (r := Cert.ReferenceIdeal.main_arg11) (by decide)), (after_of_writes_sub Cert.ReferenceIdeal.Hand.RA2 Z' Cert.ReferenceIdeal.Hand.RA2_writes (r := Cert.ReferenceIdeal.main_arg11) (by decide))]; exact E.r11)
    ((Cert.KernelIdeal.Hand.keepB2 (Cert.KernelIdeal.Hand.L2A' Z) c Cert.KernelIdeal.main_arg12 (by decide) (by decide) (by decide) (by decide)).trans ((Cert.KernelIdeal.Hand.keepA2 Z c Cert.KernelIdeal.main_arg12 (by decide) (by decide)).trans (E.a12.trans ((after_of_writes_sub Cert.ReferenceIdeal.Hand.RB2 (after Cert.ReferenceIdeal.Hand.RA2 Z') Cert.ReferenceIdeal.Hand.RB2_writes (r := Cert.ReferenceIdeal.main_arg12) (by decide)).trans (after_of_writes_sub Cert.ReferenceIdeal.Hand.RA2 Z' Cert.ReferenceIdeal.Hand.RA2_writes (r := Cert.ReferenceIdeal.main_arg12) (by decide))).symm))) (by rw [(after_of_writes_sub Cert.ReferenceIdeal.Hand.RB2 (after Cert.ReferenceIdeal.Hand.RA2 Z') Cert.ReferenceIdeal.Hand.RB2_writes (r := Cert.ReferenceIdeal.main_arg12) (by decide)), (after_of_writes_sub Cert.ReferenceIdeal.Hand.RA2 Z' Cert.ReferenceIdeal.Hand.RA2_writes (r := Cert.ReferenceIdeal.main_arg12) (by decide))]; exact E.r12)
    ((Cert.KernelIdeal.Hand.keepB2 (Cert.KernelIdeal.Hand.L2A' Z) c Cert.KernelIdeal.main_arg13 (by decide) (by decide) (by decide) (by decide)).trans ((Cert.KernelIdeal.Hand.keepA2 Z c Cert.KernelIdeal.main_arg13 (by decide) (by decide)).trans (E.a13.trans ((after_of_writes_sub Cert.ReferenceIdeal.Hand.RB2 (after Cert.ReferenceIdeal.Hand.RA2 Z') Cert.ReferenceIdeal.Hand.RB2_writes (r := Cert.ReferenceIdeal.main_arg13) (by decide)).trans (after_of_writes_sub Cert.ReferenceIdeal.Hand.RA2 Z' Cert.ReferenceIdeal.Hand.RA2_writes (r := Cert.ReferenceIdeal.main_arg13) (by decide))).symm))) (by rw [(after_of_writes_sub Cert.ReferenceIdeal.Hand.RB2 (after Cert.ReferenceIdeal.Hand.RA2 Z') Cert.ReferenceIdeal.Hand.RB2_writes (r := Cert.ReferenceIdeal.main_arg13) (by decide)), (after_of_writes_sub Cert.ReferenceIdeal.Hand.RA2 Z' Cert.ReferenceIdeal.Hand.RA2_writes (r := Cert.ReferenceIdeal.main_arg13) (by decide))]; exact E.r13)
  refine ⟨hC, rC, ?_⟩
  exact {
    s := ((Cert.KernelIdeal.Hand.keepC2 (Cert.KernelIdeal.Hand.L2B' Z) c Cert.KernelIdeal.main_v1 (by decide) (by decide) (by decide) (by decide)).trans ((Cert.KernelIdeal.Hand.keepB2 (Cert.KernelIdeal.Hand.L2A' Z) c Cert.KernelIdeal.main_v1 (by decide) (by decide) (by decide) (by decide)).trans ((Cert.KernelIdeal.Hand.keepA2 Z c Cert.KernelIdeal.main_v1 (by decide) (by decide)).trans (E.s.trans ((after_of_writes_sub Cert.ReferenceIdeal.Hand.RC2 (after Cert.ReferenceIdeal.Hand.RB2 (after Cert.ReferenceIdeal.Hand.RA2 Z')) Cert.ReferenceIdeal.Hand.RC2_writes (r := Cert.ReferenceIdeal.main_v1) (by decide)).trans ((after_of_writes_sub Cert.ReferenceIdeal.Hand.RB2 (after Cert.ReferenceIdeal.Hand.RA2 Z') Cert.ReferenceIdeal.Hand.RB2_writes (r := Cert.ReferenceIdeal.main_v1) (by decide)).trans (after_of_writes_sub Cert.ReferenceIdeal.Hand.RA2 Z' Cert.ReferenceIdeal.Hand.RA2_writes (r := Cert.ReferenceIdeal.main_v1) (by decide)))).symm))))
    d := ((Cert.KernelIdeal.Hand.keepC2 (Cert.KernelIdeal.Hand.L2B' Z) c Cert.KernelIdeal.main_v3 (by decide) (by decide) (by decide) (by decide)).trans ((Cert.KernelIdeal.Hand.keepB2 (Cert.KernelIdeal.Hand.L2A' Z) c Cert.KernelIdeal.main_v3 (by decide) (by decide) (by decide) (by decide)).trans ((Cert.KernelIdeal.Hand.keepA2 Z c Cert.KernelIdeal.main_v3 (by decide) (by decide)).trans (E.d.trans ((after_of_writes_sub Cert.ReferenceIdeal.Hand.RC2 (after Cert.ReferenceIdeal.Hand.RB2 (after Cert.ReferenceIdeal.Hand.RA2 Z')) Cert.ReferenceIdeal.Hand.RC2_writes (r := Cert.ReferenceIdeal.main_v3) (by decide)).trans ((after_of_writes_sub Cert.ReferenceIdeal.Hand.RB2 (after Cert.ReferenceIdeal.Hand.RA2 Z') Cert.ReferenceIdeal.Hand.RB2_writes (r := Cert.ReferenceIdeal.main_v3) (by decide)).trans (after_of_writes_sub Cert.ReferenceIdeal.Hand.RA2 Z' Cert.ReferenceIdeal.Hand.RA2_writes (r := Cert.ReferenceIdeal.main_v3) (by decide)))).symm))))
    w1 := ((Cert.KernelIdeal.Hand.keepC2 (Cert.KernelIdeal.Hand.L2B' Z) c Cert.KernelIdeal.main_v4 (by decide) (by decide) (by decide) (by decide)).trans ((Cert.KernelIdeal.Hand.keepB2 (Cert.KernelIdeal.Hand.L2A' Z) c Cert.KernelIdeal.main_v4 (by decide) (by decide) (by decide) (by decide)).trans ((Cert.KernelIdeal.Hand.keepA2 Z c Cert.KernelIdeal.main_v4 (by decide) (by decide)).trans (E.w1.trans ((after_of_writes_sub Cert.ReferenceIdeal.Hand.RC2 (after Cert.ReferenceIdeal.Hand.RB2 (after Cert.ReferenceIdeal.Hand.RA2 Z')) Cert.ReferenceIdeal.Hand.RC2_writes (r := Cert.ReferenceIdeal.main_arg4) (by decide)).trans ((after_of_writes_sub Cert.ReferenceIdeal.Hand.RB2 (after Cert.ReferenceIdeal.Hand.RA2 Z') Cert.ReferenceIdeal.Hand.RB2_writes (r := Cert.ReferenceIdeal.main_arg4) (by decide)).trans (after_of_writes_sub Cert.ReferenceIdeal.Hand.RA2 Z' Cert.ReferenceIdeal.Hand.RA2_writes (r := Cert.ReferenceIdeal.main_arg4) (by decide)))).symm))))
    w2 := ((Cert.KernelIdeal.Hand.keepC2 (Cert.KernelIdeal.Hand.L2B' Z) c Cert.KernelIdeal.main_v5 (by decide) (by decide) (by decide) (by decide)).trans ((Cert.KernelIdeal.Hand.keepB2 (Cert.KernelIdeal.Hand.L2A' Z) c Cert.KernelIdeal.main_v5 (by decide) (by decide) (by decide) (by decide)).trans ((Cert.KernelIdeal.Hand.keepA2 Z c Cert.KernelIdeal.main_v5 (by decide) (by decide)).trans (E.w2.trans ((after_of_writes_sub Cert.ReferenceIdeal.Hand.RC2 (after Cert.ReferenceIdeal.Hand.RB2 (after Cert.ReferenceIdeal.Hand.RA2 Z')) Cert.ReferenceIdeal.Hand.RC2_writes (r := Cert.ReferenceIdeal.main_arg8) (by decide)).trans ((after_of_writes_sub Cert.ReferenceIdeal.Hand.RB2 (after Cert.ReferenceIdeal.Hand.RA2 Z') Cert.ReferenceIdeal.Hand.RB2_writes (r := Cert.ReferenceIdeal.main_arg8) (by decide)).trans (after_of_writes_sub Cert.ReferenceIdeal.Hand.RA2 Z' Cert.ReferenceIdeal.Hand.RA2_writes (r := Cert.ReferenceIdeal.main_arg8) (by decide)))).symm))))
    a2 := ((Cert.KernelIdeal.Hand.keepC2 (Cert.KernelIdeal.Hand.L2B' Z) c Cert.KernelIdeal.main_arg2 (by decide) (by decide) (by decide) (by decide)).trans ((Cert.KernelIdeal.Hand.keepB2 (Cert.KernelIdeal.Hand.L2A' Z) c Cert.KernelIdeal.main_arg2 (by decide) (by decide) (by decide) (by decide)).trans ((Cert.KernelIdeal.Hand.keepA2 Z c Cert.KernelIdeal.main_arg2 (by decide) (by decide)).trans (E.a2.trans ((after_of_writes_sub Cert.ReferenceIdeal.Hand.RC2 (after Cert.ReferenceIdeal.Hand.RB2 (after Cert.ReferenceIdeal.Hand.RA2 Z')) Cert.ReferenceIdeal.Hand.RC2_writes (r := Cert.ReferenceIdeal.main_arg2) (by decide)).trans ((after_of_writes_sub Cert.ReferenceIdeal.Hand.RB2 (after Cert.ReferenceIdeal.Hand.RA2 Z') Cert.ReferenceIdeal.Hand.RB2_writes (r := Cert.ReferenceIdeal.main_arg2) (by decide)).trans (after_of_writes_sub Cert.ReferenceIdeal.Hand.RA2 Z' Cert.ReferenceIdeal.Hand.RA2_writes (r := Cert.ReferenceIdeal.main_arg2) (by decide)))).symm))))
    a3 := ((Cert.KernelIdeal.Hand.keepC2 (Cert.KernelIdeal.Hand.L2B' Z) c Cert.KernelIdeal.main_arg3 (by decide) (by decide) (by decide) (by decide)).trans ((Cert.KernelIdeal.Hand.keepB2 (Cert.KernelIdeal.Hand.L2A' Z) c Cert.KernelIdeal.main_arg3 (by decide) (by decide) (by decide) (by decide)).trans ((Cert.KernelIdeal.Hand.keepA2 Z c Cert.KernelIdeal.main_arg3 (by decide) (by decide)).trans (E.a3.trans ((after_of_writes_sub Cert.ReferenceIdeal.Hand.RC2 (after Cert.ReferenceIdeal.Hand.RB2 (after Cert.ReferenceIdeal.Hand.RA2 Z')) Cert.ReferenceIdeal.Hand.RC2_writes (r := Cert.ReferenceIdeal.main_arg3) (by decide)).trans ((after_of_writes_sub Cert.ReferenceIdeal.Hand.RB2 (after Cert.ReferenceIdeal.Hand.RA2 Z') Cert.ReferenceIdeal.Hand.RB2_writes (r := Cert.ReferenceIdeal.main_arg3) (by decide)).trans (after_of_writes_sub Cert.ReferenceIdeal.Hand.RA2 Z' Cert.ReferenceIdeal.Hand.RA2_writes (r := Cert.ReferenceIdeal.main_arg3) (by decide)))).symm))))
    a5 := ((Cert.KernelIdeal.Hand.keepC2 (Cert.KernelIdeal.Hand.L2B' Z) c Cert.KernelIdeal.main_arg5 (by decide) (by decide) (by decide) (by decide)).trans ((Cert.KernelIdeal.Hand.keepB2 (Cert.KernelIdeal.Hand.L2A' Z) c Cert.KernelIdeal.main_arg5 (by decide) (by decide) (by decide) (by decide)).trans ((Cert.KernelIdeal.Hand.keepA2 Z c Cert.KernelIdeal.main_arg5 (by decide) (by decide)).trans (E.a5.trans ((after_of_writes_sub Cert.ReferenceIdeal.Hand.RC2 (after Cert.ReferenceIdeal.Hand.RB2 (after Cert.ReferenceIdeal.Hand.RA2 Z')) Cert.ReferenceIdeal.Hand.RC2_writes (r := Cert.ReferenceIdeal.main_arg5) (by decide)).trans ((after_of_writes_sub Cert.ReferenceIdeal.Hand.RB2 (after Cert.ReferenceIdeal.Hand.RA2 Z') Cert.ReferenceIdeal.Hand.RB2_writes (r := Cert.ReferenceIdeal.main_arg5) (by decide)).trans (after_of_writes_sub Cert.ReferenceIdeal.Hand.RA2 Z' Cert.ReferenceIdeal.Hand.RA2_writes (r := Cert.ReferenceIdeal.main_arg5) (by decide)))).symm))))
    a6 := ((Cert.KernelIdeal.Hand.keepC2 (Cert.KernelIdeal.Hand.L2B' Z) c Cert.KernelIdeal.main_arg6 (by decide) (by decide) (by decide) (by decide)).trans ((Cert.KernelIdeal.Hand.keepB2 (Cert.KernelIdeal.Hand.L2A' Z) c Cert.KernelIdeal.main_arg6 (by decide) (by decide) (by decide) (by decide)).trans ((Cert.KernelIdeal.Hand.keepA2 Z c Cert.KernelIdeal.main_arg6 (by decide) (by decide)).trans (E.a6.trans ((after_of_writes_sub Cert.ReferenceIdeal.Hand.RC2 (after Cert.ReferenceIdeal.Hand.RB2 (after Cert.ReferenceIdeal.Hand.RA2 Z')) Cert.ReferenceIdeal.Hand.RC2_writes (r := Cert.ReferenceIdeal.main_arg6) (by decide)).trans ((after_of_writes_sub Cert.ReferenceIdeal.Hand.RB2 (after Cert.ReferenceIdeal.Hand.RA2 Z') Cert.ReferenceIdeal.Hand.RB2_writes (r := Cert.ReferenceIdeal.main_arg6) (by decide)).trans (after_of_writes_sub Cert.ReferenceIdeal.Hand.RA2 Z' Cert.ReferenceIdeal.Hand.RA2_writes (r := Cert.ReferenceIdeal.main_arg6) (by decide)))).symm))))
    a7 := ((Cert.KernelIdeal.Hand.keepC2 (Cert.KernelIdeal.Hand.L2B' Z) c Cert.KernelIdeal.main_arg7 (by decide) (by decide) (by decide) (by decide)).trans ((Cert.KernelIdeal.Hand.keepB2 (Cert.KernelIdeal.Hand.L2A' Z) c Cert.KernelIdeal.main_arg7 (by decide) (by decide) (by decide) (by decide)).trans ((Cert.KernelIdeal.Hand.keepA2 Z c Cert.KernelIdeal.main_arg7 (by decide) (by decide)).trans (E.a7.trans ((after_of_writes_sub Cert.ReferenceIdeal.Hand.RC2 (after Cert.ReferenceIdeal.Hand.RB2 (after Cert.ReferenceIdeal.Hand.RA2 Z')) Cert.ReferenceIdeal.Hand.RC2_writes (r := Cert.ReferenceIdeal.main_arg7) (by decide)).trans ((after_of_writes_sub Cert.ReferenceIdeal.Hand.RB2 (after Cert.ReferenceIdeal.Hand.RA2 Z') Cert.ReferenceIdeal.Hand.RB2_writes (r := Cert.ReferenceIdeal.main_arg7) (by decide)).trans (after_of_writes_sub Cert.ReferenceIdeal.Hand.RA2 Z' Cert.ReferenceIdeal.Hand.RA2_writes (r := Cert.ReferenceIdeal.main_arg7) (by decide)))).symm))))
    a9 := ((Cert.KernelIdeal.Hand.keepC2 (Cert.KernelIdeal.Hand.L2B' Z) c Cert.KernelIdeal.main_arg9 (by decide) (by decide) (by decide) (by decide)).trans ((Cert.KernelIdeal.Hand.keepB2 (Cert.KernelIdeal.Hand.L2A' Z) c Cert.KernelIdeal.main_arg9 (by decide) (by decide) (by decide) (by decide)).trans ((Cert.KernelIdeal.Hand.keepA2 Z c Cert.KernelIdeal.main_arg9 (by decide) (by decide)).trans (E.a9.trans ((after_of_writes_sub Cert.ReferenceIdeal.Hand.RC2 (after Cert.ReferenceIdeal.Hand.RB2 (after Cert.ReferenceIdeal.Hand.RA2 Z')) Cert.ReferenceIdeal.Hand.RC2_writes (r := Cert.ReferenceIdeal.main_arg9) (by decide)).trans ((after_of_writes_sub Cert.ReferenceIdeal.Hand.RB2 (after Cert.ReferenceIdeal.Hand.RA2 Z') Cert.ReferenceIdeal.Hand.RB2_writes (r := Cert.ReferenceIdeal.main_arg9) (by decide)).trans (after_of_writes_sub Cert.ReferenceIdeal.Hand.RA2 Z' Cert.ReferenceIdeal.Hand.RA2_writes (r := Cert.ReferenceIdeal.main_arg9) (by decide)))).symm))))
    a10 := ((Cert.KernelIdeal.Hand.keepC2 (Cert.KernelIdeal.Hand.L2B' Z) c Cert.KernelIdeal.main_arg10 (by decide) (by decide) (by decide) (by decide)).trans ((Cert.KernelIdeal.Hand.keepB2 (Cert.KernelIdeal.Hand.L2A' Z) c Cert.KernelIdeal.main_arg10 (by decide) (by decide) (by decide) (by decide)).trans ((Cert.KernelIdeal.Hand.keepA2 Z c Cert.KernelIdeal.main_arg10 (by decide) (by decide)).trans (E.a10.trans ((after_of_writes_sub Cert.ReferenceIdeal.Hand.RC2 (after Cert.ReferenceIdeal.Hand.RB2 (after Cert.ReferenceIdeal.Hand.RA2 Z')) Cert.ReferenceIdeal.Hand.RC2_writes (r := Cert.ReferenceIdeal.main_arg10) (by decide)).trans ((after_of_writes_sub Cert.ReferenceIdeal.Hand.RB2 (after Cert.ReferenceIdeal.Hand.RA2 Z') Cert.ReferenceIdeal.Hand.RB2_writes (r := Cert.ReferenceIdeal.main_arg10) (by decide)).trans (after_of_writes_sub Cert.ReferenceIdeal.Hand.RA2 Z' Cert.ReferenceIdeal.Hand.RA2_writes (r := Cert.ReferenceIdeal.main_arg10) (by decide)))).symm))))
    a11 := ((Cert.KernelIdeal.Hand.keepC2 (Cert.KernelIdeal.Hand.L2B' Z) c Cert.KernelIdeal.main_arg11 (by decide) (by decide) (by decide) (by decide)).trans ((Cert.KernelIdeal.Hand.keepB2 (Cert.KernelIdeal.Hand.L2A' Z) c Cert.KernelIdeal.main_arg11 (by decide) (by decide) (by decide) (by decide)).trans ((Cert.KernelIdeal.Hand.keepA2 Z c Cert.KernelIdeal.main_arg11 (by decide) (by decide)).trans (E.a11.trans ((after_of_writes_sub Cert.ReferenceIdeal.Hand.RC2 (after Cert.ReferenceIdeal.Hand.RB2 (after Cert.ReferenceIdeal.Hand.RA2 Z')) Cert.ReferenceIdeal.Hand.RC2_writes (r := Cert.ReferenceIdeal.main_arg11) (by decide)).trans ((after_of_writes_sub Cert.ReferenceIdeal.Hand.RB2 (after Cert.ReferenceIdeal.Hand.RA2 Z') Cert.ReferenceIdeal.Hand.RB2_writes (r := Cert.ReferenceIdeal.main_arg11) (by decide)).trans (after_of_writes_sub Cert.ReferenceIdeal.Hand.RA2 Z' Cert.ReferenceIdeal.Hand.RA2_writes (r := Cert.ReferenceIdeal.main_arg11) (by decide)))).symm))))
    a12 := ((Cert.KernelIdeal.Hand.keepC2 (Cert.KernelIdeal.Hand.L2B' Z) c Cert.KernelIdeal.main_arg12 (by decide) (by decide) (by decide) (by decide)).trans ((Cert.KernelIdeal.Hand.keepB2 (Cert.KernelIdeal.Hand.L2A' Z) c Cert.KernelIdeal.main_arg12 (by decide) (by decide) (by decide) (by decide)).trans ((Cert.KernelIdeal.Hand.keepA2 Z c Cert.KernelIdeal.main_arg12 (by decide) (by decide)).trans (E.a12.trans ((after_of_writes_sub Cert.ReferenceIdeal.Hand.RC2 (after Cert.ReferenceIdeal.Hand.RB2 (after Cert.ReferenceIdeal.Hand.RA2 Z')) Cert.ReferenceIdeal.Hand.RC2_writes (r := Cert.ReferenceIdeal.main_arg12) (by decide)).trans ((after_of_writes_sub Cert.ReferenceIdeal.Hand.RB2 (after Cert.ReferenceIdeal.Hand.RA2 Z') Cert.ReferenceIdeal.Hand.RB2_writes (r := Cert.ReferenceIdeal.main_arg12) (by decide)).trans (after_of_writes_sub Cert.ReferenceIdeal.Hand.RA2 Z' Cert.ReferenceIdeal.Hand.RA2_writes (r := Cert.ReferenceIdeal.main_arg12) (by decide)))).symm))))
    a13 := ((Cert.KernelIdeal.Hand.keepC2 (Cert.KernelIdeal.Hand.L2B' Z) c Cert.KernelIdeal.main_arg13 (by decide) (by decide) (by decide) (by decide)).trans ((Cert.KernelIdeal.Hand.keepB2 (Cert.KernelIdeal.Hand.L2A' Z) c Cert.KernelIdeal.main_arg13 (by decide) (by decide) (by decide) (by decide)).trans ((Cert.KernelIdeal.Hand.keepA2 Z c Cert.KernelIdeal.main_arg13 (by decide) (by decide)).trans (E.a13.trans ((after_of_writes_sub Cert.ReferenceIdeal.Hand.RC2 (after Cert.ReferenceIdeal.Hand.RB2 (after Cert.ReferenceIdeal.Hand.RA2 Z')) Cert.ReferenceIdeal.Hand.RC2_writes (r := Cert.ReferenceIdeal.main_arg13) (by decide)).trans ((after_of_writes_sub Cert.ReferenceIdeal.Hand.RB2 (after Cert.ReferenceIdeal.Hand.RA2 Z') Cert.ReferenceIdeal.Hand.RB2_writes (r := Cert.ReferenceIdeal.main_arg13) (by decide)).trans (after_of_writes_sub Cert.ReferenceIdeal.Hand.RA2 Z' Cert.ReferenceIdeal.Hand.RA2_writes (r := Cert.ReferenceIdeal.main_arg13) (by decide)))).symm))))
    a14 := ((Cert.KernelIdeal.Hand.keepC2 (Cert.KernelIdeal.Hand.L2B' Z) c Cert.KernelIdeal.main_arg14 (by decide) (by decide) (by decide) (by decide)).trans ((Cert.KernelIdeal.Hand.keepB2 (Cert.KernelIdeal.Hand.L2A' Z) c Cert.KernelIdeal.main_arg14 (by decide) (by decide) (by decide) (by decide)).trans ((Cert.KernelIdeal.Hand.keepA2 Z c Cert.KernelIdeal.main_arg14 (by decide) (by decide)).trans (E.a14.trans ((after_of_writes_sub Cert.ReferenceIdeal.Hand.RC2 (after Cert.ReferenceIdeal.Hand.RB2 (after Cert.ReferenceIdeal.Hand.RA2 Z')) Cert.ReferenceIdeal.Hand.RC2_writes (r := Cert.ReferenceIdeal.main_arg14) (by decide)).trans ((after_of_writes_sub Cert.ReferenceIdeal.Hand.RB2 (after Cert.ReferenceIdeal.Hand.RA2 Z') Cert.ReferenceIdeal.Hand.RB2_writes (r := Cert.ReferenceIdeal.main_arg14) (by decide)).trans (after_of_writes_sub Cert.ReferenceIdeal.Hand.RA2 Z' Cert.ReferenceIdeal.Hand.RA2_writes (r := Cert.ReferenceIdeal.main_arg14) (by decide)))).symm))))
    a15 := ((Cert.KernelIdeal.Hand.keepC2 (Cert.KernelIdeal.Hand.L2B' Z) c Cert.KernelIdeal.main_arg15 (by decide) (by decide) (by decide) (by decide)).trans ((Cert.KernelIdeal.Hand.keepB2 (Cert.KernelIdeal.Hand.L2A' Z) c Cert.KernelIdeal.main_arg15 (by decide) (by decide) (by decide) (by decide)).trans ((Cert.KernelIdeal.Hand.keepA2 Z c Cert.KernelIdeal.main_arg15 (by decide) (by decide)).trans (E.a15.trans ((after_of_writes_sub Cert.ReferenceIdeal.Hand.RC2 (after Cert.ReferenceIdeal.Hand.RB2 (after Cert.ReferenceIdeal.Hand.RA2 Z')) Cert.ReferenceIdeal.Hand.RC2_writes (r := Cert.ReferenceIdeal.main_arg15) (by decide)).trans ((after_of_writes_sub Cert.ReferenceIdeal.Hand.RB2 (after Cert.ReferenceIdeal.Hand.RA2 Z') Cert.ReferenceIdeal.Hand.RB2_writes (r := Cert.ReferenceIdeal.main_arg15) (by decide)).trans (after_of_writes_sub Cert.ReferenceIdeal.Hand.RA2 Z' Cert.ReferenceIdeal.Hand.RA2_writes (r := Cert.ReferenceIdeal.main_arg15) (by decide)))).symm))))
    r4 := (by show AllReal (after Cert.ReferenceIdeal.Hand.RC2 (after Cert.ReferenceIdeal.Hand.RB2 (after Cert.ReferenceIdeal.Hand.RA2 Z')) (Proc.devRef .tc Cert.ReferenceIdeal.main_arg4)); rw [(after_of_writes_sub Cert.ReferenceIdeal.Hand.RC2 (after Cert.ReferenceIdeal.Hand.RB2 (after Cert.ReferenceIdeal.Hand.RA2 Z')) Cert.ReferenceIdeal.Hand.RC2_writes (r := Cert.ReferenceIdeal.main_arg4) (by decide)), (after_of_writes_sub Cert.ReferenceIdeal.Hand.RB2 (after Cert.ReferenceIdeal.Hand.RA2 Z') Cert.ReferenceIdeal.Hand.RB2_writes (r := Cert.ReferenceIdeal.main_arg4) (by decide)), (after_of_writes_sub Cert.ReferenceIdeal.Hand.RA2 Z' Cert.ReferenceIdeal.Hand.RA2_writes (r := Cert.ReferenceIdeal.main_arg4) (by decide))]; exact E.r4)
    r5 := (by show AllReal (after Cert.ReferenceIdeal.Hand.RC2 (after Cert.ReferenceIdeal.Hand.RB2 (after Cert.ReferenceIdeal.Hand.RA2 Z')) (Proc.devRef .tc Cert.ReferenceIdeal.main_arg5)); rw [(after_of_writes_sub Cert.ReferenceIdeal.Hand.RC2 (after Cert.ReferenceIdeal.Hand.RB2 (after Cert.ReferenceIdeal.Hand.RA2 Z')) Cert.ReferenceIdeal.Hand.RC2_writes (r := Cert.ReferenceIdeal.main_arg5) (by decide)), (after_of_writes_sub Cert.ReferenceIdeal.Hand.RB2 (after Cert.ReferenceIdeal.Hand.RA2 Z') Cert.ReferenceIdeal.Hand.RB2_writes (r := Cert.ReferenceIdeal.main_arg5) (by decide)), (after_of_writes_sub Cert.ReferenceIdeal.Hand.RA2 Z' Cert.ReferenceIdeal.Hand.RA2_writes (r := Cert.ReferenceIdeal.main_arg5) (by decide))]; exact E.r5)
    r6 := (by show AllReal (after Cert.ReferenceIdeal.Hand.RC2 (after Cert.ReferenceIdeal.Hand.RB2 (after Cert.ReferenceIdeal.Hand.RA2 Z')) (Proc.devRef .tc Cert.ReferenceIdeal.main_arg6)); rw [(after_of_writes_sub Cert.ReferenceIdeal.Hand.RC2 (after Cert.ReferenceIdeal.Hand.RB2 (after Cert.ReferenceIdeal.Hand.RA2 Z')) Cert.ReferenceIdeal.Hand.RC2_writes (r := Cert.ReferenceIdeal.main_arg6) (by decide)), (after_of_writes_sub Cert.ReferenceIdeal.Hand.RB2 (after Cert.ReferenceIdeal.Hand.RA2 Z') Cert.ReferenceIdeal.Hand.RB2_writes (r := Cert.ReferenceIdeal.main_arg6) (by decide)), (after_of_writes_sub Cert.ReferenceIdeal.Hand.RA2 Z' Cert.ReferenceIdeal.Hand.RA2_writes (r := Cert.ReferenceIdeal.main_arg6) (by decide))]; exact E.r6)
    r7 := (by show AllReal (after Cert.ReferenceIdeal.Hand.RC2 (after Cert.ReferenceIdeal.Hand.RB2 (after Cert.ReferenceIdeal.Hand.RA2 Z')) (Proc.devRef .tc Cert.ReferenceIdeal.main_arg7)); rw [(after_of_writes_sub Cert.ReferenceIdeal.Hand.RC2 (after Cert.ReferenceIdeal.Hand.RB2 (after Cert.ReferenceIdeal.Hand.RA2 Z')) Cert.ReferenceIdeal.Hand.RC2_writes (r := Cert.ReferenceIdeal.main_arg7) (by decide)), (after_of_writes_sub Cert.ReferenceIdeal.Hand.RB2 (after Cert.ReferenceIdeal.Hand.RA2 Z') Cert.ReferenceIdeal.Hand.RB2_writes (r := Cert.ReferenceIdeal.main_arg7) (by decide)), (after_of_writes_sub Cert.ReferenceIdeal.Hand.RA2 Z' Cert.ReferenceIdeal.Hand.RA2_writes (r := Cert.ReferenceIdeal.main_arg7) (by decide))]; exact E.r7)
    r8 := (by show AllReal (after Cert.ReferenceIdeal.Hand.RC2 (after Cert.ReferenceIdeal.Hand.RB2 (after Cert.ReferenceIdeal.Hand.RA2 Z')) (Proc.devRef .tc Cert.ReferenceIdeal.main_arg8)); rw [(after_of_writes_sub Cert.ReferenceIdeal.Hand.RC2 (after Cert.ReferenceIdeal.Hand.RB2 (after Cert.ReferenceIdeal.Hand.RA2 Z')) Cert.ReferenceIdeal.Hand.RC2_writes (r := Cert.ReferenceIdeal.main_arg8) (by decide)), (after_of_writes_sub Cert.ReferenceIdeal.Hand.RB2 (after Cert.ReferenceIdeal.Hand.RA2 Z') Cert.ReferenceIdeal.Hand.RB2_writes (r := Cert.ReferenceIdeal.main_arg8) (by decide)), (after_of_writes_sub Cert.ReferenceIdeal.Hand.RA2 Z' Cert.ReferenceIdeal.Hand.RA2_writes (r := Cert.ReferenceIdeal.main_arg8) (by decide))]; exact E.r8)
    r9 := (by show AllReal (after Cert.ReferenceIdeal.Hand.RC2 (after Cert.ReferenceIdeal.Hand.RB2 (after Cert.ReferenceIdeal.Hand.RA2 Z')) (Proc.devRef .tc Cert.ReferenceIdeal.main_arg9)); rw [(after_of_writes_sub Cert.ReferenceIdeal.Hand.RC2 (after Cert.ReferenceIdeal.Hand.RB2 (after Cert.ReferenceIdeal.Hand.RA2 Z')) Cert.ReferenceIdeal.Hand.RC2_writes (r := Cert.ReferenceIdeal.main_arg9) (by decide)), (after_of_writes_sub Cert.ReferenceIdeal.Hand.RB2 (after Cert.ReferenceIdeal.Hand.RA2 Z') Cert.ReferenceIdeal.Hand.RB2_writes (r := Cert.ReferenceIdeal.main_arg9) (by decide)), (after_of_writes_sub Cert.ReferenceIdeal.Hand.RA2 Z' Cert.ReferenceIdeal.Hand.RA2_writes (r := Cert.ReferenceIdeal.main_arg9) (by decide))]; exact E.r9)
    r10 := (by show AllReal (after Cert.ReferenceIdeal.Hand.RC2 (after Cert.ReferenceIdeal.Hand.RB2 (after Cert.ReferenceIdeal.Hand.RA2 Z')) (Proc.devRef .tc Cert.ReferenceIdeal.main_arg10)); rw [(after_of_writes_sub Cert.ReferenceIdeal.Hand.RC2 (after Cert.ReferenceIdeal.Hand.RB2 (after Cert.ReferenceIdeal.Hand.RA2 Z')) Cert.ReferenceIdeal.Hand.RC2_writes (r := Cert.ReferenceIdeal.main_arg10) (by decide)), (after_of_writes_sub Cert.ReferenceIdeal.Hand.RB2 (after Cert.ReferenceIdeal.Hand.RA2 Z') Cert.ReferenceIdeal.Hand.RB2_writes (r := Cert.ReferenceIdeal.main_arg10) (by decide)), (after_of_writes_sub Cert.ReferenceIdeal.Hand.RA2 Z' Cert.ReferenceIdeal.Hand.RA2_writes (r := Cert.ReferenceIdeal.main_arg10) (by decide))]; exact E.r10)
    r11 := (by show AllReal (after Cert.ReferenceIdeal.Hand.RC2 (after Cert.ReferenceIdeal.Hand.RB2 (after Cert.ReferenceIdeal.Hand.RA2 Z')) (Proc.devRef .tc Cert.ReferenceIdeal.main_arg11)); rw [(after_of_writes_sub Cert.ReferenceIdeal.Hand.RC2 (after Cert.ReferenceIdeal.Hand.RB2 (after Cert.ReferenceIdeal.Hand.RA2 Z')) Cert.ReferenceIdeal.Hand.RC2_writes (r := Cert.ReferenceIdeal.main_arg11) (by decide)), (after_of_writes_sub Cert.ReferenceIdeal.Hand.RB2 (after Cert.ReferenceIdeal.Hand.RA2 Z') Cert.ReferenceIdeal.Hand.RB2_writes (r := Cert.ReferenceIdeal.main_arg11) (by decide)), (after_of_writes_sub Cert.ReferenceIdeal.Hand.RA2 Z' Cert.ReferenceIdeal.Hand.RA2_writes (r := Cert.ReferenceIdeal.main_arg11) (by decide))]; exact E.r11)
    r12 := (by show AllReal (after Cert.ReferenceIdeal.Hand.RC2 (after Cert.ReferenceIdeal.Hand.RB2 (after Cert.ReferenceIdeal.Hand.RA2 Z')) (Proc.devRef .tc Cert.ReferenceIdeal.main_arg12)); rw [(after_of_writes_sub Cert.ReferenceIdeal.Hand.RC2 (after Cert.ReferenceIdeal.Hand.RB2 (after Cert.ReferenceIdeal.Hand.RA2 Z')) Cert.ReferenceIdeal.Hand.RC2_writes (r := Cert.ReferenceIdeal.main_arg12) (by decide)), (after_of_writes_sub Cert.ReferenceIdeal.Hand.RB2 (after Cert.ReferenceIdeal.Hand.RA2 Z') Cert.ReferenceIdeal.Hand.RB2_writes (r := Cert.ReferenceIdeal.main_arg12) (by decide)), (after_of_writes_sub Cert.ReferenceIdeal.Hand.RA2 Z' Cert.ReferenceIdeal.Hand.RA2_writes (r := Cert.ReferenceIdeal.main_arg12) (by decide))]; exact E.r12)
    r13 := (by show AllReal (after Cert.ReferenceIdeal.Hand.RC2 (after Cert.ReferenceIdeal.Hand.RB2 (after Cert.ReferenceIdeal.Hand.RA2 Z')) (Proc.devRef .tc Cert.ReferenceIdeal.main_arg13)); rw [(after_of_writes_sub Cert.ReferenceIdeal.Hand.RC2 (after Cert.ReferenceIdeal.Hand.RB2 (after Cert.ReferenceIdeal.Hand.RA2 Z')) Cert.ReferenceIdeal.Hand.RC2_writes (r := Cert.ReferenceIdeal.main_arg13) (by decide)), (after_of_writes_sub Cert.ReferenceIdeal.Hand.RB2 (after Cert.ReferenceIdeal.Hand.RA2 Z') Cert.ReferenceIdeal.Hand.RB2_writes (r := Cert.ReferenceIdeal.main_arg13) (by decide)), (after_of_writes_sub Cert.ReferenceIdeal.Hand.RA2 Z' Cert.ReferenceIdeal.Hand.RA2_writes (r := Cert.ReferenceIdeal.main_arg13) (by decide))]; exact E.r13) }

end Cert.Proof.Core

end
-- ==== Proof.KI.Val6.lean ====
/-
  The first kernel of layer 3, from blocks to the array. The grid has 20 points. Point t reads rows 5000 t … 5000 t + 4999 of the
  aggregated features and of the node features, and, whole, the 128 × 128 weights and the 1 × 128 bias row; it writes back
  rows 5000 t … 5000 t + 4999 of the output. Entry (p, q) of the stored block is
      (∑ k, (agg (5000 t + p, k) + x (5000 t + p, k)) · w (k, q)) + b (0, q)
  (a change of number format is the identity on the extended reals), and the 20 blocks tile the 100000 rows: the output
  array ends holding the first stage P1 of the arrays as the region finds them.
-/
import proofs.«141748_j59863254171699_1_alg».proof.Proof.KI.Region6
import proofs.«141748_j59863254171699_1_alg».proof.Proof.LibLinearAt
import proofs.«141748_j59863254171699_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The zero offsets, as a function. -/
theorem val6_hz : (![0, 0] : Fin 2 → Nat) = fun _ => 0 := funext fun a => by fin_cases a <;> rfl

/-- Row p of block t is row 5000 t + p of the array. -/
def rowOf6 (t : Fin 20) (p : Fin 5000) : Fin 100000 := ⟨t.val * 5000 + p.val, by have := t.isLt; have := p.isLt; omega⟩

/-- Window 0's block at point t is rows 5000 t … 5000 t + 4999 of its array. -/
theorem val6_blk0 (c : Dev nD) (t : Fin cfg6.N) (p : Fin 5000) (q : Fin 128) :
    iblk6 V c 0 t (ix2 p q) = V c main_v131 (ix2 (rowOf6 t p) q) := by
  obtain ⟨e0, e1⟩ : win6_0.index t (0 : Fin 2) = t.val ∧ win6_0.index t (1 : Fin 2) = 0 :=
    (by decide +kernel : ∀ t : Fin grid6.N, win6_0.index t (0 : Fin 2) = t.val ∧ win6_0.index t (1 : Fin 2) = 0) t
  show V c main_v131 (((cfg6.win 0).blk t).view.emb (ix2 p q)) = _
  refine congrArg (V c main_v131) (funext fun a => Fin.ext ?_)
  match a with
  | ⟨0, _⟩ => show win6_0.index t (0 : Fin 2) * 5000 + 1 * p.val = t.val * 5000 + p.val; omega
  | ⟨1, _⟩ => show win6_0.index t (1 : Fin 2) * 128 + 1 * q.val = q.val; omega

/-- Window 1's block at point t is rows 5000 t … 5000 t + 4999 of its array. -/
theorem val6_blk1 (c : Dev nD) (t : Fin cfg6.N) (p : Fin 5000) (q : Fin 128) :
    iblk6 V c 1 t (ix2 p q) = V c main_v121 (ix2 (rowOf6 t p) q) := by
  obtain ⟨e0, e1⟩ : win6_1.index t (0 : Fin 2) = t.val ∧ win6_1.index t (1 : Fin 2) = 0 :=
    (by decide +kernel : ∀ t : Fin grid6.N, win6_1.index t (0 : Fin 2) = t.val ∧ win6_1.index t (1 : Fin 2) = 0) t
  show V c main_v121 (((cfg6.win 1).blk t).view.emb (ix2 p q)) = _
  refine congrArg (V c main_v121) (funext fun a => Fin.ext ?_)
  match a with
  | ⟨0, _⟩ => show win6_1.index t (0 : Fin 2) * 5000 + 1 * p.val = t.val * 5000 + p.val; omega
  | ⟨1, _⟩ => show win6_1.index t (1 : Fin 2) * 128 + 1 * q.val = q.val; omega

/-- Window 2's block is its one whole 128 × 128 matrix, whatever the point. -/
theorem val6_mat2 (c : Dev nD) (t : Fin cfg6.N) (k q : Fin 128) :
    iblk6 V c 2 t (ix2 k q) = V c main_v136 (ix2 k q) := by
  obtain ⟨e0, e1⟩ : win6_2.index t (0 : Fin 2) = 0 ∧ win6_2.index t (1 : Fin 2) = 0 :=
    (by decide +kernel : ∀ t : Fin grid6.N, win6_2.index t (0 : Fin 2) = 0 ∧ win6_2.index t (1 : Fin 2) = 0) t
  show V c main_v136 (((cfg6.win 2).blk t).view.emb (ix2 k q)) = _
  refine congrArg (V c main_v136) (funext fun a => Fin.ext ?_)
  match a with
  | ⟨0, _⟩ => show win6_2.index t (0 : Fin 2) * 128 + 1 * k.val = k.val; omega
  | ⟨1, _⟩ => show win6_2.index t (1 : Fin 2) * 128 + 1 * q.val = q.val; omega

/-- Window 3's block is its one whole row of per-feature numbers, whatever the point. -/
theorem val6_row3 (c : Dev nD) (t : Fin cfg6.N) (q : Fin 128) :
    iblk6 V c 3 t (ix2 0 q) = V c main_v134 (ix2 0 q) := by
  obtain ⟨e0, e1⟩ : win6_3.index t (0 : Fin 2) = 0 ∧ win6_3.index t (1 : Fin 2) = 0 :=
    (by decide +kernel : ∀ t : Fin grid6.N, win6_3.index t (0 : Fin 2) = 0 ∧ win6_3.index t (1 : Fin 2) = 0) t
  show V c main_v134 (((cfg6.win 3).blk t).view.emb (ix2 0 q)) = _
  refine congrArg (V c main_v134) (funext fun a => Fin.ext ?_)
  match a with
  | ⟨0, _⟩ => show win6_3.index t (0 : Fin 2) * 1 + 1 * 0 = 0; omega
  | ⟨1, _⟩ => show win6_3.index t (1 : Fin 2) * 128 + 1 * q.val = q.val; omega

/-- The output's block at point t sits at rows 5000 t … 5000 t + 4999. -/
theorem val6_emb (t : Fin cfg6.N) (p : Fin 5000) (q : Fin 128) :
    ((cfg6.win 4).blk t).view.emb (ix2 p q) = ix2 (rowOf6 t p) q := by
  obtain ⟨e0, e1⟩ : win6_4.index t (0 : Fin 2) = t.val ∧ win6_4.index t (1 : Fin 2) = 0 :=
    (by decide +kernel : ∀ t : Fin grid6.N, win6_4.index t (0 : Fin 2) = t.val ∧ win6_4.index t (1 : Fin 2) = 0) t
  refine funext fun a => Fin.ext ?_
  match a with
  | ⟨0, _⟩ => show win6_4.index t (0 : Fin 2) * 5000 + 1 * p.val = t.val * 5000 + p.val; omega
  | ⟨1, _⟩ => show win6_4.index t (1 : Fin 2) * 128 + 1 * q.val = q.val; omega

/-- The first kernel's arithmetic at an entry: the product of the summed block with the weights, accumulated from the zero
    array, plus the bias row repeated down the rows. -/
theorem pay6_apply (agg x : Vec Ideal S5000x128 .f32) (w : Vec Ideal S128x128 .bf16) (b : Vec Ideal S1x128 .f32) (p : Fin 5000) (q : Fin 128) :
    k6_pay1 (F := Ideal) agg x w b (ix2 p q)
      = (∑ k : Fin 128, (agg (ix2 p k) + x (ix2 p k)) * w (ix2 k q)) + b (ix2 0 q) := by
  unfold k6_pay1
  refine (Cert.LinearAt.matmul_bias_apply 5000 128 128 dot_S5000x128_S128x128_S5000x128_1_0_0_1_n_n rfl _ _ b _ _ p q).trans ?_
  simp only [shapeCast_self]
  rfl

/-- What point t writes back is block t of the first stage of the arrays as the region finds them. -/
theorem val6_flushed (c : Dev nD) (t : Fin cfg6.N) :
    (dat6 (F := Ideal) V c).flushed 4 t = ((cfg6.win 4).blk t).view.read (Elt Ideal)
      (Cert.Spec.P1 (V c main_v131) (V c main_v121) (V c main_v136) (V c main_v134)) := by
  show (cfg6.win 4).cut (grid6.coords t) ((dat6 (F := Ideal) V c).after 4 t) = _
  rw [after6_4]
  unfold out6_4
  rw [View.canon_unit_zero val6_hz]
  simp only [View.ld_unit_zero (S := S5000x128) val6_hz, View.ld_unit_zero (S := S128x128) val6_hz, View.ld_unit_zero (S := S1x128) val6_hz]
  funext j
  obtain ⟨p, q, rfl⟩ : ∃ (p : Fin 5000) (q : Fin 128), j = ix2 p q := ⟨j 0, j 1, eq_ix2 j⟩
  refine (pay6_apply _ _ _ _ p q).trans ?_
  simp only [val6_blk0, val6_blk1, val6_mat2, val6_row3]
  show _ = Cert.Spec.P1 (V c main_v131) (V c main_v121) (V c main_v136) (V c main_v134)
    (((cfg6.win 4).blk t).view.emb (ix2 p q))
  rw [val6_emb]
  rfl

/-- Every index of the array is in some point's block: row r is in block r / 5000. -/
theorem val6_cover (i : S100000x128.Idx) :
    ∃ t : Fin cfg6.N, (cfg6.win 4).flush t = true ∧ i ∈ ((cfg6.win 4).blk t).view.set := by
  have hi0 : (i 0).val < 100000 := (i 0).isLt
  have hi1 : (i 1).val < 128 := (i 1).isLt
  obtain ⟨t, ht⟩ : ∃ t : Fin cfg6.N, t.val = (i 0).val / 5000 := ⟨⟨(i 0).val / 5000, by show _ < 20; omega⟩, rfl⟩
  obtain ⟨e0, e1⟩ : win6_4.index t (0 : Fin 2) = t.val ∧ win6_4.index t (1 : Fin 2) = 0 :=
    (by decide +kernel : ∀ t : Fin grid6.N, win6_4.index t (0 : Fin 2) = t.val ∧ win6_4.index t (1 : Fin 2) = 0) t
  refine ⟨t, flush6_4 t, ?_⟩
  show i ∈ ((View.whole main_v137).slice (win6_4.rect t)).set
  rw [View.set_slice_whole, Rect.mem_set_unit]
  intro a
  match a with
  | ⟨0, _⟩ => show win6_4.index t (0 : Fin 2) * 5000 ≤ (i 0).val ∧ (i 0).val < win6_4.index t (0 : Fin 2) * 5000 + 5000; omega
  | ⟨1, _⟩ => show win6_4.index t (1 : Fin 2) * 128 ≤ (i 1).val ∧ (i 1).val < win6_4.index t (1 : Fin 2) * 128 + 128; omega

/-- The array after the region: the first stage of the arrays as the region finds them. -/
theorem final6 (c : Dev nD) : (dat6 (F := Ideal) V c).arrAt 4 cfg6.N
    = Cert.Spec.P1 (V c main_v131) (V c main_v121) (V c main_v136) (V c main_v134) :=
  (dat6 (F := Ideal) V c).arrAt_eq_of_cover 4 _ (fun t _ => val6_flushed V c t) (fun i => val6_cover i)

end Cert.KernelIdeal.Hand

end
-- ==== Proof.Core.StageA3.lean ====
/-
  The first stage of layer 3 in the two programs: from equal node features with real entries, equal edge lists, and equal
  (real) weights and bias, the kernel's output array is the reference's, and has real entries.

  Both programs aggregate the neighbours' features by the same gather and accumulating scatter from the zero array. The
  kernel's output array is the first stage of the specification at the arrays its region finds: the aggregate, the node
  features, the layer's slice of the converted weight stack (the conversion is the identity at the exact instance) and the
  layer's bias cast to a row. The reference's composition — the sum of the aggregate and the features, contracted with the
  layer's weight slice, plus the bias laid out as a row and repeated down the rows — is the same first stage.
-/
import proofs.«141748_j59863254171699_1_alg».proof.Proof.Core.Base
import proofs.«141748_j59863254171699_1_alg».proof.Proof.KI.Val6
import proofs.«141748_j59863254171699_1_alg».proof.Proof.RF.BridgeA
import proofs.«141748_j59863254171699_1_alg».proof.Proof.SpecReal
import proofs.«141748_j59863254171699_1_alg».proof.Proof.Gen.ReferenceIdeal

set_option maxRecDepth 65536
set_option maxHeartbeats 16000000

noncomputable section

namespace Cert.Proof.Core

open Idealize.ShloMosaic Idealize.ShloMosaic.TcCoe Idealize.SL.Sem Idealize.ShloMosaic.StableHlo Idealize.ShloMosaic.ValueIdx
open Cert.Lib Cert.ReferenceIdeal.Hand

local notation "bc1 " v:max => broadcastInDim Cert.ReferenceIdeal.S1x128 ![1] Cert.ReferenceIdeal.Gen.bcast_S128_S1x128_1 v
local notation "bc2 " r:max => broadcastInDim Cert.ReferenceIdeal.S100000x128 ![0, 1] Cert.ReferenceIdeal.Gen.bcast_S1x128_S100000x128_0_1 r

theorem stageA3 (Z : KD → KVal) (Z' : RVal) (c : KD)
    (hx : Z c (Cert.KernelIdeal.main_v121 : DevRef Cert.KernelIdeal.τ Cert.KernelIdeal.sig) = Z' (Cert.ReferenceIdeal.main_v197 : DevRef Cert.ReferenceIdeal.τ Cert.ReferenceIdeal.sig)) (rx : AllReal (Z' (Cert.ReferenceIdeal.main_v197 : DevRef Cert.ReferenceIdeal.τ Cert.ReferenceIdeal.sig)))
    (hs : Z c (Cert.KernelIdeal.main_v1 : DevRef Cert.KernelIdeal.τ Cert.KernelIdeal.sig) = Z' (Cert.ReferenceIdeal.main_v1 : DevRef Cert.ReferenceIdeal.τ Cert.ReferenceIdeal.sig))
    (hd : Z c (Cert.KernelIdeal.main_v3 : DevRef Cert.KernelIdeal.τ Cert.KernelIdeal.sig) = Z' (Cert.ReferenceIdeal.main_v3 : DevRef Cert.ReferenceIdeal.τ Cert.ReferenceIdeal.sig))
    (hw : Z c (Cert.KernelIdeal.main_v4 : DevRef Cert.KernelIdeal.τ Cert.KernelIdeal.sig) = Z' (Cert.ReferenceIdeal.main_arg4 : DevRef Cert.ReferenceIdeal.τ Cert.ReferenceIdeal.sig)) (rw4 : AllReal (Z' (Cert.ReferenceIdeal.main_arg4 : DevRef Cert.ReferenceIdeal.τ Cert.ReferenceIdeal.sig)))
    (hb : Z c (Cert.KernelIdeal.main_arg5 : DevRef Cert.KernelIdeal.τ Cert.KernelIdeal.sig) = Z' (Cert.ReferenceIdeal.main_arg5 : DevRef Cert.ReferenceIdeal.τ Cert.ReferenceIdeal.sig)) (rb : AllReal (Z' (Cert.ReferenceIdeal.main_arg5 : DevRef Cert.ReferenceIdeal.τ Cert.ReferenceIdeal.sig))) :
    Cert.KernelIdeal.Hand.L3A' Z c (Cert.KernelIdeal.main_v137 : DevRef Cert.KernelIdeal.τ Cert.KernelIdeal.sig) = after Cert.ReferenceIdeal.Hand.RA3 Z' (Cert.ReferenceIdeal.main_v216 : DevRef Cert.ReferenceIdeal.τ Cert.ReferenceIdeal.sig)
      ∧ AllReal (after Cert.ReferenceIdeal.Hand.RA3 Z' (Cert.ReferenceIdeal.main_v216 : DevRef Cert.ReferenceIdeal.τ Cert.ReferenceIdeal.sig)) := by
  -- the reference's names for what the stage reads
  let X : FVec Ideal Cert.ReferenceIdeal.S100000x128 .f32 := Z' (Cert.ReferenceIdeal.main_v197 : DevRef Cert.ReferenceIdeal.τ Cert.ReferenceIdeal.sig)
  let W : FVec Ideal Cert.ReferenceIdeal.S128x128 .f32 := shapeCast Cert.ReferenceIdeal.S128x128 (extractStridedSlice Cert.ReferenceIdeal.S1x128x128 ![2, 0, 0] (Z' (Cert.ReferenceIdeal.main_arg4 : DevRef Cert.ReferenceIdeal.τ Cert.ReferenceIdeal.sig)) Cert.ReferenceIdeal.Gen.slices_S3x128x128_S1x128x128_2_0_0) Cert.ReferenceIdeal.Gen.shapeCasts_S1x128x128_S128x128
  let B : FVec Ideal Cert.ReferenceIdeal.S128 .f32 := shapeCast Cert.ReferenceIdeal.S128 (extractStridedSlice Cert.ReferenceIdeal.S1x128 ![2, 0] (Z' (Cert.ReferenceIdeal.main_arg5 : DevRef Cert.ReferenceIdeal.τ Cert.ReferenceIdeal.sig)) Cert.ReferenceIdeal.Gen.slices_S3x128_S1x128_2_0) Cert.ReferenceIdeal.Gen.shapeCasts_S1x128_S128
  -- the reference's fold is its printed composition, the aggregate left as the fold's value at its buffer
  have hR : after Cert.ReferenceIdeal.Hand.RA3 Z' (Cert.ReferenceIdeal.main_v216 : DevRef Cert.ReferenceIdeal.τ Cert.ReferenceIdeal.sig)
      = addf (Host.dotGeneral Cert.ReferenceIdeal.dot_S100000x128_S128x128_S100000x128_1_0_0_1_n_n none
          (addf (after Cert.ReferenceIdeal.Hand.RA3 Z' (Cert.ReferenceIdeal.main_v207 : DevRef Cert.ReferenceIdeal.τ Cert.ReferenceIdeal.sig)) X) W) (bc2 (bc1 B)) := by
    dsimp only [Cert.ReferenceIdeal.Hand.RA3]
    after_results_simp
    rfl
  -- the aggregate has real entries: an accumulating scatter of gathered real entries into the zero array
  have rAgg : AllReal (after Cert.ReferenceIdeal.Hand.RA3 Z' (Cert.ReferenceIdeal.main_v207 : DevRef Cert.ReferenceIdeal.τ Cert.ReferenceIdeal.sig)) := by
    dsimp only [Cert.ReferenceIdeal.Hand.RA3]
    after_results_simp
    exact AllReal.hostScatterAdd' _ _ (AllReal.broadcastInDim (AllReal.constant Cert.Spec.zero_real) _ _) (AllReal.gather (φ := .f32) rx _ _)
  have rW : AllReal W := fun i => rw4 _
  have rB : AllReal (bc1 B) := fun i => rb _
  -- the kernel's output array in the reference's names
  have hK : Cert.KernelIdeal.Hand.L3A' Z c (Cert.KernelIdeal.main_v137 : DevRef Cert.KernelIdeal.τ Cert.KernelIdeal.sig)
      = Cert.Spec.P1 (after Cert.ReferenceIdeal.Hand.RA3 Z' (Cert.ReferenceIdeal.main_v207 : DevRef Cert.ReferenceIdeal.τ Cert.ReferenceIdeal.sig)) X W (bc1 B) := by
    unfold Cert.KernelIdeal.Hand.L3A' Cert.KernelIdeal.Hand.W6'
    rw [Function.update_self, Cert.KernelIdeal.Hand.final6]
    dsimp only [Cert.KernelIdeal.Hand.Vof, Cert.KernelIdeal.Hand.L3A, Cert.KernelIdeal.Gen.hostOps6, Cert.ReferenceIdeal.Hand.RA3]
    after_results_simp
    refine P1_congr ?_ hx ?_ ?_
    · rw [hx, hs, hd]; rfl
    · rw [hw]; rfl
    · rw [hb]
      exact row_cast _ Cert.KernelIdeal.Gen.shapeCasts_S128_S1x128 Cert.ReferenceIdeal.Gen.bcast_S128_S1x128_1
  have hfin : after Cert.ReferenceIdeal.Hand.RA3 Z' (Cert.ReferenceIdeal.main_v216 : DevRef Cert.ReferenceIdeal.τ Cert.ReferenceIdeal.sig)
      = Cert.Spec.P1 (after Cert.ReferenceIdeal.Hand.RA3 Z' (Cert.ReferenceIdeal.main_v207 : DevRef Cert.ReferenceIdeal.τ Cert.ReferenceIdeal.sig)) X W (bc1 B) :=
    hR.trans (bridgeA _ X W B)
  refine ⟨hK.trans hfin.symm, ?_⟩
  rw [hfin]
  exact Cert.Spec.P1_real rAgg rx rW rB

end Cert.Proof.Core

end
-- ==== Proof.KI.Val7.lean ====
/-
  The second kernel of layer 3, from blocks to the array. The grid has 20 points. Point t reads rows 5000 t … 5000 t + 4999 of the
  first stage and, whole, the four 1 × 128 rows of given statistics, scale and shift, the 128 × 128 weights and the 1 × 128
  bias row; it writes back rows 5000 t … 5000 t + 4999 of the output. Entry (p, q) of the stored block is
      (∑ k, ((h (5000 t + p, k) − mean k) · rsqrt (var k + ε) · g k + bt k) · w (k, q)) + b (0, q)
  (a change of number format is the identity on the extended reals), and the 20 blocks tile the 100000 rows: the output
  array ends holding the second stage P2 of the arrays as the region finds them.
-/
import proofs.«141748_j59863254171699_1_alg».proof.Proof.KI.Region7
import proofs.«141748_j59863254171699_1_alg».proof.Proof.LibLinearAt
import proofs.«141748_j59863254171699_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The zero offsets, as a function. -/
theorem val7_hz : (![0, 0] : Fin 2 → Nat) = fun _ => 0 := funext fun a => by fin_cases a <;> rfl

/-- Row p of block t is row 5000 t + p of the array. -/
def rowOf7 (t : Fin 20) (p : Fin 5000) : Fin 100000 := ⟨t.val * 5000 + p.val, by have := t.isLt; have := p.isLt; omega⟩

/-- Window 0's block at point t is rows 5000 t … 5000 t + 4999 of its array. -/
theorem val7_blk0 (c : Dev nD) (t : Fin cfg7.N) (p : Fin 5000) (q : Fin 128) :
    iblk7 V c 0 t (ix2 p q) = V c main_v137 (ix2 (rowOf7 t p) q) := by
  obtain ⟨e0, e1⟩ : win7_0.index t (0 : Fin 2) = t.val ∧ win7_0.index t (1 : Fin 2) = 0 :=
    (by decide +kernel : ∀ t : Fin grid7.N, win7_0.index t (0 : Fin 2) = t.val ∧ win7_0.index t (1 : Fin 2) = 0) t
  show V c main_v137 (((cfg7.win 0).blk t).view.emb (ix2 p q)) = _
  refine congrArg (V c main_v137) (funext fun a => Fin.ext ?_)
  match a with
  | ⟨0, _⟩ => show win7_0.index t (0 : Fin 2) * 5000 + 1 * p.val = t.val * 5000 + p.val; omega
  | ⟨1, _⟩ => show win7_0.index t (1 : Fin 2) * 128 + 1 * q.val = q.val; omega

/-- Window 1's block is its one whole row of per-feature numbers, whatever the point. -/
theorem val7_row1 (c : Dev nD) (t : Fin cfg7.N) (q : Fin 128) :
    iblk7 V c 1 t (ix2 0 q) = V c main_v141 (ix2 0 q) := by
  obtain ⟨e0, e1⟩ : win7_1.index t (0 : Fin 2) = 0 ∧ win7_1.index t (1 : Fin 2) = 0 :=
    (by decide +kernel : ∀ t : Fin grid7.N, win7_1.index t (0 : Fin 2) = 0 ∧ win7_1.index t (1 : Fin 2) = 0) t
  show V c main_v141 (((cfg7.win 1).blk t).view.emb (ix2 0 q)) = _
  refine congrArg (V c main_v141) (funext fun a => Fin.ext ?_)
  match a with
  | ⟨0, _⟩ => show win7_1.index t (0 : Fin 2) * 1 + 1 * 0 = 0; omega
  | ⟨1, _⟩ => show win7_1.index t (1 : Fin 2) * 128 + 1 * q.val = q.val; omega

/-- Window 2's block is its one whole row of per-feature numbers, whatever the point. -/
theorem val7_row2 (c : Dev nD) (t : Fin cfg7.N) (q : Fin 128) :
    iblk7 V c 2 t (ix2 0 q) = V c main_v143 (ix2 0 q) := by
  obtain ⟨e0, e1⟩ : win7_2.index t (0 : Fin 2) = 0 ∧ win7_2.index t (1 : Fin 2) = 0 :=
    (by decide +kernel : ∀ t : Fin grid7.N, win7_2.index t (0 : Fin 2) = 0 ∧ win7_2.index t (1 : Fin 2) = 0) t
  show V c main_v143 (((cfg7.win 2).blk t).view.emb (ix2 0 q)) = _
  refine congrArg (V c main_v143) (funext fun a => Fin.ext ?_)
  match a with
  | ⟨0, _⟩ => show win7_2.index t (0 : Fin 2) * 1 + 1 * 0 = 0; omega
  | ⟨1, _⟩ => show win7_2.index t (1 : Fin 2) * 128 + 1 * q.val = q.val; omega

/-- Window 3's block is its one whole row of per-feature numbers, whatever the point. -/
theorem val7_row3 (c : Dev nD) (t : Fin cfg7.N) (q : Fin 128) :
    iblk7 V c 3 t (ix2 0 q) = V c main_v146 (ix2 0 q) := by
  obtain ⟨e0, e1⟩ : win7_3.index t (0 : Fin 2) = 0 ∧ win7_3.index t (1 : Fin 2) = 0 :=
    (by decide +kernel : ∀ t : Fin grid7.N, win7_3.index t (0 : Fin 2) = 0 ∧ win7_3.index t (1 : Fin 2) = 0) t
  show V c main_v146 (((cfg7.win 3).blk t).view.emb (ix2 0 q)) = _
  refine congrArg (V c main_v146) (funext fun a => Fin.ext ?_)
  match a with
  | ⟨0, _⟩ => show win7_3.index t (0 : Fin 2) * 1 + 1 * 0 = 0; omega
  | ⟨1, _⟩ => show win7_3.index t (1 : Fin 2) * 128 + 1 * q.val = q.val; omega

/-- Window 4's block is its one whole row of per-feature numbers, whatever the point. -/
theorem val7_row4 (c : Dev nD) (t : Fin cfg7.N) (q : Fin 128) :
    iblk7 V c 4 t (ix2 0 q) = V c main_v149 (ix2 0 q) := by
  obtain ⟨e0, e1⟩ : win7_4.index t (0 : Fin 2) = 0 ∧ win7_4.index t (1 : Fin 2) = 0 :=
    (by decide +kernel : ∀ t : Fin grid7.N, win7_4.index t (0 : Fin 2) = 0 ∧ win7_4.index t (1 : Fin 2) = 0) t
  show V c main_v149 (((cfg7.win 4).blk t).view.emb (ix2 0 q)) = _
  refine congrArg (V c main_v149) (funext fun a => Fin.ext ?_)
  match a with
  | ⟨0, _⟩ => show win7_4.index t (0 : Fin 2) * 1 + 1 * 0 = 0; omega
  | ⟨1, _⟩ => show win7_4.index t (1 : Fin 2) * 128 + 1 * q.val = q.val; omega

/-- Window 5's block is its one whole 128 × 128 matrix, whatever the point. -/
theorem val7_mat5 (c : Dev nD) (t : Fin cfg7.N) (k q : Fin 128) :
    iblk7 V c 5 t (ix2 k q) = V c main_v154 (ix2 k q) := by
  obtain ⟨e0, e1⟩ : win7_5.index t (0 : Fin 2) = 0 ∧ win7_5.index t (1 : Fin 2) = 0 :=
    (by decide +kernel : ∀ t : Fin grid7.N, win7_5.index t (0 : Fin 2) = 0 ∧ win7_5.index t (1 : Fin 2) = 0) t
  show V c main_v154 (((cfg7.win 5).blk t).view.emb (ix2 k q)) = _
  refine congrArg (V c main_v154) (funext fun a => Fin.ext ?_)
  match a with
  | ⟨0, _⟩ => show win7_5.index t (0 : Fin 2) * 128 + 1 * k.val = k.val; omega
  | ⟨1, _⟩ => show win7_5.index t (1 : Fin 2) * 128 + 1 * q.val = q.val; omega

/-- Window 6's block is its one whole row of per-feature numbers, whatever the point. -/
theorem val7_row6 (c : Dev nD) (t : Fin cfg7.N) (q : Fin 128) :
    iblk7 V c 6 t (ix2 0 q) = V c main_v152 (ix2 0 q) := by
  obtain ⟨e0, e1⟩ : win7_6.index t (0 : Fin 2) = 0 ∧ win7_6.index t (1 : Fin 2) = 0 :=
    (by decide +kernel : ∀ t : Fin grid7.N, win7_6.index t (0 : Fin 2) = 0 ∧ win7_6.index t (1 : Fin 2) = 0) t
  show V c main_v152 (((cfg7.win 6).blk t).view.emb (ix2 0 q)) = _
  refine congrArg (V c main_v152) (funext fun a => Fin.ext ?_)
  match a with
  | ⟨0, _⟩ => show win7_6.index t (0 : Fin 2) * 1 + 1 * 0 = 0; omega
  | ⟨1, _⟩ => show win7_6.index t (1 : Fin 2) * 128 + 1 * q.val = q.val; omega

/-- The output's block at point t sits at rows 5000 t … 5000 t + 4999. -/
theorem val7_emb (t : Fin cfg7.N) (p : Fin 5000) (q : Fin 128) :
    ((cfg7.win 7).blk t).view.emb (ix2 p q) = ix2 (rowOf7 t p) q := by
  obtain ⟨e0, e1⟩ : win7_7.index t (0 : Fin 2) = t.val ∧ win7_7.index t (1 : Fin 2) = 0 :=
    (by decide +kernel : ∀ t : Fin grid7.N, win7_7.index t (0 : Fin 2) = t.val ∧ win7_7.index t (1 : Fin 2) = 0) t
  refine funext fun a => Fin.ext ?_
  match a with
  | ⟨0, _⟩ => show win7_7.index t (0 : Fin 2) * 5000 + 1 * p.val = t.val * 5000 + p.val; omega
  | ⟨1, _⟩ => show win7_7.index t (1 : Fin 2) * 128 + 1 * q.val = q.val; omega

/-- The second kernel's arithmetic at an entry: the block normalised per feature with the given statistics, scaled and
    shifted, then its product with the weights, accumulated from the zero array, plus the bias row repeated down the rows. -/
theorem pay7_apply (x : Vec Ideal S5000x128 .f32) (mean var g bt : Vec Ideal S1x128 .f32) (w : Vec Ideal S128x128 .bf16)
    (b : Vec Ideal S1x128 .f32) (p : Fin 5000) (q : Fin 128) :
    k7_pay1 (F := Ideal) x var mean g bt w b (ix2 p q)
      = (∑ k : Fin 128, Cert.Spec.norm1 (x (ix2 p k)) (mean (ix2 0 k)) (var (ix2 0 k)) (g (ix2 0 k)) (bt (ix2 0 k)) * w (ix2 k q))
          + b (ix2 0 q) := by
  unfold k7_pay1
  refine (Cert.LinearAt.matmul_bias_apply 5000 128 128 dot_S5000x128_S128x128_S5000x128_1_0_0_1_n_n rfl _ _ b _ _ p q).trans ?_
  simp only [shapeCast_self]
  simp only [truncf_apply, addf_apply, mulf_apply, subf_apply, broadcastTo_1b_ab_apply]
  rfl

/-- What point t writes back is block t of the second stage of the arrays as the region finds them. -/
theorem val7_flushed (c : Dev nD) (t : Fin cfg7.N) :
    (dat7 (F := Ideal) V c).flushed 7 t = ((cfg7.win 7).blk t).view.read (Elt Ideal)
      (Cert.Spec.P2 (V c main_v137) (V c main_v141) (V c main_v143) (V c main_v146) (V c main_v149) (V c main_v154) (V c main_v152)) := by
  show (cfg7.win 7).cut (grid7.coords t) ((dat7 (F := Ideal) V c).after 7 t) = _
  rw [after7_7]
  unfold out7_7
  rw [View.canon_unit_zero val7_hz]
  simp only [View.ld_unit_zero (S := S5000x128) val7_hz, View.ld_unit_zero (S := S128x128) val7_hz, View.ld_unit_zero (S := S1x128) val7_hz]
  funext j
  obtain ⟨p, q, rfl⟩ : ∃ (p : Fin 5000) (q : Fin 128), j = ix2 p q := ⟨j 0, j 1, eq_ix2 j⟩
  refine (pay7_apply _ _ _ _ _ _ _ p q).trans ?_
  simp only [val7_blk0, val7_row1, val7_row2, val7_row3, val7_row4, val7_mat5, val7_row6]
  show _ = Cert.Spec.P2 (V c main_v137) (V c main_v141) (V c main_v143) (V c main_v146) (V c main_v149) (V c main_v154) (V c main_v152)
    (((cfg7.win 7).blk t).view.emb (ix2 p q))
  rw [val7_emb]
  rfl

/-- Every index of the array is in some point's block: row r is in block r / 5000. -/
theorem val7_cover (i : S100000x128.Idx) :
    ∃ t : Fin cfg7.N, (cfg7.win 7).flush t = true ∧ i ∈ ((cfg7.win 7).blk t).view.set := by
  have hi0 : (i 0).val < 100000 := (i 0).isLt
  have hi1 : (i 1).val < 128 := (i 1).isLt
  obtain ⟨t, ht⟩ : ∃ t : Fin cfg7.N, t.val = (i 0).val / 5000 := ⟨⟨(i 0).val / 5000, by show _ < 20; omega⟩, rfl⟩
  obtain ⟨e0, e1⟩ : win7_7.index t (0 : Fin 2) = t.val ∧ win7_7.index t (1 : Fin 2) = 0 :=
    (by decide +kernel : ∀ t : Fin grid7.N, win7_7.index t (0 : Fin 2) = t.val ∧ win7_7.index t (1 : Fin 2) = 0) t
  refine ⟨t, flush7_7 t, ?_⟩
  show i ∈ ((View.whole main_v155).slice (win7_7.rect t)).set
  rw [View.set_slice_whole, Rect.mem_set_unit]
  intro a
  match a with
  | ⟨0, _⟩ => show win7_7.index t (0 : Fin 2) * 5000 ≤ (i 0).val ∧ (i 0).val < win7_7.index t (0 : Fin 2) * 5000 + 5000; omega
  | ⟨1, _⟩ => show win7_7.index t (1 : Fin 2) * 128 ≤ (i 1).val ∧ (i 1).val < win7_7.index t (1 : Fin 2) * 128 + 128; omega

/-- The array after the region: the second stage of the arrays as the region finds them. -/
theorem final7 (c : Dev nD) : (dat7 (F := Ideal) V c).arrAt 7 cfg7.N
    = Cert.Spec.P2 (V c main_v137) (V c main_v141) (V c main_v143) (V c main_v146) (V c main_v149) (V c main_v154) (V c main_v152) :=
  (dat7 (F := Ideal) V c).arrAt_eq_of_cover 7 _ (fun t _ => val7_flushed V c t) (fun i => val7_cover i)

end Cert.KernelIdeal.Hand

end
-- ==== Proof.Core.StageB3.lean ====
/-
  The second stage of layer 3 in the two programs: from equal first-stage arrays with real entries, equal (real) scale, shift
  and bias arguments and equal (real) weights, the kernel's output array is the reference's, and has real entries. Both
  programs take the column mean and the column variance of the first-stage array by the same operations; the kernel reads
  them, the scale, the shift and the bias as 1 × 128 rows (a 128-vector cast to a row is the vector laid along the second
  axis), and the second stage's formula on both sides is
      (∑ k, ((p (r, k) − mean k) · rsqrt (var k + ε) · g k + bt k) · w (k, j)) + b j.
-/
import proofs.«141748_j59863254171699_1_alg».proof.Proof.Core.Base
import proofs.«141748_j59863254171699_1_alg».proof.Proof.KI.Val7
import proofs.«141748_j59863254171699_1_alg».proof.Proof.RF.BridgeB
import proofs.«141748_j59863254171699_1_alg».proof.Proof.RF.StatsReal
import proofs.«141748_j59863254171699_1_alg».proof.Proof.SpecReal
import proofs.«141748_j59863254171699_1_alg».proof.Proof.Gen.ReferenceIdeal

set_option maxRecDepth 65536
set_option maxHeartbeats 16000000

noncomputable section

namespace Cert.Proof.Core

open Idealize.ShloMosaic Idealize.ShloMosaic.TcCoe Idealize.SL.Sem Idealize.ShloMosaic.StableHlo Idealize.ShloMosaic.ValueIdx
open Cert.Lib Cert.ReferenceIdeal.Hand

local notation "bc1 " v:max => broadcastInDim Cert.ReferenceIdeal.S1x128 ![1] Cert.ReferenceIdeal.Gen.bcast_S128_S1x128_1 v
local notation "bc2 " r:max => broadcastInDim Cert.ReferenceIdeal.S100000x128 ![0, 1] Cert.ReferenceIdeal.Gen.bcast_S1x128_S100000x128_0_1 r

theorem stageB3 (Z : KD → KVal) (Z' : RVal) (c : KD)
    (hp : Z c (Cert.KernelIdeal.main_v137 : DevRef _ _) = Z' (Cert.ReferenceIdeal.main_v216 : DevRef _ _)) (rp : AllReal (Z' (Cert.ReferenceIdeal.main_v216 : DevRef _ _)))
    (h6 : Z c (Cert.KernelIdeal.main_arg6 : DevRef _ _) = Z' (Cert.ReferenceIdeal.main_arg6 : DevRef _ _)) (r6 : AllReal (Z' (Cert.ReferenceIdeal.main_arg6 : DevRef _ _)))
    (h7 : Z c (Cert.KernelIdeal.main_arg7 : DevRef _ _) = Z' (Cert.ReferenceIdeal.main_arg7 : DevRef _ _)) (r7 : AllReal (Z' (Cert.ReferenceIdeal.main_arg7 : DevRef _ _)))
    (hw : Z c (Cert.KernelIdeal.main_v5 : DevRef _ _) = Z' (Cert.ReferenceIdeal.main_arg8 : DevRef _ _)) (rw8 : AllReal (Z' (Cert.ReferenceIdeal.main_arg8 : DevRef _ _)))
    (h9 : Z c (Cert.KernelIdeal.main_arg9 : DevRef _ _) = Z' (Cert.ReferenceIdeal.main_arg9 : DevRef _ _)) (r9 : AllReal (Z' (Cert.ReferenceIdeal.main_arg9 : DevRef _ _))) :
    Cert.KernelIdeal.Hand.W7' (fun c => after Cert.KernelIdeal.Gen.hostOps7_2 (after Cert.KernelIdeal.Gen.hostOps7_1 (after Cert.KernelIdeal.Gen.hostOps7 (Z c)))) c (Cert.KernelIdeal.main_v155 : DevRef _ _)
        = after Cert.ReferenceIdeal.Hand.RB3 Z' (Cert.ReferenceIdeal.main_v247 : DevRef _ _)
      ∧ AllReal (after Cert.ReferenceIdeal.Hand.RB3 Z' (Cert.ReferenceIdeal.main_v247 : DevRef _ _)) := by
  -- the reference's names for what the stage reads and computes
  let P : FVec Ideal Cert.ReferenceIdeal.S100000x128 .f32 := Z' (Proc.devRef .tc Cert.ReferenceIdeal.main_v216)
  let G : FVec Ideal Cert.ReferenceIdeal.S128 .f32 := (shapeCast Cert.ReferenceIdeal.S128 (extractStridedSlice Cert.ReferenceIdeal.S1x128 ![2, 0] (Z' (Proc.devRef .tc Cert.ReferenceIdeal.main_arg6)) Cert.ReferenceIdeal.Gen.slices_S3x128_S1x128_2_0) Cert.ReferenceIdeal.Gen.shapeCasts_S1x128_S128)
  let BT : FVec Ideal Cert.ReferenceIdeal.S128 .f32 := (shapeCast Cert.ReferenceIdeal.S128 (extractStridedSlice Cert.ReferenceIdeal.S1x128 ![2, 0] (Z' (Proc.devRef .tc Cert.ReferenceIdeal.main_arg7)) Cert.ReferenceIdeal.Gen.slices_S3x128_S1x128_2_0) Cert.ReferenceIdeal.Gen.shapeCasts_S1x128_S128)
  let B : FVec Ideal Cert.ReferenceIdeal.S128 .f32 := (shapeCast Cert.ReferenceIdeal.S128 (extractStridedSlice Cert.ReferenceIdeal.S1x128 ![2, 0] (Z' (Proc.devRef .tc Cert.ReferenceIdeal.main_arg9)) Cert.ReferenceIdeal.Gen.slices_S3x128_S1x128_2_0) Cert.ReferenceIdeal.Gen.shapeCasts_S1x128_S128)
  let Wt : FVec Ideal Cert.ReferenceIdeal.S128x128 .f32 := shapeCast Cert.ReferenceIdeal.S128x128 (extractStridedSlice Cert.ReferenceIdeal.S1x128x128 ![2, 0, 0] (Z' (Proc.devRef .tc Cert.ReferenceIdeal.main_arg8)) Cert.ReferenceIdeal.Gen.slices_S3x128x128_S1x128x128_2_0_0) Cert.ReferenceIdeal.Gen.shapeCasts_S1x128x128_S128x128
  let M := meanOf P
  let Vr := varOf P
  -- the reference's fold is its printed composition
  have hR : after Cert.ReferenceIdeal.Hand.RB3 Z' (Cert.ReferenceIdeal.main_v247 : DevRef _ _)
      = addf (Host.dotGeneral Cert.ReferenceIdeal.dot_S100000x128_S128x128_S100000x128_1_0_0_1_n_n none (bn P M Vr G BT) Wt) (bc2 (bc1 B)) := by
    dsimp only [Cert.ReferenceIdeal.Hand.RB3]
    after_results_simp
    rfl
  have hfin : after Cert.ReferenceIdeal.Hand.RB3 Z' (Cert.ReferenceIdeal.main_v247 : DevRef _ _)
      = Cert.Spec.P2 P (bc1 M) (bc1 Vr) (bc1 G) (bc1 BT) Wt (bc1 B) :=
    hR.trans (bridgeB P M Vr G BT B Wt)
  -- realness of everything in sight
  have rG : AllReal G := fun i => r6 _
  have rBT : AllReal BT := fun i => r7 _
  have rB : AllReal B := fun i => r9 _
  have rW : AllReal Wt := fun i => rw8 _
  have rM : AllReal M := meanOf_real rp
  have nV : ∀ j : Fin 128, ∃ x : ℝ, 0 ≤ x ∧ Vr (ix1 j) = (x : EReal) := varOf_nonneg rp
  have row_real : ∀ {v : FVec Ideal Cert.ReferenceIdeal.S128 .f32}, AllReal v → AllReal (bc1 v) := fun hv i => hv _
  have row_nn : ∀ {v : FVec Ideal Cert.ReferenceIdeal.S128 .f32}, (∀ j : Fin 128, ∃ x : ℝ, 0 ≤ x ∧ v (ix1 j) = (x : EReal)) → Cert.Spec.NonnegRow (bc1 v) :=
    fun hv k => by obtain ⟨x, hx, e⟩ := hv k; exact ⟨x, hx, (bc1_apply _ 0 k).trans e⟩
  -- the kernel's output array, row by row in the reference's names
  have hK : Cert.KernelIdeal.Hand.W7' (fun c => after Cert.KernelIdeal.Gen.hostOps7_2 (after Cert.KernelIdeal.Gen.hostOps7_1 (after Cert.KernelIdeal.Gen.hostOps7 (Z c)))) c (Cert.KernelIdeal.main_v155 : DevRef _ _)
      = Cert.Spec.P2 P (bc1 M) (bc1 Vr) (bc1 G) (bc1 BT) Wt (bc1 B) := by
    unfold Cert.KernelIdeal.Hand.W7'
    rw [Function.update_self, Cert.KernelIdeal.Hand.final7]
    dsimp only [Cert.KernelIdeal.Hand.Vof, Cert.KernelIdeal.Gen.hostOps7, Cert.KernelIdeal.Gen.hostOps7_1, Cert.KernelIdeal.Gen.hostOps7_2]
    after_results_simp
    rw [hp, h6, h7, hw, h9]
    refine P2_congr rfl ?_ ?_ ?_ ?_ ?_ ?_
    · exact (row_cast _ Cert.KernelIdeal.Gen.shapeCasts_S128_S1x128 Cert.ReferenceIdeal.Gen.bcast_S128_S1x128_1).trans rfl
    · exact (row_cast _ Cert.KernelIdeal.Gen.shapeCasts_S128_S1x128 Cert.ReferenceIdeal.Gen.bcast_S128_S1x128_1).trans rfl
    · exact (row_cast _ Cert.KernelIdeal.Gen.shapeCasts_S128_S1x128 Cert.ReferenceIdeal.Gen.bcast_S128_S1x128_1).trans rfl
    · exact (row_cast _ Cert.KernelIdeal.Gen.shapeCasts_S128_S1x128 Cert.ReferenceIdeal.Gen.bcast_S128_S1x128_1).trans rfl
    · rfl
    · exact (row_cast _ Cert.KernelIdeal.Gen.shapeCasts_S128_S1x128 Cert.ReferenceIdeal.Gen.bcast_S128_S1x128_1).trans rfl
  refine ⟨hK.trans hfin.symm, ?_⟩
  rw [hfin]
  exact Cert.Spec.P2_real rp (row_real rM) (row_nn nV) (row_real rG) (row_real rBT) rW (row_real rB)

end Cert.Proof.Core

end
-- ==== Proof.KI.Val8.lean ====
/-
  The third kernel of layer 3, from blocks to the array. The grid has 20 points. Point t reads rows 5000 t … 5000 t + 4999 of the
  node features and, whole, each 1 × 128 row of per-feature numbers; it writes back rows 5000 t … 5000 t + 4999 of the output.
  Entry (p, q) of the stored block is the third stage's formula at row 5000 t + p and feature q (two normalisations with the
  given statistics, then the maximum with zero), and the 20 blocks tile the 100000 rows: the output array ends holding the
  third stage X3 of the arrays as the region finds them.
-/
import proofs.«141748_j59863254171699_1_alg».proof.Proof.KI.Region8
import proofs.«141748_j59863254171699_1_alg».proof.Proof.KI.PayC
import proofs.«141748_j59863254171699_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The zero offsets, as a function. -/
theorem val8_hz : (![0, 0] : Fin 2 → Nat) = fun _ => 0 := funext fun a => by fin_cases a <;> rfl

/-- Row p of block t is row 5000 t + p of the array. -/
def rowOf8 (t : Fin 20) (p : Fin 5000) : Fin 100000 := ⟨t.val * 5000 + p.val, by have := t.isLt; have := p.isLt; omega⟩

/-- Window 0's block at point t is rows 5000 t … 5000 t + 4999 of its array. -/
theorem val8_blk0 (c : Dev nD) (t : Fin cfg8.N) (p : Fin 5000) (q : Fin 128) :
    iblk8 V c 0 t (ix2 p q) = V c main_v155 (ix2 (rowOf8 t p) q) := by
  obtain ⟨e0, e1⟩ : win8_0.index t (0 : Fin 2) = t.val ∧ win8_0.index t (1 : Fin 2) = 0 :=
    (by decide +kernel : ∀ t : Fin grid8.N, win8_0.index t (0 : Fin 2) = t.val ∧ win8_0.index t (1 : Fin 2) = 0) t
  show V c main_v155 (((cfg8.win 0).blk t).view.emb (ix2 p q)) = _
  refine congrArg (V c main_v155) (funext fun a => Fin.ext ?_)
  match a with
  | ⟨0, _⟩ => show win8_0.index t (0 : Fin 2) * 5000 + 1 * p.val = t.val * 5000 + p.val; omega
  | ⟨1, _⟩ => show win8_0.index t (1 : Fin 2) * 128 + 1 * q.val = q.val; omega

/-- Window 1's block is its one whole row of per-feature numbers, whatever the point. -/
theorem val8_row1 (c : Dev nD) (t : Fin cfg8.N) (q : Fin 128) :
    iblk8 V c 1 t (ix2 0 q) = V c main_v159 (ix2 0 q) := by
  obtain ⟨e0, e1⟩ : win8_1.index t (0 : Fin 2) = 0 ∧ win8_1.index t (1 : Fin 2) = 0 :=
    (by decide +kernel : ∀ t : Fin grid8.N, win8_1.index t (0 : Fin 2) = 0 ∧ win8_1.index t (1 : Fin 2) = 0) t
  show V c main_v159 (((cfg8.win 1).blk t).view.emb (ix2 0 q)) = _
  refine congrArg (V c main_v159) (funext fun a => Fin.ext ?_)
  match a with
  | ⟨0, _⟩ => show win8_1.index t (0 : Fin 2) * 1 + 1 * 0 = 0; omega
  | ⟨1, _⟩ => show win8_1.index t (1 : Fin 2) * 128 + 1 * q.val = q.val; omega

/-- Window 2's block is its one whole row of per-feature numbers, whatever the point. -/
theorem val8_row2 (c : Dev nD) (t : Fin cfg8.N) (q : Fin 128) :
    iblk8 V c 2 t (ix2 0 q) = V c main_v161 (ix2 0 q) := by
  obtain ⟨e0, e1⟩ : win8_2.index t (0 : Fin 2) = 0 ∧ win8_2.index t (1 : Fin 2) = 0 :=
    (by decide +kernel : ∀ t : Fin grid8.N, win8_2.index t (0 : Fin 2) = 0 ∧ win8_2.index t (1 : Fin 2) = 0) t
  show V c main_v161 (((cfg8.win 2).blk t).view.emb (ix2 0 q)) = _
  refine congrArg (V c main_v161) (funext fun a => Fin.ext ?_)
  match a with
  | ⟨0, _⟩ => show win8_2.index t (0 : Fin 2) * 1 + 1 * 0 = 0; omega
  | ⟨1, _⟩ => show win8_2.index t (1 : Fin 2) * 128 + 1 * q.val = q.val; omega

/-- Window 3's block is its one whole row of per-feature numbers, whatever the point. -/
theorem val8_row3 (c : Dev nD) (t : Fin cfg8.N) (q : Fin 128) :
    iblk8 V c 3 t (ix2 0 q) = V c main_v164 (ix2 0 q) := by
  obtain ⟨e0, e1⟩ : win8_3.index t (0 : Fin 2) = 0 ∧ win8_3.index t (1 : Fin 2) = 0 :=
    (by decide +kernel : ∀ t : Fin grid8.N, win8_3.index t (0 : Fin 2) = 0 ∧ win8_3.index t (1 : Fin 2) = 0) t
  show V c main_v164 (((cfg8.win 3).blk t).view.emb (ix2 0 q)) = _
  refine congrArg (V c main_v164) (funext fun a => Fin.ext ?_)
  match a with
  | ⟨0, _⟩ => show win8_3.index t (0 : Fin 2) * 1 + 1 * 0 = 0; omega
  | ⟨1, _⟩ => show win8_3.index t (1 : Fin 2) * 128 + 1 * q.val = q.val; omega

/-- Window 4's block is its one whole row of per-feature numbers, whatever the point. -/
theorem val8_row4 (c : Dev nD) (t : Fin cfg8.N) (q : Fin 128) :
    iblk8 V c 4 t (ix2 0 q) = V c main_v167 (ix2 0 q) := by
  obtain ⟨e0, e1⟩ : win8_4.index t (0 : Fin 2) = 0 ∧ win8_4.index t (1 : Fin 2) = 0 :=
    (by decide +kernel : ∀ t : Fin grid8.N, win8_4.index t (0 : Fin 2) = 0 ∧ win8_4.index t (1 : Fin 2) = 0) t
  show V c main_v167 (((cfg8.win 4).blk t).view.emb (ix2 0 q)) = _
  refine congrArg (V c main_v167) (funext fun a => Fin.ext ?_)
  match a with
  | ⟨0, _⟩ => show win8_4.index t (0 : Fin 2) * 1 + 1 * 0 = 0; omega
  | ⟨1, _⟩ => show win8_4.index t (1 : Fin 2) * 128 + 1 * q.val = q.val; omega

/-- Window 5's block is its one whole row of per-feature numbers, whatever the point. -/
theorem val8_row5 (c : Dev nD) (t : Fin cfg8.N) (q : Fin 128) :
    iblk8 V c 5 t (ix2 0 q) = V c main_v167 (ix2 0 q) := by
  obtain ⟨e0, e1⟩ : win8_5.index t (0 : Fin 2) = 0 ∧ win8_5.index t (1 : Fin 2) = 0 :=
    (by decide +kernel : ∀ t : Fin grid8.N, win8_5.index t (0 : Fin 2) = 0 ∧ win8_5.index t (1 : Fin 2) = 0) t
  show V c main_v167 (((cfg8.win 5).blk t).view.emb (ix2 0 q)) = _
  refine congrArg (V c main_v167) (funext fun a => Fin.ext ?_)
  match a with
  | ⟨0, _⟩ => show win8_5.index t (0 : Fin 2) * 1 + 1 * 0 = 0; omega
  | ⟨1, _⟩ => show win8_5.index t (1 : Fin 2) * 128 + 1 * q.val = q.val; omega

/-- Window 6's block is its one whole row of per-feature numbers, whatever the point. -/
theorem val8_row6 (c : Dev nD) (t : Fin cfg8.N) (q : Fin 128) :
    iblk8 V c 6 t (ix2 0 q) = V c main_v178 (ix2 0 q) := by
  obtain ⟨e0, e1⟩ : win8_6.index t (0 : Fin 2) = 0 ∧ win8_6.index t (1 : Fin 2) = 0 :=
    (by decide +kernel : ∀ t : Fin grid8.N, win8_6.index t (0 : Fin 2) = 0 ∧ win8_6.index t (1 : Fin 2) = 0) t
  show V c main_v178 (((cfg8.win 6).blk t).view.emb (ix2 0 q)) = _
  refine congrArg (V c main_v178) (funext fun a => Fin.ext ?_)
  match a with
  | ⟨0, _⟩ => show win8_6.index t (0 : Fin 2) * 1 + 1 * 0 = 0; omega
  | ⟨1, _⟩ => show win8_6.index t (1 : Fin 2) * 128 + 1 * q.val = q.val; omega

/-- Window 7's block is its one whole row of per-feature numbers, whatever the point. -/
theorem val8_row7 (c : Dev nD) (t : Fin cfg8.N) (q : Fin 128) :
    iblk8 V c 7 t (ix2 0 q) = V c main_v170 (ix2 0 q) := by
  obtain ⟨e0, e1⟩ : win8_7.index t (0 : Fin 2) = 0 ∧ win8_7.index t (1 : Fin 2) = 0 :=
    (by decide +kernel : ∀ t : Fin grid8.N, win8_7.index t (0 : Fin 2) = 0 ∧ win8_7.index t (1 : Fin 2) = 0) t
  show V c main_v170 (((cfg8.win 7).blk t).view.emb (ix2 0 q)) = _
  refine congrArg (V c main_v170) (funext fun a => Fin.ext ?_)
  match a with
  | ⟨0, _⟩ => show win8_7.index t (0 : Fin 2) * 1 + 1 * 0 = 0; omega
  | ⟨1, _⟩ => show win8_7.index t (1 : Fin 2) * 128 + 1 * q.val = q.val; omega

/-- Window 8's block is its one whole row of per-feature numbers, whatever the point. -/
theorem val8_row8 (c : Dev nD) (t : Fin cfg8.N) (q : Fin 128) :
    iblk8 V c 8 t (ix2 0 q) = V c main_v173 (ix2 0 q) := by
  obtain ⟨e0, e1⟩ : win8_8.index t (0 : Fin 2) = 0 ∧ win8_8.index t (1 : Fin 2) = 0 :=
    (by decide +kernel : ∀ t : Fin grid8.N, win8_8.index t (0 : Fin 2) = 0 ∧ win8_8.index t (1 : Fin 2) = 0) t
  show V c main_v173 (((cfg8.win 8).blk t).view.emb (ix2 0 q)) = _
  refine congrArg (V c main_v173) (funext fun a => Fin.ext ?_)
  match a with
  | ⟨0, _⟩ => show win8_8.index t (0 : Fin 2) * 1 + 1 * 0 = 0; omega
  | ⟨1, _⟩ => show win8_8.index t (1 : Fin 2) * 128 + 1 * q.val = q.val; omega

/-- The output's block at point t sits at rows 5000 t … 5000 t + 4999. -/
theorem val8_emb (t : Fin cfg8.N) (p : Fin 5000) (q : Fin 128) :
    ((cfg8.win 9).blk t).view.emb (ix2 p q) = ix2 (rowOf8 t p) q := by
  obtain ⟨e0, e1⟩ : win8_9.index t (0 : Fin 2) = t.val ∧ win8_9.index t (1 : Fin 2) = 0 :=
    (by decide +kernel : ∀ t : Fin grid8.N, win8_9.index t (0 : Fin 2) = t.val ∧ win8_9.index t (1 : Fin 2) = 0) t
  refine funext fun a => Fin.ext ?_
  match a with
  | ⟨0, _⟩ => show win8_9.index t (0 : Fin 2) * 5000 + 1 * p.val = t.val * 5000 + p.val; omega
  | ⟨1, _⟩ => show win8_9.index t (1 : Fin 2) * 128 + 1 * q.val = q.val; omega

/-- The third kernel's arithmetic at an entry: two normalisations with the given statistics, then the maximum with zero,
    every operation the exact one. -/
theorem pay8_apply (x : Vec Ideal S5000x128 .f32) (m2 v2 g2 b2 m3 v3 og ob : Vec Ideal S1x128 .f32) (r : Fin 5000) (j : Fin 128) :
    k8_pay1 (F := Ideal) (k8_pay2 x v2 m2 g2 b2 v3 m3 og) (k8_pay3 ob) (ix2 r j)
      = max ((((x (ix2 r j) - m2 (ix2 0 j)) * Ideal.rsqrt (v2 (ix2 0 j) + eps) * g2 (ix2 0 j) + b2 (ix2 0 j)) - m3 (ix2 0 j))
              * Ideal.rsqrt (v3 (ix2 0 j) + eps) * og (ix2 0 j) + ob (ix2 0 j))
          (Ideal.ofBits .f32 0x00000000#32) := by
  unfold k8_pay1 k8_pay2 k8_pay3
  simp only [shapeCast_self]
  simp only [maximumf, addf, subf, mulf, rsqrt, broadcastTo_1b_ab_apply]
  rfl

/-- What point t writes back is block t of the third stage of the arrays as the region finds them. -/
theorem val8_flushed (c : Dev nD) (t : Fin cfg8.N) :
    (dat8 (F := Ideal) V c).flushed 9 t = ((cfg8.win 9).blk t).view.read (Elt Ideal)
      (Cert.Spec.X3 (V c main_v155) (V c main_v159) (V c main_v161) (V c main_v164) (V c main_v167) (V c main_v167) (V c main_v178) (V c main_v170) (V c main_v173)) := by
  show (cfg8.win 9).cut (grid8.coords t) ((dat8 (F := Ideal) V c).after 9 t) = _
  rw [after8_9]
  unfold out8_9
  rw [View.canon_unit_zero val8_hz]
  simp only [View.ld_unit_zero (S := S5000x128) val8_hz, View.ld_unit_zero (S := S1x128) val8_hz]
  funext j
  obtain ⟨p, q, rfl⟩ : ∃ (p : Fin 5000) (q : Fin 128), j = ix2 p q := ⟨j 0, j 1, eq_ix2 j⟩
  refine (pay8_apply _ _ _ _ _ _ _ _ _ p q).trans ?_
  rw [val8_blk0, val8_row1, val8_row2, val8_row3, val8_row4, val8_row5, val8_row6, val8_row7, val8_row8]
  show _ = Cert.Spec.X3 (V c main_v155) (V c main_v159) (V c main_v161) (V c main_v164) (V c main_v167) (V c main_v167) (V c main_v178) (V c main_v170) (V c main_v173)
    (((cfg8.win 9).blk t).view.emb (ix2 p q))
  rw [val8_emb]
  rfl

/-- Every index of the array is in some point's block: row r is in block r / 5000. -/
theorem val8_cover (i : S100000x128.Idx) :
    ∃ t : Fin cfg8.N, (cfg8.win 9).flush t = true ∧ i ∈ ((cfg8.win 9).blk t).view.set := by
  have hi0 : (i 0).val < 100000 := (i 0).isLt
  have hi1 : (i 1).val < 128 := (i 1).isLt
  obtain ⟨t, ht⟩ : ∃ t : Fin cfg8.N, t.val = (i 0).val / 5000 := ⟨⟨(i 0).val / 5000, by show _ < 20; omega⟩, rfl⟩
  obtain ⟨e0, e1⟩ : win8_9.index t (0 : Fin 2) = t.val ∧ win8_9.index t (1 : Fin 2) = 0 :=
    (by decide +kernel : ∀ t : Fin grid8.N, win8_9.index t (0 : Fin 2) = t.val ∧ win8_9.index t (1 : Fin 2) = 0) t
  refine ⟨t, flush8_9 t, ?_⟩
  show i ∈ ((View.whole main_v179).slice (win8_9.rect t)).set
  rw [View.set_slice_whole, Rect.mem_set_unit]
  intro a
  match a with
  | ⟨0, _⟩ => show win8_9.index t (0 : Fin 2) * 5000 ≤ (i 0).val ∧ (i 0).val < win8_9.index t (0 : Fin 2) * 5000 + 5000; omega
  | ⟨1, _⟩ => show win8_9.index t (1 : Fin 2) * 128 ≤ (i 1).val ∧ (i 1).val < win8_9.index t (1 : Fin 2) * 128 + 128; omega

/-- The array after the region: the third stage of the arrays as the region finds them. -/
theorem final8 (c : Dev nD) : (dat8 (F := Ideal) V c).arrAt 9 cfg8.N
    = Cert.Spec.X3 (V c main_v155) (V c main_v159) (V c main_v161) (V c main_v164) (V c main_v167) (V c main_v167) (V c main_v178) (V c main_v170) (V c main_v173) :=
  (dat8 (F := Ideal) V c).arrAt_eq_of_cover 9 _ (fun t _ => val8_flushed V c t) (fun i => val8_cover i)

end Cert.KernelIdeal.Hand

end
-- ==== Proof.Core.StageC3.lean ====
/-
  The third stage of layer 3 in the two programs: from equal second-stage arrays with real entries and equal (real) scale and
  shift arguments, the kernel's output array (closed-form statistics of the normalised array) is the reference's (statistics
  computed from the normalised array), and has real entries.
-/
import proofs.«141748_j59863254171699_1_alg».proof.Proof.Core.Base
import proofs.«141748_j59863254171699_1_alg».proof.Proof.KI.Val8
import proofs.«141748_j59863254171699_1_alg».proof.Proof.RF.BridgeC
import proofs.«141748_j59863254171699_1_alg».proof.Proof.RF.StatsReal
import proofs.«141748_j59863254171699_1_alg».proof.Proof.SpecLaw
import proofs.«141748_j59863254171699_1_alg».proof.Proof.SpecReal
import proofs.«141748_j59863254171699_1_alg».proof.Proof.Gen.ReferenceIdeal

set_option maxRecDepth 65536
set_option maxHeartbeats 16000000

noncomputable section

namespace Cert.Proof.Core

open Idealize.ShloMosaic Idealize.ShloMosaic.TcCoe Idealize.SL.Sem Idealize.ShloMosaic.StableHlo Idealize.ShloMosaic.ValueIdx
open Cert.Lib Cert.ReferenceIdeal.Hand

local notation "bc1 " v:max => broadcastInDim Cert.ReferenceIdeal.S1x128 ![1] Cert.ReferenceIdeal.Gen.bcast_S128_S1x128_1 v

theorem stageC3 (Z : KD → KVal) (Z' : RVal) (c : KD)
    (hp : Z c (Cert.KernelIdeal.main_v155 : DevRef _ _) = Z' (Cert.ReferenceIdeal.main_v247 : DevRef _ _)) (hpR : AllReal (Z' (Cert.ReferenceIdeal.main_v247 : DevRef _ _)))
    (h10 : Z c (Cert.KernelIdeal.main_arg10 : DevRef _ _) = Z' (Cert.ReferenceIdeal.main_arg10 : DevRef _ _)) (r10 : AllReal (Z' (Cert.ReferenceIdeal.main_arg10 : DevRef _ _)))
    (h11 : Z c (Cert.KernelIdeal.main_arg11 : DevRef _ _) = Z' (Cert.ReferenceIdeal.main_arg11 : DevRef _ _)) (r11 : AllReal (Z' (Cert.ReferenceIdeal.main_arg11 : DevRef _ _)))
    (h12 : Z c (Cert.KernelIdeal.main_arg12 : DevRef _ _) = Z' (Cert.ReferenceIdeal.main_arg12 : DevRef _ _)) (r12 : AllReal (Z' (Cert.ReferenceIdeal.main_arg12 : DevRef _ _)))
    (h13 : Z c (Cert.KernelIdeal.main_arg13 : DevRef _ _) = Z' (Cert.ReferenceIdeal.main_arg13 : DevRef _ _)) (r13 : AllReal (Z' (Cert.ReferenceIdeal.main_arg13 : DevRef _ _))) :
    Cert.KernelIdeal.Hand.W8' (fun c => after Cert.KernelIdeal.Gen.hostOps8_2 (after Cert.KernelIdeal.Gen.hostOps8_1 (after Cert.KernelIdeal.Gen.hostOps8 (Z c)))) c (Cert.KernelIdeal.main_v179 : DevRef _ _)
        = after Cert.ReferenceIdeal.Hand.RC3 Z' (Cert.ReferenceIdeal.main_v294 : DevRef _ _)
      ∧ AllReal (after Cert.ReferenceIdeal.Hand.RC3 Z' (Cert.ReferenceIdeal.main_v294 : DevRef _ _)) := by
  -- the reference's names for what the stage reads and computes
  let P : FVec Ideal Cert.ReferenceIdeal.S100000x128 .f32 := Z' (Proc.devRef .tc Cert.ReferenceIdeal.main_v247)
  let G2 : FVec Ideal Cert.ReferenceIdeal.S128 .f32 := (shapeCast Cert.ReferenceIdeal.S128 (extractStridedSlice Cert.ReferenceIdeal.S1x128 ![2, 0] (Z' (Proc.devRef .tc Cert.ReferenceIdeal.main_arg10)) Cert.ReferenceIdeal.Gen.slices_S3x128_S1x128_2_0) Cert.ReferenceIdeal.Gen.shapeCasts_S1x128_S128)
  let BT2 : FVec Ideal Cert.ReferenceIdeal.S128 .f32 := (shapeCast Cert.ReferenceIdeal.S128 (extractStridedSlice Cert.ReferenceIdeal.S1x128 ![2, 0] (Z' (Proc.devRef .tc Cert.ReferenceIdeal.main_arg11)) Cert.ReferenceIdeal.Gen.slices_S3x128_S1x128_2_0) Cert.ReferenceIdeal.Gen.shapeCasts_S1x128_S128)
  let OG : FVec Ideal Cert.ReferenceIdeal.S128 .f32 := (shapeCast Cert.ReferenceIdeal.S128 (extractStridedSlice Cert.ReferenceIdeal.S1x128 ![2, 0] (Z' (Proc.devRef .tc Cert.ReferenceIdeal.main_arg12)) Cert.ReferenceIdeal.Gen.slices_S3x128_S1x128_2_0) Cert.ReferenceIdeal.Gen.shapeCasts_S1x128_S128)
  let OB : FVec Ideal Cert.ReferenceIdeal.S128 .f32 := (shapeCast Cert.ReferenceIdeal.S128 (extractStridedSlice Cert.ReferenceIdeal.S1x128 ![2, 0] (Z' (Proc.devRef .tc Cert.ReferenceIdeal.main_arg13)) Cert.ReferenceIdeal.Gen.slices_S3x128_S1x128_2_0) Cert.ReferenceIdeal.Gen.shapeCasts_S1x128_S128)
  let M2 := meanOf P
  let V2 := varOf P
  let H := bn P M2 V2 G2 BT2
  let M3 := meanOf H
  let V3 := varOf H
  let E : FVec Ideal Cert.KernelIdeal.S1x128 .f32 := broadcastInDim Cert.KernelIdeal.S1x128 ![] Cert.KernelIdeal.Gen.bcast_S_S1x128 (constant Cert.KernelIdeal.S_ .f32 0x3727C5AC#32)
  let V3K : Cert.Spec.Row := Host.divf (mulf (mulf (bc1 G2) (bc1 G2)) (bc1 V2)) (addf (bc1 V2) E)
  -- the reference's fold is its printed composition
  have hR : after Cert.ReferenceIdeal.Hand.RC3 Z' (Cert.ReferenceIdeal.main_v294 : DevRef _ _)
      = maximumf (bn H M3 V3 OG OB) (broadcastInDim Cert.ReferenceIdeal.S100000x128 ![] Cert.ReferenceIdeal.Gen.bcast_S_S100000x128 (constant (F := Ideal) Cert.ReferenceIdeal.S_ .f32 0x00000000#32)) := by
    dsimp only [Cert.ReferenceIdeal.Hand.RC3]
    after_results_simp
    rfl
  -- realness of everything in sight
  have rG2 : AllReal G2 := fun i => r10 _
  have rBT2 : AllReal BT2 := fun i => r11 _
  have rOG : AllReal OG := fun i => r12 _
  have rOB : AllReal OB := fun i => r13 _
  have rM2 : AllReal M2 := meanOf_real hpR
  have nV2 : ∀ j : Fin 128, ∃ x : ℝ, 0 ≤ x ∧ V2 (ix1 j) = (x : EReal) := varOf_nonneg hpR
  have row_real : ∀ {v : FVec Ideal Cert.ReferenceIdeal.S128 .f32}, AllReal v → AllReal (bc1 v) := fun hv i => hv _
  have row_nn : ∀ {v : FVec Ideal Cert.ReferenceIdeal.S128 .f32}, (∀ j : Fin 128, ∃ x : ℝ, 0 ≤ x ∧ v (ix1 j) = (x : EReal)) → Cert.Spec.NonnegRow (bc1 v) :=
    fun hv k => by obtain ⟨x, hx, e⟩ := hv k; exact ⟨x, hx, (bc1_apply _ 0 k).trans e⟩
  have rH : AllReal H := fun i => by
    obtain ⟨r, j, rfl⟩ : ∃ (r : Fin 100000) (j : Fin 128), i = ix2 r j := ⟨i 0, i 1, eq_ix2 i⟩
    rw [show H (ix2 r j) = _ from bn_apply P M2 V2 G2 BT2 r j]
    exact Cert.Spec.norm1_real (hpR _) (row_real rM2 _) (row_nn nV2 j) (row_real rG2 _) (row_real rBT2 _)
  have rM3 : AllReal M3 := meanOf_real rH
  have nV3 : ∀ j : Fin 128, ∃ x : ℝ, 0 ≤ x ∧ V3 (ix1 j) = (x : EReal) := varOf_nonneg rH
  -- the kernel's output array, row by row in the reference's names
  have hK : Cert.KernelIdeal.Hand.W8' (fun c => after Cert.KernelIdeal.Gen.hostOps8_2 (after Cert.KernelIdeal.Gen.hostOps8_1 (after Cert.KernelIdeal.Gen.hostOps8 (Z c)))) c (Cert.KernelIdeal.main_v179 : DevRef _ _)
      = Cert.Spec.X3 P (bc1 M2) (bc1 V2) (bc1 G2) (bc1 BT2) (bc1 BT2) V3K (bc1 OG) (bc1 OB) := by
    unfold Cert.KernelIdeal.Hand.W8'
    rw [Function.update_self, Cert.KernelIdeal.Hand.final8]
    dsimp only [Cert.KernelIdeal.Hand.Vof, Cert.KernelIdeal.Gen.hostOps8, Cert.KernelIdeal.Gen.hostOps8_1, Cert.KernelIdeal.Gen.hostOps8_2]
    after_results_simp
    have row : ∀ {vK : FVec Ideal Cert.KernelIdeal.S128 .f32} {vR : FVec Ideal Cert.ReferenceIdeal.S128 .f32}, vK = vR →
        shapeCast Cert.KernelIdeal.S1x128 vK Cert.KernelIdeal.Gen.shapeCasts_S128_S1x128 = bc1 vR :=
      fun h => (row_cast _ _ _).trans (congrArg (fun v => bc1 v) h)
    refine X3_congr hp (row ?_) (row ?_) (row ?_) (row ?_) (row ?_)
      (congrArg₂ (fun a b => Host.divf (mulf (mulf a a) b) (addf b E)) (row ?_) (row ?_)) (row ?_) (row ?_)
    all_goals first | (rw [hp]; rfl) | (rw [h10]; rfl) | (rw [h11]; rfl) | (rw [h12]; rfl) | (rw [h13]; rfl)
  -- closed-form statistics against computed ones
  have qg : ∀ j : Fin 128, IsReal ((bc1 G2) (ix2 0 j)) := fun j => row_real rG2 _
  have qb : ∀ j : Fin 128, IsReal ((bc1 BT2) (ix2 0 j)) := fun j => row_real rBT2 _
  have qm2 : ∀ j : Fin 128, (bc1 M2) (ix2 0 j) = Ideal.div (Cert.Spec.zero + ∑ i : Fin 100000, P (ix2 i j)) Cert.Spec.rows :=
    fun j => (bc1_apply M2 0 j).trans (meanOf_apply P j)
  have qv2 : ∀ j : Fin 128, (bc1 V2) (ix2 0 j)
      = Ideal.div (Cert.Spec.zero + ∑ i : Fin 100000,
          (P (ix2 i j) - Ideal.div (Cert.Spec.zero + ∑ i : Fin 100000, P (ix2 i j)) Cert.Spec.rows)
            * (P (ix2 i j) - Ideal.div (Cert.Spec.zero + ∑ i : Fin 100000, P (ix2 i j)) Cert.Spec.rows)) Cert.Spec.rows :=
    fun j => (bc1_apply V2 0 j).trans (varOf_apply P j)
  have qm3 : ∀ j : Fin 128, (bc1 BT2) (ix2 0 j) = (bc1 BT2) (ix2 0 j) := fun j => rfl
  have qv3 : ∀ j : Fin 128, V3K (ix2 0 j)
      = Ideal.div (((bc1 G2) (ix2 0 j) * (bc1 G2) (ix2 0 j)) * (bc1 V2) (ix2 0 j)) ((bc1 V2) (ix2 0 j) + Cert.Spec.eps) := fun j => rfl
  have qH : ∀ (i : Fin 100000) (j : Fin 128), H (ix2 i j)
      = Cert.Spec.norm1 (P (ix2 i j)) ((bc1 M2) (ix2 0 j)) ((bc1 V2) (ix2 0 j)) ((bc1 G2) (ix2 0 j)) ((bc1 BT2) (ix2 0 j)) :=
    fun i j => bn_apply P M2 V2 G2 BT2 i j
  have qm3' : ∀ j : Fin 128, (bc1 M3) (ix2 0 j) = Ideal.div (Cert.Spec.zero + ∑ i : Fin 100000, H (ix2 i j)) Cert.Spec.rows :=
    fun j => (bc1_apply M3 0 j).trans (meanOf_apply H j)
  have qv3' : ∀ j : Fin 128, (bc1 V3) (ix2 0 j)
      = Ideal.div (Cert.Spec.zero + ∑ i : Fin 100000,
          (H (ix2 i j) - Ideal.div (Cert.Spec.zero + ∑ i : Fin 100000, H (ix2 i j)) Cert.Spec.rows)
            * (H (ix2 i j) - Ideal.div (Cert.Spec.zero + ∑ i : Fin 100000, H (ix2 i j)) Cert.Spec.rows)) Cert.Spec.rows :=
    fun j => (bc1_apply V3 0 j).trans (varOf_apply H j)
  have hlaw : Cert.Spec.X3 P (bc1 M2) (bc1 V2) (bc1 G2) (bc1 BT2) (bc1 BT2) V3K (bc1 OG) (bc1 OB)
      = Cert.Spec.X3 P (bc1 M2) (bc1 V2) (bc1 G2) (bc1 BT2) (bc1 M3) (bc1 V3) (bc1 OG) (bc1 OB) := by
    refine Cert.Spec.X3_closed_eq_computed _ ?_ _ _ _ _ _ _ _ _ _ _ ?_ ?_ ?_ ?_ ?_ ?_ H ?_ ?_ ?_
    · exact hpR
    · exact qg
    · exact qb
    · exact qm2
    · exact qv2
    · exact qm3
    · exact qv3
    · exact qH
    · exact qm3'
    · exact qv3'
  have hfin : after Cert.ReferenceIdeal.Hand.RC3 Z' (Cert.ReferenceIdeal.main_v294 : DevRef _ _)
      = Cert.Spec.X3 P (bc1 M2) (bc1 V2) (bc1 G2) (bc1 BT2) (bc1 M3) (bc1 V3) (bc1 OG) (bc1 OB) :=
    hR.trans (bridgeC P M2 V2 G2 BT2 M3 V3 OG OB)
  refine ⟨hK.trans (hlaw.trans hfin.symm), ?_⟩
  rw [hfin]
  exact Cert.Spec.X3_real hpR (row_real rM2) (row_nn nV2) (row_real rG2) (row_real rBT2) (row_real rM3) (row_nn nV3) (row_real rOG) (row_real rOB)

end Cert.Proof.Core

end
-- ==== Proof.Core.Layer3.lean ====
/-
  Layer 3: from equal node features with real entries and the common environment, the two programs' layer outputs are
  equal and real, and the environment is kept. The three stages in turn, each read at the valuations the previous one leaves.
-/
import proofs.«141748_j59863254171699_1_alg».proof.Proof.Core.Env
import proofs.«141748_j59863254171699_1_alg».proof.Proof.Core.StageA3
import proofs.«141748_j59863254171699_1_alg».proof.Proof.Core.StageB3
import proofs.«141748_j59863254171699_1_alg».proof.Proof.Core.StageC3

set_option maxRecDepth 65536
set_option maxHeartbeats 4000000

noncomputable section

namespace Cert.Proof.Core

open Idealize.ShloMosaic Idealize.ShloMosaic.TcCoe Idealize.SL.Sem Idealize.ShloMosaic.StableHlo Cert.Lib

theorem layer3 (Z : KD → KVal) (Z' : RVal) (c : KD) (E : Env Z Z' c)
    (hx : Z c (Cert.KernelIdeal.main_v121 : DevRef _ _) = Z' (Cert.ReferenceIdeal.main_v197 : DevRef _ _)) (rx : AllReal (Z' (Cert.ReferenceIdeal.main_v197 : DevRef _ _))) :
    Cert.KernelIdeal.Hand.L3C' Z c (Cert.KernelIdeal.main_v179 : DevRef _ _) = Cert.ReferenceIdeal.Hand.R3 Z' (Cert.ReferenceIdeal.main_v294 : DevRef _ _)
      ∧ AllReal (Cert.ReferenceIdeal.Hand.R3 Z' (Cert.ReferenceIdeal.main_v294 : DevRef _ _))
      ∧ Env (Cert.KernelIdeal.Hand.L3C' Z) (Cert.ReferenceIdeal.Hand.R3 Z') c := by
  obtain ⟨hA, rA⟩ := stageA3 Z Z' c hx rx E.s E.d E.w1 E.r4 E.a5 E.r5
  obtain ⟨hB, rB⟩ := stageB3 (Cert.KernelIdeal.Hand.L3A' Z) (after Cert.ReferenceIdeal.Hand.RA3 Z') c hA rA
    ((Cert.KernelIdeal.Hand.keepA3 Z c Cert.KernelIdeal.main_arg6 (by decide) (by decide)).trans (E.a6.trans (after_of_writes_sub Cert.ReferenceIdeal.Hand.RA3 Z' Cert.ReferenceIdeal.Hand.RA3_writes (r := Cert.ReferenceIdeal.main_arg6) (by decide)).symm)) (by rw [(after_of_writes_sub Cert.ReferenceIdeal.Hand.RA3 Z' Cert.ReferenceIdeal.Hand.RA3_writes (r := Cert.ReferenceIdeal.main_arg6) (by decide))]; exact E.r6) ((Cert.KernelIdeal.Hand.keepA3 Z c Cert.KernelIdeal.main_arg7 (by decide) (by decide)).trans (E.a7.trans (after_of_writes_sub Cert.ReferenceIdeal.Hand.RA3 Z' Cert.ReferenceIdeal.Hand.RA3_writes (r := Cert.ReferenceIdeal.main_arg7) (by decide)).symm)) (by rw [(after_of_writes_sub Cert.ReferenceIdeal.Hand.RA3 Z' Cert.ReferenceIdeal.Hand.RA3_writes (r := Cert.ReferenceIdeal.main_arg7) (by decide))]; exact E.r7)
    ((Cert.KernelIdeal.Hand.keepA3 Z c Cert.KernelIdeal.main_v5 (by decide) (by decide)).trans (E.w2.trans (after_of_writes_sub Cert.ReferenceIdeal.Hand.RA3 Z' Cert.ReferenceIdeal.Hand.RA3_writes (r := Cert.ReferenceIdeal.main_arg8) (by decide)).symm)) (by rw [(after_of_writes_sub Cert.ReferenceIdeal.Hand.RA3 Z' Cert.ReferenceIdeal.Hand.RA3_writes (r := Cert.ReferenceIdeal.main_arg8) (by decide))]; exact E.r8) ((Cert.KernelIdeal.Hand.keepA3 Z c Cert.KernelIdeal.main_arg9 (by decide) (by decide)).trans (E.a9.trans (after_of_writes_sub Cert.ReferenceIdeal.Hand.RA3 Z' Cert.ReferenceIdeal.Hand.RA3_writes (r := Cert.ReferenceIdeal.main_arg9) (by decide)).symm)) (by rw [(after_of_writes_sub Cert.ReferenceIdeal.Hand.RA3 Z' Cert.ReferenceIdeal.Hand.RA3_writes (r := Cert.ReferenceIdeal.main_arg9) (by decide))]; exact E.r9)
  obtain ⟨hC, rC⟩ := stageC3 (Cert.KernelIdeal.Hand.L3B' Z) (after Cert.ReferenceIdeal.Hand.RB3 (after Cert.ReferenceIdeal.Hand.RA3 Z')) c hB rB
    ((Cert.KernelIdeal.Hand.keepB3 (Cert.KernelIdeal.Hand.L3A' Z) c Cert.KernelIdeal.main_arg10 (by decide) (by decide) (by decide) (by decide)).trans ((Cert.KernelIdeal.Hand.keepA3 Z c Cert.KernelIdeal.main_arg10 (by decide) (by decide)).trans (E.a10.trans ((after_of_writes_sub Cert.ReferenceIdeal.Hand.RB3 (after Cert.ReferenceIdeal.Hand.RA3 Z') Cert.ReferenceIdeal.Hand.RB3_writes (r := Cert.ReferenceIdeal.main_arg10) (by decide)).trans (after_of_writes_sub Cert.ReferenceIdeal.Hand.RA3 Z' Cert.ReferenceIdeal.Hand.RA3_writes (r := Cert.ReferenceIdeal.main_arg10) (by decide))).symm))) (by rw [(after_of_writes_sub Cert.ReferenceIdeal.Hand.RB3 (after Cert.ReferenceIdeal.Hand.RA3 Z') Cert.ReferenceIdeal.Hand.RB3_writes (r := Cert.ReferenceIdeal.main_arg10) (by decide)), (after_of_writes_sub Cert.ReferenceIdeal.Hand.RA3 Z' Cert.ReferenceIdeal.Hand.RA3_writes (r := Cert.ReferenceIdeal.main_arg10) (by decide))]; exact E.r10)
    ((Cert.KernelIdeal.Hand.keepB3 (Cert.KernelIdeal.Hand.L3A' Z) c Cert.KernelIdeal.main_arg11 (by decide) (by decide) (by decide) (by decide)).trans ((Cert.KernelIdeal.Hand.keepA3 Z c Cert.KernelIdeal.main_arg11 (by decide) (by decide)).trans (E.a11.trans ((after_of_writes_sub Cert.ReferenceIdeal.Hand.RB3 (after Cert.ReferenceIdeal.Hand.RA3 Z') Cert.ReferenceIdeal.Hand.RB3_writes (r := Cert.ReferenceIdeal.main_arg11) (by decide)).trans (after_of_writes_sub Cert.ReferenceIdeal.Hand.RA3 Z' Cert.ReferenceIdeal.Hand.RA3_writes (r := Cert.ReferenceIdeal.main_arg11) (by decide))).symm))) (by rw [(after_of_writes_sub Cert.ReferenceIdeal.Hand.RB3 (after Cert.ReferenceIdeal.Hand.RA3 Z') Cert.ReferenceIdeal.Hand.RB3_writes (r := Cert.ReferenceIdeal.main_arg11) (by decide)), (after_of_writes_sub Cert.ReferenceIdeal.Hand.RA3 Z' Cert.ReferenceIdeal.Hand.RA3_writes (r := Cert.ReferenceIdeal.main_arg11) (by decide))]; exact E.r11)
    ((Cert.KernelIdeal.Hand.keepB3 (Cert.KernelIdeal.Hand.L3A' Z) c Cert.KernelIdeal.main_arg12 (by decide) (by decide) (by decide) (by decide)).trans ((Cert.KernelIdeal.Hand.keepA3 Z c Cert.KernelIdeal.main_arg12 (by decide) (by decide)).trans (E.a12.trans ((after_of_writes_sub Cert.ReferenceIdeal.Hand.RB3 (after Cert.ReferenceIdeal.Hand.RA3 Z') Cert.ReferenceIdeal.Hand.RB3_writes (r := Cert.ReferenceIdeal.main_arg12) (by decide)).trans (after_of_writes_sub Cert.ReferenceIdeal.Hand.RA3 Z' Cert.ReferenceIdeal.Hand.RA3_writes (r := Cert.ReferenceIdeal.main_arg12) (by decide))).symm))) (by rw [(after_of_writes_sub Cert.ReferenceIdeal.Hand.RB3 (after Cert.ReferenceIdeal.Hand.RA3 Z') Cert.ReferenceIdeal.Hand.RB3_writes (r := Cert.ReferenceIdeal.main_arg12) (by decide)), (after_of_writes_sub Cert.ReferenceIdeal.Hand.RA3 Z' Cert.ReferenceIdeal.Hand.RA3_writes (r := Cert.ReferenceIdeal.main_arg12) (by decide))]; exact E.r12)
    ((Cert.KernelIdeal.Hand.keepB3 (Cert.KernelIdeal.Hand.L3A' Z) c Cert.KernelIdeal.main_arg13 (by decide) (by decide) (by decide) (by decide)).trans ((Cert.KernelIdeal.Hand.keepA3 Z c Cert.KernelIdeal.main_arg13 (by decide) (by decide)).trans (E.a13.trans ((after_of_writes_sub Cert.ReferenceIdeal.Hand.RB3 (after Cert.ReferenceIdeal.Hand.RA3 Z') Cert.ReferenceIdeal.Hand.RB3_writes (r := Cert.ReferenceIdeal.main_arg13) (by decide)).trans (after_of_writes_sub Cert.ReferenceIdeal.Hand.RA3 Z' Cert.ReferenceIdeal.Hand.RA3_writes (r := Cert.ReferenceIdeal.main_arg13) (by decide))).symm))) (by rw [(after_of_writes_sub Cert.ReferenceIdeal.Hand.RB3 (after Cert.ReferenceIdeal.Hand.RA3 Z') Cert.ReferenceIdeal.Hand.RB3_writes (r := Cert.ReferenceIdeal.main_arg13) (by decide)), (after_of_writes_sub Cert.ReferenceIdeal.Hand.RA3 Z' Cert.ReferenceIdeal.Hand.RA3_writes (r := Cert.ReferenceIdeal.main_arg13) (by decide))]; exact E.r13)
  refine ⟨hC, rC, ?_⟩
  exact {
    s := ((Cert.KernelIdeal.Hand.keepC3 (Cert.KernelIdeal.Hand.L3B' Z) c Cert.KernelIdeal.main_v1 (by decide) (by decide) (by decide) (by decide)).trans ((Cert.KernelIdeal.Hand.keepB3 (Cert.KernelIdeal.Hand.L3A' Z) c Cert.KernelIdeal.main_v1 (by decide) (by decide) (by decide) (by decide)).trans ((Cert.KernelIdeal.Hand.keepA3 Z c Cert.KernelIdeal.main_v1 (by decide) (by decide)).trans (E.s.trans ((after_of_writes_sub Cert.ReferenceIdeal.Hand.RC3 (after Cert.ReferenceIdeal.Hand.RB3 (after Cert.ReferenceIdeal.Hand.RA3 Z')) Cert.ReferenceIdeal.Hand.RC3_writes (r := Cert.ReferenceIdeal.main_v1) (by decide)).trans ((after_of_writes_sub Cert.ReferenceIdeal.Hand.RB3 (after Cert.ReferenceIdeal.Hand.RA3 Z') Cert.ReferenceIdeal.Hand.RB3_writes (r := Cert.ReferenceIdeal.main_v1) (by decide)).trans (after_of_writes_sub Cert.ReferenceIdeal.Hand.RA3 Z' Cert.ReferenceIdeal.Hand.RA3_writes (r := Cert.ReferenceIdeal.main_v1) (by decide)))).symm))))
    d := ((Cert.KernelIdeal.Hand.keepC3 (Cert.KernelIdeal.Hand.L3B' Z) c Cert.KernelIdeal.main_v3 (by decide) (by decide) (by decide) (by decide)).trans ((Cert.KernelIdeal.Hand.keepB3 (Cert.KernelIdeal.Hand.L3A' Z) c Cert.KernelIdeal.main_v3 (by decide) (by decide) (by decide) (by decide)).trans ((Cert.KernelIdeal.Hand.keepA3 Z c Cert.KernelIdeal.main_v3 (by decide) (by decide)).trans (E.d.trans ((after_of_writes_sub Cert.ReferenceIdeal.Hand.RC3 (after Cert.ReferenceIdeal.Hand.RB3 (after Cert.ReferenceIdeal.Hand.RA3 Z')) Cert.ReferenceIdeal.Hand.RC3_writes (r := Cert.ReferenceIdeal.main_v3) (by decide)).trans ((after_of_writes_sub Cert.ReferenceIdeal.Hand.RB3 (after Cert.ReferenceIdeal.Hand.RA3 Z') Cert.ReferenceIdeal.Hand.RB3_writes (r := Cert.ReferenceIdeal.main_v3) (by decide)).trans (after_of_writes_sub Cert.ReferenceIdeal.Hand.RA3 Z' Cert.ReferenceIdeal.Hand.RA3_writes (r := Cert.ReferenceIdeal.main_v3) (by decide)))).symm))))
    w1 := ((Cert.KernelIdeal.Hand.keepC3 (Cert.KernelIdeal.Hand.L3B' Z) c Cert.KernelIdeal.main_v4 (by decide) (by decide) (by decide) (by decide)).trans ((Cert.KernelIdeal.Hand.keepB3 (Cert.KernelIdeal.Hand.L3A' Z) c Cert.KernelIdeal.main_v4 (by decide) (by decide) (by decide) (by decide)).trans ((Cert.KernelIdeal.Hand.keepA3 Z c Cert.KernelIdeal.main_v4 (by decide) (by decide)).trans (E.w1.trans ((after_of_writes_sub Cert.ReferenceIdeal.Hand.RC3 (after Cert.ReferenceIdeal.Hand.RB3 (after Cert.ReferenceIdeal.Hand.RA3 Z')) Cert.ReferenceIdeal.Hand.RC3_writes (r := Cert.ReferenceIdeal.main_arg4) (by decide)).trans ((after_of_writes_sub Cert.ReferenceIdeal.Hand.RB3 (after Cert.ReferenceIdeal.Hand.RA3 Z') Cert.ReferenceIdeal.Hand.RB3_writes (r := Cert.ReferenceIdeal.main_arg4) (by decide)).trans (after_of_writes_sub Cert.ReferenceIdeal.Hand.RA3 Z' Cert.ReferenceIdeal.Hand.RA3_writes (r := Cert.ReferenceIdeal.main_arg4) (by decide)))).symm))))
    w2 := ((Cert.KernelIdeal.Hand.keepC3 (Cert.KernelIdeal.Hand.L3B' Z) c Cert.KernelIdeal.main_v5 (by decide) (by decide) (by decide) (by decide)).trans ((Cert.KernelIdeal.Hand.keepB3 (Cert.KernelIdeal.Hand.L3A' Z) c Cert.KernelIdeal.main_v5 (by decide) (by decide) (by decide) (by decide)).trans ((Cert.KernelIdeal.Hand.keepA3 Z c Cert.KernelIdeal.main_v5 (by decide) (by decide)).trans (E.w2.trans ((after_of_writes_sub Cert.ReferenceIdeal.Hand.RC3 (after Cert.ReferenceIdeal.Hand.RB3 (after Cert.ReferenceIdeal.Hand.RA3 Z')) Cert.ReferenceIdeal.Hand.RC3_writes (r := Cert.ReferenceIdeal.main_arg8) (by decide)).trans ((after_of_writes_sub Cert.ReferenceIdeal.Hand.RB3 (after Cert.ReferenceIdeal.Hand.RA3 Z') Cert.ReferenceIdeal.Hand.RB3_writes (r := Cert.ReferenceIdeal.main_arg8) (by decide)).trans (after_of_writes_sub Cert.ReferenceIdeal.Hand.RA3 Z' Cert.ReferenceIdeal.Hand.RA3_writes (r := Cert.ReferenceIdeal.main_arg8) (by decide)))).symm))))
    a2 := ((Cert.KernelIdeal.Hand.keepC3 (Cert.KernelIdeal.Hand.L3B' Z) c Cert.KernelIdeal.main_arg2 (by decide) (by decide) (by decide) (by decide)).trans ((Cert.KernelIdeal.Hand.keepB3 (Cert.KernelIdeal.Hand.L3A' Z) c Cert.KernelIdeal.main_arg2 (by decide) (by decide) (by decide) (by decide)).trans ((Cert.KernelIdeal.Hand.keepA3 Z c Cert.KernelIdeal.main_arg2 (by decide) (by decide)).trans (E.a2.trans ((after_of_writes_sub Cert.ReferenceIdeal.Hand.RC3 (after Cert.ReferenceIdeal.Hand.RB3 (after Cert.ReferenceIdeal.Hand.RA3 Z')) Cert.ReferenceIdeal.Hand.RC3_writes (r := Cert.ReferenceIdeal.main_arg2) (by decide)).trans ((after_of_writes_sub Cert.ReferenceIdeal.Hand.RB3 (after Cert.ReferenceIdeal.Hand.RA3 Z') Cert.ReferenceIdeal.Hand.RB3_writes (r := Cert.ReferenceIdeal.main_arg2) (by decide)).trans (after_of_writes_sub Cert.ReferenceIdeal.Hand.RA3 Z' Cert.ReferenceIdeal.Hand.RA3_writes (r := Cert.ReferenceIdeal.main_arg2) (by decide)))).symm))))
    a3 := ((Cert.KernelIdeal.Hand.keepC3 (Cert.KernelIdeal.Hand.L3B' Z) c Cert.KernelIdeal.main_arg3 (by decide) (by decide) (by decide) (by decide)).trans ((Cert.KernelIdeal.Hand.keepB3 (Cert.KernelIdeal.Hand.L3A' Z) c Cert.KernelIdeal.main_arg3 (by decide) (by decide) (by decide) (by decide)).trans ((Cert.KernelIdeal.Hand.keepA3 Z c Cert.KernelIdeal.main_arg3 (by decide) (by decide)).trans (E.a3.trans ((after_of_writes_sub Cert.ReferenceIdeal.Hand.RC3 (after Cert.ReferenceIdeal.Hand.RB3 (after Cert.ReferenceIdeal.Hand.RA3 Z')) Cert.ReferenceIdeal.Hand.RC3_writes (r := Cert.ReferenceIdeal.main_arg3) (by decide)).trans ((after_of_writes_sub Cert.ReferenceIdeal.Hand.RB3 (after Cert.ReferenceIdeal.Hand.RA3 Z') Cert.ReferenceIdeal.Hand.RB3_writes (r := Cert.ReferenceIdeal.main_arg3) (by decide)).trans (after_of_writes_sub Cert.ReferenceIdeal.Hand.RA3 Z' Cert.ReferenceIdeal.Hand.RA3_writes (r := Cert.ReferenceIdeal.main_arg3) (by decide)))).symm))))
    a5 := ((Cert.KernelIdeal.Hand.keepC3 (Cert.KernelIdeal.Hand.L3B' Z) c Cert.KernelIdeal.main_arg5 (by decide) (by decide) (by decide) (by decide)).trans ((Cert.KernelIdeal.Hand.keepB3 (Cert.KernelIdeal.Hand.L3A' Z) c Cert.KernelIdeal.main_arg5 (by decide) (by decide) (by decide) (by decide)).trans ((Cert.KernelIdeal.Hand.keepA3 Z c Cert.KernelIdeal.main_arg5 (by decide) (by decide)).trans (E.a5.trans ((after_of_writes_sub Cert.ReferenceIdeal.Hand.RC3 (after Cert.ReferenceIdeal.Hand.RB3 (after Cert.ReferenceIdeal.Hand.RA3 Z')) Cert.ReferenceIdeal.Hand.RC3_writes (r := Cert.ReferenceIdeal.main_arg5) (by decide)).trans ((after_of_writes_sub Cert.ReferenceIdeal.Hand.RB3 (after Cert.ReferenceIdeal.Hand.RA3 Z') Cert.ReferenceIdeal.Hand.RB3_writes (r := Cert.ReferenceIdeal.main_arg5) (by decide)).trans (after_of_writes_sub Cert.ReferenceIdeal.Hand.RA3 Z' Cert.ReferenceIdeal.Hand.RA3_writes (r := Cert.ReferenceIdeal.main_arg5) (by decide)))).symm))))
    a6 := ((Cert.KernelIdeal.Hand.keepC3 (Cert.KernelIdeal.Hand.L3B' Z) c Cert.KernelIdeal.main_arg6 (by decide) (by decide) (by decide) (by decide)).trans ((Cert.KernelIdeal.Hand.keepB3 (Cert.KernelIdeal.Hand.L3A' Z) c Cert.KernelIdeal.main_arg6 (by decide) (by decide) (by decide) (by decide)).trans ((Cert.KernelIdeal.Hand.keepA3 Z c Cert.KernelIdeal.main_arg6 (by decide) (by decide)).trans (E.a6.trans ((after_of_writes_sub Cert.ReferenceIdeal.Hand.RC3 (after Cert.ReferenceIdeal.Hand.RB3 (after Cert.ReferenceIdeal.Hand.RA3 Z')) Cert.ReferenceIdeal.Hand.RC3_writes (r := Cert.ReferenceIdeal.main_arg6) (by decide)).trans ((after_of_writes_sub Cert.ReferenceIdeal.Hand.RB3 (after Cert.ReferenceIdeal.Hand.RA3 Z') Cert.ReferenceIdeal.Hand.RB3_writes (r := Cert.ReferenceIdeal.main_arg6) (by decide)).trans (after_of_writes_sub Cert.ReferenceIdeal.Hand.RA3 Z' Cert.ReferenceIdeal.Hand.RA3_writes (r := Cert.ReferenceIdeal.main_arg6) (by decide)))).symm))))
    a7 := ((Cert.KernelIdeal.Hand.keepC3 (Cert.KernelIdeal.Hand.L3B' Z) c Cert.KernelIdeal.main_arg7 (by decide) (by decide) (by decide) (by decide)).trans ((Cert.KernelIdeal.Hand.keepB3 (Cert.KernelIdeal.Hand.L3A' Z) c Cert.KernelIdeal.main_arg7 (by decide) (by decide) (by decide) (by decide)).trans ((Cert.KernelIdeal.Hand.keepA3 Z c Cert.KernelIdeal.main_arg7 (by decide) (by decide)).trans (E.a7.trans ((after_of_writes_sub Cert.ReferenceIdeal.Hand.RC3 (after Cert.ReferenceIdeal.Hand.RB3 (after Cert.ReferenceIdeal.Hand.RA3 Z')) Cert.ReferenceIdeal.Hand.RC3_writes (r := Cert.ReferenceIdeal.main_arg7) (by decide)).trans ((after_of_writes_sub Cert.ReferenceIdeal.Hand.RB3 (after Cert.ReferenceIdeal.Hand.RA3 Z') Cert.ReferenceIdeal.Hand.RB3_writes (r := Cert.ReferenceIdeal.main_arg7) (by decide)).trans (after_of_writes_sub Cert.ReferenceIdeal.Hand.RA3 Z' Cert.ReferenceIdeal.Hand.RA3_writes (r := Cert.ReferenceIdeal.main_arg7) (by decide)))).symm))))
    a9 := ((Cert.KernelIdeal.Hand.keepC3 (Cert.KernelIdeal.Hand.L3B' Z) c Cert.KernelIdeal.main_arg9 (by decide) (by decide) (by decide) (by decide)).trans ((Cert.KernelIdeal.Hand.keepB3 (Cert.KernelIdeal.Hand.L3A' Z) c Cert.KernelIdeal.main_arg9 (by decide) (by decide) (by decide) (by decide)).trans ((Cert.KernelIdeal.Hand.keepA3 Z c Cert.KernelIdeal.main_arg9 (by decide) (by decide)).trans (E.a9.trans ((after_of_writes_sub Cert.ReferenceIdeal.Hand.RC3 (after Cert.ReferenceIdeal.Hand.RB3 (after Cert.ReferenceIdeal.Hand.RA3 Z')) Cert.ReferenceIdeal.Hand.RC3_writes (r := Cert.ReferenceIdeal.main_arg9) (by decide)).trans ((after_of_writes_sub Cert.ReferenceIdeal.Hand.RB3 (after Cert.ReferenceIdeal.Hand.RA3 Z') Cert.ReferenceIdeal.Hand.RB3_writes (r := Cert.ReferenceIdeal.main_arg9) (by decide)).trans (after_of_writes_sub Cert.ReferenceIdeal.Hand.RA3 Z' Cert.ReferenceIdeal.Hand.RA3_writes (r := Cert.ReferenceIdeal.main_arg9) (by decide)))).symm))))
    a10 := ((Cert.KernelIdeal.Hand.keepC3 (Cert.KernelIdeal.Hand.L3B' Z) c Cert.KernelIdeal.main_arg10 (by decide) (by decide) (by decide) (by decide)).trans ((Cert.KernelIdeal.Hand.keepB3 (Cert.KernelIdeal.Hand.L3A' Z) c Cert.KernelIdeal.main_arg10 (by decide) (by decide) (by decide) (by decide)).trans ((Cert.KernelIdeal.Hand.keepA3 Z c Cert.KernelIdeal.main_arg10 (by decide) (by decide)).trans (E.a10.trans ((after_of_writes_sub Cert.ReferenceIdeal.Hand.RC3 (after Cert.ReferenceIdeal.Hand.RB3 (after Cert.ReferenceIdeal.Hand.RA3 Z')) Cert.ReferenceIdeal.Hand.RC3_writes (r := Cert.ReferenceIdeal.main_arg10) (by decide)).trans ((after_of_writes_sub Cert.ReferenceIdeal.Hand.RB3 (after Cert.ReferenceIdeal.Hand.RA3 Z') Cert.ReferenceIdeal.Hand.RB3_writes (r := Cert.ReferenceIdeal.main_arg10) (by decide)).trans (after_of_writes_sub Cert.ReferenceIdeal.Hand.RA3 Z' Cert.ReferenceIdeal.Hand.RA3_writes (r := Cert.ReferenceIdeal.main_arg10) (by decide)))).symm))))
    a11 := ((Cert.KernelIdeal.Hand.keepC3 (Cert.KernelIdeal.Hand.L3B' Z) c Cert.KernelIdeal.main_arg11 (by decide) (by decide) (by decide) (by decide)).trans ((Cert.KernelIdeal.Hand.keepB3 (Cert.KernelIdeal.Hand.L3A' Z) c Cert.KernelIdeal.main_arg11 (by decide) (by decide) (by decide) (by decide)).trans ((Cert.KernelIdeal.Hand.keepA3 Z c Cert.KernelIdeal.main_arg11 (by decide) (by decide)).trans (E.a11.trans ((after_of_writes_sub Cert.ReferenceIdeal.Hand.RC3 (after Cert.ReferenceIdeal.Hand.RB3 (after Cert.ReferenceIdeal.Hand.RA3 Z')) Cert.ReferenceIdeal.Hand.RC3_writes (r := Cert.ReferenceIdeal.main_arg11) (by decide)).trans ((after_of_writes_sub Cert.ReferenceIdeal.Hand.RB3 (after Cert.ReferenceIdeal.Hand.RA3 Z') Cert.ReferenceIdeal.Hand.RB3_writes (r := Cert.ReferenceIdeal.main_arg11) (by decide)).trans (after_of_writes_sub Cert.ReferenceIdeal.Hand.RA3 Z' Cert.ReferenceIdeal.Hand.RA3_writes (r := Cert.ReferenceIdeal.main_arg11) (by decide)))).symm))))
    a12 := ((Cert.KernelIdeal.Hand.keepC3 (Cert.KernelIdeal.Hand.L3B' Z) c Cert.KernelIdeal.main_arg12 (by decide) (by decide) (by decide) (by decide)).trans ((Cert.KernelIdeal.Hand.keepB3 (Cert.KernelIdeal.Hand.L3A' Z) c Cert.KernelIdeal.main_arg12 (by decide) (by decide) (by decide) (by decide)).trans ((Cert.KernelIdeal.Hand.keepA3 Z c Cert.KernelIdeal.main_arg12 (by decide) (by decide)).trans (E.a12.trans ((after_of_writes_sub Cert.ReferenceIdeal.Hand.RC3 (after Cert.ReferenceIdeal.Hand.RB3 (after Cert.ReferenceIdeal.Hand.RA3 Z')) Cert.ReferenceIdeal.Hand.RC3_writes (r := Cert.ReferenceIdeal.main_arg12) (by decide)).trans ((after_of_writes_sub Cert.ReferenceIdeal.Hand.RB3 (after Cert.ReferenceIdeal.Hand.RA3 Z') Cert.ReferenceIdeal.Hand.RB3_writes (r := Cert.ReferenceIdeal.main_arg12) (by decide)).trans (after_of_writes_sub Cert.ReferenceIdeal.Hand.RA3 Z' Cert.ReferenceIdeal.Hand.RA3_writes (r := Cert.ReferenceIdeal.main_arg12) (by decide)))).symm))))
    a13 := ((Cert.KernelIdeal.Hand.keepC3 (Cert.KernelIdeal.Hand.L3B' Z) c Cert.KernelIdeal.main_arg13 (by decide) (by decide) (by decide) (by decide)).trans ((Cert.KernelIdeal.Hand.keepB3 (Cert.KernelIdeal.Hand.L3A' Z) c Cert.KernelIdeal.main_arg13 (by decide) (by decide) (by decide) (by decide)).trans ((Cert.KernelIdeal.Hand.keepA3 Z c Cert.KernelIdeal.main_arg13 (by decide) (by decide)).trans (E.a13.trans ((after_of_writes_sub Cert.ReferenceIdeal.Hand.RC3 (after Cert.ReferenceIdeal.Hand.RB3 (after Cert.ReferenceIdeal.Hand.RA3 Z')) Cert.ReferenceIdeal.Hand.RC3_writes (r := Cert.ReferenceIdeal.main_arg13) (by decide)).trans ((after_of_writes_sub Cert.ReferenceIdeal.Hand.RB3 (after Cert.ReferenceIdeal.Hand.RA3 Z') Cert.ReferenceIdeal.Hand.RB3_writes (r := Cert.ReferenceIdeal.main_arg13) (by decide)).trans (after_of_writes_sub Cert.ReferenceIdeal.Hand.RA3 Z' Cert.ReferenceIdeal.Hand.RA3_writes (r := Cert.ReferenceIdeal.main_arg13) (by decide)))).symm))))
    a14 := ((Cert.KernelIdeal.Hand.keepC3 (Cert.KernelIdeal.Hand.L3B' Z) c Cert.KernelIdeal.main_arg14 (by decide) (by decide) (by decide) (by decide)).trans ((Cert.KernelIdeal.Hand.keepB3 (Cert.KernelIdeal.Hand.L3A' Z) c Cert.KernelIdeal.main_arg14 (by decide) (by decide) (by decide) (by decide)).trans ((Cert.KernelIdeal.Hand.keepA3 Z c Cert.KernelIdeal.main_arg14 (by decide) (by decide)).trans (E.a14.trans ((after_of_writes_sub Cert.ReferenceIdeal.Hand.RC3 (after Cert.ReferenceIdeal.Hand.RB3 (after Cert.ReferenceIdeal.Hand.RA3 Z')) Cert.ReferenceIdeal.Hand.RC3_writes (r := Cert.ReferenceIdeal.main_arg14) (by decide)).trans ((after_of_writes_sub Cert.ReferenceIdeal.Hand.RB3 (after Cert.ReferenceIdeal.Hand.RA3 Z') Cert.ReferenceIdeal.Hand.RB3_writes (r := Cert.ReferenceIdeal.main_arg14) (by decide)).trans (after_of_writes_sub Cert.ReferenceIdeal.Hand.RA3 Z' Cert.ReferenceIdeal.Hand.RA3_writes (r := Cert.ReferenceIdeal.main_arg14) (by decide)))).symm))))
    a15 := ((Cert.KernelIdeal.Hand.keepC3 (Cert.KernelIdeal.Hand.L3B' Z) c Cert.KernelIdeal.main_arg15 (by decide) (by decide) (by decide) (by decide)).trans ((Cert.KernelIdeal.Hand.keepB3 (Cert.KernelIdeal.Hand.L3A' Z) c Cert.KernelIdeal.main_arg15 (by decide) (by decide) (by decide) (by decide)).trans ((Cert.KernelIdeal.Hand.keepA3 Z c Cert.KernelIdeal.main_arg15 (by decide) (by decide)).trans (E.a15.trans ((after_of_writes_sub Cert.ReferenceIdeal.Hand.RC3 (after Cert.ReferenceIdeal.Hand.RB3 (after Cert.ReferenceIdeal.Hand.RA3 Z')) Cert.ReferenceIdeal.Hand.RC3_writes (r := Cert.ReferenceIdeal.main_arg15) (by decide)).trans ((after_of_writes_sub Cert.ReferenceIdeal.Hand.RB3 (after Cert.ReferenceIdeal.Hand.RA3 Z') Cert.ReferenceIdeal.Hand.RB3_writes (r := Cert.ReferenceIdeal.main_arg15) (by decide)).trans (after_of_writes_sub Cert.ReferenceIdeal.Hand.RA3 Z' Cert.ReferenceIdeal.Hand.RA3_writes (r := Cert.ReferenceIdeal.main_arg15) (by decide)))).symm))))
    r4 := (by show AllReal (after Cert.ReferenceIdeal.Hand.RC3 (after Cert.ReferenceIdeal.Hand.RB3 (after Cert.ReferenceIdeal.Hand.RA3 Z')) (Proc.devRef .tc Cert.ReferenceIdeal.main_arg4)); rw [(after_of_writes_sub Cert.ReferenceIdeal.Hand.RC3 (after Cert.ReferenceIdeal.Hand.RB3 (after Cert.ReferenceIdeal.Hand.RA3 Z')) Cert.ReferenceIdeal.Hand.RC3_writes (r := Cert.ReferenceIdeal.main_arg4) (by decide)), (after_of_writes_sub Cert.ReferenceIdeal.Hand.RB3 (after Cert.ReferenceIdeal.Hand.RA3 Z') Cert.ReferenceIdeal.Hand.RB3_writes (r := Cert.ReferenceIdeal.main_arg4) (by decide)), (after_of_writes_sub Cert.ReferenceIdeal.Hand.RA3 Z' Cert.ReferenceIdeal.Hand.RA3_writes (r := Cert.ReferenceIdeal.main_arg4) (by decide))]; exact E.r4)
    r5 := (by show AllReal (after Cert.ReferenceIdeal.Hand.RC3 (after Cert.ReferenceIdeal.Hand.RB3 (after Cert.ReferenceIdeal.Hand.RA3 Z')) (Proc.devRef .tc Cert.ReferenceIdeal.main_arg5)); rw [(after_of_writes_sub Cert.ReferenceIdeal.Hand.RC3 (after Cert.ReferenceIdeal.Hand.RB3 (after Cert.ReferenceIdeal.Hand.RA3 Z')) Cert.ReferenceIdeal.Hand.RC3_writes (r := Cert.ReferenceIdeal.main_arg5) (by decide)), (after_of_writes_sub Cert.ReferenceIdeal.Hand.RB3 (after Cert.ReferenceIdeal.Hand.RA3 Z') Cert.ReferenceIdeal.Hand.RB3_writes (r := Cert.ReferenceIdeal.main_arg5) (by decide)), (after_of_writes_sub Cert.ReferenceIdeal.Hand.RA3 Z' Cert.ReferenceIdeal.Hand.RA3_writes (r := Cert.ReferenceIdeal.main_arg5) (by decide))]; exact E.r5)
    r6 := (by show AllReal (after Cert.ReferenceIdeal.Hand.RC3 (after Cert.ReferenceIdeal.Hand.RB3 (after Cert.ReferenceIdeal.Hand.RA3 Z')) (Proc.devRef .tc Cert.ReferenceIdeal.main_arg6)); rw [(after_of_writes_sub Cert.ReferenceIdeal.Hand.RC3 (after Cert.ReferenceIdeal.Hand.RB3 (after Cert.ReferenceIdeal.Hand.RA3 Z')) Cert.ReferenceIdeal.Hand.RC3_writes (r := Cert.ReferenceIdeal.main_arg6) (by decide)), (after_of_writes_sub Cert.ReferenceIdeal.Hand.RB3 (after Cert.ReferenceIdeal.Hand.RA3 Z') Cert.ReferenceIdeal.Hand.RB3_writes (r := Cert.ReferenceIdeal.main_arg6) (by decide)), (after_of_writes_sub Cert.ReferenceIdeal.Hand.RA3 Z' Cert.ReferenceIdeal.Hand.RA3_writes (r := Cert.ReferenceIdeal.main_arg6) (by decide))]; exact E.r6)
    r7 := (by show AllReal (after Cert.ReferenceIdeal.Hand.RC3 (after Cert.ReferenceIdeal.Hand.RB3 (after Cert.ReferenceIdeal.Hand.RA3 Z')) (Proc.devRef .tc Cert.ReferenceIdeal.main_arg7)); rw [(after_of_writes_sub Cert.ReferenceIdeal.Hand.RC3 (after Cert.ReferenceIdeal.Hand.RB3 (after Cert.ReferenceIdeal.Hand.RA3 Z')) Cert.ReferenceIdeal.Hand.RC3_writes (r := Cert.ReferenceIdeal.main_arg7) (by decide)), (after_of_writes_sub Cert.ReferenceIdeal.Hand.RB3 (after Cert.ReferenceIdeal.Hand.RA3 Z') Cert.ReferenceIdeal.Hand.RB3_writes (r := Cert.ReferenceIdeal.main_arg7) (by decide)), (after_of_writes_sub Cert.ReferenceIdeal.Hand.RA3 Z' Cert.ReferenceIdeal.Hand.RA3_writes (r := Cert.ReferenceIdeal.main_arg7) (by decide))]; exact E.r7)
    r8 := (by show AllReal (after Cert.ReferenceIdeal.Hand.RC3 (after Cert.ReferenceIdeal.Hand.RB3 (after Cert.ReferenceIdeal.Hand.RA3 Z')) (Proc.devRef .tc Cert.ReferenceIdeal.main_arg8)); rw [(after_of_writes_sub Cert.ReferenceIdeal.Hand.RC3 (after Cert.ReferenceIdeal.Hand.RB3 (after Cert.ReferenceIdeal.Hand.RA3 Z')) Cert.ReferenceIdeal.Hand.RC3_writes (r := Cert.ReferenceIdeal.main_arg8) (by decide)), (after_of_writes_sub Cert.ReferenceIdeal.Hand.RB3 (after Cert.ReferenceIdeal.Hand.RA3 Z') Cert.ReferenceIdeal.Hand.RB3_writes (r := Cert.ReferenceIdeal.main_arg8) (by decide)), (after_of_writes_sub Cert.ReferenceIdeal.Hand.RA3 Z' Cert.ReferenceIdeal.Hand.RA3_writes (r := Cert.ReferenceIdeal.main_arg8) (by decide))]; exact E.r8)
    r9 := (by show AllReal (after Cert.ReferenceIdeal.Hand.RC3 (after Cert.ReferenceIdeal.Hand.RB3 (after Cert.ReferenceIdeal.Hand.RA3 Z')) (Proc.devRef .tc Cert.ReferenceIdeal.main_arg9)); rw [(after_of_writes_sub Cert.ReferenceIdeal.Hand.RC3 (after Cert.ReferenceIdeal.Hand.RB3 (after Cert.ReferenceIdeal.Hand.RA3 Z')) Cert.ReferenceIdeal.Hand.RC3_writes (r := Cert.ReferenceIdeal.main_arg9) (by decide)), (after_of_writes_sub Cert.ReferenceIdeal.Hand.RB3 (after Cert.ReferenceIdeal.Hand.RA3 Z') Cert.ReferenceIdeal.Hand.RB3_writes (r := Cert.ReferenceIdeal.main_arg9) (by decide)), (after_of_writes_sub Cert.ReferenceIdeal.Hand.RA3 Z' Cert.ReferenceIdeal.Hand.RA3_writes (r := Cert.ReferenceIdeal.main_arg9) (by decide))]; exact E.r9)
    r10 := (by show AllReal (after Cert.ReferenceIdeal.Hand.RC3 (after Cert.ReferenceIdeal.Hand.RB3 (after Cert.ReferenceIdeal.Hand.RA3 Z')) (Proc.devRef .tc Cert.ReferenceIdeal.main_arg10)); rw [(after_of_writes_sub Cert.ReferenceIdeal.Hand.RC3 (after Cert.ReferenceIdeal.Hand.RB3 (after Cert.ReferenceIdeal.Hand.RA3 Z')) Cert.ReferenceIdeal.Hand.RC3_writes (r := Cert.ReferenceIdeal.main_arg10) (by decide)), (after_of_writes_sub Cert.ReferenceIdeal.Hand.RB3 (after Cert.ReferenceIdeal.Hand.RA3 Z') Cert.ReferenceIdeal.Hand.RB3_writes (r := Cert.ReferenceIdeal.main_arg10) (by decide)), (after_of_writes_sub Cert.ReferenceIdeal.Hand.RA3 Z' Cert.ReferenceIdeal.Hand.RA3_writes (r := Cert.ReferenceIdeal.main_arg10) (by decide))]; exact E.r10)
    r11 := (by show AllReal (after Cert.ReferenceIdeal.Hand.RC3 (after Cert.ReferenceIdeal.Hand.RB3 (after Cert.ReferenceIdeal.Hand.RA3 Z')) (Proc.devRef .tc Cert.ReferenceIdeal.main_arg11)); rw [(after_of_writes_sub Cert.ReferenceIdeal.Hand.RC3 (after Cert.ReferenceIdeal.Hand.RB3 (after Cert.ReferenceIdeal.Hand.RA3 Z')) Cert.ReferenceIdeal.Hand.RC3_writes (r := Cert.ReferenceIdeal.main_arg11) (by decide)), (after_of_writes_sub Cert.ReferenceIdeal.Hand.RB3 (after Cert.ReferenceIdeal.Hand.RA3 Z') Cert.ReferenceIdeal.Hand.RB3_writes (r := Cert.ReferenceIdeal.main_arg11) (by decide)), (after_of_writes_sub Cert.ReferenceIdeal.Hand.RA3 Z' Cert.ReferenceIdeal.Hand.RA3_writes (r := Cert.ReferenceIdeal.main_arg11) (by decide))]; exact E.r11)
    r12 := (by show AllReal (after Cert.ReferenceIdeal.Hand.RC3 (after Cert.ReferenceIdeal.Hand.RB3 (after Cert.ReferenceIdeal.Hand.RA3 Z')) (Proc.devRef .tc Cert.ReferenceIdeal.main_arg12)); rw [(after_of_writes_sub Cert.ReferenceIdeal.Hand.RC3 (after Cert.ReferenceIdeal.Hand.RB3 (after Cert.ReferenceIdeal.Hand.RA3 Z')) Cert.ReferenceIdeal.Hand.RC3_writes (r := Cert.ReferenceIdeal.main_arg12) (by decide)), (after_of_writes_sub Cert.ReferenceIdeal.Hand.RB3 (after Cert.ReferenceIdeal.Hand.RA3 Z') Cert.ReferenceIdeal.Hand.RB3_writes (r := Cert.ReferenceIdeal.main_arg12) (by decide)), (after_of_writes_sub Cert.ReferenceIdeal.Hand.RA3 Z' Cert.ReferenceIdeal.Hand.RA3_writes (r := Cert.ReferenceIdeal.main_arg12) (by decide))]; exact E.r12)
    r13 := (by show AllReal (after Cert.ReferenceIdeal.Hand.RC3 (after Cert.ReferenceIdeal.Hand.RB3 (after Cert.ReferenceIdeal.Hand.RA3 Z')) (Proc.devRef .tc Cert.ReferenceIdeal.main_arg13)); rw [(after_of_writes_sub Cert.ReferenceIdeal.Hand.RC3 (after Cert.ReferenceIdeal.Hand.RB3 (after Cert.ReferenceIdeal.Hand.RA3 Z')) Cert.ReferenceIdeal.Hand.RC3_writes (r := Cert.ReferenceIdeal.main_arg13) (by decide)), (after_of_writes_sub Cert.ReferenceIdeal.Hand.RB3 (after Cert.ReferenceIdeal.Hand.RA3 Z') Cert.ReferenceIdeal.Hand.RB3_writes (r := Cert.ReferenceIdeal.main_arg13) (by decide)), (after_of_writes_sub Cert.ReferenceIdeal.Hand.RA3 Z' Cert.ReferenceIdeal.Hand.RA3_writes (r := Cert.ReferenceIdeal.main_arg13) (by decide))]; exact E.r13) }

end Cert.Proof.Core

end
-- ==== Proof.Core.Pre.lean ====
/-
  The two programs' preparations agree. Both cut the two edge lists out of the edge array by the same slices and casts; the
  kernel program also converts the two weight stacks to the 16-bit format, which at the exact instance is the identity. So
  from equal edge arrays the edge lists are equal, and the converted stacks are the reference's weight stacks.
-/
import proofs.«141748_j59863254171699_1_alg».proof.Proof.Core.Base
import proofs.«141748_j59863254171699_1_alg».proof.Proof.Gen.ReferenceIdeal

set_option maxRecDepth 65536
set_option maxHeartbeats 16000000

noncomputable section

namespace Cert.Proof.Core

open Idealize.ShloMosaic Idealize.ShloMosaic.TcCoe Idealize.SL.Sem Idealize.ShloMosaic.StableHlo Idealize.ShloMosaic.ValueIdx

/-- The first edge list. -/
theorem pre_v1 (X : KVal) (V : RVal)
    (h1 : X (Cert.KernelIdeal.main_arg1 : DevRef _ _) = V (Cert.ReferenceIdeal.main_arg1 : DevRef _ _)) :
    after Cert.KernelIdeal.Hand.pre0 X (Cert.KernelIdeal.main_v1 : DevRef _ _)
      = after Cert.ReferenceIdeal.Hand.rpre V (Cert.ReferenceIdeal.main_v1 : DevRef _ _) := by
  dsimp only [Cert.KernelIdeal.Hand.pre0, Cert.ReferenceIdeal.Hand.rpre]
  after_results_simp
  rw [h1]
  rfl

/-- The second edge list. -/
theorem pre_v3 (X : KVal) (V : RVal)
    (h1 : X (Cert.KernelIdeal.main_arg1 : DevRef _ _) = V (Cert.ReferenceIdeal.main_arg1 : DevRef _ _)) :
    after Cert.KernelIdeal.Hand.pre0 X (Cert.KernelIdeal.main_v3 : DevRef _ _)
      = after Cert.ReferenceIdeal.Hand.rpre V (Cert.ReferenceIdeal.main_v3 : DevRef _ _) := by
  dsimp only [Cert.KernelIdeal.Hand.pre0, Cert.ReferenceIdeal.Hand.rpre]
  after_results_simp
  rw [h1]
  rfl

/-- The first weight stack, converted: the stack itself. -/
theorem pre_v4 (X : KVal) (V : RVal)
    (h4 : X (Cert.KernelIdeal.main_arg4 : DevRef _ _) = V (Cert.ReferenceIdeal.main_arg4 : DevRef _ _)) :
    after Cert.KernelIdeal.Hand.pre0 X (Cert.KernelIdeal.main_v4 : DevRef _ _)
      = V (Cert.ReferenceIdeal.main_arg4 : DevRef _ _) := by
  dsimp only [Cert.KernelIdeal.Hand.pre0]
  after_results_simp
  rw [h4]
  rfl

/-- The second weight stack, converted: the stack itself. -/
theorem pre_v5 (X : KVal) (V : RVal)
    (h8 : X (Cert.KernelIdeal.main_arg8 : DevRef _ _) = V (Cert.ReferenceIdeal.main_arg8 : DevRef _ _)) :
    after Cert.KernelIdeal.Hand.pre0 X (Cert.KernelIdeal.main_v5 : DevRef _ _)
      = V (Cert.ReferenceIdeal.main_arg8 : DevRef _ _) := by
  dsimp only [Cert.KernelIdeal.Hand.pre0]
  after_results_simp
  rw [h8]
  rfl

end Cert.Proof.Core

end
-- ==== Proof.Core.Tail.lean ====
/-
  The two programs' last stretch agrees. After the third layer both scale the node features by a per-node weight, add them
  up per graph (an accumulating scatter from the zero array), multiply the pooled array by a 128 × 2 matrix and add a bias
  row: the same operations on both sides. From equal node features and equal arguments, the pooled arrays are equal and
  the outputs are equal.
-/
import proofs.«141748_j59863254171699_1_alg».proof.Proof.Core.Base
import proofs.«141748_j59863254171699_1_alg».proof.Proof.Gen.ReferenceIdeal

set_option maxRecDepth 65536
set_option maxHeartbeats 16000000

noncomputable section

namespace Cert.Proof.Core

open Idealize.ShloMosaic Idealize.ShloMosaic.TcCoe Idealize.SL.Sem Idealize.ShloMosaic.StableHlo Idealize.ShloMosaic.ValueIdx

theorem tail (Z : KVal) (Z' : RVal)
    (hx : Z (Cert.KernelIdeal.main_v179 : DevRef _ _) = Z' (Cert.ReferenceIdeal.main_v294 : DevRef _ _))
    (h2 : Z (Cert.KernelIdeal.main_arg2 : DevRef _ _) = Z' (Cert.ReferenceIdeal.main_arg2 : DevRef _ _))
    (h3 : Z (Cert.KernelIdeal.main_arg3 : DevRef _ _) = Z' (Cert.ReferenceIdeal.main_arg3 : DevRef _ _))
    (h14 : Z (Cert.KernelIdeal.main_arg14 : DevRef _ _) = Z' (Cert.ReferenceIdeal.main_arg14 : DevRef _ _))
    (h15 : Z (Cert.KernelIdeal.main_arg15 : DevRef _ _) = Z' (Cert.ReferenceIdeal.main_arg15 : DevRef _ _)) :
    after Cert.KernelIdeal.Gen.hostOps9 Z (Cert.KernelIdeal.main_v185 : DevRef _ _) = after Cert.ReferenceIdeal.Hand.RT Z' (Cert.ReferenceIdeal.main_v300 : DevRef _ _)
      ∧ after Cert.KernelIdeal.Gen.hostOps9 Z (Cert.KernelIdeal.main_v189 : DevRef _ _) = after Cert.ReferenceIdeal.Hand.RT Z' (Cert.ReferenceIdeal.main_v304 : DevRef _ _) := by
  constructor
  · dsimp only [Cert.KernelIdeal.Gen.hostOps9, Cert.ReferenceIdeal.Hand.RT]
    after_results_simp
    rw [hx, h2, h3]
    rfl
  · dsimp only [Cert.KernelIdeal.Gen.hostOps9, Cert.ReferenceIdeal.Hand.RT]
    after_results_simp
    rw [hx, h2, h3, h14, h15]
    rfl

end Cert.Proof.Core

end
-- ==== Proof.LibFiniteInputs.lean ====
/-
  A printed `jnp.all(jnp.isfinite(a))`, read back at the exact instance.

  A precondition saying that a float array is finite prints as: the absolute value of the array, the constant of
  single-precision pattern `0x7F800000` broadcast to the array's shape, the ordered comparison `<` of the two (one bit per
  entry), and a reduction of the bits by `and` over every axis from the constant 1. Several such bits are joined by `and`.

  At the exact instance a float is an extended real, the absolute value is `max x (-x)`, the pattern `0x7F800000` denotes
  `⊤` and the comparison is the order's. So the bit of one entry is 1 exactly when `max x (-x) < ⊤`; that excludes `x = ⊤`
  (then `max x (-x) = ⊤`) and `x = ⊥` (then `-x = ⊤`) and holds at every real: the bit is 1 exactly when the entry is a
  real number. A reduction by `and` that gives 1 met only 1s, and an `and` that gives 1 has both operands 1. Hence: if the
  printed test gives 1, every entry of the array is a real number.

  The facts are stated with `∃ r : ℝ, x = (r : EReal)` for "`x` is a real number", so that nothing here depends on a
  particular certificate's text.
-/
import Idealize.ShloMosaic.Lib.ReduceAll
import Idealize.ShloMosaic.PureOps.Ideal

noncomputable section

namespace Idealize.ShloMosaic.FiniteInputs

open Idealize.ShloMosaic

/-! ## One entry -/

/-- The single-precision pattern `0x7F800000` (sign clear, exponent all ones, significand zero) denotes `+∞`. -/
theorem ofBits_inf : Ideal.ofBits .f32 0x7F800000#32 = (⊤ : EReal) := by
  simp [Ideal.ofBits, Ideal.ieee]

/-- A one-bit word made from a Boolean is 1 exactly when the Boolean is true. -/
theorem ofBool_eq_one_iff {b : Bool} : BitVec.ofBool b = 1#1 ↔ b = true := by
  cases b
  · exact ⟨fun h => absurd h (by decide), fun h => absurd h (by decide)⟩
  · exact ⟨fun _ => rfl, fun _ => rfl⟩

/-- An extended real whose absolute value `max x (-x)` is strictly below `⊤` is a real number: it is not `⊤` (its absolute
    value would be `⊤`) and not `⊥` (its negation would be `⊤`). -/
theorem exists_real_of_abs_lt_top (x : EReal) (h : max x (-x) < ⊤) : ∃ r : ℝ, x = (r : EReal) := by
  have h1 : x ≠ ⊤ := ne_of_lt (lt_of_le_of_lt (le_max_left _ _) h)
  have h2 : x ≠ ⊥ := by
    rintro rfl
    have h3 : -(⊥ : EReal) < ⊤ := lt_of_le_of_lt (le_max_right _ _) h
    rw [EReal.neg_bot] at h3
    exact lt_irrefl _ h3
  exact ⟨x.toReal, (EReal.coe_toReal h1 h2).symm⟩

/-- The absolute value `max r (-r)` of a real number is strictly below `⊤`: it is the real `max r (-r)`. -/
theorem abs_coe_lt_top (r : ℝ) : max (r : EReal) (-(r : EReal)) < ⊤ :=
  max_lt (EReal.coe_lt_top r) (by rw [← EReal.coe_neg]; exact EReal.coe_lt_top (-r))

/-- The printed element test `|x| < +∞` at the exact instance: its bit is 1 exactly when `x` is a real number. -/
theorem finite_bit_iff (x : EReal) :
    Ideal.cmp .olt (max x (-x)) (Ideal.ofBits .f32 0x7F800000#32) = 1#1 ↔ ∃ r : ℝ, x = (r : EReal) := by
  rw [ofBits_inf]
  constructor
  · intro h
    exact exists_real_of_abs_lt_top x (of_decide_eq_true (ofBool_eq_one_iff.1 h))
  · rintro ⟨r, rfl⟩
    exact ofBool_eq_one_iff.2 (decide_eq_true (abs_coe_lt_top r))

/-- If the bit of the printed element test `|x| < +∞` is 1 at the exact instance, `x` is a real number. -/
theorem exists_real_of_finite_bit (x : EReal)
    (h : Ideal.cmp .olt (max x (-x)) (Ideal.ofBits .f32 0x7F800000#32) = 1#1) : ∃ r : ℝ, x = (r : EReal) :=
  (finite_bit_iff x).1 h

/-! ## One array -/

/-- A rank-0 array has one index. -/
instance subsingleton_scalar_idx : Subsingleton (⟨0, ![]⟩ : Shape).Idx := ⟨fun a b => funext fun d => d.elim0⟩

/-- The printed test at an index is the entry's: the absolute value and the comparison are elementwise, and a constant
    broadcast to the array's shape reads the constant everywhere. -/
theorem test_apply {s c : Shape} {dims : Fin c.rank → Fin s.rank} (hb : c.BroadcastsInDim s dims)
    (a : FVec Ideal s .f32) (i : s.Idx) :
    cmpf .olt (Host.absf a) (broadcastInDim s dims hb (constant c .f32 0x7F800000#32)) i
      = Ideal.cmp .olt (max (a i) (-(a i))) (Ideal.ofBits .f32 0x7F800000#32) := rfl

/-- `jnp.all(jnp.isfinite(a))` at any shape: if the reduction by `and`, over every axis (the result has one index), of the
    element tests `|a i| < +∞` is 1, every entry of `a` is a real number. A reduction by `and` that gives 1 met only 1s, and
    the test at an index is the entry's. -/
theorem all_real {s c t u : Shape} [Subsingleton t.Idx] {axes : List (Fin s.rank)} {dims : Fin c.rank → Fin s.rank}
    (hb : c.BroadcastsInDim s dims) (hr : s.ReducesTo axes t) (hu : 0 < u.numel)
    (init : IVec u 1) (a : FVec Ideal s .f32) (j : t.Idx)
    (e : Host.reduce IntOp.andi
        (cmpf .olt (Host.absf a) (broadcastInDim s dims hb (constant c .f32 0x7F800000#32))) init hr hu j = 1#1)
    (i : s.Idx) : ∃ r : ℝ, a i = (r : EReal) := by
  have t1 := Host.reduce_andi_all _ init hr hu j e i
  rw [test_apply] at t1
  exact exists_real_of_finite_bit (a i) t1

/-! ## Several arrays -/

/-- An elementwise `and` of two one-bit arrays that is 1 at an index has both operands 1 there. -/
theorem andi_split {s : Shape} {x y : IVec s 1} {j : s.Idx} (h : andi x y j = 1#1) : x j = 1#1 ∧ y j = 1#1 :=
  IntOp.andi_eq_one.1 h

end Idealize.ShloMosaic.FiniteInputs

end
-- ==== Proof.Finite.lean ====
/-
  The precondition, decoded: if the printed test "every float argument is finite" gives 1, every entry of every float
  argument array is a real number.

  The test is, per float argument, the reduction by "and" over every axis of the entrywise comparisons |a i| < +∞, and the
  "and" of these fourteen bits, nested to the left. An "and" that is 1 has both operands 1; a reduction by "and" that is 1 met
  only 1s; and the comparison's bit is 1 exactly at a real number.
-/
import proofs.«141748_j59863254171699_1_alg».proof.Pre_finite_inputs
import proofs.«141748_j59863254171699_1_alg».proof.Proof.LibFiniteInputs
import proofs.«141748_j59863254171699_1_alg».proof.Proof.LibRealArrays
import Idealize.ShloMosaic.Lib.ValueIdx

noncomputable section

namespace Cert.Proof.Finite

open Idealize.ShloMosaic Idealize.ShloMosaic.FiniteInputs Cert.Lib Cert.Pre_finite_inputs

/-- Under the precondition every float argument array has real entries (the two integer arguments are not tested). -/
theorem real_args [Cert.Pre_finite_inputs.Facts] (a0 : FVec Ideal S100000x128 .f32) (a1 : IVec S2x1600000 32) (a2 : FVec Ideal S100000 .f32) (a3 : IVec S100000 32) (a4 : FVec Ideal S3x128x128 .f32) (a5 : FVec Ideal S3x128 .f32) (a6 : FVec Ideal S3x128 .f32) (a7 : FVec Ideal S3x128 .f32) (a8 : FVec Ideal S3x128x128 .f32) (a9 : FVec Ideal S3x128 .f32) (a10 : FVec Ideal S3x128 .f32) (a11 : FVec Ideal S3x128 .f32) (a12 : FVec Ideal S3x128 .f32) (a13 : FVec Ideal S3x128 .f32) (a14 : FVec Ideal S128x2 .f32) (a15 : FVec Ideal S2 .f32)
    (h : Cert.Pre_finite_inputs.fn (F := Ideal) a0 a1 a2 a3 a4 a5 a6 a7 a8 a9 a10 a11 a12 a13 a14 a15 = fun _ => 1#1) :
    AllReal a0 ∧ AllReal a2 ∧ AllReal a4 ∧ AllReal a5 ∧ AllReal a6 ∧ AllReal a7 ∧ AllReal a8 ∧ AllReal a9 ∧ AllReal a10 ∧ AllReal a11 ∧ AllReal a12 ∧ AllReal a13 ∧ AllReal a14 ∧ AllReal a15 := by
  have h0 := congrFun h ValueIdx.ix0
  dsimp only [fn, fn_part1, fn_part2, fn_part3, fn_part4] at h0
  obtain ⟨h0, h15⟩ := andi_split h0
  obtain ⟨h0, h14⟩ := andi_split h0
  obtain ⟨h0, h13⟩ := andi_split h0
  obtain ⟨h0, h12⟩ := andi_split h0
  obtain ⟨h0, h11⟩ := andi_split h0
  obtain ⟨h0, h10⟩ := andi_split h0
  obtain ⟨h0, h9⟩ := andi_split h0
  obtain ⟨h0, h8⟩ := andi_split h0
  obtain ⟨h0, h7⟩ := andi_split h0
  obtain ⟨h0, h6⟩ := andi_split h0
  obtain ⟨h0, h5⟩ := andi_split h0
  obtain ⟨h0, h4⟩ := andi_split h0
  obtain ⟨h0, h2⟩ := andi_split h0
  exact ⟨fun i => all_real _ _ _ _ a0 _ h0 i,
    fun i => all_real _ _ _ _ a2 _ h2 i,
    fun i => all_real _ _ _ _ a4 _ h4 i,
    fun i => all_real _ _ _ _ a5 _ h5 i,
    fun i => all_real _ _ _ _ a6 _ h6 i,
    fun i => all_real _ _ _ _ a7 _ h7 i,
    fun i => all_real _ _ _ _ a8 _ h8 i,
    fun i => all_real _ _ _ _ a9 _ h9 i,
    fun i => all_real _ _ _ _ a10 _ h10 i,
    fun i => all_real _ _ _ _ a11 _ h11 i,
    fun i => all_real _ _ _ _ a12 _ h12 i,
    fun i => all_real _ _ _ _ a13 _ h13 i,
    fun i => all_real _ _ _ _ a14 _ h14 i,
    fun i => all_real _ _ _ _ a15 _ h15 i⟩

end Cert.Proof.Finite

end
-- ==== Proof.Core.Alg.lean ====
/-
  The two programs' results are one function of the arguments.

  Under the precondition every float argument has real entries. On every core: the preparation gives both programs the same
  edge lists and (the format conversion being the identity on the extended reals) the same weights; through each of the three
  layers the node features stay equal and real (the stage lemmas, the third by the law of the normalised column's statistics);
  the readout is the same operations on equal operands. The kernel program's run ends with every buffer at its fold's last
  valuation, the reference's with every buffer at the fold of its operations: the three results agree, the arguments are kept.
-/
import proofs.«141748_j59863254171699_1_alg».proof.Defs
import proofs.«141748_j59863254171699_1_alg».proof.Proof.Core.Layer1
import proofs.«141748_j59863254171699_1_alg».proof.Proof.Core.Layer2
import proofs.«141748_j59863254171699_1_alg».proof.Proof.Core.Layer3
import proofs.«141748_j59863254171699_1_alg».proof.Proof.Core.Pre
import proofs.«141748_j59863254171699_1_alg».proof.Proof.Core.Tail
import proofs.«141748_j59863254171699_1_alg».proof.Proof.Finite
import proofs.«141748_j59863254171699_1_alg».proof.Proof.Gen.KernelIdeal
import proofs.«141748_j59863254171699_1_alg».proof.Proof.Gen.ReferenceIdeal
import proofs.«141748_j59863254171699_1_alg».proof.Proof.Gen.Pre_finite_inputs

set_option maxRecDepth 65536
set_option maxHeartbeats 4000000

noncomputable section

namespace Cert.Proof.Core

open Idealize.ShloMosaic Idealize.ShloMosaic.TcCoe Idealize.SL.Sem Idealize.ShloMosaic.StableHlo Cert.Lib

/-- On one core: the kernel program's last valuation and the reference's fold agree at the three results. -/
theorem core (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : KD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) = fun _ => 1#1)
    (g0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (g1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (g2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (g3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (g4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (g5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (g6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (g7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (g8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (g9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (g10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (g11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (g12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (g13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (g14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (g15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    after Cert.ReferenceIdeal.Hand.ops (launchContents m' c) (Cert.ReferenceIdeal.main_v294 : DevRef _ _) = Cert.KernelIdeal.Hand.X31 (F := Ideal) m c (Cert.KernelIdeal.main_v179 : DevRef _ _)
    ∧ after Cert.ReferenceIdeal.Hand.ops (launchContents m' c) (Cert.ReferenceIdeal.main_v300 : DevRef _ _) = Cert.KernelIdeal.Hand.X31 (F := Ideal) m c (Cert.KernelIdeal.main_v185 : DevRef _ _)
    ∧ after Cert.ReferenceIdeal.Hand.ops (launchContents m' c) (Cert.ReferenceIdeal.main_v304 : DevRef _ _) = Cert.KernelIdeal.Hand.X31 (F := Ideal) m c (Cert.KernelIdeal.main_v189 : DevRef _ _) := by
  obtain ⟨q0, q2, q4, q5, q6, q7, q8, q9, q10, q11, q12, q13, q14, q15⟩ := Cert.Proof.Finite.real_args _ _ _ _ _ _ _ _ _ _ _ _ _ _ _ _ hpre
  -- the two programs' valuations after their preparations
  let V : RVal := launchContents m' c
  let Z : KD → KVal := Cert.KernelIdeal.Hand.E1 (F := Ideal) m
  let Z' : RVal := after Cert.ReferenceIdeal.Hand.rpre V
  have kp : ∀ (r : Ref Cert.KernelIdeal.sig .tc), r ∉ (Cert.KernelIdeal.Hand.pre0_W) → Z c (Proc.devRef .tc r) = m ((c.tc : Thread Cert.KernelIdeal.nD Cert.KernelIdeal.τ).loc r) :=
    fun r h => Cert.KernelIdeal.Hand.keep_pre0 (Cert.KernelIdeal.Hand.X0 m c) r h
  have rp : ∀ (r : Ref Cert.ReferenceIdeal.sig .tc), r ∉ (Cert.ReferenceIdeal.Hand.rpre_W) → Z' (Proc.devRef .tc r) = m' ((c.tc : Thread Cert.ReferenceIdeal.nD Cert.ReferenceIdeal.τ).loc r) :=
    fun r h => Cert.ReferenceIdeal.Hand.keep_pre V r h
  have E : Env Z Z' c := {
    s := pre_v1 (Cert.KernelIdeal.Hand.X0 m c) V g1.symm
    d := pre_v3 (Cert.KernelIdeal.Hand.X0 m c) V g1.symm
    w1 := (pre_v4 (Cert.KernelIdeal.Hand.X0 m c) V g4.symm).trans (rp Cert.ReferenceIdeal.main_arg4 (by decide)).symm
    w2 := (pre_v5 (Cert.KernelIdeal.Hand.X0 m c) V g8.symm).trans (rp Cert.ReferenceIdeal.main_arg8 (by decide)).symm
    a2 := (kp Cert.KernelIdeal.main_arg2 (by decide)).trans (g2.symm.trans (rp Cert.ReferenceIdeal.main_arg2 (by decide)).symm)
    a3 := (kp Cert.KernelIdeal.main_arg3 (by decide)).trans (g3.symm.trans (rp Cert.ReferenceIdeal.main_arg3 (by decide)).symm)
    a5 := (kp Cert.KernelIdeal.main_arg5 (by decide)).trans (g5.symm.trans (rp Cert.ReferenceIdeal.main_arg5 (by decide)).symm)
    a6 := (kp Cert.KernelIdeal.main_arg6 (by decide)).trans (g6.symm.trans (rp Cert.ReferenceIdeal.main_arg6 (by decide)).symm)
    a7 := (kp Cert.KernelIdeal.main_arg7 (by decide)).trans (g7.symm.trans (rp Cert.ReferenceIdeal.main_arg7 (by decide)).symm)
    a9 := (kp Cert.KernelIdeal.main_arg9 (by decide)).trans (g9.symm.trans (rp Cert.ReferenceIdeal.main_arg9 (by decide)).symm)
    a10 := (kp Cert.KernelIdeal.main_arg10 (by decide)).trans (g10.symm.trans (rp Cert.ReferenceIdeal.main_arg10 (by decide)).symm)
    a11 := (kp Cert.KernelIdeal.main_arg11 (by decide)).trans (g11.symm.trans (rp Cert.ReferenceIdeal.main_arg11 (by decide)).symm)
    a12 := (kp Cert.KernelIdeal.main_arg12 (by decide)).trans (g12.symm.trans (rp Cert.ReferenceIdeal.main_arg12 (by decide)).symm)
    a13 := (kp Cert.KernelIdeal.main_arg13 (by decide)).trans (g13.symm.trans (rp Cert.ReferenceIdeal.main_arg13 (by decide)).symm)
    a14 := (kp Cert.KernelIdeal.main_arg14 (by decide)).trans (g14.symm.trans (rp Cert.ReferenceIdeal.main_arg14 (by decide)).symm)
    a15 := (kp Cert.KernelIdeal.main_arg15 (by decide)).trans (g15.symm.trans (rp Cert.ReferenceIdeal.main_arg15 (by decide)).symm)
    r4 := by rw [rp Cert.ReferenceIdeal.main_arg4 (by decide), g4]; exact q4
    r5 := by rw [rp Cert.ReferenceIdeal.main_arg5 (by decide), g5]; exact q5
    r6 := by rw [rp Cert.ReferenceIdeal.main_arg6 (by decide), g6]; exact q6
    r7 := by rw [rp Cert.ReferenceIdeal.main_arg7 (by decide), g7]; exact q7
    r8 := by rw [rp Cert.ReferenceIdeal.main_arg8 (by decide), g8]; exact q8
    r9 := by rw [rp Cert.ReferenceIdeal.main_arg9 (by decide), g9]; exact q9
    r10 := by rw [rp Cert.ReferenceIdeal.main_arg10 (by decide), g10]; exact q10
    r11 := by rw [rp Cert.ReferenceIdeal.main_arg11 (by decide), g11]; exact q11
    r12 := by rw [rp Cert.ReferenceIdeal.main_arg12 (by decide), g12]; exact q12
    r13 := by rw [rp Cert.ReferenceIdeal.main_arg13 (by decide), g13]; exact q13 }
  have hx : Z c (Cert.KernelIdeal.main_arg0 : DevRef _ _) = Z' (Cert.ReferenceIdeal.main_arg0 : DevRef _ _) :=
    (kp Cert.KernelIdeal.main_arg0 (by decide)).trans (g0.symm.trans (rp Cert.ReferenceIdeal.main_arg0 (by decide)).symm)
  have rx : AllReal (Z' (Cert.ReferenceIdeal.main_arg0 : DevRef _ _)) := by rw [rp Cert.ReferenceIdeal.main_arg0 (by decide), g0]; exact q0
  obtain ⟨h1, r1, E1⟩ := layer1 Z Z' c E hx rx
  obtain ⟨h2, r2, E2⟩ := layer2 _ _ c E1 h1 r1
  obtain ⟨h3, r3, E3⟩ := layer3 _ _ c E2 h2 r2
  -- the folds in stages
  have hY : after Cert.ReferenceIdeal.Hand.ops V = after Cert.ReferenceIdeal.Hand.RT (Cert.ReferenceIdeal.Hand.R3 (Cert.ReferenceIdeal.Hand.R2 (Cert.ReferenceIdeal.Hand.R1 Z'))) :=
    (Cert.ReferenceIdeal.Hand.after_ops V).trans (by
      show after Cert.ReferenceIdeal.Hand.RT (Cert.ReferenceIdeal.Hand.R3 (Cert.ReferenceIdeal.Hand.R2 (Cert.ReferenceIdeal.Hand.Y3 V))) = _
      rw [Cert.ReferenceIdeal.Hand.Y3_eq])
  have hX : Cert.KernelIdeal.Hand.X31 (F := Ideal) m c = after Cert.KernelIdeal.Gen.hostOps9 (Cert.KernelIdeal.Hand.L3C' (Cert.KernelIdeal.Hand.L2C' (Cert.KernelIdeal.Hand.L1C' Z)) c) := by
    show after Cert.KernelIdeal.Gen.hostOps9 (Cert.KernelIdeal.Hand.X30 m c) = _
    rw [Cert.KernelIdeal.Hand.X30_eq, Cert.KernelIdeal.Hand.X20_eq, Cert.KernelIdeal.Hand.X10_eq]
  obtain ⟨t1, t2⟩ := tail (Cert.KernelIdeal.Hand.L3C' (Cert.KernelIdeal.Hand.L2C' (Cert.KernelIdeal.Hand.L1C' Z)) c) (Cert.ReferenceIdeal.Hand.R3 (Cert.ReferenceIdeal.Hand.R2 (Cert.ReferenceIdeal.Hand.R1 Z'))) h3 E3.a2 E3.a3 E3.a14 E3.a15
  rw [hY, hX]
  refine ⟨?_, t1.symm, t2.symm⟩
  rw [Cert.ReferenceIdeal.Hand.keepT _ Cert.ReferenceIdeal.main_v294 (by decide), after_of_writes_sub Cert.KernelIdeal.Gen.hostOps9 _ Cert.KernelIdeal.Gen.hostOps9_writes (r := Cert.KernelIdeal.main_v179) (by decide)]
  exact h3.symm

end Cert.Proof.Core

namespace Cert.Proof

open Idealize.ShloMosaic Idealize.ShloMosaic.TcCoe Idealize.SL.Sem Idealize.ShloMosaic.StableHlo

theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m g m' g' hpre hagree
  have C := fun c => by
    obtain ⟨g0, g1, g2, g3, g4, g5, g6, g7, g8, g9, g10, g11, g12, g13, g14, g15⟩ := hagree c
    exact Cert.Proof.Core.core m m' c (hpre c) g0 g1 g2 g3 g4 g5 g6 g7 g8 g9 g10 g11 g12 g13 g14 g15
  refine ⟨fun c => Cert.KernelIdeal.Hand.X31 (F := Ideal) m c (Cert.KernelIdeal.main_v179 : DevRef _ _), fun c => Cert.KernelIdeal.Hand.X31 (F := Ideal) m c (Cert.KernelIdeal.main_v185 : DevRef _ _),
    fun c => Cert.KernelIdeal.Hand.X31 (F := Ideal) m c (Cert.KernelIdeal.main_v189 : DevRef _ _), ?_, ?_⟩
  · refine (θ_run _ _ _).mono (fun r h c => ?_) (Cert.KernelIdeal.Hand.run (F := Ideal) m g)
    exact ⟨(h c (Proc.devRef .tc Cert.KernelIdeal.main_v179) (Finset.mem_filter.mpr ⟨StableHlo.devRef_mem_tcRefs Cert.KernelIdeal.main_v179, by decide⟩)), (h c (Proc.devRef .tc Cert.KernelIdeal.main_v185) (Finset.mem_filter.mpr ⟨StableHlo.devRef_mem_tcRefs Cert.KernelIdeal.main_v185, by decide⟩)), (h c (Proc.devRef .tc Cert.KernelIdeal.main_v189) (Finset.mem_filter.mpr ⟨StableHlo.devRef_mem_tcRefs Cert.KernelIdeal.main_v189, by decide⟩)),
      (h c (Proc.devRef .tc Cert.KernelIdeal.main_arg0) (Finset.mem_filter.mpr ⟨StableHlo.devRef_mem_tcRefs Cert.KernelIdeal.main_arg0, by decide⟩)).trans ((congrFun (Cert.KernelIdeal.Hand.hV31 m c) _).symm.trans (Cert.KernelIdeal.Gen.V31_main_arg0 m (Cert.KernelIdeal.Hand.outs m) c)),
      (h c (Proc.devRef .tc Cert.KernelIdeal.main_arg1) (Finset.mem_filter.mpr ⟨StableHlo.devRef_mem_tcRefs Cert.KernelIdeal.main_arg1, by decide⟩)).trans ((congrFun (Cert.KernelIdeal.Hand.hV31 m c) _).symm.trans (Cert.KernelIdeal.Gen.V31_main_arg1 m (Cert.KernelIdeal.Hand.outs m) c)),
      (h c (Proc.devRef .tc Cert.KernelIdeal.main_arg2) (Finset.mem_filter.mpr ⟨StableHlo.devRef_mem_tcRefs Cert.KernelIdeal.main_arg2, by decide⟩)).trans ((congrFun (Cert.KernelIdeal.Hand.hV31 m c) _).symm.trans (Cert.KernelIdeal.Gen.V31_main_arg2 m (Cert.KernelIdeal.Hand.outs m) c)),
      (h c (Proc.devRef .tc Cert.KernelIdeal.main_arg3) (Finset.mem_filter.mpr ⟨StableHlo.devRef_mem_tcRefs Cert.KernelIdeal.main_arg3, by decide⟩)).trans ((congrFun (Cert.KernelIdeal.Hand.hV31 m c) _).symm.trans (Cert.KernelIdeal.Gen.V31_main_arg3 m (Cert.KernelIdeal.Hand.outs m) c)),
      (h c (Proc.devRef .tc Cert.KernelIdeal.main_arg4) (Finset.mem_filter.mpr ⟨StableHlo.devRef_mem_tcRefs Cert.KernelIdeal.main_arg4, by decide⟩)).trans ((congrFun (Cert.KernelIdeal.Hand.hV31 m c) _).symm.trans (Cert.KernelIdeal.Gen.V31_main_arg4 m (Cert.KernelIdeal.Hand.outs m) c)),
      (h c (Proc.devRef .tc Cert.KernelIdeal.main_arg5) (Finset.mem_filter.mpr ⟨StableHlo.devRef_mem_tcRefs Cert.KernelIdeal.main_arg5, by decide⟩)).trans ((congrFun (Cert.KernelIdeal.Hand.hV31 m c) _).symm.trans (Cert.KernelIdeal.Gen.V31_main_arg5 m (Cert.KernelIdeal.Hand.outs m) c)),
      (h c (Proc.devRef .tc Cert.KernelIdeal.main_arg6) (Finset.mem_filter.mpr ⟨StableHlo.devRef_mem_tcRefs Cert.KernelIdeal.main_arg6, by decide⟩)).trans ((congrFun (Cert.KernelIdeal.Hand.hV31 m c) _).symm.trans (Cert.KernelIdeal.Gen.V31_main_arg6 m (Cert.KernelIdeal.Hand.outs m) c)),
      (h c (Proc.devRef .tc Cert.KernelIdeal.main_arg7) (Finset.mem_filter.mpr ⟨StableHlo.devRef_mem_tcRefs Cert.KernelIdeal.main_arg7, by decide⟩)).trans ((congrFun (Cert.KernelIdeal.Hand.hV31 m c) _).symm.trans (Cert.KernelIdeal.Gen.V31_main_arg7 m (Cert.KernelIdeal.Hand.outs m) c)),
      (h c (Proc.devRef .tc Cert.KernelIdeal.main_arg8) (Finset.mem_filter.mpr ⟨StableHlo.devRef_mem_tcRefs Cert.KernelIdeal.main_arg8, by decide⟩)).trans ((congrFun (Cert.KernelIdeal.Hand.hV31 m c) _).symm.trans (Cert.KernelIdeal.Gen.V31_main_arg8 m (Cert.KernelIdeal.Hand.outs m) c)),
      (h c (Proc.devRef .tc Cert.KernelIdeal.main_arg9) (Finset.mem_filter.mpr ⟨StableHlo.devRef_mem_tcRefs Cert.KernelIdeal.main_arg9, by decide⟩)).trans ((congrFun (Cert.KernelIdeal.Hand.hV31 m c) _).symm.trans (Cert.KernelIdeal.Gen.V31_main_arg9 m (Cert.KernelIdeal.Hand.outs m) c)),
      (h c (Proc.devRef .tc Cert.KernelIdeal.main_arg10) (Finset.mem_filter.mpr ⟨StableHlo.devRef_mem_tcRefs Cert.KernelIdeal.main_arg10, by decide⟩)).trans ((congrFun (Cert.KernelIdeal.Hand.hV31 m c) _).symm.trans (Cert.KernelIdeal.Gen.V31_main_arg10 m (Cert.KernelIdeal.Hand.outs m) c)),
      (h c (Proc.devRef .tc Cert.KernelIdeal.main_arg11) (Finset.mem_filter.mpr ⟨StableHlo.devRef_mem_tcRefs Cert.KernelIdeal.main_arg11, by decide⟩)).trans ((congrFun (Cert.KernelIdeal.Hand.hV31 m c) _).symm.trans (Cert.KernelIdeal.Gen.V31_main_arg11 m (Cert.KernelIdeal.Hand.outs m) c)),
      (h c (Proc.devRef .tc Cert.KernelIdeal.main_arg12) (Finset.mem_filter.mpr ⟨StableHlo.devRef_mem_tcRefs Cert.KernelIdeal.main_arg12, by decide⟩)).trans ((congrFun (Cert.KernelIdeal.Hand.hV31 m c) _).symm.trans (Cert.KernelIdeal.Gen.V31_main_arg12 m (Cert.KernelIdeal.Hand.outs m) c)),
      (h c (Proc.devRef .tc Cert.KernelIdeal.main_arg13) (Finset.mem_filter.mpr ⟨StableHlo.devRef_mem_tcRefs Cert.KernelIdeal.main_arg13, by decide⟩)).trans ((congrFun (Cert.KernelIdeal.Hand.hV31 m c) _).symm.trans (Cert.KernelIdeal.Gen.V31_main_arg13 m (Cert.KernelIdeal.Hand.outs m) c)),
      (h c (Proc.devRef .tc Cert.KernelIdeal.main_arg14) (Finset.mem_filter.mpr ⟨StableHlo.devRef_mem_tcRefs Cert.KernelIdeal.main_arg14, by decide⟩)).trans ((congrFun (Cert.KernelIdeal.Hand.hV31 m c) _).symm.trans (Cert.KernelIdeal.Gen.V31_main_arg14 m (Cert.KernelIdeal.Hand.outs m) c)),
      (h c (Proc.devRef .tc Cert.KernelIdeal.main_arg15) (Finset.mem_filter.mpr ⟨StableHlo.devRef_mem_tcRefs Cert.KernelIdeal.main_arg15, by decide⟩)).trans ((congrFun (Cert.KernelIdeal.Hand.hV31 m c) _).symm.trans (Cert.KernelIdeal.Gen.V31_main_arg15 m (Cert.KernelIdeal.Hand.outs m) c))⟩
  · refine (θ_run _ _ _).mono (fun r h c => ?_) (Cert.ReferenceIdeal.Hand.run (F := Ideal) m' g')
    obtain ⟨c1, c2, c3⟩ := C c
    exact ⟨(h c _).trans c1, (h c _).trans c2, (h c _).trans c3,
      (h c Cert.ReferenceIdeal.main_arg0).trans (Cert.ReferenceIdeal.Hand.after_arg _ Cert.ReferenceIdeal.main_arg0 (by decide) (by decide) (by decide) (by decide) (by decide) (by decide)),
      (h c Cert.ReferenceIdeal.main_arg1).trans (Cert.ReferenceIdeal.Hand.after_arg _ Cert.ReferenceIdeal.main_arg1 (by decide) (by decide) (by decide) (by decide) (by decide) (by decide)),
      (h c Cert.ReferenceIdeal.main_arg2).trans (Cert.ReferenceIdeal.Hand.after_arg _ Cert.ReferenceIdeal.main_arg2 (by decide) (by decide) (by decide) (by decide) (by decide) (by decide)),
      (h c Cert.ReferenceIdeal.main_arg3).trans (Cert.ReferenceIdeal.Hand.after_arg _ Cert.ReferenceIdeal.main_arg3 (by decide) (by decide) (by decide) (by decide) (by decide) (by decide)),
      (h c Cert.ReferenceIdeal.main_arg4).trans (Cert.ReferenceIdeal.Hand.after_arg _ Cert.ReferenceIdeal.main_arg4 (by decide) (by decide) (by decide) (by decide) (by decide) (by decide)),
      (h c Cert.ReferenceIdeal.main_arg5).trans (Cert.ReferenceIdeal.Hand.after_arg _ Cert.ReferenceIdeal.main_arg5 (by decide) (by decide) (by decide) (by decide) (by decide) (by decide)),
      (h c Cert.ReferenceIdeal.main_arg6).trans (Cert.ReferenceIdeal.Hand.after_arg _ Cert.ReferenceIdeal.main_arg6 (by decide) (by decide) (by decide) (by decide) (by decide) (by decide)),
      (h c Cert.ReferenceIdeal.main_arg7).trans (Cert.ReferenceIdeal.Hand.after_arg _ Cert.ReferenceIdeal.main_arg7 (by decide) (by decide) (by decide) (by decide) (by decide) (by decide)),
      (h c Cert.ReferenceIdeal.main_arg8).trans (Cert.ReferenceIdeal.Hand.after_arg _ Cert.ReferenceIdeal.main_arg8 (by decide) (by decide) (by decide) (by decide) (by decide) (by decide)),
      (h c Cert.ReferenceIdeal.main_arg9).trans (Cert.ReferenceIdeal.Hand.after_arg _ Cert.ReferenceIdeal.main_arg9 (by decide) (by decide) (by decide) (by decide) (by decide) (by decide)),
      (h c Cert.ReferenceIdeal.main_arg10).trans (Cert.ReferenceIdeal.Hand.after_arg _ Cert.ReferenceIdeal.main_arg10 (by decide) (by decide) (by decide) (by decide) (by decide) (by decide)),
      (h c Cert.ReferenceIdeal.main_arg11).trans (Cert.ReferenceIdeal.Hand.after_arg _ Cert.ReferenceIdeal.main_arg11 (by decide) (by decide) (by decide) (by decide) (by decide) (by decide)),
      (h c Cert.ReferenceIdeal.main_arg12).trans (Cert.ReferenceIdeal.Hand.after_arg _ Cert.ReferenceIdeal.main_arg12 (by decide) (by decide) (by decide) (by decide) (by decide) (by decide)),
      (h c Cert.ReferenceIdeal.main_arg13).trans (Cert.ReferenceIdeal.Hand.after_arg _ Cert.ReferenceIdeal.main_arg13 (by decide) (by decide) (by decide) (by decide) (by decide) (by decide)),
      (h c Cert.ReferenceIdeal.main_arg14).trans (Cert.ReferenceIdeal.Hand.after_arg _ Cert.ReferenceIdeal.main_arg14 (by decide) (by decide) (by decide) (by decide) (by decide) (by decide)),
      (h c Cert.ReferenceIdeal.main_arg15).trans (Cert.ReferenceIdeal.Hand.after_arg _ Cert.ReferenceIdeal.main_arg15 (by decide) (by decide) (by decide) (by decide) (by decide) (by decide))⟩

end Cert.Proof

end
-- ==== Proof.lean ====
/-
  Three layers of graph-isomorphism message passing with batch normalisation, a weighted graph readout and a linear
  classifier, over 100000 nodes and 1600000 edges, at feature width 128.

  Per layer both programs compute, from the node features x:
      agg = the sum over incoming edges of the source rows (a gather and a scatter-add),
      p1  = (agg + x) W1 + b1,
      p2  = N(p1; g1, bt1) W2 + b2,
      h2  = N(p2; g2, bt2),
      x'  = max (N(h2; og, ob)) 0,
  where N(h; g, b) = (h − mean h) · rsqrt (var h + ε) · g + b normalises every feature column with its own batch mean and
  (biased) batch variance over the 100000 rows. The kernel computes p1, p2 and x' block by block of 5000 rows in three
  pipelined kernels per layer (nine regions of @main), the statistics in between on the host; the reference is one host
  program. They differ in ONE place: for the outermost normalisation the reference computes the mean and variance of h2 by
  two more passes over the rows, the kernel takes the closed forms  mean h2 = bt2  and  var h2 = g2² · var p2 / (var p2 + ε)
  (the deviations from a mean sum to zero; the reciprocal square root squared is the reciprocal of a positive number). Over
  the reals the two agree (LibBnOfBn.lean, stats_bn); the law cancels and distributes, so it is used on REAL entries, which is
  what the precondition (every float input finite) gives through sums, products and reciprocal square roots of positive
  numbers.

  The equality of the results (Core/Alg.lean): the precondition makes every float argument real; on every core the two programs
  prepare the same edge lists and weights; through each layer the node features stay equal and real — the first two stages by
  reading the kernels' output arrays and the reference's compositions as the same index formulas (Spec.lean), the third by the
  law above per feature column (SpecLaw.lean) — and the readout is the same operations on equal operands.

  The reference's frame: its @main unfolds to 546 host operations in a straight line, none of which writes an argument
  (RF/Run.lean). The frames of the two kernel programs: @main is thirty-one items (host stretches and nine kernel regions); each region
  is a class-A record over "every unscoped buffer at a valuation" (LibRegionA.lean), three of them with two windows on one
  array (LibSharedArrays.lean), assembled by the generated conditional frame (KB/Frame.lean at the word-level instance,
  KI/Frame.lean at the exact one). The idealisation rewrote nothing, so it is preserved trivially.
-/
import proofs.«141748_j59863254171699_1_alg».proof.Defs
import proofs.«141748_j59863254171699_1_alg».proof.Proof.Gen.Kernel
import proofs.«141748_j59863254171699_1_alg».proof.Proof.Gen.KernelIdeal
import proofs.«141748_j59863254171699_1_alg».proof.Proof.Gen.ReferenceIdeal
import proofs.«141748_j59863254171699_1_alg».proof.Proof.Gen.Pre_finite_inputs
import proofs.«141748_j59863254171699_1_alg».proof.Proof.KB.Frame
import proofs.«141748_j59863254171699_1_alg».proof.Proof.KI.Frame
import proofs.«141748_j59863254171699_1_alg».proof.Proof.RF.Run
import proofs.«141748_j59863254171699_1_alg».proof.Proof.Core.Alg
import proofs.«141748_j59863254171699_1_alg».proof.Proof.LibBnOfBn
import proofs.«141748_j59863254171699_1_alg».proof.Proof.LibRealArrays
import Idealize.ShloMosaic.Adequacy
import Idealize.ShloMosaic.Init

noncomputable section

namespace Cert.Proof

open Idealize.ShloMosaic Idealize.SL.Sem

/-- The word-level program runs to the end, faults nowhere and leaves its arguments unchanged (it does so from ANY memory). -/
theorem frame_kernel : Cert.frame_Kernel (hKernel := Cert.Kernel.Gen.facts) (hPre_finite_inputs := Cert.Pre_finite_inputs.Gen.facts) :=
  fun m ρ _ => Cert.Kernel.Hand.frame (F := Bits) m ρ

/-- The same of its idealisation, at the exact instance. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference is a straight line of host operations none of which writes an argument. -/
theorem frame_reference : Cert.frame_ReferenceIdeal (hReferenceIdeal := Cert.ReferenceIdeal.Gen.facts) (hPre_finite_inputs := Cert.Pre_finite_inputs.Gen.facts) :=
  fun m ρ _ => Cert.ReferenceIdeal.Hand.frame (F := Ideal) m ρ

/-- The ideal pass rewrote no operation. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_kernel, frame_kernelIdeal,
  frame_reference,
  preserves,
  Cert.Proof.algebraic⟩

end Cert.Proof

end
